-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_102400" .f32 0x3723D70A#32 ((1 / 102400 : ℝ) : EReal)
  ∧ IdealRules.named_const.Statement Cert.KernelIdeal.κ "inv_25600" .f32 0x3823D70A#32 ((1 / 25600 : ℝ) : EReal)
  ∧ IdealRules.named_const.Statement Cert.KernelIdeal.κ "inv_6400" .f32 0x3923D70A#32 ((1 / 6400 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v279)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v279) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v424) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x144x80x80 : Shape := ⟨4, ![16, 144, 80, 80]⟩
abbrev S16x144x40x40 : Shape := ⟨4, ![16, 144, 40, 40]⟩
abbrev S16x144x20x20 : Shape := ⟨4, ![16, 144, 20, 20]⟩
abbrev S16x32x4 : Shape := ⟨3, ![16, 32, 4]⟩
abbrev S16x32 : Shape := ⟨2, ![16, 32]⟩
abbrev S_ : Shape := ⟨0, ![]⟩

class Facts : Prop where
  bcast_S_S16x144x80x80 : S_.BroadcastsInDim S16x144x80x80 (![] : Fin 0 → Fin S16x144x80x80.rank)
  reducesTo_S16x144x80x80_S_d0_1_2_3 : S16x144x80x80.ReducesTo [0, 1, 2, 3] S_
  h_S_ : 0 < S_.numel
  bcast_S_S16x144x40x40 : S_.BroadcastsInDim S16x144x40x40 (![] : Fin 0 → Fin S16x144x40x40.rank)
  reducesTo_S16x144x40x40_S_d0_1_2_3 : S16x144x40x40.ReducesTo [0, 1, 2, 3] S_
  bcast_S_S16x144x20x20 : S_.BroadcastsInDim S16x144x20x20 (![] : Fin 0 → Fin S16x144x20x20.rank)
  reducesTo_S16x144x20x20_S_d0_1_2_3 : S16x144x20x20.ReducesTo [0, 1, 2, 3] S_
  bcast_S_S16x32x4 : S_.BroadcastsInDim S16x32x4 (![] : Fin 0 → Fin S16x32x4.rank)
  reducesTo_S16x32x4_S_d0_1_2 : S16x32x4.ReducesTo [0, 1, 2] S_

variable [Facts]

def fn_part1 {F : FTy → Type} [FloatOps F] (main_v13 : IVec S_ 1) (main_v16 : IVec S16x32x4 1) : IVec S_ 1 :=
  let main_c_5 : IVec S_ 1 := constantI S_ 1 1#1
  let main_v17 : IVec S_ 1 := (fun x v => Host.reduce IntOp.andi x v reducesTo_S16x32x4_S_d0_1_2 h_S_) main_v16 main_c_5
  let main_v18 : IVec S_ 1 := andi main_v13 main_v17
  main_v18

def fn {F : FTy → Type} [FloatOps F] (main_arg0 : FVec F S16x144x80x80 .f32) (main_arg1 : FVec F S16x144x40x40 .f32) (main_arg2 : FVec F S16x144x20x20 .f32) (main_arg3 : FVec F S16x32x4 .f32) (main_arg4 : IVec S16x32 32) : IVec S_ 1 :=
  let main_v0 : FVec F S16x144x80x80 .f32 := Host.absf main_arg0
  let main_cst : FVec F S_ .f32 := constant S_ .f32 0x7F800000#32
  let main_v1 : FVec F S16x144x80x80 .f32 := broadcastInDim S16x144x80x80 ![] bcast_S_S16x144x80x80 main_cst
  let main_v2 : IVec S16x144x80x80 1 := cmpf .olt main_v0 main_v1
  let main_c : IVec S_ 1 := constantI S_ 1 1#1
  let main_v3 : IVec S_ 1 := (fun x v => Host.reduce IntOp.andi x v reducesTo_S16x144x80x80_S_d0_1_2_3 h_S_) main_v2 main_c
  let main_v4 : FVec F S16x144x40x40 .f32 := Host.absf main_arg1
  let main_cst_0 : FVec F S_ .f32 := constant S_ .f32 0x7F800000#32
  let main_v5 : FVec F S16x144x40x40 .f32 := broadcastInDim S16x144x40x40 ![] bcast_S_S16x144x40x40 main_cst_0
  let main_v6 : IVec S16x144x40x40 1 := cmpf .olt main_v4 main_v5
  let main_c_1 : IVec S_ 1 := constantI S_ 1 1#1
  let main_v7 : IVec S_ 1 := (fun x v => Host.reduce IntOp.andi x v reducesTo_S16x144x40x40_S_d0_1_2_3 h_S_) main_v6 main_c_1
  let main_v8 : IVec S_ 1 := andi main_v3 main_v7
  let main_v9 : FVec F S16x144x20x20 .f32 := Host.absf main_arg2
  let main_cst_2 : FVec F S_ .f32 := constant S_ .f32 0x7F800000#32
  let main_v10 : FVec F S16x144x20x20 .f32 := broadcastInDim S16x144x20x20 ![] bcast_S_S16x144x20x20 main_cst_2
  let main_v11 : IVec S16x144x20x20 1 := cmpf .olt main_v9 main_v10
  let main_c_3 : IVec S_ 1 := constantI S_ 1 1#1
  let main_v12 : IVec S_ 1 := (fun x v => Host.reduce IntOp.andi x v reducesTo_S16x144x20x20_S_d0_1_2_3 h_S_) main_v11 main_c_3
  let main_v13 : IVec S_ 1 := andi main_v8 main_v12
  let main_v14 : FVec F S16x32x4 .f32 := Host.absf main_arg3
  let main_cst_4 : FVec F S_ .f32 := constant S_ .f32 0x7F800000#32
  let main_v15 : FVec F S16x32x4 .f32 := broadcastInDim S16x32x4 ![] bcast_S_S16x32x4 main_cst_4
  let main_v16 : IVec S16x32x4 1 := cmpf .olt main_v14 main_v15
  fn_part1 (F := F) main_v13 main_v16
-- ==== Kernel.lean ====
abbrev S16x144x80x80 : Shape := ⟨4, ![16, 144, 80, 80]⟩
abbrev S16x144x40x40 : Shape := ⟨4, ![16, 144, 40, 40]⟩
abbrev S16x144x20x20 : Shape := ⟨4, ![16, 144, 20, 20]⟩
abbrev S16x32x4 : Shape := ⟨3, ![16, 32, 4]⟩
abbrev S16x32 : Shape := ⟨2, ![16, 32]⟩
abbrev S16x32x1 : Shape := ⟨3, ![16, 32, 1]⟩
abbrev S_ : Shape := ⟨0, ![]⟩
abbrev S16 : Shape := ⟨1, ![16]⟩
abbrev S16x1 : Shape := ⟨2, ![16, 1]⟩
abbrev S16x80x80 : Shape := ⟨3, ![16, 80, 80]⟩
abbrev S16x32x3 : Shape := ⟨3, ![16, 32, 3]⟩
abbrev S16x4x80x80 : Shape := ⟨4, ![16, 4, 80, 80]⟩
abbrev S16x80x80x80 : Shape := ⟨4, ![16, 80, 80, 80]⟩
abbrev S16x84x80x80 : Shape := ⟨4, ![16, 84, 80, 80]⟩
abbrev S16x84x6400 : Shape := ⟨3, ![16, 84, 6400]⟩
abbrev S16x1x32 : Shape := ⟨3, ![16, 1, 32]⟩
abbrev S16x84x32 : Shape := ⟨3, ![16, 84, 32]⟩
abbrev S16x84x32x1 : Shape := ⟨4, ![16, 84, 32, 1]⟩
abbrev S1 : Shape := ⟨1, ![1]⟩
abbrev S1x1x1x1 : Shape := ⟨4, ![1, 1, 1, 1]⟩
abbrev S16x32x84 : Shape := ⟨3, ![16, 32, 84]⟩
abbrev S16x32x80 : Shape := ⟨3, ![16, 32, 80]⟩
abbrev S1x1x80 : Shape := ⟨3, ![1, 1, 80]⟩
abbrev S16x4x6400 : Shape := ⟨3, ![16, 4, 6400]⟩
abbrev S16x6400 : Shape := ⟨2, ![16, 6400]⟩
abbrev S16x40x40 : Shape := ⟨3, ![16, 40, 40]⟩
abbrev S16x4x40x40 : Shape := ⟨4, ![16, 4, 40, 40]⟩
abbrev S16x80x40x40 : Shape := ⟨4, ![16, 80, 40, 40]⟩
abbrev S16x84x40x40 : Shape := ⟨4, ![16, 84, 40, 40]⟩
abbrev S16x84x1600 : Shape := ⟨3, ![16, 84, 1600]⟩
abbrev S16x4x1600 : Shape := ⟨3, ![16, 4, 1600]⟩
abbrev S16x1600 : Shape := ⟨2, ![16, 1600]⟩
abbrev S16x20x20 : Shape := ⟨3, ![16, 20, 20]⟩
abbrev S16x4x20x20 : Shape := ⟨4, ![16, 4, 20, 20]⟩
abbrev S16x80x20x20 : Shape := ⟨4, ![16, 80, 20, 20]⟩
abbrev S16x84x20x20 : Shape := ⟨4, ![16, 84, 20, 20]⟩
abbrev S16x84x400 : Shape := ⟨3, ![16, 84, 400]⟩
abbrev S16x4x400 : Shape := ⟨3, ![16, 4, 400]⟩
abbrev S16x400 : Shape := ⟨2, ![16, 400]⟩
abbrev S1x1 : Shape := ⟨2, ![1, 1]⟩
abbrev S16x1x6400 : Shape := ⟨3, ![16, 1, 6400]⟩
abbrev S16x1x1600 : Shape := ⟨3, ![16, 1, 1600]⟩
abbrev S16x1x400 : Shape := ⟨3, ![16, 1, 400]⟩

abbrev nBuf : Space → Nat
  | .hbm => 515
  | .vmem => 7
  | .smem => 0
  | _ => 0

abbrev hbmTy0_0 (i : Nat) : BufTy := match i % 128 with
  | 0 => ⟨S16x144x80x80, .f32⟩
  | 1 => ⟨S16x144x40x40, .f32⟩
  | 2 => ⟨S16x144x20x20, .f32⟩
  | 3 => ⟨S16x32x4, .f32⟩
  | 4 => ⟨S16x32, .i32⟩
  | 5 => ⟨S16x32x1, .f32⟩
  | 6 => ⟨S16x32, .f32⟩
  | 7 => ⟨S_, .f32⟩
  | 8 => ⟨S16x32, .f32⟩
  | 9 => ⟨S16x32, .f32⟩
  | 10 => ⟨S16x32x1, .f32⟩
  | 11 => ⟨S16x32, .f32⟩
  | 12 => ⟨S_, .f32⟩
  | 13 => ⟨S16x32, .f32⟩
  | 14 => ⟨S16x32, .f32⟩
  | 15 => ⟨S16x32x1, .f32⟩
  | 16 => ⟨S16x32, .f32⟩
  | 17 => ⟨S_, .f32⟩
  | 18 => ⟨S16x32, .f32⟩
  | 19 => ⟨S16x32, .f32⟩
  | 20 => ⟨S16x32x1, .f32⟩
  | 21 => ⟨S16x32, .f32⟩
  | 22 => ⟨S_, .f32⟩
  | 23 => ⟨S16x32, .f32⟩
  | 24 => ⟨S16x32, .f32⟩
  | 25 => ⟨S16x32, .i32⟩
  | 26 => ⟨S_, .i32⟩
  | 27 => ⟨S_, .i32⟩
  | 28 => ⟨S_, .i32⟩
  | 29 => ⟨S16x32, .i32⟩
  | 30 => ⟨S16x32, .i32⟩
  | 31 => ⟨S_, .i32⟩
  | 32 => ⟨S16x32, .i32⟩
  | 33 => ⟨S16x32, .i32⟩
  | 34 => ⟨S16x32, .i32⟩
  | 35 => ⟨S_, .i32⟩
  | 36 => ⟨S_, .i32⟩
  | 37 => ⟨S_, .i32⟩
  | 38 => ⟨S16x32, .i32⟩
  | 39 => ⟨S16x32, .i32⟩
  | 40 => ⟨S_, .i32⟩
  | 41 => ⟨S16x32, .i32⟩
  | 42 => ⟨S16x32, .i32⟩
  | 43 => ⟨S16, .i32⟩
  | 44 => ⟨S16x1, .i32⟩
  | 45 => ⟨S_, .f32⟩
  | 46 => ⟨S16x80x80, .f32⟩
  | 47 => ⟨S_, .i32⟩
  | 48 => ⟨S16x1, .i32⟩
  | 49 => ⟨S16x1, .i1⟩
  | 50 => ⟨S_, .i32⟩
  | 51 => ⟨S16x1, .i32⟩
  | 52 => ⟨S16x1, .i32⟩
  | 53 => ⟨S16x1, .i32⟩
  | 54 => ⟨S_, .i32⟩
  | 55 => ⟨S16x32, .i32⟩
  | 56 => ⟨S16x32, .i1⟩
  | 57 => ⟨S_, .i32⟩
  | 58 => ⟨S16x32, .i32⟩
  | 59 => ⟨S16x32, .i32⟩
  | 60 => ⟨S16x32, .i32⟩
  | 61 => ⟨S_, .i32⟩
  | 62 => ⟨S16x32, .i32⟩
  | 63 => ⟨S16x32, .i1⟩
  | 64 => ⟨S_, .i32⟩
  | 65 => ⟨S16x32, .i32⟩
  | 66 => ⟨S16x32, .i32⟩
  | 67 => ⟨S16x32, .i32⟩
  | 68 => ⟨S16x32, .i32⟩
  | 69 => ⟨S16x32x1, .i32⟩
  | 70 => ⟨S16x32x1, .i32⟩
  | 71 => ⟨S16x32x1, .i32⟩
  | 72 => ⟨S16x32x3, .i32⟩
  | 73 => ⟨S_, .f32⟩
  | 74 => ⟨S16x32, .f32⟩
  | 75 => ⟨S16x80x80, .f32⟩
  | 76 => ⟨S16x4x80x80, .f32⟩
  | 77 => ⟨S16x80x80x80, .f32⟩
  | 78 => ⟨S16x84x80x80, .f32⟩
  | 79 => ⟨S_, .i32⟩
  | 80 => ⟨S16x32, .i32⟩
  | 81 => ⟨S16x32, .i32⟩
  | 82 => ⟨S16x32, .i32⟩
  | 83 => ⟨S16x84x6400, .f32⟩
  | 84 => ⟨S16x1x32, .i32⟩
  | 85 => ⟨S16x84x32, .i32⟩
  | 86 => ⟨S_, .i32⟩
  | 87 => ⟨S16x84x32, .i32⟩
  | 88 => ⟨S16x84x32, .i1⟩
  | 89 => ⟨S_, .i32⟩
  | 90 => ⟨S16x84x32, .i32⟩
  | 91 => ⟨S16x84x32, .i32⟩
  | 92 => ⟨S16x84x32, .i32⟩
  | 93 => ⟨S16x84x32x1, .i32⟩
  | 94 => ⟨S1, .i32⟩
  | 95 => ⟨S_, .i32⟩
  | 96 => ⟨S16x84x32x1, .i32⟩
  | 97 => ⟨S16x84x32x1, .i1⟩
  | 98 => ⟨S1x1x1x1, .i32⟩
  | 99 => ⟨S16x84x32x1, .i32⟩
  | 100 => ⟨S16x84x32x1, .i1⟩
  | 101 => ⟨S16x84x32x1, .i1⟩
  | 102 => ⟨S_, .i1⟩
  | 103 => ⟨S16x84x32, .i1⟩
  | 104 => ⟨S16x84x32, .f32⟩
  | 105 => ⟨S_, .f32⟩
  | 106 => ⟨S16x84x32, .f32⟩
  | 107 => ⟨S16x84x32, .f32⟩
  | 108 => ⟨S16x32x84, .f32⟩
  | 109 => ⟨S16x32x4, .f32⟩
  | 110 => ⟨S16x32, .f32⟩
  | 111 => ⟨S16x32, .f32⟩
  | 112 => ⟨S16x32, .f32⟩
  | 113 => ⟨S16x32, .f32⟩
  | 114 => ⟨S_, .f32⟩
  | 115 => ⟨S16x32, .f32⟩
  | 116 => ⟨S16x32, .f32⟩
  | 117 => ⟨S_, .f32⟩
  | 118 => ⟨S16x32, .f32⟩
  | 119 => ⟨S16x32, .f32⟩
  | 120 => ⟨S16x32x1, .f32⟩
  | 121 => ⟨S16x32x1, .f32⟩
  | 122 => ⟨S16x32x1, .f32⟩
  | 123 => ⟨S16x32x1, .f32⟩
  | 124 => ⟨S16x32x4, .f32⟩
  | 125 => ⟨S16x32x4, .f32⟩
  | 126 => ⟨S16x32x4, .f32⟩
  | 127 => ⟨S_, .f32⟩
  | _ => ⟨S16x144x80x80, .f32⟩

abbrev hbmTy0_1 (i : Nat) : BufTy := match i % 128 with
  | 0 => ⟨S16x32, .f32⟩
  | 1 => ⟨S_, .f32⟩
  | 2 => ⟨S16x32, .f32⟩
  | 3 => ⟨S16x32, .f32⟩
  | 4 => ⟨S_, .f32⟩
  | 5 => ⟨S_, .f32⟩
  | 6 => ⟨S16x32x80, .f32⟩
  | 7 => ⟨S16x32x1, .i32⟩
  | 8 => ⟨S1x1x80, .i32⟩
  | 9 => ⟨S16x32x80, .i32⟩
  | 10 => ⟨S16x32x80, .i32⟩
  | 11 => ⟨S16x32x80, .i1⟩
  | 12 => ⟨S16x32x80, .f32⟩
  | 13 => ⟨S_, .f32⟩
  | 14 => ⟨S16x32x80, .f32⟩
  | 15 => ⟨S16x32x80, .f32⟩
  | 16 => ⟨S16x32x80, .f32⟩
  | 17 => ⟨S16x32x80, .f32⟩
  | 18 => ⟨S16x32x80, .i1⟩
  | 19 => ⟨S16x32x80, .f32⟩
  | 20 => ⟨S16x32x80, .f32⟩
  | 21 => ⟨S16x32x80, .f32⟩
  | 22 => ⟨S16x32x80, .f32⟩
  | 23 => ⟨S16x32x80, .f32⟩
  | 24 => ⟨S16x32x80, .f32⟩
  | 25 => ⟨S16x32x80, .f32⟩
  | 26 => ⟨S16x32x80, .f32⟩
  | 27 => ⟨S16x32x80, .f32⟩
  | 28 => ⟨S16x32x80, .f32⟩
  | 29 => ⟨S_, .f32⟩
  | 30 => ⟨S16x32, .f32⟩
  | 31 => ⟨S_, .f32⟩
  | 32 => ⟨S16x32, .f32⟩
  | 33 => ⟨S16x32, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S16x4x80x80, .f32⟩
  | 41 => ⟨S16x4x6400, .f32⟩
  | 42 => ⟨S16x6400, .f32⟩
  | 43 => ⟨S16x32x1, .f32⟩
  | 44 => ⟨S16x32, .f32⟩
  | 45 => ⟨S_, .f32⟩
  | 46 => ⟨S16x32, .f32⟩
  | 47 => ⟨S16x32, .f32⟩
  | 48 => ⟨S16x32x1, .f32⟩
  | 49 => ⟨S16x32, .f32⟩
  | 50 => ⟨S_, .f32⟩
  | 51 => ⟨S16x32, .f32⟩
  | 52 => ⟨S16x32, .f32⟩
  | 53 => ⟨S16x32x1, .f32⟩
  | 54 => ⟨S16x32, .f32⟩
  | 55 => ⟨S_, .f32⟩
  | 56 => ⟨S16x32, .f32⟩
  | 57 => ⟨S16x32, .f32⟩
  | 58 => ⟨S16x32x1, .f32⟩
  | 59 => ⟨S16x32, .f32⟩
  | 60 => ⟨S_, .f32⟩
  | 61 => ⟨S16x32, .f32⟩
  | 62 => ⟨S16x32, .f32⟩
  | 63 => ⟨S16x32, .i32⟩
  | 64 => ⟨S_, .i32⟩
  | 65 => ⟨S_, .i32⟩
  | 66 => ⟨S_, .i32⟩
  | 67 => ⟨S16x32, .i32⟩
  | 68 => ⟨S16x32, .i32⟩
  | 69 => ⟨S_, .i32⟩
  | 70 => ⟨S16x32, .i32⟩
  | 71 => ⟨S16x32, .i32⟩
  | 72 => ⟨S16x32, .i32⟩
  | 73 => ⟨S_, .i32⟩
  | 74 => ⟨S_, .i32⟩
  | 75 => ⟨S_, .i32⟩
  | 76 => ⟨S16x32, .i32⟩
  | 77 => ⟨S16x32, .i32⟩
  | 78 => ⟨S_, .i32⟩
  | 79 => ⟨S16x32, .i32⟩
  | 80 => ⟨S16x32, .i32⟩
  | 81 => ⟨S16, .i32⟩
  | 82 => ⟨S16x1, .i32⟩
  | 83 => ⟨S_, .f32⟩
  | 84 => ⟨S16x40x40, .f32⟩
  | 85 => ⟨S_, .i32⟩
  | 86 => ⟨S16x1, .i32⟩
  | 87 => ⟨S16x1, .i1⟩
  | 88 => ⟨S_, .i32⟩
  | 89 => ⟨S16x1, .i32⟩
  | 90 => ⟨S16x1, .i32⟩
  | 91 => ⟨S16x1, .i32⟩
  | 92 => ⟨S_, .i32⟩
  | 93 => ⟨S16x32, .i32⟩
  | 94 => ⟨S16x32, .i1⟩
  | 95 => ⟨S_, .i32⟩
  | 96 => ⟨S16x32, .i32⟩
  | 97 => ⟨S16x32, .i32⟩
  | 98 => ⟨S16x32, .i32⟩
  | 99 => ⟨S_, .i32⟩
  | 100 => ⟨S16x32, .i32⟩
  | 101 => ⟨S16x32, .i1⟩
  | 102 => ⟨S_, .i32⟩
  | 103 => ⟨S16x32, .i32⟩
  | 104 => ⟨S16x32, .i32⟩
  | 105 => ⟨S16x32, .i32⟩
  | 106 => ⟨S16x32, .i32⟩
  | 107 => ⟨S16x32x1, .i32⟩
  | 108 => ⟨S16x32x1, .i32⟩
  | 109 => ⟨S16x32x1, .i32⟩
  | 110 => ⟨S16x32x3, .i32⟩
  | 111 => ⟨S_, .f32⟩
  | 112 => ⟨S16x32, .f32⟩
  | 113 => ⟨S16x40x40, .f32⟩
  | 114 => ⟨S16x4x40x40, .f32⟩
  | 115 => ⟨S16x80x40x40, .f32⟩
  | 116 => ⟨S16x84x40x40, .f32⟩
  | 117 => ⟨S_, .i32⟩
  | 118 => ⟨S16x32, .i32⟩
  | 119 => ⟨S16x32, .i32⟩
  | 120 => ⟨S16x32, .i32⟩
  | 121 => ⟨S16x84x1600, .f32⟩
  | 122 => ⟨S16x1x32, .i32⟩
  | 123 => ⟨S16x84x32, .i32⟩
  | 124 => ⟨S_, .i32⟩
  | 125 => ⟨S16x84x32, .i32⟩
  | 126 => ⟨S16x84x32, .i1⟩
  | 127 => ⟨S_, .i32⟩
  | _ => ⟨S16x144x80x80, .f32⟩

abbrev hbmTy0_2 (i : Nat) : BufTy := match i % 128 with
  | 0 => ⟨S16x84x32, .i32⟩
  | 1 => ⟨S16x84x32, .i32⟩
  | 2 => ⟨S16x84x32, .i32⟩
  | 3 => ⟨S16x84x32x1, .i32⟩
  | 4 => ⟨S1, .i32⟩
  | 5 => ⟨S_, .i32⟩
  | 6 => ⟨S16x84x32x1, .i32⟩
  | 7 => ⟨S16x84x32x1, .i1⟩
  | 8 => ⟨S1x1x1x1, .i32⟩
  | 9 => ⟨S16x84x32x1, .i32⟩
  | 10 => ⟨S16x84x32x1, .i1⟩
  | 11 => ⟨S16x84x32x1, .i1⟩
  | 12 => ⟨S_, .i1⟩
  | 13 => ⟨S16x84x32, .i1⟩
  | 14 => ⟨S16x84x32, .f32⟩
  | 15 => ⟨S_, .f32⟩
  | 16 => ⟨S16x84x32, .f32⟩
  | 17 => ⟨S16x84x32, .f32⟩
  | 18 => ⟨S16x32x84, .f32⟩
  | 19 => ⟨S16x32x4, .f32⟩
  | 20 => ⟨S16x32, .f32⟩
  | 21 => ⟨S16x32, .f32⟩
  | 22 => ⟨S16x32, .f32⟩
  | 23 => ⟨S16x32, .f32⟩
  | 24 => ⟨S_, .f32⟩
  | 25 => ⟨S16x32, .f32⟩
  | 26 => ⟨S16x32, .f32⟩
  | 27 => ⟨S_, .f32⟩
  | 28 => ⟨S16x32, .f32⟩
  | 29 => ⟨S16x32, .f32⟩
  | 30 => ⟨S16x32x1, .f32⟩
  | 31 => ⟨S16x32x1, .f32⟩
  | 32 => ⟨S16x32x1, .f32⟩
  | 33 => ⟨S16x32x1, .f32⟩
  | 34 => ⟨S16x32x4, .f32⟩
  | 35 => ⟨S16x32x4, .f32⟩
  | 36 => ⟨S16x32x4, .f32⟩
  | 37 => ⟨S_, .f32⟩
  | 38 => ⟨S16x32, .f32⟩
  | 39 => ⟨S_, .f32⟩
  | 40 => ⟨S16x32, .f32⟩
  | 41 => ⟨S16x32, .f32⟩
  | 42 => ⟨S_, .f32⟩
  | 43 => ⟨S_, .f32⟩
  | 44 => ⟨S16x32x80, .f32⟩
  | 45 => ⟨S16x32x1, .i32⟩
  | 46 => ⟨S1x1x80, .i32⟩
  | 47 => ⟨S16x32x80, .i32⟩
  | 48 => ⟨S16x32x80, .i32⟩
  | 49 => ⟨S16x32x80, .i1⟩
  | 50 => ⟨S16x32x80, .f32⟩
  | 51 => ⟨S_, .f32⟩
  | 52 => ⟨S16x32x80, .f32⟩
  | 53 => ⟨S16x32x80, .f32⟩
  | 54 => ⟨S16x32x80, .f32⟩
  | 55 => ⟨S16x32x80, .f32⟩
  | 56 => ⟨S16x32x80, .i1⟩
  | 57 => ⟨S16x32x80, .f32⟩
  | 58 => ⟨S16x32x80, .f32⟩
  | 59 => ⟨S16x32x80, .f32⟩
  | 60 => ⟨S16x32x80, .f32⟩
  | 61 => ⟨S16x32x80, .f32⟩
  | 62 => ⟨S16x32x80, .f32⟩
  | 63 => ⟨S16x32x80, .f32⟩
  | 64 => ⟨S16x32x80, .f32⟩
  | 65 => ⟨S16x32x80, .f32⟩
  | 66 => ⟨S16x32x80, .f32⟩
  | 67 => ⟨S_, .f32⟩
  | 68 => ⟨S16x32, .f32⟩
  | 69 => ⟨S_, .f32⟩
  | 70 => ⟨S16x32, .f32⟩
  | 71 => ⟨S16x32, .f32⟩
  | 72 => ⟨S_, .f32⟩
  | 73 => ⟨S_, .f32⟩
  | 74 => ⟨S_, .f32⟩
  | 75 => ⟨S_, .f32⟩
  | 76 => ⟨S16x4x40x40, .f32⟩
  | 77 => ⟨S16x4x1600, .f32⟩
  | 78 => ⟨S16x1600, .f32⟩
  | 79 => ⟨S16x32x1, .f32⟩
  | 80 => ⟨S16x32, .f32⟩
  | 81 => ⟨S_, .f32⟩
  | 82 => ⟨S16x32, .f32⟩
  | 83 => ⟨S16x32, .f32⟩
  | 84 => ⟨S16x32x1, .f32⟩
  | 85 => ⟨S16x32, .f32⟩
  | 86 => ⟨S_, .f32⟩
  | 87 => ⟨S16x32, .f32⟩
  | 88 => ⟨S16x32, .f32⟩
  | 89 => ⟨S16x32x1, .f32⟩
  | 90 => ⟨S16x32, .f32⟩
  | 91 => ⟨S_, .f32⟩
  | 92 => ⟨S16x32, .f32⟩
  | 93 => ⟨S16x32, .f32⟩
  | 94 => ⟨S16x32x1, .f32⟩
  | 95 => ⟨S16x32, .f32⟩
  | 96 => ⟨S_, .f32⟩
  | 97 => ⟨S16x32, .f32⟩
  | 98 => ⟨S16x32, .f32⟩
  | 99 => ⟨S16x32, .i32⟩
  | 100 => ⟨S_, .i32⟩
  | 101 => ⟨S_, .i32⟩
  | 102 => ⟨S_, .i32⟩
  | 103 => ⟨S16x32, .i32⟩
  | 104 => ⟨S16x32, .i32⟩
  | 105 => ⟨S_, .i32⟩
  | 106 => ⟨S16x32, .i32⟩
  | 107 => ⟨S16x32, .i32⟩
  | 108 => ⟨S16x32, .i32⟩
  | 109 => ⟨S_, .i32⟩
  | 110 => ⟨S_, .i32⟩
  | 111 => ⟨S_, .i32⟩
  | 112 => ⟨S16x32, .i32⟩
  | 113 => ⟨S16x32, .i32⟩
  | 114 => ⟨S_, .i32⟩
  | 115 => ⟨S16x32, .i32⟩
  | 116 => ⟨S16x32, .i32⟩
  | 117 => ⟨S16, .i32⟩
  | 118 => ⟨S16x1, .i32⟩
  | 119 => ⟨S_, .f32⟩
  | 120 => ⟨S16x20x20, .f32⟩
  | 121 => ⟨S_, .i32⟩
  | 122 => ⟨S16x1, .i32⟩
  | 123 => ⟨S16x1, .i1⟩
  | 124 => ⟨S_, .i32⟩
  | 125 => ⟨S16x1, .i32⟩
  | 126 => ⟨S16x1, .i32⟩
  | 127 => ⟨S16x1, .i32⟩
  | _ => ⟨S16x144x80x80, .f32⟩

abbrev hbmTy0_3 (i : Nat) : BufTy := match i % 128 with
  | 0 => ⟨S_, .i32⟩
  | 1 => ⟨S16x32, .i32⟩
  | 2 => ⟨S16x32, .i1⟩
  | 3 => ⟨S_, .i32⟩
  | 4 => ⟨S16x32, .i32⟩
  | 5 => ⟨S16x32, .i32⟩
  | 6 => ⟨S16x32, .i32⟩
  | 7 => ⟨S_, .i32⟩
  | 8 => ⟨S16x32, .i32⟩
  | 9 => ⟨S16x32, .i1⟩
  | 10 => ⟨S_, .i32⟩
  | 11 => ⟨S16x32, .i32⟩
  | 12 => ⟨S16x32, .i32⟩
  | 13 => ⟨S16x32, .i32⟩
  | 14 => ⟨S16x32, .i32⟩
  | 15 => ⟨S16x32x1, .i32⟩
  | 16 => ⟨S16x32x1, .i32⟩
  | 17 => ⟨S16x32x1, .i32⟩
  | 18 => ⟨S16x32x3, .i32⟩
  | 19 => ⟨S_, .f32⟩
  | 20 => ⟨S16x32, .f32⟩
  | 21 => ⟨S16x20x20, .f32⟩
  | 22 => ⟨S16x4x20x20, .f32⟩
  | 23 => ⟨S16x80x20x20, .f32⟩
  | 24 => ⟨S16x84x20x20, .f32⟩
  | 25 => ⟨S_, .i32⟩
  | 26 => ⟨S16x32, .i32⟩
  | 27 => ⟨S16x32, .i32⟩
  | 28 => ⟨S16x32, .i32⟩
  | 29 => ⟨S16x84x400, .f32⟩
  | 30 => ⟨S16x1x32, .i32⟩
  | 31 => ⟨S16x84x32, .i32⟩
  | 32 => ⟨S_, .i32⟩
  | 33 => ⟨S16x84x32, .i32⟩
  | 34 => ⟨S16x84x32, .i1⟩
  | 35 => ⟨S_, .i32⟩
  | 36 => ⟨S16x84x32, .i32⟩
  | 37 => ⟨S16x84x32, .i32⟩
  | 38 => ⟨S16x84x32, .i32⟩
  | 39 => ⟨S16x84x32x1, .i32⟩
  | 40 => ⟨S1, .i32⟩
  | 41 => ⟨S_, .i32⟩
  | 42 => ⟨S16x84x32x1, .i32⟩
  | 43 => ⟨S16x84x32x1, .i1⟩
  | 44 => ⟨S1x1x1x1, .i32⟩
  | 45 => ⟨S16x84x32x1, .i32⟩
  | 46 => ⟨S16x84x32x1, .i1⟩
  | 47 => ⟨S16x84x32x1, .i1⟩
  | 48 => ⟨S_, .i1⟩
  | 49 => ⟨S16x84x32, .i1⟩
  | 50 => ⟨S16x84x32, .f32⟩
  | 51 => ⟨S_, .f32⟩
  | 52 => ⟨S16x84x32, .f32⟩
  | 53 => ⟨S16x84x32, .f32⟩
  | 54 => ⟨S16x32x84, .f32⟩
  | 55 => ⟨S16x32x4, .f32⟩
  | 56 => ⟨S16x32, .f32⟩
  | 57 => ⟨S16x32, .f32⟩
  | 58 => ⟨S16x32, .f32⟩
  | 59 => ⟨S16x32, .f32⟩
  | 60 => ⟨S_, .f32⟩
  | 61 => ⟨S16x32, .f32⟩
  | 62 => ⟨S16x32, .f32⟩
  | 63 => ⟨S_, .f32⟩
  | 64 => ⟨S16x32, .f32⟩
  | 65 => ⟨S16x32, .f32⟩
  | 66 => ⟨S16x32x1, .f32⟩
  | 67 => ⟨S16x32x1, .f32⟩
  | 68 => ⟨S16x32x1, .f32⟩
  | 69 => ⟨S16x32x1, .f32⟩
  | 70 => ⟨S16x32x4, .f32⟩
  | 71 => ⟨S16x32x4, .f32⟩
  | 72 => ⟨S16x32x4, .f32⟩
  | 73 => ⟨S_, .f32⟩
  | 74 => ⟨S16x32, .f32⟩
  | 75 => ⟨S_, .f32⟩
  | 76 => ⟨S16x32, .f32⟩
  | 77 => ⟨S16x32, .f32⟩
  | 78 => ⟨S_, .f32⟩
  | 79 => ⟨S_, .f32⟩
  | 80 => ⟨S16x32x80, .f32⟩
  | 81 => ⟨S16x32x1, .i32⟩
  | 82 => ⟨S1x1x80, .i32⟩
  | 83 => ⟨S16x32x80, .i32⟩
  | 84 => ⟨S16x32x80, .i32⟩
  | 85 => ⟨S16x32x80, .i1⟩
  | 86 => ⟨S16x32x80, .f32⟩
  | 87 => ⟨S_, .f32⟩
  | 88 => ⟨S16x32x80, .f32⟩
  | 89 => ⟨S16x32x80, .f32⟩
  | 90 => ⟨S16x32x80, .f32⟩
  | 91 => ⟨S16x32x80, .f32⟩
  | 92 => ⟨S16x32x80, .i1⟩
  | 93 => ⟨S16x32x80, .f32⟩
  | 94 => ⟨S16x32x80, .f32⟩
  | 95 => ⟨S16x32x80, .f32⟩
  | 96 => ⟨S16x32x80, .f32⟩
  | 97 => ⟨S16x32x80, .f32⟩
  | 98 => ⟨S16x32x80, .f32⟩
  | 99 => ⟨S16x32x80, .f32⟩
  | 100 => ⟨S16x32x80, .f32⟩
  | 101 => ⟨S16x32x80, .f32⟩
  | 102 => ⟨S16x32x80, .f32⟩
  | 103 => ⟨S_, .f32⟩
  | 104 => ⟨S16x32, .f32⟩
  | 105 => ⟨S_, .f32⟩
  | 106 => ⟨S16x32, .f32⟩
  | 107 => ⟨S16x32, .f32⟩
  | 108 => ⟨S_, .f32⟩
  | 109 => ⟨S_, .f32⟩
  | 110 => ⟨S_, .f32⟩
  | 111 => ⟨S_, .f32⟩
  | 112 => ⟨S16x4x20x20, .f32⟩
  | 113 => ⟨S16x4x400, .f32⟩
  | 114 => ⟨S16x400, .f32⟩
  | 115 => ⟨S1x1, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x144x80x80, .f32⟩

abbrev hbmTy0_4 (i : Nat) : BufTy := match i % 128 with
  | 0 => ⟨S_, .f32⟩
  | 1 => ⟨S_, .f32⟩
  | 2 => ⟨S_, .f32⟩
  | _ => ⟨S16x144x80x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x144x80x80, .f32⟩

abbrev bufTy : (tb : Table) → Fin (tcTables nBuf tb) → BufTy
  | .hbm, ⟨i, _⟩ => hbmTy i
  | .local _ .vmem, ⟨0, _⟩ => ⟨S16x4x6400, .f32⟩
  | .local _ .vmem, ⟨1, _⟩ => ⟨S16x6400, .f32⟩
  | .local _ .vmem, ⟨2, _⟩ => ⟨S16x4x1600, .f32⟩
  | .local _ .vmem, ⟨3, _⟩ => ⟨S16x1600, .f32⟩
  | .local _ .vmem, ⟨4, _⟩ => ⟨S16x4x400, .f32⟩
  | .local _ .vmem, ⟨5, _⟩ => ⟨S16x400, .f32⟩
  | .local _ .vmem, ⟨6, _⟩ => ⟨S1x1, .f32⟩
  | _, _ => ⟨S16x144x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_c_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_6 : Ref sig .tc := ⟨.hbm, 45, rfl⟩
abbrev main_v22 : Ref sig .tc := ⟨.hbm, 46, rfl⟩
abbrev main_c_7 : Ref sig .tc := ⟨.hbm, 47, rfl⟩
abbrev main_v23 : Ref sig .tc := ⟨.hbm, 48, rfl⟩
abbrev main_v24 : Ref sig .tc := ⟨.hbm, 49, rfl⟩
abbrev main_c_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_9 : Ref sig .tc := ⟨.hbm, 54, rfl⟩
abbrev main_v28 : Ref sig .tc := ⟨.hbm, 55, rfl⟩
abbrev main_v29 : Ref sig .tc := ⟨.hbm, 56, rfl⟩
abbrev main_c_10 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_11 : Ref sig .tc := ⟨.hbm, 61, rfl⟩
abbrev main_v33 : Ref sig .tc := ⟨.hbm, 62, rfl⟩
abbrev main_v34 : Ref sig .tc := ⟨.hbm, 63, rfl⟩
abbrev main_c_12 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_13 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_14 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_cst : Ref sig .tc := ⟨.hbm, 105, rfl⟩
abbrev main_call2_v14 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_15 : Ref sig .tc := ⟨.hbm, 114, rfl⟩
abbrev main_v61 : Ref sig .tc := ⟨.hbm, 115, rfl⟩
abbrev main_v62 : Ref sig .tc := ⟨.hbm, 116, rfl⟩
abbrev main_cst_16 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_cst_17 : Ref sig .tc := ⟨.hbm, 127, rfl⟩
abbrev main_v72 : Ref sig .tc := ⟨.hbm, 128, rfl⟩
abbrev main_cst_18 : Ref sig .tc := ⟨.hbm, 129, rfl⟩
abbrev main_v73 : Ref sig .tc := ⟨.hbm, 130, rfl⟩
abbrev main_v74 : Ref sig .tc := ⟨.hbm, 131, rfl⟩
abbrev main_cst_19 : Ref sig .tc := ⟨.hbm, 132, rfl⟩
abbrev main_v75 : Ref sig .tc := ⟨.hbm, 133, rfl⟩
abbrev main_v76 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_v77 : Ref sig .tc := ⟨.hbm, 140, rfl⟩
abbrev main_call4_cst : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_cst_20 : Ref sig .tc := ⟨.hbm, 157, rfl⟩
abbrev main_v81 : Ref sig .tc := ⟨.hbm, 158, rfl⟩
abbrev main_cst_21 : Ref sig .tc := ⟨.hbm, 159, rfl⟩
abbrev main_v82 : Ref sig .tc := ⟨.hbm, 160, rfl⟩
abbrev main_v83 : Ref sig .tc := ⟨.hbm, 161, rfl⟩
abbrev main_cst_22 : Ref sig .tc := ⟨.hbm, 162, rfl⟩
abbrev main_v84 : Ref sig .tc := ⟨.hbm, 163, rfl⟩
abbrev main_cst_23 : Ref sig .tc := ⟨.hbm, 164, rfl⟩
abbrev main_v85 : Ref sig .tc := ⟨.hbm, 165, rfl⟩
abbrev main_cst_24 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_cst_25 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_cst_26 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_cst_27 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_cst_28 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_c_29 : Ref sig .tc := ⟨.hbm, 192, rfl⟩
abbrev main_c_30 : Ref sig .tc := ⟨.hbm, 193, rfl⟩
abbrev main_call5_v0 : Ref sig .tc := ⟨.hbm, 194, rfl⟩
abbrev main_call5_v1 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_v107 : Ref sig .tc := ⟨.hbm, 199, rfl⟩
abbrev main_v108 : Ref sig .tc := ⟨.hbm, 200, rfl⟩
abbrev main_c_31 : Ref sig .tc := ⟨.hbm, 201, rfl⟩
abbrev main_c_32 : Ref sig .tc := ⟨.hbm, 202, rfl⟩
abbrev main_call6_v0 : Ref sig .tc := ⟨.hbm, 203, rfl⟩
abbrev main_call6_v1 : Ref sig .tc := ⟨.hbm, 204, rfl⟩
abbrev main_call6_v2 : Ref sig .tc := ⟨.hbm, 205, rfl⟩
abbrev main_call6_v3 : Ref sig .tc := ⟨.hbm, 206, rfl⟩
abbrev main_call6_v4 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_cst_33 : Ref sig .tc := ⟨.hbm, 211, rfl⟩
abbrev main_v112 : Ref sig .tc := ⟨.hbm, 212, rfl⟩
abbrev main_c_34 : Ref sig .tc := ⟨.hbm, 213, rfl⟩
abbrev main_v113 : Ref sig .tc := ⟨.hbm, 214, rfl⟩
abbrev main_v114 : Ref sig .tc := ⟨.hbm, 215, rfl⟩
abbrev main_c_35 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_c_36 : Ref sig .tc := ⟨.hbm, 220, rfl⟩
abbrev main_v118 : Ref sig .tc := ⟨.hbm, 221, rfl⟩
abbrev main_v119 : Ref sig .tc := ⟨.hbm, 222, rfl⟩
abbrev main_c_37 : Ref sig .tc := ⟨.hbm, 223, rfl⟩
abbrev main_v120 : Ref sig .tc := ⟨.hbm, 224, rfl⟩
abbrev main_v121 : Ref sig .tc := ⟨.hbm, 225, rfl⟩
abbrev main_v122 : Ref sig .tc := ⟨.hbm, 226, rfl⟩
abbrev main_c_38 : Ref sig .tc := ⟨.hbm, 227, rfl⟩
abbrev main_v123 : Ref sig .tc := ⟨.hbm, 228, rfl⟩
abbrev main_v124 : Ref sig .tc := ⟨.hbm, 229, rfl⟩
abbrev main_c_39 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_cst_40 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_c_41 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_call7_c : Ref sig .tc := ⟨.hbm, 252, rfl⟩
abbrev main_call7_v0 : Ref sig .tc := ⟨.hbm, 253, rfl⟩
abbrev main_call7_v1 : Ref sig .tc := ⟨.hbm, 254, rfl⟩
abbrev main_call7_c_0 : Ref sig .tc := ⟨.hbm, 255, rfl⟩
abbrev main_call7_v2 : Ref sig .tc := ⟨.hbm, 256, rfl⟩
abbrev main_call7_v3 : Ref sig .tc := ⟨.hbm, 257, rfl⟩
abbrev main_call7_v4 : Ref sig .tc := ⟨.hbm, 258, rfl⟩
abbrev main_call7_v5 : Ref sig .tc := ⟨.hbm, 259, rfl⟩
abbrev main_call7_c_1 : Ref sig .tc := ⟨.hbm, 260, rfl⟩
abbrev main_call7_c_2 : Ref sig .tc := ⟨.hbm, 261, rfl⟩
abbrev main_call7_v6 : Ref sig .tc := ⟨.hbm, 262, rfl⟩
abbrev main_call7_v7 : Ref sig .tc := ⟨.hbm, 263, rfl⟩
abbrev main_call7_v8 : Ref sig .tc := ⟨.hbm, 264, rfl⟩
abbrev main_call7_v9 : Ref sig .tc := ⟨.hbm, 265, rfl⟩
abbrev main_call7_v10 : Ref sig .tc := ⟨.hbm, 266, rfl⟩
abbrev main_call7_v11 : Ref sig .tc := ⟨.hbm, 267, rfl⟩
abbrev main_call7_c_3 : Ref sig .tc := ⟨.hbm, 268, rfl⟩
abbrev main_call7_v12 : Ref sig .tc := ⟨.hbm, 269, rfl⟩
abbrev main_call7_v13 : Ref sig .tc := ⟨.hbm, 270, rfl⟩
abbrev main_call7_cst : Ref sig .tc := ⟨.hbm, 271, rfl⟩
abbrev main_call7_v14 : Ref sig .tc := ⟨.hbm, 272, rfl⟩
abbrev main_v144 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_cst_42 : Ref sig .tc := ⟨.hbm, 280, rfl⟩
abbrev main_v151 : Ref sig .tc := ⟨.hbm, 281, rfl⟩
abbrev main_v152 : Ref sig .tc := ⟨.hbm, 282, rfl⟩
abbrev main_cst_43 : Ref sig .tc := ⟨.hbm, 283, rfl⟩
abbrev main_v153 : Ref sig .tc := ⟨.hbm, 284, rfl⟩
abbrev main_v154 : Ref sig .tc := ⟨.hbm, 285, rfl⟩
abbrev main_v155 : Ref sig .tc := ⟨.hbm, 286, rfl⟩
abbrev main_v156 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_cst_44 : Ref sig .tc := ⟨.hbm, 293, rfl⟩
abbrev main_v162 : Ref sig .tc := ⟨.hbm, 294, rfl⟩
abbrev main_cst_45 : Ref sig .tc := ⟨.hbm, 295, rfl⟩
abbrev main_v163 : Ref sig .tc := ⟨.hbm, 296, rfl⟩
abbrev main_v164 : Ref sig .tc := ⟨.hbm, 297, rfl⟩
abbrev main_cst_46 : Ref sig .tc := ⟨.hbm, 298, rfl⟩
abbrev main_v165 : Ref sig .tc := ⟨.hbm, 299, rfl⟩
abbrev main_v166 : Ref sig .tc := ⟨.hbm, 300, rfl⟩
abbrev main_call8_v0 : Ref sig .tc := ⟨.hbm, 301, rfl⟩
abbrev main_call8_v1 : Ref sig .tc := ⟨.hbm, 302, rfl⟩
abbrev main_call8_v2 : Ref sig .tc := ⟨.hbm, 303, rfl⟩
abbrev main_call8_v3 : Ref sig .tc := ⟨.hbm, 304, rfl⟩
abbrev main_call8_v4 : Ref sig .tc := ⟨.hbm, 305, rfl⟩
abbrev main_v167 : Ref sig .tc := ⟨.hbm, 306, rfl⟩
abbrev main_call9_cst : Ref sig .tc := ⟨.hbm, 307, rfl⟩
abbrev main_call9_v0 : Ref sig .tc := ⟨.hbm, 308, rfl⟩
abbrev main_call9_v1 : Ref sig .tc := ⟨.hbm, 309, rfl⟩
abbrev main_call9_v2 : Ref sig .tc := ⟨.hbm, 310, rfl⟩
abbrev main_call9_v3 : Ref sig .tc := ⟨.hbm, 311, rfl⟩
abbrev main_call9_v4 : Ref sig .tc := ⟨.hbm, 312, rfl⟩
abbrev main_call9_v5 : Ref sig .tc := ⟨.hbm, 313, rfl⟩
abbrev main_call9_v6 : Ref sig .tc := ⟨.hbm, 314, rfl⟩
abbrev main_call9_v7 : Ref sig .tc := ⟨.hbm, 315, rfl⟩
abbrev main_call9_v8 : Ref sig .tc := ⟨.hbm, 316, rfl⟩
abbrev main_call9_v9 : Ref sig .tc := ⟨.hbm, 317, rfl⟩
abbrev main_call9_v10 : Ref sig .tc := ⟨.hbm, 318, rfl⟩
abbrev main_call9_v11 : Ref sig .tc := ⟨.hbm, 319, rfl⟩
abbrev main_v168 : Ref sig .tc := ⟨.hbm, 320, rfl⟩
abbrev main_v169 : Ref sig .tc := ⟨.hbm, 321, rfl⟩
abbrev main_v170 : Ref sig .tc := ⟨.hbm, 322, rfl⟩
abbrev main_cst_47 : Ref sig .tc := ⟨.hbm, 323, rfl⟩
abbrev main_v171 : Ref sig .tc := ⟨.hbm, 324, rfl⟩
abbrev main_cst_48 : Ref sig .tc := ⟨.hbm, 325, rfl⟩
abbrev main_v172 : Ref sig .tc := ⟨.hbm, 326, rfl⟩
abbrev main_v173 : Ref sig .tc := ⟨.hbm, 327, rfl⟩
abbrev main_cst_49 : Ref sig .tc := ⟨.hbm, 328, rfl⟩
abbrev main_v174 : Ref sig .tc := ⟨.hbm, 329, rfl⟩
abbrev main_v175 : Ref sig .tc := ⟨.hbm, 330, rfl⟩
abbrev main_v176 : Ref sig .tc := ⟨.hbm, 331, rfl⟩
abbrev main_v177 : Ref sig .tc := ⟨.hbm, 332, rfl⟩
abbrev main_v178 : Ref sig .tc := ⟨.hbm, 333, rfl⟩
abbrev main_v179 : Ref sig .tc := ⟨.hbm, 334, rfl⟩
abbrev main_v180 : Ref sig .tc := ⟨.hbm, 335, rfl⟩
abbrev main_v181 : Ref sig .tc := ⟨.hbm, 336, rfl⟩
abbrev main_cst_50 : Ref sig .tc := ⟨.hbm, 337, rfl⟩
abbrev main_v182 : Ref sig .tc := ⟨.hbm, 338, rfl⟩
abbrev main_v183 : Ref sig .tc := ⟨.hbm, 339, rfl⟩
abbrev main_v184 : Ref sig .tc := ⟨.hbm, 340, rfl⟩
abbrev main_v185 : Ref sig .tc := ⟨.hbm, 341, rfl⟩
abbrev main_cst_51 : Ref sig .tc := ⟨.hbm, 342, rfl⟩
abbrev main_v186 : Ref sig .tc := ⟨.hbm, 343, rfl⟩
abbrev main_v187 : Ref sig .tc := ⟨.hbm, 344, rfl⟩
abbrev main_v188 : Ref sig .tc := ⟨.hbm, 345, rfl⟩
abbrev main_v189 : Ref sig .tc := ⟨.hbm, 346, rfl⟩
abbrev main_cst_52 : Ref sig .tc := ⟨.hbm, 347, rfl⟩
abbrev main_v190 : Ref sig .tc := ⟨.hbm, 348, rfl⟩
abbrev main_v191 : Ref sig .tc := ⟨.hbm, 349, rfl⟩
abbrev main_v192 : Ref sig .tc := ⟨.hbm, 350, rfl⟩
abbrev main_v193 : Ref sig .tc := ⟨.hbm, 351, rfl⟩
abbrev main_cst_53 : Ref sig .tc := ⟨.hbm, 352, rfl⟩
abbrev main_v194 : Ref sig .tc := ⟨.hbm, 353, rfl⟩
abbrev main_v195 : Ref sig .tc := ⟨.hbm, 354, rfl⟩
abbrev main_v196 : Ref sig .tc := ⟨.hbm, 355, rfl⟩
abbrev main_c_54 : Ref sig .tc := ⟨.hbm, 356, rfl⟩
abbrev main_c_55 : Ref sig .tc := ⟨.hbm, 357, rfl⟩
abbrev main_call10_v0 : Ref sig .tc := ⟨.hbm, 358, rfl⟩
abbrev main_call10_v1 : Ref sig .tc := ⟨.hbm, 359, rfl⟩
abbrev main_call10_v2 : Ref sig .tc := ⟨.hbm, 360, rfl⟩
abbrev main_call10_v3 : Ref sig .tc := ⟨.hbm, 361, rfl⟩
abbrev main_call10_v4 : Ref sig .tc := ⟨.hbm, 362, rfl⟩
abbrev main_v197 : Ref sig .tc := ⟨.hbm, 363, rfl⟩
abbrev main_v198 : Ref sig .tc := ⟨.hbm, 364, rfl⟩
abbrev main_c_56 : Ref sig .tc := ⟨.hbm, 365, rfl⟩
abbrev main_c_57 : Ref sig .tc := ⟨.hbm, 366, rfl⟩
abbrev main_call11_v0 : Ref sig .tc := ⟨.hbm, 367, rfl⟩
abbrev main_call11_v1 : Ref sig .tc := ⟨.hbm, 368, rfl⟩
abbrev main_call11_v2 : Ref sig .tc := ⟨.hbm, 369, rfl⟩
abbrev main_call11_v3 : Ref sig .tc := ⟨.hbm, 370, rfl⟩
abbrev main_call11_v4 : Ref sig .tc := ⟨.hbm, 371, rfl⟩
abbrev main_v199 : Ref sig .tc := ⟨.hbm, 372, rfl⟩
abbrev main_v200 : Ref sig .tc := ⟨.hbm, 373, rfl⟩
abbrev main_v201 : Ref sig .tc := ⟨.hbm, 374, rfl⟩
abbrev main_cst_58 : Ref sig .tc := ⟨.hbm, 375, rfl⟩
abbrev main_v202 : Ref sig .tc := ⟨.hbm, 376, rfl⟩
abbrev main_c_59 : Ref sig .tc := ⟨.hbm, 377, rfl⟩
abbrev main_v203 : Ref sig .tc := ⟨.hbm, 378, rfl⟩
abbrev main_v204 : Ref sig .tc := ⟨.hbm, 379, rfl⟩
abbrev main_c_60 : Ref sig .tc := ⟨.hbm, 380, rfl⟩
abbrev main_v205 : Ref sig .tc := ⟨.hbm, 381, rfl⟩
abbrev main_v206 : Ref sig .tc := ⟨.hbm, 382, rfl⟩
abbrev main_v207 : Ref sig .tc := ⟨.hbm, 383, rfl⟩
abbrev main_c_61 : Ref sig .tc := ⟨.hbm, 384, rfl⟩
abbrev main_v208 : Ref sig .tc := ⟨.hbm, 385, rfl⟩
abbrev main_v209 : Ref sig .tc := ⟨.hbm, 386, rfl⟩
abbrev main_c_62 : Ref sig .tc := ⟨.hbm, 387, rfl⟩
abbrev main_v210 : Ref sig .tc := ⟨.hbm, 388, rfl⟩
abbrev main_v211 : Ref sig .tc := ⟨.hbm, 389, rfl⟩
abbrev main_v212 : Ref sig .tc := ⟨.hbm, 390, rfl⟩
abbrev main_c_63 : Ref sig .tc := ⟨.hbm, 391, rfl⟩
abbrev main_v213 : Ref sig .tc := ⟨.hbm, 392, rfl⟩
abbrev main_v214 : Ref sig .tc := ⟨.hbm, 393, rfl⟩
abbrev main_c_64 : Ref sig .tc := ⟨.hbm, 394, rfl⟩
abbrev main_v215 : Ref sig .tc := ⟨.hbm, 395, rfl⟩
abbrev main_v216 : Ref sig .tc := ⟨.hbm, 396, rfl⟩
abbrev main_v217 : Ref sig .tc := ⟨.hbm, 397, rfl⟩
abbrev main_v218 : Ref sig .tc := ⟨.hbm, 398, rfl⟩
abbrev main_v219 : Ref sig .tc := ⟨.hbm, 399, rfl⟩
abbrev main_v220 : Ref sig .tc := ⟨.hbm, 400, rfl⟩
abbrev main_v221 : Ref sig .tc := ⟨.hbm, 401, rfl⟩
abbrev main_v222 : Ref sig .tc := ⟨.hbm, 402, rfl⟩
abbrev main_cst_65 : Ref sig .tc := ⟨.hbm, 403, rfl⟩
abbrev main_v223 : Ref sig .tc := ⟨.hbm, 404, rfl⟩
abbrev main_v224 : Ref sig .tc := ⟨.hbm, 405, rfl⟩
abbrev main_v225 : Ref sig .tc := ⟨.hbm, 406, rfl⟩
abbrev main_v226 : Ref sig .tc := ⟨.hbm, 407, rfl⟩
abbrev main_v227 : Ref sig .tc := ⟨.hbm, 408, rfl⟩
abbrev main_c_66 : Ref sig .tc := ⟨.hbm, 409, rfl⟩
abbrev main_v228 : Ref sig .tc := ⟨.hbm, 410, rfl⟩
abbrev main_v229 : Ref sig .tc := ⟨.hbm, 411, rfl⟩
abbrev main_v230 : Ref sig .tc := ⟨.hbm, 412, rfl⟩
abbrev main_v231 : Ref sig .tc := ⟨.hbm, 413, rfl⟩
abbrev main_v232 : Ref sig .tc := ⟨.hbm, 414, rfl⟩
abbrev main_v233 : Ref sig .tc := ⟨.hbm, 415, rfl⟩
abbrev main_call12_c : Ref sig .tc := ⟨.hbm, 416, rfl⟩
abbrev main_call12_v0 : Ref sig .tc := ⟨.hbm, 417, rfl⟩
abbrev main_call12_v1 : Ref sig .tc := ⟨.hbm, 418, rfl⟩
abbrev main_call12_c_0 : Ref sig .tc := ⟨.hbm, 419, rfl⟩
abbrev main_call12_v2 : Ref sig .tc := ⟨.hbm, 420, rfl⟩
abbrev main_call12_v3 : Ref sig .tc := ⟨.hbm, 421, rfl⟩
abbrev main_call12_v4 : Ref sig .tc := ⟨.hbm, 422, rfl⟩
abbrev main_call12_v5 : Ref sig .tc := ⟨.hbm, 423, rfl⟩
abbrev main_call12_c_1 : Ref sig .tc := ⟨.hbm, 424, rfl⟩
abbrev main_call12_c_2 : Ref sig .tc := ⟨.hbm, 425, rfl⟩
abbrev main_call12_v6 : Ref sig .tc := ⟨.hbm, 426, rfl⟩
abbrev main_call12_v7 : Ref sig .tc := ⟨.hbm, 427, rfl⟩
abbrev main_call12_v8 : Ref sig .tc := ⟨.hbm, 428, rfl⟩
abbrev main_call12_v9 : Ref sig .tc := ⟨.hbm, 429, rfl⟩
abbrev main_call12_v10 : Ref sig .tc := ⟨.hbm, 430, rfl⟩
abbrev main_call12_v11 : Ref sig .tc := ⟨.hbm, 431, rfl⟩
abbrev main_call12_c_3 : Ref sig .tc := ⟨.hbm, 432, rfl⟩
abbrev main_call12_v12 : Ref sig .tc := ⟨.hbm, 433, rfl⟩
abbrev main_call12_v13 : Ref sig .tc := ⟨.hbm, 434, rfl⟩
abbrev main_call12_cst : Ref sig .tc := ⟨.hbm, 435, rfl⟩
abbrev main_call12_v14 : Ref sig .tc := ⟨.hbm, 436, rfl⟩
abbrev main_v234 : Ref sig .tc := ⟨.hbm, 437, rfl⟩
abbrev main_v235 : Ref sig .tc := ⟨.hbm, 438, rfl⟩
abbrev main_v236 : Ref sig .tc := ⟨.hbm, 439, rfl⟩
abbrev main_v237 : Ref sig .tc := ⟨.hbm, 440, rfl⟩
abbrev main_v238 : Ref sig .tc := ⟨.hbm, 441, rfl⟩
abbrev main_v239 : Ref sig .tc := ⟨.hbm, 442, rfl⟩
abbrev main_v240 : Ref sig .tc := ⟨.hbm, 443, rfl⟩
abbrev main_cst_67 : Ref sig .tc := ⟨.hbm, 444, rfl⟩
abbrev main_v241 : Ref sig .tc := ⟨.hbm, 445, rfl⟩
abbrev main_v242 : Ref sig .tc := ⟨.hbm, 446, rfl⟩
abbrev main_cst_68 : Ref sig .tc := ⟨.hbm, 447, rfl⟩
abbrev main_v243 : Ref sig .tc := ⟨.hbm, 448, rfl⟩
abbrev main_v244 : Ref sig .tc := ⟨.hbm, 449, rfl⟩
abbrev main_v245 : Ref sig .tc := ⟨.hbm, 450, rfl⟩
abbrev main_v246 : Ref sig .tc := ⟨.hbm, 451, rfl⟩
abbrev main_v247 : Ref sig .tc := ⟨.hbm, 452, rfl⟩
abbrev main_v248 : Ref sig .tc := ⟨.hbm, 453, rfl⟩
abbrev main_v249 : Ref sig .tc := ⟨.hbm, 454, rfl⟩
abbrev main_v250 : Ref sig .tc := ⟨.hbm, 455, rfl⟩
abbrev main_v251 : Ref sig .tc := ⟨.hbm, 456, rfl⟩
abbrev main_cst_69 : Ref sig .tc := ⟨.hbm, 457, rfl⟩
abbrev main_v252 : Ref sig .tc := ⟨.hbm, 458, rfl⟩
abbrev main_cst_70 : Ref sig .tc := ⟨.hbm, 459, rfl⟩
abbrev main_v253 : Ref sig .tc := ⟨.hbm, 460, rfl⟩
abbrev main_v254 : Ref sig .tc := ⟨.hbm, 461, rfl⟩
abbrev main_cst_71 : Ref sig .tc := ⟨.hbm, 462, rfl⟩
abbrev main_v255 : Ref sig .tc := ⟨.hbm, 463, rfl⟩
abbrev main_v256 : Ref sig .tc := ⟨.hbm, 464, rfl⟩
abbrev main_call13_v0 : Ref sig .tc := ⟨.hbm, 465, rfl⟩
abbrev main_call13_v1 : Ref sig .tc := ⟨.hbm, 466, rfl⟩
abbrev main_call13_v2 : Ref sig .tc := ⟨.hbm, 467, rfl⟩
abbrev main_call13_v3 : Ref sig .tc := ⟨.hbm, 468, rfl⟩
abbrev main_call13_v4 : Ref sig .tc := ⟨.hbm, 469, rfl⟩
abbrev main_v257 : Ref sig .tc := ⟨.hbm, 470, rfl⟩
abbrev main_call14_cst : Ref sig .tc := ⟨.hbm, 471, rfl⟩
abbrev main_call14_v0 : Ref sig .tc := ⟨.hbm, 472, rfl⟩
abbrev main_call14_v1 : Ref sig .tc := ⟨.hbm, 473, rfl⟩
abbrev main_call14_v2 : Ref sig .tc := ⟨.hbm, 474, rfl⟩
abbrev main_call14_v3 : Ref sig .tc := ⟨.hbm, 475, rfl⟩
abbrev main_call14_v4 : Ref sig .tc := ⟨.hbm, 476, rfl⟩
abbrev main_call14_v5 : Ref sig .tc := ⟨.hbm, 477, rfl⟩
abbrev main_call14_v6 : Ref sig .tc := ⟨.hbm, 478, rfl⟩
abbrev main_call14_v7 : Ref sig .tc := ⟨.hbm, 479, rfl⟩
abbrev main_call14_v8 : Ref sig .tc := ⟨.hbm, 480, rfl⟩
abbrev main_call14_v9 : Ref sig .tc := ⟨.hbm, 481, rfl⟩
abbrev main_call14_v10 : Ref sig .tc := ⟨.hbm, 482, rfl⟩
abbrev main_call14_v11 : Ref sig .tc := ⟨.hbm, 483, rfl⟩
abbrev main_v258 : Ref sig .tc := ⟨.hbm, 484, rfl⟩
abbrev main_v259 : Ref sig .tc := ⟨.hbm, 485, rfl⟩
abbrev main_v260 : Ref sig .tc := ⟨.hbm, 486, rfl⟩
abbrev main_cst_72 : Ref sig .tc := ⟨.hbm, 487, rfl⟩
abbrev main_v261 : Ref sig .tc := ⟨.hbm, 488, rfl⟩
abbrev main_cst_73 : Ref sig .tc := ⟨.hbm, 489, rfl⟩
abbrev main_v262 : Ref sig .tc := ⟨.hbm, 490, rfl⟩
abbrev main_v263 : Ref sig .tc := ⟨.hbm, 491, rfl⟩
abbrev main_cst_74 : Ref sig .tc := ⟨.hbm, 492, rfl⟩
abbrev main_v264 : Ref sig .tc := ⟨.hbm, 493, rfl⟩
abbrev main_v265 : Ref sig .tc := ⟨.hbm, 494, rfl⟩
abbrev main_v266 : Ref sig .tc := ⟨.hbm, 495, rfl⟩
abbrev main_v267 : Ref sig .tc := ⟨.hbm, 496, rfl⟩
abbrev main_v268 : Ref sig .tc := ⟨.hbm, 497, rfl⟩
abbrev main_v269 : Ref sig .tc := ⟨.hbm, 498, rfl⟩
abbrev main_v270 : Ref sig .tc := ⟨.hbm, 499, rfl⟩
abbrev main_v271 : Ref sig .tc := ⟨.hbm, 500, rfl⟩
abbrev main_cst_75 : Ref sig .tc := ⟨.hbm, 501, rfl⟩
abbrev main_v272 : Ref sig .tc := ⟨.hbm, 502, rfl⟩
abbrev main_cst_76 : Ref sig .tc := ⟨.hbm, 503, rfl⟩
abbrev main_v273 : Ref sig .tc := ⟨.hbm, 504, rfl⟩
abbrev main_cst_77 : Ref sig .tc := ⟨.hbm, 505, rfl⟩
abbrev main_v274 : Ref sig .tc := ⟨.hbm, 506, rfl⟩
abbrev main_cst_78 : Ref sig .tc := ⟨.hbm, 507, rfl⟩
abbrev main_v275 : Ref sig .tc := ⟨.hbm, 508, rfl⟩
abbrev main_v276 : Ref sig .tc := ⟨.hbm, 509, rfl⟩
abbrev main_cst_79 : Ref sig .tc := ⟨.hbm, 510, rfl⟩
abbrev main_v277 : Ref sig .tc := ⟨.hbm, 511, rfl⟩
abbrev main_cst_80 : Ref sig .tc := ⟨.hbm, 512, rfl⟩
abbrev main_v278 : Ref sig .tc := ⟨.hbm, 513, rfl⟩
abbrev main_v279 : Ref sig .tc := ⟨.hbm, 514, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x4x6400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x6400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4x1600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4x400 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  slices_S16x32x4_S16x32x1_0_0_0 : S16x32x4.Slices ![0, 0, 0] S16x32x1
  shapeCasts_S16x32x1_S16x32 : S16x32x1.ShapeCasts S16x32
  bcast_S_S16x32 : S_.BroadcastsInDim S16x32 (![] : Fin 0 → Fin S16x32.rank)
  slices_S16x32x4_S16x32x1_0_0_1 : S16x32x4.Slices ![0, 0, 1] S16x32x1
  slices_S16x32x4_S16x32x1_0_0_2 : S16x32x4.Slices ![0, 0, 2] S16x32x1
  slices_S16x32x4_S16x32x1_0_0_3 : S16x32x4.Slices ![0, 0, 3] S16x32x1
  bcast_S16_S16x1_0 : S16.BroadcastsInDim S16x1 (![0] : Fin 1 → Fin S16x1.rank)
  bcast_S_S16x80x80 : S_.BroadcastsInDim S16x80x80 (![] : Fin 0 → Fin S16x80x80.rank)
  bcast_S_S16x1 : S_.BroadcastsInDim S16x1 (![] : Fin 0 → Fin S16x1.rank)
  bcast_S16x1_S16x32_0_1 : S16x1.BroadcastsInDim S16x32 (![0, 1] : Fin 2 → Fin S16x32.rank)
  bcast_S16x32_S16x32x1_0_1 : S16x32.BroadcastsInDim S16x32x1 (![0, 1] : Fin 2 → Fin S16x32x1.rank)
  concatenates_S16x32x1_S16x32x1_S16x32x1_S16x32x3_d2 : Shape.Concatenates [S16x32x1, S16x32x1, S16x32x1] S16x32x3 2
  slices_S16x144x80x80_S16x4x80x80_0_0_0_0 : S16x144x80x80.Slices ![0, 0, 0, 0] S16x4x80x80
  slices_S16x144x80x80_S16x80x80x80_0_64_0_0 : S16x144x80x80.Slices ![0, 64, 0, 0] S16x80x80x80
  concatenates_S16x4x80x80_S16x80x80x80_S16x84x80x80_d1 : Shape.Concatenates [S16x4x80x80, S16x80x80x80] S16x84x80x80 1
  shapeCasts_S16x84x80x80_S16x84x6400 : S16x84x80x80.ShapeCasts S16x84x6400
  bcast_S16x32_S16x1x32_0_2 : S16x32.BroadcastsInDim S16x1x32 (![0, 2] : Fin 2 → Fin S16x1x32.rank)
  bcast_S16x1x32_S16x84x32_0_1_2 : S16x1x32.BroadcastsInDim S16x84x32 (![0, 1, 2] : Fin 3 → Fin S16x84x32.rank)
  bcast_S_S16x84x32 : S_.BroadcastsInDim S16x84x32 (![] : Fin 0 → Fin S16x84x32.rank)
  shapeCasts_S16x84x32_S16x84x32x1 : S16x84x32.ShapeCasts S16x84x32x1
  bcast_S_S16x84x32x1 : S_.BroadcastsInDim S16x84x32x1 (![] : Fin 0 → Fin S16x84x32x1.rank)
  bcast_S1_S1x1x1x1_3 : S1.BroadcastsInDim S1x1x1x1 (![3] : Fin 1 → Fin S1x1x1x1.rank)
  bcast_S1x1x1x1_S16x84x32x1_0_1_2_3 : S1x1x1x1.BroadcastsInDim S16x84x32x1 (![0, 1, 2, 3] : Fin 4 → Fin S16x84x32x1.rank)
  reducesTo_S16x84x32x1_S16x84x32_d3 : S16x84x32x1.ReducesTo [3] S16x84x32
  h_S_ : 0 < S_.numel
  transposes_S16x84x32_S16x32x84_0_2_1 : S16x84x32.Transposes [0, 2, 1] S16x32x84
  slices_S16x32x84_S16x32x4_0_0_0 : S16x32x84.Slices ![0, 0, 0] S16x32x4
  concatenates_S16x32x1_S16x32x1_S16x32x1_S16x32x1_S16x32x4_d2 : Shape.Concatenates [S16x32x1, S16x32x1, S16x32x1, S16x32x1] S16x32x4 2
  reducesTo_S16x32x4_S16x32_d2 : S16x32x4.ReducesTo [2] S16x32
  reducesTo_S16x32_S_d0_1 : S16x32.ReducesTo [0, 1] S_
  slices_S16x32x84_S16x32x80_0_0_4 : S16x32x84.Slices ![0, 0, 4] S16x32x80
  bcast_S16x32x1_S16x32x80_0_1_2 : S16x32x1.BroadcastsInDim S16x32x80 (![0, 1, 2] : Fin 3 → Fin S16x32x80.rank)
  bcast_S1x1x80_S16x32x80_0_1_2 : S1x1x80.BroadcastsInDim S16x32x80 (![0, 1, 2] : Fin 3 → Fin S16x32x80.rank)
  bcast_S_S16x32x80 : S_.BroadcastsInDim S16x32x80 (![] : Fin 0 → Fin S16x32x80.rank)
  reducesTo_S16x32x80_S16x32_d2 : S16x32x80.ReducesTo [2] S16x32
  shapeCasts_S16x4x80x80_S16x4x6400 : S16x4x80x80.ShapeCasts S16x4x6400
  shapeCasts_S16x80x80_S16x6400 : S16x80x80.ShapeCasts S16x6400
  bcast_S_S16x40x40 : S_.BroadcastsInDim S16x40x40 (![] : Fin 0 → Fin S16x40x40.rank)
  slices_S16x144x40x40_S16x4x40x40_0_0_0_0 : S16x144x40x40.Slices ![0, 0, 0, 0] S16x4x40x40
  slices_S16x144x40x40_S16x80x40x40_0_64_0_0 : S16x144x40x40.Slices ![0, 64, 0, 0] S16x80x40x40
  concatenates_S16x4x40x40_S16x80x40x40_S16x84x40x40_d1 : Shape.Concatenates [S16x4x40x40, S16x80x40x40] S16x84x40x40 1
  shapeCasts_S16x84x40x40_S16x84x1600 : S16x84x40x40.ShapeCasts S16x84x1600
  shapeCasts_S16x4x40x40_S16x4x1600 : S16x4x40x40.ShapeCasts S16x4x1600
  shapeCasts_S16x40x40_S16x1600 : S16x40x40.ShapeCasts S16x1600
  bcast_S_S16x20x20 : S_.BroadcastsInDim S16x20x20 (![] : Fin 0 → Fin S16x20x20.rank)
  slices_S16x144x20x20_S16x4x20x20_0_0_0_0 : S16x144x20x20.Slices ![0, 0, 0, 0] S16x4x20x20
  slices_S16x144x20x20_S16x80x20x20_0_64_0_0 : S16x144x20x20.Slices ![0, 64, 0, 0] S16x80x20x20
  concatenates_S16x4x20x20_S16x80x20x20_S16x84x20x20_d1 : Shape.Concatenates [S16x4x20x20, S16x80x20x20] S16x84x20x20 1
  shapeCasts_S16x84x20x20_S16x84x400 : S16x84x20x20.ShapeCasts S16x84x400
  shapeCasts_S16x4x20x20_S16x4x400 : S16x4x20x20.ShapeCasts S16x4x400
  shapeCasts_S16x20x20_S16x400 : S16x20x20.ShapeCasts S16x400
  inb_S16x4x6400_S16x4x6400_0_0_0 : ∀ a, (![0, 0, 0] : Fin 3 → Nat) a + S16x4x6400.size a ≤ S16x4x6400.size a
  h_S16x4x6400 : 0 < S16x4x6400.numel
  shapeCasts_S16x4x6400_S16x4x6400 : S16x4x6400.ShapeCasts S16x4x6400
  slices_S16x4x6400_o0_0_0_S16x1x6400 : S16x4x6400.Slices ![0, 0, 0] S16x1x6400
  shapeCasts_S16x1x6400_S16x6400 : S16x1x6400.ShapeCasts S16x6400
  slices_S16x4x6400_o0_1_0_S16x1x6400 : S16x4x6400.Slices ![0, 1, 0] S16x1x6400
  slices_S16x4x6400_o0_2_0_S16x1x6400 : S16x4x6400.Slices ![0, 2, 0] S16x1x6400
  slices_S16x4x6400_o0_3_0_S16x1x6400 : S16x4x6400.Slices ![0, 3, 0] S16x1x6400
  inb_S16x6400_S16x6400_0_0 : ∀ a, (![0, 0] : Fin 2 → Nat) a + S16x6400.size a ≤ S16x6400.size a
  h_S16x6400 : 0 < S16x6400.numel
  shapeCasts_S16x6400_S16x6400 : S16x6400.ShapeCasts S16x6400
  reduces_S16x6400_S16 : S16x6400.Reduces [1] S16
  shapeCasts_S16_S16x1 : S16.ShapeCasts S16x1
  reduces_S16x1_S1 : S16x1.Reduces [0] S1
  shapeCasts_S1_S1x1 : S1.ShapeCasts S1x1
  inb_S16x4x1600_S16x4x1600_0_0_0 : ∀ a, (![0, 0, 0] : Fin 3 → Nat) a + S16x4x1600.size a ≤ S16x4x1600.size a
  h_S16x4x1600 : 0 < S16x4x1600.numel
  shapeCasts_S16x4x1600_S16x4x1600 : S16x4x1600.ShapeCasts S16x4x1600
  slices_S16x4x1600_o0_0_0_S16x1x1600 : S16x4x1600.Slices ![0, 0, 0] S16x1x1600
  shapeCasts_S16x1x1600_S16x1600 : S16x1x1600.ShapeCasts S16x1600
  slices_S16x4x1600_o0_1_0_S16x1x1600 : S16x4x1600.Slices ![0, 1, 0] S16x1x1600
  slices_S16x4x1600_o0_2_0_S16x1x1600 : S16x4x1600.Slices ![0, 2, 0] S16x1x1600
  slices_S16x4x1600_o0_3_0_S16x1x1600 : S16x4x1600.Slices ![0, 3, 0] S16x1x1600
  inb_S16x1600_S16x1600_0_0 : ∀ a, (![0, 0] : Fin 2 → Nat) a + S16x1600.size a ≤ S16x1600.size a
  h_S16x1600 : 0 < S16x1600.numel
  shapeCasts_S16x1600_S16x1600 : S16x1600.ShapeCasts S16x1600
  reduces_S16x1600_S16 : S16x1600.Reduces [1] S16
  inb_S16x4x400_S16x4x400_0_0_0 : ∀ a, (![0, 0, 0] : Fin 3 → Nat) a + S16x4x400.size a ≤ S16x4x400.size a
  h_S16x4x400 : 0 < S16x4x400.numel
  shapeCasts_S16x4x400_S16x4x400 : S16x4x400.ShapeCasts S16x4x400
  slices_S16x4x400_o0_0_0_S16x1x400 : S16x4x400.Slices ![0, 0, 0] S16x1x400
  shapeCasts_S16x1x400_S16x400 : S16x1x400.ShapeCasts S16x400
  slices_S16x4x400_o0_1_0_S16x1x400 : S16x4x400.Slices ![0, 1, 0] S16x1x400
  slices_S16x4x400_o0_2_0_S16x1x400 : S16x4x400.Slices ![0, 2, 0] S16x1x400
  slices_S16x4x400_o0_3_0_S16x1x400 : S16x4x400.Slices ![0, 3, 0] S16x1x400
  inb_S16x400_S16x400_0_0 : ∀ a, (![0, 0] : Fin 2 → Nat) a + S16x400.size a ≤ S16x400.size a
  h_S16x400 : 0 < S16x400.numel
  shapeCasts_S16x400_S16x400 : S16x400.ShapeCasts S16x400
  reduces_S16x400_S16 : S16x400.Reduces [1] S16
  inb_S1x1_S1x1_0_0 : ∀ a, (![0, 0] : Fin 2 → Nat) a + S1x1.size a ≤ S1x1.size a
  h_S1x1 : 0 < S1x1.numel
  shapeCasts_S1x1_S_ : S1x1.ShapeCasts S_
  scatter_S16x80x80_S16x32x3_S16x32_n_012_012_2_wf : ScatterDims.WF S16x80x80 S16x32x3 S16x32 [] [0, 1, 2] [0, 1, 2] 2
  gather_S16x84x6400_S16x84x32x1_S16x84x32_n_2_01_01_2_3_111_wf : GatherDims.WF S16x84x6400 S16x84x32x1 S16x84x32 [] [2] [0, 1] [2] [0, 1] 3 ![1, 1, 1]
  scatter_S16x40x40_S16x32x3_S16x32_n_012_012_2_wf : ScatterDims.WF S16x40x40 S16x32x3 S16x32 [] [0, 1, 2] [0, 1, 2] 2
  gather_S16x84x1600_S16x84x32x1_S16x84x32_n_2_01_01_2_3_111_wf : GatherDims.WF S16x84x1600 S16x84x32x1 S16x84x32 [] [2] [0, 1] [2] [0, 1] 3 ![1, 1, 1]
  scatter_S16x20x20_S16x32x3_S16x32_n_012_012_2_wf : ScatterDims.WF S16x20x20 S16x32x3 S16x32 [] [0, 1, 2] [0, 1, 2] 2
  gather_S16x84x400_S16x84x32x1_S16x84x32_n_2_01_01_2_3_111_wf : GatherDims.WF S16x84x400 S16x84x32x1 S16x84x32 [] [2] [0, 1] [2] [0, 1] 3 ![1, 1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4x6400.size a ≤ S16x4x6400.size a
  hwx0_0 : ∀ i : grid0.Coords, EltTy.bits .f32 = 32 ∨ (Rect.block (s := S16x4x6400) S16x4x6400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x6400.size a ≤ S16x6400.size a
  hwx0_1 : ∀ i : grid0.Coords, EltTy.bits .f32 = 32 ∨ (Rect.block (s := S16x6400) S16x6400.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4x1600.size a ≤ S16x4x1600.size a
  hwx0_2 : ∀ i : grid0.Coords, EltTy.bits .f32 = 32 ∨ (Rect.block (s := S16x4x1600) S16x4x1600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1600.size a ≤ S16x1600.size a
  hwx0_3 : ∀ i : grid0.Coords, EltTy.bits .f32 = 32 ∨ (Rect.block (s := S16x1600) S16x1600.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x4x400.size a ≤ S16x4x400.size a
  hwx0_4 : ∀ i : grid0.Coords, EltTy.bits .f32 = 32 ∨ (Rect.block (s := S16x4x400) S16x4x400.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x400.size a ≤ S16x400.size a
  hwx0_5 : ∀ i : grid0.Coords, EltTy.bits .f32 = 32 ∨ (Rect.block (s := S16x400) S16x400.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def scatter_S16x80x80_S16x32x3_S16x32_n_012_012_2 : ScatterDims S16x80x80 S16x32x3 S16x32 where
  updateWindowDims := []
  insertedWindowDims := [0, 1, 2]
  scatterDimsToOperandDims := [0, 1, 2]
  indexVectorDim := 2
  wf := scatter_S16x80x80_S16x32x3_S16x32_n_012_012_2_wf
def gather_S16x84x6400_S16x84x32x1_S16x84x32_n_2_01_01_2_3_111 : GatherDims S16x84x6400 S16x84x32x1 S16x84x32 where
  offsetDims := []
  collapsedSliceDims := [2]
  operandBatchingDims := [0, 1]
  startIndicesBatchingDims := [0, 1]
  startIndexMap := [2]
  indexVectorDim := 3
  sliceSizes := ![1, 1, 1]
  wf := gather_S16x84x6400_S16x84x32x1_S16x84x32_n_2_01_01_2_3_111_wf
def scatter_S16x40x40_S16x32x3_S16x32_n_012_012_2 : ScatterDims S16x40x40 S16x32x3 S16x32 where
  updateWindowDims := []
  insertedWindowDims := [0, 1, 2]
  scatterDimsToOperandDims := [0, 1, 2]
  indexVectorDim := 2
  wf := scatter_S16x40x40_S16x32x3_S16x32_n_012_012_2_wf
def gather_S16x84x1600_S16x84x32x1_S16x84x32_n_2_01_01_2_3_111 : GatherDims S16x84x1600 S16x84x32x1 S16x84x32 where
  offsetDims := []
  collapsedSliceDims := [2]
  operandBatchingDims := [0, 1]
  startIndicesBatchingDims := [0, 1]
  startIndexMap := [2]
  indexVectorDim := 3
  sliceSizes := ![1, 1, 1]
  wf := gather_S16x84x1600_S16x84x32x1_S16x84x32_n_2_01_01_2_3_111_wf
def scatter_S16x20x20_S16x32x3_S16x32_n_012_012_2 : ScatterDims S16x20x20 S16x32x3 S16x32 where
  updateWindowDims := []
  insertedWindowDims := [0, 1, 2]
  scatterDimsToOperandDims := [0, 1, 2]
  indexVectorDim := 2
  wf := scatter_S16x20x20_S16x32x3_S16x32_n_012_012_2_wf
def gather_S16x84x400_S16x84x32x1_S16x84x32_n_2_01_01_2_3_111 : GatherDims S16x84x400 S16x84x32x1 S16x84x32 where
  offsetDims := []
  collapsedSliceDims := [2]
  operandBatchingDims := [0, 1]
  startIndicesBatchingDims := [0, 1]
  startIndexMap := [2]
  indexVectorDim := 3
  sliceSizes := ![1, 1, 1]
  wf := gather_S16x84x400_S16x84x32x1_S16x84x32_n_2_01_01_2_3_111_wf

abbrev win0_0 : Pipeline.Window sig grid0 :=
  Pipeline.Window.ofSpec (Memref.whole main_v88) S16x4x6400.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v89) S16x6400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v178) S16x4x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v179) S16x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v268) S16x4x400.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v269) S16x400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v270) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x144x80x80 : Shape := ⟨4, ![16, 144, 80, 80]⟩
abbrev S16x144x40x40 : Shape := ⟨4, ![16, 144, 40, 40]⟩
abbrev S16x144x20x20 : Shape := ⟨4, ![16, 144, 20, 20]⟩
abbrev S16x32x4 : Shape := ⟨3, ![16, 32, 4]⟩
abbrev S16x32 : Shape := ⟨2, ![16, 32]⟩
abbrev S16x80x80x144 : Shape := ⟨4, ![16, 80, 80, 144]⟩
abbrev S16x80x80x64 : Shape := ⟨4, ![16, 80, 80, 64]⟩
abbrev S16x80x80x80 : Shape := ⟨4, ![16, 80, 80, 80]⟩
abbrev S16x32x1 : Shape := ⟨3, ![16, 32, 1]⟩
abbrev S_ : Shape := ⟨0, ![]⟩
abbrev S16 : Shape := ⟨1, ![16]⟩
abbrev S16x1 : Shape := ⟨2, ![16, 1]⟩
abbrev S16x80x80x1 : Shape := ⟨4, ![16, 80, 80, 1]⟩
abbrev S16x32x3 : Shape := ⟨3, ![16, 32, 3]⟩
abbrev S16x32x64 : Shape := ⟨3, ![16, 32, 64]⟩
abbrev S16x32x80 : Shape := ⟨3, ![16, 32, 80]⟩
abbrev S1x1x80 : Shape := ⟨3, ![1, 1, 80]⟩
abbrev S16x80x80x4 : Shape := ⟨4, ![16, 80, 80, 4]⟩
abbrev S16x80x80 : Shape := ⟨3, ![16, 80, 80]⟩
abbrev S16x40x40x144 : Shape := ⟨4, ![16, 40, 40, 144]⟩
abbrev S16x40x40x64 : Shape := ⟨4, ![16, 40, 40, 64]⟩
abbrev S16x40x40x80 : Shape := ⟨4, ![16, 40, 40, 80]⟩
abbrev S16x40x40x1 : Shape := ⟨4, ![16, 40, 40, 1]⟩
abbrev S16x40x40x4 : Shape := ⟨4, ![16, 40, 40, 4]⟩
abbrev S16x40x40 : Shape := ⟨3, ![16, 40, 40]⟩
abbrev S16x20x20x144 : Shape := ⟨4, ![16, 20, 20, 144]⟩
abbrev S16x20x20x64 : Shape := ⟨4, ![16, 20, 20, 64]⟩
abbrev S16x20x20x80 : Shape := ⟨4, ![16, 20, 20, 80]⟩
abbrev S16x20x20x1 : Shape := ⟨4, ![16, 20, 20, 1]⟩
abbrev S16x20x20x4 : Shape := ⟨4, ![16, 20, 20, 4]⟩
abbrev S16x20x20 : Shape := ⟨3, ![16, 20, 20]⟩

abbrev nBuf : Space → Nat
  | .hbm => 652
  | .vmem => 0
  | .smem => 0
  | _ => 0

abbrev hbmTy0_0 (i : Nat) : BufTy := match i % 128 with
  | 0 => ⟨S16x144x80x80, .f32⟩
  | 1 => ⟨S16x144x40x40, .f32⟩
  | 2 => ⟨S16x144x20x20, .f32⟩
  | 3 => ⟨S16x32x4, .f32⟩
  | 4 => ⟨S16x32, .i32⟩
  | 5 => ⟨S16x80x80x144, .f32⟩
  | 6 => ⟨S16x80x80x64, .f32⟩
  | 7 => ⟨S16x80x80x80, .f32⟩
  | 8 => ⟨S16x32x1, .f32⟩
  | 9 => ⟨S16x32, .f32⟩
  | 10 => ⟨S_, .f32⟩
  | 11 => ⟨S16x32, .f32⟩
  | 12 => ⟨S16x32, .f32⟩
  | 13 => ⟨S16x32x1, .f32⟩
  | 14 => ⟨S16x32, .f32⟩
  | 15 => ⟨S_, .f32⟩
  | 16 => ⟨S16x32, .f32⟩
  | 17 => ⟨S16x32, .f32⟩
  | 18 => ⟨S16x32x1, .f32⟩
  | 19 => ⟨S16x32, .f32⟩
  | 20 => ⟨S_, .f32⟩
  | 21 => ⟨S16x32, .f32⟩
  | 22 => ⟨S16x32, .f32⟩
  | 23 => ⟨S16x32x1, .f32⟩
  | 24 => ⟨S16x32, .f32⟩
  | 25 => ⟨S_, .f32⟩
  | 26 => ⟨S16x32, .f32⟩
  | 27 => ⟨S16x32, .f32⟩
  | 28 => ⟨S16x32, .i32⟩
  | 29 => ⟨S_, .i32⟩
  | 30 => ⟨S_, .i32⟩
  | 31 => ⟨S_, .i32⟩
  | 32 => ⟨S16x32, .i32⟩
  | 33 => ⟨S16x32, .i32⟩
  | 34 => ⟨S_, .i32⟩
  | 35 => ⟨S16x32, .i32⟩
  | 36 => ⟨S16x32, .i32⟩
  | 37 => ⟨S16x32, .i32⟩
  | 38 => ⟨S_, .i32⟩
  | 39 => ⟨S_, .i32⟩
  | 40 => ⟨S_, .i32⟩
  | 41 => ⟨S16x32, .i32⟩
  | 42 => ⟨S16x32, .i32⟩
  | 43 => ⟨S_, .i32⟩
  | 44 => ⟨S16x32, .i32⟩
  | 45 => ⟨S16x32, .i32⟩
  | 46 => ⟨S16, .i32⟩
  | 47 => ⟨S16x1, .i32⟩
  | 48 => ⟨S_, .f32⟩
  | 49 => ⟨S16x80x80x1, .f32⟩
  | 50 => ⟨S_, .i32⟩
  | 51 => ⟨S16x1, .i32⟩
  | 52 => ⟨S16x1, .i1⟩
  | 53 => ⟨S_, .i32⟩
  | 54 => ⟨S16x1, .i32⟩
  | 55 => ⟨S16x1, .i32⟩
  | 56 => ⟨S16x1, .i32⟩
  | 57 => ⟨S_, .i32⟩
  | 58 => ⟨S16x32, .i32⟩
  | 59 => ⟨S16x32, .i1⟩
  | 60 => ⟨S_, .i32⟩
  | 61 => ⟨S16x32, .i32⟩
  | 62 => ⟨S16x32, .i32⟩
  | 63 => ⟨S16x32, .i32⟩
  | 64 => ⟨S_, .i32⟩
  | 65 => ⟨S16x32, .i32⟩
  | 66 => ⟨S16x32, .i1⟩
  | 67 => ⟨S_, .i32⟩
  | 68 => ⟨S16x32, .i32⟩
  | 69 => ⟨S16x32, .i32⟩
  | 70 => ⟨S16x32, .i32⟩
  | 71 => ⟨S16x32, .i32⟩
  | 72 => ⟨S_, .i32⟩
  | 73 => ⟨S16x32, .i32⟩
  | 74 => ⟨S16x32, .i32⟩
  | 75 => ⟨S16x32x1, .i32⟩
  | 76 => ⟨S16x32x1, .i32⟩
  | 77 => ⟨S16x32x1, .i32⟩
  | 78 => ⟨S16x32x1, .i32⟩
  | 79 => ⟨S16x32x4, .i32⟩
  | 80 => ⟨S_, .f32⟩
  | 81 => ⟨S16x32, .f32⟩
  | 82 => ⟨S16x80x80x1, .f32⟩
  | 83 => ⟨S_, .i32⟩
  | 84 => ⟨S16x1, .i32⟩
  | 85 => ⟨S16x1, .i1⟩
  | 86 => ⟨S_, .i32⟩
  | 87 => ⟨S16x1, .i32⟩
  | 88 => ⟨S16x1, .i32⟩
  | 89 => ⟨S16x1, .i32⟩
  | 90 => ⟨S_, .i32⟩
  | 91 => ⟨S16x32, .i32⟩
  | 92 => ⟨S16x32, .i1⟩
  | 93 => ⟨S_, .i32⟩
  | 94 => ⟨S16x32, .i32⟩
  | 95 => ⟨S16x32, .i32⟩
  | 96 => ⟨S16x32, .i32⟩
  | 97 => ⟨S_, .i32⟩
  | 98 => ⟨S16x32, .i32⟩
  | 99 => ⟨S16x32, .i1⟩
  | 100 => ⟨S_, .i32⟩
  | 101 => ⟨S16x32, .i32⟩
  | 102 => ⟨S16x32, .i32⟩
  | 103 => ⟨S16x32, .i32⟩
  | 104 => ⟨S16x32, .i32⟩
  | 105 => ⟨S16x32x1, .i32⟩
  | 106 => ⟨S16x32x1, .i32⟩
  | 107 => ⟨S16x32x1, .i32⟩
  | 108 => ⟨S16x32x3, .i32⟩
  | 109 => ⟨S16x32x64, .f32⟩
  | 110 => ⟨S16x32x4, .f32⟩
  | 111 => ⟨S16x32, .f32⟩
  | 112 => ⟨S16x32, .f32⟩
  | 113 => ⟨S16x32, .f32⟩
  | 114 => ⟨S16x32, .f32⟩
  | 115 => ⟨S_, .f32⟩
  | 116 => ⟨S16x32, .f32⟩
  | 117 => ⟨S16x32, .f32⟩
  | 118 => ⟨S_, .f32⟩
  | 119 => ⟨S16x32, .f32⟩
  | 120 => ⟨S16x32, .f32⟩
  | 121 => ⟨S16x32x1, .f32⟩
  | 122 => ⟨S16x32x1, .f32⟩
  | 123 => ⟨S16x32x1, .f32⟩
  | 124 => ⟨S16x32x1, .f32⟩
  | 125 => ⟨S16x32x4, .f32⟩
  | 126 => ⟨S16x32x4, .f32⟩
  | 127 => ⟨S16x32x4, .f32⟩
  | _ => ⟨S16x144x80x80, .f32⟩

abbrev hbmTy0_1 (i : Nat) : BufTy := match i % 128 with
  | 0 => ⟨S_, .f32⟩
  | 1 => ⟨S16x32, .f32⟩
  | 2 => ⟨S_, .f32⟩
  | 3 => ⟨S16x32, .f32⟩
  | 4 => ⟨S16x32, .f32⟩
  | 5 => ⟨S_, .f32⟩
  | 6 => ⟨S_, .f32⟩
  | 7 => ⟨S_, .i32⟩
  | 8 => ⟨S16x1, .i32⟩
  | 9 => ⟨S16x1, .i1⟩
  | 10 => ⟨S_, .i32⟩
  | 11 => ⟨S16x1, .i32⟩
  | 12 => ⟨S16x1, .i32⟩
  | 13 => ⟨S16x1, .i32⟩
  | 14 => ⟨S_, .i32⟩
  | 15 => ⟨S16x32, .i32⟩
  | 16 => ⟨S16x32, .i1⟩
  | 17 => ⟨S_, .i32⟩
  | 18 => ⟨S16x32, .i32⟩
  | 19 => ⟨S16x32, .i32⟩
  | 20 => ⟨S16x32, .i32⟩
  | 21 => ⟨S_, .i32⟩
  | 22 => ⟨S16x32, .i32⟩
  | 23 => ⟨S16x32, .i1⟩
  | 24 => ⟨S_, .i32⟩
  | 25 => ⟨S16x32, .i32⟩
  | 26 => ⟨S16x32, .i32⟩
  | 27 => ⟨S16x32, .i32⟩
  | 28 => ⟨S16x32, .i32⟩
  | 29 => ⟨S16x32x1, .i32⟩
  | 30 => ⟨S16x32x1, .i32⟩
  | 31 => ⟨S16x32x1, .i32⟩
  | 32 => ⟨S16x32x3, .i32⟩
  | 33 => ⟨S16x32x80, .f32⟩
  | 34 => ⟨S16x32x1, .i32⟩
  | 35 => ⟨S1x1x80, .i32⟩
  | 36 => ⟨S16x32x80, .i32⟩
  | 37 => ⟨S16x32x80, .i32⟩
  | 38 => ⟨S16x32x80, .i1⟩
  | 39 => ⟨S16x32x80, .f32⟩
  | 40 => ⟨S_, .f32⟩
  | 41 => ⟨S16x32x80, .f32⟩
  | 42 => ⟨S16x32x80, .f32⟩
  | 43 => ⟨S16x32x80, .f32⟩
  | 44 => ⟨S16x32x80, .f32⟩
  | 45 => ⟨S16x32x80, .i1⟩
  | 46 => ⟨S16x32x80, .f32⟩
  | 47 => ⟨S16x32x80, .f32⟩
  | 48 => ⟨S16x32x80, .f32⟩
  | 49 => ⟨S16x32x80, .f32⟩
  | 50 => ⟨S16x32x80, .f32⟩
  | 51 => ⟨S16x32x80, .f32⟩
  | 52 => ⟨S16x32x80, .f32⟩
  | 53 => ⟨S16x32x80, .f32⟩
  | 54 => ⟨S16x32x80, .f32⟩
  | 55 => ⟨S16x32x80, .f32⟩
  | 56 => ⟨S_, .f32⟩
  | 57 => ⟨S16x32, .f32⟩
  | 58 => ⟨S_, .f32⟩
  | 59 => ⟨S16x32, .f32⟩
  | 60 => ⟨S16x32, .f32⟩
  | 61 => ⟨S_, .f32⟩
  | 62 => ⟨S_, .f32⟩
  | 63 => ⟨S16x80x80x4, .f32⟩
  | 64 => ⟨S_, .f32⟩
  | 65 => ⟨S16x80x80, .f32⟩
  | 66 => ⟨S16x80x80x1, .f32⟩
  | 67 => ⟨S_, .f32⟩
  | 68 => ⟨S16x80x80x1, .f32⟩
  | 69 => ⟨S16x80x80x1, .f32⟩
  | 70 => ⟨S16x80x80x1, .f32⟩
  | 71 => ⟨S16x80x80x1, .f32⟩
  | 72 => ⟨S_, .f32⟩
  | 73 => ⟨S16x80x80x1, .f32⟩
  | 74 => ⟨S16x80x80x1, .f32⟩
  | 75 => ⟨S_, .f32⟩
  | 76 => ⟨S16x80x80x1, .f32⟩
  | 77 => ⟨S16x80x80x1, .f32⟩
  | 78 => ⟨S16x80x80x1, .f32⟩
  | 79 => ⟨S16x80x80x1, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S16x40x40x144, .f32⟩
  | 91 => ⟨S16x40x40x64, .f32⟩
  | 92 => ⟨S16x40x40x80, .f32⟩
  | 93 => ⟨S16x32x1, .f32⟩
  | 94 => ⟨S16x32, .f32⟩
  | 95 => ⟨S_, .f32⟩
  | 96 => ⟨S16x32, .f32⟩
  | 97 => ⟨S16x32, .f32⟩
  | 98 => ⟨S16x32x1, .f32⟩
  | 99 => ⟨S16x32, .f32⟩
  | 100 => ⟨S_, .f32⟩
  | 101 => ⟨S16x32, .f32⟩
  | 102 => ⟨S16x32, .f32⟩
  | 103 => ⟨S16x32x1, .f32⟩
  | 104 => ⟨S16x32, .f32⟩
  | 105 => ⟨S_, .f32⟩
  | 106 => ⟨S16x32, .f32⟩
  | 107 => ⟨S16x32, .f32⟩
  | 108 => ⟨S16x32x1, .f32⟩
  | 109 => ⟨S16x32, .f32⟩
  | 110 => ⟨S_, .f32⟩
  | 111 => ⟨S16x32, .f32⟩
  | 112 => ⟨S16x32, .f32⟩
  | 113 => ⟨S16x32, .i32⟩
  | 114 => ⟨S_, .i32⟩
  | 115 => ⟨S_, .i32⟩
  | 116 => ⟨S_, .i32⟩
  | 117 => ⟨S16x32, .i32⟩
  | 118 => ⟨S16x32, .i32⟩
  | 119 => ⟨S_, .i32⟩
  | 120 => ⟨S16x32, .i32⟩
  | 121 => ⟨S16x32, .i32⟩
  | 122 => ⟨S16x32, .i32⟩
  | 123 => ⟨S_, .i32⟩
  | 124 => ⟨S_, .i32⟩
  | 125 => ⟨S_, .i32⟩
  | 126 => ⟨S16x32, .i32⟩
  | 127 => ⟨S16x32, .i32⟩
  | _ => ⟨S16x144x80x80, .f32⟩

abbrev hbmTy0_2 (i : Nat) : BufTy := match i % 128 with
  | 0 => ⟨S_, .i32⟩
  | 1 => ⟨S16x32, .i32⟩
  | 2 => ⟨S16x32, .i32⟩
  | 3 => ⟨S16, .i32⟩
  | 4 => ⟨S16x1, .i32⟩
  | 5 => ⟨S_, .f32⟩
  | 6 => ⟨S16x40x40x1, .f32⟩
  | 7 => ⟨S_, .i32⟩
  | 8 => ⟨S16x1, .i32⟩
  | 9 => ⟨S16x1, .i1⟩
  | 10 => ⟨S_, .i32⟩
  | 11 => ⟨S16x1, .i32⟩
  | 12 => ⟨S16x1, .i32⟩
  | 13 => ⟨S16x1, .i32⟩
  | 14 => ⟨S_, .i32⟩
  | 15 => ⟨S16x32, .i32⟩
  | 16 => ⟨S16x32, .i1⟩
  | 17 => ⟨S_, .i32⟩
  | 18 => ⟨S16x32, .i32⟩
  | 19 => ⟨S16x32, .i32⟩
  | 20 => ⟨S16x32, .i32⟩
  | 21 => ⟨S_, .i32⟩
  | 22 => ⟨S16x32, .i32⟩
  | 23 => ⟨S16x32, .i1⟩
  | 24 => ⟨S_, .i32⟩
  | 25 => ⟨S16x32, .i32⟩
  | 26 => ⟨S16x32, .i32⟩
  | 27 => ⟨S16x32, .i32⟩
  | 28 => ⟨S16x32, .i32⟩
  | 29 => ⟨S_, .i32⟩
  | 30 => ⟨S16x32, .i32⟩
  | 31 => ⟨S16x32, .i32⟩
  | 32 => ⟨S16x32x1, .i32⟩
  | 33 => ⟨S16x32x1, .i32⟩
  | 34 => ⟨S16x32x1, .i32⟩
  | 35 => ⟨S16x32x1, .i32⟩
  | 36 => ⟨S16x32x4, .i32⟩
  | 37 => ⟨S_, .f32⟩
  | 38 => ⟨S16x32, .f32⟩
  | 39 => ⟨S16x40x40x1, .f32⟩
  | 40 => ⟨S_, .i32⟩
  | 41 => ⟨S16x1, .i32⟩
  | 42 => ⟨S16x1, .i1⟩
  | 43 => ⟨S_, .i32⟩
  | 44 => ⟨S16x1, .i32⟩
  | 45 => ⟨S16x1, .i32⟩
  | 46 => ⟨S16x1, .i32⟩
  | 47 => ⟨S_, .i32⟩
  | 48 => ⟨S16x32, .i32⟩
  | 49 => ⟨S16x32, .i1⟩
  | 50 => ⟨S_, .i32⟩
  | 51 => ⟨S16x32, .i32⟩
  | 52 => ⟨S16x32, .i32⟩
  | 53 => ⟨S16x32, .i32⟩
  | 54 => ⟨S_, .i32⟩
  | 55 => ⟨S16x32, .i32⟩
  | 56 => ⟨S16x32, .i1⟩
  | 57 => ⟨S_, .i32⟩
  | 58 => ⟨S16x32, .i32⟩
  | 59 => ⟨S16x32, .i32⟩
  | 60 => ⟨S16x32, .i32⟩
  | 61 => ⟨S16x32, .i32⟩
  | 62 => ⟨S16x32x1, .i32⟩
  | 63 => ⟨S16x32x1, .i32⟩
  | 64 => ⟨S16x32x1, .i32⟩
  | 65 => ⟨S16x32x3, .i32⟩
  | 66 => ⟨S16x32x64, .f32⟩
  | 67 => ⟨S16x32x4, .f32⟩
  | 68 => ⟨S16x32, .f32⟩
  | 69 => ⟨S16x32, .f32⟩
  | 70 => ⟨S16x32, .f32⟩
  | 71 => ⟨S16x32, .f32⟩
  | 72 => ⟨S_, .f32⟩
  | 73 => ⟨S16x32, .f32⟩
  | 74 => ⟨S16x32, .f32⟩
  | 75 => ⟨S_, .f32⟩
  | 76 => ⟨S16x32, .f32⟩
  | 77 => ⟨S16x32, .f32⟩
  | 78 => ⟨S16x32x1, .f32⟩
  | 79 => ⟨S16x32x1, .f32⟩
  | 80 => ⟨S16x32x1, .f32⟩
  | 81 => ⟨S16x32x1, .f32⟩
  | 82 => ⟨S16x32x4, .f32⟩
  | 83 => ⟨S16x32x4, .f32⟩
  | 84 => ⟨S16x32x4, .f32⟩
  | 85 => ⟨S_, .f32⟩
  | 86 => ⟨S16x32, .f32⟩
  | 87 => ⟨S_, .f32⟩
  | 88 => ⟨S16x32, .f32⟩
  | 89 => ⟨S16x32, .f32⟩
  | 90 => ⟨S_, .f32⟩
  | 91 => ⟨S_, .f32⟩
  | 92 => ⟨S_, .i32⟩
  | 93 => ⟨S16x1, .i32⟩
  | 94 => ⟨S16x1, .i1⟩
  | 95 => ⟨S_, .i32⟩
  | 96 => ⟨S16x1, .i32⟩
  | 97 => ⟨S16x1, .i32⟩
  | 98 => ⟨S16x1, .i32⟩
  | 99 => ⟨S_, .i32⟩
  | 100 => ⟨S16x32, .i32⟩
  | 101 => ⟨S16x32, .i1⟩
  | 102 => ⟨S_, .i32⟩
  | 103 => ⟨S16x32, .i32⟩
  | 104 => ⟨S16x32, .i32⟩
  | 105 => ⟨S16x32, .i32⟩
  | 106 => ⟨S_, .i32⟩
  | 107 => ⟨S16x32, .i32⟩
  | 108 => ⟨S16x32, .i1⟩
  | 109 => ⟨S_, .i32⟩
  | 110 => ⟨S16x32, .i32⟩
  | 111 => ⟨S16x32, .i32⟩
  | 112 => ⟨S16x32, .i32⟩
  | 113 => ⟨S16x32, .i32⟩
  | 114 => ⟨S16x32x1, .i32⟩
  | 115 => ⟨S16x32x1, .i32⟩
  | 116 => ⟨S16x32x1, .i32⟩
  | 117 => ⟨S16x32x3, .i32⟩
  | 118 => ⟨S16x32x80, .f32⟩
  | 119 => ⟨S16x32x1, .i32⟩
  | 120 => ⟨S1x1x80, .i32⟩
  | 121 => ⟨S16x32x80, .i32⟩
  | 122 => ⟨S16x32x80, .i32⟩
  | 123 => ⟨S16x32x80, .i1⟩
  | 124 => ⟨S16x32x80, .f32⟩
  | 125 => ⟨S_, .f32⟩
  | 126 => ⟨S16x32x80, .f32⟩
  | 127 => ⟨S16x32x80, .f32⟩
  | _ => ⟨S16x144x80x80, .f32⟩

abbrev hbmTy0_3 (i : Nat) : BufTy := match i % 128 with
  | 0 => ⟨S16x32x80, .f32⟩
  | 1 => ⟨S16x32x80, .f32⟩
  | 2 => ⟨S16x32x80, .i1⟩
  | 3 => ⟨S16x32x80, .f32⟩
  | 4 => ⟨S16x32x80, .f32⟩
  | 5 => ⟨S16x32x80, .f32⟩
  | 6 => ⟨S16x32x80, .f32⟩
  | 7 => ⟨S16x32x80, .f32⟩
  | 8 => ⟨S16x32x80, .f32⟩
  | 9 => ⟨S16x32x80, .f32⟩
  | 10 => ⟨S16x32x80, .f32⟩
  | 11 => ⟨S16x32x80, .f32⟩
  | 12 => ⟨S16x32x80, .f32⟩
  | 13 => ⟨S_, .f32⟩
  | 14 => ⟨S16x32, .f32⟩
  | 15 => ⟨S_, .f32⟩
  | 16 => ⟨S16x32, .f32⟩
  | 17 => ⟨S16x32, .f32⟩
  | 18 => ⟨S_, .f32⟩
  | 19 => ⟨S_, .f32⟩
  | 20 => ⟨S16x40x40x4, .f32⟩
  | 21 => ⟨S_, .f32⟩
  | 22 => ⟨S16x40x40, .f32⟩
  | 23 => ⟨S16x40x40x1, .f32⟩
  | 24 => ⟨S_, .f32⟩
  | 25 => ⟨S16x40x40x1, .f32⟩
  | 26 => ⟨S16x40x40x1, .f32⟩
  | 27 => ⟨S16x40x40x1, .f32⟩
  | 28 => ⟨S16x40x40x1, .f32⟩
  | 29 => ⟨S_, .f32⟩
  | 30 => ⟨S16x40x40x1, .f32⟩
  | 31 => ⟨S16x40x40x1, .f32⟩
  | 32 => ⟨S_, .f32⟩
  | 33 => ⟨S16x40x40x1, .f32⟩
  | 34 => ⟨S16x40x40x1, .f32⟩
  | 35 => ⟨S16x40x40x1, .f32⟩
  | 36 => ⟨S16x40x40x1, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S16x20x20x144, .f32⟩
  | 45 => ⟨S16x20x20x64, .f32⟩
  | 46 => ⟨S16x20x20x80, .f32⟩
  | 47 => ⟨S16x32x1, .f32⟩
  | 48 => ⟨S16x32, .f32⟩
  | 49 => ⟨S_, .f32⟩
  | 50 => ⟨S16x32, .f32⟩
  | 51 => ⟨S16x32, .f32⟩
  | 52 => ⟨S16x32x1, .f32⟩
  | 53 => ⟨S16x32, .f32⟩
  | 54 => ⟨S_, .f32⟩
  | 55 => ⟨S16x32, .f32⟩
  | 56 => ⟨S16x32, .f32⟩
  | 57 => ⟨S16x32x1, .f32⟩
  | 58 => ⟨S16x32, .f32⟩
  | 59 => ⟨S_, .f32⟩
  | 60 => ⟨S16x32, .f32⟩
  | 61 => ⟨S16x32, .f32⟩
  | 62 => ⟨S16x32x1, .f32⟩
  | 63 => ⟨S16x32, .f32⟩
  | 64 => ⟨S_, .f32⟩
  | 65 => ⟨S16x32, .f32⟩
  | 66 => ⟨S16x32, .f32⟩
  | 67 => ⟨S16x32, .i32⟩
  | 68 => ⟨S_, .i32⟩
  | 69 => ⟨S_, .i32⟩
  | 70 => ⟨S_, .i32⟩
  | 71 => ⟨S16x32, .i32⟩
  | 72 => ⟨S16x32, .i32⟩
  | 73 => ⟨S_, .i32⟩
  | 74 => ⟨S16x32, .i32⟩
  | 75 => ⟨S16x32, .i32⟩
  | 76 => ⟨S16x32, .i32⟩
  | 77 => ⟨S_, .i32⟩
  | 78 => ⟨S_, .i32⟩
  | 79 => ⟨S_, .i32⟩
  | 80 => ⟨S16x32, .i32⟩
  | 81 => ⟨S16x32, .i32⟩
  | 82 => ⟨S_, .i32⟩
  | 83 => ⟨S16x32, .i32⟩
  | 84 => ⟨S16x32, .i32⟩
  | 85 => ⟨S16, .i32⟩
  | 86 => ⟨S16x1, .i32⟩
  | 87 => ⟨S_, .f32⟩
  | 88 => ⟨S16x20x20x1, .f32⟩
  | 89 => ⟨S_, .i32⟩
  | 90 => ⟨S16x1, .i32⟩
  | 91 => ⟨S16x1, .i1⟩
  | 92 => ⟨S_, .i32⟩
  | 93 => ⟨S16x1, .i32⟩
  | 94 => ⟨S16x1, .i32⟩
  | 95 => ⟨S16x1, .i32⟩
  | 96 => ⟨S_, .i32⟩
  | 97 => ⟨S16x32, .i32⟩
  | 98 => ⟨S16x32, .i1⟩
  | 99 => ⟨S_, .i32⟩
  | 100 => ⟨S16x32, .i32⟩
  | 101 => ⟨S16x32, .i32⟩
  | 102 => ⟨S16x32, .i32⟩
  | 103 => ⟨S_, .i32⟩
  | 104 => ⟨S16x32, .i32⟩
  | 105 => ⟨S16x32, .i1⟩
  | 106 => ⟨S_, .i32⟩
  | 107 => ⟨S16x32, .i32⟩
  | 108 => ⟨S16x32, .i32⟩
  | 109 => ⟨S16x32, .i32⟩
  | 110 => ⟨S16x32, .i32⟩
  | 111 => ⟨S_, .i32⟩
  | 112 => ⟨S16x32, .i32⟩
  | 113 => ⟨S16x32, .i32⟩
  | 114 => ⟨S16x32x1, .i32⟩
  | 115 => ⟨S16x32x1, .i32⟩
  | 116 => ⟨S16x32x1, .i32⟩
  | 117 => ⟨S16x32x1, .i32⟩
  | 118 => ⟨S16x32x4, .i32⟩
  | 119 => ⟨S_, .f32⟩
  | 120 => ⟨S16x32, .f32⟩
  | 121 => ⟨S16x20x20x1, .f32⟩
  | 122 => ⟨S_, .i32⟩
  | 123 => ⟨S16x1, .i32⟩
  | 124 => ⟨S16x1, .i1⟩
  | 125 => ⟨S_, .i32⟩
  | 126 => ⟨S16x1, .i32⟩
  | 127 => ⟨S16x1, .i32⟩
  | _ => ⟨S16x144x80x80, .f32⟩

abbrev hbmTy0_4 (i : Nat) : BufTy := match i % 128 with
  | 0 => ⟨S16x1, .i32⟩
  | 1 => ⟨S_, .i32⟩
  | 2 => ⟨S16x32, .i32⟩
  | 3 => ⟨S16x32, .i1⟩
  | 4 => ⟨S_, .i32⟩
  | 5 => ⟨S16x32, .i32⟩
  | 6 => ⟨S16x32, .i32⟩
  | 7 => ⟨S16x32, .i32⟩
  | 8 => ⟨S_, .i32⟩
  | 9 => ⟨S16x32, .i32⟩
  | 10 => ⟨S16x32, .i1⟩
  | 11 => ⟨S_, .i32⟩
  | 12 => ⟨S16x32, .i32⟩
  | 13 => ⟨S16x32, .i32⟩
  | 14 => ⟨S16x32, .i32⟩
  | 15 => ⟨S16x32, .i32⟩
  | 16 => ⟨S16x32x1, .i32⟩
  | 17 => ⟨S16x32x1, .i32⟩
  | 18 => ⟨S16x32x1, .i32⟩
  | 19 => ⟨S16x32x3, .i32⟩
  | 20 => ⟨S16x32x64, .f32⟩
  | 21 => ⟨S16x32x4, .f32⟩
  | 22 => ⟨S16x32, .f32⟩
  | 23 => ⟨S16x32, .f32⟩
  | 24 => ⟨S16x32, .f32⟩
  | 25 => ⟨S16x32, .f32⟩
  | 26 => ⟨S_, .f32⟩
  | 27 => ⟨S16x32, .f32⟩
  | 28 => ⟨S16x32, .f32⟩
  | 29 => ⟨S_, .f32⟩
  | 30 => ⟨S16x32, .f32⟩
  | 31 => ⟨S16x32, .f32⟩
  | 32 => ⟨S16x32x1, .f32⟩
  | 33 => ⟨S16x32x1, .f32⟩
  | 34 => ⟨S16x32x1, .f32⟩
  | 35 => ⟨S16x32x1, .f32⟩
  | 36 => ⟨S16x32x4, .f32⟩
  | 37 => ⟨S16x32x4, .f32⟩
  | 38 => ⟨S16x32x4, .f32⟩
  | 39 => ⟨S_, .f32⟩
  | 40 => ⟨S16x32, .f32⟩
  | 41 => ⟨S_, .f32⟩
  | 42 => ⟨S16x32, .f32⟩
  | 43 => ⟨S16x32, .f32⟩
  | 44 => ⟨S_, .f32⟩
  | 45 => ⟨S_, .f32⟩
  | 46 => ⟨S_, .i32⟩
  | 47 => ⟨S16x1, .i32⟩
  | 48 => ⟨S16x1, .i1⟩
  | 49 => ⟨S_, .i32⟩
  | 50 => ⟨S16x1, .i32⟩
  | 51 => ⟨S16x1, .i32⟩
  | 52 => ⟨S16x1, .i32⟩
  | 53 => ⟨S_, .i32⟩
  | 54 => ⟨S16x32, .i32⟩
  | 55 => ⟨S16x32, .i1⟩
  | 56 => ⟨S_, .i32⟩
  | 57 => ⟨S16x32, .i32⟩
  | 58 => ⟨S16x32, .i32⟩
  | 59 => ⟨S16x32, .i32⟩
  | 60 => ⟨S_, .i32⟩
  | 61 => ⟨S16x32, .i32⟩
  | 62 => ⟨S16x32, .i1⟩
  | 63 => ⟨S_, .i32⟩
  | 64 => ⟨S16x32, .i32⟩
  | 65 => ⟨S16x32, .i32⟩
  | 66 => ⟨S16x32, .i32⟩
  | 67 => ⟨S16x32, .i32⟩
  | 68 => ⟨S16x32x1, .i32⟩
  | 69 => ⟨S16x32x1, .i32⟩
  | 70 => ⟨S16x32x1, .i32⟩
  | 71 => ⟨S16x32x3, .i32⟩
  | 72 => ⟨S16x32x80, .f32⟩
  | 73 => ⟨S16x32x1, .i32⟩
  | 74 => ⟨S1x1x80, .i32⟩
  | 75 => ⟨S16x32x80, .i32⟩
  | 76 => ⟨S16x32x80, .i32⟩
  | 77 => ⟨S16x32x80, .i1⟩
  | 78 => ⟨S16x32x80, .f32⟩
  | 79 => ⟨S_, .f32⟩
  | 80 => ⟨S16x32x80, .f32⟩
  | 81 => ⟨S16x32x80, .f32⟩
  | 82 => ⟨S16x32x80, .f32⟩
  | 83 => ⟨S16x32x80, .f32⟩
  | 84 => ⟨S16x32x80, .i1⟩
  | 85 => ⟨S16x32x80, .f32⟩
  | 86 => ⟨S16x32x80, .f32⟩
  | 87 => ⟨S16x32x80, .f32⟩
  | 88 => ⟨S16x32x80, .f32⟩
  | 89 => ⟨S16x32x80, .f32⟩
  | 90 => ⟨S16x32x80, .f32⟩
  | 91 => ⟨S16x32x80, .f32⟩
  | 92 => ⟨S16x32x80, .f32⟩
  | 93 => ⟨S16x32x80, .f32⟩
  | 94 => ⟨S16x32x80, .f32⟩
  | 95 => ⟨S_, .f32⟩
  | 96 => ⟨S16x32, .f32⟩
  | 97 => ⟨S_, .f32⟩
  | 98 => ⟨S16x32, .f32⟩
  | 99 => ⟨S16x32, .f32⟩
  | 100 => ⟨S_, .f32⟩
  | 101 => ⟨S_, .f32⟩
  | 102 => ⟨S16x20x20x4, .f32⟩
  | 103 => ⟨S_, .f32⟩
  | 104 => ⟨S16x20x20, .f32⟩
  | 105 => ⟨S16x20x20x1, .f32⟩
  | 106 => ⟨S_, .f32⟩
  | 107 => ⟨S16x20x20x1, .f32⟩
  | 108 => ⟨S16x20x20x1, .f32⟩
  | 109 => ⟨S16x20x20x1, .f32⟩
  | 110 => ⟨S16x20x20x1, .f32⟩
  | 111 => ⟨S_, .f32⟩
  | 112 => ⟨S16x20x20x1, .f32⟩
  | 113 => ⟨S16x20x20x1, .f32⟩
  | 114 => ⟨S_, .f32⟩
  | 115 => ⟨S16x20x20x1, .f32⟩
  | 116 => ⟨S16x20x20x1, .f32⟩
  | 117 => ⟨S16x20x20x1, .f32⟩
  | 118 => ⟨S16x20x20x1, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x144x80x80, .f32⟩

abbrev hbmTy0_5 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S16x144x80x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x144x80x80, .f32⟩

abbrev bufTy : (tb : Table) → Fin (tcTables nBuf tb) → BufTy
  | .hbm, ⟨i, _⟩ => hbmTy i
  | _, _ => ⟨S16x144x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_c_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_6 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_9 : Ref sig .tc := ⟨.hbm, 57, rfl⟩
abbrev main_v31 : Ref sig .tc := ⟨.hbm, 58, rfl⟩
abbrev main_v32 : Ref sig .tc := ⟨.hbm, 59, rfl⟩
abbrev main_c_10 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_11 : Ref sig .tc := ⟨.hbm, 64, rfl⟩
abbrev main_v36 : Ref sig .tc := ⟨.hbm, 65, rfl⟩
abbrev main_v37 : Ref sig .tc := ⟨.hbm, 66, rfl⟩
abbrev main_c_12 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_13 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_14 : Ref sig .tc := ⟨.hbm, 80, rfl⟩
abbrev main_v49 : Ref sig .tc := ⟨.hbm, 81, rfl⟩
abbrev main_v50 : Ref sig .tc := ⟨.hbm, 82, rfl⟩
abbrev main_c_15 : Ref sig .tc := ⟨.hbm, 83, rfl⟩
abbrev main_v51 : Ref sig .tc := ⟨.hbm, 84, rfl⟩
abbrev main_v52 : Ref sig .tc := ⟨.hbm, 85, rfl⟩
abbrev main_c_16 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_17 : Ref sig .tc := ⟨.hbm, 90, rfl⟩
abbrev main_v56 : Ref sig .tc := ⟨.hbm, 91, rfl⟩
abbrev main_v57 : Ref sig .tc := ⟨.hbm, 92, rfl⟩
abbrev main_c_18 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_19 : Ref sig .tc := ⟨.hbm, 97, rfl⟩
abbrev main_v61 : Ref sig .tc := ⟨.hbm, 98, rfl⟩
abbrev main_v62 : Ref sig .tc := ⟨.hbm, 99, rfl⟩
abbrev main_c_20 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_21 : Ref sig .tc := ⟨.hbm, 115, rfl⟩
abbrev main_v77 : Ref sig .tc := ⟨.hbm, 116, rfl⟩
abbrev main_v78 : Ref sig .tc := ⟨.hbm, 117, rfl⟩
abbrev main_cst_22 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_23 : Ref sig .tc := ⟨.hbm, 128, rfl⟩
abbrev main_v88 : Ref sig .tc := ⟨.hbm, 129, rfl⟩
abbrev main_cst_24 : Ref sig .tc := ⟨.hbm, 130, rfl⟩
abbrev main_v89 : Ref sig .tc := ⟨.hbm, 131, rfl⟩
abbrev main_v90 : Ref sig .tc := ⟨.hbm, 132, rfl⟩
abbrev main_cst_25 : Ref sig .tc := ⟨.hbm, 133, rfl⟩
abbrev main_v91 : Ref sig .tc := ⟨.hbm, 134, rfl⟩
abbrev main_c_26 : Ref sig .tc := ⟨.hbm, 135, rfl⟩
abbrev main_v92 : Ref sig .tc := ⟨.hbm, 136, rfl⟩
abbrev main_v93 : Ref sig .tc := ⟨.hbm, 137, rfl⟩
abbrev main_c_27 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_28 : Ref sig .tc := ⟨.hbm, 142, rfl⟩
abbrev main_v97 : Ref sig .tc := ⟨.hbm, 143, rfl⟩
abbrev main_v98 : Ref sig .tc := ⟨.hbm, 144, rfl⟩
abbrev main_c_29 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_30 : Ref sig .tc := ⟨.hbm, 149, rfl⟩
abbrev main_v102 : Ref sig .tc := ⟨.hbm, 150, rfl⟩
abbrev main_v103 : Ref sig .tc := ⟨.hbm, 151, rfl⟩
abbrev main_c_31 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_call2_v0 : Ref sig .tc := ⟨.hbm, 162, rfl⟩
abbrev main_call2_v1 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_v113 : Ref sig .tc := ⟨.hbm, 167, rfl⟩
abbrev main_call3_cst : Ref sig .tc := ⟨.hbm, 168, rfl⟩
abbrev main_call3_v0 : Ref sig .tc := ⟨.hbm, 169, rfl⟩
abbrev main_call3_v1 : Ref sig .tc := ⟨.hbm, 170, rfl⟩
abbrev main_call3_v2 : Ref sig .tc := ⟨.hbm, 171, rfl⟩
abbrev main_call3_v3 : Ref sig .tc := ⟨.hbm, 172, rfl⟩
abbrev main_call3_v4 : Ref sig .tc := ⟨.hbm, 173, rfl⟩
abbrev main_call3_v5 : Ref sig .tc := ⟨.hbm, 174, rfl⟩
abbrev main_call3_v6 : Ref sig .tc := ⟨.hbm, 175, rfl⟩
abbrev main_call3_v7 : Ref sig .tc := ⟨.hbm, 176, rfl⟩
abbrev main_call3_v8 : Ref sig .tc := ⟨.hbm, 177, rfl⟩
abbrev main_call3_v9 : Ref sig .tc := ⟨.hbm, 178, rfl⟩
abbrev main_call3_v10 : Ref sig .tc := ⟨.hbm, 179, rfl⟩
abbrev main_call3_v11 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_32 : Ref sig .tc := ⟨.hbm, 184, rfl⟩
abbrev main_v117 : Ref sig .tc := ⟨.hbm, 185, rfl⟩
abbrev main_cst_33 : Ref sig .tc := ⟨.hbm, 186, rfl⟩
abbrev main_v118 : Ref sig .tc := ⟨.hbm, 187, rfl⟩
abbrev main_v119 : Ref sig .tc := ⟨.hbm, 188, rfl⟩
abbrev main_cst_34 : Ref sig .tc := ⟨.hbm, 189, rfl⟩
abbrev main_v120 : Ref sig .tc := ⟨.hbm, 190, rfl⟩
abbrev main_v121 : Ref sig .tc := ⟨.hbm, 191, rfl⟩
abbrev main_cst_35 : Ref sig .tc := ⟨.hbm, 192, rfl⟩
abbrev main_v122 : Ref sig .tc := ⟨.hbm, 193, rfl⟩
abbrev main_v123 : Ref sig .tc := ⟨.hbm, 194, rfl⟩
abbrev main_cst_36 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_37 : Ref sig .tc := ⟨.hbm, 200, rfl⟩
abbrev main_v128 : Ref sig .tc := ⟨.hbm, 201, rfl⟩
abbrev main_v129 : Ref sig .tc := ⟨.hbm, 202, rfl⟩
abbrev main_cst_38 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_cst_39 : Ref sig .tc := ⟨.hbm, 208, rfl⟩
abbrev main_v134 : Ref sig .tc := ⟨.hbm, 209, rfl⟩
abbrev main_cst_40 : Ref sig .tc := ⟨.hbm, 210, rfl⟩
abbrev main_v135 : Ref sig .tc := ⟨.hbm, 211, rfl⟩
abbrev main_cst_41 : Ref sig .tc := ⟨.hbm, 212, rfl⟩
abbrev main_v136 : Ref sig .tc := ⟨.hbm, 213, rfl⟩
abbrev main_cst_42 : Ref sig .tc := ⟨.hbm, 214, rfl⟩
abbrev main_v137 : Ref sig .tc := ⟨.hbm, 215, rfl⟩
abbrev main_cst_43 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_cst_44 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_cst_45 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_cst_46 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_cst_47 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_c_48 : Ref sig .tc := ⟨.hbm, 242, rfl⟩
abbrev main_c_49 : Ref sig .tc := ⟨.hbm, 243, rfl⟩
abbrev main_call4_v0 : Ref sig .tc := ⟨.hbm, 244, rfl⟩
abbrev main_call4_v1 : Ref sig .tc := ⟨.hbm, 245, rfl⟩
abbrev main_call4_v2 : Ref sig .tc := ⟨.hbm, 246, rfl⟩
abbrev main_call4_v3 : Ref sig .tc := ⟨.hbm, 247, rfl⟩
abbrev main_call4_v4 : Ref sig .tc := ⟨.hbm, 248, rfl⟩
abbrev main_v159 : Ref sig .tc := ⟨.hbm, 249, rfl⟩
abbrev main_v160 : Ref sig .tc := ⟨.hbm, 250, rfl⟩
abbrev main_c_50 : Ref sig .tc := ⟨.hbm, 251, rfl⟩
abbrev main_c_51 : Ref sig .tc := ⟨.hbm, 252, rfl⟩
abbrev main_call5_v0 : Ref sig .tc := ⟨.hbm, 253, rfl⟩
abbrev main_call5_v1 : Ref sig .tc := ⟨.hbm, 254, rfl⟩
abbrev main_call5_v2 : Ref sig .tc := ⟨.hbm, 255, rfl⟩
abbrev main_call5_v3 : Ref sig .tc := ⟨.hbm, 256, rfl⟩
abbrev main_call5_v4 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_cst_52 : Ref sig .tc := ⟨.hbm, 261, rfl⟩
abbrev main_v164 : Ref sig .tc := ⟨.hbm, 262, rfl⟩
abbrev main_c_53 : Ref sig .tc := ⟨.hbm, 263, rfl⟩
abbrev main_v165 : Ref sig .tc := ⟨.hbm, 264, rfl⟩
abbrev main_v166 : Ref sig .tc := ⟨.hbm, 265, rfl⟩
abbrev main_c_54 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_c_55 : Ref sig .tc := ⟨.hbm, 270, rfl⟩
abbrev main_v170 : Ref sig .tc := ⟨.hbm, 271, rfl⟩
abbrev main_v171 : Ref sig .tc := ⟨.hbm, 272, rfl⟩
abbrev main_c_56 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_c_57 : Ref sig .tc := ⟨.hbm, 277, rfl⟩
abbrev main_v175 : Ref sig .tc := ⟨.hbm, 278, rfl⟩
abbrev main_v176 : Ref sig .tc := ⟨.hbm, 279, rfl⟩
abbrev main_c_58 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_c_59 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_cst_60 : Ref sig .tc := ⟨.hbm, 293, rfl⟩
abbrev main_v188 : Ref sig .tc := ⟨.hbm, 294, rfl⟩
abbrev main_v189 : Ref sig .tc := ⟨.hbm, 295, rfl⟩
abbrev main_c_61 : Ref sig .tc := ⟨.hbm, 296, rfl⟩
abbrev main_v190 : Ref sig .tc := ⟨.hbm, 297, rfl⟩
abbrev main_v191 : Ref sig .tc := ⟨.hbm, 298, rfl⟩
abbrev main_c_62 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_c_63 : Ref sig .tc := ⟨.hbm, 303, rfl⟩
abbrev main_v195 : Ref sig .tc := ⟨.hbm, 304, rfl⟩
abbrev main_v196 : Ref sig .tc := ⟨.hbm, 305, rfl⟩
abbrev main_c_64 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_c_65 : Ref sig .tc := ⟨.hbm, 310, rfl⟩
abbrev main_v200 : Ref sig .tc := ⟨.hbm, 311, rfl⟩
abbrev main_v201 : Ref sig .tc := ⟨.hbm, 312, rfl⟩
abbrev main_c_66 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_v206 : Ref sig .tc := ⟨.hbm, 318, rfl⟩
abbrev main_v207 : Ref sig .tc := ⟨.hbm, 319, rfl⟩
abbrev main_v208 : Ref sig .tc := ⟨.hbm, 320, rfl⟩
abbrev main_v209 : Ref sig .tc := ⟨.hbm, 321, rfl⟩
abbrev main_v210 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_v215 : Ref sig .tc := ⟨.hbm, 327, rfl⟩
abbrev main_cst_67 : Ref sig .tc := ⟨.hbm, 328, rfl⟩
abbrev main_v216 : Ref sig .tc := ⟨.hbm, 329, rfl⟩
abbrev main_v217 : Ref sig .tc := ⟨.hbm, 330, rfl⟩
abbrev main_cst_68 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_v222 : Ref sig .tc := ⟨.hbm, 336, rfl⟩
abbrev main_v223 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_cst_69 : Ref sig .tc := ⟨.hbm, 341, rfl⟩
abbrev main_v227 : Ref sig .tc := ⟨.hbm, 342, rfl⟩
abbrev main_cst_70 : Ref sig .tc := ⟨.hbm, 343, rfl⟩
abbrev main_v228 : Ref sig .tc := ⟨.hbm, 344, rfl⟩
abbrev main_v229 : Ref sig .tc := ⟨.hbm, 345, rfl⟩
abbrev main_cst_71 : Ref sig .tc := ⟨.hbm, 346, rfl⟩
abbrev main_v230 : Ref sig .tc := ⟨.hbm, 347, rfl⟩
abbrev main_c_72 : Ref sig .tc := ⟨.hbm, 348, rfl⟩
abbrev main_v231 : Ref sig .tc := ⟨.hbm, 349, rfl⟩
abbrev main_v232 : Ref sig .tc := ⟨.hbm, 350, rfl⟩
abbrev main_c_73 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_c_74 : Ref sig .tc := ⟨.hbm, 355, rfl⟩
abbrev main_v236 : Ref sig .tc := ⟨.hbm, 356, rfl⟩
abbrev main_v237 : Ref sig .tc := ⟨.hbm, 357, rfl⟩
abbrev main_c_75 : Ref sig .tc := ⟨.hbm, 358, rfl⟩
abbrev main_v238 : Ref sig .tc := ⟨.hbm, 359, rfl⟩
abbrev main_v239 : Ref sig .tc := ⟨.hbm, 360, rfl⟩
abbrev main_v240 : Ref sig .tc := ⟨.hbm, 361, rfl⟩
abbrev main_c_76 : Ref sig .tc := ⟨.hbm, 362, rfl⟩
abbrev main_v241 : Ref sig .tc := ⟨.hbm, 363, rfl⟩
abbrev main_v242 : Ref sig .tc := ⟨.hbm, 364, rfl⟩
abbrev main_c_77 : Ref sig .tc := ⟨.hbm, 365, rfl⟩
abbrev main_v243 : Ref sig .tc := ⟨.hbm, 366, rfl⟩
abbrev main_v244 : Ref sig .tc := ⟨.hbm, 367, rfl⟩
abbrev main_v245 : Ref sig .tc := ⟨.hbm, 368, rfl⟩
abbrev main_v246 : Ref sig .tc := ⟨.hbm, 369, rfl⟩
abbrev main_v247 : Ref sig .tc := ⟨.hbm, 370, rfl⟩
abbrev main_v248 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_call6_v0 : Ref sig .tc := ⟨.hbm, 375, rfl⟩
abbrev main_call6_v1 : Ref sig .tc := ⟨.hbm, 376, rfl⟩
abbrev main_call6_v2 : Ref sig .tc := ⟨.hbm, 377, rfl⟩
abbrev main_call6_v3 : Ref sig .tc := ⟨.hbm, 378, rfl⟩
abbrev main_call6_v4 : Ref sig .tc := ⟨.hbm, 379, rfl⟩
abbrev main_v252 : Ref sig .tc := ⟨.hbm, 380, rfl⟩
abbrev main_call7_cst : Ref sig .tc := ⟨.hbm, 381, rfl⟩
abbrev main_call7_v0 : Ref sig .tc := ⟨.hbm, 382, rfl⟩
abbrev main_call7_v1 : Ref sig .tc := ⟨.hbm, 383, rfl⟩
abbrev main_call7_v2 : Ref sig .tc := ⟨.hbm, 384, rfl⟩
abbrev main_call7_v3 : Ref sig .tc := ⟨.hbm, 385, rfl⟩
abbrev main_call7_v4 : Ref sig .tc := ⟨.hbm, 386, rfl⟩
abbrev main_call7_v5 : Ref sig .tc := ⟨.hbm, 387, rfl⟩
abbrev main_call7_v6 : Ref sig .tc := ⟨.hbm, 388, rfl⟩
abbrev main_call7_v7 : Ref sig .tc := ⟨.hbm, 389, rfl⟩
abbrev main_call7_v8 : Ref sig .tc := ⟨.hbm, 390, rfl⟩
abbrev main_call7_v9 : Ref sig .tc := ⟨.hbm, 391, rfl⟩
abbrev main_call7_v10 : Ref sig .tc := ⟨.hbm, 392, rfl⟩
abbrev main_call7_v11 : Ref sig .tc := ⟨.hbm, 393, rfl⟩
abbrev main_v253 : Ref sig .tc := ⟨.hbm, 394, rfl⟩
abbrev main_v254 : Ref sig .tc := ⟨.hbm, 395, rfl⟩
abbrev main_v255 : Ref sig .tc := ⟨.hbm, 396, rfl⟩
abbrev main_cst_78 : Ref sig .tc := ⟨.hbm, 397, rfl⟩
abbrev main_v256 : Ref sig .tc := ⟨.hbm, 398, rfl⟩
abbrev main_cst_79 : Ref sig .tc := ⟨.hbm, 399, rfl⟩
abbrev main_v257 : Ref sig .tc := ⟨.hbm, 400, rfl⟩
abbrev main_v258 : Ref sig .tc := ⟨.hbm, 401, rfl⟩
abbrev main_cst_80 : Ref sig .tc := ⟨.hbm, 402, rfl⟩
abbrev main_v259 : Ref sig .tc := ⟨.hbm, 403, rfl⟩
abbrev main_v260 : Ref sig .tc := ⟨.hbm, 404, rfl⟩
abbrev main_cst_81 : Ref sig .tc := ⟨.hbm, 405, rfl⟩
abbrev main_v261 : Ref sig .tc := ⟨.hbm, 406, rfl⟩
abbrev main_v262 : Ref sig .tc := ⟨.hbm, 407, rfl⟩
abbrev main_cst_82 : Ref sig .tc := ⟨.hbm, 408, rfl⟩
abbrev main_v263 : Ref sig .tc := ⟨.hbm, 409, rfl⟩
abbrev main_v264 : Ref sig .tc := ⟨.hbm, 410, rfl⟩
abbrev main_v265 : Ref sig .tc := ⟨.hbm, 411, rfl⟩
abbrev main_v266 : Ref sig .tc := ⟨.hbm, 412, rfl⟩
abbrev main_cst_83 : Ref sig .tc := ⟨.hbm, 413, rfl⟩
abbrev main_v267 : Ref sig .tc := ⟨.hbm, 414, rfl⟩
abbrev main_v268 : Ref sig .tc := ⟨.hbm, 415, rfl⟩
abbrev main_cst_84 : Ref sig .tc := ⟨.hbm, 416, rfl⟩
abbrev main_v269 : Ref sig .tc := ⟨.hbm, 417, rfl⟩
abbrev main_v270 : Ref sig .tc := ⟨.hbm, 418, rfl⟩
abbrev main_v271 : Ref sig .tc := ⟨.hbm, 419, rfl⟩
abbrev main_v272 : Ref sig .tc := ⟨.hbm, 420, rfl⟩
abbrev main_cst_85 : Ref sig .tc := ⟨.hbm, 421, rfl⟩
abbrev main_v273 : Ref sig .tc := ⟨.hbm, 422, rfl⟩
abbrev main_cst_86 : Ref sig .tc := ⟨.hbm, 423, rfl⟩
abbrev main_v274 : Ref sig .tc := ⟨.hbm, 424, rfl⟩
abbrev main_v275 : Ref sig .tc := ⟨.hbm, 425, rfl⟩
abbrev main_v276 : Ref sig .tc := ⟨.hbm, 426, rfl⟩
abbrev main_v277 : Ref sig .tc := ⟨.hbm, 427, rfl⟩
abbrev main_v278 : Ref sig .tc := ⟨.hbm, 428, rfl⟩
abbrev main_v279 : Ref sig .tc := ⟨.hbm, 429, rfl⟩
abbrev main_v280 : Ref sig .tc := ⟨.hbm, 430, rfl⟩
abbrev main_v281 : Ref sig .tc := ⟨.hbm, 431, rfl⟩
abbrev main_v282 : Ref sig .tc := ⟨.hbm, 432, rfl⟩
abbrev main_cst_87 : Ref sig .tc := ⟨.hbm, 433, rfl⟩
abbrev main_v283 : Ref sig .tc := ⟨.hbm, 434, rfl⟩
abbrev main_v284 : Ref sig .tc := ⟨.hbm, 435, rfl⟩
abbrev main_v285 : Ref sig .tc := ⟨.hbm, 436, rfl⟩
abbrev main_v286 : Ref sig .tc := ⟨.hbm, 437, rfl⟩
abbrev main_cst_88 : Ref sig .tc := ⟨.hbm, 438, rfl⟩
abbrev main_v287 : Ref sig .tc := ⟨.hbm, 439, rfl⟩
abbrev main_v288 : Ref sig .tc := ⟨.hbm, 440, rfl⟩
abbrev main_v289 : Ref sig .tc := ⟨.hbm, 441, rfl⟩
abbrev main_v290 : Ref sig .tc := ⟨.hbm, 442, rfl⟩
abbrev main_cst_89 : Ref sig .tc := ⟨.hbm, 443, rfl⟩
abbrev main_v291 : Ref sig .tc := ⟨.hbm, 444, rfl⟩
abbrev main_v292 : Ref sig .tc := ⟨.hbm, 445, rfl⟩
abbrev main_v293 : Ref sig .tc := ⟨.hbm, 446, rfl⟩
abbrev main_v294 : Ref sig .tc := ⟨.hbm, 447, rfl⟩
abbrev main_cst_90 : Ref sig .tc := ⟨.hbm, 448, rfl⟩
abbrev main_v295 : Ref sig .tc := ⟨.hbm, 449, rfl⟩
abbrev main_v296 : Ref sig .tc := ⟨.hbm, 450, rfl⟩
abbrev main_v297 : Ref sig .tc := ⟨.hbm, 451, rfl⟩
abbrev main_c_91 : Ref sig .tc := ⟨.hbm, 452, rfl⟩
abbrev main_c_92 : Ref sig .tc := ⟨.hbm, 453, rfl⟩
abbrev main_call8_v0 : Ref sig .tc := ⟨.hbm, 454, rfl⟩
abbrev main_call8_v1 : Ref sig .tc := ⟨.hbm, 455, rfl⟩
abbrev main_call8_v2 : Ref sig .tc := ⟨.hbm, 456, rfl⟩
abbrev main_call8_v3 : Ref sig .tc := ⟨.hbm, 457, rfl⟩
abbrev main_call8_v4 : Ref sig .tc := ⟨.hbm, 458, rfl⟩
abbrev main_v298 : Ref sig .tc := ⟨.hbm, 459, rfl⟩
abbrev main_v299 : Ref sig .tc := ⟨.hbm, 460, rfl⟩
abbrev main_c_93 : Ref sig .tc := ⟨.hbm, 461, rfl⟩
abbrev main_c_94 : Ref sig .tc := ⟨.hbm, 462, rfl⟩
abbrev main_call9_v0 : Ref sig .tc := ⟨.hbm, 463, rfl⟩
abbrev main_call9_v1 : Ref sig .tc := ⟨.hbm, 464, rfl⟩
abbrev main_call9_v2 : Ref sig .tc := ⟨.hbm, 465, rfl⟩
abbrev main_call9_v3 : Ref sig .tc := ⟨.hbm, 466, rfl⟩
abbrev main_call9_v4 : Ref sig .tc := ⟨.hbm, 467, rfl⟩
abbrev main_v300 : Ref sig .tc := ⟨.hbm, 468, rfl⟩
abbrev main_v301 : Ref sig .tc := ⟨.hbm, 469, rfl⟩
abbrev main_v302 : Ref sig .tc := ⟨.hbm, 470, rfl⟩
abbrev main_cst_95 : Ref sig .tc := ⟨.hbm, 471, rfl⟩
abbrev main_v303 : Ref sig .tc := ⟨.hbm, 472, rfl⟩
abbrev main_c_96 : Ref sig .tc := ⟨.hbm, 473, rfl⟩
abbrev main_v304 : Ref sig .tc := ⟨.hbm, 474, rfl⟩
abbrev main_v305 : Ref sig .tc := ⟨.hbm, 475, rfl⟩
abbrev main_c_97 : Ref sig .tc := ⟨.hbm, 476, rfl⟩
abbrev main_v306 : Ref sig .tc := ⟨.hbm, 477, rfl⟩
abbrev main_v307 : Ref sig .tc := ⟨.hbm, 478, rfl⟩
abbrev main_v308 : Ref sig .tc := ⟨.hbm, 479, rfl⟩
abbrev main_c_98 : Ref sig .tc := ⟨.hbm, 480, rfl⟩
abbrev main_v309 : Ref sig .tc := ⟨.hbm, 481, rfl⟩
abbrev main_v310 : Ref sig .tc := ⟨.hbm, 482, rfl⟩
abbrev main_c_99 : Ref sig .tc := ⟨.hbm, 483, rfl⟩
abbrev main_v311 : Ref sig .tc := ⟨.hbm, 484, rfl⟩
abbrev main_v312 : Ref sig .tc := ⟨.hbm, 485, rfl⟩
abbrev main_v313 : Ref sig .tc := ⟨.hbm, 486, rfl⟩
abbrev main_c_100 : Ref sig .tc := ⟨.hbm, 487, rfl⟩
abbrev main_v314 : Ref sig .tc := ⟨.hbm, 488, rfl⟩
abbrev main_v315 : Ref sig .tc := ⟨.hbm, 489, rfl⟩
abbrev main_c_101 : Ref sig .tc := ⟨.hbm, 490, rfl⟩
abbrev main_v316 : Ref sig .tc := ⟨.hbm, 491, rfl⟩
abbrev main_v317 : Ref sig .tc := ⟨.hbm, 492, rfl⟩
abbrev main_v318 : Ref sig .tc := ⟨.hbm, 493, rfl⟩
abbrev main_v319 : Ref sig .tc := ⟨.hbm, 494, rfl⟩
abbrev main_c_102 : Ref sig .tc := ⟨.hbm, 495, rfl⟩
abbrev main_v320 : Ref sig .tc := ⟨.hbm, 496, rfl⟩
abbrev main_v321 : Ref sig .tc := ⟨.hbm, 497, rfl⟩
abbrev main_v322 : Ref sig .tc := ⟨.hbm, 498, rfl⟩
abbrev main_v323 : Ref sig .tc := ⟨.hbm, 499, rfl⟩
abbrev main_v324 : Ref sig .tc := ⟨.hbm, 500, rfl⟩
abbrev main_v325 : Ref sig .tc := ⟨.hbm, 501, rfl⟩
abbrev main_v326 : Ref sig .tc := ⟨.hbm, 502, rfl⟩
abbrev main_cst_103 : Ref sig .tc := ⟨.hbm, 503, rfl⟩
abbrev main_v327 : Ref sig .tc := ⟨.hbm, 504, rfl⟩
abbrev main_v328 : Ref sig .tc := ⟨.hbm, 505, rfl⟩
abbrev main_c_104 : Ref sig .tc := ⟨.hbm, 506, rfl⟩
abbrev main_v329 : Ref sig .tc := ⟨.hbm, 507, rfl⟩
abbrev main_v330 : Ref sig .tc := ⟨.hbm, 508, rfl⟩
abbrev main_c_105 : Ref sig .tc := ⟨.hbm, 509, rfl⟩
abbrev main_v331 : Ref sig .tc := ⟨.hbm, 510, rfl⟩
abbrev main_v332 : Ref sig .tc := ⟨.hbm, 511, rfl⟩
abbrev main_v333 : Ref sig .tc := ⟨.hbm, 512, rfl⟩
abbrev main_c_106 : Ref sig .tc := ⟨.hbm, 513, rfl⟩
abbrev main_v334 : Ref sig .tc := ⟨.hbm, 514, rfl⟩
abbrev main_v335 : Ref sig .tc := ⟨.hbm, 515, rfl⟩
abbrev main_c_107 : Ref sig .tc := ⟨.hbm, 516, rfl⟩
abbrev main_v336 : Ref sig .tc := ⟨.hbm, 517, rfl⟩
abbrev main_v337 : Ref sig .tc := ⟨.hbm, 518, rfl⟩
abbrev main_v338 : Ref sig .tc := ⟨.hbm, 519, rfl⟩
abbrev main_c_108 : Ref sig .tc := ⟨.hbm, 520, rfl⟩
abbrev main_v339 : Ref sig .tc := ⟨.hbm, 521, rfl⟩
abbrev main_v340 : Ref sig .tc := ⟨.hbm, 522, rfl⟩
abbrev main_c_109 : Ref sig .tc := ⟨.hbm, 523, rfl⟩
abbrev main_v341 : Ref sig .tc := ⟨.hbm, 524, rfl⟩
abbrev main_v342 : Ref sig .tc := ⟨.hbm, 525, rfl⟩
abbrev main_v343 : Ref sig .tc := ⟨.hbm, 526, rfl⟩
abbrev main_v344 : Ref sig .tc := ⟨.hbm, 527, rfl⟩
abbrev main_v345 : Ref sig .tc := ⟨.hbm, 528, rfl⟩
abbrev main_v346 : Ref sig .tc := ⟨.hbm, 529, rfl⟩
abbrev main_v347 : Ref sig .tc := ⟨.hbm, 530, rfl⟩
abbrev main_v348 : Ref sig .tc := ⟨.hbm, 531, rfl⟩
abbrev main_v349 : Ref sig .tc := ⟨.hbm, 532, rfl⟩
abbrev main_v350 : Ref sig .tc := ⟨.hbm, 533, rfl⟩
abbrev main_v351 : Ref sig .tc := ⟨.hbm, 534, rfl⟩
abbrev main_v352 : Ref sig .tc := ⟨.hbm, 535, rfl⟩
abbrev main_v353 : Ref sig .tc := ⟨.hbm, 536, rfl⟩
abbrev main_v354 : Ref sig .tc := ⟨.hbm, 537, rfl⟩
abbrev main_cst_110 : Ref sig .tc := ⟨.hbm, 538, rfl⟩
abbrev main_v355 : Ref sig .tc := ⟨.hbm, 539, rfl⟩
abbrev main_v356 : Ref sig .tc := ⟨.hbm, 540, rfl⟩
abbrev main_cst_111 : Ref sig .tc := ⟨.hbm, 541, rfl⟩
abbrev main_v357 : Ref sig .tc := ⟨.hbm, 542, rfl⟩
abbrev main_v358 : Ref sig .tc := ⟨.hbm, 543, rfl⟩
abbrev main_v359 : Ref sig .tc := ⟨.hbm, 544, rfl⟩
abbrev main_v360 : Ref sig .tc := ⟨.hbm, 545, rfl⟩
abbrev main_v361 : Ref sig .tc := ⟨.hbm, 546, rfl⟩
abbrev main_v362 : Ref sig .tc := ⟨.hbm, 547, rfl⟩
abbrev main_v363 : Ref sig .tc := ⟨.hbm, 548, rfl⟩
abbrev main_v364 : Ref sig .tc := ⟨.hbm, 549, rfl⟩
abbrev main_v365 : Ref sig .tc := ⟨.hbm, 550, rfl⟩
abbrev main_cst_112 : Ref sig .tc := ⟨.hbm, 551, rfl⟩
abbrev main_v366 : Ref sig .tc := ⟨.hbm, 552, rfl⟩
abbrev main_cst_113 : Ref sig .tc := ⟨.hbm, 553, rfl⟩
abbrev main_v367 : Ref sig .tc := ⟨.hbm, 554, rfl⟩
abbrev main_v368 : Ref sig .tc := ⟨.hbm, 555, rfl⟩
abbrev main_cst_114 : Ref sig .tc := ⟨.hbm, 556, rfl⟩
abbrev main_v369 : Ref sig .tc := ⟨.hbm, 557, rfl⟩
abbrev main_c_115 : Ref sig .tc := ⟨.hbm, 558, rfl⟩
abbrev main_v370 : Ref sig .tc := ⟨.hbm, 559, rfl⟩
abbrev main_v371 : Ref sig .tc := ⟨.hbm, 560, rfl⟩
abbrev main_c_116 : Ref sig .tc := ⟨.hbm, 561, rfl⟩
abbrev main_v372 : Ref sig .tc := ⟨.hbm, 562, rfl⟩
abbrev main_v373 : Ref sig .tc := ⟨.hbm, 563, rfl⟩
abbrev main_v374 : Ref sig .tc := ⟨.hbm, 564, rfl⟩
abbrev main_c_117 : Ref sig .tc := ⟨.hbm, 565, rfl⟩
abbrev main_v375 : Ref sig .tc := ⟨.hbm, 566, rfl⟩
abbrev main_v376 : Ref sig .tc := ⟨.hbm, 567, rfl⟩
abbrev main_c_118 : Ref sig .tc := ⟨.hbm, 568, rfl⟩
abbrev main_v377 : Ref sig .tc := ⟨.hbm, 569, rfl⟩
abbrev main_v378 : Ref sig .tc := ⟨.hbm, 570, rfl⟩
abbrev main_v379 : Ref sig .tc := ⟨.hbm, 571, rfl⟩
abbrev main_c_119 : Ref sig .tc := ⟨.hbm, 572, rfl⟩
abbrev main_v380 : Ref sig .tc := ⟨.hbm, 573, rfl⟩
abbrev main_v381 : Ref sig .tc := ⟨.hbm, 574, rfl⟩
abbrev main_c_120 : Ref sig .tc := ⟨.hbm, 575, rfl⟩
abbrev main_v382 : Ref sig .tc := ⟨.hbm, 576, rfl⟩
abbrev main_v383 : Ref sig .tc := ⟨.hbm, 577, rfl⟩
abbrev main_v384 : Ref sig .tc := ⟨.hbm, 578, rfl⟩
abbrev main_v385 : Ref sig .tc := ⟨.hbm, 579, rfl⟩
abbrev main_v386 : Ref sig .tc := ⟨.hbm, 580, rfl⟩
abbrev main_v387 : Ref sig .tc := ⟨.hbm, 581, rfl⟩
abbrev main_v388 : Ref sig .tc := ⟨.hbm, 582, rfl⟩
abbrev main_v389 : Ref sig .tc := ⟨.hbm, 583, rfl⟩
abbrev main_v390 : Ref sig .tc := ⟨.hbm, 584, rfl⟩
abbrev main_call10_v0 : Ref sig .tc := ⟨.hbm, 585, rfl⟩
abbrev main_call10_v1 : Ref sig .tc := ⟨.hbm, 586, rfl⟩
abbrev main_call10_v2 : Ref sig .tc := ⟨.hbm, 587, rfl⟩
abbrev main_call10_v3 : Ref sig .tc := ⟨.hbm, 588, rfl⟩
abbrev main_call10_v4 : Ref sig .tc := ⟨.hbm, 589, rfl⟩
abbrev main_v391 : Ref sig .tc := ⟨.hbm, 590, rfl⟩
abbrev main_call11_cst : Ref sig .tc := ⟨.hbm, 591, rfl⟩
abbrev main_call11_v0 : Ref sig .tc := ⟨.hbm, 592, rfl⟩
abbrev main_call11_v1 : Ref sig .tc := ⟨.hbm, 593, rfl⟩
abbrev main_call11_v2 : Ref sig .tc := ⟨.hbm, 594, rfl⟩
abbrev main_call11_v3 : Ref sig .tc := ⟨.hbm, 595, rfl⟩
abbrev main_call11_v4 : Ref sig .tc := ⟨.hbm, 596, rfl⟩
abbrev main_call11_v5 : Ref sig .tc := ⟨.hbm, 597, rfl⟩
abbrev main_call11_v6 : Ref sig .tc := ⟨.hbm, 598, rfl⟩
abbrev main_call11_v7 : Ref sig .tc := ⟨.hbm, 599, rfl⟩
abbrev main_call11_v8 : Ref sig .tc := ⟨.hbm, 600, rfl⟩
abbrev main_call11_v9 : Ref sig .tc := ⟨.hbm, 601, rfl⟩
abbrev main_call11_v10 : Ref sig .tc := ⟨.hbm, 602, rfl⟩
abbrev main_call11_v11 : Ref sig .tc := ⟨.hbm, 603, rfl⟩
abbrev main_v392 : Ref sig .tc := ⟨.hbm, 604, rfl⟩
abbrev main_v393 : Ref sig .tc := ⟨.hbm, 605, rfl⟩
abbrev main_v394 : Ref sig .tc := ⟨.hbm, 606, rfl⟩
abbrev main_cst_121 : Ref sig .tc := ⟨.hbm, 607, rfl⟩
abbrev main_v395 : Ref sig .tc := ⟨.hbm, 608, rfl⟩
abbrev main_cst_122 : Ref sig .tc := ⟨.hbm, 609, rfl⟩
abbrev main_v396 : Ref sig .tc := ⟨.hbm, 610, rfl⟩
abbrev main_v397 : Ref sig .tc := ⟨.hbm, 611, rfl⟩
abbrev main_cst_123 : Ref sig .tc := ⟨.hbm, 612, rfl⟩
abbrev main_v398 : Ref sig .tc := ⟨.hbm, 613, rfl⟩
abbrev main_v399 : Ref sig .tc := ⟨.hbm, 614, rfl⟩
abbrev main_cst_124 : Ref sig .tc := ⟨.hbm, 615, rfl⟩
abbrev main_v400 : Ref sig .tc := ⟨.hbm, 616, rfl⟩
abbrev main_v401 : Ref sig .tc := ⟨.hbm, 617, rfl⟩
abbrev main_cst_125 : Ref sig .tc := ⟨.hbm, 618, rfl⟩
abbrev main_v402 : Ref sig .tc := ⟨.hbm, 619, rfl⟩
abbrev main_v403 : Ref sig .tc := ⟨.hbm, 620, rfl⟩
abbrev main_v404 : Ref sig .tc := ⟨.hbm, 621, rfl⟩
abbrev main_v405 : Ref sig .tc := ⟨.hbm, 622, rfl⟩
abbrev main_cst_126 : Ref sig .tc := ⟨.hbm, 623, rfl⟩
abbrev main_v406 : Ref sig .tc := ⟨.hbm, 624, rfl⟩
abbrev main_v407 : Ref sig .tc := ⟨.hbm, 625, rfl⟩
abbrev main_cst_127 : Ref sig .tc := ⟨.hbm, 626, rfl⟩
abbrev main_v408 : Ref sig .tc := ⟨.hbm, 627, rfl⟩
abbrev main_v409 : Ref sig .tc := ⟨.hbm, 628, rfl⟩
abbrev main_v410 : Ref sig .tc := ⟨.hbm, 629, rfl⟩
abbrev main_v411 : Ref sig .tc := ⟨.hbm, 630, rfl⟩
abbrev main_cst_128 : Ref sig .tc := ⟨.hbm, 631, rfl⟩
abbrev main_v412 : Ref sig .tc := ⟨.hbm, 632, rfl⟩
abbrev main_cst_129 : Ref sig .tc := ⟨.hbm, 633, rfl⟩
abbrev main_v413 : Ref sig .tc := ⟨.hbm, 634, rfl⟩
abbrev main_v414 : Ref sig .tc := ⟨.hbm, 635, rfl⟩
abbrev main_v415 : Ref sig .tc := ⟨.hbm, 636, rfl⟩
abbrev main_v416 : Ref sig .tc := ⟨.hbm, 637, rfl⟩
abbrev main_cst_130 : Ref sig .tc := ⟨.hbm, 638, rfl⟩
abbrev main_v417 : Ref sig .tc := ⟨.hbm, 639, rfl⟩
abbrev main_cst_131 : Ref sig .tc := ⟨.hbm, 640, rfl⟩
abbrev main_v418 : Ref sig .tc := ⟨.hbm, 641, rfl⟩
abbrev main_cst_132 : Ref sig .tc := ⟨.hbm, 642, rfl⟩
abbrev main_v419 : Ref sig .tc := ⟨.hbm, 643, rfl⟩
abbrev main_cst_133 : Ref sig .tc := ⟨.hbm, 644, rfl⟩
abbrev main_v420 : Ref sig .tc := ⟨.hbm, 645, rfl⟩
abbrev main_v421 : Ref sig .tc := ⟨.hbm, 646, rfl⟩
abbrev main_cst_134 : Ref sig .tc := ⟨.hbm, 647, rfl⟩
abbrev main_v422 : Ref sig .tc := ⟨.hbm, 648, rfl⟩
abbrev main_cst_135 : Ref sig .tc := ⟨.hbm, 649, rfl⟩
abbrev main_v423 : Ref sig .tc := ⟨.hbm, 650, rfl⟩
abbrev main_v424 : Ref sig .tc := ⟨.hbm, 651, rfl⟩

abbrev nD : Nat := 1
abbrev τ : Topo := Topo.v7x

variable {F : FTy → Type} [FloatOps F]

class Facts₀ : Prop where
  transposes_S16x144x80x80_S16x80x80x144_0_2_3_1 : S16x144x80x80.Transposes [0, 2, 3, 1] S16x80x80x144
  slices_S16x80x80x144_S16x80x80x64_0_0_0_0 : S16x80x80x144.Slices ![0, 0, 0, 0] S16x80x80x64
  slices_S16x80x80x144_S16x80x80x80_0_0_0_64 : S16x80x80x144.Slices ![0, 0, 0, 64] S16x80x80x80
  slices_S16x32x4_S16x32x1_0_0_0 : S16x32x4.Slices ![0, 0, 0] S16x32x1
  shapeCasts_S16x32x1_S16x32 : S16x32x1.ShapeCasts S16x32
  bcast_S_S16x32 : S_.BroadcastsInDim S16x32 (![] : Fin 0 → Fin S16x32.rank)
  slices_S16x32x4_S16x32x1_0_0_1 : S16x32x4.Slices ![0, 0, 1] S16x32x1
  slices_S16x32x4_S16x32x1_0_0_2 : S16x32x4.Slices ![0, 0, 2] S16x32x1
  slices_S16x32x4_S16x32x1_0_0_3 : S16x32x4.Slices ![0, 0, 3] S16x32x1
  bcast_S16_S16x1_0 : S16.BroadcastsInDim S16x1 (![0] : Fin 1 → Fin S16x1.rank)
  bcast_S_S16x80x80x1 : S_.BroadcastsInDim S16x80x80x1 (![] : Fin 0 → Fin S16x80x80x1.rank)
  bcast_S_S16x1 : S_.BroadcastsInDim S16x1 (![] : Fin 0 → Fin S16x1.rank)
  bcast_S16x1_S16x32_0_1 : S16x1.BroadcastsInDim S16x32 (![0, 1] : Fin 2 → Fin S16x32.rank)
  bcast_S16x32_S16x32x1_0_1 : S16x32.BroadcastsInDim S16x32x1 (![0, 1] : Fin 2 → Fin S16x32x1.rank)
  concatenates_S16x32x1_S16x32x1_S16x32x1_S16x32x1_S16x32x4_d2 : Shape.Concatenates [S16x32x1, S16x32x1, S16x32x1, S16x32x1] S16x32x4 2
  concatenates_S16x32x1_S16x32x1_S16x32x1_S16x32x3_d2 : Shape.Concatenates [S16x32x1, S16x32x1, S16x32x1] S16x32x3 2
  slices_S16x32x64_S16x32x4_0_0_0 : S16x32x64.Slices ![0, 0, 0] S16x32x4
  reducesTo_S16x32x4_S16x32_d2 : S16x32x4.ReducesTo [2] S16x32
  h_S_ : 0 < S_.numel
  reducesTo_S16x32_S_d0_1 : S16x32.ReducesTo [0, 1] S_
  bcast_S16x32x1_S16x32x80_0_1_2 : S16x32x1.BroadcastsInDim S16x32x80 (![0, 1, 2] : Fin 3 → Fin S16x32x80.rank)
  bcast_S1x1x80_S16x32x80_0_1_2 : S1x1x80.BroadcastsInDim S16x32x80 (![0, 1, 2] : Fin 3 → Fin S16x32x80.rank)
  bcast_S_S16x32x80 : S_.BroadcastsInDim S16x32x80 (![] : Fin 0 → Fin S16x32x80.rank)
  reducesTo_S16x32x80_S16x32_d2 : S16x32x80.ReducesTo [2] S16x32
  slices_S16x80x80x64_S16x80x80x4_0_0_0_0 : S16x80x80x64.Slices ![0, 0, 0, 0] S16x80x80x4
  reducesTo_S16x80x80x4_S16x80x80_d3 : S16x80x80x4.ReducesTo [3] S16x80x80
  bcast_S16x80x80_S16x80x80x1_0_1_2 : S16x80x80.BroadcastsInDim S16x80x80x1 (![0, 1, 2] : Fin 3 → Fin S16x80x80x1.rank)
  reducesTo_S16x80x80x1_S_d0_1_2_3 : S16x80x80x1.ReducesTo [0, 1, 2, 3] S_
  transposes_S16x144x40x40_S16x40x40x144_0_2_3_1 : S16x144x40x40.Transposes [0, 2, 3, 1] S16x40x40x144
  slices_S16x40x40x144_S16x40x40x64_0_0_0_0 : S16x40x40x144.Slices ![0, 0, 0, 0] S16x40x40x64
  slices_S16x40x40x144_S16x40x40x80_0_0_0_64 : S16x40x40x144.Slices ![0, 0, 0, 64] S16x40x40x80
  bcast_S_S16x40x40x1 : S_.BroadcastsInDim S16x40x40x1 (![] : Fin 0 → Fin S16x40x40x1.rank)
  slices_S16x40x40x64_S16x40x40x4_0_0_0_0 : S16x40x40x64.Slices ![0, 0, 0, 0] S16x40x40x4
  reducesTo_S16x40x40x4_S16x40x40_d3 : S16x40x40x4.ReducesTo [3] S16x40x40
  bcast_S16x40x40_S16x40x40x1_0_1_2 : S16x40x40.BroadcastsInDim S16x40x40x1 (![0, 1, 2] : Fin 3 → Fin S16x40x40x1.rank)
  reducesTo_S16x40x40x1_S_d0_1_2_3 : S16x40x40x1.ReducesTo [0, 1, 2, 3] S_
  transposes_S16x144x20x20_S16x20x20x144_0_2_3_1 : S16x144x20x20.Transposes [0, 2, 3, 1] S16x20x20x144
  slices_S16x20x20x144_S16x20x20x64_0_0_0_0 : S16x20x20x144.Slices ![0, 0, 0, 0] S16x20x20x64
  slices_S16x20x20x144_S16x20x20x80_0_0_0_64 : S16x20x20x144.Slices ![0, 0, 0, 64] S16x20x20x80
  bcast_S_S16x20x20x1 : S_.BroadcastsInDim S16x20x20x1 (![] : Fin 0 → Fin S16x20x20x1.rank)
  slices_S16x20x20x64_S16x20x20x4_0_0_0_0 : S16x20x20x64.Slices ![0, 0, 0, 0] S16x20x20x4
  reducesTo_S16x20x20x4_S16x20x20_d3 : S16x20x20x4.ReducesTo [3] S16x20x20
  bcast_S16x20x20_S16x20x20x1_0_1_2 : S16x20x20.BroadcastsInDim S16x20x20x1 (![0, 1, 2] : Fin 3 → Fin S16x20x20x1.rank)
  reducesTo_S16x20x20x1_S_d0_1_2_3 : S16x20x20x1.ReducesTo [0, 1, 2, 3] S_
  scatter_S16x80x80x1_S16x32x4_S16x32_n_0123_0123_2_wf : ScatterDims.WF S16x80x80x1 S16x32x4 S16x32 [] [0, 1, 2, 3] [0, 1, 2, 3] 2
  gather_S16x80x80x64_S16x32x3_S16x32x64_2_012_n_n_012_2_11164_wf : GatherDims.WF S16x80x80x64 S16x32x3 S16x32x64 [2] [0, 1, 2] [] [0, 1, 2] [] 2 ![1, 1, 1, 64]
  gather_S16x80x80x80_S16x32x3_S16x32x80_2_012_n_n_012_2_11180_wf : GatherDims.WF S16x80x80x80 S16x32x3 S16x32x80 [2] [0, 1, 2] [] [0, 1, 2] [] 2 ![1, 1, 1, 80]
  scatter_S16x40x40x1_S16x32x4_S16x32_n_0123_0123_2_wf : ScatterDims.WF S16x40x40x1 S16x32x4 S16x32 [] [0, 1, 2, 3] [0, 1, 2, 3] 2
  gather_S16x40x40x64_S16x32x3_S16x32x64_2_012_n_n_012_2_11164_wf : GatherDims.WF S16x40x40x64 S16x32x3 S16x32x64 [2] [0, 1, 2] [] [0, 1, 2] [] 2 ![1, 1, 1, 64]
  gather_S16x40x40x80_S16x32x3_S16x32x80_2_012_n_n_012_2_11180_wf : GatherDims.WF S16x40x40x80 S16x32x3 S16x32x80 [2] [0, 1, 2] [] [0, 1, 2] [] 2 ![1, 1, 1, 80]
  scatter_S16x20x20x1_S16x32x4_S16x32_n_0123_0123_2_wf : ScatterDims.WF S16x20x20x1 S16x32x4 S16x32 [] [0, 1, 2, 3] [0, 1, 2, 3] 2
  gather_S16x20x20x64_S16x32x3_S16x32x64_2_012_n_n_012_2_11164_wf : GatherDims.WF S16x20x20x64 S16x32x3 S16x32x64 [2] [0, 1, 2] [] [0, 1, 2] [] 2 ![1, 1, 1, 64]
  gather_S16x20x20x80_S16x32x3_S16x32x80_2_012_n_n_012_2_11180_wf : GatherDims.WF S16x20x20x80 S16x32x3 S16x32x80 [2] [0, 1, 2] [] [0, 1, 2] [] 2 ![1, 1, 1, 80]

variable [Facts₀]

def scatter_S16x80x80x1_S16x32x4_S16x32_n_0123_0123_2 : ScatterDims S16x80x80x1 S16x32x4 S16x32 where
  updateWindowDims := []
  insertedWindowDims := [0, 1, 2, 3]
  scatterDimsToOperandDims := [0, 1, 2, 3]
  indexVectorDim := 2
  wf := scatter_S16x80x80x1_S16x32x4_S16x32_n_0123_0123_2_wf
def gather_S16x80x80x64_S16x32x3_S16x32x64_2_012_n_n_012_2_11164 : GatherDims S16x80x80x64 S16x32x3 S16x32x64 where
  offsetDims := [2]
  collapsedSliceDims := [0, 1, 2]
  operandBatchingDims := []
  startIndicesBatchingDims := []
  startIndexMap := [0, 1, 2]
  indexVectorDim := 2
  sliceSizes := ![1, 1, 1, 64]
  wf := gather_S16x80x80x64_S16x32x3_S16x32x64_2_012_n_n_012_2_11164_wf
def gather_S16x80x80x80_S16x32x3_S16x32x80_2_012_n_n_012_2_11180 : GatherDims S16x80x80x80 S16x32x3 S16x32x80 where
  offsetDims := [2]
  collapsedSliceDims := [0, 1, 2]
  operandBatchingDims := []
  startIndicesBatchingDims := []
  startIndexMap := [0, 1, 2]
  indexVectorDim := 2
  sliceSizes := ![1, 1, 1, 80]
  wf := gather_S16x80x80x80_S16x32x3_S16x32x80_2_012_n_n_012_2_11180_wf
def scatter_S16x40x40x1_S16x32x4_S16x32_n_0123_0123_2 : ScatterDims S16x40x40x1 S16x32x4 S16x32 where
  updateWindowDims := []
  insertedWindowDims := [0, 1, 2, 3]
  scatterDimsToOperandDims := [0, 1, 2, 3]
  indexVectorDim := 2
  wf := scatter_S16x40x40x1_S16x32x4_S16x32_n_0123_0123_2_wf
def gather_S16x40x40x64_S16x32x3_S16x32x64_2_012_n_n_012_2_11164 : GatherDims S16x40x40x64 S16x32x3 S16x32x64 where
  offsetDims := [2]
  collapsedSliceDims := [0, 1, 2]
  operandBatchingDims := []
  startIndicesBatchingDims := []
  startIndexMap := [0, 1, 2]
  indexVectorDim := 2
  sliceSizes := ![1, 1, 1, 64]
  wf := gather_S16x40x40x64_S16x32x3_S16x32x64_2_012_n_n_012_2_11164_wf
def gather_S16x40x40x80_S16x32x3_S16x32x80_2_012_n_n_012_2_11180 : GatherDims S16x40x40x80 S16x32x3 S16x32x80 where
  offsetDims := [2]
  collapsedSliceDims := [0, 1, 2]
  operandBatchingDims := []
  startIndicesBatchingDims := []
  startIndexMap := [0, 1, 2]
  indexVectorDim := 2
  sliceSizes := ![1, 1, 1, 80]
  wf := gather_S16x40x40x80_S16x32x3_S16x32x80_2_012_n_n_012_2_11180_wf
def scatter_S16x20x20x1_S16x32x4_S16x32_n_0123_0123_2 : ScatterDims S16x20x20x1 S16x32x4 S16x32 where
  updateWindowDims := []
  insertedWindowDims := [0, 1, 2, 3]
  scatterDimsToOperandDims := [0, 1, 2, 3]
  indexVectorDim := 2
  wf := scatter_S16x20x20x1_S16x32x4_S16x32_n_0123_0123_2_wf
def gather_S16x20x20x64_S16x32x3_S16x32x64_2_012_n_n_012_2_11164 : GatherDims S16x20x20x64 S16x32x3 S16x32x64 where
  offsetDims := [2]
  collapsedSliceDims := [0, 1, 2]
  operandBatchingDims := []
  startIndicesBatchingDims := []
  startIndexMap := [0, 1, 2]
  indexVectorDim := 2
  sliceSizes := ![1, 1, 1, 64]
  wf := gather_S16x20x20x64_S16x32x3_S16x32x64_2_012_n_n_012_2_11164_wf
def gather_S16x20x20x80_S16x32x3_S16x32x80_2_012_n_n_012_2_11180 : GatherDims S16x20x20x80 S16x32x3 S16x32x80 where
  offsetDims := [2]
  collapsedSliceDims := [0, 1, 2]
  operandBatchingDims := []
  startIndicesBatchingDims := []
  startIndexMap := [0, 1, 2]
  indexVectorDim := 2
  sliceSizes := ![1, 1, 1, 80]
  wf := gather_S16x20x20x80_S16x32x3_S16x32x80_2_012_n_n_012_2_11180_wf

class Facts : Prop extends Facts₀ where

variable [Facts]
-- ==== Proof.KIFrame.lean ====
import proofs.«153486_j83854941487213_2_alg».proof.Proof.Gen.KernelIdeal.Launch
import proofs.«153486_j83854941487213_2_alg».proof.Proof.Gen.KernelIdeal.Skeleton
import proofs.«153486_j83854941487213_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The frame of the fused objective kernel

The program's entry function is twenty-eight stretches of host operations, one region (a single grid point over seven
windows: six inputs and the one-cell result), and one closing stretch of host operations. This module states what
the region finds in each buffer (the host prefix folded over the launch contents), what the body leaves in the result
window (the single store's payload over the six input blocks), the body's triple, the proof data of the pipeline, the
run of the entry function, and the frame: the five argument arrays end as launched. -/

-- membership in a rectangle of these extents recurses once per coordinate of the long axes
set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The entry function around the region -/

/-- Core `c`'s TensorCore buffer contents when the region is entered, as a valuation: the launch contents after the
    twenty-eight stretches of host operations that precede the region. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]) (fun b => m (c, b))
/-- The same read at a TensorCore reference. -/
abbrev V (c : Dev nD) (b : Ref sig .tc) : Buf (Elt F) ((c : Thread nD τ).loc b) := V0 m c (Proc.devRef .tc b)

/-- The stretches before the region. -/
abbrev prefixOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]

/-! No host operation allocates: each operation's set of fresh buffers is empty by definition. -/
theorem hostOps0_fresh : (hostOps0 : List (HloOp τ sig (Elt F))).Forall fun op => op.fresh = ∅ := by
  repeat' apply And.intro
  all_goals rfl
theorem hostOps0_1_fresh : (hostOps0_1 : List (HloOp τ sig (Elt F))).Forall fun op => op.fresh = ∅ := by
  repeat' apply And.intro
  all_goals rfl
theorem hostOps0_2_fresh : (hostOps0_2 : List (HloOp τ sig (Elt F))).Forall fun op => op.fresh = ∅ := by
  repeat' apply And.intro
  all_goals rfl
theorem hostOps0_3_fresh : (hostOps0_3 : List (HloOp τ sig (Elt F))).Forall fun op => op.fresh = ∅ := by
  repeat' apply And.intro
  all_goals rfl
theorem hostOps0_4_fresh : (hostOps0_4 : List (HloOp τ sig (Elt F))).Forall fun op => op.fresh = ∅ := by
  repeat' apply And.intro
  all_goals rfl
theorem hostOps0_5_fresh : (hostOps0_5 : List (HloOp τ sig (Elt F))).Forall fun op => op.fresh = ∅ := by
  repeat' apply And.intro
  all_goals rfl
theorem hostOps0_6_fresh : (hostOps0_6 : List (HloOp τ sig (Elt F))).Forall fun op => op.fresh = ∅ := by
  repeat' apply And.intro
  all_goals rfl
theorem hostOps0_7_fresh : (hostOps0_7 : List (HloOp τ sig (Elt F))).Forall fun op => op.fresh = ∅ := by
  repeat' apply And.intro
  all_goals rfl
theorem hostOps0_8_fresh : (hostOps0_8 : List (HloOp τ sig (Elt F))).Forall fun op => op.fresh = ∅ := by
  repeat' apply And.intro
  all_goals rfl
theorem hostOps0_9_fresh : (hostOps0_9 : List (HloOp τ sig (Elt F))).Forall fun op => op.fresh = ∅ := by
  repeat' apply And.intro
  all_goals rfl
theorem hostOps0_10_fresh : (hostOps0_10 : List (HloOp τ sig (Elt F))).Forall fun op => op.fresh = ∅ := by
  repeat' apply And.intro
  all_goals rfl
theorem hostOps0_11_fresh : (hostOps0_11 : List (HloOp τ sig (Elt F))).Forall fun op => op.fresh = ∅ := by
  repeat' apply And.intro
  all_goals rfl
theorem hostOps0_12_fresh : (hostOps0_12 : List (HloOp τ sig (Elt F))).Forall fun op => op.fresh = ∅ := by
  repeat' apply And.intro
  all_goals rfl
theorem hostOps0_13_fresh : (hostOps0_13 : List (HloOp τ sig (Elt F))).Forall fun op => op.fresh = ∅ := by
  repeat' apply And.intro
  all_goals rfl
theorem hostOps0_14_fresh : (hostOps0_14 : List (HloOp τ sig (Elt F))).Forall fun op => op.fresh = ∅ := by
  repeat' apply And.intro
  all_goals rfl
theorem hostOps0_15_fresh : (hostOps0_15 : List (HloOp τ sig (Elt F))).Forall fun op => op.fresh = ∅ := by
  repeat' apply And.intro
  all_goals rfl
theorem hostOps0_16_fresh : (hostOps0_16 : List (HloOp τ sig (Elt F))).Forall fun op => op.fresh = ∅ := by
  repeat' apply And.intro
  all_goals rfl
theorem hostOps0_17_fresh : (hostOps0_17 : List (HloOp τ sig (Elt F))).Forall fun op => op.fresh = ∅ := by
  repeat' apply And.intro
  all_goals rfl
theorem hostOps0_18_fresh : (hostOps0_18 : List (HloOp τ sig (Elt F))).Forall fun op => op.fresh = ∅ := by
  repeat' apply And.intro
  all_goals rfl
theorem hostOps0_19_fresh : (hostOps0_19 : List (HloOp τ sig (Elt F))).Forall fun op => op.fresh = ∅ := by
  repeat' apply And.intro
  all_goals rfl
theorem hostOps0_20_fresh : (hostOps0_20 : List (HloOp τ sig (Elt F))).Forall fun op => op.fresh = ∅ := by
  repeat' apply And.intro
  all_goals rfl
theorem hostOps0_21_fresh : (hostOps0_21 : List (HloOp τ sig (Elt F))).Forall fun op => op.fresh = ∅ := by
  repeat' apply And.intro
  all_goals rfl
theorem hostOps0_22_fresh : (hostOps0_22 : List (HloOp τ sig (Elt F))).Forall fun op => op.fresh = ∅ := by
  repeat' apply And.intro
  all_goals rfl
theorem hostOps0_23_fresh : (hostOps0_23 : List (HloOp τ sig (Elt F))).Forall fun op => op.fresh = ∅ := by
  repeat' apply And.intro
  all_goals rfl
theorem hostOps0_24_fresh : (hostOps0_24 : List (HloOp τ sig (Elt F))).Forall fun op => op.fresh = ∅ := by
  repeat' apply And.intro
  all_goals rfl
theorem hostOps0_25_fresh : (hostOps0_25 : List (HloOp τ sig (Elt F))).Forall fun op => op.fresh = ∅ := by
  repeat' apply And.intro
  all_goals rfl
theorem hostOps0_26_fresh : (hostOps0_26 : List (HloOp τ sig (Elt F))).Forall fun op => op.fresh = ∅ := by
  repeat' apply And.intro
  all_goals rfl
theorem hostOps0_27_fresh : (hostOps0_27 : List (HloOp τ sig (Elt F))).Forall fun op => op.fresh = ∅ := by
  repeat' apply And.intro
  all_goals rfl
theorem hostOps1_fresh : (hostOps1 : List (HloOp τ sig (Elt F))).Forall fun op => op.fresh = ∅ := by
  repeat' apply And.intro
  all_goals rfl

/-- Every operation of every stretch before the region touches TensorCore references only. -/
theorem prefix_sub : (prefixOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub⟩
/-- And none allocates. -/
theorem prefix_fresh : (prefixOps (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh⟩

/-- The entry function around the region: the stretches before it, the region, the stretch after it. It reduces to the
    region continued by the closing stretch, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The stretch after the region touches the pipeline's arrays and the buffers that bypass the region only: each
    operation's buffers are unscoped TensorCore references, and with nothing prefetched every such reference is one or
    the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-! ### What the host operations write

Each host operation writes exactly one buffer, its result. A reference that is the result of no operation of a list is
therefore written by none of them. -/

/-- An operation whose one written buffer is the reference `y` writes no reference of a list that does not hold `y`. -/
theorem keeps_of {op : HloOp τ sig (Elt F)} {y : Ref sig .tc} (L : List (Ref sig .tc))
    (h : op.writes = {Proc.devRef .tc y}) (hy : y ∉ L) : ∀ r ∈ L, Proc.devRef (τ := τ) .tc r ∉ op.writes := by
  intro r hr hmem
  rw [h, Finset.mem_singleton] at hmem
  exact hy (Proc.devRef_injective _ hmem ▸ hr)

/-- The references the frame is about: the five argument arrays, and the seven arrays the region's windows stage. -/
abbrev keptRefs : List (Ref sig .tc) :=
  [main_arg0, main_arg1, main_arg2, main_arg3, main_arg4,
   Pipeline.arrRef spec0 0, Pipeline.arrRef spec0 1, Pipeline.arrRef spec0 2, Pipeline.arrRef spec0 3,
   Pipeline.arrRef spec0 4, Pipeline.arrRef spec0 5, Pipeline.arrRef spec0 6]

/-- The five argument arrays. -/
abbrev argRefs : List (Ref sig .tc) := [main_arg0, main_arg1, main_arg2, main_arg3, main_arg4]

/-- An operation that writes no argument array. -/
abbrev KeepsArgs (op : HloOp τ sig (Elt F)) : Prop := ∀ r ∈ argRefs, Proc.devRef (τ := τ) .tc r ∉ op.writes

theorem hostOps0_keeps : (hostOps0 : List (HloOp τ sig (Elt F))).Forall KeepsArgs := by
  repeat' apply And.intro
  all_goals exact keeps_of argRefs rfl (by decide)
theorem hostOps0_1_keeps : (hostOps0_1 : List (HloOp τ sig (Elt F))).Forall KeepsArgs := by
  repeat' apply And.intro
  all_goals exact keeps_of argRefs rfl (by decide)
theorem hostOps0_2_keeps : (hostOps0_2 : List (HloOp τ sig (Elt F))).Forall KeepsArgs := by
  repeat' apply And.intro
  all_goals exact keeps_of argRefs rfl (by decide)
theorem hostOps0_3_keeps : (hostOps0_3 : List (HloOp τ sig (Elt F))).Forall KeepsArgs := by
  repeat' apply And.intro
  all_goals exact keeps_of argRefs rfl (by decide)
theorem hostOps0_4_keeps : (hostOps0_4 : List (HloOp τ sig (Elt F))).Forall KeepsArgs := by
  repeat' apply And.intro
  all_goals exact keeps_of argRefs rfl (by decide)
theorem hostOps0_5_keeps : (hostOps0_5 : List (HloOp τ sig (Elt F))).Forall KeepsArgs := by
  repeat' apply And.intro
  all_goals exact keeps_of argRefs rfl (by decide)
theorem hostOps0_6_keeps : (hostOps0_6 : List (HloOp τ sig (Elt F))).Forall KeepsArgs := by
  repeat' apply And.intro
  all_goals exact keeps_of argRefs rfl (by decide)
theorem hostOps0_7_keeps : (hostOps0_7 : List (HloOp τ sig (Elt F))).Forall KeepsArgs := by
  repeat' apply And.intro
  all_goals exact keeps_of argRefs rfl (by decide)
theorem hostOps0_8_keeps : (hostOps0_8 : List (HloOp τ sig (Elt F))).Forall KeepsArgs := by
  repeat' apply And.intro
  all_goals exact keeps_of argRefs rfl (by decide)
theorem hostOps0_9_keeps : (hostOps0_9 : List (HloOp τ sig (Elt F))).Forall KeepsArgs := by
  repeat' apply And.intro
  all_goals exact keeps_of argRefs rfl (by decide)
theorem hostOps0_10_keeps : (hostOps0_10 : List (HloOp τ sig (Elt F))).Forall KeepsArgs := by
  repeat' apply And.intro
  all_goals exact keeps_of argRefs rfl (by decide)
theorem hostOps0_11_keeps : (hostOps0_11 : List (HloOp τ sig (Elt F))).Forall KeepsArgs := by
  repeat' apply And.intro
  all_goals exact keeps_of argRefs rfl (by decide)
theorem hostOps0_12_keeps : (hostOps0_12 : List (HloOp τ sig (Elt F))).Forall KeepsArgs := by
  repeat' apply And.intro
  all_goals exact keeps_of argRefs rfl (by decide)
theorem hostOps0_13_keeps : (hostOps0_13 : List (HloOp τ sig (Elt F))).Forall KeepsArgs := by
  repeat' apply And.intro
  all_goals exact keeps_of argRefs rfl (by decide)
theorem hostOps0_14_keeps : (hostOps0_14 : List (HloOp τ sig (Elt F))).Forall KeepsArgs := by
  repeat' apply And.intro
  all_goals exact keeps_of argRefs rfl (by decide)
theorem hostOps0_15_keeps : (hostOps0_15 : List (HloOp τ sig (Elt F))).Forall KeepsArgs := by
  repeat' apply And.intro
  all_goals exact keeps_of argRefs rfl (by decide)
theorem hostOps0_16_keeps : (hostOps0_16 : List (HloOp τ sig (Elt F))).Forall KeepsArgs := by
  repeat' apply And.intro
  all_goals exact keeps_of argRefs rfl (by decide)
theorem hostOps0_17_keeps : (hostOps0_17 : List (HloOp τ sig (Elt F))).Forall KeepsArgs := by
  repeat' apply And.intro
  all_goals exact keeps_of argRefs rfl (by decide)
theorem hostOps0_18_keeps : (hostOps0_18 : List (HloOp τ sig (Elt F))).Forall KeepsArgs := by
  repeat' apply And.intro
  all_goals exact keeps_of argRefs rfl (by decide)
theorem hostOps0_19_keeps : (hostOps0_19 : List (HloOp τ sig (Elt F))).Forall KeepsArgs := by
  repeat' apply And.intro
  all_goals exact keeps_of argRefs rfl (by decide)
theorem hostOps0_20_keeps : (hostOps0_20 : List (HloOp τ sig (Elt F))).Forall KeepsArgs := by
  repeat' apply And.intro
  all_goals exact keeps_of argRefs rfl (by decide)
theorem hostOps0_21_keeps : (hostOps0_21 : List (HloOp τ sig (Elt F))).Forall KeepsArgs := by
  repeat' apply And.intro
  all_goals exact keeps_of argRefs rfl (by decide)
theorem hostOps0_22_keeps : (hostOps0_22 : List (HloOp τ sig (Elt F))).Forall KeepsArgs := by
  repeat' apply And.intro
  all_goals exact keeps_of argRefs rfl (by decide)
theorem hostOps0_23_keeps : (hostOps0_23 : List (HloOp τ sig (Elt F))).Forall KeepsArgs := by
  repeat' apply And.intro
  all_goals exact keeps_of argRefs rfl (by decide)
theorem hostOps0_24_keeps : (hostOps0_24 : List (HloOp τ sig (Elt F))).Forall KeepsArgs := by
  repeat' apply And.intro
  all_goals exact keeps_of argRefs rfl (by decide)
theorem hostOps0_25_keeps : (hostOps0_25 : List (HloOp τ sig (Elt F))).Forall KeepsArgs := by
  repeat' apply And.intro
  all_goals exact keeps_of argRefs rfl (by decide)
theorem hostOps0_26_keeps : (hostOps0_26 : List (HloOp τ sig (Elt F))).Forall KeepsArgs := by
  repeat' apply And.intro
  all_goals exact keeps_of argRefs rfl (by decide)
theorem hostOps0_27_keeps : (hostOps0_27 : List (HloOp τ sig (Elt F))).Forall KeepsArgs := by
  repeat' apply And.intro
  all_goals exact keeps_of argRefs rfl (by decide)
theorem hostOps1_keeps : (hostOps1 : List (HloOp τ sig (Elt F))).Forall KeepsArgs := by
  repeat' apply And.intro
  all_goals exact keeps_of argRefs rfl (by decide)

/-- No operation of any stretch before the region writes an argument array. -/
theorem prefix_keeps : (prefixOps (F := F)).Forall fun ops => ops.Forall KeepsArgs :=
  ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps, hostOps0_22_keeps, hostOps0_23_keeps, hostOps0_24_keeps, hostOps0_25_keeps, hostOps0_26_keeps, hostOps0_27_keeps⟩

/-- A property of every operation of every list holds of every operation of the concatenation. -/
theorem forall_flatten {α : Type} {P : α → Prop} {L : List (List α)} (h : L.Forall fun l => l.Forall P) :
    ∀ x ∈ L.flatten, P x := by
  intro x hx
  obtain ⟨l, hl, hxl⟩ := List.mem_flatten.mp hx
  exact (List.forall_iff_forall_mem.mp ((List.forall_iff_forall_mem.mp h) l hl)) x hxl

/-- An argument array is as launched when the region is entered. -/
theorem V_arg (c : Dev nD) (r : Ref sig .tc) (hr : r ∈ argRefs) : V m c r = m ((c : Thread nD τ).loc r) :=
  StableHlo.after_of_forall_not_mem (b := Proc.devRef .tc r) _ _ fun op hop => forall_flatten (prefix_keeps (F := F)) op hop r hr
theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)
theorem V_main_arg4 (c : Dev nD) : V m c main_arg4 = m ((c : Thread nD τ).loc main_arg4) := V_arg m c main_arg4 (by decide)

/-- The seven arrays the region's windows stage. -/
abbrev winRefs : List (Ref sig .tc) :=
  [Pipeline.arrRef spec0 0, Pipeline.arrRef spec0 1, Pipeline.arrRef spec0 2, Pipeline.arrRef spec0 3,
   Pipeline.arrRef spec0 4, Pipeline.arrRef spec0 5, Pipeline.arrRef spec0 6]
theorem arrRef_mem_winRefs : ∀ w, Pipeline.arrRef spec0 w ∈ winRefs := by decide
/-- No window stages an argument array. -/
theorem arrRef_ne_arg : ∀ r ∈ argRefs, ∀ w, Pipeline.arrRef spec0 w ≠ r := by decide

/-- No operation of the closing stretch writes an array of the pipeline: each writes its own result buffer, which is
    none of the seven. -/
theorem hostOps1_keepsW : (hostOps1 : List (HloOp τ sig (Elt F))).Forall fun op => ∀ r ∈ winRefs, Proc.devRef (τ := τ) .tc r ∉ op.writes := by
  repeat' apply And.intro
  all_goals exact keeps_of winRefs rfl (by decide)
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  · exact (List.forall_iff_forall_mem.mp hostOps1_keepsW) op hop _ (arrRef_mem_winRefs w)

/-- An argument array ends as launched: the closing stretch does not write it, the region does not stage it, and the
    region finds it as launched. -/
theorem W_arg (dats : (p : Fin 1) → (c : Dev nD) → Dat τ (Elt F) Unit ℕ (UR sig nD τ) ℕ (cfgs p) c) (c : Dev nD)
    (r : Ref sig .tc) (hr : r ∈ argRefs) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop =>
      forall_flatten (show ([hostOps1] : List (List (HloOp τ sig (Elt F)))).Forall (fun ops => ops.Forall KeepsArgs) from hostOps1_keeps) op hop r hr),
    Pipeline.withArrays_of_ne _ c (V0 m c) _ r (arrRef_ne_arg r hr)]
  exact V_arg m c r hr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data whose array is the region-entry contents and whose body leaves the block in place: the window is uncut and
    never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data, a run of the entry function to the library's frame post — every
    unscoped buffer no window stages is as the closing stretch leaves it — read at the five argument arrays is the frame
    claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_arg m dats c main_arg0 (by decide)),
     ((h c).2 main_arg1 (Pipeline.mem_restRefs_of main_arg1 (by decide) (by decide))).trans (W_arg m dats c main_arg1 (by decide)),
     ((h c).2 main_arg2 (Pipeline.mem_restRefs_of main_arg2 (by decide) (by decide))).trans (W_arg m dats c main_arg2 (by decide)),
     ((h c).2 main_arg3 (Pipeline.mem_restRefs_of main_arg3 (by decide) (by decide))).trans (W_arg m dats c main_arg3 (by decide)),
     ((h c).2 main_arg4 (Pipeline.mem_restRefs_of main_arg4 (by decide) (by decide))).trans (W_arg m dats c main_arg4 (by decide))⟩) h

/-! ## The body's accesses -/

abbrev r0_0 : Rect S16x4x6400 := Rect.unit (s := S16x4x6400) ![0, 0, 0] S16x4x6400.size inb_S16x4x6400_S16x4x6400_0_0_0
abbrev r0_1 : Rect S16x6400 := Rect.unit (s := S16x6400) ![0, 0] S16x6400.size inb_S16x6400_S16x6400_0_0
abbrev r0_2 : Rect S16x4x1600 := Rect.unit (s := S16x4x1600) ![0, 0, 0] S16x4x1600.size inb_S16x4x1600_S16x4x1600_0_0_0
abbrev r0_3 : Rect S16x1600 := Rect.unit (s := S16x1600) ![0, 0] S16x1600.size inb_S16x1600_S16x1600_0_0
abbrev r0_4 : Rect S16x4x400 := Rect.unit (s := S16x4x400) ![0, 0, 0] S16x4x400.size inb_S16x4x400_S16x4x400_0_0_0
abbrev r0_5 : Rect S16x400 := Rect.unit (s := S16x400) ![0, 0] S16x400.size inb_S16x400_S16x400_0_0
abbrev r0_6 : Rect S1x1 := Rect.unit (s := S1x1) ![0, 0] S1x1.size inb_S1x1_S1x1_0_0

/-! ## What the body leaves in the result window's buffer -/

/-- The result window's staging buffer after the body, from the six input windows' blocks: the body's one store — of the
    sum of the three scaled squared-error terms, computed from whole-block loads of the six inputs — as the one piece. -/
def out0_6 (x0 : Vec F S16x4x6400 .f32) (x1 : Vec F S16x6400 .f32) (x2 : Vec F S16x4x1600 .f32) (x3 : Vec F S16x1600 .f32)
    (x4 : Vec F S16x4x400 .f32) (x5 : Vec F S16x400 .f32) : Vec F S1x1 .f32 :=
  View.canon [⟨r0_6, k0_pay1 (k0_pay2 (View.ld x0 r0_0) (View.ld x1 r0_1)) (k0_pay3 (View.ld x2 r0_2)) (k0_pay4 (View.ld x3 r0_3)) (View.ld x4 r0_4) (View.ld x5 r0_5)⟩]

/-- The one store is of the whole one-cell buffer, so it covers it. -/
theorem cover0_6 (p0 : Vec F S1x1 .f32) (y : S1x1.Idx) :
    ∃ pc ∈ ([⟨r0_6, p0⟩] : List (View.Piece (Elt F) S1x1 .f32)), y ∈ pc.1.set :=
  View.cover_of_tiled [⟨r0_6, p0⟩] S1x1.size (by rfl) y

/-! ## The body's triple -/

set_option maxHeartbeats 1000000 in
/-- The kernel body on whole staging memrefs, the inputs' at contents `x0 … x5` and the result's at anything, runs to the
    continuation holding the inputs' as they were and the result's at `out0_6` of the inputs'. -/
theorem sound_kernel (c : Dev nD) (E : Set ℕ) (i : grid0.Coords)
    (arg1 : Memref sig .tc .vmem S16x4x6400 .f32) (harg1 : arg1.IsWhole) (arg2 : Memref sig .tc .vmem S16x6400 .f32) (harg2 : arg2.IsWhole)
    (arg3 : Memref sig .tc .vmem S16x4x1600 .f32) (harg3 : arg3.IsWhole) (arg4 : Memref sig .tc .vmem S16x1600 .f32) (harg4 : arg4.IsWhole)
    (arg5 : Memref sig .tc .vmem S16x4x400 .f32) (harg5 : arg5.IsWhole) (arg6 : Memref sig .tc .vmem S16x400 .f32) (harg6 : arg6.IsWhole)
    (arg7 : Memref sig .tc .vmem S1x1 .f32) (harg7 : arg7.IsWhole)
    (x0 : Vec F S16x4x6400 .f32) (x1 : Vec F S16x6400 .f32) (x2 : Vec F S16x4x1600 .f32) (x3 : Vec F S16x1600 .f32)
    (x4 : Vec F S16x4x400 .f32) (x5 : Vec F S16x400 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__fused_obj_kernel i arg1 harg1 arg2 harg2 arg3 harg3 arg4 harg4 arg5 harg5 arg6 harg6 arg7 harg7) K := by
  simp only [cc0__fused_obj_kernel_eq_skeleton]; unfold cc0__fused_obj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of the one pipeline on core `c`: the arrays as the region finds them; after the body at point `t` each
    input's buffer at its block and the result's at `out0_6` of the six input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the definition projected, so that the fold over the host
    prefix is never unfolded to check it. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of the entry
    function on the TensorCores terminates, and every final state has every array of the pipeline at what the library
    computes from the proof data and every other unscoped buffer as the closing stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the entry function runs, and the five argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.HF

end
-- ==== Proof.KIValue.lean ====
import proofs.«153486_j83854941487213_2_alg».proof.Proof.KIFrame
import Idealize.ShloMosaic.Lib.Pipeline.Value

/-! # The value the fused objective kernel's program returns

The grid has one point and every window's block is its whole array. So each input block is the array the region
finds, the result window's array ends holding the body's payload of those six arrays, and the program's result is the
closing stretch of host operations applied to it and to two buffers the host prefix computed. -/

noncomputable section

namespace Cert.KernelIdeal.HF

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The input blocks

Each input window's block at the one point starts at index zero on every axis and has the array's own extents: read
through it, the array is itself. -/
theorem iblk0 (c : Dev nD) (t : Fin cfg0.N) : (iblk m c 0 t : Vec F S16x4x6400 .f32) = V m c main_v88 := by
  obtain rfl := fin_N0 t
  have hz' : (fun a => win0_0.index t0_0 a * main_v88.ty.shape.size a) = fun _ => 0 := funext fun a => by fin_cases a <;> decide
  unfold iblk
  exact Memref.read_access_unit_zero (Elt F) main_v88 hz' (fun a => by rw [congrFun hz' a]; simp) _
theorem iblk1 (c : Dev nD) (t : Fin cfg0.N) : (iblk m c 1 t : Vec F S16x6400 .f32) = V m c main_v89 := by
  obtain rfl := fin_N0 t
  have hz' : (fun a => win0_1.index t0_0 a * main_v89.ty.shape.size a) = fun _ => 0 := funext fun a => by fin_cases a <;> decide
  unfold iblk
  exact Memref.read_access_unit_zero (Elt F) main_v89 hz' (fun a => by rw [congrFun hz' a]; simp) _
theorem iblk2 (c : Dev nD) (t : Fin cfg0.N) : (iblk m c 2 t : Vec F S16x4x1600 .f32) = V m c main_v178 := by
  obtain rfl := fin_N0 t
  have hz' : (fun a => win0_2.index t0_0 a * main_v178.ty.shape.size a) = fun _ => 0 := funext fun a => by fin_cases a <;> decide
  unfold iblk
  exact Memref.read_access_unit_zero (Elt F) main_v178 hz' (fun a => by rw [congrFun hz' a]; simp) _
theorem iblk3 (c : Dev nD) (t : Fin cfg0.N) : (iblk m c 3 t : Vec F S16x1600 .f32) = V m c main_v179 := by
  obtain rfl := fin_N0 t
  have hz' : (fun a => win0_3.index t0_0 a * main_v179.ty.shape.size a) = fun _ => 0 := funext fun a => by fin_cases a <;> decide
  unfold iblk
  exact Memref.read_access_unit_zero (Elt F) main_v179 hz' (fun a => by rw [congrFun hz' a]; simp) _
theorem iblk4 (c : Dev nD) (t : Fin cfg0.N) : (iblk m c 4 t : Vec F S16x4x400 .f32) = V m c main_v268 := by
  obtain rfl := fin_N0 t
  have hz' : (fun a => win0_4.index t0_0 a * main_v268.ty.shape.size a) = fun _ => 0 := funext fun a => by fin_cases a <;> decide
  unfold iblk
  exact Memref.read_access_unit_zero (Elt F) main_v268 hz' (fun a => by rw [congrFun hz' a]; simp) _
theorem iblk5 (c : Dev nD) (t : Fin cfg0.N) : (iblk m c 5 t : Vec F S16x400 .f32) = V m c main_v269 := by
  obtain rfl := fin_N0 t
  have hz' : (fun a => win0_5.index t0_0 a * main_v269.ty.shape.size a) = fun _ => 0 := funext fun a => by fin_cases a <;> decide
  unfold iblk
  exact Memref.read_access_unit_zero (Elt F) main_v269 hz' (fun a => by rw [congrFun hz' a]; simp) _

/-! ## The result window's array after the region -/

/-- What the result window's array ends holding: the body's payload — the three scaled squared-error terms summed — of
    the six arrays the region finds. -/
abbrev outK (c : Dev nD) : S1x1.Idx → Elt F .f32 :=
  k0_pay1 (k0_pay2 (V m c main_v88) (V m c main_v89)) (k0_pay3 (V m c main_v178)) (k0_pay4 (V m c main_v179)) (V m c main_v268) (V m c main_v269)

/-- What the one point writes back is `outK` read through the result window's block, which is the whole one-cell array. -/
theorem flushed6_eq (c : Dev nD) (t : Fin cfg0.N) :
    (dats m 0 c).flushed 6 t = ((cfg0.win 6).blk t).view.read (Elt F) (outK m c) := by
  show (cfg0.win 6).cut (grid0.coords t) ((dats m 0 c).after 6 t) = _
  rw [after0_6]
  unfold out0_6
  rw [View.canon_unit_zero zeros2]
  simp only [View.ld_unit_zero (S := S16x4x6400) zeros3, View.ld_unit_zero (S := S16x6400) zeros2,
    View.ld_unit_zero (S := S16x4x1600) zeros3, View.ld_unit_zero (S := S16x1600) zeros2,
    View.ld_unit_zero (S := S16x4x400) zeros3, View.ld_unit_zero (S := S16x400) zeros2]
  rw [iblk0, iblk1, iblk2, iblk3, iblk4, iblk5]
  obtain rfl := fin_N0 t
  have hz' : (fun a => win0_6.index t0_0 a * main_v270.ty.shape.size a) = fun _ => 0 := funext fun a => by fin_cases a <;> decide
  exact (Memref.read_access_unit_zero (Elt F) main_v270 hz' (fun a => by rw [congrFun hz' a]; simp) (outK m c)).symm

/-- The one point's block covers the result window's array. -/
theorem cover6 (i : S1x1.Idx) : ∃ t : Fin cfg0.N, (cfg0.win 6).flush t = true ∧ i ∈ ((cfg0.win 6).blk t).view.set := by
  refine ⟨t0_0, flush0_6 t0_0, ?_⟩
  show i ∈ ((View.whole main_v270).slice (win0_6.rect t0_0)).set
  rw [View.set_slice_whole, Rect.mem_set_unit]
  intro a
  have h0 : (i 0 : Nat) < 1 := (i 0).isLt
  have h1 : (i 1 : Nat) < 1 := (i 1).isLt
  match a with
  | ⟨0, _⟩ => show win0_6.index t0_0 0 * win0_6.size 0 ≤ (i 0 : Nat) ∧ (i 0 : Nat) < win0_6.index t0_0 0 * win0_6.size 0 + win0_6.xsize (grid0.coords t0_0) 0
              rw [show win0_6.index t0_0 0 * win0_6.size 0 = 0 from by decide +kernel, show win0_6.xsize (grid0.coords t0_0) 0 = 1 from by decide +kernel]; omega
  | ⟨1, _⟩ => show win0_6.index t0_0 1 * win0_6.size 1 ≤ (i 1 : Nat) ∧ (i 1 : Nat) < win0_6.index t0_0 1 * win0_6.size 1 + win0_6.xsize (grid0.coords t0_0) 1
              rw [show win0_6.index t0_0 1 * win0_6.size 1 = 0 from by decide +kernel, show win0_6.xsize (grid0.coords t0_0) 1 = 1 from by decide +kernel]; omega

/-- So the result window's array ends holding `outK`. -/
theorem out_final (c : Dev nD) : (dats m 0 c).arrAt 6 cfg0.N = outK m c :=
  (dats m 0 c).arrAt_eq_of_cover 6 (outK m c) (fun t _ => flushed6_eq m c t) cover6

/-! ## The closing stretch -/

/-- The closing stretch's result from the three buffers it reads: the weighted sum of the three mean losses, each
    divided by three, with weights 7.5, 1 and 0.5. -/
def tailK (a b : FVec F S_ .f32) (k : FVec F S1x1 .f32) : FVec F S_ .f32 :=
  addf (addf (mulf (constant S_ .f32 0x40F00000#32) (Host.divf a (constant S_ .f32 0x40400000#32)))
      (mulf (constant S_ .f32 0x3F800000#32) (Host.divf (shapeCast S_ k shapeCasts_S1x1_S_) (constant S_ .f32 0x40400000#32))))
    (mulf (constant S_ .f32 0x3F000000#32) (Host.divf b (constant S_ .f32 0x40400000#32)))

/-- The closing stretch run from any contents `W`, read at its last result. -/
theorem tail_eval (W : Valuation τ sig (Elt F)) :
    StableHlo.after (hostOps1 (F := F)) W (Proc.devRef .tc main_v279)
      = tailK (W (Proc.devRef .tc main_v265)) (W (Proc.devRef .tc main_v266)) (W (Proc.devRef .tc main_v270)) := by
  after_results_simp
  rfl

/-- The program's result after the run: the closing stretch applied to two buffers of the host prefix and to the result
    window's array as the region leaves it. -/
theorem result_tail (c : Dev nD) :
    Pipeline.afterTail₀ cfgs (dats m) 0 (V0 m) [hostOps1] c main_v279
      = tailK (V m c main_v265) (V m c main_v266) ((dats m 0 c).arrAt 6 cfg0.N) := by
  unfold Pipeline.afterTail₀
  refine (tail_eval _).trans ?_
  have h1 := Pipeline.withArrays_of_ne spec0 c (V0 m c) (fun w => (dats m 0 c).arrAt w cfg0.N) main_v265 (by decide)
  have h2 := Pipeline.withArrays_of_ne spec0 c (V0 m c) (fun w => (dats m 0 c).arrAt w cfg0.N) main_v266 (by decide)
  have h3 := Pipeline.withArrays_arr spec0 launch0.win.arr_inj c (V0 m c) (fun w => (dats m 0 c).arrAt w cfg0.N) 6
  exact congr (congr (congrArg tailK h1) h2) h3

/-! ## The run, read -/

/-- The run of the entry function with the program's result named and the five argument arrays unchanged. -/
theorem run_value : θ_run defs (onTc (τ := τ) (main (F := F))) ⟨m, fun _ => 0, ρ⟩ (fun r => ∀ c : Dev nD,
      r.2.mem ((c.tc : Thread nD τ).loc main_v279) = tailK (V m c main_v265) (V m c main_v266)
        (k0_pay1 (k0_pay2 (V m c main_v88) (V m c main_v89)) (k0_pay3 (V m c main_v178)) (k0_pay4 (V m c main_v179)) (V m c main_v268) (V m c main_v269))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_v279 (Pipeline.mem_restRefs_of main_v279 (by decide) (by decide))).trans (result_tail m c)).trans
        (congrArg (tailK (V m c main_v265) (V m c main_v266)) (out_final m c)),
     ((h c).2 main_arg0 (Pipeline.mem_restRefs_of main_arg0 (by decide) (by decide))).trans (W_arg m (dats m) c main_arg0 (by decide)),
     ((h c).2 main_arg1 (Pipeline.mem_restRefs_of main_arg1 (by decide) (by decide))).trans (W_arg m (dats m) c main_arg1 (by decide)),
     ((h c).2 main_arg2 (Pipeline.mem_restRefs_of main_arg2 (by decide) (by decide))).trans (W_arg m (dats m) c main_arg2 (by decide)),
     ((h c).2 main_arg3 (Pipeline.mem_restRefs_of main_arg3 (by decide) (by decide))).trans (W_arg m (dats m) c main_arg3 (by decide)),
     ((h c).2 main_arg4 (Pipeline.mem_restRefs_of main_arg4 (by decide) (by decide))).trans (W_arg m (dats m) c main_arg4 (by decide))⟩)
    (run_main m ρ)

end Cert.KernelIdeal.HF

end
-- ==== Proof.KFrame.lean ====
import proofs.«153486_j83854941487213_2_alg».proof.Proof.Gen.Kernel.Launch
import proofs.«153486_j83854941487213_2_alg».proof.Proof.Gen.Kernel.Skeleton
import proofs.«153486_j83854941487213_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The frame of the fused objective kernel

The program's entry function is twenty-eight stretches of host operations, one region (a single grid point over seven
windows: six inputs and the one-cell result), and one closing stretch of host operations. This module states what
the region finds in each buffer (the host prefix folded over the launch contents), what the body leaves in the result
window (the single store's payload over the six input blocks), the body's triple, the proof data of the pipeline, the
run of the entry function, and the frame: the five argument arrays end as launched. -/

-- membership in a rectangle of these extents recurses once per coordinate of the long axes
set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The entry function around the region -/

/-- Core `c`'s TensorCore buffer contents when the region is entered, as a valuation: the launch contents after the
    twenty-eight stretches of host operations that precede the region. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]) (fun b => m (c, b))
/-- The same read at a TensorCore reference. -/
abbrev V (c : Dev nD) (b : Ref sig .tc) : Buf (Elt F) ((c : Thread nD τ).loc b) := V0 m c (Proc.devRef .tc b)

/-- The stretches before the region. -/
abbrev prefixOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]

/-! No host operation allocates: each operation's set of fresh buffers is empty by definition. -/
theorem hostOps0_fresh : (hostOps0 : List (HloOp τ sig (Elt F))).Forall fun op => op.fresh = ∅ := by
  repeat' apply And.intro
  all_goals rfl
theorem hostOps0_1_fresh : (hostOps0_1 : List (HloOp τ sig (Elt F))).Forall fun op => op.fresh = ∅ := by
  repeat' apply And.intro
  all_goals rfl
theorem hostOps0_2_fresh : (hostOps0_2 : List (HloOp τ sig (Elt F))).Forall fun op => op.fresh = ∅ := by
  repeat' apply And.intro
  all_goals rfl
theorem hostOps0_3_fresh : (hostOps0_3 : List (HloOp τ sig (Elt F))).Forall fun op => op.fresh = ∅ := by
  repeat' apply And.intro
  all_goals rfl
theorem hostOps0_4_fresh : (hostOps0_4 : List (HloOp τ sig (Elt F))).Forall fun op => op.fresh = ∅ := by
  repeat' apply And.intro
  all_goals rfl
theorem hostOps0_5_fresh : (hostOps0_5 : List (HloOp τ sig (Elt F))).Forall fun op => op.fresh = ∅ := by
  repeat' apply And.intro
  all_goals rfl
theorem hostOps0_6_fresh : (hostOps0_6 : List (HloOp τ sig (Elt F))).Forall fun op => op.fresh = ∅ := by
  repeat' apply And.intro
  all_goals rfl
theorem hostOps0_7_fresh : (hostOps0_7 : List (HloOp τ sig (Elt F))).Forall fun op => op.fresh = ∅ := by
  repeat' apply And.intro
  all_goals rfl
theorem hostOps0_8_fresh : (hostOps0_8 : List (HloOp τ sig (Elt F))).Forall fun op => op.fresh = ∅ := by
  repeat' apply And.intro
  all_goals rfl
theorem hostOps0_9_fresh : (hostOps0_9 : List (HloOp τ sig (Elt F))).Forall fun op => op.fresh = ∅ := by
  repeat' apply And.intro
  all_goals rfl
theorem hostOps0_10_fresh : (hostOps0_10 : List (HloOp τ sig (Elt F))).Forall fun op => op.fresh = ∅ := by
  repeat' apply And.intro
  all_goals rfl
theorem hostOps0_11_fresh : (hostOps0_11 : List (HloOp τ sig (Elt F))).Forall fun op => op.fresh = ∅ := by
  repeat' apply And.intro
  all_goals rfl
theorem hostOps0_12_fresh : (hostOps0_12 : List (HloOp τ sig (Elt F))).Forall fun op => op.fresh = ∅ := by
  repeat' apply And.intro
  all_goals rfl
theorem hostOps0_13_fresh : (hostOps0_13 : List (HloOp τ sig (Elt F))).Forall fun op => op.fresh = ∅ := by
  repeat' apply And.intro
  all_goals rfl
theorem hostOps0_14_fresh : (hostOps0_14 : List (HloOp τ sig (Elt F))).Forall fun op => op.fresh = ∅ := by
  repeat' apply And.intro
  all_goals rfl
theorem hostOps0_15_fresh : (hostOps0_15 : List (HloOp τ sig (Elt F))).Forall fun op => op.fresh = ∅ := by
  repeat' apply And.intro
  all_goals rfl
theorem hostOps0_16_fresh : (hostOps0_16 : List (HloOp τ sig (Elt F))).Forall fun op => op.fresh = ∅ := by
  repeat' apply And.intro
  all_goals rfl
theorem hostOps0_17_fresh : (hostOps0_17 : List (HloOp τ sig (Elt F))).Forall fun op => op.fresh = ∅ := by
  repeat' apply And.intro
  all_goals rfl
theorem hostOps0_18_fresh : (hostOps0_18 : List (HloOp τ sig (Elt F))).Forall fun op => op.fresh = ∅ := by
  repeat' apply And.intro
  all_goals rfl
theorem hostOps0_19_fresh : (hostOps0_19 : List (HloOp τ sig (Elt F))).Forall fun op => op.fresh = ∅ := by
  repeat' apply And.intro
  all_goals rfl
theorem hostOps0_20_fresh : (hostOps0_20 : List (HloOp τ sig (Elt F))).Forall fun op => op.fresh = ∅ := by
  repeat' apply And.intro
  all_goals rfl
theorem hostOps0_21_fresh : (hostOps0_21 : List (HloOp τ sig (Elt F))).Forall fun op => op.fresh = ∅ := by
  repeat' apply And.intro
  all_goals rfl
theorem hostOps0_22_fresh : (hostOps0_22 : List (HloOp τ sig (Elt F))).Forall fun op => op.fresh = ∅ := by
  repeat' apply And.intro
  all_goals rfl
theorem hostOps0_23_fresh : (hostOps0_23 : List (HloOp τ sig (Elt F))).Forall fun op => op.fresh = ∅ := by
  repeat' apply And.intro
  all_goals rfl
theorem hostOps0_24_fresh : (hostOps0_24 : List (HloOp τ sig (Elt F))).Forall fun op => op.fresh = ∅ := by
  repeat' apply And.intro
  all_goals rfl
theorem hostOps0_25_fresh : (hostOps0_25 : List (HloOp τ sig (Elt F))).Forall fun op => op.fresh = ∅ := by
  repeat' apply And.intro
  all_goals rfl
theorem hostOps0_26_fresh : (hostOps0_26 : List (HloOp τ sig (Elt F))).Forall fun op => op.fresh = ∅ := by
  repeat' apply And.intro
  all_goals rfl
theorem hostOps0_27_fresh : (hostOps0_27 : List (HloOp τ sig (Elt F))).Forall fun op => op.fresh = ∅ := by
  repeat' apply And.intro
  all_goals rfl
theorem hostOps1_fresh : (hostOps1 : List (HloOp τ sig (Elt F))).Forall fun op => op.fresh = ∅ := by
  repeat' apply And.intro
  all_goals rfl

/-- Every operation of every stretch before the region touches TensorCore references only. -/
theorem prefix_sub : (prefixOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub⟩
/-- And none allocates. -/
theorem prefix_fresh : (prefixOps (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh⟩

/-- The entry function around the region: the stretches before it, the region, the stretch after it. It reduces to the
    region continued by the closing stretch, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The stretch after the region touches the pipeline's arrays and the buffers that bypass the region only: each
    operation's buffers are unscoped TensorCore references, and with nothing prefetched every such reference is one or
    the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-! ### What the host operations write

Each host operation writes exactly one buffer, its result. A reference that is the result of no operation of a list is
therefore written by none of them. -/

/-- An operation whose one written buffer is the reference `y` writes no reference of a list that does not hold `y`. -/
theorem keeps_of {op : HloOp τ sig (Elt F)} {y : Ref sig .tc} (L : List (Ref sig .tc))
    (h : op.writes = {Proc.devRef .tc y}) (hy : y ∉ L) : ∀ r ∈ L, Proc.devRef (τ := τ) .tc r ∉ op.writes := by
  intro r hr hmem
  rw [h, Finset.mem_singleton] at hmem
  exact hy (Proc.devRef_injective _ hmem ▸ hr)

/-- The references the frame is about: the five argument arrays, and the seven arrays the region's windows stage. -/
abbrev keptRefs : List (Ref sig .tc) :=
  [main_arg0, main_arg1, main_arg2, main_arg3, main_arg4,
   Pipeline.arrRef spec0 0, Pipeline.arrRef spec0 1, Pipeline.arrRef spec0 2, Pipeline.arrRef spec0 3,
   Pipeline.arrRef spec0 4, Pipeline.arrRef spec0 5, Pipeline.arrRef spec0 6]

/-- The five argument arrays. -/
abbrev argRefs : List (Ref sig .tc) := [main_arg0, main_arg1, main_arg2, main_arg3, main_arg4]

/-- An operation that writes no argument array. -/
abbrev KeepsArgs (op : HloOp τ sig (Elt F)) : Prop := ∀ r ∈ argRefs, Proc.devRef (τ := τ) .tc r ∉ op.writes

theorem hostOps0_keeps : (hostOps0 : List (HloOp τ sig (Elt F))).Forall KeepsArgs := by
  repeat' apply And.intro
  all_goals exact keeps_of argRefs rfl (by decide)
theorem hostOps0_1_keeps : (hostOps0_1 : List (HloOp τ sig (Elt F))).Forall KeepsArgs := by
  repeat' apply And.intro
  all_goals exact keeps_of argRefs rfl (by decide)
theorem hostOps0_2_keeps : (hostOps0_2 : List (HloOp τ sig (Elt F))).Forall KeepsArgs := by
  repeat' apply And.intro
  all_goals exact keeps_of argRefs rfl (by decide)
theorem hostOps0_3_keeps : (hostOps0_3 : List (HloOp τ sig (Elt F))).Forall KeepsArgs := by
  repeat' apply And.intro
  all_goals exact keeps_of argRefs rfl (by decide)
theorem hostOps0_4_keeps : (hostOps0_4 : List (HloOp τ sig (Elt F))).Forall KeepsArgs := by
  repeat' apply And.intro
  all_goals exact keeps_of argRefs rfl (by decide)
theorem hostOps0_5_keeps : (hostOps0_5 : List (HloOp τ sig (Elt F))).Forall KeepsArgs := by
  repeat' apply And.intro
  all_goals exact keeps_of argRefs rfl (by decide)
theorem hostOps0_6_keeps : (hostOps0_6 : List (HloOp τ sig (Elt F))).Forall KeepsArgs := by
  repeat' apply And.intro
  all_goals exact keeps_of argRefs rfl (by decide)
theorem hostOps0_7_keeps : (hostOps0_7 : List (HloOp τ sig (Elt F))).Forall KeepsArgs := by
  repeat' apply And.intro
  all_goals exact keeps_of argRefs rfl (by decide)
theorem hostOps0_8_keeps : (hostOps0_8 : List (HloOp τ sig (Elt F))).Forall KeepsArgs := by
  repeat' apply And.intro
  all_goals exact keeps_of argRefs rfl (by decide)
theorem hostOps0_9_keeps : (hostOps0_9 : List (HloOp τ sig (Elt F))).Forall KeepsArgs := by
  repeat' apply And.intro
  all_goals exact keeps_of argRefs rfl (by decide)
theorem hostOps0_10_keeps : (hostOps0_10 : List (HloOp τ sig (Elt F))).Forall KeepsArgs := by
  repeat' apply And.intro
  all_goals exact keeps_of argRefs rfl (by decide)
theorem hostOps0_11_keeps : (hostOps0_11 : List (HloOp τ sig (Elt F))).Forall KeepsArgs := by
  repeat' apply And.intro
  all_goals exact keeps_of argRefs rfl (by decide)
theorem hostOps0_12_keeps : (hostOps0_12 : List (HloOp τ sig (Elt F))).Forall KeepsArgs := by
  repeat' apply And.intro
  all_goals exact keeps_of argRefs rfl (by decide)
theorem hostOps0_13_keeps : (hostOps0_13 : List (HloOp τ sig (Elt F))).Forall KeepsArgs := by
  repeat' apply And.intro
  all_goals exact keeps_of argRefs rfl (by decide)
theorem hostOps0_14_keeps : (hostOps0_14 : List (HloOp τ sig (Elt F))).Forall KeepsArgs := by
  repeat' apply And.intro
  all_goals exact keeps_of argRefs rfl (by decide)
theorem hostOps0_15_keeps : (hostOps0_15 : List (HloOp τ sig (Elt F))).Forall KeepsArgs := by
  repeat' apply And.intro
  all_goals exact keeps_of argRefs rfl (by decide)
theorem hostOps0_16_keeps : (hostOps0_16 : List (HloOp τ sig (Elt F))).Forall KeepsArgs := by
  repeat' apply And.intro
  all_goals exact keeps_of argRefs rfl (by decide)
theorem hostOps0_17_keeps : (hostOps0_17 : List (HloOp τ sig (Elt F))).Forall KeepsArgs := by
  repeat' apply And.intro
  all_goals exact keeps_of argRefs rfl (by decide)
theorem hostOps0_18_keeps : (hostOps0_18 : List (HloOp τ sig (Elt F))).Forall KeepsArgs := by
  repeat' apply And.intro
  all_goals exact keeps_of argRefs rfl (by decide)
theorem hostOps0_19_keeps : (hostOps0_19 : List (HloOp τ sig (Elt F))).Forall KeepsArgs := by
  repeat' apply And.intro
  all_goals exact keeps_of argRefs rfl (by decide)
theorem hostOps0_20_keeps : (hostOps0_20 : List (HloOp τ sig (Elt F))).Forall KeepsArgs := by
  repeat' apply And.intro
  all_goals exact keeps_of argRefs rfl (by decide)
theorem hostOps0_21_keeps : (hostOps0_21 : List (HloOp τ sig (Elt F))).Forall KeepsArgs := by
  repeat' apply And.intro
  all_goals exact keeps_of argRefs rfl (by decide)
theorem hostOps0_22_keeps : (hostOps0_22 : List (HloOp τ sig (Elt F))).Forall KeepsArgs := by
  repeat' apply And.intro
  all_goals exact keeps_of argRefs rfl (by decide)
theorem hostOps0_23_keeps : (hostOps0_23 : List (HloOp τ sig (Elt F))).Forall KeepsArgs := by
  repeat' apply And.intro
  all_goals exact keeps_of argRefs rfl (by decide)
theorem hostOps0_24_keeps : (hostOps0_24 : List (HloOp τ sig (Elt F))).Forall KeepsArgs := by
  repeat' apply And.intro
  all_goals exact keeps_of argRefs rfl (by decide)
theorem hostOps0_25_keeps : (hostOps0_25 : List (HloOp τ sig (Elt F))).Forall KeepsArgs := by
  repeat' apply And.intro
  all_goals exact keeps_of argRefs rfl (by decide)
theorem hostOps0_26_keeps : (hostOps0_26 : List (HloOp τ sig (Elt F))).Forall KeepsArgs := by
  repeat' apply And.intro
  all_goals exact keeps_of argRefs rfl (by decide)
theorem hostOps0_27_keeps : (hostOps0_27 : List (HloOp τ sig (Elt F))).Forall KeepsArgs := by
  repeat' apply And.intro
  all_goals exact keeps_of argRefs rfl (by decide)
theorem hostOps1_keeps : (hostOps1 : List (HloOp τ sig (Elt F))).Forall KeepsArgs := by
  repeat' apply And.intro
  all_goals exact keeps_of argRefs rfl (by decide)

/-- No operation of any stretch before the region writes an argument array. -/
theorem prefix_keeps : (prefixOps (F := F)).Forall fun ops => ops.Forall KeepsArgs :=
  ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps, hostOps0_22_keeps, hostOps0_23_keeps, hostOps0_24_keeps, hostOps0_25_keeps, hostOps0_26_keeps, hostOps0_27_keeps⟩

/-- A property of every operation of every list holds of every operation of the concatenation. -/
theorem forall_flatten {α : Type} {P : α → Prop} {L : List (List α)} (h : L.Forall fun l => l.Forall P) :
    ∀ x ∈ L.flatten, P x := by
  intro x hx
  obtain ⟨l, hl, hxl⟩ := List.mem_flatten.mp hx
  exact (List.forall_iff_forall_mem.mp ((List.forall_iff_forall_mem.mp h) l hl)) x hxl

/-- An argument array is as launched when the region is entered. -/
theorem V_arg (c : Dev nD) (r : Ref sig .tc) (hr : r ∈ argRefs) : V m c r = m ((c : Thread nD τ).loc r) :=
  StableHlo.after_of_forall_not_mem (b := Proc.devRef .tc r) _ _ fun op hop => forall_flatten (prefix_keeps (F := F)) op hop r hr
theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)
theorem V_main_arg4 (c : Dev nD) : V m c main_arg4 = m ((c : Thread nD τ).loc main_arg4) := V_arg m c main_arg4 (by decide)

/-- The seven arrays the region's windows stage. -/
abbrev winRefs : List (Ref sig .tc) :=
  [Pipeline.arrRef spec0 0, Pipeline.arrRef spec0 1, Pipeline.arrRef spec0 2, Pipeline.arrRef spec0 3,
   Pipeline.arrRef spec0 4, Pipeline.arrRef spec0 5, Pipeline.arrRef spec0 6]
theorem arrRef_mem_winRefs : ∀ w, Pipeline.arrRef spec0 w ∈ winRefs := by decide
/-- No window stages an argument array. -/
theorem arrRef_ne_arg : ∀ r ∈ argRefs, ∀ w, Pipeline.arrRef spec0 w ≠ r := by decide

/-- No operation of the closing stretch writes an array of the pipeline: each writes its own result buffer, which is
    none of the seven. -/
theorem hostOps1_keepsW : (hostOps1 : List (HloOp τ sig (Elt F))).Forall fun op => ∀ r ∈ winRefs, Proc.devRef (τ := τ) .tc r ∉ op.writes := by
  repeat' apply And.intro
  all_goals exact keeps_of winRefs rfl (by decide)
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  · exact (List.forall_iff_forall_mem.mp hostOps1_keepsW) op hop _ (arrRef_mem_winRefs w)

/-- An argument array ends as launched: the closing stretch does not write it, the region does not stage it, and the
    region finds it as launched. -/
theorem W_arg (dats : (p : Fin 1) → (c : Dev nD) → Dat τ (Elt F) Unit ℕ (UR sig nD τ) ℕ (cfgs p) c) (c : Dev nD)
    (r : Ref sig .tc) (hr : r ∈ argRefs) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop =>
      forall_flatten (show ([hostOps1] : List (List (HloOp τ sig (Elt F)))).Forall (fun ops => ops.Forall KeepsArgs) from hostOps1_keeps) op hop r hr),
    Pipeline.withArrays_of_ne _ c (V0 m c) _ r (arrRef_ne_arg r hr)]
  exact V_arg m c r hr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data whose array is the region-entry contents and whose body leaves the block in place: the window is uncut and
    never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data, a run of the entry function to the library's frame post — every
    unscoped buffer no window stages is as the closing stretch leaves it — read at the five argument arrays is the frame
    claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_arg m dats c main_arg0 (by decide)),
     ((h c).2 main_arg1 (Pipeline.mem_restRefs_of main_arg1 (by decide) (by decide))).trans (W_arg m dats c main_arg1 (by decide)),
     ((h c).2 main_arg2 (Pipeline.mem_restRefs_of main_arg2 (by decide) (by decide))).trans (W_arg m dats c main_arg2 (by decide)),
     ((h c).2 main_arg3 (Pipeline.mem_restRefs_of main_arg3 (by decide) (by decide))).trans (W_arg m dats c main_arg3 (by decide)),
     ((h c).2 main_arg4 (Pipeline.mem_restRefs_of main_arg4 (by decide) (by decide))).trans (W_arg m dats c main_arg4 (by decide))⟩) h

/-! ## The body's accesses -/

abbrev r0_0 : Rect S16x4x6400 := Rect.unit (s := S16x4x6400) ![0, 0, 0] S16x4x6400.size inb_S16x4x6400_S16x4x6400_0_0_0
abbrev r0_1 : Rect S16x6400 := Rect.unit (s := S16x6400) ![0, 0] S16x6400.size inb_S16x6400_S16x6400_0_0
abbrev r0_2 : Rect S16x4x1600 := Rect.unit (s := S16x4x1600) ![0, 0, 0] S16x4x1600.size inb_S16x4x1600_S16x4x1600_0_0_0
abbrev r0_3 : Rect S16x1600 := Rect.unit (s := S16x1600) ![0, 0] S16x1600.size inb_S16x1600_S16x1600_0_0
abbrev r0_4 : Rect S16x4x400 := Rect.unit (s := S16x4x400) ![0, 0, 0] S16x4x400.size inb_S16x4x400_S16x4x400_0_0_0
abbrev r0_5 : Rect S16x400 := Rect.unit (s := S16x400) ![0, 0] S16x400.size inb_S16x400_S16x400_0_0
abbrev r0_6 : Rect S1x1 := Rect.unit (s := S1x1) ![0, 0] S1x1.size inb_S1x1_S1x1_0_0

/-! ## What the body leaves in the result window's buffer -/

/-- The result window's staging buffer after the body, from the six input windows' blocks: the body's one store — of the
    sum of the three scaled squared-error terms, computed from whole-block loads of the six inputs — as the one piece. -/
def out0_6 (x0 : Vec F S16x4x6400 .f32) (x1 : Vec F S16x6400 .f32) (x2 : Vec F S16x4x1600 .f32) (x3 : Vec F S16x1600 .f32)
    (x4 : Vec F S16x4x400 .f32) (x5 : Vec F S16x400 .f32) : Vec F S1x1 .f32 :=
  View.canon [⟨r0_6, k0_pay1 (k0_pay2 (View.ld x0 r0_0) (View.ld x1 r0_1)) (k0_pay3 (View.ld x2 r0_2)) (k0_pay4 (View.ld x3 r0_3)) (View.ld x4 r0_4) (View.ld x5 r0_5)⟩]

/-- The one store is of the whole one-cell buffer, so it covers it. -/
theorem cover0_6 (p0 : Vec F S1x1 .f32) (y : S1x1.Idx) :
    ∃ pc ∈ ([⟨r0_6, p0⟩] : List (View.Piece (Elt F) S1x1 .f32)), y ∈ pc.1.set :=
  View.cover_of_tiled [⟨r0_6, p0⟩] S1x1.size (by rfl) y

/-! ## The body's triple -/

set_option maxHeartbeats 1000000 in
/-- The kernel body on whole staging memrefs, the inputs' at contents `x0 … x5` and the result's at anything, runs to the
    continuation holding the inputs' as they were and the result's at `out0_6` of the inputs'. -/
theorem sound_kernel (c : Dev nD) (E : Set ℕ) (i : grid0.Coords)
    (arg1 : Memref sig .tc .vmem S16x4x6400 .f32) (harg1 : arg1.IsWhole) (arg2 : Memref sig .tc .vmem S16x6400 .f32) (harg2 : arg2.IsWhole)
    (arg3 : Memref sig .tc .vmem S16x4x1600 .f32) (harg3 : arg3.IsWhole) (arg4 : Memref sig .tc .vmem S16x1600 .f32) (harg4 : arg4.IsWhole)
    (arg5 : Memref sig .tc .vmem S16x4x400 .f32) (harg5 : arg5.IsWhole) (arg6 : Memref sig .tc .vmem S16x400 .f32) (harg6 : arg6.IsWhole)
    (arg7 : Memref sig .tc .vmem S1x1 .f32) (harg7 : arg7.IsWhole)
    (x0 : Vec F S16x4x6400 .f32) (x1 : Vec F S16x6400 .f32) (x2 : Vec F S16x4x1600 .f32) (x3 : Vec F S16x1600 .f32)
    (x4 : Vec F S16x4x400 .f32) (x5 : Vec F S16x400 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__fused_obj_kernel i arg1 harg1 arg2 harg2 arg3 harg3 arg4 harg4 arg5 harg5 arg6 harg6 arg7 harg7) K := by
  simp only [cc0__fused_obj_kernel_eq_skeleton]; unfold cc0__fused_obj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of the one pipeline on core `c`: the arrays as the region finds them; after the body at point `t` each
    input's buffer at its block and the result's at `out0_6` of the six input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the definition projected, so that the fold over the host
    prefix is never unfolded to check it. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of the entry
    function on the TensorCores terminates, and every final state has every array of the pipeline at what the library
    computes from the proof data and every other unscoped buffer as the closing stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the entry function runs, and the five argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.HF

end
-- ==== Proof.LibAfterSeg.lean ====
import Idealize.ShloMosaic.Lib.StableHlo.Run

/-! # Host operations run stretch by stretch

The contents after a concatenation of stretches of host operations are the contents after the last stretch, started from the
contents after the earlier ones; a buffer's value after a list of stretches is read one stretch at a time. -/

namespace Idealize.ShloMosaic.StableHlo

open Idealize.ShloMosaic

variable {τ : Topo} {sig : RefSig} {Val : EltTy → Type}

/-- Running two stretches in a row is running the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A list of stretches, flattened, runs stretch by stretch. -/
theorem after_flatten_cons (l : List (HloOp τ sig Val)) (ls : List (List (HloOp τ sig Val))) (V : Valuation τ sig Val) :
    after (l :: ls).flatten V = after ls.flatten (after l V) := by
  rw [List.flatten_cons, after_append]

theorem after_flatten_nil (V : Valuation τ sig Val) : after ([] : List (List (HloOp τ sig Val))).flatten V = V := rfl

/-! ## Concatenates with equal operands

A concatenate carries a proof about the SHAPES of its operand list, so a rewriting pass does not enter the list. Two concatenates
of the same shapes are equal when their operands are, one by one. -/

section Concat
variable {α : Type}

theorem concat2_congr (t : Shape) (a : Fin t.rank) (s₁ s₂ : Shape) {x₁ x₁' : s₁.Idx → α} {x₂ x₂' : s₂.Idx → α}
    (h : Shape.Concatenates [s₁, s₂] t a) (h' : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h' := by
  subst e₁ e₂; rfl
theorem concat3_congr (t : Shape) (a : Fin t.rank) (s₁ s₂ s₃ : Shape) {x₁ x₁' : s₁.Idx → α} {x₂ x₂' : s₂.Idx → α}
    {x₃ x₃' : s₃.Idx → α} (h : Shape.Concatenates [s₁, s₂, s₃] t a) (h' : Shape.Concatenates [s₁, s₂, s₃] t a)
    (e₁ : x₁ = x₁') (e₂ : x₂ = x₂') (e₃ : x₃ = x₃') :
    concatenate t a [⟨s₁, x₁⟩, ⟨s₂, x₂⟩, ⟨s₃, x₃⟩] h = concatenate t a [⟨s₁, x₁'⟩, ⟨s₂, x₂'⟩, ⟨s₃, x₃'⟩] h' := by
  subst e₁ e₂ e₃; rfl
theorem concat4_congr (t : Shape) (a : Fin t.rank) (s₁ s₂ s₃ s₄ : Shape) {x₁ x₁' : s₁.Idx → α} {x₂ x₂' : s₂.Idx → α}
    {x₃ x₃' : s₃.Idx → α} {x₄ x₄' : s₄.Idx → α} (h : Shape.Concatenates [s₁, s₂, s₃, s₄] t a)
    (h' : Shape.Concatenates [s₁, s₂, s₃, s₄] t a) (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h = concatenate t a [⟨s₁, x₁'⟩, ⟨s₂, x₂'⟩, ⟨s₃, x₃'⟩, ⟨s₄, x₄'⟩] h' := by
  subst e₁ e₂ e₃ e₄; rfl

end Concat

/-- One stretch's results read back in one rewriting pass: each operation's value at its own result buffer, any other buffer
    as the stretch found it; the operand references of an operation on a literal family of buffers are read at the literals. -/
macro "after_results_mx" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Matrix.cons_val_zero, Matrix.cons_val_one, Matrix.cons_val_two, Matrix.head_cons, Matrix.cons_val]))

end Idealize.ShloMosaic.StableHlo
-- ==== Proof.KSegs.lean ====
/- Tables for the host operations of the kernel's program before its region, cut into stretches (the generated stretches, cut again
   after every concatenate): for each stretch the list of the buffers it writes, that it writes nothing else, the buffer contents
   after the stretches one by one, and that a buffer a stretch does not write keeps its contents through it. -/
import proofs.«153486_j83854941487213_2_alg».proof.Proof.Gen.KernelIdeal.Launch
import proofs.«153486_j83854941487213_2_alg».proof.Proof.LibAfterSeg

set_option maxRecDepth 16384

noncomputable section

namespace Cert.KernelIdeal.Seg

open Idealize.ShloMosaic Idealize.ShloMosaic.StableHlo Idealize.ShloMosaic.TcCoe Cert.KernelIdeal Cert.KernelIdeal.Gen

variable {F : FTy → Type} [FloatOps F] [Named F]

/-! ## The stretches that are cut again -/

abbrev ks4_0 : List (HloOp τ sig (Elt F)) :=
  [ StableHlo.nullary main_v20 (iotaInDim S16 32 0),
    StableHlo.unary main_v20 main_v21 (broadcastInDim S16x1 ![0] bcast_S16_S16x1_0 : (⟨S16, .i32⟩ : BufTy).Contents (Elt F) → (⟨S16x1, .i32⟩ : BufTy).Contents (Elt F)),
    StableHlo.nullary main_cst_6 (constant S_ .f32 0x00000000#32),
    StableHlo.unary main_cst_6 main_v22 (broadcastInDim S16x80x80 ![] bcast_S_S16x80x80 : (⟨S_, .f32⟩ : BufTy).Contents (Elt F) → (⟨S16x80x80, .f32⟩ : BufTy).Contents (Elt F)),
    StableHlo.nullary main_c_7 (constantI S_ 32 0#32),
    StableHlo.unary main_c_7 main_v23 (broadcastInDim S16x1 ![] bcast_S_S16x1 : (⟨S_, .i32⟩ : BufTy).Contents (Elt F) → (⟨S16x1, .i32⟩ : BufTy).Contents (Elt F)),
    StableHlo.binary main_v21 main_v23 main_v24 (cmpi .slt : (⟨S16x1, .i32⟩ : BufTy).Contents (Elt F) → (⟨S16x1, .i32⟩ : BufTy).Contents (Elt F) → (⟨S16x1, .i1⟩ : BufTy).Contents (Elt F)),
    StableHlo.nullary main_c_8 (constantI S_ 32 16#32),
    StableHlo.unary main_c_8 main_v25 (broadcastInDim S16x1 ![] bcast_S_S16x1 : (⟨S_, .i32⟩ : BufTy).Contents (Elt F) → (⟨S16x1, .i32⟩ : BufTy).Contents (Elt F)),
    StableHlo.binary main_v21 main_v25 main_v26 (addi : (⟨S16x1, .i32⟩ : BufTy).Contents (Elt F) → (⟨S16x1, .i32⟩ : BufTy).Contents (Elt F) → (⟨S16x1, .i32⟩ : BufTy).Contents (Elt F)),
    StableHlo.ternary main_v24 main_v26 main_v21 main_v27 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_9 (constantI S_ 32 0#32),
    StableHlo.unary main_c_9 main_v28 (broadcastInDim S16x32 ![] bcast_S_S16x32 : (⟨S_, .i32⟩ : BufTy).Contents (Elt F) → (⟨S16x32, .i32⟩ : BufTy).Contents (Elt F)),
    StableHlo.binary main_v19 main_v28 main_v29 (cmpi .slt : (⟨S16x32, .i32⟩ : BufTy).Contents (Elt F) → (⟨S16x32, .i32⟩ : BufTy).Contents (Elt F) → (⟨S16x32, .i1⟩ : BufTy).Contents (Elt F)),
    StableHlo.nullary main_c_10 (constantI S_ 32 80#32),
    StableHlo.unary main_c_10 main_v30 (broadcastInDim S16x32 ![] bcast_S_S16x32 : (⟨S_, .i32⟩ : BufTy).Contents (Elt F) → (⟨S16x32, .i32⟩ : BufTy).Contents (Elt F)),
    StableHlo.binary main_v19 main_v30 main_v31 (addi : (⟨S16x32, .i32⟩ : BufTy).Contents (Elt F) → (⟨S16x32, .i32⟩ : BufTy).Contents (Elt F) → (⟨S16x32, .i32⟩ : BufTy).Contents (Elt F)),
    StableHlo.ternary main_v29 main_v31 main_v19 main_v32 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    StableHlo.nullary main_c_11 (constantI S_ 32 0#32),
    StableHlo.unary main_c_11 main_v33 (broadcastInDim S16x32 ![] bcast_S_S16x32 : (⟨S_, .i32⟩ : BufTy).Contents (Elt F) → (⟨S16x32, .i32⟩ : BufTy).Contents (Elt F)),
    StableHlo.binary main_v17 main_v33 main_v34 (cmpi .slt : (⟨S16x32, .i32⟩ : BufTy).Contents (Elt F) → (⟨S16x32, .i32⟩ : BufTy).Contents (Elt F) → (⟨S16x32, .i1⟩ : BufTy).Contents (Elt F)),
    StableHlo.nullary main_c_12 (constantI S_ 32 80#32),
    StableHlo.unary main_c_12 main_v35 (broadcastInDim S16x32 ![] bcast_S_S16x32 : (⟨S_, .i32⟩ : BufTy).Contents (Elt F) → (⟨S16x32, .i32⟩ : BufTy).Contents (Elt F)),
    StableHlo.binary main_v17 main_v35 main_v36 (addi : (⟨S16x32, .i32⟩ : BufTy).Contents (Elt F) → (⟨S16x32, .i32⟩ : BufTy).Contents (Elt F) → (⟨S16x32, .i32⟩ : BufTy).Contents (Elt F)),
    StableHlo.ternary main_v34 main_v36 main_v17 main_v37 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    StableHlo.unary main_v27 main_v38 (broadcastInDim S16x32 ![0, 1] bcast_S16x1_S16x32_0_1 : (⟨S16x1, .i32⟩ : BufTy).Contents (Elt F) → (⟨S16x32, .i32⟩ : BufTy).Contents (Elt F)),
    StableHlo.unary main_v38 main_v39 (broadcastInDim S16x32x1 ![0, 1] bcast_S16x32_S16x32x1_0_1 : (⟨S16x32, .i32⟩ : BufTy).Contents (Elt F) → (⟨S16x32x1, .i32⟩ : BufTy).Contents (Elt F)),
    StableHlo.unary main_v32 main_v40 (broadcastInDim S16x32x1 ![0, 1] bcast_S16x32_S16x32x1_0_1 : (⟨S16x32, .i32⟩ : BufTy).Contents (Elt F) → (⟨S16x32x1, .i32⟩ : BufTy).Contents (Elt F)),
    StableHlo.unary main_v37 main_v41 (broadcastInDim S16x32x1 ![0, 1] bcast_S16x32_S16x32x1_0_1 : (⟨S16x32, .i32⟩ : BufTy).Contents (Elt F) → (⟨S16x32x1, .i32⟩ : BufTy).Contents (Elt F)),
    StableHlo.nary ![main_v39, main_v40, main_v41] main_v42 (fun u => concatenate S16x32x3 2 [⟨S16x32x1, u 0⟩, ⟨S16x32x1, u 1⟩, ⟨S16x32x1, u 2⟩] concatenates_S16x32x1_S16x32x1_S16x32x1_S16x32x3_d2) ]
abbrev ks4_1 : List (HloOp τ sig (Elt F)) :=
  [ StableHlo.nullary main_cst_13 (constant S_ .f32 0x3F800000#32),
    StableHlo.unary main_cst_13 main_v43 (broadcastInDim S16x32 ![] bcast_S_S16x32 : (⟨S_, .f32⟩ : BufTy).Contents (Elt F) → (⟨S16x32, .f32⟩ : BufTy).Contents (Elt F)),
    StableHlo.ternary main_v22 main_v42 main_v43 main_v44 ((fun x i u => Host.scatter scatter_S16x80x80_S16x32x3_S16x32_n_012_012_2 (fun _ b => b) x i u) : (⟨S16x80x80, .f32⟩ : BufTy).Contents (Elt F) → (⟨S16x32x3, .i32⟩ : BufTy).Contents (Elt F) → (⟨S16x32, .f32⟩ : BufTy).Contents (Elt F) → (⟨S16x80x80, .f32⟩ : BufTy).Contents (Elt F)),
    StableHlo.unary main_arg0 main_v45 ((extractStridedSlice S16x4x80x80 ![0, 0, 0, 0] · slices_S16x144x80x80_S16x4x80x80_0_0_0_0) : (⟨S16x144x80x80, .f32⟩ : BufTy).Contents (Elt F) → (⟨S16x4x80x80, .f32⟩ : BufTy).Contents (Elt F)),
    StableHlo.unary main_arg0 main_v46 ((extractStridedSlice S16x80x80x80 ![0, 64, 0, 0] · slices_S16x144x80x80_S16x80x80x80_0_64_0_0) : (⟨S16x144x80x80, .f32⟩ : BufTy).Contents (Elt F) → (⟨S16x80x80x80, .f32⟩ : BufTy).Contents (Elt F)),
    StableHlo.binary main_v45 main_v46 main_v47 ((fun a b => concatenate S16x84x80x80 1 [⟨S16x4x80x80, a⟩, ⟨S16x80x80x80, b⟩] concatenates_S16x4x80x80_S16x80x80x80_S16x84x80x80_d1) : (⟨S16x4x80x80, .f32⟩ : BufTy).Contents (Elt F) → (⟨S16x80x80x80, .f32⟩ : BufTy).Contents (Elt F) → (⟨S16x84x80x80, .f32⟩ : BufTy).Contents (Elt F)) ]
abbrev ks4_2 : List (HloOp τ sig (Elt F)) :=
  [ StableHlo.nullary main_c_14 (constantI S_ 32 80#32),
    StableHlo.unary main_c_14 main_v48 (broadcastInDim S16x32 ![] bcast_S_S16x32 : (⟨S_, .i32⟩ : BufTy).Contents (Elt F) → (⟨S16x32, .i32⟩ : BufTy).Contents (Elt F)),
    StableHlo.binary main_v19 main_v48 main_v49 (muli : (⟨S16x32, .i32⟩ : BufTy).Contents (Elt F) → (⟨S16x32, .i32⟩ : BufTy).Contents (Elt F) → (⟨S16x32, .i32⟩ : BufTy).Contents (Elt F)),
    StableHlo.binary main_v49 main_v17 main_v50 (addi : (⟨S16x32, .i32⟩ : BufTy).Contents (Elt F) → (⟨S16x32, .i32⟩ : BufTy).Contents (Elt F) → (⟨S16x32, .i32⟩ : BufTy).Contents (Elt F)),
    StableHlo.reshape main_v47 main_v51 rfl shapeCasts_S16x84x80x80_S16x84x6400,
    StableHlo.unary main_v50 main_v52 (broadcastInDim S16x1x32 ![0, 2] bcast_S16x32_S16x1x32_0_2 : (⟨S16x32, .i32⟩ : BufTy).Contents (Elt F) → (⟨S16x1x32, .i32⟩ : BufTy).Contents (Elt F)),
    StableHlo.unary main_v52 main_v53 (broadcastInDim S16x84x32 ![0, 1, 2] bcast_S16x1x32_S16x84x32_0_1_2 : (⟨S16x1x32, .i32⟩ : BufTy).Contents (Elt F) → (⟨S16x84x32, .i32⟩ : BufTy).Contents (Elt F)) ]
abbrev ks5_0 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S16x84x32, .i32⟩) (broadcastInDim S16x84x32 ![] bcast_S_S16x84x32),
    StableHlo.TRef.binary (.of main_v53 : StableHlo.TRef sig ⟨S16x84x32, .i32⟩) (.of main_call2_v0 : StableHlo.TRef sig ⟨S16x84x32, .i32⟩) (.of main_call2_v1 : StableHlo.TRef sig ⟨S16x84x32, .i1⟩) (cmpi .slt),
    StableHlo.TRef.nullary (.of main_call2_c_0 : StableHlo.TRef sig ⟨S_, .i32⟩) (constantI S_ 32 6400#32),
    StableHlo.TRef.unary (.of main_call2_c_0 : StableHlo.TRef sig ⟨S_, .i32⟩) (.of main_call2_v2 : StableHlo.TRef sig ⟨S16x84x32, .i32⟩) (broadcastInDim S16x84x32 ![] bcast_S_S16x84x32),
    StableHlo.TRef.binary (.of main_v53 : StableHlo.TRef sig ⟨S16x84x32, .i32⟩) (.of main_call2_v2 : StableHlo.TRef sig ⟨S16x84x32, .i32⟩) (.of main_call2_v3 : StableHlo.TRef sig ⟨S16x84x32, .i32⟩) addi,
    StableHlo.TRef.ternary (.of main_call2_v1 : StableHlo.TRef sig ⟨S16x84x32, .i1⟩) (.of main_call2_v3 : StableHlo.TRef sig ⟨S16x84x32, .i32⟩) (.of main_v53 : StableHlo.TRef sig ⟨S16x84x32, .i32⟩) (.of main_call2_v4 : StableHlo.TRef sig ⟨S16x84x32, .i32⟩) select,
    StableHlo.TRef.reshape (.of main_call2_v4 : StableHlo.TRef sig ⟨S16x84x32, .i32⟩) (.of main_call2_v5 : StableHlo.TRef sig ⟨S16x84x32x1, .i32⟩) rfl shapeCasts_S16x84x32_S16x84x32x1 ]
abbrev ks5_1 : List (HloOp τ sig (Elt F)) :=
  [ StableHlo.TRef.nullary (.of main_call2_c_1 : StableHlo.TRef sig ⟨S1, .i32⟩) (constantI S1 32 6399#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S16x84x32x1, .i32⟩) (broadcastInDim S16x84x32x1 ![] bcast_S_S16x84x32x1),
    StableHlo.TRef.binary (.of main_call2_v5 : StableHlo.TRef sig ⟨S16x84x32x1, .i32⟩) (.of main_call2_v6 : StableHlo.TRef sig ⟨S16x84x32x1, .i32⟩) (.of main_call2_v7 : StableHlo.TRef sig ⟨S16x84x32x1, .i1⟩) (cmpi .sge),
    StableHlo.TRef.unary (.of main_call2_c_1 : StableHlo.TRef sig ⟨S1, .i32⟩) (.of main_call2_v8 : StableHlo.TRef sig ⟨S1x1x1x1, .i32⟩) (broadcastInDim S1x1x1x1 ![3] bcast_S1_S1x1x1x1_3),
    StableHlo.TRef.unary (.of main_call2_v8 : StableHlo.TRef sig ⟨S1x1x1x1, .i32⟩) (.of main_call2_v9 : StableHlo.TRef sig ⟨S16x84x32x1, .i32⟩) (broadcastInDim S16x84x32x1 ![0, 1, 2, 3] bcast_S1x1x1x1_S16x84x32x1_0_1_2_3),
    StableHlo.TRef.binary (.of main_call2_v5 : StableHlo.TRef sig ⟨S16x84x32x1, .i32⟩) (.of main_call2_v9 : StableHlo.TRef sig ⟨S16x84x32x1, .i32⟩) (.of main_call2_v10 : StableHlo.TRef sig ⟨S16x84x32x1, .i1⟩) (cmpi .sle),
    StableHlo.TRef.binary (.of main_call2_v7 : StableHlo.TRef sig ⟨S16x84x32x1, .i1⟩) (.of main_call2_v10 : StableHlo.TRef sig ⟨S16x84x32x1, .i1⟩) (.of main_call2_v11 : StableHlo.TRef sig ⟨S16x84x32x1, .i1⟩) andi,
    StableHlo.TRef.nullary (.of main_call2_c_3 : StableHlo.TRef sig ⟨S_, .i1⟩) (constantI S_ 1 1#1),
    StableHlo.TRef.binary (.of main_call2_v11 : StableHlo.TRef sig ⟨S16x84x32x1, .i1⟩) (.of main_call2_c_3 : StableHlo.TRef sig ⟨S_, .i1⟩) (.of main_call2_v12 : StableHlo.TRef sig ⟨S16x84x32, .i1⟩) (fun x v => Host.reduce IntOp.andi x v reducesTo_S16x84x32x1_S16x84x32_d3 h_S_) ]
abbrev ks5_2 : List (HloOp τ sig (Elt F)) :=
  [ StableHlo.TRef.binary (.of main_v51 : StableHlo.TRef sig ⟨S16x84x6400, .f32⟩) (.of main_call2_v5 : StableHlo.TRef sig ⟨S16x84x32x1, .i32⟩) (.of main_call2_v13 : StableHlo.TRef sig ⟨S16x84x32, .f32⟩) (fun x i => Host.gather gather_S16x84x6400_S16x84x32x1_S16x84x32_n_2_01_01_2_3_111 x i) ]
abbrev ks5_3 : List (HloOp τ sig (Elt F)) :=
  [ StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S16x84x32, .f32⟩) (broadcastInDim S16x84x32 ![] bcast_S_S16x84x32),
    StableHlo.TRef.ternary (.of main_call2_v12 : StableHlo.TRef sig ⟨S16x84x32, .i1⟩) (.of main_call2_v13 : StableHlo.TRef sig ⟨S16x84x32, .f32⟩) (.of main_call2_v14 : StableHlo.TRef sig ⟨S16x84x32, .f32⟩) (.of main_v54 : StableHlo.TRef sig ⟨S16x84x32, .f32⟩) select ]
abbrev ks6_0 : List (HloOp τ sig (Elt F)) :=
  [ StableHlo.unary main_v54 main_v55 ((transpose S16x32x84 [0, 2, 1] · transposes_S16x84x32_S16x32x84_0_2_1) : (⟨S16x84x32, .f32⟩ : BufTy).Contents (Elt F) → (⟨S16x32x84, .f32⟩ : BufTy).Contents (Elt F)),
    StableHlo.unary main_v55 main_v56 ((extractStridedSlice S16x32x4 ![0, 0, 0] · slices_S16x32x84_S16x32x4_0_0_0) : (⟨S16x32x84, .f32⟩ : BufTy).Contents (Elt F) → (⟨S16x32x4, .f32⟩ : BufTy).Contents (Elt F)),
    StableHlo.unary main_v17 main_v57 (sitofp .f32 : (⟨S16x32, .i32⟩ : BufTy).Contents (Elt F) → (⟨S16x32, .f32⟩ : BufTy).Contents (Elt F)),
    StableHlo.binary main_v3 main_v57 main_v58 (subf : (⟨S16x32, .f32⟩ : BufTy).Contents (Elt F) → (⟨S16x32, .f32⟩ : BufTy).Contents (Elt F) → (⟨S16x32, .f32⟩ : BufTy).Contents (Elt F)),
    StableHlo.unary main_v19 main_v59 (sitofp .f32 : (⟨S16x32, .i32⟩ : BufTy).Contents (Elt F) → (⟨S16x32, .f32⟩ : BufTy).Contents (Elt F)),
    StableHlo.binary main_v7 main_v59 main_v60 (subf : (⟨S16x32, .f32⟩ : BufTy).Contents (Elt F) → (⟨S16x32, .f32⟩ : BufTy).Contents (Elt F) → (⟨S16x32, .f32⟩ : BufTy).Contents (Elt F)),
    StableHlo.nullary main_cst_15 (constant S_ .f32 0x42A00000#32),
    StableHlo.unary main_cst_15 main_v61 (broadcastInDim S16x32 ![] bcast_S_S16x32 : (⟨S_, .f32⟩ : BufTy).Contents (Elt F) → (⟨S16x32, .f32⟩ : BufTy).Contents (Elt F)),
    StableHlo.binary main_v11 main_v61 main_v62 (Host.divf : (⟨S16x32, .f32⟩ : BufTy).Contents (Elt F) → (⟨S16x32, .f32⟩ : BufTy).Contents (Elt F) → (⟨S16x32, .f32⟩ : BufTy).Contents (Elt F)),
    StableHlo.nullary main_cst_16 (constant S_ .f32 0x42A00000#32),
    StableHlo.unary main_cst_16 main_v63 (broadcastInDim S16x32 ![] bcast_S_S16x32 : (⟨S_, .f32⟩ : BufTy).Contents (Elt F) → (⟨S16x32, .f32⟩ : BufTy).Contents (Elt F)),
    StableHlo.binary main_v15 main_v63 main_v64 (Host.divf : (⟨S16x32, .f32⟩ : BufTy).Contents (Elt F) → (⟨S16x32, .f32⟩ : BufTy).Contents (Elt F) → (⟨S16x32, .f32⟩ : BufTy).Contents (Elt F)),
    StableHlo.unary main_v58 main_v65 (broadcastInDim S16x32x1 ![0, 1] bcast_S16x32_S16x32x1_0_1 : (⟨S16x32, .f32⟩ : BufTy).Contents (Elt F) → (⟨S16x32x1, .f32⟩ : BufTy).Contents (Elt F)),
    StableHlo.unary main_v60 main_v66 (broadcastInDim S16x32x1 ![0, 1] bcast_S16x32_S16x32x1_0_1 : (⟨S16x32, .f32⟩ : BufTy).Contents (Elt F) → (⟨S16x32x1, .f32⟩ : BufTy).Contents (Elt F)),
    StableHlo.unary main_v62 main_v67 (broadcastInDim S16x32x1 ![0, 1] bcast_S16x32_S16x32x1_0_1 : (⟨S16x32, .f32⟩ : BufTy).Contents (Elt F) → (⟨S16x32x1, .f32⟩ : BufTy).Contents (Elt F)),
    StableHlo.unary main_v64 main_v68 (broadcastInDim S16x32x1 ![0, 1] bcast_S16x32_S16x32x1_0_1 : (⟨S16x32, .f32⟩ : BufTy).Contents (Elt F) → (⟨S16x32x1, .f32⟩ : BufTy).Contents (Elt F)),
    StableHlo.nary ![main_v65, main_v66, main_v67, main_v68] main_v69 (fun u => concatenate S16x32x4 2 [⟨S16x32x1, u 0⟩, ⟨S16x32x1, u 1⟩, ⟨S16x32x1, u 2⟩, ⟨S16x32x1, u 3⟩] concatenates_S16x32x1_S16x32x1_S16x32x1_S16x32x1_S16x32x4_d2) ]
abbrev ks6_1 : List (HloOp τ sig (Elt F)) :=
  [ StableHlo.binary main_v56 main_v69 main_v70 (subf : (⟨S16x32x4, .f32⟩ : BufTy).Contents (Elt F) → (⟨S16x32x4, .f32⟩ : BufTy).Contents (Elt F) → (⟨S16x32x4, .f32⟩ : BufTy).Contents (Elt F)),
    StableHlo.binary main_v70 main_v70 main_v71 (mulf : (⟨S16x32x4, .f32⟩ : BufTy).Contents (Elt F) → (⟨S16x32x4, .f32⟩ : BufTy).Contents (Elt F) → (⟨S16x32x4, .f32⟩ : BufTy).Contents (Elt F)),
    StableHlo.nullary main_cst_17 (constant S_ .f32 0x00000000#32),
    StableHlo.binary main_v71 main_cst_17 main_v72 ((fun x v => Host.reduceAdd x v reducesTo_S16x32x4_S16x32_d2 h_S_) : (⟨S16x32x4, .f32⟩ : BufTy).Contents (Elt F) → (⟨S_, .f32⟩ : BufTy).Contents (Elt F) → (⟨S16x32, .f32⟩ : BufTy).Contents (Elt F)),
    StableHlo.nullary main_cst_18 (constant S_ .f32 0x40800000#32),
    StableHlo.unary main_cst_18 main_v73 (broadcastInDim S16x32 ![] bcast_S_S16x32 : (⟨S_, .f32⟩ : BufTy).Contents (Elt F) → (⟨S16x32, .f32⟩ : BufTy).Contents (Elt F)),
    StableHlo.binary main_v72 main_v73 main_v74 (Host.divf : (⟨S16x32, .f32⟩ : BufTy).Contents (Elt F) → (⟨S16x32, .f32⟩ : BufTy).Contents (Elt F) → (⟨S16x32, .f32⟩ : BufTy).Contents (Elt F)),
    StableHlo.nullary main_cst_19 (constant S_ .f32 0x00000000#32),
    StableHlo.binary main_v74 main_cst_19 main_v75 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    StableHlo.unary main_v55 main_v76 ((extractStridedSlice S16x32x80 ![0, 0, 4] · slices_S16x32x84_S16x32x80_0_0_4) : (⟨S16x32x84, .f32⟩ : BufTy).Contents (Elt F) → (⟨S16x32x80, .f32⟩ : BufTy).Contents (Elt F)) ]
abbrev ks13_0 : List (HloOp τ sig (Elt F)) :=
  [ StableHlo.nullary main_v110 (iotaInDim S16 32 0),
    StableHlo.unary main_v110 main_v111 (broadcastInDim S16x1 ![0] bcast_S16_S16x1_0 : (⟨S16, .i32⟩ : BufTy).Contents (Elt F) → (⟨S16x1, .i32⟩ : BufTy).Contents (Elt F)),
    StableHlo.nullary main_cst_33 (constant S_ .f32 0x00000000#32),
    StableHlo.unary main_cst_33 main_v112 (broadcastInDim S16x40x40 ![] bcast_S_S16x40x40 : (⟨S_, .f32⟩ : BufTy).Contents (Elt F) → (⟨S16x40x40, .f32⟩ : BufTy).Contents (Elt F)),
    StableHlo.nullary main_c_34 (constantI S_ 32 0#32),
    StableHlo.unary main_c_34 main_v113 (broadcastInDim S16x1 ![] bcast_S_S16x1 : (⟨S_, .i32⟩ : BufTy).Contents (Elt F) → (⟨S16x1, .i32⟩ : BufTy).Contents (Elt F)),
    StableHlo.binary main_v111 main_v113 main_v114 (cmpi .slt : (⟨S16x1, .i32⟩ : BufTy).Contents (Elt F) → (⟨S16x1, .i32⟩ : BufTy).Contents (Elt F) → (⟨S16x1, .i1⟩ : BufTy).Contents (Elt F)),
    StableHlo.nullary main_c_35 (constantI S_ 32 16#32),
    StableHlo.unary main_c_35 main_v115 (broadcastInDim S16x1 ![] bcast_S_S16x1 : (⟨S_, .i32⟩ : BufTy).Contents (Elt F) → (⟨S16x1, .i32⟩ : BufTy).Contents (Elt F)),
    StableHlo.binary main_v111 main_v115 main_v116 (addi : (⟨S16x1, .i32⟩ : BufTy).Contents (Elt F) → (⟨S16x1, .i32⟩ : BufTy).Contents (Elt F) → (⟨S16x1, .i32⟩ : BufTy).Contents (Elt F)),
    StableHlo.ternary main_v114 main_v116 main_v111 main_v117 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_36 (constantI S_ 32 0#32),
    StableHlo.unary main_c_36 main_v118 (broadcastInDim S16x32 ![] bcast_S_S16x32 : (⟨S_, .i32⟩ : BufTy).Contents (Elt F) → (⟨S16x32, .i32⟩ : BufTy).Contents (Elt F)),
    StableHlo.binary main_v109 main_v118 main_v119 (cmpi .slt : (⟨S16x32, .i32⟩ : BufTy).Contents (Elt F) → (⟨S16x32, .i32⟩ : BufTy).Contents (Elt F) → (⟨S16x32, .i1⟩ : BufTy).Contents (Elt F)),
    StableHlo.nullary main_c_37 (constantI S_ 32 40#32),
    StableHlo.unary main_c_37 main_v120 (broadcastInDim S16x32 ![] bcast_S_S16x32 : (⟨S_, .i32⟩ : BufTy).Contents (Elt F) → (⟨S16x32, .i32⟩ : BufTy).Contents (Elt F)),
    StableHlo.binary main_v109 main_v120 main_v121 (addi : (⟨S16x32, .i32⟩ : BufTy).Contents (Elt F) → (⟨S16x32, .i32⟩ : BufTy).Contents (Elt F) → (⟨S16x32, .i32⟩ : BufTy).Contents (Elt F)),
    StableHlo.ternary main_v119 main_v121 main_v109 main_v122 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    StableHlo.nullary main_c_38 (constantI S_ 32 0#32),
    StableHlo.unary main_c_38 main_v123 (broadcastInDim S16x32 ![] bcast_S_S16x32 : (⟨S_, .i32⟩ : BufTy).Contents (Elt F) → (⟨S16x32, .i32⟩ : BufTy).Contents (Elt F)),
    StableHlo.binary main_v107 main_v123 main_v124 (cmpi .slt : (⟨S16x32, .i32⟩ : BufTy).Contents (Elt F) → (⟨S16x32, .i32⟩ : BufTy).Contents (Elt F) → (⟨S16x32, .i1⟩ : BufTy).Contents (Elt F)),
    StableHlo.nullary main_c_39 (constantI S_ 32 40#32),
    StableHlo.unary main_c_39 main_v125 (broadcastInDim S16x32 ![] bcast_S_S16x32 : (⟨S_, .i32⟩ : BufTy).Contents (Elt F) → (⟨S16x32, .i32⟩ : BufTy).Contents (Elt F)),
    StableHlo.binary main_v107 main_v125 main_v126 (addi : (⟨S16x32, .i32⟩ : BufTy).Contents (Elt F) → (⟨S16x32, .i32⟩ : BufTy).Contents (Elt F) → (⟨S16x32, .i32⟩ : BufTy).Contents (Elt F)),
    StableHlo.ternary main_v124 main_v126 main_v107 main_v127 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    StableHlo.unary main_v117 main_v128 (broadcastInDim S16x32 ![0, 1] bcast_S16x1_S16x32_0_1 : (⟨S16x1, .i32⟩ : BufTy).Contents (Elt F) → (⟨S16x32, .i32⟩ : BufTy).Contents (Elt F)),
    StableHlo.unary main_v128 main_v129 (broadcastInDim S16x32x1 ![0, 1] bcast_S16x32_S16x32x1_0_1 : (⟨S16x32, .i32⟩ : BufTy).Contents (Elt F) → (⟨S16x32x1, .i32⟩ : BufTy).Contents (Elt F)),
    StableHlo.unary main_v122 main_v130 (broadcastInDim S16x32x1 ![0, 1] bcast_S16x32_S16x32x1_0_1 : (⟨S16x32, .i32⟩ : BufTy).Contents (Elt F) → (⟨S16x32x1, .i32⟩ : BufTy).Contents (Elt F)),
    StableHlo.unary main_v127 main_v131 (broadcastInDim S16x32x1 ![0, 1] bcast_S16x32_S16x32x1_0_1 : (⟨S16x32, .i32⟩ : BufTy).Contents (Elt F) → (⟨S16x32x1, .i32⟩ : BufTy).Contents (Elt F)),
    StableHlo.nary ![main_v129, main_v130, main_v131] main_v132 (fun u => concatenate S16x32x3 2 [⟨S16x32x1, u 0⟩, ⟨S16x32x1, u 1⟩, ⟨S16x32x1, u 2⟩] concatenates_S16x32x1_S16x32x1_S16x32x1_S16x32x3_d2) ]
abbrev ks13_1 : List (HloOp τ sig (Elt F)) :=
  [ StableHlo.nullary main_cst_40 (constant S_ .f32 0x3F800000#32),
    StableHlo.unary main_cst_40 main_v133 (broadcastInDim S16x32 ![] bcast_S_S16x32 : (⟨S_, .f32⟩ : BufTy).Contents (Elt F) → (⟨S16x32, .f32⟩ : BufTy).Contents (Elt F)),
    StableHlo.ternary main_v112 main_v132 main_v133 main_v134 ((fun x i u => Host.scatter scatter_S16x40x40_S16x32x3_S16x32_n_012_012_2 (fun _ b => b) x i u) : (⟨S16x40x40, .f32⟩ : BufTy).Contents (Elt F) → (⟨S16x32x3, .i32⟩ : BufTy).Contents (Elt F) → (⟨S16x32, .f32⟩ : BufTy).Contents (Elt F) → (⟨S16x40x40, .f32⟩ : BufTy).Contents (Elt F)),
    StableHlo.unary main_arg1 main_v135 ((extractStridedSlice S16x4x40x40 ![0, 0, 0, 0] · slices_S16x144x40x40_S16x4x40x40_0_0_0_0) : (⟨S16x144x40x40, .f32⟩ : BufTy).Contents (Elt F) → (⟨S16x4x40x40, .f32⟩ : BufTy).Contents (Elt F)),
    StableHlo.unary main_arg1 main_v136 ((extractStridedSlice S16x80x40x40 ![0, 64, 0, 0] · slices_S16x144x40x40_S16x80x40x40_0_64_0_0) : (⟨S16x144x40x40, .f32⟩ : BufTy).Contents (Elt F) → (⟨S16x80x40x40, .f32⟩ : BufTy).Contents (Elt F)),
    StableHlo.binary main_v135 main_v136 main_v137 ((fun a b => concatenate S16x84x40x40 1 [⟨S16x4x40x40, a⟩, ⟨S16x80x40x40, b⟩] concatenates_S16x4x40x40_S16x80x40x40_S16x84x40x40_d1) : (⟨S16x4x40x40, .f32⟩ : BufTy).Contents (Elt F) → (⟨S16x80x40x40, .f32⟩ : BufTy).Contents (Elt F) → (⟨S16x84x40x40, .f32⟩ : BufTy).Contents (Elt F)) ]
abbrev ks13_2 : List (HloOp τ sig (Elt F)) :=
  [ StableHlo.nullary main_c_41 (constantI S_ 32 40#32),
    StableHlo.unary main_c_41 main_v138 (broadcastInDim S16x32 ![] bcast_S_S16x32 : (⟨S_, .i32⟩ : BufTy).Contents (Elt F) → (⟨S16x32, .i32⟩ : BufTy).Contents (Elt F)),
    StableHlo.binary main_v109 main_v138 main_v139 (muli : (⟨S16x32, .i32⟩ : BufTy).Contents (Elt F) → (⟨S16x32, .i32⟩ : BufTy).Contents (Elt F) → (⟨S16x32, .i32⟩ : BufTy).Contents (Elt F)),
    StableHlo.binary main_v139 main_v107 main_v140 (addi : (⟨S16x32, .i32⟩ : BufTy).Contents (Elt F) → (⟨S16x32, .i32⟩ : BufTy).Contents (Elt F) → (⟨S16x32, .i32⟩ : BufTy).Contents (Elt F)),
    StableHlo.reshape main_v137 main_v141 rfl shapeCasts_S16x84x40x40_S16x84x1600,
    StableHlo.unary main_v140 main_v142 (broadcastInDim S16x1x32 ![0, 2] bcast_S16x32_S16x1x32_0_2 : (⟨S16x32, .i32⟩ : BufTy).Contents (Elt F) → (⟨S16x1x32, .i32⟩ : BufTy).Contents (Elt F)),
    StableHlo.unary main_v142 main_v143 (broadcastInDim S16x84x32 ![0, 1, 2] bcast_S16x1x32_S16x84x32_0_1_2 : (⟨S16x1x32, .i32⟩ : BufTy).Contents (Elt F) → (⟨S16x84x32, .i32⟩ : BufTy).Contents (Elt F)) ]
abbrev ks14_0 : List (HloOp τ sig (Elt F)) :=
  [ StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S16x84x32, .i32⟩) (broadcastInDim S16x84x32 ![] bcast_S_S16x84x32),
    StableHlo.TRef.binary (.of main_v143 : StableHlo.TRef sig ⟨S16x84x32, .i32⟩) (.of main_call7_v0 : StableHlo.TRef sig ⟨S16x84x32, .i32⟩) (.of main_call7_v1 : StableHlo.TRef sig ⟨S16x84x32, .i1⟩) (cmpi .slt),
    StableHlo.TRef.nullary (.of main_call7_c_0 : StableHlo.TRef sig ⟨S_, .i32⟩) (constantI S_ 32 1600#32),
    StableHlo.TRef.unary (.of main_call7_c_0 : StableHlo.TRef sig ⟨S_, .i32⟩) (.of main_call7_v2 : StableHlo.TRef sig ⟨S16x84x32, .i32⟩) (broadcastInDim S16x84x32 ![] bcast_S_S16x84x32),
    StableHlo.TRef.binary (.of main_v143 : StableHlo.TRef sig ⟨S16x84x32, .i32⟩) (.of main_call7_v2 : StableHlo.TRef sig ⟨S16x84x32, .i32⟩) (.of main_call7_v3 : StableHlo.TRef sig ⟨S16x84x32, .i32⟩) addi,
    StableHlo.TRef.ternary (.of main_call7_v1 : StableHlo.TRef sig ⟨S16x84x32, .i1⟩) (.of main_call7_v3 : StableHlo.TRef sig ⟨S16x84x32, .i32⟩) (.of main_v143 : StableHlo.TRef sig ⟨S16x84x32, .i32⟩) (.of main_call7_v4 : StableHlo.TRef sig ⟨S16x84x32, .i32⟩) select,
    StableHlo.TRef.reshape (.of main_call7_v4 : StableHlo.TRef sig ⟨S16x84x32, .i32⟩) (.of main_call7_v5 : StableHlo.TRef sig ⟨S16x84x32x1, .i32⟩) rfl shapeCasts_S16x84x32_S16x84x32x1 ]
abbrev ks14_1 : List (HloOp τ sig (Elt F)) :=
  [ StableHlo.TRef.nullary (.of main_call7_c_1 : StableHlo.TRef sig ⟨S1, .i32⟩) (constantI S1 32 1599#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S16x84x32x1, .i32⟩) (broadcastInDim S16x84x32x1 ![] bcast_S_S16x84x32x1),
    StableHlo.TRef.binary (.of main_call7_v5 : StableHlo.TRef sig ⟨S16x84x32x1, .i32⟩) (.of main_call7_v6 : StableHlo.TRef sig ⟨S16x84x32x1, .i32⟩) (.of main_call7_v7 : StableHlo.TRef sig ⟨S16x84x32x1, .i1⟩) (cmpi .sge),
    StableHlo.TRef.unary (.of main_call7_c_1 : StableHlo.TRef sig ⟨S1, .i32⟩) (.of main_call7_v8 : StableHlo.TRef sig ⟨S1x1x1x1, .i32⟩) (broadcastInDim S1x1x1x1 ![3] bcast_S1_S1x1x1x1_3),
    StableHlo.TRef.unary (.of main_call7_v8 : StableHlo.TRef sig ⟨S1x1x1x1, .i32⟩) (.of main_call7_v9 : StableHlo.TRef sig ⟨S16x84x32x1, .i32⟩) (broadcastInDim S16x84x32x1 ![0, 1, 2, 3] bcast_S1x1x1x1_S16x84x32x1_0_1_2_3),
    StableHlo.TRef.binary (.of main_call7_v5 : StableHlo.TRef sig ⟨S16x84x32x1, .i32⟩) (.of main_call7_v9 : StableHlo.TRef sig ⟨S16x84x32x1, .i32⟩) (.of main_call7_v10 : StableHlo.TRef sig ⟨S16x84x32x1, .i1⟩) (cmpi .sle),
    StableHlo.TRef.binary (.of main_call7_v7 : StableHlo.TRef sig ⟨S16x84x32x1, .i1⟩) (.of main_call7_v10 : StableHlo.TRef sig ⟨S16x84x32x1, .i1⟩) (.of main_call7_v11 : StableHlo.TRef sig ⟨S16x84x32x1, .i1⟩) andi,
    StableHlo.TRef.nullary (.of main_call7_c_3 : StableHlo.TRef sig ⟨S_, .i1⟩) (constantI S_ 1 1#1),
    StableHlo.TRef.binary (.of main_call7_v11 : StableHlo.TRef sig ⟨S16x84x32x1, .i1⟩) (.of main_call7_c_3 : StableHlo.TRef sig ⟨S_, .i1⟩) (.of main_call7_v12 : StableHlo.TRef sig ⟨S16x84x32, .i1⟩) (fun x v => Host.reduce IntOp.andi x v reducesTo_S16x84x32x1_S16x84x32_d3 h_S_) ]
abbrev ks14_2 : List (HloOp τ sig (Elt F)) :=
  [ StableHlo.TRef.binary (.of main_v141 : StableHlo.TRef sig ⟨S16x84x1600, .f32⟩) (.of main_call7_v5 : StableHlo.TRef sig ⟨S16x84x32x1, .i32⟩) (.of main_call7_v13 : StableHlo.TRef sig ⟨S16x84x32, .f32⟩) (fun x i => Host.gather gather_S16x84x1600_S16x84x32x1_S16x84x32_n_2_01_01_2_3_111 x i) ]
abbrev ks14_3 : List (HloOp τ sig (Elt F)) :=
  [ StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v14 : StableHlo.TRef sig ⟨S16x84x32, .f32⟩) (broadcastInDim S16x84x32 ![] bcast_S_S16x84x32),
    StableHlo.TRef.ternary (.of main_call7_v12 : StableHlo.TRef sig ⟨S16x84x32, .i1⟩) (.of main_call7_v13 : StableHlo.TRef sig ⟨S16x84x32, .f32⟩) (.of main_call7_v14 : StableHlo.TRef sig ⟨S16x84x32, .f32⟩) (.of main_v144 : StableHlo.TRef sig ⟨S16x84x32, .f32⟩) select ]
abbrev ks15_0 : List (HloOp τ sig (Elt F)) :=
  [ StableHlo.unary main_v144 main_v145 ((transpose S16x32x84 [0, 2, 1] · transposes_S16x84x32_S16x32x84_0_2_1) : (⟨S16x84x32, .f32⟩ : BufTy).Contents (Elt F) → (⟨S16x32x84, .f32⟩ : BufTy).Contents (Elt F)),
    StableHlo.unary main_v145 main_v146 ((extractStridedSlice S16x32x4 ![0, 0, 0] · slices_S16x32x84_S16x32x4_0_0_0) : (⟨S16x32x84, .f32⟩ : BufTy).Contents (Elt F) → (⟨S16x32x4, .f32⟩ : BufTy).Contents (Elt F)),
    StableHlo.unary main_v107 main_v147 (sitofp .f32 : (⟨S16x32, .i32⟩ : BufTy).Contents (Elt F) → (⟨S16x32, .f32⟩ : BufTy).Contents (Elt F)),
    StableHlo.binary main_v93 main_v147 main_v148 (subf : (⟨S16x32, .f32⟩ : BufTy).Contents (Elt F) → (⟨S16x32, .f32⟩ : BufTy).Contents (Elt F) → (⟨S16x32, .f32⟩ : BufTy).Contents (Elt F)),
    StableHlo.unary main_v109 main_v149 (sitofp .f32 : (⟨S16x32, .i32⟩ : BufTy).Contents (Elt F) → (⟨S16x32, .f32⟩ : BufTy).Contents (Elt F)),
    StableHlo.binary main_v97 main_v149 main_v150 (subf : (⟨S16x32, .f32⟩ : BufTy).Contents (Elt F) → (⟨S16x32, .f32⟩ : BufTy).Contents (Elt F) → (⟨S16x32, .f32⟩ : BufTy).Contents (Elt F)),
    StableHlo.nullary main_cst_42 (constant S_ .f32 0x42200000#32),
    StableHlo.unary main_cst_42 main_v151 (broadcastInDim S16x32 ![] bcast_S_S16x32 : (⟨S_, .f32⟩ : BufTy).Contents (Elt F) → (⟨S16x32, .f32⟩ : BufTy).Contents (Elt F)),
    StableHlo.binary main_v101 main_v151 main_v152 (Host.divf : (⟨S16x32, .f32⟩ : BufTy).Contents (Elt F) → (⟨S16x32, .f32⟩ : BufTy).Contents (Elt F) → (⟨S16x32, .f32⟩ : BufTy).Contents (Elt F)),
    StableHlo.nullary main_cst_43 (constant S_ .f32 0x42200000#32),
    StableHlo.unary main_cst_43 main_v153 (broadcastInDim S16x32 ![] bcast_S_S16x32 : (⟨S_, .f32⟩ : BufTy).Contents (Elt F) → (⟨S16x32, .f32⟩ : BufTy).Contents (Elt F)),
    StableHlo.binary main_v105 main_v153 main_v154 (Host.divf : (⟨S16x32, .f32⟩ : BufTy).Contents (Elt F) → (⟨S16x32, .f32⟩ : BufTy).Contents (Elt F) → (⟨S16x32, .f32⟩ : BufTy).Contents (Elt F)),
    StableHlo.unary main_v148 main_v155 (broadcastInDim S16x32x1 ![0, 1] bcast_S16x32_S16x32x1_0_1 : (⟨S16x32, .f32⟩ : BufTy).Contents (Elt F) → (⟨S16x32x1, .f32⟩ : BufTy).Contents (Elt F)),
    StableHlo.unary main_v150 main_v156 (broadcastInDim S16x32x1 ![0, 1] bcast_S16x32_S16x32x1_0_1 : (⟨S16x32, .f32⟩ : BufTy).Contents (Elt F) → (⟨S16x32x1, .f32⟩ : BufTy).Contents (Elt F)),
    StableHlo.unary main_v152 main_v157 (broadcastInDim S16x32x1 ![0, 1] bcast_S16x32_S16x32x1_0_1 : (⟨S16x32, .f32⟩ : BufTy).Contents (Elt F) → (⟨S16x32x1, .f32⟩ : BufTy).Contents (Elt F)),
    StableHlo.unary main_v154 main_v158 (broadcastInDim S16x32x1 ![0, 1] bcast_S16x32_S16x32x1_0_1 : (⟨S16x32, .f32⟩ : BufTy).Contents (Elt F) → (⟨S16x32x1, .f32⟩ : BufTy).Contents (Elt F)),
    StableHlo.nary ![main_v155, main_v156, main_v157, main_v158] main_v159 (fun u => concatenate S16x32x4 2 [⟨S16x32x1, u 0⟩, ⟨S16x32x1, u 1⟩, ⟨S16x32x1, u 2⟩, ⟨S16x32x1, u 3⟩] concatenates_S16x32x1_S16x32x1_S16x32x1_S16x32x1_S16x32x4_d2) ]
abbrev ks15_1 : List (HloOp τ sig (Elt F)) :=
  [ StableHlo.binary main_v146 main_v159 main_v160 (subf : (⟨S16x32x4, .f32⟩ : BufTy).Contents (Elt F) → (⟨S16x32x4, .f32⟩ : BufTy).Contents (Elt F) → (⟨S16x32x4, .f32⟩ : BufTy).Contents (Elt F)),
    StableHlo.binary main_v160 main_v160 main_v161 (mulf : (⟨S16x32x4, .f32⟩ : BufTy).Contents (Elt F) → (⟨S16x32x4, .f32⟩ : BufTy).Contents (Elt F) → (⟨S16x32x4, .f32⟩ : BufTy).Contents (Elt F)),
    StableHlo.nullary main_cst_44 (constant S_ .f32 0x00000000#32),
    StableHlo.binary main_v161 main_cst_44 main_v162 ((fun x v => Host.reduceAdd x v reducesTo_S16x32x4_S16x32_d2 h_S_) : (⟨S16x32x4, .f32⟩ : BufTy).Contents (Elt F) → (⟨S_, .f32⟩ : BufTy).Contents (Elt F) → (⟨S16x32, .f32⟩ : BufTy).Contents (Elt F)),
    StableHlo.nullary main_cst_45 (constant S_ .f32 0x40800000#32),
    StableHlo.unary main_cst_45 main_v163 (broadcastInDim S16x32 ![] bcast_S_S16x32 : (⟨S_, .f32⟩ : BufTy).Contents (Elt F) → (⟨S16x32, .f32⟩ : BufTy).Contents (Elt F)),
    StableHlo.binary main_v162 main_v163 main_v164 (Host.divf : (⟨S16x32, .f32⟩ : BufTy).Contents (Elt F) → (⟨S16x32, .f32⟩ : BufTy).Contents (Elt F) → (⟨S16x32, .f32⟩ : BufTy).Contents (Elt F)),
    StableHlo.nullary main_cst_46 (constant S_ .f32 0x00000000#32),
    StableHlo.binary main_v164 main_cst_46 main_v165 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    StableHlo.unary main_v145 main_v166 ((extractStridedSlice S16x32x80 ![0, 0, 4] · slices_S16x32x84_S16x32x80_0_0_4) : (⟨S16x32x84, .f32⟩ : BufTy).Contents (Elt F) → (⟨S16x32x80, .f32⟩ : BufTy).Contents (Elt F)) ]
abbrev ks22_0 : List (HloOp τ sig (Elt F)) :=
  [ StableHlo.nullary main_v200 (iotaInDim S16 32 0),
    StableHlo.unary main_v200 main_v201 (broadcastInDim S16x1 ![0] bcast_S16_S16x1_0 : (⟨S16, .i32⟩ : BufTy).Contents (Elt F) → (⟨S16x1, .i32⟩ : BufTy).Contents (Elt F)),
    StableHlo.nullary main_cst_58 (constant S_ .f32 0x00000000#32),
    StableHlo.unary main_cst_58 main_v202 (broadcastInDim S16x20x20 ![] bcast_S_S16x20x20 : (⟨S_, .f32⟩ : BufTy).Contents (Elt F) → (⟨S16x20x20, .f32⟩ : BufTy).Contents (Elt F)),
    StableHlo.nullary main_c_59 (constantI S_ 32 0#32),
    StableHlo.unary main_c_59 main_v203 (broadcastInDim S16x1 ![] bcast_S_S16x1 : (⟨S_, .i32⟩ : BufTy).Contents (Elt F) → (⟨S16x1, .i32⟩ : BufTy).Contents (Elt F)),
    StableHlo.binary main_v201 main_v203 main_v204 (cmpi .slt : (⟨S16x1, .i32⟩ : BufTy).Contents (Elt F) → (⟨S16x1, .i32⟩ : BufTy).Contents (Elt F) → (⟨S16x1, .i1⟩ : BufTy).Contents (Elt F)),
    StableHlo.nullary main_c_60 (constantI S_ 32 16#32),
    StableHlo.unary main_c_60 main_v205 (broadcastInDim S16x1 ![] bcast_S_S16x1 : (⟨S_, .i32⟩ : BufTy).Contents (Elt F) → (⟨S16x1, .i32⟩ : BufTy).Contents (Elt F)),
    StableHlo.binary main_v201 main_v205 main_v206 (addi : (⟨S16x1, .i32⟩ : BufTy).Contents (Elt F) → (⟨S16x1, .i32⟩ : BufTy).Contents (Elt F) → (⟨S16x1, .i32⟩ : BufTy).Contents (Elt F)),
    StableHlo.ternary main_v204 main_v206 main_v201 main_v207 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_61 (constantI S_ 32 0#32),
    StableHlo.unary main_c_61 main_v208 (broadcastInDim S16x32 ![] bcast_S_S16x32 : (⟨S_, .i32⟩ : BufTy).Contents (Elt F) → (⟨S16x32, .i32⟩ : BufTy).Contents (Elt F)),
    StableHlo.binary main_v199 main_v208 main_v209 (cmpi .slt : (⟨S16x32, .i32⟩ : BufTy).Contents (Elt F) → (⟨S16x32, .i32⟩ : BufTy).Contents (Elt F) → (⟨S16x32, .i1⟩ : BufTy).Contents (Elt F)),
    StableHlo.nullary main_c_62 (constantI S_ 32 20#32),
    StableHlo.unary main_c_62 main_v210 (broadcastInDim S16x32 ![] bcast_S_S16x32 : (⟨S_, .i32⟩ : BufTy).Contents (Elt F) → (⟨S16x32, .i32⟩ : BufTy).Contents (Elt F)),
    StableHlo.binary main_v199 main_v210 main_v211 (addi : (⟨S16x32, .i32⟩ : BufTy).Contents (Elt F) → (⟨S16x32, .i32⟩ : BufTy).Contents (Elt F) → (⟨S16x32, .i32⟩ : BufTy).Contents (Elt F)),
    StableHlo.ternary main_v209 main_v211 main_v199 main_v212 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    StableHlo.nullary main_c_63 (constantI S_ 32 0#32),
    StableHlo.unary main_c_63 main_v213 (broadcastInDim S16x32 ![] bcast_S_S16x32 : (⟨S_, .i32⟩ : BufTy).Contents (Elt F) → (⟨S16x32, .i32⟩ : BufTy).Contents (Elt F)),
    StableHlo.binary main_v197 main_v213 main_v214 (cmpi .slt : (⟨S16x32, .i32⟩ : BufTy).Contents (Elt F) → (⟨S16x32, .i32⟩ : BufTy).Contents (Elt F) → (⟨S16x32, .i1⟩ : BufTy).Contents (Elt F)),
    StableHlo.nullary main_c_64 (constantI S_ 32 20#32),
    StableHlo.unary main_c_64 main_v215 (broadcastInDim S16x32 ![] bcast_S_S16x32 : (⟨S_, .i32⟩ : BufTy).Contents (Elt F) → (⟨S16x32, .i32⟩ : BufTy).Contents (Elt F)),
    StableHlo.binary main_v197 main_v215 main_v216 (addi : (⟨S16x32, .i32⟩ : BufTy).Contents (Elt F) → (⟨S16x32, .i32⟩ : BufTy).Contents (Elt F) → (⟨S16x32, .i32⟩ : BufTy).Contents (Elt F)),
    StableHlo.ternary main_v214 main_v216 main_v197 main_v217 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    StableHlo.unary main_v207 main_v218 (broadcastInDim S16x32 ![0, 1] bcast_S16x1_S16x32_0_1 : (⟨S16x1, .i32⟩ : BufTy).Contents (Elt F) → (⟨S16x32, .i32⟩ : BufTy).Contents (Elt F)),
    StableHlo.unary main_v218 main_v219 (broadcastInDim S16x32x1 ![0, 1] bcast_S16x32_S16x32x1_0_1 : (⟨S16x32, .i32⟩ : BufTy).Contents (Elt F) → (⟨S16x32x1, .i32⟩ : BufTy).Contents (Elt F)),
    StableHlo.unary main_v212 main_v220 (broadcastInDim S16x32x1 ![0, 1] bcast_S16x32_S16x32x1_0_1 : (⟨S16x32, .i32⟩ : BufTy).Contents (Elt F) → (⟨S16x32x1, .i32⟩ : BufTy).Contents (Elt F)),
    StableHlo.unary main_v217 main_v221 (broadcastInDim S16x32x1 ![0, 1] bcast_S16x32_S16x32x1_0_1 : (⟨S16x32, .i32⟩ : BufTy).Contents (Elt F) → (⟨S16x32x1, .i32⟩ : BufTy).Contents (Elt F)),
    StableHlo.nary ![main_v219, main_v220, main_v221] main_v222 (fun u => concatenate S16x32x3 2 [⟨S16x32x1, u 0⟩, ⟨S16x32x1, u 1⟩, ⟨S16x32x1, u 2⟩] concatenates_S16x32x1_S16x32x1_S16x32x1_S16x32x3_d2) ]
abbrev ks22_1 : List (HloOp τ sig (Elt F)) :=
  [ StableHlo.nullary main_cst_65 (constant S_ .f32 0x3F800000#32),
    StableHlo.unary main_cst_65 main_v223 (broadcastInDim S16x32 ![] bcast_S_S16x32 : (⟨S_, .f32⟩ : BufTy).Contents (Elt F) → (⟨S16x32, .f32⟩ : BufTy).Contents (Elt F)),
    StableHlo.ternary main_v202 main_v222 main_v223 main_v224 ((fun x i u => Host.scatter scatter_S16x20x20_S16x32x3_S16x32_n_012_012_2 (fun _ b => b) x i u) : (⟨S16x20x20, .f32⟩ : BufTy).Contents (Elt F) → (⟨S16x32x3, .i32⟩ : BufTy).Contents (Elt F) → (⟨S16x32, .f32⟩ : BufTy).Contents (Elt F) → (⟨S16x20x20, .f32⟩ : BufTy).Contents (Elt F)),
    StableHlo.unary main_arg2 main_v225 ((extractStridedSlice S16x4x20x20 ![0, 0, 0, 0] · slices_S16x144x20x20_S16x4x20x20_0_0_0_0) : (⟨S16x144x20x20, .f32⟩ : BufTy).Contents (Elt F) → (⟨S16x4x20x20, .f32⟩ : BufTy).Contents (Elt F)),
    StableHlo.unary main_arg2 main_v226 ((extractStridedSlice S16x80x20x20 ![0, 64, 0, 0] · slices_S16x144x20x20_S16x80x20x20_0_64_0_0) : (⟨S16x144x20x20, .f32⟩ : BufTy).Contents (Elt F) → (⟨S16x80x20x20, .f32⟩ : BufTy).Contents (Elt F)),
    StableHlo.binary main_v225 main_v226 main_v227 ((fun a b => concatenate S16x84x20x20 1 [⟨S16x4x20x20, a⟩, ⟨S16x80x20x20, b⟩] concatenates_S16x4x20x20_S16x80x20x20_S16x84x20x20_d1) : (⟨S16x4x20x20, .f32⟩ : BufTy).Contents (Elt F) → (⟨S16x80x20x20, .f32⟩ : BufTy).Contents (Elt F) → (⟨S16x84x20x20, .f32⟩ : BufTy).Contents (Elt F)) ]
abbrev ks22_2 : List (HloOp τ sig (Elt F)) :=
  [ StableHlo.nullary main_c_66 (constantI S_ 32 20#32),
    StableHlo.unary main_c_66 main_v228 (broadcastInDim S16x32 ![] bcast_S_S16x32 : (⟨S_, .i32⟩ : BufTy).Contents (Elt F) → (⟨S16x32, .i32⟩ : BufTy).Contents (Elt F)),
    StableHlo.binary main_v199 main_v228 main_v229 (muli : (⟨S16x32, .i32⟩ : BufTy).Contents (Elt F) → (⟨S16x32, .i32⟩ : BufTy).Contents (Elt F) → (⟨S16x32, .i32⟩ : BufTy).Contents (Elt F)),
    StableHlo.binary main_v229 main_v197 main_v230 (addi : (⟨S16x32, .i32⟩ : BufTy).Contents (Elt F) → (⟨S16x32, .i32⟩ : BufTy).Contents (Elt F) → (⟨S16x32, .i32⟩ : BufTy).Contents (Elt F)),
    StableHlo.reshape main_v227 main_v231 rfl shapeCasts_S16x84x20x20_S16x84x400,
    StableHlo.unary main_v230 main_v232 (broadcastInDim S16x1x32 ![0, 2] bcast_S16x32_S16x1x32_0_2 : (⟨S16x32, .i32⟩ : BufTy).Contents (Elt F) → (⟨S16x1x32, .i32⟩ : BufTy).Contents (Elt F)),
    StableHlo.unary main_v232 main_v233 (broadcastInDim S16x84x32 ![0, 1, 2] bcast_S16x1x32_S16x84x32_0_1_2 : (⟨S16x1x32, .i32⟩ : BufTy).Contents (Elt F) → (⟨S16x84x32, .i32⟩ : BufTy).Contents (Elt F)) ]
abbrev ks23_0 : List (HloOp τ sig (Elt F)) :=
  [ StableHlo.TRef.nullary (.of main_call12_c : StableHlo.TRef sig ⟨S_, .i32⟩) (constantI S_ 32 0#32),
    StableHlo.TRef.unary (.of main_call12_c : StableHlo.TRef sig ⟨S_, .i32⟩) (.of main_call12_v0 : StableHlo.TRef sig ⟨S16x84x32, .i32⟩) (broadcastInDim S16x84x32 ![] bcast_S_S16x84x32),
    StableHlo.TRef.binary (.of main_v233 : StableHlo.TRef sig ⟨S16x84x32, .i32⟩) (.of main_call12_v0 : StableHlo.TRef sig ⟨S16x84x32, .i32⟩) (.of main_call12_v1 : StableHlo.TRef sig ⟨S16x84x32, .i1⟩) (cmpi .slt),
    StableHlo.TRef.nullary (.of main_call12_c_0 : StableHlo.TRef sig ⟨S_, .i32⟩) (constantI S_ 32 400#32),
    StableHlo.TRef.unary (.of main_call12_c_0 : StableHlo.TRef sig ⟨S_, .i32⟩) (.of main_call12_v2 : StableHlo.TRef sig ⟨S16x84x32, .i32⟩) (broadcastInDim S16x84x32 ![] bcast_S_S16x84x32),
    StableHlo.TRef.binary (.of main_v233 : StableHlo.TRef sig ⟨S16x84x32, .i32⟩) (.of main_call12_v2 : StableHlo.TRef sig ⟨S16x84x32, .i32⟩) (.of main_call12_v3 : StableHlo.TRef sig ⟨S16x84x32, .i32⟩) addi,
    StableHlo.TRef.ternary (.of main_call12_v1 : StableHlo.TRef sig ⟨S16x84x32, .i1⟩) (.of main_call12_v3 : StableHlo.TRef sig ⟨S16x84x32, .i32⟩) (.of main_v233 : StableHlo.TRef sig ⟨S16x84x32, .i32⟩) (.of main_call12_v4 : StableHlo.TRef sig ⟨S16x84x32, .i32⟩) select,
    StableHlo.TRef.reshape (.of main_call12_v4 : StableHlo.TRef sig ⟨S16x84x32, .i32⟩) (.of main_call12_v5 : StableHlo.TRef sig ⟨S16x84x32x1, .i32⟩) rfl shapeCasts_S16x84x32_S16x84x32x1 ]
abbrev ks23_1 : List (HloOp τ sig (Elt F)) :=
  [ StableHlo.TRef.nullary (.of main_call12_c_1 : StableHlo.TRef sig ⟨S1, .i32⟩) (constantI S1 32 399#32),
    StableHlo.TRef.nullary (.of main_call12_c_2 : StableHlo.TRef sig ⟨S_, .i32⟩) (constantI S_ 32 0#32),
    StableHlo.TRef.unary (.of main_call12_c_2 : StableHlo.TRef sig ⟨S_, .i32⟩) (.of main_call12_v6 : StableHlo.TRef sig ⟨S16x84x32x1, .i32⟩) (broadcastInDim S16x84x32x1 ![] bcast_S_S16x84x32x1),
    StableHlo.TRef.binary (.of main_call12_v5 : StableHlo.TRef sig ⟨S16x84x32x1, .i32⟩) (.of main_call12_v6 : StableHlo.TRef sig ⟨S16x84x32x1, .i32⟩) (.of main_call12_v7 : StableHlo.TRef sig ⟨S16x84x32x1, .i1⟩) (cmpi .sge),
    StableHlo.TRef.unary (.of main_call12_c_1 : StableHlo.TRef sig ⟨S1, .i32⟩) (.of main_call12_v8 : StableHlo.TRef sig ⟨S1x1x1x1, .i32⟩) (broadcastInDim S1x1x1x1 ![3] bcast_S1_S1x1x1x1_3),
    StableHlo.TRef.unary (.of main_call12_v8 : StableHlo.TRef sig ⟨S1x1x1x1, .i32⟩) (.of main_call12_v9 : StableHlo.TRef sig ⟨S16x84x32x1, .i32⟩) (broadcastInDim S16x84x32x1 ![0, 1, 2, 3] bcast_S1x1x1x1_S16x84x32x1_0_1_2_3),
    StableHlo.TRef.binary (.of main_call12_v5 : StableHlo.TRef sig ⟨S16x84x32x1, .i32⟩) (.of main_call12_v9 : StableHlo.TRef sig ⟨S16x84x32x1, .i32⟩) (.of main_call12_v10 : StableHlo.TRef sig ⟨S16x84x32x1, .i1⟩) (cmpi .sle),
    StableHlo.TRef.binary (.of main_call12_v7 : StableHlo.TRef sig ⟨S16x84x32x1, .i1⟩) (.of main_call12_v10 : StableHlo.TRef sig ⟨S16x84x32x1, .i1⟩) (.of main_call12_v11 : StableHlo.TRef sig ⟨S16x84x32x1, .i1⟩) andi,
    StableHlo.TRef.nullary (.of main_call12_c_3 : StableHlo.TRef sig ⟨S_, .i1⟩) (constantI S_ 1 1#1),
    StableHlo.TRef.binary (.of main_call12_v11 : StableHlo.TRef sig ⟨S16x84x32x1, .i1⟩) (.of main_call12_c_3 : StableHlo.TRef sig ⟨S_, .i1⟩) (.of main_call12_v12 : StableHlo.TRef sig ⟨S16x84x32, .i1⟩) (fun x v => Host.reduce IntOp.andi x v reducesTo_S16x84x32x1_S16x84x32_d3 h_S_) ]
abbrev ks23_2 : List (HloOp τ sig (Elt F)) :=
  [ StableHlo.TRef.binary (.of main_v231 : StableHlo.TRef sig ⟨S16x84x400, .f32⟩) (.of main_call12_v5 : StableHlo.TRef sig ⟨S16x84x32x1, .i32⟩) (.of main_call12_v13 : StableHlo.TRef sig ⟨S16x84x32, .f32⟩) (fun x i => Host.gather gather_S16x84x400_S16x84x32x1_S16x84x32_n_2_01_01_2_3_111 x i) ]
abbrev ks23_3 : List (HloOp τ sig (Elt F)) :=
  [ StableHlo.TRef.nullary (.of main_call12_cst : StableHlo.TRef sig ⟨S_, .f32⟩) (constant S_ .f32 0x7FC00000#32),
    StableHlo.TRef.unary (.of main_call12_cst : StableHlo.TRef sig ⟨S_, .f32⟩) (.of main_call12_v14 : StableHlo.TRef sig ⟨S16x84x32, .f32⟩) (broadcastInDim S16x84x32 ![] bcast_S_S16x84x32),
    StableHlo.TRef.ternary (.of main_call12_v12 : StableHlo.TRef sig ⟨S16x84x32, .i1⟩) (.of main_call12_v13 : StableHlo.TRef sig ⟨S16x84x32, .f32⟩) (.of main_call12_v14 : StableHlo.TRef sig ⟨S16x84x32, .f32⟩) (.of main_v234 : StableHlo.TRef sig ⟨S16x84x32, .f32⟩) select ]
abbrev ks24_0 : List (HloOp τ sig (Elt F)) :=
  [ StableHlo.unary main_v234 main_v235 ((transpose S16x32x84 [0, 2, 1] · transposes_S16x84x32_S16x32x84_0_2_1) : (⟨S16x84x32, .f32⟩ : BufTy).Contents (Elt F) → (⟨S16x32x84, .f32⟩ : BufTy).Contents (Elt F)),
    StableHlo.unary main_v235 main_v236 ((extractStridedSlice S16x32x4 ![0, 0, 0] · slices_S16x32x84_S16x32x4_0_0_0) : (⟨S16x32x84, .f32⟩ : BufTy).Contents (Elt F) → (⟨S16x32x4, .f32⟩ : BufTy).Contents (Elt F)),
    StableHlo.unary main_v197 main_v237 (sitofp .f32 : (⟨S16x32, .i32⟩ : BufTy).Contents (Elt F) → (⟨S16x32, .f32⟩ : BufTy).Contents (Elt F)),
    StableHlo.binary main_v183 main_v237 main_v238 (subf : (⟨S16x32, .f32⟩ : BufTy).Contents (Elt F) → (⟨S16x32, .f32⟩ : BufTy).Contents (Elt F) → (⟨S16x32, .f32⟩ : BufTy).Contents (Elt F)),
    StableHlo.unary main_v199 main_v239 (sitofp .f32 : (⟨S16x32, .i32⟩ : BufTy).Contents (Elt F) → (⟨S16x32, .f32⟩ : BufTy).Contents (Elt F)),
    StableHlo.binary main_v187 main_v239 main_v240 (subf : (⟨S16x32, .f32⟩ : BufTy).Contents (Elt F) → (⟨S16x32, .f32⟩ : BufTy).Contents (Elt F) → (⟨S16x32, .f32⟩ : BufTy).Contents (Elt F)),
    StableHlo.nullary main_cst_67 (constant S_ .f32 0x41A00000#32),
    StableHlo.unary main_cst_67 main_v241 (broadcastInDim S16x32 ![] bcast_S_S16x32 : (⟨S_, .f32⟩ : BufTy).Contents (Elt F) → (⟨S16x32, .f32⟩ : BufTy).Contents (Elt F)),
    StableHlo.binary main_v191 main_v241 main_v242 (Host.divf : (⟨S16x32, .f32⟩ : BufTy).Contents (Elt F) → (⟨S16x32, .f32⟩ : BufTy).Contents (Elt F) → (⟨S16x32, .f32⟩ : BufTy).Contents (Elt F)),
    StableHlo.nullary main_cst_68 (constant S_ .f32 0x41A00000#32),
    StableHlo.unary main_cst_68 main_v243 (broadcastInDim S16x32 ![] bcast_S_S16x32 : (⟨S_, .f32⟩ : BufTy).Contents (Elt F) → (⟨S16x32, .f32⟩ : BufTy).Contents (Elt F)),
    StableHlo.binary main_v195 main_v243 main_v244 (Host.divf : (⟨S16x32, .f32⟩ : BufTy).Contents (Elt F) → (⟨S16x32, .f32⟩ : BufTy).Contents (Elt F) → (⟨S16x32, .f32⟩ : BufTy).Contents (Elt F)),
    StableHlo.unary main_v238 main_v245 (broadcastInDim S16x32x1 ![0, 1] bcast_S16x32_S16x32x1_0_1 : (⟨S16x32, .f32⟩ : BufTy).Contents (Elt F) → (⟨S16x32x1, .f32⟩ : BufTy).Contents (Elt F)),
    StableHlo.unary main_v240 main_v246 (broadcastInDim S16x32x1 ![0, 1] bcast_S16x32_S16x32x1_0_1 : (⟨S16x32, .f32⟩ : BufTy).Contents (Elt F) → (⟨S16x32x1, .f32⟩ : BufTy).Contents (Elt F)),
    StableHlo.unary main_v242 main_v247 (broadcastInDim S16x32x1 ![0, 1] bcast_S16x32_S16x32x1_0_1 : (⟨S16x32, .f32⟩ : BufTy).Contents (Elt F) → (⟨S16x32x1, .f32⟩ : BufTy).Contents (Elt F)),
    StableHlo.unary main_v244 main_v248 (broadcastInDim S16x32x1 ![0, 1] bcast_S16x32_S16x32x1_0_1 : (⟨S16x32, .f32⟩ : BufTy).Contents (Elt F) → (⟨S16x32x1, .f32⟩ : BufTy).Contents (Elt F)),
    StableHlo.nary ![main_v245, main_v246, main_v247, main_v248] main_v249 (fun u => concatenate S16x32x4 2 [⟨S16x32x1, u 0⟩, ⟨S16x32x1, u 1⟩, ⟨S16x32x1, u 2⟩, ⟨S16x32x1, u 3⟩] concatenates_S16x32x1_S16x32x1_S16x32x1_S16x32x1_S16x32x4_d2) ]
abbrev ks24_1 : List (HloOp τ sig (Elt F)) :=
  [ StableHlo.binary main_v236 main_v249 main_v250 (subf : (⟨S16x32x4, .f32⟩ : BufTy).Contents (Elt F) → (⟨S16x32x4, .f32⟩ : BufTy).Contents (Elt F) → (⟨S16x32x4, .f32⟩ : BufTy).Contents (Elt F)),
    StableHlo.binary main_v250 main_v250 main_v251 (mulf : (⟨S16x32x4, .f32⟩ : BufTy).Contents (Elt F) → (⟨S16x32x4, .f32⟩ : BufTy).Contents (Elt F) → (⟨S16x32x4, .f32⟩ : BufTy).Contents (Elt F)),
    StableHlo.nullary main_cst_69 (constant S_ .f32 0x00000000#32),
    StableHlo.binary main_v251 main_cst_69 main_v252 ((fun x v => Host.reduceAdd x v reducesTo_S16x32x4_S16x32_d2 h_S_) : (⟨S16x32x4, .f32⟩ : BufTy).Contents (Elt F) → (⟨S_, .f32⟩ : BufTy).Contents (Elt F) → (⟨S16x32, .f32⟩ : BufTy).Contents (Elt F)),
    StableHlo.nullary main_cst_70 (constant S_ .f32 0x40800000#32),
    StableHlo.unary main_cst_70 main_v253 (broadcastInDim S16x32 ![] bcast_S_S16x32 : (⟨S_, .f32⟩ : BufTy).Contents (Elt F) → (⟨S16x32, .f32⟩ : BufTy).Contents (Elt F)),
    StableHlo.binary main_v252 main_v253 main_v254 (Host.divf : (⟨S16x32, .f32⟩ : BufTy).Contents (Elt F) → (⟨S16x32, .f32⟩ : BufTy).Contents (Elt F) → (⟨S16x32, .f32⟩ : BufTy).Contents (Elt F)),
    StableHlo.nullary main_cst_71 (constant S_ .f32 0x00000000#32),
    StableHlo.binary main_v254 main_cst_71 main_v255 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    StableHlo.unary main_v235 main_v256 ((extractStridedSlice S16x32x80 ![0, 0, 4] · slices_S16x32x84_S16x32x80_0_0_4) : (⟨S16x32x84, .f32⟩ : BufTy).Contents (Elt F) → (⟨S16x32x80, .f32⟩ : BufTy).Contents (Elt F)) ]
theorem split4 : (hostOps0_4 : List (HloOp τ sig (Elt F))) = ks4_0 ++ (ks4_1 ++ (ks4_2)) := rfl
theorem split5 : (hostOps0_5 : List (HloOp τ sig (Elt F))) = ks5_0 ++ (ks5_1 ++ (ks5_2 ++ (ks5_3))) := rfl
theorem split6 : (hostOps0_6 : List (HloOp τ sig (Elt F))) = ks6_0 ++ (ks6_1) := rfl
theorem split13 : (hostOps0_13 : List (HloOp τ sig (Elt F))) = ks13_0 ++ (ks13_1 ++ (ks13_2)) := rfl
theorem split14 : (hostOps0_14 : List (HloOp τ sig (Elt F))) = ks14_0 ++ (ks14_1 ++ (ks14_2 ++ (ks14_3))) := rfl
theorem split15 : (hostOps0_15 : List (HloOp τ sig (Elt F))) = ks15_0 ++ (ks15_1) := rfl
theorem split22 : (hostOps0_22 : List (HloOp τ sig (Elt F))) = ks22_0 ++ (ks22_1 ++ (ks22_2)) := rfl
theorem split23 : (hostOps0_23 : List (HloOp τ sig (Elt F))) = ks23_0 ++ (ks23_1 ++ (ks23_2 ++ (ks23_3))) := rfl
theorem split24 : (hostOps0_24 : List (HloOp τ sig (Elt F))) = ks24_0 ++ (ks24_1) := rfl

/-! ## What each stretch writes -/

abbrev W0 : List (Ref sig .tc) := [main_v0, main_v1, main_cst, main_v2, main_v3, main_v4, main_v5, main_cst_0, main_v6, main_v7, main_v8, main_v9, main_cst_1, main_v10, main_v11, main_v12, main_v13, main_cst_2, main_v14, main_v15, main_v16, main_c, main_c_3]
theorem writes0 : (hostOps0 : List (HloOp τ sig (Elt F))).Forall fun op => op.writes ⊆ (W0.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W1 : List (Ref sig .tc) := [main_call0_v0, main_call0_v1, main_call0_v2, main_call0_v3, main_call0_v4, main_v17]
theorem writes1 : (hostOps0_1 : List (HloOp τ sig (Elt F))).Forall fun op => op.writes ⊆ (W1.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W2 : List (Ref sig .tc) := [main_v18, main_c_4, main_c_5]
theorem writes2 : (hostOps0_2 : List (HloOp τ sig (Elt F))).Forall fun op => op.writes ⊆ (W2.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W3 : List (Ref sig .tc) := [main_call1_v0, main_call1_v1, main_call1_v2, main_call1_v3, main_call1_v4, main_v19]
theorem writes3 : (hostOps0_3 : List (HloOp τ sig (Elt F))).Forall fun op => op.writes ⊆ (W3.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W4 : List (Ref sig .tc) := [main_v20, main_v21, main_cst_6, main_v22, main_c_7, main_v23, main_v24, main_c_8, main_v25, main_v26, main_v27, main_c_9, main_v28, main_v29, main_c_10, main_v30, main_v31, main_v32, main_c_11, main_v33, main_v34, main_c_12, main_v35, main_v36, main_v37, main_v38, main_v39, main_v40, main_v41, main_v42]
theorem writes4 : (ks4_0 : List (HloOp τ sig (Elt F))).Forall fun op => op.writes ⊆ (W4.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W5 : List (Ref sig .tc) := [main_cst_13, main_v43, main_v44, main_v45, main_v46, main_v47]
theorem writes5 : (ks4_1 : List (HloOp τ sig (Elt F))).Forall fun op => op.writes ⊆ (W5.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W6 : List (Ref sig .tc) := [main_c_14, main_v48, main_v49, main_v50, main_v51, main_v52, main_v53]
theorem writes6 : (ks4_2 : List (HloOp τ sig (Elt F))).Forall fun op => op.writes ⊆ (W6.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W7 : List (Ref sig .tc) := [main_call2_c, main_call2_v0, main_call2_v1, main_call2_c_0, main_call2_v2, main_call2_v3, main_call2_v4, main_call2_v5]
theorem writes7 : (ks5_0 : List (HloOp τ sig (Elt F))).Forall fun op => op.writes ⊆ (W7.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W8 : List (Ref sig .tc) := [main_call2_c_1, main_call2_c_2, main_call2_v6, main_call2_v7, main_call2_v8, main_call2_v9, main_call2_v10, main_call2_v11, main_call2_c_3, main_call2_v12]
theorem writes8 : (ks5_1 : List (HloOp τ sig (Elt F))).Forall fun op => op.writes ⊆ (W8.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W9 : List (Ref sig .tc) := [main_call2_v13]
theorem writes9 : (ks5_2 : List (HloOp τ sig (Elt F))).Forall fun op => op.writes ⊆ (W9.map (Proc.devRef (τ := τ) .tc)).toFinset := by
  simp only [List.Forall]; simp only [nullary_writes, unary_writes, binary_writes, ternary_writes, quaternary_writes, reshape_writes, binaryIndexed_writes, nary_writes, unaryIndexed_writes, Finset.singleton_subset_iff, List.mem_toFinset]; exact List.mem_map_of_mem (by decide)

abbrev W10 : List (Ref sig .tc) := [main_call2_cst, main_call2_v14, main_v54]
theorem writes10 : (ks5_3 : List (HloOp τ sig (Elt F))).Forall fun op => op.writes ⊆ (W10.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W11 : List (Ref sig .tc) := [main_v55, main_v56, main_v57, main_v58, main_v59, main_v60, main_cst_15, main_v61, main_v62, main_cst_16, main_v63, main_v64, main_v65, main_v66, main_v67, main_v68, main_v69]
theorem writes11 : (ks6_0 : List (HloOp τ sig (Elt F))).Forall fun op => op.writes ⊆ (W11.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W12 : List (Ref sig .tc) := [main_v70, main_v71, main_cst_17, main_v72, main_cst_18, main_v73, main_v74, main_cst_19, main_v75, main_v76]
theorem writes12 : (ks6_1 : List (HloOp τ sig (Elt F))).Forall fun op => op.writes ⊆ (W12.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W13 : List (Ref sig .tc) := [main_call3_v0, main_call3_v1, main_call3_v2, main_call3_v3, main_call3_v4, main_v77]
theorem writes13 : (hostOps0_7 : List (HloOp τ sig (Elt F))).Forall fun op => op.writes ⊆ (W13.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W14 : List (Ref sig .tc) := [main_call4_cst, main_call4_v0, main_call4_v1, main_call4_v2, main_call4_v3, main_call4_v4, main_call4_v5, main_call4_v6, main_call4_v7, main_call4_v8, main_call4_v9, main_call4_v10, main_call4_v11, main_v78]
theorem writes14 : (hostOps0_8 : List (HloOp τ sig (Elt F))).Forall fun op => op.writes ⊆ (W14.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W15 : List (Ref sig .tc) := [main_v79, main_v80, main_cst_20, main_v81, main_cst_21, main_v82, main_v83, main_cst_22, main_v84, main_cst_23, main_v85, main_cst_24, main_v86, main_v87, main_v88, main_v89, main_v90, main_v91, main_cst_25, main_v92, main_v93, main_v94, main_v95, main_cst_26, main_v96, main_v97, main_v98, main_v99, main_cst_27, main_v100, main_v101, main_v102, main_v103, main_cst_28, main_v104, main_v105, main_v106, main_c_29, main_c_30]
theorem writes15 : (hostOps0_9 : List (HloOp τ sig (Elt F))).Forall fun op => op.writes ⊆ (W15.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W16 : List (Ref sig .tc) := [main_call5_v0, main_call5_v1, main_call5_v2, main_call5_v3, main_call5_v4, main_v107]
theorem writes16 : (hostOps0_10 : List (HloOp τ sig (Elt F))).Forall fun op => op.writes ⊆ (W16.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W17 : List (Ref sig .tc) := [main_v108, main_c_31, main_c_32]
theorem writes17 : (hostOps0_11 : List (HloOp τ sig (Elt F))).Forall fun op => op.writes ⊆ (W17.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W18 : List (Ref sig .tc) := [main_call6_v0, main_call6_v1, main_call6_v2, main_call6_v3, main_call6_v4, main_v109]
theorem writes18 : (hostOps0_12 : List (HloOp τ sig (Elt F))).Forall fun op => op.writes ⊆ (W18.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W19 : List (Ref sig .tc) := [main_v110, main_v111, main_cst_33, main_v112, main_c_34, main_v113, main_v114, main_c_35, main_v115, main_v116, main_v117, main_c_36, main_v118, main_v119, main_c_37, main_v120, main_v121, main_v122, main_c_38, main_v123, main_v124, main_c_39, main_v125, main_v126, main_v127, main_v128, main_v129, main_v130, main_v131, main_v132]
theorem writes19 : (ks13_0 : List (HloOp τ sig (Elt F))).Forall fun op => op.writes ⊆ (W19.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W20 : List (Ref sig .tc) := [main_cst_40, main_v133, main_v134, main_v135, main_v136, main_v137]
theorem writes20 : (ks13_1 : List (HloOp τ sig (Elt F))).Forall fun op => op.writes ⊆ (W20.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W21 : List (Ref sig .tc) := [main_c_41, main_v138, main_v139, main_v140, main_v141, main_v142, main_v143]
theorem writes21 : (ks13_2 : List (HloOp τ sig (Elt F))).Forall fun op => op.writes ⊆ (W21.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W22 : List (Ref sig .tc) := [main_call7_c, main_call7_v0, main_call7_v1, main_call7_c_0, main_call7_v2, main_call7_v3, main_call7_v4, main_call7_v5]
theorem writes22 : (ks14_0 : List (HloOp τ sig (Elt F))).Forall fun op => op.writes ⊆ (W22.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W23 : List (Ref sig .tc) := [main_call7_c_1, main_call7_c_2, main_call7_v6, main_call7_v7, main_call7_v8, main_call7_v9, main_call7_v10, main_call7_v11, main_call7_c_3, main_call7_v12]
theorem writes23 : (ks14_1 : List (HloOp τ sig (Elt F))).Forall fun op => op.writes ⊆ (W23.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W24 : List (Ref sig .tc) := [main_call7_v13]
theorem writes24 : (ks14_2 : List (HloOp τ sig (Elt F))).Forall fun op => op.writes ⊆ (W24.map (Proc.devRef (τ := τ) .tc)).toFinset := by
  simp only [List.Forall]; simp only [nullary_writes, unary_writes, binary_writes, ternary_writes, quaternary_writes, reshape_writes, binaryIndexed_writes, nary_writes, unaryIndexed_writes, Finset.singleton_subset_iff, List.mem_toFinset]; exact List.mem_map_of_mem (by decide)

abbrev W25 : List (Ref sig .tc) := [main_call7_cst, main_call7_v14, main_v144]
theorem writes25 : (ks14_3 : List (HloOp τ sig (Elt F))).Forall fun op => op.writes ⊆ (W25.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W26 : List (Ref sig .tc) := [main_v145, main_v146, main_v147, main_v148, main_v149, main_v150, main_cst_42, main_v151, main_v152, main_cst_43, main_v153, main_v154, main_v155, main_v156, main_v157, main_v158, main_v159]
theorem writes26 : (ks15_0 : List (HloOp τ sig (Elt F))).Forall fun op => op.writes ⊆ (W26.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W27 : List (Ref sig .tc) := [main_v160, main_v161, main_cst_44, main_v162, main_cst_45, main_v163, main_v164, main_cst_46, main_v165, main_v166]
theorem writes27 : (ks15_1 : List (HloOp τ sig (Elt F))).Forall fun op => op.writes ⊆ (W27.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W28 : List (Ref sig .tc) := [main_call8_v0, main_call8_v1, main_call8_v2, main_call8_v3, main_call8_v4, main_v167]
theorem writes28 : (hostOps0_16 : List (HloOp τ sig (Elt F))).Forall fun op => op.writes ⊆ (W28.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W29 : List (Ref sig .tc) := [main_call9_cst, main_call9_v0, main_call9_v1, main_call9_v2, main_call9_v3, main_call9_v4, main_call9_v5, main_call9_v6, main_call9_v7, main_call9_v8, main_call9_v9, main_call9_v10, main_call9_v11, main_v168]
theorem writes29 : (hostOps0_17 : List (HloOp τ sig (Elt F))).Forall fun op => op.writes ⊆ (W29.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W30 : List (Ref sig .tc) := [main_v169, main_v170, main_cst_47, main_v171, main_cst_48, main_v172, main_v173, main_cst_49, main_v174, main_v175, main_v176, main_v177, main_v178, main_v179, main_v180, main_v181, main_cst_50, main_v182, main_v183, main_v184, main_v185, main_cst_51, main_v186, main_v187, main_v188, main_v189, main_cst_52, main_v190, main_v191, main_v192, main_v193, main_cst_53, main_v194, main_v195, main_v196, main_c_54, main_c_55]
theorem writes30 : (hostOps0_18 : List (HloOp τ sig (Elt F))).Forall fun op => op.writes ⊆ (W30.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W31 : List (Ref sig .tc) := [main_call10_v0, main_call10_v1, main_call10_v2, main_call10_v3, main_call10_v4, main_v197]
theorem writes31 : (hostOps0_19 : List (HloOp τ sig (Elt F))).Forall fun op => op.writes ⊆ (W31.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W32 : List (Ref sig .tc) := [main_v198, main_c_56, main_c_57]
theorem writes32 : (hostOps0_20 : List (HloOp τ sig (Elt F))).Forall fun op => op.writes ⊆ (W32.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W33 : List (Ref sig .tc) := [main_call11_v0, main_call11_v1, main_call11_v2, main_call11_v3, main_call11_v4, main_v199]
theorem writes33 : (hostOps0_21 : List (HloOp τ sig (Elt F))).Forall fun op => op.writes ⊆ (W33.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W34 : List (Ref sig .tc) := [main_v200, main_v201, main_cst_58, main_v202, main_c_59, main_v203, main_v204, main_c_60, main_v205, main_v206, main_v207, main_c_61, main_v208, main_v209, main_c_62, main_v210, main_v211, main_v212, main_c_63, main_v213, main_v214, main_c_64, main_v215, main_v216, main_v217, main_v218, main_v219, main_v220, main_v221, main_v222]
theorem writes34 : (ks22_0 : List (HloOp τ sig (Elt F))).Forall fun op => op.writes ⊆ (W34.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W35 : List (Ref sig .tc) := [main_cst_65, main_v223, main_v224, main_v225, main_v226, main_v227]
theorem writes35 : (ks22_1 : List (HloOp τ sig (Elt F))).Forall fun op => op.writes ⊆ (W35.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W36 : List (Ref sig .tc) := [main_c_66, main_v228, main_v229, main_v230, main_v231, main_v232, main_v233]
theorem writes36 : (ks22_2 : List (HloOp τ sig (Elt F))).Forall fun op => op.writes ⊆ (W36.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W37 : List (Ref sig .tc) := [main_call12_c, main_call12_v0, main_call12_v1, main_call12_c_0, main_call12_v2, main_call12_v3, main_call12_v4, main_call12_v5]
theorem writes37 : (ks23_0 : List (HloOp τ sig (Elt F))).Forall fun op => op.writes ⊆ (W37.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W38 : List (Ref sig .tc) := [main_call12_c_1, main_call12_c_2, main_call12_v6, main_call12_v7, main_call12_v8, main_call12_v9, main_call12_v10, main_call12_v11, main_call12_c_3, main_call12_v12]
theorem writes38 : (ks23_1 : List (HloOp τ sig (Elt F))).Forall fun op => op.writes ⊆ (W38.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W39 : List (Ref sig .tc) := [main_call12_v13]
theorem writes39 : (ks23_2 : List (HloOp τ sig (Elt F))).Forall fun op => op.writes ⊆ (W39.map (Proc.devRef (τ := τ) .tc)).toFinset := by
  simp only [List.Forall]; simp only [nullary_writes, unary_writes, binary_writes, ternary_writes, quaternary_writes, reshape_writes, binaryIndexed_writes, nary_writes, unaryIndexed_writes, Finset.singleton_subset_iff, List.mem_toFinset]; exact List.mem_map_of_mem (by decide)

abbrev W40 : List (Ref sig .tc) := [main_call12_cst, main_call12_v14, main_v234]
theorem writes40 : (ks23_3 : List (HloOp τ sig (Elt F))).Forall fun op => op.writes ⊆ (W40.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W41 : List (Ref sig .tc) := [main_v235, main_v236, main_v237, main_v238, main_v239, main_v240, main_cst_67, main_v241, main_v242, main_cst_68, main_v243, main_v244, main_v245, main_v246, main_v247, main_v248, main_v249]
theorem writes41 : (ks24_0 : List (HloOp τ sig (Elt F))).Forall fun op => op.writes ⊆ (W41.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W42 : List (Ref sig .tc) := [main_v250, main_v251, main_cst_69, main_v252, main_cst_70, main_v253, main_v254, main_cst_71, main_v255, main_v256]
theorem writes42 : (ks24_1 : List (HloOp τ sig (Elt F))).Forall fun op => op.writes ⊆ (W42.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W43 : List (Ref sig .tc) := [main_call13_v0, main_call13_v1, main_call13_v2, main_call13_v3, main_call13_v4, main_v257]
theorem writes43 : (hostOps0_25 : List (HloOp τ sig (Elt F))).Forall fun op => op.writes ⊆ (W43.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W44 : List (Ref sig .tc) := [main_call14_cst, main_call14_v0, main_call14_v1, main_call14_v2, main_call14_v3, main_call14_v4, main_call14_v5, main_call14_v6, main_call14_v7, main_call14_v8, main_call14_v9, main_call14_v10, main_call14_v11, main_v258]
theorem writes44 : (hostOps0_26 : List (HloOp τ sig (Elt F))).Forall fun op => op.writes ⊆ (W44.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev W45 : List (Ref sig .tc) := [main_v259, main_v260, main_cst_72, main_v261, main_cst_73, main_v262, main_v263, main_cst_74, main_v264, main_v265, main_v266, main_v267, main_v268, main_v269]
theorem writes45 : (hostOps0_27 : List (HloOp τ sig (Elt F))).Forall fun op => op.writes ⊆ (W45.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-! ## The contents after the stretches, one by one -/

def X0 (V : Valuation τ sig (Elt F)) : Valuation τ sig (Elt F) := after hostOps0 V
theorem keep0 (V : Valuation τ sig (Elt F)) (r : Ref sig .tc) (h : r ∉ W0) : X0 V (no_index (Proc.devRef .tc r)) = V (Proc.devRef .tc r) :=
  after_of_writes_sub hostOps0 _ writes0 h

def X1 (V : Valuation τ sig (Elt F)) : Valuation τ sig (Elt F) := after hostOps0_1 (X0 V)
theorem keep1 (V : Valuation τ sig (Elt F)) (r : Ref sig .tc) (h : r ∉ W1) : X1 V (no_index (Proc.devRef .tc r)) = X0 V (Proc.devRef .tc r) :=
  after_of_writes_sub hostOps0_1 _ writes1 h

def X2 (V : Valuation τ sig (Elt F)) : Valuation τ sig (Elt F) := after hostOps0_2 (X1 V)
theorem keep2 (V : Valuation τ sig (Elt F)) (r : Ref sig .tc) (h : r ∉ W2) : X2 V (no_index (Proc.devRef .tc r)) = X1 V (Proc.devRef .tc r) :=
  after_of_writes_sub hostOps0_2 _ writes2 h

def X3 (V : Valuation τ sig (Elt F)) : Valuation τ sig (Elt F) := after hostOps0_3 (X2 V)
theorem keep3 (V : Valuation τ sig (Elt F)) (r : Ref sig .tc) (h : r ∉ W3) : X3 V (no_index (Proc.devRef .tc r)) = X2 V (Proc.devRef .tc r) :=
  after_of_writes_sub hostOps0_3 _ writes3 h

def X4 (V : Valuation τ sig (Elt F)) : Valuation τ sig (Elt F) := after ks4_0 (X3 V)
theorem keep4 (V : Valuation τ sig (Elt F)) (r : Ref sig .tc) (h : r ∉ W4) : X4 V (no_index (Proc.devRef .tc r)) = X3 V (Proc.devRef .tc r) :=
  after_of_writes_sub ks4_0 _ writes4 h

def X5 (V : Valuation τ sig (Elt F)) : Valuation τ sig (Elt F) := after ks4_1 (X4 V)
theorem keep5 (V : Valuation τ sig (Elt F)) (r : Ref sig .tc) (h : r ∉ W5) : X5 V (no_index (Proc.devRef .tc r)) = X4 V (Proc.devRef .tc r) :=
  after_of_writes_sub ks4_1 _ writes5 h

def X6 (V : Valuation τ sig (Elt F)) : Valuation τ sig (Elt F) := after ks4_2 (X5 V)
theorem keep6 (V : Valuation τ sig (Elt F)) (r : Ref sig .tc) (h : r ∉ W6) : X6 V (no_index (Proc.devRef .tc r)) = X5 V (Proc.devRef .tc r) :=
  after_of_writes_sub ks4_2 _ writes6 h

def X7 (V : Valuation τ sig (Elt F)) : Valuation τ sig (Elt F) := after ks5_0 (X6 V)
theorem keep7 (V : Valuation τ sig (Elt F)) (r : Ref sig .tc) (h : r ∉ W7) : X7 V (no_index (Proc.devRef .tc r)) = X6 V (Proc.devRef .tc r) :=
  after_of_writes_sub ks5_0 _ writes7 h

def X8 (V : Valuation τ sig (Elt F)) : Valuation τ sig (Elt F) := after ks5_1 (X7 V)
theorem keep8 (V : Valuation τ sig (Elt F)) (r : Ref sig .tc) (h : r ∉ W8) : X8 V (no_index (Proc.devRef .tc r)) = X7 V (Proc.devRef .tc r) :=
  after_of_writes_sub ks5_1 _ writes8 h

def X9 (V : Valuation τ sig (Elt F)) : Valuation τ sig (Elt F) := after ks5_2 (X8 V)
theorem keep9 (V : Valuation τ sig (Elt F)) (r : Ref sig .tc) (h : r ∉ W9) : X9 V (no_index (Proc.devRef .tc r)) = X8 V (Proc.devRef .tc r) :=
  after_of_writes_sub ks5_2 _ writes9 h

def X10 (V : Valuation τ sig (Elt F)) : Valuation τ sig (Elt F) := after ks5_3 (X9 V)
theorem keep10 (V : Valuation τ sig (Elt F)) (r : Ref sig .tc) (h : r ∉ W10) : X10 V (no_index (Proc.devRef .tc r)) = X9 V (Proc.devRef .tc r) :=
  after_of_writes_sub ks5_3 _ writes10 h

def X11 (V : Valuation τ sig (Elt F)) : Valuation τ sig (Elt F) := after ks6_0 (X10 V)
theorem keep11 (V : Valuation τ sig (Elt F)) (r : Ref sig .tc) (h : r ∉ W11) : X11 V (no_index (Proc.devRef .tc r)) = X10 V (Proc.devRef .tc r) :=
  after_of_writes_sub ks6_0 _ writes11 h

def X12 (V : Valuation τ sig (Elt F)) : Valuation τ sig (Elt F) := after ks6_1 (X11 V)
theorem keep12 (V : Valuation τ sig (Elt F)) (r : Ref sig .tc) (h : r ∉ W12) : X12 V (no_index (Proc.devRef .tc r)) = X11 V (Proc.devRef .tc r) :=
  after_of_writes_sub ks6_1 _ writes12 h

def X13 (V : Valuation τ sig (Elt F)) : Valuation τ sig (Elt F) := after hostOps0_7 (X12 V)
theorem keep13 (V : Valuation τ sig (Elt F)) (r : Ref sig .tc) (h : r ∉ W13) : X13 V (no_index (Proc.devRef .tc r)) = X12 V (Proc.devRef .tc r) :=
  after_of_writes_sub hostOps0_7 _ writes13 h

def X14 (V : Valuation τ sig (Elt F)) : Valuation τ sig (Elt F) := after hostOps0_8 (X13 V)
theorem keep14 (V : Valuation τ sig (Elt F)) (r : Ref sig .tc) (h : r ∉ W14) : X14 V (no_index (Proc.devRef .tc r)) = X13 V (Proc.devRef .tc r) :=
  after_of_writes_sub hostOps0_8 _ writes14 h

def X15 (V : Valuation τ sig (Elt F)) : Valuation τ sig (Elt F) := after hostOps0_9 (X14 V)
theorem keep15 (V : Valuation τ sig (Elt F)) (r : Ref sig .tc) (h : r ∉ W15) : X15 V (no_index (Proc.devRef .tc r)) = X14 V (Proc.devRef .tc r) :=
  after_of_writes_sub hostOps0_9 _ writes15 h

def X16 (V : Valuation τ sig (Elt F)) : Valuation τ sig (Elt F) := after hostOps0_10 (X15 V)
theorem keep16 (V : Valuation τ sig (Elt F)) (r : Ref sig .tc) (h : r ∉ W16) : X16 V (no_index (Proc.devRef .tc r)) = X15 V (Proc.devRef .tc r) :=
  after_of_writes_sub hostOps0_10 _ writes16 h

def X17 (V : Valuation τ sig (Elt F)) : Valuation τ sig (Elt F) := after hostOps0_11 (X16 V)
theorem keep17 (V : Valuation τ sig (Elt F)) (r : Ref sig .tc) (h : r ∉ W17) : X17 V (no_index (Proc.devRef .tc r)) = X16 V (Proc.devRef .tc r) :=
  after_of_writes_sub hostOps0_11 _ writes17 h

def X18 (V : Valuation τ sig (Elt F)) : Valuation τ sig (Elt F) := after hostOps0_12 (X17 V)
theorem keep18 (V : Valuation τ sig (Elt F)) (r : Ref sig .tc) (h : r ∉ W18) : X18 V (no_index (Proc.devRef .tc r)) = X17 V (Proc.devRef .tc r) :=
  after_of_writes_sub hostOps0_12 _ writes18 h

def X19 (V : Valuation τ sig (Elt F)) : Valuation τ sig (Elt F) := after ks13_0 (X18 V)
theorem keep19 (V : Valuation τ sig (Elt F)) (r : Ref sig .tc) (h : r ∉ W19) : X19 V (no_index (Proc.devRef .tc r)) = X18 V (Proc.devRef .tc r) :=
  after_of_writes_sub ks13_0 _ writes19 h

def X20 (V : Valuation τ sig (Elt F)) : Valuation τ sig (Elt F) := after ks13_1 (X19 V)
theorem keep20 (V : Valuation τ sig (Elt F)) (r : Ref sig .tc) (h : r ∉ W20) : X20 V (no_index (Proc.devRef .tc r)) = X19 V (Proc.devRef .tc r) :=
  after_of_writes_sub ks13_1 _ writes20 h

def X21 (V : Valuation τ sig (Elt F)) : Valuation τ sig (Elt F) := after ks13_2 (X20 V)
theorem keep21 (V : Valuation τ sig (Elt F)) (r : Ref sig .tc) (h : r ∉ W21) : X21 V (no_index (Proc.devRef .tc r)) = X20 V (Proc.devRef .tc r) :=
  after_of_writes_sub ks13_2 _ writes21 h

def X22 (V : Valuation τ sig (Elt F)) : Valuation τ sig (Elt F) := after ks14_0 (X21 V)
theorem keep22 (V : Valuation τ sig (Elt F)) (r : Ref sig .tc) (h : r ∉ W22) : X22 V (no_index (Proc.devRef .tc r)) = X21 V (Proc.devRef .tc r) :=
  after_of_writes_sub ks14_0 _ writes22 h

def X23 (V : Valuation τ sig (Elt F)) : Valuation τ sig (Elt F) := after ks14_1 (X22 V)
theorem keep23 (V : Valuation τ sig (Elt F)) (r : Ref sig .tc) (h : r ∉ W23) : X23 V (no_index (Proc.devRef .tc r)) = X22 V (Proc.devRef .tc r) :=
  after_of_writes_sub ks14_1 _ writes23 h

def X24 (V : Valuation τ sig (Elt F)) : Valuation τ sig (Elt F) := after ks14_2 (X23 V)
theorem keep24 (V : Valuation τ sig (Elt F)) (r : Ref sig .tc) (h : r ∉ W24) : X24 V (no_index (Proc.devRef .tc r)) = X23 V (Proc.devRef .tc r) :=
  after_of_writes_sub ks14_2 _ writes24 h

def X25 (V : Valuation τ sig (Elt F)) : Valuation τ sig (Elt F) := after ks14_3 (X24 V)
theorem keep25 (V : Valuation τ sig (Elt F)) (r : Ref sig .tc) (h : r ∉ W25) : X25 V (no_index (Proc.devRef .tc r)) = X24 V (Proc.devRef .tc r) :=
  after_of_writes_sub ks14_3 _ writes25 h

def X26 (V : Valuation τ sig (Elt F)) : Valuation τ sig (Elt F) := after ks15_0 (X25 V)
theorem keep26 (V : Valuation τ sig (Elt F)) (r : Ref sig .tc) (h : r ∉ W26) : X26 V (no_index (Proc.devRef .tc r)) = X25 V (Proc.devRef .tc r) :=
  after_of_writes_sub ks15_0 _ writes26 h

def X27 (V : Valuation τ sig (Elt F)) : Valuation τ sig (Elt F) := after ks15_1 (X26 V)
theorem keep27 (V : Valuation τ sig (Elt F)) (r : Ref sig .tc) (h : r ∉ W27) : X27 V (no_index (Proc.devRef .tc r)) = X26 V (Proc.devRef .tc r) :=
  after_of_writes_sub ks15_1 _ writes27 h

def X28 (V : Valuation τ sig (Elt F)) : Valuation τ sig (Elt F) := after hostOps0_16 (X27 V)
theorem keep28 (V : Valuation τ sig (Elt F)) (r : Ref sig .tc) (h : r ∉ W28) : X28 V (no_index (Proc.devRef .tc r)) = X27 V (Proc.devRef .tc r) :=
  after_of_writes_sub hostOps0_16 _ writes28 h

def X29 (V : Valuation τ sig (Elt F)) : Valuation τ sig (Elt F) := after hostOps0_17 (X28 V)
theorem keep29 (V : Valuation τ sig (Elt F)) (r : Ref sig .tc) (h : r ∉ W29) : X29 V (no_index (Proc.devRef .tc r)) = X28 V (Proc.devRef .tc r) :=
  after_of_writes_sub hostOps0_17 _ writes29 h

def X30 (V : Valuation τ sig (Elt F)) : Valuation τ sig (Elt F) := after hostOps0_18 (X29 V)
theorem keep30 (V : Valuation τ sig (Elt F)) (r : Ref sig .tc) (h : r ∉ W30) : X30 V (no_index (Proc.devRef .tc r)) = X29 V (Proc.devRef .tc r) :=
  after_of_writes_sub hostOps0_18 _ writes30 h

def X31 (V : Valuation τ sig (Elt F)) : Valuation τ sig (Elt F) := after hostOps0_19 (X30 V)
theorem keep31 (V : Valuation τ sig (Elt F)) (r : Ref sig .tc) (h : r ∉ W31) : X31 V (no_index (Proc.devRef .tc r)) = X30 V (Proc.devRef .tc r) :=
  after_of_writes_sub hostOps0_19 _ writes31 h

def X32 (V : Valuation τ sig (Elt F)) : Valuation τ sig (Elt F) := after hostOps0_20 (X31 V)
theorem keep32 (V : Valuation τ sig (Elt F)) (r : Ref sig .tc) (h : r ∉ W32) : X32 V (no_index (Proc.devRef .tc r)) = X31 V (Proc.devRef .tc r) :=
  after_of_writes_sub hostOps0_20 _ writes32 h

def X33 (V : Valuation τ sig (Elt F)) : Valuation τ sig (Elt F) := after hostOps0_21 (X32 V)
theorem keep33 (V : Valuation τ sig (Elt F)) (r : Ref sig .tc) (h : r ∉ W33) : X33 V (no_index (Proc.devRef .tc r)) = X32 V (Proc.devRef .tc r) :=
  after_of_writes_sub hostOps0_21 _ writes33 h

def X34 (V : Valuation τ sig (Elt F)) : Valuation τ sig (Elt F) := after ks22_0 (X33 V)
theorem keep34 (V : Valuation τ sig (Elt F)) (r : Ref sig .tc) (h : r ∉ W34) : X34 V (no_index (Proc.devRef .tc r)) = X33 V (Proc.devRef .tc r) :=
  after_of_writes_sub ks22_0 _ writes34 h

def X35 (V : Valuation τ sig (Elt F)) : Valuation τ sig (Elt F) := after ks22_1 (X34 V)
theorem keep35 (V : Valuation τ sig (Elt F)) (r : Ref sig .tc) (h : r ∉ W35) : X35 V (no_index (Proc.devRef .tc r)) = X34 V (Proc.devRef .tc r) :=
  after_of_writes_sub ks22_1 _ writes35 h

def X36 (V : Valuation τ sig (Elt F)) : Valuation τ sig (Elt F) := after ks22_2 (X35 V)
theorem keep36 (V : Valuation τ sig (Elt F)) (r : Ref sig .tc) (h : r ∉ W36) : X36 V (no_index (Proc.devRef .tc r)) = X35 V (Proc.devRef .tc r) :=
  after_of_writes_sub ks22_2 _ writes36 h

def X37 (V : Valuation τ sig (Elt F)) : Valuation τ sig (Elt F) := after ks23_0 (X36 V)
theorem keep37 (V : Valuation τ sig (Elt F)) (r : Ref sig .tc) (h : r ∉ W37) : X37 V (no_index (Proc.devRef .tc r)) = X36 V (Proc.devRef .tc r) :=
  after_of_writes_sub ks23_0 _ writes37 h

def X38 (V : Valuation τ sig (Elt F)) : Valuation τ sig (Elt F) := after ks23_1 (X37 V)
theorem keep38 (V : Valuation τ sig (Elt F)) (r : Ref sig .tc) (h : r ∉ W38) : X38 V (no_index (Proc.devRef .tc r)) = X37 V (Proc.devRef .tc r) :=
  after_of_writes_sub ks23_1 _ writes38 h

def X39 (V : Valuation τ sig (Elt F)) : Valuation τ sig (Elt F) := after ks23_2 (X38 V)
theorem keep39 (V : Valuation τ sig (Elt F)) (r : Ref sig .tc) (h : r ∉ W39) : X39 V (no_index (Proc.devRef .tc r)) = X38 V (Proc.devRef .tc r) :=
  after_of_writes_sub ks23_2 _ writes39 h

def X40 (V : Valuation τ sig (Elt F)) : Valuation τ sig (Elt F) := after ks23_3 (X39 V)
theorem keep40 (V : Valuation τ sig (Elt F)) (r : Ref sig .tc) (h : r ∉ W40) : X40 V (no_index (Proc.devRef .tc r)) = X39 V (Proc.devRef .tc r) :=
  after_of_writes_sub ks23_3 _ writes40 h

def X41 (V : Valuation τ sig (Elt F)) : Valuation τ sig (Elt F) := after ks24_0 (X40 V)
theorem keep41 (V : Valuation τ sig (Elt F)) (r : Ref sig .tc) (h : r ∉ W41) : X41 V (no_index (Proc.devRef .tc r)) = X40 V (Proc.devRef .tc r) :=
  after_of_writes_sub ks24_0 _ writes41 h

def X42 (V : Valuation τ sig (Elt F)) : Valuation τ sig (Elt F) := after ks24_1 (X41 V)
theorem keep42 (V : Valuation τ sig (Elt F)) (r : Ref sig .tc) (h : r ∉ W42) : X42 V (no_index (Proc.devRef .tc r)) = X41 V (Proc.devRef .tc r) :=
  after_of_writes_sub ks24_1 _ writes42 h

def X43 (V : Valuation τ sig (Elt F)) : Valuation τ sig (Elt F) := after hostOps0_25 (X42 V)
theorem keep43 (V : Valuation τ sig (Elt F)) (r : Ref sig .tc) (h : r ∉ W43) : X43 V (no_index (Proc.devRef .tc r)) = X42 V (Proc.devRef .tc r) :=
  after_of_writes_sub hostOps0_25 _ writes43 h

def X44 (V : Valuation τ sig (Elt F)) : Valuation τ sig (Elt F) := after hostOps0_26 (X43 V)
theorem keep44 (V : Valuation τ sig (Elt F)) (r : Ref sig .tc) (h : r ∉ W44) : X44 V (no_index (Proc.devRef .tc r)) = X43 V (Proc.devRef .tc r) :=
  after_of_writes_sub hostOps0_26 _ writes44 h

def X45 (V : Valuation τ sig (Elt F)) : Valuation τ sig (Elt F) := after hostOps0_27 (X44 V)
theorem keep45 (V : Valuation τ sig (Elt F)) (r : Ref sig .tc) (h : r ∉ W45) : X45 V (no_index (Proc.devRef .tc r)) = X44 V (Proc.devRef .tc r) :=
  after_of_writes_sub hostOps0_27 _ writes45 h

/-- The buffer contents when the region is entered: after the last stretch. -/
abbrev XLast (V : Valuation τ sig (Elt F)) : Valuation τ sig (Elt F) := X45 V

/-- All the stretches in a row leave the contents after the last one. -/
theorem prefix_eq (V : Valuation τ sig (Elt F)) :
    after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]) V = X45 V := by
  simp only [after_flatten_cons, after_flatten_nil, split4, split5, split6, split13, split14, split15, split22, split23, split24, after_append]; rfl

end Cert.KernelIdeal.Seg

end
-- ==== Proof.Assemble.lean ====
import proofs.«153486_j83854941487213_2_alg».proof.Defs
import proofs.«153486_j83854941487213_2_alg».proof.Proof.KIValue
import proofs.«153486_j83854941487213_2_alg».proof.Proof.KFrame
import proofs.«153486_j83854941487213_2_alg».proof.Proof.KSegs
import proofs.«153486_j83854941487213_2_alg».proof.Proof.RefReadP
import proofs.«153486_j83854941487213_2_alg».proof.Proof.Gen.Pre_finite_inputs

/-! # The claims assembled

The kernel's program returns the closing stretch of host operations applied to three scalars: two sums the host prefix
computed and the scalar the region's one store left. The reference program returns the same three-term weighted sum of
its own three scalars. Given that the three scalars agree pairwise — as functions of the five argument arrays — and given
the reference program's run, this module derives the five claims: the three frames, the idealization ledger, and the
equality of the two programs' results at the ideal instance. -/

noncomputable section

namespace Cert.Proof.Asm

open Idealize.ShloMosaic Idealize.ShloMosaic.TcCoe Idealize.SL.Sem
open Cert.KernelIdeal.HF (tailK outK V V0)
open Cert.KernelIdeal.Gen (k0_pay1 k0_pay2 k0_pay3 k0_pay4)

/-- The reference program's run: it terminates with its result at the last stage's value of the launch contents of the
    five arguments, the arguments unchanged. -/
abbrev RefRun : Prop :=
  ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v424) = Cert.ReferenceIdeal.Read.val_main_v424 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

/-- The kernel's first host sum is the reference's box-loss total. -/
abbrev HostSum1 : Prop :=
  ∀ V : Valuation Cert.KernelIdeal.τ Cert.KernelIdeal.sig (Elt Ideal),
    Cert.KernelIdeal.Seg.XLast (F := Ideal) V (Proc.devRef .tc Cert.KernelIdeal.main_v265) = Cert.ReferenceIdeal.Read.val_main_v414 (F := Ideal) (V (Proc.devRef .tc Cert.KernelIdeal.main_arg0)) (V (Proc.devRef .tc Cert.KernelIdeal.main_arg1)) (V (Proc.devRef .tc Cert.KernelIdeal.main_arg2)) (V (Proc.devRef .tc Cert.KernelIdeal.main_arg3))
/-- The kernel's second host sum is the reference's class-loss total. -/
abbrev HostSum2 : Prop :=
  ∀ V : Valuation Cert.KernelIdeal.τ Cert.KernelIdeal.sig (Elt Ideal),
    Cert.KernelIdeal.Seg.XLast (F := Ideal) V (Proc.devRef .tc Cert.KernelIdeal.main_v266) = Cert.ReferenceIdeal.Read.val_main_v416 (F := Ideal) (V (Proc.devRef .tc Cert.KernelIdeal.main_arg0)) (V (Proc.devRef .tc Cert.KernelIdeal.main_arg1)) (V (Proc.devRef .tc Cert.KernelIdeal.main_arg2)) (V (Proc.devRef .tc Cert.KernelIdeal.main_arg3)) (V (Proc.devRef .tc Cert.KernelIdeal.main_arg4))
/-- The scalar the region's store leaves, from the six arrays the host prefix hands the region, is the reference's
    objectness-loss total. -/
abbrev RegionSum : Prop :=
  ∀ V : Valuation Cert.KernelIdeal.τ Cert.KernelIdeal.sig (Elt Ideal),
    shapeCast Cert.KernelIdeal.S_ (k0_pay1 (F := Ideal)
        (k0_pay2 (Cert.KernelIdeal.Seg.XLast (F := Ideal) V (Proc.devRef .tc Cert.KernelIdeal.main_v88)) (Cert.KernelIdeal.Seg.XLast (F := Ideal) V (Proc.devRef .tc Cert.KernelIdeal.main_v89)))
        (k0_pay3 (Cert.KernelIdeal.Seg.XLast (F := Ideal) V (Proc.devRef .tc Cert.KernelIdeal.main_v178))) (k0_pay4 (Cert.KernelIdeal.Seg.XLast (F := Ideal) V (Proc.devRef .tc Cert.KernelIdeal.main_v179)))
        (Cert.KernelIdeal.Seg.XLast (F := Ideal) V (Proc.devRef .tc Cert.KernelIdeal.main_v268)) (Cert.KernelIdeal.Seg.XLast (F := Ideal) V (Proc.devRef .tc Cert.KernelIdeal.main_v269))) Cert.KernelIdeal.Gen.shapeCasts_S1x1_S_
      = Cert.ReferenceIdeal.Read.val_main_v415 (F := Ideal) (V (Proc.devRef .tc Cert.KernelIdeal.main_arg0)) (V (Proc.devRef .tc Cert.KernelIdeal.main_arg1)) (V (Proc.devRef .tc Cert.KernelIdeal.main_arg2)) (V (Proc.devRef .tc Cert.KernelIdeal.main_arg3))

/-- The kernel program's result is the reference's last stage of the argument arrays' launch contents: both are the same
    weighted sum (weights 7.5, 1 and 0.5, each term over three) of scalars that agree pairwise. -/
theorem kernel_result (hK1 : HostSum1) (hK2 : HostSum2) (hK3 : RegionSum) (m : (ℓ : Loc Cert.KernelIdeal.nD Cert.KernelIdeal.τ Cert.KernelIdeal.sig) → Buf (Elt Ideal) ℓ) (c : Dev Cert.KernelIdeal.nD) :
    tailK (V m c Cert.KernelIdeal.main_v265) (V m c Cert.KernelIdeal.main_v266) (outK m c)
      = Cert.ReferenceIdeal.Read.val_main_v424 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  have hV : V0 m c = Cert.KernelIdeal.Seg.XLast (F := Ideal) (fun b => m (c, b)) := Cert.KernelIdeal.Seg.prefix_eq _
  have e : ∀ r : Ref Cert.KernelIdeal.sig .tc, V m c r = Cert.KernelIdeal.Seg.XLast (F := Ideal) (fun b => m (c, b)) (Proc.devRef .tc r) := fun r => congrFun hV (Proc.devRef .tc r)
  unfold tailK outK
  rw [e, e, e, e, e, e, e, e]
  rw [hK1, hK2, hK3]
  rfl

/-- The two programs at the ideal instance, from memories agreeing on the arguments, end with equal results and unchanged
    arguments. -/
theorem algebraic (hK1 : HostSum1) (hK2 : HostSum2) (hK3 : RegionSum) (hR : RefRun) : Cert.algebraic_KernelIdeal_ReferenceIdeal := by
  intro m ρ m' ρ' _ hagree
  refine ⟨fun c => Cert.ReferenceIdeal.Read.val_main_v424 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run _ _ _).mono (fun _ h c => ⟨(h c).1.trans (kernel_result hK1 hK2 hK3 m c), (h c).2⟩)
      (Cert.KernelIdeal.HF.run_value (F := Ideal) m ρ)
  · refine (θ_run _ _ _).mono (fun _ h c => ⟨?_, (h c).2⟩) (hR m' ρ')
    rw [(h c).1, (hagree c).1, (hagree c).2.1, (hagree c).2.2.1, (hagree c).2.2.2.1, (hagree c).2.2.2.2]

/-- The word-level kernel program runs and leaves its arguments unchanged. -/
theorem frame_k : Cert.frame_Kernel := fun m ρ _ => Cert.Kernel.HF.frame (F := Bits) m ρ
/-- So does its idealization. -/
theorem frame_ki : Cert.frame_KernelIdeal := fun m ρ _ => Cert.KernelIdeal.HF.frame (F := Ideal) m ρ
/-- And the reference program, given its run. -/
theorem frame_ri (hR : RefRun) : Cert.frame_ReferenceIdeal := fun m ρ _ =>
  (θ_run _ _ _).mono (fun _ h c => (h c).2) (hR m ρ)

/-- The idealization replaced three scalar constants by the reciprocals they round: 1/102400, 1/25600 and 1/6400. -/
theorem preserves : Cert.preserves_Kernel_KernelIdeal :=
  ⟨IdealRules.named_const.statement Cert.KernelIdeal.κ "inv_102400" .f32 0x3723D70A#32 ((1 / 102400 : ℝ) : EReal) rfl,
   IdealRules.named_const.statement Cert.KernelIdeal.κ "inv_25600" .f32 0x3823D70A#32 ((1 / 25600 : ℝ) : EReal) rfl,
   IdealRules.named_const.statement Cert.KernelIdeal.κ "inv_6400" .f32 0x3923D70A#32 ((1 / 6400 : ℝ) : EReal) rfl⟩

/-- Everything the certificate claims, from the three agreements and the reference program's run. -/
theorem claim_of (hK1 : HostSum1) (hK2 : HostSum2) (hK3 : RegionSum) (hR : RefRun) : Cert.Claim :=
  ⟨Cert.Kernel.Gen.facts, Cert.KernelIdeal.Gen.facts, Cert.ReferenceIdeal.Gen.facts, Cert.Pre_finite_inputs.Gen.facts,
    frame_k, frame_ki, frame_ri hR, preserves, algebraic hK1 hK2 hK3 hR⟩

end Cert.Proof.Asm

end
-- ==== Proof.LibGatherCells.lean ====
/-
  Reading two forms of `stablehlo.gather` at an index, for any extents: the gather with two leading batching axes
  that `take_along_axis` on the last axis lowers to, and the gather that collapses the three leading operand axes and
  keeps the fourth whole, which indexing `x[b, r, c]` with three integer arrays lowers to. Each result element is the
  operand at the start index read signed and clamped into range.
-/
import Idealize.ShloMosaic.Lib.ValueIdx
import Idealize.ShloMosaic.Lib.Pipeline.Value

noncomputable section

namespace Cert.LibGatherCells

open Idealize.ShloMosaic Idealize.ShloMosaic.ValueIdx

variable {α : Type}

/-- The dimension numbers of a gather along the last axis of an operand `[B, C, N]` whose two leading axes are
    batching axes, at start indices `[B, C, M, 1]`, with result `[B, C, M]`. -/
abbrev batchedDims (B C N M : Nat)
    (wf : GatherDims.WF ⟨3, ![B, C, N]⟩ ⟨4, ![B, C, M, 1]⟩ ⟨3, ![B, C, M]⟩ [] [2] [0, 1] [2] [0, 1] 3 ![1, 1, 1]) :
    GatherDims ⟨3, ![B, C, N]⟩ ⟨4, ![B, C, M, 1]⟩ ⟨3, ![B, C, M]⟩ where
  offsetDims := []
  collapsedSliceDims := [2]
  operandBatchingDims := [0, 1]
  startIndicesBatchingDims := [0, 1]
  startIndexMap := [2]
  indexVectorDim := 3
  sliceSizes := ![1, 1, 1]
  wf := wf

/-- The batched gather read at `(b, c, m)`: the operand's row `(b, c)` at the start index `idx[b, c, m, 0]`, read
    signed and clamped into `[0, N − 1]`. -/
theorem gather_batched_apply {B C N M w : Nat} (hN : 0 < N)
    (wf : GatherDims.WF ⟨3, ![B, C, N]⟩ ⟨4, ![B, C, M, 1]⟩ ⟨3, ![B, C, M]⟩ [] [2] [0, 1] [2] [0, 1] 3 ![1, 1, 1])
    (x : (⟨3, ![B, C, N]⟩ : Shape).Idx → α) (idx : IVec ⟨4, ![B, C, M, 1]⟩ w) (b : Fin B) (c : Fin C) (m : Fin M) :
    Host.gather (batchedDims B C N M wf) x idx (ix3 b c m)
      = x (ix3 b c ⟨min (idx (ix4 b c m ⟨0, Nat.one_pos⟩)).toInt.toNat (N - 1), by omega⟩) := by
  unfold Host.gather
  congr 1
  funext a
  refine Fin.ext ?_
  show (batchedDims B C N M wf).start (ix3 b c m) idx a + (batchedDims B C N M wf).batchCoord (ix3 b c m) a
    + (batchedDims B C N M wf).offCoord (ix3 b c m) a = _
  have h0 : (batchedDims B C N M wf).start (ix3 b c m) idx (0 : Fin 3) + (batchedDims B C N M wf).batchCoord (ix3 b c m) (0 : Fin 3)
      + (batchedDims B C N M wf).offCoord (ix3 b c m) (0 : Fin 3) = b.val := by
    rw [GatherDims.start_batching _ _ _ _ (show (0 : Fin 3) ∈ ([0, 1] : List (Fin 3)) by decide),
      GatherDims.offCoord_eq_zero _ _ _ (fun h => ((GatherDims.mem_sKept _ _).mp h).2 (show (0 : Fin 3) ∈ ([0, 1] : List (Fin 3)) by decide))]
    simp only [Nat.zero_add, Nat.add_zero]
    rfl
  have h1 : (batchedDims B C N M wf).start (ix3 b c m) idx (1 : Fin 3) + (batchedDims B C N M wf).batchCoord (ix3 b c m) (1 : Fin 3)
      + (batchedDims B C N M wf).offCoord (ix3 b c m) (1 : Fin 3) = c.val := by
    rw [GatherDims.start_batching _ _ _ _ (show (1 : Fin 3) ∈ ([0, 1] : List (Fin 3)) by decide),
      GatherDims.offCoord_eq_zero _ _ _ (fun h => ((GatherDims.mem_sKept _ _).mp h).2 (show (1 : Fin 3) ∈ ([0, 1] : List (Fin 3)) by decide))]
    simp only [Nat.zero_add, Nat.add_zero]
    rfl
  have h2 : (batchedDims B C N M wf).start (ix3 b c m) idx (2 : Fin 3) + (batchedDims B C N M wf).batchCoord (ix3 b c m) (2 : Fin 3)
      + (batchedDims B C N M wf).offCoord (ix3 b c m) (2 : Fin 3) = min (idx (ix4 b c m ⟨0, Nat.one_pos⟩)).toInt.toNat (N - 1) := by
    rw [GatherDims.batchCoord_eq_zero _ _ _ (show (2 : Fin 3) ∉ ([0, 1] : List (Fin 3)) by decide),
      GatherDims.offCoord_eq_zero _ _ _ (fun h => ((GatherDims.mem_sKept _ _).mp h).1 (show (2 : Fin 3) ∈ ([2] : List (Fin 3)) by decide))]
    simp only [Nat.add_zero]
    unfold GatherDims.start
    rw [dif_pos (show (2 : Fin 3) ∈ (batchedDims B C N M wf).startIndexMap from List.mem_singleton.mpr rfl)]
    have hsi : (batchedDims B C N M wf).siIdx (ix3 b c m) ⟨List.idxOf (2 : Fin 3) (batchedDims B C N M wf).startIndexMap,
        List.idxOf_lt_length_iff.2 (List.mem_singleton.mpr rfl)⟩ = ix4 b c m ⟨0, Nat.one_pos⟩ := by
      funext e; refine Fin.ext ?_
      match e with
      | ⟨0, _⟩ => rfl
      | ⟨1, _⟩ => rfl
      | ⟨2, _⟩ => rfl
      | ⟨3, _⟩ => rfl
    rw [hsi]
    rfl
  match a with
  | ⟨0, _⟩ => exact h0
  | ⟨1, _⟩ => exact h1
  | ⟨2, _⟩ => exact h2

/-- The dimension numbers of a gather from an operand `[B, H, W, K]` that collapses its three leading axes — a start
    index names one cell `(b, r, c)` — and keeps the fourth axis whole, at start indices `[B', M, 3]`, with result
    `[B', M, K]`. -/
abbrev cellDims (B H W K B' M : Nat)
    (wf : GatherDims.WF ⟨4, ![B, H, W, K]⟩ ⟨3, ![B', M, 3]⟩ ⟨3, ![B', M, K]⟩ [2] [0, 1, 2] [] [0, 1, 2] [] 2 ![1, 1, 1, K]) :
    GatherDims ⟨4, ![B, H, W, K]⟩ ⟨3, ![B', M, 3]⟩ ⟨3, ![B', M, K]⟩ where
  offsetDims := [2]
  collapsedSliceDims := [0, 1, 2]
  operandBatchingDims := []
  startIndicesBatchingDims := []
  startIndexMap := [0, 1, 2]
  indexVectorDim := 2
  sliceSizes := ![1, 1, 1, K]
  wf := wf

/-- The cell gather read at `(b, m, k)`: the operand at the cell whose three coordinates are the start index
    `idx[b, m, 0..2]`, each read signed and clamped into its axis, at channel `k`. -/
theorem gather_cell_apply {B H W K B' M w : Nat} (hB : 0 < B) (hH : 0 < H) (hW : 0 < W)
    (wf : GatherDims.WF ⟨4, ![B, H, W, K]⟩ ⟨3, ![B', M, 3]⟩ ⟨3, ![B', M, K]⟩ [2] [0, 1, 2] [] [0, 1, 2] [] 2 ![1, 1, 1, K])
    (x : (⟨4, ![B, H, W, K]⟩ : Shape).Idx → α) (idx : IVec ⟨3, ![B', M, 3]⟩ w) (b : Fin B') (m : Fin M) (k : Fin K) :
    Host.gather (cellDims B H W K B' M wf) x idx (ix3 b m k)
      = x (ix4 ⟨min (idx (ix3 b m ⟨0, by decide⟩)).toInt.toNat (B - 1), by omega⟩
               ⟨min (idx (ix3 b m ⟨1, by decide⟩)).toInt.toNat (H - 1), by omega⟩
               ⟨min (idx (ix3 b m ⟨2, by decide⟩)).toInt.toNat (W - 1), by omega⟩ k) := by
  unfold Host.gather
  congr 1
  funext a
  refine Fin.ext ?_
  show (cellDims B H W K B' M wf).start (ix3 b m k) idx a + (cellDims B H W K B' M wf).batchCoord (ix3 b m k) a
    + (cellDims B H W K B' M wf).offCoord (ix3 b m k) a = _
  have hsi : ∀ (e : Fin 3) (he : e.val < [(0 : Fin 4), 1, 2].length),
      (cellDims B H W K B' M wf).siIdx (ix3 b m k) ⟨e.val, he⟩ = ix3 b m e := by
    intro e he
    funext q; refine Fin.ext ?_
    match q with
    | ⟨0, _⟩ => rfl
    | ⟨1, _⟩ => rfl
    | ⟨2, _⟩ => rfl
  have h0 : (cellDims B H W K B' M wf).start (ix3 b m k) idx (0 : Fin 4) + (cellDims B H W K B' M wf).batchCoord (ix3 b m k) (0 : Fin 4)
      + (cellDims B H W K B' M wf).offCoord (ix3 b m k) (0 : Fin 4) = min (idx (ix3 b m ⟨0, by decide⟩)).toInt.toNat (B - 1) := by
    rw [GatherDims.batchCoord_eq_zero _ _ _ (show (0 : Fin 4) ∉ ([] : List (Fin 4)) from List.not_mem_nil),
      GatherDims.offCoord_eq_zero _ _ _ (fun h => ((GatherDims.mem_sKept _ _).mp h).1 (show (0 : Fin 4) ∈ ([0, 1, 2] : List (Fin 4)) by decide))]
    simp only [Nat.add_zero]
    unfold GatherDims.start
    rw [dif_pos (show (0 : Fin 4) ∈ (cellDims B H W K B' M wf).startIndexMap from (show (0 : Fin 4) ∈ ([0, 1, 2] : List (Fin 4)) by decide))]
    rw [show (cellDims B H W K B' M wf).siIdx (ix3 b m k) ⟨List.idxOf (0 : Fin 4) (cellDims B H W K B' M wf).startIndexMap,
        List.idxOf_lt_length_iff.2 (show (0 : Fin 4) ∈ ([0, 1, 2] : List (Fin 4)) by decide)⟩ = ix3 b m ⟨0, by decide⟩ from hsi ⟨0, by decide⟩ (by decide)]
    rfl
  have h1 : (cellDims B H W K B' M wf).start (ix3 b m k) idx (1 : Fin 4) + (cellDims B H W K B' M wf).batchCoord (ix3 b m k) (1 : Fin 4)
      + (cellDims B H W K B' M wf).offCoord (ix3 b m k) (1 : Fin 4) = min (idx (ix3 b m ⟨1, by decide⟩)).toInt.toNat (H - 1) := by
    rw [GatherDims.batchCoord_eq_zero _ _ _ (show (1 : Fin 4) ∉ ([] : List (Fin 4)) from List.not_mem_nil),
      GatherDims.offCoord_eq_zero _ _ _ (fun h => ((GatherDims.mem_sKept _ _).mp h).1 (show (1 : Fin 4) ∈ ([0, 1, 2] : List (Fin 4)) by decide))]
    simp only [Nat.add_zero]
    unfold GatherDims.start
    rw [dif_pos (show (1 : Fin 4) ∈ (cellDims B H W K B' M wf).startIndexMap from (show (1 : Fin 4) ∈ ([0, 1, 2] : List (Fin 4)) by decide))]
    rw [show (cellDims B H W K B' M wf).siIdx (ix3 b m k) ⟨List.idxOf (1 : Fin 4) (cellDims B H W K B' M wf).startIndexMap,
        List.idxOf_lt_length_iff.2 (show (1 : Fin 4) ∈ ([0, 1, 2] : List (Fin 4)) by decide)⟩ = ix3 b m ⟨1, by decide⟩ from hsi ⟨1, by decide⟩ (by decide)]
    rfl
  have h2 : (cellDims B H W K B' M wf).start (ix3 b m k) idx (2 : Fin 4) + (cellDims B H W K B' M wf).batchCoord (ix3 b m k) (2 : Fin 4)
      + (cellDims B H W K B' M wf).offCoord (ix3 b m k) (2 : Fin 4) = min (idx (ix3 b m ⟨2, by decide⟩)).toInt.toNat (W - 1) := by
    rw [GatherDims.batchCoord_eq_zero _ _ _ (show (2 : Fin 4) ∉ ([] : List (Fin 4)) from List.not_mem_nil),
      GatherDims.offCoord_eq_zero _ _ _ (fun h => ((GatherDims.mem_sKept _ _).mp h).1 (show (2 : Fin 4) ∈ ([0, 1, 2] : List (Fin 4)) by decide))]
    simp only [Nat.add_zero]
    unfold GatherDims.start
    rw [dif_pos (show (2 : Fin 4) ∈ (cellDims B H W K B' M wf).startIndexMap from (show (2 : Fin 4) ∈ ([0, 1, 2] : List (Fin 4)) by decide))]
    rw [show (cellDims B H W K B' M wf).siIdx (ix3 b m k) ⟨List.idxOf (2 : Fin 4) (cellDims B H W K B' M wf).startIndexMap,
        List.idxOf_lt_length_iff.2 (show (2 : Fin 4) ∈ ([0, 1, 2] : List (Fin 4)) by decide)⟩ = ix3 b m ⟨2, by decide⟩ from hsi ⟨2, by decide⟩ (by decide)]
    rfl
  have h3 : (cellDims B H W K B' M wf).start (ix3 b m k) idx (3 : Fin 4) + (cellDims B H W K B' M wf).batchCoord (ix3 b m k) (3 : Fin 4)
      + (cellDims B H W K B' M wf).offCoord (ix3 b m k) (3 : Fin 4) = k.val := by
    rw [GatherDims.batchCoord_eq_zero _ _ _ (show (3 : Fin 4) ∉ ([] : List (Fin 4)) from List.not_mem_nil)]
    unfold GatherDims.start
    rw [dif_neg (show (3 : Fin 4) ∉ (cellDims B H W K B' M wf).startIndexMap from (show (3 : Fin 4) ∉ ([0, 1, 2] : List (Fin 4)) by decide))]
    simp only [Nat.zero_add, Nat.add_zero]
    rfl
  match a with
  | ⟨0, _⟩ => exact h0
  | ⟨1, _⟩ => exact h1
  | ⟨2, _⟩ => exact h2
  | ⟨3, _⟩ => exact h3

/-! ## The in-range mask: a conjunction over a unit axis of bits that are all set -/

/-- A reduction by AND, from the bit `1`, of an array whose every bit is `1` is `1` everywhere. -/
theorem reduce_andi_eq_one {s t u : Shape} {axes : List (Fin s.rank)} (x : IVec s 1) (init : IVec u 1)
    (h : s.ReducesTo axes t) (hu : 0 < u.numel) (hx : ∀ k, x k = 1#1) (hi : ∀ k, init k = 1#1) (j : t.Idx) :
    Host.reduce IntOp.andi x init h hu j = 1#1 := by
  unfold Host.reduce
  rw [hi]
  generalize ((List.finRange s.numel).filter fun n => h.drop (s.rowMajor.symm n) = j) = L
  induction L with
  | nil => rfl
  | cons n L ih =>
    rw [List.foldl_cons, hx]
    exact ih

/-! ## Words: a cell's linear index, and the normalisation of a nonnegative index -/

/-- A 32-bit word read signed as a nonnegative integer is its unsigned value, below `2 ^ 31`. -/
theorem toNat_of_nonneg (v : BitVec 32) (h : 0 ≤ v.toInt) : v.toInt = v.toNat ∧ v.toNat < 2 ^ 31 := by
  have := v.isLt
  rw [BitVec.toInt_eq_toNat_cond] at h ⊢
  split at h <;> omega

/-- A natural number below `2 ^ 31` as a 32-bit word reads back signed as itself. -/
theorem toInt_ofNat_small (n : Nat) (h : n < 2 ^ 31) : (BitVec.ofNat 32 n).toInt = n := by
  rw [BitVec.toInt_eq_toNat_cond, BitVec.toNat_ofNat]
  have : n % 2 ^ 32 = n := Nat.mod_eq_of_lt (by omega)
  rw [this]
  split <;> omega

/-- "Less than zero" is false of a word that reads signed as a nonnegative integer. -/
theorem cmpi_slt_zero (v : BitVec 32) (h : 0 ≤ v.toInt) : IntOp.cmpi .slt v 0#32 = 0#1 := by
  have : v.slt 0#32 = false := by
    simp only [BitVec.slt, BitVec.toInt_zero, decide_eq_false_iff_not, not_lt]; exact h
  show BitVec.ofBool (v.slt 0#32) = 0#1
  rw [this]; rfl

/-- The normalisation of a possibly negative index, `v < 0 ? v + e : v`, is the identity on a nonnegative one. -/
theorem select_slt_zero (v e : BitVec 32) (h : 0 ≤ v.toInt) :
    Scalar.select (IntOp.cmpi .slt v 0#32) (IntOp.addi v e) v = v := by
  rw [cmpi_slt_zero v h]; exact select_zero _ _

/-- THE LINEAR INDEX of the cell in row `gy` and column `gx` of an `H × W` grid, computed in 32-bit words as
    `gy * W + gx`: when the two coordinates are in range and the grid has fewer than `2 ^ 31` cells nothing wraps — the
    word reads signed as `gy * W + gx`, it is not negative, it is at most the last cell's index `L = H * W − 1`, and the
    coordinates read as naturals are below their extents. -/
theorem lin_facts (gy gx : BitVec 32) (W H L : Nat) (hL : L + 1 = H * W) (hHW : H * W < 2 ^ 31)
    (hy : 0 ≤ gy.toInt ∧ gy.toInt < H) (hx : 0 ≤ gx.toInt ∧ gx.toInt < W) :
    IntOp.cmpi .slt (IntOp.addi (IntOp.muli gy (BitVec.ofNat 32 W)) gx) 0#32 = 0#1
    ∧ IntOp.cmpi .sge (IntOp.addi (IntOp.muli gy (BitVec.ofNat 32 W)) gx) 0#32 = 1#1
    ∧ IntOp.cmpi .sle (IntOp.addi (IntOp.muli gy (BitVec.ofNat 32 W)) gx) (BitVec.ofNat 32 L) = 1#1
    ∧ (IntOp.addi (IntOp.muli gy (BitVec.ofNat 32 W)) gx).toInt.toNat = gy.toInt.toNat * W + gx.toInt.toNat
    ∧ gy.toInt.toNat < H ∧ gx.toInt.toNat < W := by
  obtain ⟨ey, hy31⟩ := toNat_of_nonneg gy hy.1
  obtain ⟨ex, hx31⟩ := toNat_of_nonneg gx hx.1
  have hyH : gy.toNat < H := by have := hy.2; omega
  have hxW : gx.toNat < W := by have := hx.2; omega
  have hmul : (gy.toNat + 1) * W ≤ H * W := Nat.mul_le_mul_right W hyH
  rw [Nat.add_mul, Nat.one_mul] at hmul
  have hlt : gy.toNat * W + gx.toNat < H * W := by omega
  have hWlt : W < 2 ^ 32 := by
    rcases Nat.eq_zero_or_pos H with h0 | h0
    · omega
    · have : 1 * W ≤ H * W := Nat.mul_le_mul_right W h0
      omega
  have hnat : (IntOp.addi (IntOp.muli gy (BitVec.ofNat 32 W)) gx).toNat = gy.toNat * W + gx.toNat := by
    show (gy * BitVec.ofNat 32 W + gx).toNat = _
    rw [BitVec.toNat_add, BitVec.toNat_mul, BitVec.toNat_ofNat, Nat.mod_eq_of_lt hWlt, Nat.mod_eq_of_lt (a := gy.toNat * W) (by omega),
      Nat.mod_eq_of_lt (by omega)]
  have hint : (IntOp.addi (IntOp.muli gy (BitVec.ofNat 32 W)) gx).toInt = ((gy.toNat * W + gx.toNat : Nat) : Int) := by
    rw [BitVec.toInt_eq_toNat_cond, hnat]
    split <;> omega
  have hLint : (BitVec.ofNat 32 L).toInt = (L : Int) := toInt_ofNat_small L (by omega)
  refine ⟨cmpi_slt_zero _ (by rw [hint]; omega), ?_, ?_, ?_, ?_, ?_⟩
  · have : (0#32 : BitVec 32).sle (IntOp.addi (IntOp.muli gy (BitVec.ofNat 32 W)) gx) = true := by
      simp only [BitVec.sle, BitVec.toInt_zero, decide_eq_true_eq]; rw [hint]; omega
    show BitVec.ofBool ((0#32 : BitVec 32).sle (IntOp.addi (IntOp.muli gy (BitVec.ofNat 32 W)) gx)) = 1#1
    rw [this]; rfl
  · have : (IntOp.addi (IntOp.muli gy (BitVec.ofNat 32 W)) gx).sle (BitVec.ofNat 32 L) = true := by
      simp only [BitVec.sle, decide_eq_true_eq]; rw [hint, hLint]; omega
    show BitVec.ofBool ((IntOp.addi (IntOp.muli gy (BitVec.ofNat 32 W)) gx).sle (BitVec.ofNat 32 L)) = 1#1
    rw [this]; rfl
  · rw [hint, ey, ex]; simp only [Int.toNat_natCast]
  · rw [ey]; simpa using hyH
  · rw [ex]; simpa using hxW

end Cert.LibGatherCells

end
-- ==== Proof.CellsBridge0.lean ====
/-
  Scale 0 (a 80 × 80 grid of cells): the predictions gathered at the objects' cells are the same arrays in the kernel's
  program and in the reference. The kernel flattens each channel's grid, reads it at the linear index `gy * 80 + gx` by a
  gather along the last axis under an in-range mask, and transposes; the reference moves the channels last and reads the
  cell `(b, gy, gx)` by a gather that collapses the three leading axes. With `0 ≤ gx, gy < 80` the linear index does not
  wrap and is in range, so the mask is set and no clamp moves an index: both read `P[b, k, gy[b,n], gx[b,n]]`.
-/
import proofs.«153486_j83854941487213_2_alg».proof.KernelIdeal
import proofs.«153486_j83854941487213_2_alg».proof.ReferenceIdeal
import proofs.«153486_j83854941487213_2_alg».proof.Proof.LibGatherCells

noncomputable section

namespace Cert.Cells0

open Idealize.ShloMosaic Idealize.ShloMosaic.ValueIdx Cert.LibGatherCells

/-! ## The kernel's route, one definition per printed operation -/

section Kernel
open Cert.KernelIdeal
variable [Cert.KernelIdeal.Facts₀]
open Cert.KernelIdeal.Facts₀

/-- The box channels `P[:, 0:4]`. -/
def kP4 (P : (⟨S16x144x80x80, .f32⟩ : BufTy).Contents (Elt Ideal)) : (⟨S16x4x80x80, .f32⟩ : BufTy).Contents (Elt Ideal) :=
  extractStridedSlice S16x4x80x80 ![0, 0, 0, 0] P slices_S16x144x80x80_S16x4x80x80_0_0_0_0
/-- The class channels `P[:, 64:144]`. -/
def kP80 (P : (⟨S16x144x80x80, .f32⟩ : BufTy).Contents (Elt Ideal)) : (⟨S16x80x80x80, .f32⟩ : BufTy).Contents (Elt Ideal) :=
  extractStridedSlice S16x80x80x80 ![0, 64, 0, 0] P slices_S16x144x80x80_S16x80x80x80_0_64_0_0
/-- The 84 channels the kernel gathers: the 4 box channels, then the 80 class channels. -/
def kPcat (P : (⟨S16x144x80x80, .f32⟩ : BufTy).Contents (Elt Ideal)) : (⟨S16x84x80x80, .f32⟩ : BufTy).Contents (Elt Ideal) :=
  concatenate S16x84x80x80 1 [⟨S16x4x80x80, kP4 P⟩, ⟨S16x80x80x80, kP80 P⟩] concatenates_S16x4x80x80_S16x80x80x80_S16x84x80x80_d1
/-- Each channel's grid flattened row by row. -/
def kPflat (P : (⟨S16x144x80x80, .f32⟩ : BufTy).Contents (Elt Ideal)) : (⟨S16x84x6400, .f32⟩ : BufTy).Contents (Elt Ideal) :=
  shapeCast S16x84x6400 (kPcat P) shapeCasts_S16x84x80x80_S16x84x6400
/-- The linear index of each object's cell, `gy * 80 + gx` in 32-bit words. -/
def kLin (gx gy : (⟨S16x32, .i32⟩ : BufTy).Contents (Elt Ideal)) : (⟨S16x32, .i32⟩ : BufTy).Contents (Elt Ideal) :=
  addi (muli gy (broadcastInDim S16x32 ![] bcast_S_S16x32 (constantI S_ 32 80#32))) gx
/-- The linear index repeated over the 84 channels. -/
def kLin3 (gx gy : (⟨S16x32, .i32⟩ : BufTy).Contents (Elt Ideal)) : (⟨S16x84x32, .i32⟩ : BufTy).Contents (Elt Ideal) :=
  broadcastInDim S16x84x32 ![0, 1, 2] bcast_S16x1x32_S16x84x32_0_1_2
    (broadcastInDim S16x1x32 ![0, 2] bcast_S16x32_S16x1x32_0_2 (kLin gx gy))
/-- "The index is negative". -/
def kNeg (gx gy : (⟨S16x32, .i32⟩ : BufTy).Contents (Elt Ideal)) : (⟨S16x84x32, .i1⟩ : BufTy).Contents (Elt Ideal) :=
  cmpi .slt (kLin3 gx gy) (broadcastInDim S16x84x32 ![] bcast_S_S16x84x32 (constantI S_ 32 0#32))
/-- The index plus the axis length. -/
def kWrap (gx gy : (⟨S16x32, .i32⟩ : BufTy).Contents (Elt Ideal)) : (⟨S16x84x32, .i32⟩ : BufTy).Contents (Elt Ideal) :=
  addi (kLin3 gx gy) (broadcastInDim S16x84x32 ![] bcast_S_S16x84x32 (constantI S_ 32 6400#32))
/-- The index with a negative one counted from the end. -/
def kNorm (gx gy : (⟨S16x32, .i32⟩ : BufTy).Contents (Elt Ideal)) : (⟨S16x84x32, .i32⟩ : BufTy).Contents (Elt Ideal) :=
  select (kNeg gx gy) (kWrap gx gy) (kLin3 gx gy)
/-- The start indices of the gather, with their unit index-vector axis. -/
def kIdx4 (gx gy : (⟨S16x32, .i32⟩ : BufTy).Contents (Elt Ideal)) : (⟨S16x84x32x1, .i32⟩ : BufTy).Contents (Elt Ideal) :=
  shapeCast S16x84x32x1 (kNorm gx gy) shapeCasts_S16x84x32_S16x84x32x1
/-- "The index is at least 0". -/
def kGe (gx gy : (⟨S16x32, .i32⟩ : BufTy).Contents (Elt Ideal)) : (⟨S16x84x32x1, .i1⟩ : BufTy).Contents (Elt Ideal) :=
  cmpi .sge (kIdx4 gx gy) (broadcastInDim S16x84x32x1 ![] bcast_S_S16x84x32x1 (constantI S_ 32 0#32))
/-- "The index is at most 6399". -/
def kLe (gx gy : (⟨S16x32, .i32⟩ : BufTy).Contents (Elt Ideal)) : (⟨S16x84x32x1, .i1⟩ : BufTy).Contents (Elt Ideal) :=
  cmpi .sle (kIdx4 gx gy) (broadcastInDim S16x84x32x1 ![0, 1, 2, 3] bcast_S1x1x1x1_S16x84x32x1_0_1_2_3
    (broadcastInDim S1x1x1x1 ![3] bcast_S1_S1x1x1x1_3 (constantI S1 32 6399#32)))
/-- Both. -/
def kIn (gx gy : (⟨S16x32, .i32⟩ : BufTy).Contents (Elt Ideal)) : (⟨S16x84x32x1, .i1⟩ : BufTy).Contents (Elt Ideal) :=
  andi (kGe gx gy) (kLe gx gy)
/-- The in-range mask: the conjunction over the unit axis. -/
def kMask (gx gy : (⟨S16x32, .i32⟩ : BufTy).Contents (Elt Ideal)) : (⟨S16x84x32, .i1⟩ : BufTy).Contents (Elt Ideal) :=
  Host.reduce IntOp.andi (kIn gx gy) (constantI S_ 1 1#1) reducesTo_S16x84x32x1_S16x84x32_d3 h_S_
/-- The gather along the flattened grid. -/
def kGath (P : (⟨S16x144x80x80, .f32⟩ : BufTy).Contents (Elt Ideal)) (gx gy : (⟨S16x32, .i32⟩ : BufTy).Contents (Elt Ideal)) :
    (⟨S16x84x32, .f32⟩ : BufTy).Contents (Elt Ideal) :=
  Host.gather gather_S16x84x6400_S16x84x32x1_S16x84x32_n_2_01_01_2_3_111 (kPflat P) (kIdx4 gx gy)
/-- The gathered value where the index is in range, the fill value elsewhere. -/
def kSel (P : (⟨S16x144x80x80, .f32⟩ : BufTy).Contents (Elt Ideal)) (gx gy : (⟨S16x32, .i32⟩ : BufTy).Contents (Elt Ideal)) :
    (⟨S16x84x32, .f32⟩ : BufTy).Contents (Elt Ideal) :=
  select (kMask gx gy) (kGath P gx gy) (broadcastInDim S16x84x32 ![] bcast_S_S16x84x32 (constant (F := Ideal) S_ .f32 0x7FC00000#32))
/-- The gathered cells with the channels last. -/
def kCells (P : (⟨S16x144x80x80, .f32⟩ : BufTy).Contents (Elt Ideal)) (gx gy : (⟨S16x32, .i32⟩ : BufTy).Contents (Elt Ideal)) :
    (⟨S16x32x84, .f32⟩ : BufTy).Contents (Elt Ideal) :=
  transpose S16x32x84 [0, 2, 1] (kSel P gx gy) transposes_S16x84x32_S16x32x84_0_2_1
/-- The kernel's box predictions at the cells. -/
def kCellBox (P : (⟨S16x144x80x80, .f32⟩ : BufTy).Contents (Elt Ideal)) (gx gy : (⟨S16x32, .i32⟩ : BufTy).Contents (Elt Ideal)) :
    (⟨S16x32x4, .f32⟩ : BufTy).Contents (Elt Ideal) :=
  extractStridedSlice S16x32x4 ![0, 0, 0] (kCells P gx gy) slices_S16x32x84_S16x32x4_0_0_0
/-- The kernel's class predictions at the cells. -/
def kCellCls (P : (⟨S16x144x80x80, .f32⟩ : BufTy).Contents (Elt Ideal)) (gx gy : (⟨S16x32, .i32⟩ : BufTy).Contents (Elt Ideal)) :
    (⟨S16x32x80, .f32⟩ : BufTy).Contents (Elt Ideal) :=
  extractStridedSlice S16x32x80 ![0, 0, 4] (kCells P gx gy) slices_S16x32x84_S16x32x80_0_0_4

variable (P : (⟨S16x144x80x80, .f32⟩ : BufTy).Contents (Elt Ideal)) (gx gy : (⟨S16x32, .i32⟩ : BufTy).Contents (Elt Ideal))

/-- The linear index at an object. -/
theorem kLin_apply (i : S16x32.Idx) : kLin gx gy i = IntOp.addi (IntOp.muli (gy i) 80#32) (gx i) := rfl

/-- Its copy for channel `c` is the object's. -/
theorem kLin3_apply (b : Fin 16) (c : Fin 84) (n : Fin 32) : kLin3 gx gy (ix3 b c n) = kLin gx gy (ix2 b n) := by
  unfold kLin3
  refine (broadcastInDim_apply _ bcast_S16x1x32_S16x84x32_0_1_2 _ (ix3 b c n) (ix3 b ⟨0, Nat.one_pos⟩ n) (fun a => match a with
    | ⟨0, _⟩ => by show b.val = if (16 : Nat) = 1 then 0 else b.val; rw [if_neg (by decide)]
    | ⟨1, _⟩ => by show 0 = if (1 : Nat) = 1 then 0 else c.val; rw [if_pos rfl]
    | ⟨2, _⟩ => by show n.val = if (32 : Nat) = 1 then 0 else n.val; rw [if_neg (by decide)])).trans ?_
  exact broadcastInDim_apply _ bcast_S16x32_S16x1x32_0_2 _ (ix3 b ⟨0, Nat.one_pos⟩ n) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])

variable (hgx : ∀ i, 0 ≤ (gx i).toInt ∧ (gx i).toInt < 80) (hgy : ∀ i, 0 ≤ (gy i).toInt ∧ (gy i).toInt < 80)
include hgx hgy

/-- What the two range hypotheses give of the linear index at object `(b, n)`. -/
theorem lin_ok (i : S16x32.Idx) :
    IntOp.cmpi .slt (kLin gx gy i) 0#32 = 0#1
    ∧ IntOp.cmpi .sge (kLin gx gy i) 0#32 = 1#1
    ∧ IntOp.cmpi .sle (kLin gx gy i) 6399#32 = 1#1
    ∧ (kLin gx gy i).toInt.toNat = (gy i).toInt.toNat * 80 + (gx i).toInt.toNat
    ∧ (gy i).toInt.toNat < 80 ∧ (gx i).toInt.toNat < 80 :=
  lin_facts (gy i) (gx i) 80 80 6399 (by decide) (by decide) (by have := hgy i; exact_mod_cast this) (by have := hgx i; exact_mod_cast this)

/-- The start index of channel `c` and object `(b, n)` is the object's linear index. -/
theorem kIdx4_apply (b : Fin 16) (c : Fin 84) (n : Fin 32) (z : Fin 1) :
    kIdx4 gx gy (ix4 b c n z) = kLin gx gy (ix2 b n) := by
  unfold kIdx4
  refine (shapeCast_apply _ shapeCasts_S16x84x32_S16x84x32x1 (ix4 b c n z) (ix3 b c n) (by
    rewrite [Shape.rowMajor_val_three, Shape.rowMajor_val_four]
    have hz : z.val = 0 := by have := z.isLt; omega
    show (b.val * 84 + c.val) * 32 + n.val = ((b.val * 84 + c.val) * 32 + n.val) * 1 + z.val
    omega)).trans ?_
  show Scalar.select (IntOp.cmpi .slt (kLin3 gx gy (ix3 b c n)) 0#32) (IntOp.addi (kLin3 gx gy (ix3 b c n)) 6400#32)
    (kLin3 gx gy (ix3 b c n)) = _
  rw [kLin3_apply, (lin_ok gx gy hgx hgy (ix2 b n)).1]
  exact select_zero _ _

/-- Every index is in range. -/
theorem kIn_eq (q : S16x84x32x1.Idx) : kIn gx gy q = 1#1 := by
  obtain ⟨b, c, n, z, rfl⟩ : ∃ b c n z, q = ix4 b c n z := ⟨_, _, _, _, eq_ix4 q⟩
  show IntOp.andi (IntOp.cmpi .sge (kIdx4 gx gy (ix4 b c n z)) 0#32) (IntOp.cmpi .sle (kIdx4 gx gy (ix4 b c n z)) 6399#32) = 1#1
  rw [kIdx4_apply gx gy hgx hgy, (lin_ok gx gy hgx hgy (ix2 b n)).2.1, (lin_ok gx gy hgx hgy (ix2 b n)).2.2.1]
  rfl

/-- The mask is set everywhere. -/
theorem kMask_eq (j : S16x84x32.Idx) : kMask gx gy j = 1#1 := by
  unfold kMask
  exact reduce_andi_eq_one (kIn gx gy) (constantI S_ 1 1#1) reducesTo_S16x84x32x1_S16x84x32_d3 h_S_ (kIn_eq gx gy hgx hgy) (fun _ => rfl) j

/-- THE KERNEL'S GATHERED VALUE for channel `c` of the 84 at object `(b, n)`: the concatenated channels at the object's
    cell. -/
theorem kSel_apply (b : Fin 16) (c : Fin 84) (n : Fin 32) (k : S16x84x80x80.Idx)
    (h0 : (k 0).val = b.val) (h1 : (k 1).val = c.val) (h2 : (k 2).val = (gy (ix2 b n)).toInt.toNat)
    (h3 : (k 3).val = (gx (ix2 b n)).toInt.toNat) :
    kSel P gx gy (ix3 b c n) = kPcat P k := by
  unfold kSel
  rw [select_apply, kMask_eq gx gy hgx hgy, select_one]
  unfold kGath
  have e : gather_S16x84x6400_S16x84x32x1_S16x84x32_n_2_01_01_2_3_111 = batchedDims 16 84 6400 32 gather_S16x84x6400_S16x84x32x1_S16x84x32_n_2_01_01_2_3_111_wf := rfl
  rw [e, gather_batched_apply (by decide)]
  unfold kPflat
  obtain ⟨-, -, -, hl, hy, hx⟩ := lin_ok gx gy hgx hgy (ix2 b n)
  refine shapeCast_apply _ shapeCasts_S16x84x80x80_S16x84x6400 _ k ?_
  rewrite [Shape.rowMajor_val_four, Shape.rowMajor_val_three]
  show (((k 0).val * 84 + (k 1).val) * 80 + (k 2).val) * 80 + (k 3).val
    = (b.val * 84 + c.val) * 6400 + min (kIdx4 gx gy (ix4 b c n ⟨0, Nat.one_pos⟩)).toInt.toNat (6400 - 1)
  rw [kIdx4_apply gx gy hgx hgy, hl, h0, h1, h2, h3]
  omega

/-- A box channel of the concatenation is that channel of `P`. -/
theorem kPcat_box (k : S16x84x80x80.Idx) (hk : (k 1).val < 4) (p : S16x144x80x80.Idx)
    (hp : ∀ a, (p a).val = (k a).val) : kPcat P k = P p := by
  unfold kPcat
  refine (concatenate_pair_apply_left 1 _ _ concatenates_S16x4x80x80_S16x80x80x80_S16x84x80x80_d1 k rfl
    (ix4 (k 0) ⟨(k 1).val, hk⟩ (k 2) (k 3)) (fun a => match a with
      | ⟨0, _⟩ => rfl
      | ⟨1, _⟩ => rfl
      | ⟨2, _⟩ => rfl
      | ⟨3, _⟩ => rfl)).trans ?_
  unfold kP4
  exact extractStridedSlice_apply _ P slices_S16x144x80x80_S16x4x80x80_0_0_0_0 _ p (fun a => match a with
    | ⟨0, _⟩ => by show (p 0).val = 0 + (k 0).val; rw [hp]; omega
    | ⟨1, _⟩ => by show (p 1).val = 0 + (k 1).val; rw [hp]; omega
    | ⟨2, _⟩ => by show (p 2).val = 0 + (k 2).val; rw [hp]; omega
    | ⟨3, _⟩ => by show (p 3).val = 0 + (k 3).val; rw [hp]; omega)

/-- A class channel `4 + j` of the concatenation is channel `64 + j` of `P`. -/
theorem kPcat_cls (k : S16x84x80x80.Idx) (hk : 4 ≤ (k 1).val) (p : S16x144x80x80.Idx)
    (hp0 : (p 0).val = (k 0).val) (hp1 : (p 1).val = (k 1).val + 60) (hp2 : (p 2).val = (k 2).val) (hp3 : (p 3).val = (k 3).val) :
    kPcat P k = P p := by
  unfold kPcat
  have hk84 : (k 1).val < 84 := (k 1).isLt
  refine (concatenate_pair_apply_right 1 _ _ concatenates_S16x4x80x80_S16x80x80x80_S16x84x80x80_d1 k rfl rfl
    (ix4 (k 0) ⟨(k 1).val - 4, by omega⟩ (k 2) (k 3)) (fun a => match a with
      | ⟨0, _⟩ => fun _ => rfl
      | ⟨1, _⟩ => fun h => absurd rfl h
      | ⟨2, _⟩ => fun _ => rfl
      | ⟨3, _⟩ => fun _ => rfl) (by show (k 1).val - 4 + 4 = (k 1).val; omega)).trans ?_
  unfold kP80
  exact extractStridedSlice_apply _ P slices_S16x144x80x80_S16x80x80x80_0_64_0_0 _ p (fun a => match a with
    | ⟨0, _⟩ => by show (p 0).val = 0 + (k 0).val; omega
    | ⟨1, _⟩ => by show (p 1).val = 64 + ((k 1).val - 4); omega
    | ⟨2, _⟩ => by show (p 2).val = 0 + (k 2).val; omega
    | ⟨3, _⟩ => by show (p 3).val = 0 + (k 3).val; omega)

/-- The gathered cells with channels last, at object `(b, n)` and channel `c`. -/
theorem kCells_apply (b : Fin 16) (n : Fin 32) (c : Fin 84) : kCells P gx gy (ix3 b n c) = kSel P gx gy (ix3 b c n) := by
  unfold kCells
  exact transpose_apply [0, 2, 1] _ transposes_S16x84x32_S16x32x84_0_2_1 (ix3 b n c) (ix3 b c n) (fun a => match a with
    | ⟨0, _⟩ => rfl
    | ⟨1, _⟩ => rfl
    | ⟨2, _⟩ => rfl)

/-- THE KERNEL'S BOX PREDICTION at object `(b, n)`, coordinate `k`: `P[b, k, gy, gx]`. -/
theorem kCellBox_apply (b : Fin 16) (n : Fin 32) (k : Fin 4) (p : S16x144x80x80.Idx)
    (h0 : (p 0).val = b.val) (h1 : (p 1).val = k.val) (h2 : (p 2).val = (gy (ix2 b n)).toInt.toNat)
    (h3 : (p 3).val = (gx (ix2 b n)).toInt.toNat) :
    kCellBox P gx gy (ix3 b n k) = P p := by
  unfold kCellBox
  have hk := k.isLt
  refine (extractStridedSlice_apply _ _ slices_S16x32x84_S16x32x4_0_0_0 (ix3 b n k) (ix3 b n ⟨k.val, by omega⟩) (fun a => match a with
    | ⟨0, _⟩ => by show b.val = 0 + b.val; omega
    | ⟨1, _⟩ => by show n.val = 0 + n.val; omega
    | ⟨2, _⟩ => by show k.val = 0 + k.val; omega)).trans ?_
  obtain ⟨-, -, -, -, hy, hx⟩ := lin_ok gx gy hgx hgy (ix2 b n)
  rw [kCells_apply P gx gy hgx hgy, kSel_apply P gx gy hgx hgy b ⟨k.val, by omega⟩ n
    (ix4 b ⟨k.val, by omega⟩ ⟨(gy (ix2 b n)).toInt.toNat, hy⟩ ⟨(gx (ix2 b n)).toInt.toNat, hx⟩) rfl rfl rfl rfl]
  exact kPcat_box P gx gy hgx hgy _ hk p (fun a => match a with
    | ⟨0, _⟩ => h0
    | ⟨1, _⟩ => h1
    | ⟨2, _⟩ => h2
    | ⟨3, _⟩ => h3)

/-- THE KERNEL'S CLASS PREDICTION at object `(b, n)`, class `j`: `P[b, 64 + j, gy, gx]`. -/
theorem kCellCls_apply (b : Fin 16) (n : Fin 32) (j : Fin 80) (p : S16x144x80x80.Idx)
    (h0 : (p 0).val = b.val) (h1 : (p 1).val = 64 + j.val) (h2 : (p 2).val = (gy (ix2 b n)).toInt.toNat)
    (h3 : (p 3).val = (gx (ix2 b n)).toInt.toNat) :
    kCellCls P gx gy (ix3 b n j) = P p := by
  unfold kCellCls
  have hj := j.isLt
  refine (extractStridedSlice_apply _ _ slices_S16x32x84_S16x32x80_0_0_4 (ix3 b n j) (ix3 b n ⟨4 + j.val, by omega⟩) (fun a => match a with
    | ⟨0, _⟩ => by show b.val = 0 + b.val; omega
    | ⟨1, _⟩ => by show n.val = 0 + n.val; omega
    | ⟨2, _⟩ => by show 4 + j.val = 4 + j.val; omega)).trans ?_
  obtain ⟨-, -, -, -, hy, hx⟩ := lin_ok gx gy hgx hgy (ix2 b n)
  rw [kCells_apply P gx gy hgx hgy, kSel_apply P gx gy hgx hgy b ⟨4 + j.val, by omega⟩ n
    (ix4 b ⟨4 + j.val, by omega⟩ ⟨(gy (ix2 b n)).toInt.toNat, hy⟩ ⟨(gx (ix2 b n)).toInt.toNat, hx⟩) rfl rfl rfl rfl]
  exact kPcat_cls P gx gy hgx hgy _ (by show 4 ≤ 4 + j.val; omega) p h0 (by show (p 1).val = 4 + j.val + 60; omega) h2 h3

end Kernel

/-! ## The reference's route, one definition per printed operation -/

section Reference
open Cert.ReferenceIdeal
variable [Cert.ReferenceIdeal.Facts₀]
open Cert.ReferenceIdeal.Facts₀

/-- The predictions with the channels last. -/
def rPT (P : (⟨S16x144x80x80, .f32⟩ : BufTy).Contents (Elt Ideal)) : (⟨S16x80x80x144, .f32⟩ : BufTy).Contents (Elt Ideal) :=
  transpose S16x80x80x144 [0, 2, 3, 1] P transposes_S16x144x80x80_S16x80x80x144_0_2_3_1
/-- Their first 64 channels. -/
def rP64 (P : (⟨S16x144x80x80, .f32⟩ : BufTy).Contents (Elt Ideal)) : (⟨S16x80x80x64, .f32⟩ : BufTy).Contents (Elt Ideal) :=
  extractStridedSlice S16x80x80x64 ![0, 0, 0, 0] (rPT P) slices_S16x80x80x144_S16x80x80x64_0_0_0_0
/-- Their 80 class channels. -/
def rP80 (P : (⟨S16x144x80x80, .f32⟩ : BufTy).Contents (Elt Ideal)) : (⟨S16x80x80x80, .f32⟩ : BufTy).Contents (Elt Ideal) :=
  extractStridedSlice S16x80x80x80 ![0, 0, 0, 64] (rPT P) slices_S16x80x80x144_S16x80x80x80_0_0_0_64
/-- The batch index as a column. -/
def rB : (⟨S16x1, .i32⟩ : BufTy).Contents (Elt Ideal) :=
  broadcastInDim S16x1 ![0] bcast_S16_S16x1_0 (iotaInDim S16 32 0)
/-- The batch index with a negative one counted from the end. -/
def rBn : (⟨S16x1, .i32⟩ : BufTy).Contents (Elt Ideal) :=
  select (cmpi .slt rB (broadcastInDim S16x1 ![] bcast_S_S16x1 (constantI S_ 32 0#32)))
    (addi rB (broadcastInDim S16x1 ![] bcast_S_S16x1 (constantI S_ 32 16#32))) rB
/-- A cell coordinate with a negative one counted from the end. -/
def rNorm (v : (⟨S16x32, .i32⟩ : BufTy).Contents (Elt Ideal)) : (⟨S16x32, .i32⟩ : BufTy).Contents (Elt Ideal) :=
  select (cmpi .slt v (broadcastInDim S16x32 ![] bcast_S_S16x32 (constantI S_ 32 0#32)))
    (addi v (broadcastInDim S16x32 ![] bcast_S_S16x32 (constantI S_ 32 80#32))) v
/-- The start indices `(b, gy, gx)` of the gather. -/
def rIdx3 (gx gy : (⟨S16x32, .i32⟩ : BufTy).Contents (Elt Ideal)) : (⟨S16x32x3, .i32⟩ : BufTy).Contents (Elt Ideal) :=
  concatenate S16x32x3 2
    [⟨S16x32x1, broadcastInDim S16x32x1 ![0, 1] bcast_S16x32_S16x32x1_0_1 (broadcastInDim S16x32 ![0, 1] bcast_S16x1_S16x32_0_1 rBn)⟩,
     ⟨S16x32x1, broadcastInDim S16x32x1 ![0, 1] bcast_S16x32_S16x32x1_0_1 (rNorm gy)⟩,
     ⟨S16x32x1, broadcastInDim S16x32x1 ![0, 1] bcast_S16x32_S16x32x1_0_1 (rNorm gx)⟩]
    concatenates_S16x32x1_S16x32x1_S16x32x1_S16x32x3_d2
/-- The reference's box predictions at the cells. -/
def rCellBox (P : (⟨S16x144x80x80, .f32⟩ : BufTy).Contents (Elt Ideal)) (gx gy : (⟨S16x32, .i32⟩ : BufTy).Contents (Elt Ideal)) :
    (⟨S16x32x4, .f32⟩ : BufTy).Contents (Elt Ideal) :=
  extractStridedSlice S16x32x4 ![0, 0, 0] (Host.gather gather_S16x80x80x64_S16x32x3_S16x32x64_2_012_n_n_012_2_11164 (rP64 P) (rIdx3 gx gy)) slices_S16x32x64_S16x32x4_0_0_0
/-- The reference's class predictions at the cells. -/
def rCellCls (P : (⟨S16x144x80x80, .f32⟩ : BufTy).Contents (Elt Ideal)) (gx gy : (⟨S16x32, .i32⟩ : BufTy).Contents (Elt Ideal)) :
    (⟨S16x32x80, .f32⟩ : BufTy).Contents (Elt Ideal) :=
  Host.gather gather_S16x80x80x80_S16x32x3_S16x32x80_2_012_n_n_012_2_11180 (rP80 P) (rIdx3 gx gy)

variable (P : (⟨S16x144x80x80, .f32⟩ : BufTy).Contents (Elt Ideal)) (gx gy : (⟨S16x32, .i32⟩ : BufTy).Contents (Elt Ideal))

/-- The channels-last predictions at `(b, y, x, c)` are `P[b, c, y, x]`. -/
theorem rPT_apply (q : S16x80x80x144.Idx) (p : S16x144x80x80.Idx)
    (h0 : (p 0).val = (q 0).val) (h1 : (p 1).val = (q 3).val) (h2 : (p 2).val = (q 1).val) (h3 : (p 3).val = (q 2).val) :
    rPT P q = P p := by
  unfold rPT
  exact transpose_apply [0, 2, 3, 1] P transposes_S16x144x80x80_S16x80x80x144_0_2_3_1 q p (fun a => match a with
    | ⟨0, _⟩ => h0
    | ⟨1, _⟩ => h2
    | ⟨2, _⟩ => h3
    | ⟨3, _⟩ => h1)

/-- The first 64 channels at an index. -/
theorem rP64_apply (q : S16x80x80x64.Idx) (p : S16x144x80x80.Idx)
    (h0 : (p 0).val = (q 0).val) (h1 : (p 1).val = (q 3).val) (h2 : (p 2).val = (q 1).val) (h3 : (p 3).val = (q 2).val) :
    rP64 P q = P p := by
  unfold rP64
  have hq := (q 3).isLt
  refine (extractStridedSlice_apply _ _ slices_S16x80x80x144_S16x80x80x64_0_0_0_0 q (ix4 (q 0) (q 1) (q 2) ⟨(q 3).val, by show (q 3).val < 144; have : (q 3).val < 64 := hq; omega⟩) (fun a => match a with
    | ⟨0, _⟩ => by show (q 0).val = 0 + (q 0).val; omega
    | ⟨1, _⟩ => by show (q 1).val = 0 + (q 1).val; omega
    | ⟨2, _⟩ => by show (q 2).val = 0 + (q 2).val; omega
    | ⟨3, _⟩ => by show (q 3).val = 0 + (q 3).val; omega)).trans ?_
  exact rPT_apply P _ p h0 h1 h2 h3

/-- The class channels at an index: channel `64 + j`. -/
theorem rP80_apply (q : S16x80x80x80.Idx) (p : S16x144x80x80.Idx)
    (h0 : (p 0).val = (q 0).val) (h1 : (p 1).val = 64 + (q 3).val) (h2 : (p 2).val = (q 1).val) (h3 : (p 3).val = (q 2).val) :
    rP80 P q = P p := by
  unfold rP80
  have hq := (q 3).isLt
  refine (extractStridedSlice_apply _ _ slices_S16x80x80x144_S16x80x80x80_0_0_0_64 q (ix4 (q 0) (q 1) (q 2) ⟨64 + (q 3).val, by show 64 + (q 3).val < 144; have : (q 3).val < 80 := hq; omega⟩) (fun a => match a with
    | ⟨0, _⟩ => by show (q 0).val = 0 + (q 0).val; omega
    | ⟨1, _⟩ => by show (q 1).val = 0 + (q 1).val; omega
    | ⟨2, _⟩ => by show (q 2).val = 0 + (q 2).val; omega
    | ⟨3, _⟩ => by show 64 + (q 3).val = 64 + (q 3).val; omega)).trans ?_
  exact rPT_apply P _ p h0 h1 h2 h3

/-- The batch component of an object's start index is its batch index. -/
theorem rIdx3_b (b : Fin 16) (n : Fin 32) : rIdx3 gx gy (ix3 b n ⟨0, by decide⟩) = BitVec.ofNat 32 b.val := by
  unfold rIdx3
  refine (concatenate_apply_piece (t := S16x32x3) 2 [⟨S16x32x1, broadcastInDim S16x32x1 ![0, 1] bcast_S16x32_S16x32x1_0_1 (broadcastInDim S16x32 ![0, 1] bcast_S16x1_S16x32_0_1 rBn)⟩,
     ⟨S16x32x1, broadcastInDim S16x32x1 ![0, 1] bcast_S16x32_S16x32x1_0_1 (rNorm gy)⟩,
     ⟨S16x32x1, broadcastInDim S16x32x1 ![0, 1] bcast_S16x32_S16x32x1_0_1 (rNorm gx)⟩]
    concatenates_S16x32x1_S16x32x1_S16x32x1_S16x32x3_d2 (ix3 b n ⟨0, by decide⟩) 0 (show (0 : Nat) < 3 by decide)
    S16x32x1 _ rfl rfl 0 rfl (ix3 b n ⟨0, Nat.one_pos⟩) (fun a => match a with
      | ⟨0, _⟩ => fun _ => rfl
      | ⟨1, _⟩ => fun _ => rfl
      | ⟨2, _⟩ => fun h => absurd rfl h) rfl).trans ?_
  refine (broadcastInDim_apply _ bcast_S16x32_S16x32x1_0_1 _ (ix3 b n ⟨0, Nat.one_pos⟩) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  refine (broadcastInDim_apply _ bcast_S16x1_S16x32_0_1 _ (ix2 b n) (ix2 b ⟨0, Nat.one_pos⟩) (fun a => match a with
    | ⟨0, _⟩ => by show b.val = if (16 : Nat) = 1 then 0 else b.val; rw [if_neg (by decide)]
    | ⟨1, _⟩ => by show 0 = if (1 : Nat) = 1 then 0 else n.val; rw [if_pos rfl])).trans ?_
  have hB : rB (ix2 b ⟨0, Nat.one_pos⟩) = BitVec.ofNat 32 b.val := by
    unfold rB
    exact broadcastInDim_apply _ bcast_S16_S16x1_0 _ (ix2 b ⟨0, Nat.one_pos⟩) (ix1 b) (fun a => match a with
      | ⟨0, _⟩ => by show b.val = if (16 : Nat) = 1 then 0 else b.val; rw [if_neg (by decide)])
  show Scalar.select (IntOp.cmpi .slt (rB (ix2 b ⟨0, Nat.one_pos⟩)) 0#32) (IntOp.addi (rB (ix2 b ⟨0, Nat.one_pos⟩)) 16#32)
    (rB (ix2 b ⟨0, Nat.one_pos⟩)) = _
  rw [hB]
  exact select_slt_zero _ _ (by rw [toInt_ofNat_small _ (by have := b.isLt; omega)]; omega)

variable (hgx : ∀ i, 0 ≤ (gx i).toInt ∧ (gx i).toInt < 80) (hgy : ∀ i, 0 ≤ (gy i).toInt ∧ (gy i).toInt < 80)
include hgx hgy

/-- The row component of an object's start index is its cell's row. -/
theorem rIdx3_y (b : Fin 16) (n : Fin 32) : rIdx3 gx gy (ix3 b n ⟨1, by decide⟩) = gy (ix2 b n) := by
  unfold rIdx3
  refine (concatenate_apply_piece (t := S16x32x3) 2 [⟨S16x32x1, broadcastInDim S16x32x1 ![0, 1] bcast_S16x32_S16x32x1_0_1 (broadcastInDim S16x32 ![0, 1] bcast_S16x1_S16x32_0_1 rBn)⟩,
     ⟨S16x32x1, broadcastInDim S16x32x1 ![0, 1] bcast_S16x32_S16x32x1_0_1 (rNorm gy)⟩,
     ⟨S16x32x1, broadcastInDim S16x32x1 ![0, 1] bcast_S16x32_S16x32x1_0_1 (rNorm gx)⟩]
    concatenates_S16x32x1_S16x32x1_S16x32x1_S16x32x3_d2 (ix3 b n ⟨1, by decide⟩) 1 (show (1 : Nat) < 3 by decide)
    S16x32x1 _ rfl rfl 1 rfl (ix3 b n ⟨0, Nat.one_pos⟩) (fun a => match a with
      | ⟨0, _⟩ => fun _ => rfl
      | ⟨1, _⟩ => fun _ => rfl
      | ⟨2, _⟩ => fun h => absurd rfl h) rfl).trans ?_
  refine (broadcastInDim_apply _ bcast_S16x32_S16x32x1_0_1 _ (ix3 b n ⟨0, Nat.one_pos⟩) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  exact select_slt_zero _ _ (hgy _).1

/-- The column component of an object's start index is its cell's column. -/
theorem rIdx3_x (b : Fin 16) (n : Fin 32) : rIdx3 gx gy (ix3 b n ⟨2, by decide⟩) = gx (ix2 b n) := by
  unfold rIdx3
  refine (concatenate_apply_piece (t := S16x32x3) 2 [⟨S16x32x1, broadcastInDim S16x32x1 ![0, 1] bcast_S16x32_S16x32x1_0_1 (broadcastInDim S16x32 ![0, 1] bcast_S16x1_S16x32_0_1 rBn)⟩,
     ⟨S16x32x1, broadcastInDim S16x32x1 ![0, 1] bcast_S16x32_S16x32x1_0_1 (rNorm gy)⟩,
     ⟨S16x32x1, broadcastInDim S16x32x1 ![0, 1] bcast_S16x32_S16x32x1_0_1 (rNorm gx)⟩]
    concatenates_S16x32x1_S16x32x1_S16x32x1_S16x32x3_d2 (ix3 b n ⟨2, by decide⟩) 2 (show (2 : Nat) < 3 by decide)
    S16x32x1 _ rfl rfl 2 rfl (ix3 b n ⟨0, Nat.one_pos⟩) (fun a => match a with
      | ⟨0, _⟩ => fun _ => rfl
      | ⟨1, _⟩ => fun _ => rfl
      | ⟨2, _⟩ => fun h => absurd rfl h) rfl).trans ?_
  refine (broadcastInDim_apply _ bcast_S16x32_S16x32x1_0_1 _ (ix3 b n ⟨0, Nat.one_pos⟩) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  exact select_slt_zero _ _ (hgx _).1

/-- The three clamped start-index components of object `(b, n)`: its batch index and its cell. -/
theorem rStart (b : Fin 16) (n : Fin 32) :
    min (rIdx3 gx gy (ix3 b n ⟨0, by decide⟩)).toInt.toNat (16 - 1) = b.val
    ∧ min (rIdx3 gx gy (ix3 b n ⟨1, by decide⟩)).toInt.toNat (80 - 1) = (gy (ix2 b n)).toInt.toNat
    ∧ min (rIdx3 gx gy (ix3 b n ⟨2, by decide⟩)).toInt.toNat (80 - 1) = (gx (ix2 b n)).toInt.toNat := by
  rw [rIdx3_b, rIdx3_y gx gy hgx hgy, rIdx3_x gx gy hgx hgy, toInt_ofNat_small _ (by have := b.isLt; omega)]
  have hb := b.isLt
  have hy := hgy (ix2 b n)
  have hx := hgx (ix2 b n)
  refine ⟨?_, ?_, ?_⟩
  · rw [Int.toNat_natCast]; omega
  · omega
  · omega

/-- THE REFERENCE'S BOX PREDICTION at object `(b, n)`, coordinate `k`: `P[b, k, gy, gx]`. -/
theorem rCellBox_apply (b : Fin 16) (n : Fin 32) (k : Fin 4) (p : S16x144x80x80.Idx)
    (h0 : (p 0).val = b.val) (h1 : (p 1).val = k.val) (h2 : (p 2).val = (gy (ix2 b n)).toInt.toNat)
    (h3 : (p 3).val = (gx (ix2 b n)).toInt.toNat) :
    rCellBox P gx gy (ix3 b n k) = P p := by
  unfold rCellBox
  have hk := k.isLt
  refine (extractStridedSlice_apply _ _ slices_S16x32x64_S16x32x4_0_0_0 (ix3 b n k) (ix3 b n ⟨k.val, by omega⟩) (fun a => match a with
    | ⟨0, _⟩ => by show b.val = 0 + b.val; omega
    | ⟨1, _⟩ => by show n.val = 0 + n.val; omega
    | ⟨2, _⟩ => by show k.val = 0 + k.val; omega)).trans ?_
  have e : gather_S16x80x80x64_S16x32x3_S16x32x64_2_012_n_n_012_2_11164 = cellDims 16 80 80 64 16 32 gather_S16x80x80x64_S16x32x3_S16x32x64_2_012_n_n_012_2_11164_wf := rfl
  rw [e, gather_cell_apply (by decide) (by decide) (by decide)]
  obtain ⟨s0, s1, s2⟩ := rStart gx gy hgx hgy b n
  exact rP64_apply P _ p (h0.trans s0.symm) h1 (h2.trans s1.symm) (h3.trans s2.symm)

/-- THE REFERENCE'S CLASS PREDICTION at object `(b, n)`, class `j`: `P[b, 64 + j, gy, gx]`. -/
theorem rCellCls_apply (b : Fin 16) (n : Fin 32) (j : Fin 80) (p : S16x144x80x80.Idx)
    (h0 : (p 0).val = b.val) (h1 : (p 1).val = 64 + j.val) (h2 : (p 2).val = (gy (ix2 b n)).toInt.toNat)
    (h3 : (p 3).val = (gx (ix2 b n)).toInt.toNat) :
    rCellCls P gx gy (ix3 b n j) = P p := by
  unfold rCellCls
  have e : gather_S16x80x80x80_S16x32x3_S16x32x80_2_012_n_n_012_2_11180 = cellDims 16 80 80 80 16 32 gather_S16x80x80x80_S16x32x3_S16x32x80_2_012_n_n_012_2_11180_wf := rfl
  rw [e, gather_cell_apply (by decide) (by decide) (by decide)]
  obtain ⟨s0, s1, s2⟩ := rStart gx gy hgx hgy b n
  exact rP80_apply P _ p (h0.trans s0.symm) h1 (h2.trans s1.symm) (h3.trans s2.symm)

end Reference

/-! ## The two routes agree -/

section Bridge
variable [Cert.KernelIdeal.Facts₀] [Cert.ReferenceIdeal.Facts₀]
variable (P : (⟨Cert.KernelIdeal.S16x144x80x80, .f32⟩ : BufTy).Contents (Elt Ideal))
  (gx gy : (⟨Cert.KernelIdeal.S16x32, .i32⟩ : BufTy).Contents (Elt Ideal))
  (hgx : ∀ i, 0 ≤ (gx i).toInt ∧ (gx i).toInt < 80) (hgy : ∀ i, 0 ≤ (gy i).toInt ∧ (gy i).toInt < 80)
include hgx hgy

/-- **Scale 0, boxes**: the kernel's gathered box predictions are the reference's. -/
theorem cellbox_eq_0 : kCellBox P gx gy = rCellBox P gx gy := by
  funext j
  obtain ⟨b, n, k, rfl⟩ : ∃ b n k, j = ix3 b n k := ⟨_, _, _, eq_ix3 j⟩
  obtain ⟨-, -, -, -, hy, hx⟩ := lin_ok gx gy hgx hgy (ix2 b n)
  have hk := k.isLt
  rw [kCellBox_apply P gx gy hgx hgy b n k
      (ix4 b ⟨k.val, by omega⟩ ⟨(gy (ix2 b n)).toInt.toNat, hy⟩ ⟨(gx (ix2 b n)).toInt.toNat, hx⟩) rfl rfl rfl rfl,
    rCellBox_apply P gx gy hgx hgy b n k
      (ix4 b ⟨k.val, by omega⟩ ⟨(gy (ix2 b n)).toInt.toNat, hy⟩ ⟨(gx (ix2 b n)).toInt.toNat, hx⟩) rfl rfl rfl rfl]

/-- **Scale 0, classes**: the kernel's gathered class predictions are the reference's. -/
theorem cellcls_eq_0 : kCellCls P gx gy = rCellCls P gx gy := by
  funext j
  obtain ⟨b, n, c, rfl⟩ : ∃ b n c, j = ix3 b n c := ⟨_, _, _, eq_ix3 j⟩
  obtain ⟨-, -, -, -, hy, hx⟩ := lin_ok gx gy hgx hgy (ix2 b n)
  have hc := c.isLt
  rw [kCellCls_apply P gx gy hgx hgy b n c
      (ix4 b ⟨64 + c.val, by omega⟩ ⟨(gy (ix2 b n)).toInt.toNat, hy⟩ ⟨(gx (ix2 b n)).toInt.toNat, hx⟩) rfl rfl rfl rfl,
    rCellCls_apply P gx gy hgx hgy b n c
      (ix4 b ⟨64 + c.val, by omega⟩ ⟨(gy (ix2 b n)).toInt.toNat, hy⟩ ⟨(gx (ix2 b n)).toInt.toNat, hx⟩) rfl rfl rfl rfl]

end Bridge

end Cert.Cells0

end
-- ==== Proof.CellsBridge1.lean ====
/-
  Scale 1 (a 40 × 40 grid of cells): the predictions gathered at the objects' cells are the same arrays in the kernel's
  program and in the reference. The kernel flattens each channel's grid, reads it at the linear index `gy * 40 + gx` by a
  gather along the last axis under an in-range mask, and transposes; the reference moves the channels last and reads the
  cell `(b, gy, gx)` by a gather that collapses the three leading axes. With `0 ≤ gx, gy < 40` the linear index does not
  wrap and is in range, so the mask is set and no clamp moves an index: both read `P[b, k, gy[b,n], gx[b,n]]`.
-/
import proofs.«153486_j83854941487213_2_alg».proof.KernelIdeal
import proofs.«153486_j83854941487213_2_alg».proof.ReferenceIdeal
import proofs.«153486_j83854941487213_2_alg».proof.Proof.LibGatherCells

noncomputable section

namespace Cert.Cells1

open Idealize.ShloMosaic Idealize.ShloMosaic.ValueIdx Cert.LibGatherCells

/-! ## The kernel's route, one definition per printed operation -/

section Kernel
open Cert.KernelIdeal
variable [Cert.KernelIdeal.Facts₀]
open Cert.KernelIdeal.Facts₀

/-- The box channels `P[:, 0:4]`. -/
def kP4 (P : (⟨S16x144x40x40, .f32⟩ : BufTy).Contents (Elt Ideal)) : (⟨S16x4x40x40, .f32⟩ : BufTy).Contents (Elt Ideal) :=
  extractStridedSlice S16x4x40x40 ![0, 0, 0, 0] P slices_S16x144x40x40_S16x4x40x40_0_0_0_0
/-- The class channels `P[:, 64:144]`. -/
def kP80 (P : (⟨S16x144x40x40, .f32⟩ : BufTy).Contents (Elt Ideal)) : (⟨S16x80x40x40, .f32⟩ : BufTy).Contents (Elt Ideal) :=
  extractStridedSlice S16x80x40x40 ![0, 64, 0, 0] P slices_S16x144x40x40_S16x80x40x40_0_64_0_0
/-- The 84 channels the kernel gathers: the 4 box channels, then the 80 class channels. -/
def kPcat (P : (⟨S16x144x40x40, .f32⟩ : BufTy).Contents (Elt Ideal)) : (⟨S16x84x40x40, .f32⟩ : BufTy).Contents (Elt Ideal) :=
  concatenate S16x84x40x40 1 [⟨S16x4x40x40, kP4 P⟩, ⟨S16x80x40x40, kP80 P⟩] concatenates_S16x4x40x40_S16x80x40x40_S16x84x40x40_d1
/-- Each channel's grid flattened row by row. -/
def kPflat (P : (⟨S16x144x40x40, .f32⟩ : BufTy).Contents (Elt Ideal)) : (⟨S16x84x1600, .f32⟩ : BufTy).Contents (Elt Ideal) :=
  shapeCast S16x84x1600 (kPcat P) shapeCasts_S16x84x40x40_S16x84x1600
/-- The linear index of each object's cell, `gy * 40 + gx` in 32-bit words. -/
def kLin (gx gy : (⟨S16x32, .i32⟩ : BufTy).Contents (Elt Ideal)) : (⟨S16x32, .i32⟩ : BufTy).Contents (Elt Ideal) :=
  addi (muli gy (broadcastInDim S16x32 ![] bcast_S_S16x32 (constantI S_ 32 40#32))) gx
/-- The linear index repeated over the 84 channels. -/
def kLin3 (gx gy : (⟨S16x32, .i32⟩ : BufTy).Contents (Elt Ideal)) : (⟨S16x84x32, .i32⟩ : BufTy).Contents (Elt Ideal) :=
  broadcastInDim S16x84x32 ![0, 1, 2] bcast_S16x1x32_S16x84x32_0_1_2
    (broadcastInDim S16x1x32 ![0, 2] bcast_S16x32_S16x1x32_0_2 (kLin gx gy))
/-- "The index is negative". -/
def kNeg (gx gy : (⟨S16x32, .i32⟩ : BufTy).Contents (Elt Ideal)) : (⟨S16x84x32, .i1⟩ : BufTy).Contents (Elt Ideal) :=
  cmpi .slt (kLin3 gx gy) (broadcastInDim S16x84x32 ![] bcast_S_S16x84x32 (constantI S_ 32 0#32))
/-- The index plus the axis length. -/
def kWrap (gx gy : (⟨S16x32, .i32⟩ : BufTy).Contents (Elt Ideal)) : (⟨S16x84x32, .i32⟩ : BufTy).Contents (Elt Ideal) :=
  addi (kLin3 gx gy) (broadcastInDim S16x84x32 ![] bcast_S_S16x84x32 (constantI S_ 32 1600#32))
/-- The index with a negative one counted from the end. -/
def kNorm (gx gy : (⟨S16x32, .i32⟩ : BufTy).Contents (Elt Ideal)) : (⟨S16x84x32, .i32⟩ : BufTy).Contents (Elt Ideal) :=
  select (kNeg gx gy) (kWrap gx gy) (kLin3 gx gy)
/-- The start indices of the gather, with their unit index-vector axis. -/
def kIdx4 (gx gy : (⟨S16x32, .i32⟩ : BufTy).Contents (Elt Ideal)) : (⟨S16x84x32x1, .i32⟩ : BufTy).Contents (Elt Ideal) :=
  shapeCast S16x84x32x1 (kNorm gx gy) shapeCasts_S16x84x32_S16x84x32x1
/-- "The index is at least 0". -/
def kGe (gx gy : (⟨S16x32, .i32⟩ : BufTy).Contents (Elt Ideal)) : (⟨S16x84x32x1, .i1⟩ : BufTy).Contents (Elt Ideal) :=
  cmpi .sge (kIdx4 gx gy) (broadcastInDim S16x84x32x1 ![] bcast_S_S16x84x32x1 (constantI S_ 32 0#32))
/-- "The index is at most 1599". -/
def kLe (gx gy : (⟨S16x32, .i32⟩ : BufTy).Contents (Elt Ideal)) : (⟨S16x84x32x1, .i1⟩ : BufTy).Contents (Elt Ideal) :=
  cmpi .sle (kIdx4 gx gy) (broadcastInDim S16x84x32x1 ![0, 1, 2, 3] bcast_S1x1x1x1_S16x84x32x1_0_1_2_3
    (broadcastInDim S1x1x1x1 ![3] bcast_S1_S1x1x1x1_3 (constantI S1 32 1599#32)))
/-- Both. -/
def kIn (gx gy : (⟨S16x32, .i32⟩ : BufTy).Contents (Elt Ideal)) : (⟨S16x84x32x1, .i1⟩ : BufTy).Contents (Elt Ideal) :=
  andi (kGe gx gy) (kLe gx gy)
/-- The in-range mask: the conjunction over the unit axis. -/
def kMask (gx gy : (⟨S16x32, .i32⟩ : BufTy).Contents (Elt Ideal)) : (⟨S16x84x32, .i1⟩ : BufTy).Contents (Elt Ideal) :=
  Host.reduce IntOp.andi (kIn gx gy) (constantI S_ 1 1#1) reducesTo_S16x84x32x1_S16x84x32_d3 h_S_
/-- The gather along the flattened grid. -/
def kGath (P : (⟨S16x144x40x40, .f32⟩ : BufTy).Contents (Elt Ideal)) (gx gy : (⟨S16x32, .i32⟩ : BufTy).Contents (Elt Ideal)) :
    (⟨S16x84x32, .f32⟩ : BufTy).Contents (Elt Ideal) :=
  Host.gather gather_S16x84x1600_S16x84x32x1_S16x84x32_n_2_01_01_2_3_111 (kPflat P) (kIdx4 gx gy)
/-- The gathered value where the index is in range, the fill value elsewhere. -/
def kSel (P : (⟨S16x144x40x40, .f32⟩ : BufTy).Contents (Elt Ideal)) (gx gy : (⟨S16x32, .i32⟩ : BufTy).Contents (Elt Ideal)) :
    (⟨S16x84x32, .f32⟩ : BufTy).Contents (Elt Ideal) :=
  select (kMask gx gy) (kGath P gx gy) (broadcastInDim S16x84x32 ![] bcast_S_S16x84x32 (constant (F := Ideal) S_ .f32 0x7FC00000#32))
/-- The gathered cells with the channels last. -/
def kCells (P : (⟨S16x144x40x40, .f32⟩ : BufTy).Contents (Elt Ideal)) (gx gy : (⟨S16x32, .i32⟩ : BufTy).Contents (Elt Ideal)) :
    (⟨S16x32x84, .f32⟩ : BufTy).Contents (Elt Ideal) :=
  transpose S16x32x84 [0, 2, 1] (kSel P gx gy) transposes_S16x84x32_S16x32x84_0_2_1
/-- The kernel's box predictions at the cells. -/
def kCellBox (P : (⟨S16x144x40x40, .f32⟩ : BufTy).Contents (Elt Ideal)) (gx gy : (⟨S16x32, .i32⟩ : BufTy).Contents (Elt Ideal)) :
    (⟨S16x32x4, .f32⟩ : BufTy).Contents (Elt Ideal) :=
  extractStridedSlice S16x32x4 ![0, 0, 0] (kCells P gx gy) slices_S16x32x84_S16x32x4_0_0_0
/-- The kernel's class predictions at the cells. -/
def kCellCls (P : (⟨S16x144x40x40, .f32⟩ : BufTy).Contents (Elt Ideal)) (gx gy : (⟨S16x32, .i32⟩ : BufTy).Contents (Elt Ideal)) :
    (⟨S16x32x80, .f32⟩ : BufTy).Contents (Elt Ideal) :=
  extractStridedSlice S16x32x80 ![0, 0, 4] (kCells P gx gy) slices_S16x32x84_S16x32x80_0_0_4

variable (P : (⟨S16x144x40x40, .f32⟩ : BufTy).Contents (Elt Ideal)) (gx gy : (⟨S16x32, .i32⟩ : BufTy).Contents (Elt Ideal))

/-- The linear index at an object. -/
theorem kLin_apply (i : S16x32.Idx) : kLin gx gy i = IntOp.addi (IntOp.muli (gy i) 40#32) (gx i) := rfl

/-- Its copy for channel `c` is the object's. -/
theorem kLin3_apply (b : Fin 16) (c : Fin 84) (n : Fin 32) : kLin3 gx gy (ix3 b c n) = kLin gx gy (ix2 b n) := by
  unfold kLin3
  refine (broadcastInDim_apply _ bcast_S16x1x32_S16x84x32_0_1_2 _ (ix3 b c n) (ix3 b ⟨0, Nat.one_pos⟩ n) (fun a => match a with
    | ⟨0, _⟩ => by show b.val = if (16 : Nat) = 1 then 0 else b.val; rw [if_neg (by decide)]
    | ⟨1, _⟩ => by show 0 = if (1 : Nat) = 1 then 0 else c.val; rw [if_pos rfl]
    | ⟨2, _⟩ => by show n.val = if (32 : Nat) = 1 then 0 else n.val; rw [if_neg (by decide)])).trans ?_
  exact broadcastInDim_apply _ bcast_S16x32_S16x1x32_0_2 _ (ix3 b ⟨0, Nat.one_pos⟩ n) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])

variable (hgx : ∀ i, 0 ≤ (gx i).toInt ∧ (gx i).toInt < 40) (hgy : ∀ i, 0 ≤ (gy i).toInt ∧ (gy i).toInt < 40)
include hgx hgy

/-- What the two range hypotheses give of the linear index at object `(b, n)`. -/
theorem lin_ok (i : S16x32.Idx) :
    IntOp.cmpi .slt (kLin gx gy i) 0#32 = 0#1
    ∧ IntOp.cmpi .sge (kLin gx gy i) 0#32 = 1#1
    ∧ IntOp.cmpi .sle (kLin gx gy i) 1599#32 = 1#1
    ∧ (kLin gx gy i).toInt.toNat = (gy i).toInt.toNat * 40 + (gx i).toInt.toNat
    ∧ (gy i).toInt.toNat < 40 ∧ (gx i).toInt.toNat < 40 :=
  lin_facts (gy i) (gx i) 40 40 1599 (by decide) (by decide) (by have := hgy i; exact_mod_cast this) (by have := hgx i; exact_mod_cast this)

/-- The start index of channel `c` and object `(b, n)` is the object's linear index. -/
theorem kIdx4_apply (b : Fin 16) (c : Fin 84) (n : Fin 32) (z : Fin 1) :
    kIdx4 gx gy (ix4 b c n z) = kLin gx gy (ix2 b n) := by
  unfold kIdx4
  refine (shapeCast_apply _ shapeCasts_S16x84x32_S16x84x32x1 (ix4 b c n z) (ix3 b c n) (by
    rewrite [Shape.rowMajor_val_three, Shape.rowMajor_val_four]
    have hz : z.val = 0 := by have := z.isLt; omega
    show (b.val * 84 + c.val) * 32 + n.val = ((b.val * 84 + c.val) * 32 + n.val) * 1 + z.val
    omega)).trans ?_
  show Scalar.select (IntOp.cmpi .slt (kLin3 gx gy (ix3 b c n)) 0#32) (IntOp.addi (kLin3 gx gy (ix3 b c n)) 1600#32)
    (kLin3 gx gy (ix3 b c n)) = _
  rw [kLin3_apply, (lin_ok gx gy hgx hgy (ix2 b n)).1]
  exact select_zero _ _

/-- Every index is in range. -/
theorem kIn_eq (q : S16x84x32x1.Idx) : kIn gx gy q = 1#1 := by
  obtain ⟨b, c, n, z, rfl⟩ : ∃ b c n z, q = ix4 b c n z := ⟨_, _, _, _, eq_ix4 q⟩
  show IntOp.andi (IntOp.cmpi .sge (kIdx4 gx gy (ix4 b c n z)) 0#32) (IntOp.cmpi .sle (kIdx4 gx gy (ix4 b c n z)) 1599#32) = 1#1
  rw [kIdx4_apply gx gy hgx hgy, (lin_ok gx gy hgx hgy (ix2 b n)).2.1, (lin_ok gx gy hgx hgy (ix2 b n)).2.2.1]
  rfl

/-- The mask is set everywhere. -/
theorem kMask_eq (j : S16x84x32.Idx) : kMask gx gy j = 1#1 := by
  unfold kMask
  exact reduce_andi_eq_one (kIn gx gy) (constantI S_ 1 1#1) reducesTo_S16x84x32x1_S16x84x32_d3 h_S_ (kIn_eq gx gy hgx hgy) (fun _ => rfl) j

/-- THE KERNEL'S GATHERED VALUE for channel `c` of the 84 at object `(b, n)`: the concatenated channels at the object's
    cell. -/
theorem kSel_apply (b : Fin 16) (c : Fin 84) (n : Fin 32) (k : S16x84x40x40.Idx)
    (h0 : (k 0).val = b.val) (h1 : (k 1).val = c.val) (h2 : (k 2).val = (gy (ix2 b n)).toInt.toNat)
    (h3 : (k 3).val = (gx (ix2 b n)).toInt.toNat) :
    kSel P gx gy (ix3 b c n) = kPcat P k := by
  unfold kSel
  rw [select_apply, kMask_eq gx gy hgx hgy, select_one]
  unfold kGath
  have e : gather_S16x84x1600_S16x84x32x1_S16x84x32_n_2_01_01_2_3_111 = batchedDims 16 84 1600 32 gather_S16x84x1600_S16x84x32x1_S16x84x32_n_2_01_01_2_3_111_wf := rfl
  rw [e, gather_batched_apply (by decide)]
  unfold kPflat
  obtain ⟨-, -, -, hl, hy, hx⟩ := lin_ok gx gy hgx hgy (ix2 b n)
  refine shapeCast_apply _ shapeCasts_S16x84x40x40_S16x84x1600 _ k ?_
  rewrite [Shape.rowMajor_val_four, Shape.rowMajor_val_three]
  show (((k 0).val * 84 + (k 1).val) * 40 + (k 2).val) * 40 + (k 3).val
    = (b.val * 84 + c.val) * 1600 + min (kIdx4 gx gy (ix4 b c n ⟨0, Nat.one_pos⟩)).toInt.toNat (1600 - 1)
  rw [kIdx4_apply gx gy hgx hgy, hl, h0, h1, h2, h3]
  omega

/-- A box channel of the concatenation is that channel of `P`. -/
theorem kPcat_box (k : S16x84x40x40.Idx) (hk : (k 1).val < 4) (p : S16x144x40x40.Idx)
    (hp : ∀ a, (p a).val = (k a).val) : kPcat P k = P p := by
  unfold kPcat
  refine (concatenate_pair_apply_left 1 _ _ concatenates_S16x4x40x40_S16x80x40x40_S16x84x40x40_d1 k rfl
    (ix4 (k 0) ⟨(k 1).val, hk⟩ (k 2) (k 3)) (fun a => match a with
      | ⟨0, _⟩ => rfl
      | ⟨1, _⟩ => rfl
      | ⟨2, _⟩ => rfl
      | ⟨3, _⟩ => rfl)).trans ?_
  unfold kP4
  exact extractStridedSlice_apply _ P slices_S16x144x40x40_S16x4x40x40_0_0_0_0 _ p (fun a => match a with
    | ⟨0, _⟩ => by show (p 0).val = 0 + (k 0).val; rw [hp]; omega
    | ⟨1, _⟩ => by show (p 1).val = 0 + (k 1).val; rw [hp]; omega
    | ⟨2, _⟩ => by show (p 2).val = 0 + (k 2).val; rw [hp]; omega
    | ⟨3, _⟩ => by show (p 3).val = 0 + (k 3).val; rw [hp]; omega)

/-- A class channel `4 + j` of the concatenation is channel `64 + j` of `P`. -/
theorem kPcat_cls (k : S16x84x40x40.Idx) (hk : 4 ≤ (k 1).val) (p : S16x144x40x40.Idx)
    (hp0 : (p 0).val = (k 0).val) (hp1 : (p 1).val = (k 1).val + 60) (hp2 : (p 2).val = (k 2).val) (hp3 : (p 3).val = (k 3).val) :
    kPcat P k = P p := by
  unfold kPcat
  have hk84 : (k 1).val < 84 := (k 1).isLt
  refine (concatenate_pair_apply_right 1 _ _ concatenates_S16x4x40x40_S16x80x40x40_S16x84x40x40_d1 k rfl rfl
    (ix4 (k 0) ⟨(k 1).val - 4, by omega⟩ (k 2) (k 3)) (fun a => match a with
      | ⟨0, _⟩ => fun _ => rfl
      | ⟨1, _⟩ => fun h => absurd rfl h
      | ⟨2, _⟩ => fun _ => rfl
      | ⟨3, _⟩ => fun _ => rfl) (by show (k 1).val - 4 + 4 = (k 1).val; omega)).trans ?_
  unfold kP80
  exact extractStridedSlice_apply _ P slices_S16x144x40x40_S16x80x40x40_0_64_0_0 _ p (fun a => match a with
    | ⟨0, _⟩ => by show (p 0).val = 0 + (k 0).val; omega
    | ⟨1, _⟩ => by show (p 1).val = 64 + ((k 1).val - 4); omega
    | ⟨2, _⟩ => by show (p 2).val = 0 + (k 2).val; omega
    | ⟨3, _⟩ => by show (p 3).val = 0 + (k 3).val; omega)

/-- The gathered cells with channels last, at object `(b, n)` and channel `c`. -/
theorem kCells_apply (b : Fin 16) (n : Fin 32) (c : Fin 84) : kCells P gx gy (ix3 b n c) = kSel P gx gy (ix3 b c n) := by
  unfold kCells
  exact transpose_apply [0, 2, 1] _ transposes_S16x84x32_S16x32x84_0_2_1 (ix3 b n c) (ix3 b c n) (fun a => match a with
    | ⟨0, _⟩ => rfl
    | ⟨1, _⟩ => rfl
    | ⟨2, _⟩ => rfl)

/-- THE KERNEL'S BOX PREDICTION at object `(b, n)`, coordinate `k`: `P[b, k, gy, gx]`. -/
theorem kCellBox_apply (b : Fin 16) (n : Fin 32) (k : Fin 4) (p : S16x144x40x40.Idx)
    (h0 : (p 0).val = b.val) (h1 : (p 1).val = k.val) (h2 : (p 2).val = (gy (ix2 b n)).toInt.toNat)
    (h3 : (p 3).val = (gx (ix2 b n)).toInt.toNat) :
    kCellBox P gx gy (ix3 b n k) = P p := by
  unfold kCellBox
  have hk := k.isLt
  refine (extractStridedSlice_apply _ _ slices_S16x32x84_S16x32x4_0_0_0 (ix3 b n k) (ix3 b n ⟨k.val, by omega⟩) (fun a => match a with
    | ⟨0, _⟩ => by show b.val = 0 + b.val; omega
    | ⟨1, _⟩ => by show n.val = 0 + n.val; omega
    | ⟨2, _⟩ => by show k.val = 0 + k.val; omega)).trans ?_
  obtain ⟨-, -, -, -, hy, hx⟩ := lin_ok gx gy hgx hgy (ix2 b n)
  rw [kCells_apply P gx gy hgx hgy, kSel_apply P gx gy hgx hgy b ⟨k.val, by omega⟩ n
    (ix4 b ⟨k.val, by omega⟩ ⟨(gy (ix2 b n)).toInt.toNat, hy⟩ ⟨(gx (ix2 b n)).toInt.toNat, hx⟩) rfl rfl rfl rfl]
  exact kPcat_box P gx gy hgx hgy _ hk p (fun a => match a with
    | ⟨0, _⟩ => h0
    | ⟨1, _⟩ => h1
    | ⟨2, _⟩ => h2
    | ⟨3, _⟩ => h3)

/-- THE KERNEL'S CLASS PREDICTION at object `(b, n)`, class `j`: `P[b, 64 + j, gy, gx]`. -/
theorem kCellCls_apply (b : Fin 16) (n : Fin 32) (j : Fin 80) (p : S16x144x40x40.Idx)
    (h0 : (p 0).val = b.val) (h1 : (p 1).val = 64 + j.val) (h2 : (p 2).val = (gy (ix2 b n)).toInt.toNat)
    (h3 : (p 3).val = (gx (ix2 b n)).toInt.toNat) :
    kCellCls P gx gy (ix3 b n j) = P p := by
  unfold kCellCls
  have hj := j.isLt
  refine (extractStridedSlice_apply _ _ slices_S16x32x84_S16x32x80_0_0_4 (ix3 b n j) (ix3 b n ⟨4 + j.val, by omega⟩) (fun a => match a with
    | ⟨0, _⟩ => by show b.val = 0 + b.val; omega
    | ⟨1, _⟩ => by show n.val = 0 + n.val; omega
    | ⟨2, _⟩ => by show 4 + j.val = 4 + j.val; omega)).trans ?_
  obtain ⟨-, -, -, -, hy, hx⟩ := lin_ok gx gy hgx hgy (ix2 b n)
  rw [kCells_apply P gx gy hgx hgy, kSel_apply P gx gy hgx hgy b ⟨4 + j.val, by omega⟩ n
    (ix4 b ⟨4 + j.val, by omega⟩ ⟨(gy (ix2 b n)).toInt.toNat, hy⟩ ⟨(gx (ix2 b n)).toInt.toNat, hx⟩) rfl rfl rfl rfl]
  exact kPcat_cls P gx gy hgx hgy _ (by show 4 ≤ 4 + j.val; omega) p h0 (by show (p 1).val = 4 + j.val + 60; omega) h2 h3

end Kernel

/-! ## The reference's route, one definition per printed operation -/

section Reference
open Cert.ReferenceIdeal
variable [Cert.ReferenceIdeal.Facts₀]
open Cert.ReferenceIdeal.Facts₀

/-- The predictions with the channels last. -/
def rPT (P : (⟨S16x144x40x40, .f32⟩ : BufTy).Contents (Elt Ideal)) : (⟨S16x40x40x144, .f32⟩ : BufTy).Contents (Elt Ideal) :=
  transpose S16x40x40x144 [0, 2, 3, 1] P transposes_S16x144x40x40_S16x40x40x144_0_2_3_1
/-- Their first 64 channels. -/
def rP64 (P : (⟨S16x144x40x40, .f32⟩ : BufTy).Contents (Elt Ideal)) : (⟨S16x40x40x64, .f32⟩ : BufTy).Contents (Elt Ideal) :=
  extractStridedSlice S16x40x40x64 ![0, 0, 0, 0] (rPT P) slices_S16x40x40x144_S16x40x40x64_0_0_0_0
/-- Their 80 class channels. -/
def rP80 (P : (⟨S16x144x40x40, .f32⟩ : BufTy).Contents (Elt Ideal)) : (⟨S16x40x40x80, .f32⟩ : BufTy).Contents (Elt Ideal) :=
  extractStridedSlice S16x40x40x80 ![0, 0, 0, 64] (rPT P) slices_S16x40x40x144_S16x40x40x80_0_0_0_64
/-- The batch index as a column. -/
def rB : (⟨S16x1, .i32⟩ : BufTy).Contents (Elt Ideal) :=
  broadcastInDim S16x1 ![0] bcast_S16_S16x1_0 (iotaInDim S16 32 0)
/-- The batch index with a negative one counted from the end. -/
def rBn : (⟨S16x1, .i32⟩ : BufTy).Contents (Elt Ideal) :=
  select (cmpi .slt rB (broadcastInDim S16x1 ![] bcast_S_S16x1 (constantI S_ 32 0#32)))
    (addi rB (broadcastInDim S16x1 ![] bcast_S_S16x1 (constantI S_ 32 16#32))) rB
/-- A cell coordinate with a negative one counted from the end. -/
def rNorm (v : (⟨S16x32, .i32⟩ : BufTy).Contents (Elt Ideal)) : (⟨S16x32, .i32⟩ : BufTy).Contents (Elt Ideal) :=
  select (cmpi .slt v (broadcastInDim S16x32 ![] bcast_S_S16x32 (constantI S_ 32 0#32)))
    (addi v (broadcastInDim S16x32 ![] bcast_S_S16x32 (constantI S_ 32 40#32))) v
/-- The start indices `(b, gy, gx)` of the gather. -/
def rIdx3 (gx gy : (⟨S16x32, .i32⟩ : BufTy).Contents (Elt Ideal)) : (⟨S16x32x3, .i32⟩ : BufTy).Contents (Elt Ideal) :=
  concatenate S16x32x3 2
    [⟨S16x32x1, broadcastInDim S16x32x1 ![0, 1] bcast_S16x32_S16x32x1_0_1 (broadcastInDim S16x32 ![0, 1] bcast_S16x1_S16x32_0_1 rBn)⟩,
     ⟨S16x32x1, broadcastInDim S16x32x1 ![0, 1] bcast_S16x32_S16x32x1_0_1 (rNorm gy)⟩,
     ⟨S16x32x1, broadcastInDim S16x32x1 ![0, 1] bcast_S16x32_S16x32x1_0_1 (rNorm gx)⟩]
    concatenates_S16x32x1_S16x32x1_S16x32x1_S16x32x3_d2
/-- The reference's box predictions at the cells. -/
def rCellBox (P : (⟨S16x144x40x40, .f32⟩ : BufTy).Contents (Elt Ideal)) (gx gy : (⟨S16x32, .i32⟩ : BufTy).Contents (Elt Ideal)) :
    (⟨S16x32x4, .f32⟩ : BufTy).Contents (Elt Ideal) :=
  extractStridedSlice S16x32x4 ![0, 0, 0] (Host.gather gather_S16x40x40x64_S16x32x3_S16x32x64_2_012_n_n_012_2_11164 (rP64 P) (rIdx3 gx gy)) slices_S16x32x64_S16x32x4_0_0_0
/-- The reference's class predictions at the cells. -/
def rCellCls (P : (⟨S16x144x40x40, .f32⟩ : BufTy).Contents (Elt Ideal)) (gx gy : (⟨S16x32, .i32⟩ : BufTy).Contents (Elt Ideal)) :
    (⟨S16x32x80, .f32⟩ : BufTy).Contents (Elt Ideal) :=
  Host.gather gather_S16x40x40x80_S16x32x3_S16x32x80_2_012_n_n_012_2_11180 (rP80 P) (rIdx3 gx gy)

variable (P : (⟨S16x144x40x40, .f32⟩ : BufTy).Contents (Elt Ideal)) (gx gy : (⟨S16x32, .i32⟩ : BufTy).Contents (Elt Ideal))

/-- The channels-last predictions at `(b, y, x, c)` are `P[b, c, y, x]`. -/
theorem rPT_apply (q : S16x40x40x144.Idx) (p : S16x144x40x40.Idx)
    (h0 : (p 0).val = (q 0).val) (h1 : (p 1).val = (q 3).val) (h2 : (p 2).val = (q 1).val) (h3 : (p 3).val = (q 2).val) :
    rPT P q = P p := by
  unfold rPT
  exact transpose_apply [0, 2, 3, 1] P transposes_S16x144x40x40_S16x40x40x144_0_2_3_1 q p (fun a => match a with
    | ⟨0, _⟩ => h0
    | ⟨1, _⟩ => h2
    | ⟨2, _⟩ => h3
    | ⟨3, _⟩ => h1)

/-- The first 64 channels at an index. -/
theorem rP64_apply (q : S16x40x40x64.Idx) (p : S16x144x40x40.Idx)
    (h0 : (p 0).val = (q 0).val) (h1 : (p 1).val = (q 3).val) (h2 : (p 2).val = (q 1).val) (h3 : (p 3).val = (q 2).val) :
    rP64 P q = P p := by
  unfold rP64
  have hq := (q 3).isLt
  refine (extractStridedSlice_apply _ _ slices_S16x40x40x144_S16x40x40x64_0_0_0_0 q (ix4 (q 0) (q 1) (q 2) ⟨(q 3).val, by show (q 3).val < 144; have : (q 3).val < 64 := hq; omega⟩) (fun a => match a with
    | ⟨0, _⟩ => by show (q 0).val = 0 + (q 0).val; omega
    | ⟨1, _⟩ => by show (q 1).val = 0 + (q 1).val; omega
    | ⟨2, _⟩ => by show (q 2).val = 0 + (q 2).val; omega
    | ⟨3, _⟩ => by show (q 3).val = 0 + (q 3).val; omega)).trans ?_
  exact rPT_apply P _ p h0 h1 h2 h3

/-- The class channels at an index: channel `64 + j`. -/
theorem rP80_apply (q : S16x40x40x80.Idx) (p : S16x144x40x40.Idx)
    (h0 : (p 0).val = (q 0).val) (h1 : (p 1).val = 64 + (q 3).val) (h2 : (p 2).val = (q 1).val) (h3 : (p 3).val = (q 2).val) :
    rP80 P q = P p := by
  unfold rP80
  have hq := (q 3).isLt
  refine (extractStridedSlice_apply _ _ slices_S16x40x40x144_S16x40x40x80_0_0_0_64 q (ix4 (q 0) (q 1) (q 2) ⟨64 + (q 3).val, by show 64 + (q 3).val < 144; have : (q 3).val < 80 := hq; omega⟩) (fun a => match a with
    | ⟨0, _⟩ => by show (q 0).val = 0 + (q 0).val; omega
    | ⟨1, _⟩ => by show (q 1).val = 0 + (q 1).val; omega
    | ⟨2, _⟩ => by show (q 2).val = 0 + (q 2).val; omega
    | ⟨3, _⟩ => by show 64 + (q 3).val = 64 + (q 3).val; omega)).trans ?_
  exact rPT_apply P _ p h0 h1 h2 h3

/-- The batch component of an object's start index is its batch index. -/
theorem rIdx3_b (b : Fin 16) (n : Fin 32) : rIdx3 gx gy (ix3 b n ⟨0, by decide⟩) = BitVec.ofNat 32 b.val := by
  unfold rIdx3
  refine (concatenate_apply_piece (t := S16x32x3) 2 [⟨S16x32x1, broadcastInDim S16x32x1 ![0, 1] bcast_S16x32_S16x32x1_0_1 (broadcastInDim S16x32 ![0, 1] bcast_S16x1_S16x32_0_1 rBn)⟩,
     ⟨S16x32x1, broadcastInDim S16x32x1 ![0, 1] bcast_S16x32_S16x32x1_0_1 (rNorm gy)⟩,
     ⟨S16x32x1, broadcastInDim S16x32x1 ![0, 1] bcast_S16x32_S16x32x1_0_1 (rNorm gx)⟩]
    concatenates_S16x32x1_S16x32x1_S16x32x1_S16x32x3_d2 (ix3 b n ⟨0, by decide⟩) 0 (show (0 : Nat) < 3 by decide)
    S16x32x1 _ rfl rfl 0 rfl (ix3 b n ⟨0, Nat.one_pos⟩) (fun a => match a with
      | ⟨0, _⟩ => fun _ => rfl
      | ⟨1, _⟩ => fun _ => rfl
      | ⟨2, _⟩ => fun h => absurd rfl h) rfl).trans ?_
  refine (broadcastInDim_apply _ bcast_S16x32_S16x32x1_0_1 _ (ix3 b n ⟨0, Nat.one_pos⟩) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  refine (broadcastInDim_apply _ bcast_S16x1_S16x32_0_1 _ (ix2 b n) (ix2 b ⟨0, Nat.one_pos⟩) (fun a => match a with
    | ⟨0, _⟩ => by show b.val = if (16 : Nat) = 1 then 0 else b.val; rw [if_neg (by decide)]
    | ⟨1, _⟩ => by show 0 = if (1 : Nat) = 1 then 0 else n.val; rw [if_pos rfl])).trans ?_
  have hB : rB (ix2 b ⟨0, Nat.one_pos⟩) = BitVec.ofNat 32 b.val := by
    unfold rB
    exact broadcastInDim_apply _ bcast_S16_S16x1_0 _ (ix2 b ⟨0, Nat.one_pos⟩) (ix1 b) (fun a => match a with
      | ⟨0, _⟩ => by show b.val = if (16 : Nat) = 1 then 0 else b.val; rw [if_neg (by decide)])
  show Scalar.select (IntOp.cmpi .slt (rB (ix2 b ⟨0, Nat.one_pos⟩)) 0#32) (IntOp.addi (rB (ix2 b ⟨0, Nat.one_pos⟩)) 16#32)
    (rB (ix2 b ⟨0, Nat.one_pos⟩)) = _
  rw [hB]
  exact select_slt_zero _ _ (by rw [toInt_ofNat_small _ (by have := b.isLt; omega)]; omega)

variable (hgx : ∀ i, 0 ≤ (gx i).toInt ∧ (gx i).toInt < 40) (hgy : ∀ i, 0 ≤ (gy i).toInt ∧ (gy i).toInt < 40)
include hgx hgy

/-- The row component of an object's start index is its cell's row. -/
theorem rIdx3_y (b : Fin 16) (n : Fin 32) : rIdx3 gx gy (ix3 b n ⟨1, by decide⟩) = gy (ix2 b n) := by
  unfold rIdx3
  refine (concatenate_apply_piece (t := S16x32x3) 2 [⟨S16x32x1, broadcastInDim S16x32x1 ![0, 1] bcast_S16x32_S16x32x1_0_1 (broadcastInDim S16x32 ![0, 1] bcast_S16x1_S16x32_0_1 rBn)⟩,
     ⟨S16x32x1, broadcastInDim S16x32x1 ![0, 1] bcast_S16x32_S16x32x1_0_1 (rNorm gy)⟩,
     ⟨S16x32x1, broadcastInDim S16x32x1 ![0, 1] bcast_S16x32_S16x32x1_0_1 (rNorm gx)⟩]
    concatenates_S16x32x1_S16x32x1_S16x32x1_S16x32x3_d2 (ix3 b n ⟨1, by decide⟩) 1 (show (1 : Nat) < 3 by decide)
    S16x32x1 _ rfl rfl 1 rfl (ix3 b n ⟨0, Nat.one_pos⟩) (fun a => match a with
      | ⟨0, _⟩ => fun _ => rfl
      | ⟨1, _⟩ => fun _ => rfl
      | ⟨2, _⟩ => fun h => absurd rfl h) rfl).trans ?_
  refine (broadcastInDim_apply _ bcast_S16x32_S16x32x1_0_1 _ (ix3 b n ⟨0, Nat.one_pos⟩) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  exact select_slt_zero _ _ (hgy _).1

/-- The column component of an object's start index is its cell's column. -/
theorem rIdx3_x (b : Fin 16) (n : Fin 32) : rIdx3 gx gy (ix3 b n ⟨2, by decide⟩) = gx (ix2 b n) := by
  unfold rIdx3
  refine (concatenate_apply_piece (t := S16x32x3) 2 [⟨S16x32x1, broadcastInDim S16x32x1 ![0, 1] bcast_S16x32_S16x32x1_0_1 (broadcastInDim S16x32 ![0, 1] bcast_S16x1_S16x32_0_1 rBn)⟩,
     ⟨S16x32x1, broadcastInDim S16x32x1 ![0, 1] bcast_S16x32_S16x32x1_0_1 (rNorm gy)⟩,
     ⟨S16x32x1, broadcastInDim S16x32x1 ![0, 1] bcast_S16x32_S16x32x1_0_1 (rNorm gx)⟩]
    concatenates_S16x32x1_S16x32x1_S16x32x1_S16x32x3_d2 (ix3 b n ⟨2, by decide⟩) 2 (show (2 : Nat) < 3 by decide)
    S16x32x1 _ rfl rfl 2 rfl (ix3 b n ⟨0, Nat.one_pos⟩) (fun a => match a with
      | ⟨0, _⟩ => fun _ => rfl
      | ⟨1, _⟩ => fun _ => rfl
      | ⟨2, _⟩ => fun h => absurd rfl h) rfl).trans ?_
  refine (broadcastInDim_apply _ bcast_S16x32_S16x32x1_0_1 _ (ix3 b n ⟨0, Nat.one_pos⟩) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  exact select_slt_zero _ _ (hgx _).1

/-- The three clamped start-index components of object `(b, n)`: its batch index and its cell. -/
theorem rStart (b : Fin 16) (n : Fin 32) :
    min (rIdx3 gx gy (ix3 b n ⟨0, by decide⟩)).toInt.toNat (16 - 1) = b.val
    ∧ min (rIdx3 gx gy (ix3 b n ⟨1, by decide⟩)).toInt.toNat (40 - 1) = (gy (ix2 b n)).toInt.toNat
    ∧ min (rIdx3 gx gy (ix3 b n ⟨2, by decide⟩)).toInt.toNat (40 - 1) = (gx (ix2 b n)).toInt.toNat := by
  rw [rIdx3_b, rIdx3_y gx gy hgx hgy, rIdx3_x gx gy hgx hgy, toInt_ofNat_small _ (by have := b.isLt; omega)]
  have hb := b.isLt
  have hy := hgy (ix2 b n)
  have hx := hgx (ix2 b n)
  refine ⟨?_, ?_, ?_⟩
  · rw [Int.toNat_natCast]; omega
  · omega
  · omega

/-- THE REFERENCE'S BOX PREDICTION at object `(b, n)`, coordinate `k`: `P[b, k, gy, gx]`. -/
theorem rCellBox_apply (b : Fin 16) (n : Fin 32) (k : Fin 4) (p : S16x144x40x40.Idx)
    (h0 : (p 0).val = b.val) (h1 : (p 1).val = k.val) (h2 : (p 2).val = (gy (ix2 b n)).toInt.toNat)
    (h3 : (p 3).val = (gx (ix2 b n)).toInt.toNat) :
    rCellBox P gx gy (ix3 b n k) = P p := by
  unfold rCellBox
  have hk := k.isLt
  refine (extractStridedSlice_apply _ _ slices_S16x32x64_S16x32x4_0_0_0 (ix3 b n k) (ix3 b n ⟨k.val, by omega⟩) (fun a => match a with
    | ⟨0, _⟩ => by show b.val = 0 + b.val; omega
    | ⟨1, _⟩ => by show n.val = 0 + n.val; omega
    | ⟨2, _⟩ => by show k.val = 0 + k.val; omega)).trans ?_
  have e : gather_S16x40x40x64_S16x32x3_S16x32x64_2_012_n_n_012_2_11164 = cellDims 16 40 40 64 16 32 gather_S16x40x40x64_S16x32x3_S16x32x64_2_012_n_n_012_2_11164_wf := rfl
  rw [e, gather_cell_apply (by decide) (by decide) (by decide)]
  obtain ⟨s0, s1, s2⟩ := rStart gx gy hgx hgy b n
  exact rP64_apply P _ p (h0.trans s0.symm) h1 (h2.trans s1.symm) (h3.trans s2.symm)

/-- THE REFERENCE'S CLASS PREDICTION at object `(b, n)`, class `j`: `P[b, 64 + j, gy, gx]`. -/
theorem rCellCls_apply (b : Fin 16) (n : Fin 32) (j : Fin 80) (p : S16x144x40x40.Idx)
    (h0 : (p 0).val = b.val) (h1 : (p 1).val = 64 + j.val) (h2 : (p 2).val = (gy (ix2 b n)).toInt.toNat)
    (h3 : (p 3).val = (gx (ix2 b n)).toInt.toNat) :
    rCellCls P gx gy (ix3 b n j) = P p := by
  unfold rCellCls
  have e : gather_S16x40x40x80_S16x32x3_S16x32x80_2_012_n_n_012_2_11180 = cellDims 16 40 40 80 16 32 gather_S16x40x40x80_S16x32x3_S16x32x80_2_012_n_n_012_2_11180_wf := rfl
  rw [e, gather_cell_apply (by decide) (by decide) (by decide)]
  obtain ⟨s0, s1, s2⟩ := rStart gx gy hgx hgy b n
  exact rP80_apply P _ p (h0.trans s0.symm) h1 (h2.trans s1.symm) (h3.trans s2.symm)

end Reference

/-! ## The two routes agree -/

section Bridge
variable [Cert.KernelIdeal.Facts₀] [Cert.ReferenceIdeal.Facts₀]
variable (P : (⟨Cert.KernelIdeal.S16x144x40x40, .f32⟩ : BufTy).Contents (Elt Ideal))
  (gx gy : (⟨Cert.KernelIdeal.S16x32, .i32⟩ : BufTy).Contents (Elt Ideal))
  (hgx : ∀ i, 0 ≤ (gx i).toInt ∧ (gx i).toInt < 40) (hgy : ∀ i, 0 ≤ (gy i).toInt ∧ (gy i).toInt < 40)
include hgx hgy

/-- **Scale 1, boxes**: the kernel's gathered box predictions are the reference's. -/
theorem cellbox_eq_1 : kCellBox P gx gy = rCellBox P gx gy := by
  funext j
  obtain ⟨b, n, k, rfl⟩ : ∃ b n k, j = ix3 b n k := ⟨_, _, _, eq_ix3 j⟩
  obtain ⟨-, -, -, -, hy, hx⟩ := lin_ok gx gy hgx hgy (ix2 b n)
  have hk := k.isLt
  rw [kCellBox_apply P gx gy hgx hgy b n k
      (ix4 b ⟨k.val, by omega⟩ ⟨(gy (ix2 b n)).toInt.toNat, hy⟩ ⟨(gx (ix2 b n)).toInt.toNat, hx⟩) rfl rfl rfl rfl,
    rCellBox_apply P gx gy hgx hgy b n k
      (ix4 b ⟨k.val, by omega⟩ ⟨(gy (ix2 b n)).toInt.toNat, hy⟩ ⟨(gx (ix2 b n)).toInt.toNat, hx⟩) rfl rfl rfl rfl]

/-- **Scale 1, classes**: the kernel's gathered class predictions are the reference's. -/
theorem cellcls_eq_1 : kCellCls P gx gy = rCellCls P gx gy := by
  funext j
  obtain ⟨b, n, c, rfl⟩ : ∃ b n c, j = ix3 b n c := ⟨_, _, _, eq_ix3 j⟩
  obtain ⟨-, -, -, -, hy, hx⟩ := lin_ok gx gy hgx hgy (ix2 b n)
  have hc := c.isLt
  rw [kCellCls_apply P gx gy hgx hgy b n c
      (ix4 b ⟨64 + c.val, by omega⟩ ⟨(gy (ix2 b n)).toInt.toNat, hy⟩ ⟨(gx (ix2 b n)).toInt.toNat, hx⟩) rfl rfl rfl rfl,
    rCellCls_apply P gx gy hgx hgy b n c
      (ix4 b ⟨64 + c.val, by omega⟩ ⟨(gy (ix2 b n)).toInt.toNat, hy⟩ ⟨(gx (ix2 b n)).toInt.toNat, hx⟩) rfl rfl rfl rfl]

end Bridge

end Cert.Cells1

end
-- ==== Proof.CellsBridge2.lean ====
/-
  Scale 2 (a 20 × 20 grid of cells): the predictions gathered at the objects' cells are the same arrays in the kernel's
  program and in the reference. The kernel flattens each channel's grid, reads it at the linear index `gy * 20 + gx` by a
  gather along the last axis under an in-range mask, and transposes; the reference moves the channels last and reads the
  cell `(b, gy, gx)` by a gather that collapses the three leading axes. With `0 ≤ gx, gy < 20` the linear index does not
  wrap and is in range, so the mask is set and no clamp moves an index: both read `P[b, k, gy[b,n], gx[b,n]]`.
-/
import proofs.«153486_j83854941487213_2_alg».proof.KernelIdeal
import proofs.«153486_j83854941487213_2_alg».proof.ReferenceIdeal
import proofs.«153486_j83854941487213_2_alg».proof.Proof.LibGatherCells

noncomputable section

namespace Cert.Cells2

open Idealize.ShloMosaic Idealize.ShloMosaic.ValueIdx Cert.LibGatherCells

/-! ## The kernel's route, one definition per printed operation -/

section Kernel
open Cert.KernelIdeal
variable [Cert.KernelIdeal.Facts₀]
open Cert.KernelIdeal.Facts₀

/-- The box channels `P[:, 0:4]`. -/
def kP4 (P : (⟨S16x144x20x20, .f32⟩ : BufTy).Contents (Elt Ideal)) : (⟨S16x4x20x20, .f32⟩ : BufTy).Contents (Elt Ideal) :=
  extractStridedSlice S16x4x20x20 ![0, 0, 0, 0] P slices_S16x144x20x20_S16x4x20x20_0_0_0_0
/-- The class channels `P[:, 64:144]`. -/
def kP80 (P : (⟨S16x144x20x20, .f32⟩ : BufTy).Contents (Elt Ideal)) : (⟨S16x80x20x20, .f32⟩ : BufTy).Contents (Elt Ideal) :=
  extractStridedSlice S16x80x20x20 ![0, 64, 0, 0] P slices_S16x144x20x20_S16x80x20x20_0_64_0_0
/-- The 84 channels the kernel gathers: the 4 box channels, then the 80 class channels. -/
def kPcat (P : (⟨S16x144x20x20, .f32⟩ : BufTy).Contents (Elt Ideal)) : (⟨S16x84x20x20, .f32⟩ : BufTy).Contents (Elt Ideal) :=
  concatenate S16x84x20x20 1 [⟨S16x4x20x20, kP4 P⟩, ⟨S16x80x20x20, kP80 P⟩] concatenates_S16x4x20x20_S16x80x20x20_S16x84x20x20_d1
/-- Each channel's grid flattened row by row. -/
def kPflat (P : (⟨S16x144x20x20, .f32⟩ : BufTy).Contents (Elt Ideal)) : (⟨S16x84x400, .f32⟩ : BufTy).Contents (Elt Ideal) :=
  shapeCast S16x84x400 (kPcat P) shapeCasts_S16x84x20x20_S16x84x400
/-- The linear index of each object's cell, `gy * 20 + gx` in 32-bit words. -/
def kLin (gx gy : (⟨S16x32, .i32⟩ : BufTy).Contents (Elt Ideal)) : (⟨S16x32, .i32⟩ : BufTy).Contents (Elt Ideal) :=
  addi (muli gy (broadcastInDim S16x32 ![] bcast_S_S16x32 (constantI S_ 32 20#32))) gx
/-- The linear index repeated over the 84 channels. -/
def kLin3 (gx gy : (⟨S16x32, .i32⟩ : BufTy).Contents (Elt Ideal)) : (⟨S16x84x32, .i32⟩ : BufTy).Contents (Elt Ideal) :=
  broadcastInDim S16x84x32 ![0, 1, 2] bcast_S16x1x32_S16x84x32_0_1_2
    (broadcastInDim S16x1x32 ![0, 2] bcast_S16x32_S16x1x32_0_2 (kLin gx gy))
/-- "The index is negative". -/
def kNeg (gx gy : (⟨S16x32, .i32⟩ : BufTy).Contents (Elt Ideal)) : (⟨S16x84x32, .i1⟩ : BufTy).Contents (Elt Ideal) :=
  cmpi .slt (kLin3 gx gy) (broadcastInDim S16x84x32 ![] bcast_S_S16x84x32 (constantI S_ 32 0#32))
/-- The index plus the axis length. -/
def kWrap (gx gy : (⟨S16x32, .i32⟩ : BufTy).Contents (Elt Ideal)) : (⟨S16x84x32, .i32⟩ : BufTy).Contents (Elt Ideal) :=
  addi (kLin3 gx gy) (broadcastInDim S16x84x32 ![] bcast_S_S16x84x32 (constantI S_ 32 400#32))
/-- The index with a negative one counted from the end. -/
def kNorm (gx gy : (⟨S16x32, .i32⟩ : BufTy).Contents (Elt Ideal)) : (⟨S16x84x32, .i32⟩ : BufTy).Contents (Elt Ideal) :=
  select (kNeg gx gy) (kWrap gx gy) (kLin3 gx gy)
/-- The start indices of the gather, with their unit index-vector axis. -/
def kIdx4 (gx gy : (⟨S16x32, .i32⟩ : BufTy).Contents (Elt Ideal)) : (⟨S16x84x32x1, .i32⟩ : BufTy).Contents (Elt Ideal) :=
  shapeCast S16x84x32x1 (kNorm gx gy) shapeCasts_S16x84x32_S16x84x32x1
/-- "The index is at least 0". -/
def kGe (gx gy : (⟨S16x32, .i32⟩ : BufTy).Contents (Elt Ideal)) : (⟨S16x84x32x1, .i1⟩ : BufTy).Contents (Elt Ideal) :=
  cmpi .sge (kIdx4 gx gy) (broadcastInDim S16x84x32x1 ![] bcast_S_S16x84x32x1 (constantI S_ 32 0#32))
/-- "The index is at most 399". -/
def kLe (gx gy : (⟨S16x32, .i32⟩ : BufTy).Contents (Elt Ideal)) : (⟨S16x84x32x1, .i1⟩ : BufTy).Contents (Elt Ideal) :=
  cmpi .sle (kIdx4 gx gy) (broadcastInDim S16x84x32x1 ![0, 1, 2, 3] bcast_S1x1x1x1_S16x84x32x1_0_1_2_3
    (broadcastInDim S1x1x1x1 ![3] bcast_S1_S1x1x1x1_3 (constantI S1 32 399#32)))
/-- Both. -/
def kIn (gx gy : (⟨S16x32, .i32⟩ : BufTy).Contents (Elt Ideal)) : (⟨S16x84x32x1, .i1⟩ : BufTy).Contents (Elt Ideal) :=
  andi (kGe gx gy) (kLe gx gy)
/-- The in-range mask: the conjunction over the unit axis. -/
def kMask (gx gy : (⟨S16x32, .i32⟩ : BufTy).Contents (Elt Ideal)) : (⟨S16x84x32, .i1⟩ : BufTy).Contents (Elt Ideal) :=
  Host.reduce IntOp.andi (kIn gx gy) (constantI S_ 1 1#1) reducesTo_S16x84x32x1_S16x84x32_d3 h_S_
/-- The gather along the flattened grid. -/
def kGath (P : (⟨S16x144x20x20, .f32⟩ : BufTy).Contents (Elt Ideal)) (gx gy : (⟨S16x32, .i32⟩ : BufTy).Contents (Elt Ideal)) :
    (⟨S16x84x32, .f32⟩ : BufTy).Contents (Elt Ideal) :=
  Host.gather gather_S16x84x400_S16x84x32x1_S16x84x32_n_2_01_01_2_3_111 (kPflat P) (kIdx4 gx gy)
/-- The gathered value where the index is in range, the fill value elsewhere. -/
def kSel (P : (⟨S16x144x20x20, .f32⟩ : BufTy).Contents (Elt Ideal)) (gx gy : (⟨S16x32, .i32⟩ : BufTy).Contents (Elt Ideal)) :
    (⟨S16x84x32, .f32⟩ : BufTy).Contents (Elt Ideal) :=
  select (kMask gx gy) (kGath P gx gy) (broadcastInDim S16x84x32 ![] bcast_S_S16x84x32 (constant (F := Ideal) S_ .f32 0x7FC00000#32))
/-- The gathered cells with the channels last. -/
def kCells (P : (⟨S16x144x20x20, .f32⟩ : BufTy).Contents (Elt Ideal)) (gx gy : (⟨S16x32, .i32⟩ : BufTy).Contents (Elt Ideal)) :
    (⟨S16x32x84, .f32⟩ : BufTy).Contents (Elt Ideal) :=
  transpose S16x32x84 [0, 2, 1] (kSel P gx gy) transposes_S16x84x32_S16x32x84_0_2_1
/-- The kernel's box predictions at the cells. -/
def kCellBox (P : (⟨S16x144x20x20, .f32⟩ : BufTy).Contents (Elt Ideal)) (gx gy : (⟨S16x32, .i32⟩ : BufTy).Contents (Elt Ideal)) :
    (⟨S16x32x4, .f32⟩ : BufTy).Contents (Elt Ideal) :=
  extractStridedSlice S16x32x4 ![0, 0, 0] (kCells P gx gy) slices_S16x32x84_S16x32x4_0_0_0
/-- The kernel's class predictions at the cells. -/
def kCellCls (P : (⟨S16x144x20x20, .f32⟩ : BufTy).Contents (Elt Ideal)) (gx gy : (⟨S16x32, .i32⟩ : BufTy).Contents (Elt Ideal)) :
    (⟨S16x32x80, .f32⟩ : BufTy).Contents (Elt Ideal) :=
  extractStridedSlice S16x32x80 ![0, 0, 4] (kCells P gx gy) slices_S16x32x84_S16x32x80_0_0_4

variable (P : (⟨S16x144x20x20, .f32⟩ : BufTy).Contents (Elt Ideal)) (gx gy : (⟨S16x32, .i32⟩ : BufTy).Contents (Elt Ideal))

/-- The linear index at an object. -/
theorem kLin_apply (i : S16x32.Idx) : kLin gx gy i = IntOp.addi (IntOp.muli (gy i) 20#32) (gx i) := rfl

/-- Its copy for channel `c` is the object's. -/
theorem kLin3_apply (b : Fin 16) (c : Fin 84) (n : Fin 32) : kLin3 gx gy (ix3 b c n) = kLin gx gy (ix2 b n) := by
  unfold kLin3
  refine (broadcastInDim_apply _ bcast_S16x1x32_S16x84x32_0_1_2 _ (ix3 b c n) (ix3 b ⟨0, Nat.one_pos⟩ n) (fun a => match a with
    | ⟨0, _⟩ => by show b.val = if (16 : Nat) = 1 then 0 else b.val; rw [if_neg (by decide)]
    | ⟨1, _⟩ => by show 0 = if (1 : Nat) = 1 then 0 else c.val; rw [if_pos rfl]
    | ⟨2, _⟩ => by show n.val = if (32 : Nat) = 1 then 0 else n.val; rw [if_neg (by decide)])).trans ?_
  exact broadcastInDim_apply _ bcast_S16x32_S16x1x32_0_2 _ (ix3 b ⟨0, Nat.one_pos⟩ n) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])

variable (hgx : ∀ i, 0 ≤ (gx i).toInt ∧ (gx i).toInt < 20) (hgy : ∀ i, 0 ≤ (gy i).toInt ∧ (gy i).toInt < 20)
include hgx hgy

/-- What the two range hypotheses give of the linear index at object `(b, n)`. -/
theorem lin_ok (i : S16x32.Idx) :
    IntOp.cmpi .slt (kLin gx gy i) 0#32 = 0#1
    ∧ IntOp.cmpi .sge (kLin gx gy i) 0#32 = 1#1
    ∧ IntOp.cmpi .sle (kLin gx gy i) 399#32 = 1#1
    ∧ (kLin gx gy i).toInt.toNat = (gy i).toInt.toNat * 20 + (gx i).toInt.toNat
    ∧ (gy i).toInt.toNat < 20 ∧ (gx i).toInt.toNat < 20 :=
  lin_facts (gy i) (gx i) 20 20 399 (by decide) (by decide) (by have := hgy i; exact_mod_cast this) (by have := hgx i; exact_mod_cast this)

/-- The start index of channel `c` and object `(b, n)` is the object's linear index. -/
theorem kIdx4_apply (b : Fin 16) (c : Fin 84) (n : Fin 32) (z : Fin 1) :
    kIdx4 gx gy (ix4 b c n z) = kLin gx gy (ix2 b n) := by
  unfold kIdx4
  refine (shapeCast_apply _ shapeCasts_S16x84x32_S16x84x32x1 (ix4 b c n z) (ix3 b c n) (by
    rewrite [Shape.rowMajor_val_three, Shape.rowMajor_val_four]
    have hz : z.val = 0 := by have := z.isLt; omega
    show (b.val * 84 + c.val) * 32 + n.val = ((b.val * 84 + c.val) * 32 + n.val) * 1 + z.val
    omega)).trans ?_
  show Scalar.select (IntOp.cmpi .slt (kLin3 gx gy (ix3 b c n)) 0#32) (IntOp.addi (kLin3 gx gy (ix3 b c n)) 400#32)
    (kLin3 gx gy (ix3 b c n)) = _
  rw [kLin3_apply, (lin_ok gx gy hgx hgy (ix2 b n)).1]
  exact select_zero _ _

/-- Every index is in range. -/
theorem kIn_eq (q : S16x84x32x1.Idx) : kIn gx gy q = 1#1 := by
  obtain ⟨b, c, n, z, rfl⟩ : ∃ b c n z, q = ix4 b c n z := ⟨_, _, _, _, eq_ix4 q⟩
  show IntOp.andi (IntOp.cmpi .sge (kIdx4 gx gy (ix4 b c n z)) 0#32) (IntOp.cmpi .sle (kIdx4 gx gy (ix4 b c n z)) 399#32) = 1#1
  rw [kIdx4_apply gx gy hgx hgy, (lin_ok gx gy hgx hgy (ix2 b n)).2.1, (lin_ok gx gy hgx hgy (ix2 b n)).2.2.1]
  rfl

/-- The mask is set everywhere. -/
theorem kMask_eq (j : S16x84x32.Idx) : kMask gx gy j = 1#1 := by
  unfold kMask
  exact reduce_andi_eq_one (kIn gx gy) (constantI S_ 1 1#1) reducesTo_S16x84x32x1_S16x84x32_d3 h_S_ (kIn_eq gx gy hgx hgy) (fun _ => rfl) j

/-- THE KERNEL'S GATHERED VALUE for channel `c` of the 84 at object `(b, n)`: the concatenated channels at the object's
    cell. -/
theorem kSel_apply (b : Fin 16) (c : Fin 84) (n : Fin 32) (k : S16x84x20x20.Idx)
    (h0 : (k 0).val = b.val) (h1 : (k 1).val = c.val) (h2 : (k 2).val = (gy (ix2 b n)).toInt.toNat)
    (h3 : (k 3).val = (gx (ix2 b n)).toInt.toNat) :
    kSel P gx gy (ix3 b c n) = kPcat P k := by
  unfold kSel
  rw [select_apply, kMask_eq gx gy hgx hgy, select_one]
  unfold kGath
  have e : gather_S16x84x400_S16x84x32x1_S16x84x32_n_2_01_01_2_3_111 = batchedDims 16 84 400 32 gather_S16x84x400_S16x84x32x1_S16x84x32_n_2_01_01_2_3_111_wf := rfl
  rw [e, gather_batched_apply (by decide)]
  unfold kPflat
  obtain ⟨-, -, -, hl, hy, hx⟩ := lin_ok gx gy hgx hgy (ix2 b n)
  refine shapeCast_apply _ shapeCasts_S16x84x20x20_S16x84x400 _ k ?_
  rewrite [Shape.rowMajor_val_four, Shape.rowMajor_val_three]
  show (((k 0).val * 84 + (k 1).val) * 20 + (k 2).val) * 20 + (k 3).val
    = (b.val * 84 + c.val) * 400 + min (kIdx4 gx gy (ix4 b c n ⟨0, Nat.one_pos⟩)).toInt.toNat (400 - 1)
  rw [kIdx4_apply gx gy hgx hgy, hl, h0, h1, h2, h3]
  omega

/-- A box channel of the concatenation is that channel of `P`. -/
theorem kPcat_box (k : S16x84x20x20.Idx) (hk : (k 1).val < 4) (p : S16x144x20x20.Idx)
    (hp : ∀ a, (p a).val = (k a).val) : kPcat P k = P p := by
  unfold kPcat
  refine (concatenate_pair_apply_left 1 _ _ concatenates_S16x4x20x20_S16x80x20x20_S16x84x20x20_d1 k rfl
    (ix4 (k 0) ⟨(k 1).val, hk⟩ (k 2) (k 3)) (fun a => match a with
      | ⟨0, _⟩ => rfl
      | ⟨1, _⟩ => rfl
      | ⟨2, _⟩ => rfl
      | ⟨3, _⟩ => rfl)).trans ?_
  unfold kP4
  exact extractStridedSlice_apply _ P slices_S16x144x20x20_S16x4x20x20_0_0_0_0 _ p (fun a => match a with
    | ⟨0, _⟩ => by show (p 0).val = 0 + (k 0).val; rw [hp]; omega
    | ⟨1, _⟩ => by show (p 1).val = 0 + (k 1).val; rw [hp]; omega
    | ⟨2, _⟩ => by show (p 2).val = 0 + (k 2).val; rw [hp]; omega
    | ⟨3, _⟩ => by show (p 3).val = 0 + (k 3).val; rw [hp]; omega)

/-- A class channel `4 + j` of the concatenation is channel `64 + j` of `P`. -/
theorem kPcat_cls (k : S16x84x20x20.Idx) (hk : 4 ≤ (k 1).val) (p : S16x144x20x20.Idx)
    (hp0 : (p 0).val = (k 0).val) (hp1 : (p 1).val = (k 1).val + 60) (hp2 : (p 2).val = (k 2).val) (hp3 : (p 3).val = (k 3).val) :
    kPcat P k = P p := by
  unfold kPcat
  have hk84 : (k 1).val < 84 := (k 1).isLt
  refine (concatenate_pair_apply_right 1 _ _ concatenates_S16x4x20x20_S16x80x20x20_S16x84x20x20_d1 k rfl rfl
    (ix4 (k 0) ⟨(k 1).val - 4, by omega⟩ (k 2) (k 3)) (fun a => match a with
      | ⟨0, _⟩ => fun _ => rfl
      | ⟨1, _⟩ => fun h => absurd rfl h
      | ⟨2, _⟩ => fun _ => rfl
      | ⟨3, _⟩ => fun _ => rfl) (by show (k 1).val - 4 + 4 = (k 1).val; omega)).trans ?_
  unfold kP80
  exact extractStridedSlice_apply _ P slices_S16x144x20x20_S16x80x20x20_0_64_0_0 _ p (fun a => match a with
    | ⟨0, _⟩ => by show (p 0).val = 0 + (k 0).val; omega
    | ⟨1, _⟩ => by show (p 1).val = 64 + ((k 1).val - 4); omega
    | ⟨2, _⟩ => by show (p 2).val = 0 + (k 2).val; omega
    | ⟨3, _⟩ => by show (p 3).val = 0 + (k 3).val; omega)

/-- The gathered cells with channels last, at object `(b, n)` and channel `c`. -/
theorem kCells_apply (b : Fin 16) (n : Fin 32) (c : Fin 84) : kCells P gx gy (ix3 b n c) = kSel P gx gy (ix3 b c n) := by
  unfold kCells
  exact transpose_apply [0, 2, 1] _ transposes_S16x84x32_S16x32x84_0_2_1 (ix3 b n c) (ix3 b c n) (fun a => match a with
    | ⟨0, _⟩ => rfl
    | ⟨1, _⟩ => rfl
    | ⟨2, _⟩ => rfl)

/-- THE KERNEL'S BOX PREDICTION at object `(b, n)`, coordinate `k`: `P[b, k, gy, gx]`. -/
theorem kCellBox_apply (b : Fin 16) (n : Fin 32) (k : Fin 4) (p : S16x144x20x20.Idx)
    (h0 : (p 0).val = b.val) (h1 : (p 1).val = k.val) (h2 : (p 2).val = (gy (ix2 b n)).toInt.toNat)
    (h3 : (p 3).val = (gx (ix2 b n)).toInt.toNat) :
    kCellBox P gx gy (ix3 b n k) = P p := by
  unfold kCellBox
  have hk := k.isLt
  refine (extractStridedSlice_apply _ _ slices_S16x32x84_S16x32x4_0_0_0 (ix3 b n k) (ix3 b n ⟨k.val, by omega⟩) (fun a => match a with
    | ⟨0, _⟩ => by show b.val = 0 + b.val; omega
    | ⟨1, _⟩ => by show n.val = 0 + n.val; omega
    | ⟨2, _⟩ => by show k.val = 0 + k.val; omega)).trans ?_
  obtain ⟨-, -, -, -, hy, hx⟩ := lin_ok gx gy hgx hgy (ix2 b n)
  rw [kCells_apply P gx gy hgx hgy, kSel_apply P gx gy hgx hgy b ⟨k.val, by omega⟩ n
    (ix4 b ⟨k.val, by omega⟩ ⟨(gy (ix2 b n)).toInt.toNat, hy⟩ ⟨(gx (ix2 b n)).toInt.toNat, hx⟩) rfl rfl rfl rfl]
  exact kPcat_box P gx gy hgx hgy _ hk p (fun a => match a with
    | ⟨0, _⟩ => h0
    | ⟨1, _⟩ => h1
    | ⟨2, _⟩ => h2
    | ⟨3, _⟩ => h3)

/-- THE KERNEL'S CLASS PREDICTION at object `(b, n)`, class `j`: `P[b, 64 + j, gy, gx]`. -/
theorem kCellCls_apply (b : Fin 16) (n : Fin 32) (j : Fin 80) (p : S16x144x20x20.Idx)
    (h0 : (p 0).val = b.val) (h1 : (p 1).val = 64 + j.val) (h2 : (p 2).val = (gy (ix2 b n)).toInt.toNat)
    (h3 : (p 3).val = (gx (ix2 b n)).toInt.toNat) :
    kCellCls P gx gy (ix3 b n j) = P p := by
  unfold kCellCls
  have hj := j.isLt
  refine (extractStridedSlice_apply _ _ slices_S16x32x84_S16x32x80_0_0_4 (ix3 b n j) (ix3 b n ⟨4 + j.val, by omega⟩) (fun a => match a with
    | ⟨0, _⟩ => by show b.val = 0 + b.val; omega
    | ⟨1, _⟩ => by show n.val = 0 + n.val; omega
    | ⟨2, _⟩ => by show 4 + j.val = 4 + j.val; omega)).trans ?_
  obtain ⟨-, -, -, -, hy, hx⟩ := lin_ok gx gy hgx hgy (ix2 b n)
  rw [kCells_apply P gx gy hgx hgy, kSel_apply P gx gy hgx hgy b ⟨4 + j.val, by omega⟩ n
    (ix4 b ⟨4 + j.val, by omega⟩ ⟨(gy (ix2 b n)).toInt.toNat, hy⟩ ⟨(gx (ix2 b n)).toInt.toNat, hx⟩) rfl rfl rfl rfl]
  exact kPcat_cls P gx gy hgx hgy _ (by show 4 ≤ 4 + j.val; omega) p h0 (by show (p 1).val = 4 + j.val + 60; omega) h2 h3

end Kernel

/-! ## The reference's route, one definition per printed operation -/

section Reference
open Cert.ReferenceIdeal
variable [Cert.ReferenceIdeal.Facts₀]
open Cert.ReferenceIdeal.Facts₀

/-- The predictions with the channels last. -/
def rPT (P : (⟨S16x144x20x20, .f32⟩ : BufTy).Contents (Elt Ideal)) : (⟨S16x20x20x144, .f32⟩ : BufTy).Contents (Elt Ideal) :=
  transpose S16x20x20x144 [0, 2, 3, 1] P transposes_S16x144x20x20_S16x20x20x144_0_2_3_1
/-- Their first 64 channels. -/
def rP64 (P : (⟨S16x144x20x20, .f32⟩ : BufTy).Contents (Elt Ideal)) : (⟨S16x20x20x64, .f32⟩ : BufTy).Contents (Elt Ideal) :=
  extractStridedSlice S16x20x20x64 ![0, 0, 0, 0] (rPT P) slices_S16x20x20x144_S16x20x20x64_0_0_0_0
/-- Their 80 class channels. -/
def rP80 (P : (⟨S16x144x20x20, .f32⟩ : BufTy).Contents (Elt Ideal)) : (⟨S16x20x20x80, .f32⟩ : BufTy).Contents (Elt Ideal) :=
  extractStridedSlice S16x20x20x80 ![0, 0, 0, 64] (rPT P) slices_S16x20x20x144_S16x20x20x80_0_0_0_64
/-- The batch index as a column. -/
def rB : (⟨S16x1, .i32⟩ : BufTy).Contents (Elt Ideal) :=
  broadcastInDim S16x1 ![0] bcast_S16_S16x1_0 (iotaInDim S16 32 0)
/-- The batch index with a negative one counted from the end. -/
def rBn : (⟨S16x1, .i32⟩ : BufTy).Contents (Elt Ideal) :=
  select (cmpi .slt rB (broadcastInDim S16x1 ![] bcast_S_S16x1 (constantI S_ 32 0#32)))
    (addi rB (broadcastInDim S16x1 ![] bcast_S_S16x1 (constantI S_ 32 16#32))) rB
/-- A cell coordinate with a negative one counted from the end. -/
def rNorm (v : (⟨S16x32, .i32⟩ : BufTy).Contents (Elt Ideal)) : (⟨S16x32, .i32⟩ : BufTy).Contents (Elt Ideal) :=
  select (cmpi .slt v (broadcastInDim S16x32 ![] bcast_S_S16x32 (constantI S_ 32 0#32)))
    (addi v (broadcastInDim S16x32 ![] bcast_S_S16x32 (constantI S_ 32 20#32))) v
/-- The start indices `(b, gy, gx)` of the gather. -/
def rIdx3 (gx gy : (⟨S16x32, .i32⟩ : BufTy).Contents (Elt Ideal)) : (⟨S16x32x3, .i32⟩ : BufTy).Contents (Elt Ideal) :=
  concatenate S16x32x3 2
    [⟨S16x32x1, broadcastInDim S16x32x1 ![0, 1] bcast_S16x32_S16x32x1_0_1 (broadcastInDim S16x32 ![0, 1] bcast_S16x1_S16x32_0_1 rBn)⟩,
     ⟨S16x32x1, broadcastInDim S16x32x1 ![0, 1] bcast_S16x32_S16x32x1_0_1 (rNorm gy)⟩,
     ⟨S16x32x1, broadcastInDim S16x32x1 ![0, 1] bcast_S16x32_S16x32x1_0_1 (rNorm gx)⟩]
    concatenates_S16x32x1_S16x32x1_S16x32x1_S16x32x3_d2
/-- The reference's box predictions at the cells. -/
def rCellBox (P : (⟨S16x144x20x20, .f32⟩ : BufTy).Contents (Elt Ideal)) (gx gy : (⟨S16x32, .i32⟩ : BufTy).Contents (Elt Ideal)) :
    (⟨S16x32x4, .f32⟩ : BufTy).Contents (Elt Ideal) :=
  extractStridedSlice S16x32x4 ![0, 0, 0] (Host.gather gather_S16x20x20x64_S16x32x3_S16x32x64_2_012_n_n_012_2_11164 (rP64 P) (rIdx3 gx gy)) slices_S16x32x64_S16x32x4_0_0_0
/-- The reference's class predictions at the cells. -/
def rCellCls (P : (⟨S16x144x20x20, .f32⟩ : BufTy).Contents (Elt Ideal)) (gx gy : (⟨S16x32, .i32⟩ : BufTy).Contents (Elt Ideal)) :
    (⟨S16x32x80, .f32⟩ : BufTy).Contents (Elt Ideal) :=
  Host.gather gather_S16x20x20x80_S16x32x3_S16x32x80_2_012_n_n_012_2_11180 (rP80 P) (rIdx3 gx gy)

variable (P : (⟨S16x144x20x20, .f32⟩ : BufTy).Contents (Elt Ideal)) (gx gy : (⟨S16x32, .i32⟩ : BufTy).Contents (Elt Ideal))

/-- The channels-last predictions at `(b, y, x, c)` are `P[b, c, y, x]`. -/
theorem rPT_apply (q : S16x20x20x144.Idx) (p : S16x144x20x20.Idx)
    (h0 : (p 0).val = (q 0).val) (h1 : (p 1).val = (q 3).val) (h2 : (p 2).val = (q 1).val) (h3 : (p 3).val = (q 2).val) :
    rPT P q = P p := by
  unfold rPT
  exact transpose_apply [0, 2, 3, 1] P transposes_S16x144x20x20_S16x20x20x144_0_2_3_1 q p (fun a => match a with
    | ⟨0, _⟩ => h0
    | ⟨1, _⟩ => h2
    | ⟨2, _⟩ => h3
    | ⟨3, _⟩ => h1)

/-- The first 64 channels at an index. -/
theorem rP64_apply (q : S16x20x20x64.Idx) (p : S16x144x20x20.Idx)
    (h0 : (p 0).val = (q 0).val) (h1 : (p 1).val = (q 3).val) (h2 : (p 2).val = (q 1).val) (h3 : (p 3).val = (q 2).val) :
    rP64 P q = P p := by
  unfold rP64
  have hq := (q 3).isLt
  refine (extractStridedSlice_apply _ _ slices_S16x20x20x144_S16x20x20x64_0_0_0_0 q (ix4 (q 0) (q 1) (q 2) ⟨(q 3).val, by show (q 3).val < 144; have : (q 3).val < 64 := hq; omega⟩) (fun a => match a with
    | ⟨0, _⟩ => by show (q 0).val = 0 + (q 0).val; omega
    | ⟨1, _⟩ => by show (q 1).val = 0 + (q 1).val; omega
    | ⟨2, _⟩ => by show (q 2).val = 0 + (q 2).val; omega
    | ⟨3, _⟩ => by show (q 3).val = 0 + (q 3).val; omega)).trans ?_
  exact rPT_apply P _ p h0 h1 h2 h3

/-- The class channels at an index: channel `64 + j`. -/
theorem rP80_apply (q : S16x20x20x80.Idx) (p : S16x144x20x20.Idx)
    (h0 : (p 0).val = (q 0).val) (h1 : (p 1).val = 64 + (q 3).val) (h2 : (p 2).val = (q 1).val) (h3 : (p 3).val = (q 2).val) :
    rP80 P q = P p := by
  unfold rP80
  have hq := (q 3).isLt
  refine (extractStridedSlice_apply _ _ slices_S16x20x20x144_S16x20x20x80_0_0_0_64 q (ix4 (q 0) (q 1) (q 2) ⟨64 + (q 3).val, by show 64 + (q 3).val < 144; have : (q 3).val < 80 := hq; omega⟩) (fun a => match a with
    | ⟨0, _⟩ => by show (q 0).val = 0 + (q 0).val; omega
    | ⟨1, _⟩ => by show (q 1).val = 0 + (q 1).val; omega
    | ⟨2, _⟩ => by show (q 2).val = 0 + (q 2).val; omega
    | ⟨3, _⟩ => by show 64 + (q 3).val = 64 + (q 3).val; omega)).trans ?_
  exact rPT_apply P _ p h0 h1 h2 h3

/-- The batch component of an object's start index is its batch index. -/
theorem rIdx3_b (b : Fin 16) (n : Fin 32) : rIdx3 gx gy (ix3 b n ⟨0, by decide⟩) = BitVec.ofNat 32 b.val := by
  unfold rIdx3
  refine (concatenate_apply_piece (t := S16x32x3) 2 [⟨S16x32x1, broadcastInDim S16x32x1 ![0, 1] bcast_S16x32_S16x32x1_0_1 (broadcastInDim S16x32 ![0, 1] bcast_S16x1_S16x32_0_1 rBn)⟩,
     ⟨S16x32x1, broadcastInDim S16x32x1 ![0, 1] bcast_S16x32_S16x32x1_0_1 (rNorm gy)⟩,
     ⟨S16x32x1, broadcastInDim S16x32x1 ![0, 1] bcast_S16x32_S16x32x1_0_1 (rNorm gx)⟩]
    concatenates_S16x32x1_S16x32x1_S16x32x1_S16x32x3_d2 (ix3 b n ⟨0, by decide⟩) 0 (show (0 : Nat) < 3 by decide)
    S16x32x1 _ rfl rfl 0 rfl (ix3 b n ⟨0, Nat.one_pos⟩) (fun a => match a with
      | ⟨0, _⟩ => fun _ => rfl
      | ⟨1, _⟩ => fun _ => rfl
      | ⟨2, _⟩ => fun h => absurd rfl h) rfl).trans ?_
  refine (broadcastInDim_apply _ bcast_S16x32_S16x32x1_0_1 _ (ix3 b n ⟨0, Nat.one_pos⟩) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  refine (broadcastInDim_apply _ bcast_S16x1_S16x32_0_1 _ (ix2 b n) (ix2 b ⟨0, Nat.one_pos⟩) (fun a => match a with
    | ⟨0, _⟩ => by show b.val = if (16 : Nat) = 1 then 0 else b.val; rw [if_neg (by decide)]
    | ⟨1, _⟩ => by show 0 = if (1 : Nat) = 1 then 0 else n.val; rw [if_pos rfl])).trans ?_
  have hB : rB (ix2 b ⟨0, Nat.one_pos⟩) = BitVec.ofNat 32 b.val := by
    unfold rB
    exact broadcastInDim_apply _ bcast_S16_S16x1_0 _ (ix2 b ⟨0, Nat.one_pos⟩) (ix1 b) (fun a => match a with
      | ⟨0, _⟩ => by show b.val = if (16 : Nat) = 1 then 0 else b.val; rw [if_neg (by decide)])
  show Scalar.select (IntOp.cmpi .slt (rB (ix2 b ⟨0, Nat.one_pos⟩)) 0#32) (IntOp.addi (rB (ix2 b ⟨0, Nat.one_pos⟩)) 16#32)
    (rB (ix2 b ⟨0, Nat.one_pos⟩)) = _
  rw [hB]
  exact select_slt_zero _ _ (by rw [toInt_ofNat_small _ (by have := b.isLt; omega)]; omega)

variable (hgx : ∀ i, 0 ≤ (gx i).toInt ∧ (gx i).toInt < 20) (hgy : ∀ i, 0 ≤ (gy i).toInt ∧ (gy i).toInt < 20)
include hgx hgy

/-- The row component of an object's start index is its cell's row. -/
theorem rIdx3_y (b : Fin 16) (n : Fin 32) : rIdx3 gx gy (ix3 b n ⟨1, by decide⟩) = gy (ix2 b n) := by
  unfold rIdx3
  refine (concatenate_apply_piece (t := S16x32x3) 2 [⟨S16x32x1, broadcastInDim S16x32x1 ![0, 1] bcast_S16x32_S16x32x1_0_1 (broadcastInDim S16x32 ![0, 1] bcast_S16x1_S16x32_0_1 rBn)⟩,
     ⟨S16x32x1, broadcastInDim S16x32x1 ![0, 1] bcast_S16x32_S16x32x1_0_1 (rNorm gy)⟩,
     ⟨S16x32x1, broadcastInDim S16x32x1 ![0, 1] bcast_S16x32_S16x32x1_0_1 (rNorm gx)⟩]
    concatenates_S16x32x1_S16x32x1_S16x32x1_S16x32x3_d2 (ix3 b n ⟨1, by decide⟩) 1 (show (1 : Nat) < 3 by decide)
    S16x32x1 _ rfl rfl 1 rfl (ix3 b n ⟨0, Nat.one_pos⟩) (fun a => match a with
      | ⟨0, _⟩ => fun _ => rfl
      | ⟨1, _⟩ => fun _ => rfl
      | ⟨2, _⟩ => fun h => absurd rfl h) rfl).trans ?_
  refine (broadcastInDim_apply _ bcast_S16x32_S16x32x1_0_1 _ (ix3 b n ⟨0, Nat.one_pos⟩) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  exact select_slt_zero _ _ (hgy _).1

/-- The column component of an object's start index is its cell's column. -/
theorem rIdx3_x (b : Fin 16) (n : Fin 32) : rIdx3 gx gy (ix3 b n ⟨2, by decide⟩) = gx (ix2 b n) := by
  unfold rIdx3
  refine (concatenate_apply_piece (t := S16x32x3) 2 [⟨S16x32x1, broadcastInDim S16x32x1 ![0, 1] bcast_S16x32_S16x32x1_0_1 (broadcastInDim S16x32 ![0, 1] bcast_S16x1_S16x32_0_1 rBn)⟩,
     ⟨S16x32x1, broadcastInDim S16x32x1 ![0, 1] bcast_S16x32_S16x32x1_0_1 (rNorm gy)⟩,
     ⟨S16x32x1, broadcastInDim S16x32x1 ![0, 1] bcast_S16x32_S16x32x1_0_1 (rNorm gx)⟩]
    concatenates_S16x32x1_S16x32x1_S16x32x1_S16x32x3_d2 (ix3 b n ⟨2, by decide⟩) 2 (show (2 : Nat) < 3 by decide)
    S16x32x1 _ rfl rfl 2 rfl (ix3 b n ⟨0, Nat.one_pos⟩) (fun a => match a with
      | ⟨0, _⟩ => fun _ => rfl
      | ⟨1, _⟩ => fun _ => rfl
      | ⟨2, _⟩ => fun h => absurd rfl h) rfl).trans ?_
  refine (broadcastInDim_apply _ bcast_S16x32_S16x32x1_0_1 _ (ix3 b n ⟨0, Nat.one_pos⟩) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  exact select_slt_zero _ _ (hgx _).1

/-- The three clamped start-index components of object `(b, n)`: its batch index and its cell. -/
theorem rStart (b : Fin 16) (n : Fin 32) :
    min (rIdx3 gx gy (ix3 b n ⟨0, by decide⟩)).toInt.toNat (16 - 1) = b.val
    ∧ min (rIdx3 gx gy (ix3 b n ⟨1, by decide⟩)).toInt.toNat (20 - 1) = (gy (ix2 b n)).toInt.toNat
    ∧ min (rIdx3 gx gy (ix3 b n ⟨2, by decide⟩)).toInt.toNat (20 - 1) = (gx (ix2 b n)).toInt.toNat := by
  rw [rIdx3_b, rIdx3_y gx gy hgx hgy, rIdx3_x gx gy hgx hgy, toInt_ofNat_small _ (by have := b.isLt; omega)]
  have hb := b.isLt
  have hy := hgy (ix2 b n)
  have hx := hgx (ix2 b n)
  refine ⟨?_, ?_, ?_⟩
  · rw [Int.toNat_natCast]; omega
  · omega
  · omega

/-- THE REFERENCE'S BOX PREDICTION at object `(b, n)`, coordinate `k`: `P[b, k, gy, gx]`. -/
theorem rCellBox_apply (b : Fin 16) (n : Fin 32) (k : Fin 4) (p : S16x144x20x20.Idx)
    (h0 : (p 0).val = b.val) (h1 : (p 1).val = k.val) (h2 : (p 2).val = (gy (ix2 b n)).toInt.toNat)
    (h3 : (p 3).val = (gx (ix2 b n)).toInt.toNat) :
    rCellBox P gx gy (ix3 b n k) = P p := by
  unfold rCellBox
  have hk := k.isLt
  refine (extractStridedSlice_apply _ _ slices_S16x32x64_S16x32x4_0_0_0 (ix3 b n k) (ix3 b n ⟨k.val, by omega⟩) (fun a => match a with
    | ⟨0, _⟩ => by show b.val = 0 + b.val; omega
    | ⟨1, _⟩ => by show n.val = 0 + n.val; omega
    | ⟨2, _⟩ => by show k.val = 0 + k.val; omega)).trans ?_
  have e : gather_S16x20x20x64_S16x32x3_S16x32x64_2_012_n_n_012_2_11164 = cellDims 16 20 20 64 16 32 gather_S16x20x20x64_S16x32x3_S16x32x64_2_012_n_n_012_2_11164_wf := rfl
  rw [e, gather_cell_apply (by decide) (by decide) (by decide)]
  obtain ⟨s0, s1, s2⟩ := rStart gx gy hgx hgy b n
  exact rP64_apply P _ p (h0.trans s0.symm) h1 (h2.trans s1.symm) (h3.trans s2.symm)

/-- THE REFERENCE'S CLASS PREDICTION at object `(b, n)`, class `j`: `P[b, 64 + j, gy, gx]`. -/
theorem rCellCls_apply (b : Fin 16) (n : Fin 32) (j : Fin 80) (p : S16x144x20x20.Idx)
    (h0 : (p 0).val = b.val) (h1 : (p 1).val = 64 + j.val) (h2 : (p 2).val = (gy (ix2 b n)).toInt.toNat)
    (h3 : (p 3).val = (gx (ix2 b n)).toInt.toNat) :
    rCellCls P gx gy (ix3 b n j) = P p := by
  unfold rCellCls
  have e : gather_S16x20x20x80_S16x32x3_S16x32x80_2_012_n_n_012_2_11180 = cellDims 16 20 20 80 16 32 gather_S16x20x20x80_S16x32x3_S16x32x80_2_012_n_n_012_2_11180_wf := rfl
  rw [e, gather_cell_apply (by decide) (by decide) (by decide)]
  obtain ⟨s0, s1, s2⟩ := rStart gx gy hgx hgy b n
  exact rP80_apply P _ p (h0.trans s0.symm) h1 (h2.trans s1.symm) (h3.trans s2.symm)

end Reference

/-! ## The two routes agree -/

section Bridge
variable [Cert.KernelIdeal.Facts₀] [Cert.ReferenceIdeal.Facts₀]
variable (P : (⟨Cert.KernelIdeal.S16x144x20x20, .f32⟩ : BufTy).Contents (Elt Ideal))
  (gx gy : (⟨Cert.KernelIdeal.S16x32, .i32⟩ : BufTy).Contents (Elt Ideal))
  (hgx : ∀ i, 0 ≤ (gx i).toInt ∧ (gx i).toInt < 20) (hgy : ∀ i, 0 ≤ (gy i).toInt ∧ (gy i).toInt < 20)
include hgx hgy

/-- **Scale 2, boxes**: the kernel's gathered box predictions are the reference's. -/
theorem cellbox_eq_2 : kCellBox P gx gy = rCellBox P gx gy := by
  funext j
  obtain ⟨b, n, k, rfl⟩ : ∃ b n k, j = ix3 b n k := ⟨_, _, _, eq_ix3 j⟩
  obtain ⟨-, -, -, -, hy, hx⟩ := lin_ok gx gy hgx hgy (ix2 b n)
  have hk := k.isLt
  rw [kCellBox_apply P gx gy hgx hgy b n k
      (ix4 b ⟨k.val, by omega⟩ ⟨(gy (ix2 b n)).toInt.toNat, hy⟩ ⟨(gx (ix2 b n)).toInt.toNat, hx⟩) rfl rfl rfl rfl,
    rCellBox_apply P gx gy hgx hgy b n k
      (ix4 b ⟨k.val, by omega⟩ ⟨(gy (ix2 b n)).toInt.toNat, hy⟩ ⟨(gx (ix2 b n)).toInt.toNat, hx⟩) rfl rfl rfl rfl]

/-- **Scale 2, classes**: the kernel's gathered class predictions are the reference's. -/
theorem cellcls_eq_2 : kCellCls P gx gy = rCellCls P gx gy := by
  funext j
  obtain ⟨b, n, c, rfl⟩ : ∃ b n c, j = ix3 b n c := ⟨_, _, _, eq_ix3 j⟩
  obtain ⟨-, -, -, -, hy, hx⟩ := lin_ok gx gy hgx hgy (ix2 b n)
  have hc := c.isLt
  rw [kCellCls_apply P gx gy hgx hgy b n c
      (ix4 b ⟨64 + c.val, by omega⟩ ⟨(gy (ix2 b n)).toInt.toNat, hy⟩ ⟨(gx (ix2 b n)).toInt.toNat, hx⟩) rfl rfl rfl rfl,
    rCellCls_apply P gx gy hgx hgy b n c
      (ix4 b ⟨64 + c.val, by omega⟩ ⟨(gy (ix2 b n)).toInt.toNat, hy⟩ ⟨(gx (ix2 b n)).toInt.toNat, hx⟩) rfl rfl rfl rfl]

end Bridge

end Cert.Cells2

end
-- ==== Proof.LibClip.lean ====
import Idealize.ShloMosaic.PureOps.Float
import Idealize.ShloMosaic.PureOps.Vector

/-! # A clipped integer word lies in its interval

A clip of a 32-bit integer v into [lo, hi] is spelt min(hi, max(lo, v)) with the signed comparisons. Whatever v is, the
result read as a signed integer lies in [lo, hi] (for lo ≤ hi). -/

namespace Idealize.ShloMosaic.LibClip

/-- The signed maximum of two words is the larger signed value. -/
theorem toInt_maxsi {w : Nat} (x y : BitVec w) : (IntOp.maxsi x y).toInt = max x.toInt y.toInt := by
  unfold IntOp.maxsi
  by_cases h : y.slt x
  · rw [if_pos h]; rw [BitVec.slt_iff_toInt_lt] at h; omega
  · rw [if_neg h]; rw [BitVec.slt_iff_toInt_lt] at h; omega

/-- The signed minimum of two words is the smaller signed value. -/
theorem toInt_minsi {w : Nat} (x y : BitVec w) : (IntOp.minsi x y).toInt = min x.toInt y.toInt := by
  unfold IntOp.minsi
  by_cases h : x.slt y
  · rw [if_pos h]; rw [BitVec.slt_iff_toInt_lt] at h; omega
  · rw [if_neg h]; rw [BitVec.slt_iff_toInt_lt] at h; omega

/-- min(hi, max(lo, v)), read signed, lies in [lo, hi]. -/
theorem clip_range {w : Nat} (lo hi v : BitVec w) (h : lo.toInt ≤ hi.toInt) :
    lo.toInt ≤ (IntOp.minsi hi (IntOp.maxsi lo v)).toInt ∧ (IntOp.minsi hi (IntOp.maxsi lo v)).toInt ≤ hi.toInt := by
  rw [toInt_minsi, toInt_maxsi]; omega

end Idealize.ShloMosaic.LibClip
-- ==== Proof.CellsLink.lean ====
/-
  The reference program's stages for the gathered cells are the compositions the bridges are stated over, and its cell
  coordinates are in range: a coordinate is `min(W − 1, max(0, ·))` of a converted float, so whatever the float it lies in
  `[0, W − 1]`. Hence, per scale, the kernel's route applied to the reference's coordinates gives the reference's own
  box and class stages.
-/
import proofs.«153486_j83854941487213_2_alg».proof.Proof.RefReadP
import proofs.«153486_j83854941487213_2_alg».proof.Proof.CellsBridge0
import proofs.«153486_j83854941487213_2_alg».proof.Proof.CellsBridge1
import proofs.«153486_j83854941487213_2_alg».proof.Proof.CellsBridge2
import proofs.«153486_j83854941487213_2_alg».proof.Proof.LibClip

noncomputable section

namespace Cert.CellsLink

open Idealize.ShloMosaic Idealize.ShloMosaic.LibClip Cert.ReferenceIdeal.Read

/-- The signed values of the clip bounds. -/
theorem toInt_zero32 : (0#32 : BitVec 32).toInt = 0 := by decide
theorem toInt_79_32 : (79#32 : BitVec 32).toInt = 79 := by decide
theorem toInt_39_32 : (39#32 : BitVec 32).toInt = 39 := by decide
theorem toInt_19_32 : (19#32 : BitVec 32).toInt = 19 := by decide

/-! ## Scale 0 -/

/-- The reference's cell columns are in `[0, 79]`: each is a clip into that interval. -/
theorem gx_range_0 (x3 : (⟨Cert.ReferenceIdeal.S16x32x4, .f32⟩ : BufTy).Contents (Elt Ideal)) :
    ∀ i, 0 ≤ (val_main_v20 (F := Ideal) x3 i).toInt ∧ (val_main_v20 (F := Ideal) x3 i).toInt < 80 := by
  intro i
  have e : val_main_v20 (F := Ideal) x3 i = IntOp.minsi 79#32 (IntOp.maxsi 0#32 (val_main_v19 (F := Ideal) x3 i)) := rfl
  have h := clip_range 0#32 79#32 (val_main_v19 (F := Ideal) x3 i) (by rw [toInt_zero32, toInt_79_32]; decide)
  rw [toInt_zero32, toInt_79_32] at h
  rw [e]
  omega

/-- The reference's cell rows are in `[0, 79]`. -/
theorem gy_range_0 (x3 : (⟨Cert.ReferenceIdeal.S16x32x4, .f32⟩ : BufTy).Contents (Elt Ideal)) :
    ∀ i, 0 ≤ (val_main_v22 (F := Ideal) x3 i).toInt ∧ (val_main_v22 (F := Ideal) x3 i).toInt < 80 := by
  intro i
  have e : val_main_v22 (F := Ideal) x3 i = IntOp.minsi 79#32 (IntOp.maxsi 0#32 (val_main_v21 (F := Ideal) x3 i)) := rfl
  have h := clip_range 0#32 79#32 (val_main_v21 (F := Ideal) x3 i) (by rw [toInt_zero32, toInt_79_32]; decide)
  rw [toInt_zero32, toInt_79_32] at h
  rw [e]
  omega

/-- The reference's box stage is the reference route of the bridge, at the reference's coordinates. -/
theorem rbox_0 (x0 : (⟨Cert.ReferenceIdeal.S16x144x80x80, .f32⟩ : BufTy).Contents (Elt Ideal)) (x3 : (⟨Cert.ReferenceIdeal.S16x32x4, .f32⟩ : BufTy).Contents (Elt Ideal)) :
    val_main_v72 (F := Ideal) x0 x3
      = Cert.Cells0.rCellBox x0 (val_main_v20 (F := Ideal) x3) (val_main_v22 (F := Ideal) x3) := rfl

/-- The reference's class stage is the reference route of the bridge, at the reference's coordinates. -/
theorem rcls_0 (x0 : (⟨Cert.ReferenceIdeal.S16x144x80x80, .f32⟩ : BufTy).Contents (Elt Ideal)) (x3 : (⟨Cert.ReferenceIdeal.S16x32x4, .f32⟩ : BufTy).Contents (Elt Ideal)) :
    val_main_v112 (F := Ideal) x0 x3
      = Cert.Cells0.rCellCls x0 (val_main_v20 (F := Ideal) x3) (val_main_v22 (F := Ideal) x3) := rfl

/-- The kernel's route at the reference's coordinates gives the reference's box stage. -/
theorem kbox_0 [Cert.KernelIdeal.Facts₀] (x0 : (⟨Cert.ReferenceIdeal.S16x144x80x80, .f32⟩ : BufTy).Contents (Elt Ideal)) (x3 : (⟨Cert.ReferenceIdeal.S16x32x4, .f32⟩ : BufTy).Contents (Elt Ideal)) :
    Cert.Cells0.kCellBox x0 (val_main_v20 (F := Ideal) x3) (val_main_v22 (F := Ideal) x3) = val_main_v72 (F := Ideal) x0 x3 :=
  (Cert.Cells0.cellbox_eq_0 x0 _ _ (gx_range_0 x3) (gy_range_0 x3)).trans (rbox_0 x0 x3).symm

/-- The kernel's route at the reference's coordinates gives the reference's class stage. -/
theorem kcls_0 [Cert.KernelIdeal.Facts₀] (x0 : (⟨Cert.ReferenceIdeal.S16x144x80x80, .f32⟩ : BufTy).Contents (Elt Ideal)) (x3 : (⟨Cert.ReferenceIdeal.S16x32x4, .f32⟩ : BufTy).Contents (Elt Ideal)) :
    Cert.Cells0.kCellCls x0 (val_main_v20 (F := Ideal) x3) (val_main_v22 (F := Ideal) x3) = val_main_v112 (F := Ideal) x0 x3 :=
  (Cert.Cells0.cellcls_eq_0 x0 _ _ (gx_range_0 x3) (gy_range_0 x3)).trans (rcls_0 x0 x3).symm

/-! ## Scale 1 -/

/-- The reference's cell columns are in `[0, 39]`: each is a clip into that interval. -/
theorem gx_range_1 (x3 : (⟨Cert.ReferenceIdeal.S16x32x4, .f32⟩ : BufTy).Contents (Elt Ideal)) :
    ∀ i, 0 ≤ (val_main_v159 (F := Ideal) x3 i).toInt ∧ (val_main_v159 (F := Ideal) x3 i).toInt < 40 := by
  intro i
  have e : val_main_v159 (F := Ideal) x3 i = IntOp.minsi 39#32 (IntOp.maxsi 0#32 (val_main_v158 (F := Ideal) x3 i)) := rfl
  have h := clip_range 0#32 39#32 (val_main_v158 (F := Ideal) x3 i) (by rw [toInt_zero32, toInt_39_32]; decide)
  rw [toInt_zero32, toInt_39_32] at h
  rw [e]
  omega

/-- The reference's cell rows are in `[0, 39]`. -/
theorem gy_range_1 (x3 : (⟨Cert.ReferenceIdeal.S16x32x4, .f32⟩ : BufTy).Contents (Elt Ideal)) :
    ∀ i, 0 ≤ (val_main_v161 (F := Ideal) x3 i).toInt ∧ (val_main_v161 (F := Ideal) x3 i).toInt < 40 := by
  intro i
  have e : val_main_v161 (F := Ideal) x3 i = IntOp.minsi 39#32 (IntOp.maxsi 0#32 (val_main_v160 (F := Ideal) x3 i)) := rfl
  have h := clip_range 0#32 39#32 (val_main_v160 (F := Ideal) x3 i) (by rw [toInt_zero32, toInt_39_32]; decide)
  rw [toInt_zero32, toInt_39_32] at h
  rw [e]
  omega

/-- The reference's box stage is the reference route of the bridge, at the reference's coordinates. -/
theorem rbox_1 (x1 : (⟨Cert.ReferenceIdeal.S16x144x40x40, .f32⟩ : BufTy).Contents (Elt Ideal)) (x3 : (⟨Cert.ReferenceIdeal.S16x32x4, .f32⟩ : BufTy).Contents (Elt Ideal)) :
    val_main_v211 (F := Ideal) x1 x3
      = Cert.Cells1.rCellBox x1 (val_main_v159 (F := Ideal) x3) (val_main_v161 (F := Ideal) x3) := rfl

/-- The reference's class stage is the reference route of the bridge, at the reference's coordinates. -/
theorem rcls_1 (x1 : (⟨Cert.ReferenceIdeal.S16x144x40x40, .f32⟩ : BufTy).Contents (Elt Ideal)) (x3 : (⟨Cert.ReferenceIdeal.S16x32x4, .f32⟩ : BufTy).Contents (Elt Ideal)) :
    val_main_v251 (F := Ideal) x1 x3
      = Cert.Cells1.rCellCls x1 (val_main_v159 (F := Ideal) x3) (val_main_v161 (F := Ideal) x3) := rfl

/-- The kernel's route at the reference's coordinates gives the reference's box stage. -/
theorem kbox_1 [Cert.KernelIdeal.Facts₀] (x1 : (⟨Cert.ReferenceIdeal.S16x144x40x40, .f32⟩ : BufTy).Contents (Elt Ideal)) (x3 : (⟨Cert.ReferenceIdeal.S16x32x4, .f32⟩ : BufTy).Contents (Elt Ideal)) :
    Cert.Cells1.kCellBox x1 (val_main_v159 (F := Ideal) x3) (val_main_v161 (F := Ideal) x3) = val_main_v211 (F := Ideal) x1 x3 :=
  (Cert.Cells1.cellbox_eq_1 x1 _ _ (gx_range_1 x3) (gy_range_1 x3)).trans (rbox_1 x1 x3).symm

/-- The kernel's route at the reference's coordinates gives the reference's class stage. -/
theorem kcls_1 [Cert.KernelIdeal.Facts₀] (x1 : (⟨Cert.ReferenceIdeal.S16x144x40x40, .f32⟩ : BufTy).Contents (Elt Ideal)) (x3 : (⟨Cert.ReferenceIdeal.S16x32x4, .f32⟩ : BufTy).Contents (Elt Ideal)) :
    Cert.Cells1.kCellCls x1 (val_main_v159 (F := Ideal) x3) (val_main_v161 (F := Ideal) x3) = val_main_v251 (F := Ideal) x1 x3 :=
  (Cert.Cells1.cellcls_eq_1 x1 _ _ (gx_range_1 x3) (gy_range_1 x3)).trans (rcls_1 x1 x3).symm

/-! ## Scale 2 -/

/-- The reference's cell columns are in `[0, 19]`: each is a clip into that interval. -/
theorem gx_range_2 (x3 : (⟨Cert.ReferenceIdeal.S16x32x4, .f32⟩ : BufTy).Contents (Elt Ideal)) :
    ∀ i, 0 ≤ (val_main_v298 (F := Ideal) x3 i).toInt ∧ (val_main_v298 (F := Ideal) x3 i).toInt < 20 := by
  intro i
  have e : val_main_v298 (F := Ideal) x3 i = IntOp.minsi 19#32 (IntOp.maxsi 0#32 (val_main_v297 (F := Ideal) x3 i)) := rfl
  have h := clip_range 0#32 19#32 (val_main_v297 (F := Ideal) x3 i) (by rw [toInt_zero32, toInt_19_32]; decide)
  rw [toInt_zero32, toInt_19_32] at h
  rw [e]
  omega

/-- The reference's cell rows are in `[0, 19]`. -/
theorem gy_range_2 (x3 : (⟨Cert.ReferenceIdeal.S16x32x4, .f32⟩ : BufTy).Contents (Elt Ideal)) :
    ∀ i, 0 ≤ (val_main_v300 (F := Ideal) x3 i).toInt ∧ (val_main_v300 (F := Ideal) x3 i).toInt < 20 := by
  intro i
  have e : val_main_v300 (F := Ideal) x3 i = IntOp.minsi 19#32 (IntOp.maxsi 0#32 (val_main_v299 (F := Ideal) x3 i)) := rfl
  have h := clip_range 0#32 19#32 (val_main_v299 (F := Ideal) x3 i) (by rw [toInt_zero32, toInt_19_32]; decide)
  rw [toInt_zero32, toInt_19_32] at h
  rw [e]
  omega

/-- The reference's box stage is the reference route of the bridge, at the reference's coordinates. -/
theorem rbox_2 (x2 : (⟨Cert.ReferenceIdeal.S16x144x20x20, .f32⟩ : BufTy).Contents (Elt Ideal)) (x3 : (⟨Cert.ReferenceIdeal.S16x32x4, .f32⟩ : BufTy).Contents (Elt Ideal)) :
    val_main_v350 (F := Ideal) x2 x3
      = Cert.Cells2.rCellBox x2 (val_main_v298 (F := Ideal) x3) (val_main_v300 (F := Ideal) x3) := rfl

/-- The reference's class stage is the reference route of the bridge, at the reference's coordinates. -/
theorem rcls_2 (x2 : (⟨Cert.ReferenceIdeal.S16x144x20x20, .f32⟩ : BufTy).Contents (Elt Ideal)) (x3 : (⟨Cert.ReferenceIdeal.S16x32x4, .f32⟩ : BufTy).Contents (Elt Ideal)) :
    val_main_v390 (F := Ideal) x2 x3
      = Cert.Cells2.rCellCls x2 (val_main_v298 (F := Ideal) x3) (val_main_v300 (F := Ideal) x3) := rfl

/-- The kernel's route at the reference's coordinates gives the reference's box stage. -/
theorem kbox_2 [Cert.KernelIdeal.Facts₀] (x2 : (⟨Cert.ReferenceIdeal.S16x144x20x20, .f32⟩ : BufTy).Contents (Elt Ideal)) (x3 : (⟨Cert.ReferenceIdeal.S16x32x4, .f32⟩ : BufTy).Contents (Elt Ideal)) :
    Cert.Cells2.kCellBox x2 (val_main_v298 (F := Ideal) x3) (val_main_v300 (F := Ideal) x3) = val_main_v350 (F := Ideal) x2 x3 :=
  (Cert.Cells2.cellbox_eq_2 x2 _ _ (gx_range_2 x3) (gy_range_2 x3)).trans (rbox_2 x2 x3).symm

/-- The kernel's route at the reference's coordinates gives the reference's class stage. -/
theorem kcls_2 [Cert.KernelIdeal.Facts₀] (x2 : (⟨Cert.ReferenceIdeal.S16x144x20x20, .f32⟩ : BufTy).Contents (Elt Ideal)) (x3 : (⟨Cert.ReferenceIdeal.S16x32x4, .f32⟩ : BufTy).Contents (Elt Ideal)) :
    Cert.Cells2.kCellCls x2 (val_main_v298 (F := Ideal) x3) (val_main_v300 (F := Ideal) x3) = val_main_v390 (F := Ideal) x2 x3 :=
  (Cert.Cells2.cellcls_eq_2 x2 _ _ (gx_range_2 x3) (gy_range_2 x3)).trans (rcls_2 x2 x3).symm

end Cert.CellsLink

end
-- ==== Proof.LibScatterRelated.lean ====
/-
  Two scatters whose result indices correspond under an injective map of operand indices, and the case of an operand
  with a trailing unit axis.

  `Host.scatter` is a left fold over the update indices in row-major order: each update whose result index is inside
  the operand replaces the element there by the body applied to it and the update, and an update whose result index is
  outside is dropped. When a second scatter over the same update shape lands every update at the image under an
  injective map `φ` of where the first lands it (and drops it exactly when the first drops it), runs the same body on
  the same updates, and starts from an operand that agrees with the first's along `φ`, then the two results agree
  along `φ` (`scatter_related`). That lemma is about the fold only: nothing of the dimension numbers is used beyond
  the result indices.

  The instance proved here (`scatter_addUnit`): scalar updates scattered at full index vectors `(i₀, i₁, i₂)` into a
  rank-3 operand `[D0, D1, D2]`, against the same updates scattered at `(i₀, i₁, i₂, 0)` into the operand
  `[D0, D1, D2, 1]`; `φ` appends the coordinate `0`. The result index of an update is its index vector read signed
  (every operand axis is an inserted window axis, so the window coordinate is `0`), inside the operand iff every
  component is in range; the fourth component `0` is always in range on an axis of size one.

  Also: a concatenation of three or four `[R, C, 1]` columns on the last axis, read at a column.
-/
import Idealize.ShloMosaic.PureOps.ShapeOps
import Idealize.ShloMosaic.Lib.ValueIdx
import Idealize.ShloMosaic.Lib.Pipeline.Value

namespace Idealize.ShloMosaic.ScatterRelated

open Idealize.ShloMosaic Idealize.ShloMosaic.ValueIdx

section Fold
variable {α : Type}

/-- One step of a scatter's fold: the update with result index `o` (`none`: dropped) and value `v` applied to `r`. -/
def step {s : Shape} (f : α → α → α) (o : Option s.Idx) (v : α) (r : s.Idx → α) : s.Idx → α :=
  match o with
  | some i => fun i' => if i' = i then f (r i) v else r i'
  | none => r

/-- `Host.scatter` is the fold of `step` over the update indices in row-major order. -/
theorem scatter_eq_foldl {s si u : Shape} {w : Nat} (d : ScatterDims s si u) (f : α → α → α) (x : s.Idx → α)
    (idx : IVec si w) (upd : u.Idx → α) :
    Host.scatter d f x idx upd =
      (List.finRange u.numel).foldl
        (fun r n => step f (d.resultIdx? (u.rowMajor.symm n) idx) (upd (u.rowMajor.symm n)) r) x := by
  rfl

/-- One step carried along an injective map `φ`: if `r'` agrees with `r` along `φ`, then after the update at `o`
    on the one side and at `o.map φ` on the other they still agree. -/
theorem step_related {s s' : Shape} (f : α → α → α) (φ : s.Idx → s'.Idx) (hφ : Function.Injective φ)
    (o : Option s.Idx) (v : α) (r : s.Idx → α) (r' : s'.Idx → α) (hr : ∀ i, r' (φ i) = r i) (i : s.Idx) :
    step f (o.map φ) v r' (φ i) = step f o v r i := by
  cases o with
  | none => exact hr i
  | some k =>
    show (if φ i = φ k then f (r' (φ k)) v else r' (φ i)) = (if i = k then f (r k) v else r i)
    by_cases h : i = k
    · subst h
      rw [if_pos rfl, if_pos rfl, hr]
    · rw [if_neg h, if_neg (fun e => h (hφ e)), hr]

/-- The folds of related steps over ANY list of update positions, from operands that agree along `φ`, agree along `φ`. -/
theorem foldl_related {s s' si si' u : Shape} {w w' : Nat} (d : ScatterDims s si u) (d' : ScatterDims s' si' u)
    (f : α → α → α) (idx : IVec si w) (idx' : IVec si' w') (upd : u.Idx → α)
    (φ : s.Idx → s'.Idx) (hφ : Function.Injective φ)
    (hidx : ∀ j, d'.resultIdx? j idx' = (d.resultIdx? j idx).map φ) :
    ∀ (l : List (Fin u.numel)) (r : s.Idx → α) (r' : s'.Idx → α), (∀ i, r' (φ i) = r i) → ∀ i,
      l.foldl (fun r n => step f (d'.resultIdx? (u.rowMajor.symm n) idx') (upd (u.rowMajor.symm n)) r) r' (φ i) =
        l.foldl (fun r n => step f (d.resultIdx? (u.rowMajor.symm n) idx) (upd (u.rowMajor.symm n)) r) r i
  | [], _, _, hr, i => hr i
  | n :: l, r, r', hr, i => by
    rw [List.foldl_cons, List.foldl_cons]
    refine foldl_related d d' f idx idx' upd φ hφ hidx l _ _ (fun k => ?_) i
    rw [hidx]
    exact step_related f φ hφ _ _ r r' hr k

/-- **Related scatters.** Two scatters over the same update shape, with the same body and the same updates; the second
    lands every update at the image under the injective `φ` of where the first lands it, and drops it when the first
    drops it; the operands agree along `φ`. Then the results agree along `φ`. -/
theorem scatter_related {s s' si si' u : Shape} {w w' : Nat} (d : ScatterDims s si u) (d' : ScatterDims s' si' u)
    (f : α → α → α) (x : s.Idx → α) (x' : s'.Idx → α) (idx : IVec si w) (idx' : IVec si' w') (upd : u.Idx → α)
    (φ : s.Idx → s'.Idx) (hφ : Function.Injective φ)
    (hidx : ∀ j, d'.resultIdx? j idx' = (d.resultIdx? j idx).map φ)
    (hx : ∀ i, x' (φ i) = x i) (i : s.Idx) :
    Host.scatter d' f x' idx' upd (φ i) = Host.scatter d f x idx upd i := by
  rw [scatter_eq_foldl, scatter_eq_foldl]
  exact foldl_related d d' f idx idx' upd φ hφ hidx _ x x' hx i

end Fold

section ResultIdx
variable {s si u : Shape} {w : Nat} (d : ScatterDims s si u)

/-- An update is dropped iff on some operand axis its start plus window coordinate leaves the operand. -/
theorem resultIdx?_eq_none_iff (j : u.Idx) (idx : IVec si w) :
    d.resultIdx? j idx = none ↔
      ¬ ∀ a, 0 ≤ d.start j idx a + d.window j a ∧ d.start j idx a + d.window j a < s.size a := by
  unfold ScatterDims.resultIdx?
  split
  · next h => exact ⟨fun e => (by cases e), fun e => absurd h e⟩
  · next h => exact ⟨fun _ => h, fun _ => rfl⟩

/-- An update lands at `i` iff on every operand axis its start plus window coordinate is `i`'s coordinate. -/
theorem resultIdx?_eq_some_iff (j : u.Idx) (idx : IVec si w) (i : s.Idx) :
    d.resultIdx? j idx = some i ↔ ∀ a, d.start j idx a + d.window j a = ((i a).val : Int) := by
  unfold ScatterDims.resultIdx?
  split
  · next h =>
    constructor
    · intro e a
      have e := Option.some.inj e
      subst e
      exact (Int.toNat_of_nonneg (h a).1).symm
    · intro e
      congr 1
      funext a
      apply Fin.ext
      show (d.start j idx a + d.window j a).toNat = (i a).val
      rw [e a]; rfl
  · next h =>
    constructor
    · intro e; cases e
    · intro e
      refine absurd (fun a => ?_) h
      rw [e a]
      exact ⟨Int.natCast_nonneg _, by exact_mod_cast (i a).isLt⟩

end ResultIdx

section UnitAxis
variable {D0 D1 D2 R C w : Nat}

/-- The dimension numbers of a scatter of scalar updates `[R, C]` at full index vectors `[R, C, 3]` into a rank-3 operand:
    no update window axes, every operand axis inserted, index component `k` the start on operand axis `k`. Their
    conditions `wf` are decided on a program's literal shapes. -/
abbrev dims3 (wf : ScatterDims.WF ⟨3, ![D0, D1, D2]⟩ ⟨3, ![R, C, 3]⟩ ⟨2, ![R, C]⟩ [] [0, 1, 2] [0, 1, 2] 2) :
    ScatterDims ⟨3, ![D0, D1, D2]⟩ ⟨3, ![R, C, 3]⟩ ⟨2, ![R, C]⟩ where
  updateWindowDims := []
  insertedWindowDims := [0, 1, 2]
  scatterDimsToOperandDims := [0, 1, 2]
  indexVectorDim := 2
  wf := wf

/-- The same into a rank-4 operand whose last axis has size one, at index vectors `[R, C, 4]`. -/
abbrev dims4 (wf : ScatterDims.WF ⟨4, ![D0, D1, D2, 1]⟩ ⟨3, ![R, C, 4]⟩ ⟨2, ![R, C]⟩ [] [0, 1, 2, 3] [0, 1, 2, 3] 2) :
    ScatterDims ⟨4, ![D0, D1, D2, 1]⟩ ⟨3, ![R, C, 4]⟩ ⟨2, ![R, C]⟩ where
  updateWindowDims := []
  insertedWindowDims := [0, 1, 2, 3]
  scatterDimsToOperandDims := [0, 1, 2, 3]
  indexVectorDim := 2
  wf := wf

/-- Every operand axis is inserted: the window coordinate is `0`. -/
theorem dims3_window (wf : ScatterDims.WF ⟨3, ![D0, D1, D2]⟩ ⟨3, ![R, C, 3]⟩ ⟨2, ![R, C]⟩ [] [0, 1, 2] [0, 1, 2] 2)
    (j : (⟨2, ![R, C]⟩ : Shape).Idx) : ∀ a, (dims3 wf).window j a = 0
  | ⟨0, _⟩ => rfl
  | ⟨1, _⟩ => rfl
  | ⟨2, _⟩ => rfl

/-- Every operand axis is inserted: the window coordinate is `0`. -/
theorem dims4_window (wf : ScatterDims.WF ⟨4, ![D0, D1, D2, 1]⟩ ⟨3, ![R, C, 4]⟩ ⟨2, ![R, C]⟩ [] [0, 1, 2, 3] [0, 1, 2, 3] 2)
    (j : (⟨2, ![R, C]⟩ : Shape).Idx) : ∀ a, (dims4 wf).window j a = 0
  | ⟨0, _⟩ => rfl
  | ⟨1, _⟩ => rfl
  | ⟨2, _⟩ => rfl
  | ⟨3, _⟩ => rfl

/-- The start on operand axis `a` of update `(r, c)` is component `a` of its index vector, `idx[r, c, a]`, read signed. -/
theorem dims3_start (wf : ScatterDims.WF ⟨3, ![D0, D1, D2]⟩ ⟨3, ![R, C, 3]⟩ ⟨2, ![R, C]⟩ [] [0, 1, 2] [0, 1, 2] 2)
    (j : (⟨2, ![R, C]⟩ : Shape).Idx) (idx : IVec ⟨3, ![R, C, 3]⟩ w) :
    ∀ a : Fin 3, (dims3 wf).start j idx a = (idx (ix3 (j 0) (j 1) a)).toInt
  | ⟨0, _⟩ => by
    unfold ScatterDims.start
    rw [dif_pos (by simp)]
    refine congrArg (fun k => (idx k).toInt) (funext fun b => Fin.ext ?_)
    match b with
    | ⟨0, _⟩ => rfl
    | ⟨1, _⟩ => rfl
    | ⟨2, _⟩ => rfl
  | ⟨1, _⟩ => by
    unfold ScatterDims.start
    rw [dif_pos (by simp)]
    refine congrArg (fun k => (idx k).toInt) (funext fun b => Fin.ext ?_)
    match b with
    | ⟨0, _⟩ => rfl
    | ⟨1, _⟩ => rfl
    | ⟨2, _⟩ => rfl
  | ⟨2, _⟩ => by
    unfold ScatterDims.start
    rw [dif_pos (by simp)]
    refine congrArg (fun k => (idx k).toInt) (funext fun b => Fin.ext ?_)
    match b with
    | ⟨0, _⟩ => rfl
    | ⟨1, _⟩ => rfl
    | ⟨2, _⟩ => rfl

/-- The start on operand axis `a` of update `(r, c)` is component `a` of its index vector, `idx[r, c, a]`, read signed. -/
theorem dims4_start (wf : ScatterDims.WF ⟨4, ![D0, D1, D2, 1]⟩ ⟨3, ![R, C, 4]⟩ ⟨2, ![R, C]⟩ [] [0, 1, 2, 3] [0, 1, 2, 3] 2)
    (j : (⟨2, ![R, C]⟩ : Shape).Idx) (idx : IVec ⟨3, ![R, C, 4]⟩ w) :
    ∀ a : Fin 4, (dims4 wf).start j idx a = (idx (ix3 (j 0) (j 1) a)).toInt
  | ⟨0, _⟩ => by
    unfold ScatterDims.start
    rw [dif_pos (by simp)]
    refine congrArg (fun k => (idx k).toInt) (funext fun b => Fin.ext ?_)
    match b with
    | ⟨0, _⟩ => rfl
    | ⟨1, _⟩ => rfl
    | ⟨2, _⟩ => rfl
  | ⟨1, _⟩ => by
    unfold ScatterDims.start
    rw [dif_pos (by simp)]
    refine congrArg (fun k => (idx k).toInt) (funext fun b => Fin.ext ?_)
    match b with
    | ⟨0, _⟩ => rfl
    | ⟨1, _⟩ => rfl
    | ⟨2, _⟩ => rfl
  | ⟨2, _⟩ => by
    unfold ScatterDims.start
    rw [dif_pos (by simp)]
    refine congrArg (fun k => (idx k).toInt) (funext fun b => Fin.ext ?_)
    match b with
    | ⟨0, _⟩ => rfl
    | ⟨1, _⟩ => rfl
    | ⟨2, _⟩ => rfl
  | ⟨3, _⟩ => by
    unfold ScatterDims.start
    rw [dif_pos (by simp)]
    refine congrArg (fun k => (idx k).toInt) (funext fun b => Fin.ext ?_)
    match b with
    | ⟨0, _⟩ => rfl
    | ⟨1, _⟩ => rfl
    | ⟨2, _⟩ => rfl

/-- A rank-3 index as the rank-4 index with coordinate 0 on a trailing unit axis. -/
abbrev addUnit (i : (⟨3, ![D0, D1, D2]⟩ : Shape).Idx) : (⟨4, ![D0, D1, D2, 1]⟩ : Shape).Idx :=
  ix4 (i 0) (i 1) (i 2) ⟨0, Nat.one_pos⟩

/-- Appending a coordinate loses nothing. -/
theorem addUnit_injective : Function.Injective (addUnit (D0 := D0) (D1 := D1) (D2 := D2)) := fun i i' h => by
  funext a
  match a with
  | ⟨0, _⟩ => exact congrFun h (0 : Fin 4)
  | ⟨1, _⟩ => exact congrFun h (1 : Fin 4)
  | ⟨2, _⟩ => exact congrFun h (2 : Fin 4)

/-- With index arrays that agree on the first three components and a fourth component reading `0`, the rank-4 scatter
    lands each update at the rank-3 scatter's result index with `0` appended, and drops it when that one drops it: the
    fourth component is always inside the unit axis. -/
theorem resultIdx?_addUnit
    (wf3 : ScatterDims.WF ⟨3, ![D0, D1, D2]⟩ ⟨3, ![R, C, 3]⟩ ⟨2, ![R, C]⟩ [] [0, 1, 2] [0, 1, 2] 2)
    (wf4 : ScatterDims.WF ⟨4, ![D0, D1, D2, 1]⟩ ⟨3, ![R, C, 4]⟩ ⟨2, ![R, C]⟩ [] [0, 1, 2, 3] [0, 1, 2, 3] 2)
    (idx3 : IVec ⟨3, ![R, C, 3]⟩ w) (idx4 : IVec ⟨3, ![R, C, 4]⟩ w)
    (h0 : ∀ (r : Fin R) (c : Fin C), idx4 (ix3 r c 0) = idx3 (ix3 r c 0))
    (h1 : ∀ (r : Fin R) (c : Fin C), idx4 (ix3 r c 1) = idx3 (ix3 r c 1))
    (h2 : ∀ (r : Fin R) (c : Fin C), idx4 (ix3 r c 2) = idx3 (ix3 r c 2))
    (h3 : ∀ (r : Fin R) (c : Fin C), (idx4 (ix3 r c 3)).toInt = 0)
    (j : (⟨2, ![R, C]⟩ : Shape).Idx) :
    (dims4 wf4).resultIdx? j idx4 = ((dims3 wf3).resultIdx? j idx3).map addUnit := by
  have e0 : (dims4 wf4).start j idx4 (0 : Fin 4) + ((dims4 wf4).window j (0 : Fin 4) : Int)
      = (dims3 wf3).start j idx3 (0 : Fin 3) + ((dims3 wf3).window j (0 : Fin 3) : Int) := by
    rw [dims4_window, dims4_start, dims3_window, dims3_start]
    exact congrArg (fun v => BitVec.toInt v + ((0 : Nat) : Int)) (h0 (j 0) (j 1))
  have e1 : (dims4 wf4).start j idx4 (1 : Fin 4) + ((dims4 wf4).window j (1 : Fin 4) : Int)
      = (dims3 wf3).start j idx3 (1 : Fin 3) + ((dims3 wf3).window j (1 : Fin 3) : Int) := by
    rw [dims4_window, dims4_start, dims3_window, dims3_start]
    exact congrArg (fun v => BitVec.toInt v + ((0 : Nat) : Int)) (h1 (j 0) (j 1))
  have e2 : (dims4 wf4).start j idx4 (2 : Fin 4) + ((dims4 wf4).window j (2 : Fin 4) : Int)
      = (dims3 wf3).start j idx3 (2 : Fin 3) + ((dims3 wf3).window j (2 : Fin 3) : Int) := by
    rw [dims4_window, dims4_start, dims3_window, dims3_start]
    exact congrArg (fun v => BitVec.toInt v + ((0 : Nat) : Int)) (h2 (j 0) (j 1))
  have e3 : (dims4 wf4).start j idx4 (3 : Fin 4) + ((dims4 wf4).window j (3 : Fin 4) : Int) = 0 := by
    rw [dims4_window, dims4_start]
    exact (congrArg (fun v : Int => v + ((0 : Nat) : Int)) (h3 (j 0) (j 1))).trans rfl
  cases h : (dims3 wf3).resultIdx? j idx3 with
  | some i =>
    rw [resultIdx?_eq_some_iff] at h
    show _ = some (addUnit i)
    rw [resultIdx?_eq_some_iff]
    intro a
    match a with
    | ⟨0, _⟩ => exact e0.trans (h (0 : Fin 3))
    | ⟨1, _⟩ => exact e1.trans (h (1 : Fin 3))
    | ⟨2, _⟩ => exact e2.trans (h (2 : Fin 3))
    | ⟨3, _⟩ => exact e3
  | none =>
    rw [resultIdx?_eq_none_iff] at h
    show _ = none
    rw [resultIdx?_eq_none_iff]
    intro h4
    refine h fun a => ?_
    match a with
    | ⟨0, _⟩ => have := h4 (0 : Fin 4); rw [e0] at this; exact this
    | ⟨1, _⟩ => have := h4 (1 : Fin 4); rw [e1] at this; exact this
    | ⟨2, _⟩ => have := h4 (2 : Fin 4); rw [e2] at this; exact this

/-- **A scatter into an operand with a trailing unit axis.** Scalar updates scattered at full index vectors
    `(i₀, i₁, i₂)` into a rank-3 operand, against the same updates scattered at `(i₀, i₁, i₂, 0)` into the rank-4 operand
    with a trailing axis of size one: when the two index arrays agree on the first three components and the fourth
    component of the second reads `0`, and the operands agree, the results agree — element `(a, b, c)` of the first is
    element `(a, b, c, 0)` of the second. No hypothesis on the index values: an update whose index leaves the operand
    is dropped by both. -/
theorem scatter_addUnit {α : Type}
    (wf3 : ScatterDims.WF ⟨3, ![D0, D1, D2]⟩ ⟨3, ![R, C, 3]⟩ ⟨2, ![R, C]⟩ [] [0, 1, 2] [0, 1, 2] 2)
    (wf4 : ScatterDims.WF ⟨4, ![D0, D1, D2, 1]⟩ ⟨3, ![R, C, 4]⟩ ⟨2, ![R, C]⟩ [] [0, 1, 2, 3] [0, 1, 2, 3] 2)
    (f : α → α → α) (x3 : (⟨3, ![D0, D1, D2]⟩ : Shape).Idx → α) (x4 : (⟨4, ![D0, D1, D2, 1]⟩ : Shape).Idx → α)
    (idx3 : IVec ⟨3, ![R, C, 3]⟩ w) (idx4 : IVec ⟨3, ![R, C, 4]⟩ w) (upd : (⟨2, ![R, C]⟩ : Shape).Idx → α)
    (h0 : ∀ (r : Fin R) (c : Fin C), idx4 (ix3 r c 0) = idx3 (ix3 r c 0))
    (h1 : ∀ (r : Fin R) (c : Fin C), idx4 (ix3 r c 1) = idx3 (ix3 r c 1))
    (h2 : ∀ (r : Fin R) (c : Fin C), idx4 (ix3 r c 2) = idx3 (ix3 r c 2))
    (h3 : ∀ (r : Fin R) (c : Fin C), (idx4 (ix3 r c 3)).toInt = 0)
    (hx : ∀ i, x4 (addUnit i) = x3 i) (i : (⟨3, ![D0, D1, D2]⟩ : Shape).Idx) :
    Host.scatter (dims4 wf4) f x4 idx4 upd (addUnit i) = Host.scatter (dims3 wf3) f x3 idx3 upd i :=
  scatter_related (dims3 wf3) (dims4 wf4) f x3 x4 idx3 idx4 upd addUnit addUnit_injective
    (resultIdx?_addUnit wf3 wf4 idx3 idx4 h0 h1 h2 h3) hx i

end UnitAxis

section Columns
variable {α : Type} {R C : Nat}

/-- Three `[R, C, 1]` columns joined on the last axis, read at column `0`. -/
theorem concat3_apply_0 (h : Shape.Concatenates [⟨3, ![R, C, 1]⟩, ⟨3, ![R, C, 1]⟩, ⟨3, ![R, C, 1]⟩] ⟨3, ![R, C, 3]⟩ 2)
    (A B D : (⟨3, ![R, C, 1]⟩ : Shape).Idx → α) (r : Fin R) (c : Fin C) :
    concatenate ⟨3, ![R, C, 3]⟩ 2 [⟨⟨3, ![R, C, 1]⟩, A⟩, ⟨⟨3, ![R, C, 1]⟩, B⟩, ⟨⟨3, ![R, C, 1]⟩, D⟩] h (ix3 r c 0) = A (ix3 r c 0) :=
  concatenate_apply_piece 2 [⟨⟨3, ![R, C, 1]⟩, A⟩, ⟨⟨3, ![R, C, 1]⟩, B⟩, ⟨⟨3, ![R, C, 1]⟩, D⟩] h (ix3 r c 0) 0 (by simp) _ A rfl rfl 0 rfl (ix3 r c 0)
    (fun b hb => match b with | ⟨0, _⟩ => rfl | ⟨1, _⟩ => rfl | ⟨2, _⟩ => (hb rfl).elim) rfl

/-- Read at column `1`. -/
theorem concat3_apply_1 (h : Shape.Concatenates [⟨3, ![R, C, 1]⟩, ⟨3, ![R, C, 1]⟩, ⟨3, ![R, C, 1]⟩] ⟨3, ![R, C, 3]⟩ 2)
    (A B D : (⟨3, ![R, C, 1]⟩ : Shape).Idx → α) (r : Fin R) (c : Fin C) :
    concatenate ⟨3, ![R, C, 3]⟩ 2 [⟨⟨3, ![R, C, 1]⟩, A⟩, ⟨⟨3, ![R, C, 1]⟩, B⟩, ⟨⟨3, ![R, C, 1]⟩, D⟩] h (ix3 r c 1) = B (ix3 r c 0) :=
  concatenate_apply_piece 2 [⟨⟨3, ![R, C, 1]⟩, A⟩, ⟨⟨3, ![R, C, 1]⟩, B⟩, ⟨⟨3, ![R, C, 1]⟩, D⟩] h (ix3 r c 1) 1 (by simp) _ B rfl rfl 1 rfl (ix3 r c 0)
    (fun b hb => match b with | ⟨0, _⟩ => rfl | ⟨1, _⟩ => rfl | ⟨2, _⟩ => (hb rfl).elim) rfl

/-- Read at column `2`. -/
theorem concat3_apply_2 (h : Shape.Concatenates [⟨3, ![R, C, 1]⟩, ⟨3, ![R, C, 1]⟩, ⟨3, ![R, C, 1]⟩] ⟨3, ![R, C, 3]⟩ 2)
    (A B D : (⟨3, ![R, C, 1]⟩ : Shape).Idx → α) (r : Fin R) (c : Fin C) :
    concatenate ⟨3, ![R, C, 3]⟩ 2 [⟨⟨3, ![R, C, 1]⟩, A⟩, ⟨⟨3, ![R, C, 1]⟩, B⟩, ⟨⟨3, ![R, C, 1]⟩, D⟩] h (ix3 r c 2) = D (ix3 r c 0) :=
  concatenate_apply_piece 2 [⟨⟨3, ![R, C, 1]⟩, A⟩, ⟨⟨3, ![R, C, 1]⟩, B⟩, ⟨⟨3, ![R, C, 1]⟩, D⟩] h (ix3 r c 2) 2 (by simp) _ D rfl rfl 2 rfl (ix3 r c 0)
    (fun b hb => match b with | ⟨0, _⟩ => rfl | ⟨1, _⟩ => rfl | ⟨2, _⟩ => (hb rfl).elim) rfl

/-- Four `[R, C, 1]` columns joined on the last axis, read at column `0`. -/
theorem concat4_apply_0 (h : Shape.Concatenates [⟨3, ![R, C, 1]⟩, ⟨3, ![R, C, 1]⟩, ⟨3, ![R, C, 1]⟩, ⟨3, ![R, C, 1]⟩] ⟨3, ![R, C, 4]⟩ 2)
    (A B D E : (⟨3, ![R, C, 1]⟩ : Shape).Idx → α) (r : Fin R) (c : Fin C) :
    concatenate ⟨3, ![R, C, 4]⟩ 2 [⟨⟨3, ![R, C, 1]⟩, A⟩, ⟨⟨3, ![R, C, 1]⟩, B⟩, ⟨⟨3, ![R, C, 1]⟩, D⟩, ⟨⟨3, ![R, C, 1]⟩, E⟩] h (ix3 r c 0) = A (ix3 r c 0) :=
  concatenate_apply_piece 2 [⟨⟨3, ![R, C, 1]⟩, A⟩, ⟨⟨3, ![R, C, 1]⟩, B⟩, ⟨⟨3, ![R, C, 1]⟩, D⟩, ⟨⟨3, ![R, C, 1]⟩, E⟩] h (ix3 r c 0) 0 (by simp) _ A rfl rfl 0 rfl (ix3 r c 0)
    (fun b hb => match b with | ⟨0, _⟩ => rfl | ⟨1, _⟩ => rfl | ⟨2, _⟩ => (hb rfl).elim) rfl

/-- Read at column `1`. -/
theorem concat4_apply_1 (h : Shape.Concatenates [⟨3, ![R, C, 1]⟩, ⟨3, ![R, C, 1]⟩, ⟨3, ![R, C, 1]⟩, ⟨3, ![R, C, 1]⟩] ⟨3, ![R, C, 4]⟩ 2)
    (A B D E : (⟨3, ![R, C, 1]⟩ : Shape).Idx → α) (r : Fin R) (c : Fin C) :
    concatenate ⟨3, ![R, C, 4]⟩ 2 [⟨⟨3, ![R, C, 1]⟩, A⟩, ⟨⟨3, ![R, C, 1]⟩, B⟩, ⟨⟨3, ![R, C, 1]⟩, D⟩, ⟨⟨3, ![R, C, 1]⟩, E⟩] h (ix3 r c 1) = B (ix3 r c 0) :=
  concatenate_apply_piece 2 [⟨⟨3, ![R, C, 1]⟩, A⟩, ⟨⟨3, ![R, C, 1]⟩, B⟩, ⟨⟨3, ![R, C, 1]⟩, D⟩, ⟨⟨3, ![R, C, 1]⟩, E⟩] h (ix3 r c 1) 1 (by simp) _ B rfl rfl 1 rfl (ix3 r c 0)
    (fun b hb => match b with | ⟨0, _⟩ => rfl | ⟨1, _⟩ => rfl | ⟨2, _⟩ => (hb rfl).elim) rfl

/-- Read at column `2`. -/
theorem concat4_apply_2 (h : Shape.Concatenates [⟨3, ![R, C, 1]⟩, ⟨3, ![R, C, 1]⟩, ⟨3, ![R, C, 1]⟩, ⟨3, ![R, C, 1]⟩] ⟨3, ![R, C, 4]⟩ 2)
    (A B D E : (⟨3, ![R, C, 1]⟩ : Shape).Idx → α) (r : Fin R) (c : Fin C) :
    concatenate ⟨3, ![R, C, 4]⟩ 2 [⟨⟨3, ![R, C, 1]⟩, A⟩, ⟨⟨3, ![R, C, 1]⟩, B⟩, ⟨⟨3, ![R, C, 1]⟩, D⟩, ⟨⟨3, ![R, C, 1]⟩, E⟩] h (ix3 r c 2) = D (ix3 r c 0) :=
  concatenate_apply_piece 2 [⟨⟨3, ![R, C, 1]⟩, A⟩, ⟨⟨3, ![R, C, 1]⟩, B⟩, ⟨⟨3, ![R, C, 1]⟩, D⟩, ⟨⟨3, ![R, C, 1]⟩, E⟩] h (ix3 r c 2) 2 (by simp) _ D rfl rfl 2 rfl (ix3 r c 0)
    (fun b hb => match b with | ⟨0, _⟩ => rfl | ⟨1, _⟩ => rfl | ⟨2, _⟩ => (hb rfl).elim) rfl

/-- Read at column `3`. -/
theorem concat4_apply_3 (h : Shape.Concatenates [⟨3, ![R, C, 1]⟩, ⟨3, ![R, C, 1]⟩, ⟨3, ![R, C, 1]⟩, ⟨3, ![R, C, 1]⟩] ⟨3, ![R, C, 4]⟩ 2)
    (A B D E : (⟨3, ![R, C, 1]⟩ : Shape).Idx → α) (r : Fin R) (c : Fin C) :
    concatenate ⟨3, ![R, C, 4]⟩ 2 [⟨⟨3, ![R, C, 1]⟩, A⟩, ⟨⟨3, ![R, C, 1]⟩, B⟩, ⟨⟨3, ![R, C, 1]⟩, D⟩, ⟨⟨3, ![R, C, 1]⟩, E⟩] h (ix3 r c 3) = E (ix3 r c 0) :=
  concatenate_apply_piece 2 [⟨⟨3, ![R, C, 1]⟩, A⟩, ⟨⟨3, ![R, C, 1]⟩, B⟩, ⟨⟨3, ![R, C, 1]⟩, D⟩, ⟨⟨3, ![R, C, 1]⟩, E⟩] h (ix3 r c 3) 3 (by simp) _ E rfl rfl 3 rfl (ix3 r c 0)
    (fun b hb => match b with | ⟨0, _⟩ => rfl | ⟨1, _⟩ => rfl | ⟨2, _⟩ => (hb rfl).elim) rfl

end Columns

end Idealize.ShloMosaic.ScatterRelated
-- ==== Proof.ObjtBridge.lean ====
/-
  The objectness target is the same array in the kernel's program and in the reference, at each of the three scales
  (`h = w = 80, 40, 20`).

  Both programs hold integer arrays `gx, gy : i32[16, 32]` (the target cell's column and row per box) and scatter the
  value one into an array of zeros. The kernel's program scatters at the index vectors `(b, gy, gx)` into `[16, h, w]`
  and flattens the result to `[16, h * w]`; the reference scatters at `(b, gy, gx, 0)` into `[16, h, w, 1]`. `b` is the
  batch index (an iota over axis 0), and `b`, `gy`, `gx` are normalised alike on both sides: a negative entry is moved
  up by the axis extent. Nothing is assumed of `gx`, `gy`: an index vector that still leaves the array is dropped by
  both scatters. Each side is defined below as the composition of the program's operations, as a function of
  `gx`, `gy`; `objt_eq_0`, `objt_eq_1`, `objt_eq_2` say that element `(b, y * w + x)` of the kernel's flattened array is
  element `(b, y, x, 0)` of the reference's, by `scatter_addUnit` and a reshape read at an index.
-/
import proofs.«153486_j83854941487213_2_alg».proof.Proof.Gen.KernelIdeal
import proofs.«153486_j83854941487213_2_alg».proof.Proof.Gen.ReferenceIdeal
import proofs.«153486_j83854941487213_2_alg».proof.Proof.LibScatterRelated

noncomputable section

namespace Cert.ObjtBridge

open Idealize.ShloMosaic Idealize.ShloMosaic.ValueIdx Idealize.ShloMosaic.ScatterRelated

/-! ## The kernel's side -/

section Kernel
open Cert.KernelIdeal Cert.KernelIdeal.Facts₀

/-- The batch index `b` as an `[16, 1]` column: an iota over axis 0, a negative entry moved up by the extent 16. -/
def kBatch1 : (⟨S16x1, .i32⟩ : BufTy).Contents (Elt Ideal) :=
  select
    (cmpi .slt (broadcastInDim S16x1 ![0] bcast_S16_S16x1_0 (iotaInDim S16 32 0))
      (broadcastInDim S16x1 ![] bcast_S_S16x1 (constantI S_ 32 0#32)))
    (addi (broadcastInDim S16x1 ![0] bcast_S16_S16x1_0 (iotaInDim S16 32 0))
      (broadcastInDim S16x1 ![] bcast_S_S16x1 (constantI S_ 32 16#32)))
    (broadcastInDim S16x1 ![0] bcast_S16_S16x1_0 (iotaInDim S16 32 0))

/-- The batch index as an `[16, 32, 1]` column of index vectors. -/
def kBatch : (⟨S16x32x1, .i32⟩ : BufTy).Contents (Elt Ideal) :=
  broadcastInDim S16x32x1 ![0, 1] bcast_S16x32_S16x32x1_0_1
    (broadcastInDim S16x32 ![0, 1] bcast_S16x1_S16x32_0_1 kBatch1)

/-- A coordinate array with its negative entries moved up by the extent `e`. -/
def kNorm (e : BitVec 32) (v : (⟨S16x32, .i32⟩ : BufTy).Contents (Elt Ideal)) : (⟨S16x32, .i32⟩ : BufTy).Contents (Elt Ideal) :=
  select (cmpi .slt v (broadcastInDim S16x32 ![] bcast_S_S16x32 (constantI S_ 32 0#32)))
    (addi v (broadcastInDim S16x32 ![] bcast_S_S16x32 (constantI S_ 32 e))) v

/-- An `[16, 32]` array as an `[16, 32, 1]` column. -/
def kCol (v : (⟨S16x32, .i32⟩ : BufTy).Contents (Elt Ideal)) : (⟨S16x32x1, .i32⟩ : BufTy).Contents (Elt Ideal) :=
  broadcastInDim S16x32x1 ![0, 1] bcast_S16x32_S16x32x1_0_1 v

/-- The index vectors `(b, gy, gx)`, an `[16, 32, 3]` array. -/
def kIdx3 (e : BitVec 32) (gx gy : (⟨S16x32, .i32⟩ : BufTy).Contents (Elt Ideal)) : (⟨S16x32x3, .i32⟩ : BufTy).Contents (Elt Ideal) :=
  concatenate S16x32x3 2 [⟨S16x32x1, kBatch⟩, ⟨S16x32x1, kCol (kNorm e gy)⟩, ⟨S16x32x1, kCol (kNorm e gx)⟩]
    concatenates_S16x32x1_S16x32x1_S16x32x1_S16x32x3_d2

/-- The updates: ones. -/
def kOnes : (⟨S16x32, .f32⟩ : BufTy).Contents (Elt Ideal) :=
  broadcastInDim S16x32 ![] bcast_S_S16x32 (constant (F := Ideal) S_ .f32 0x3F800000#32)

/-- Scale 0: ones scattered at `(b, gy, gx)` into an `[16, 80, 80]` array of zeros. -/
def kObjt3_0 (gx gy : (⟨S16x32, .i32⟩ : BufTy).Contents (Elt Ideal)) : (⟨S16x80x80, .f32⟩ : BufTy).Contents (Elt Ideal) :=
  Host.scatter scatter_S16x80x80_S16x32x3_S16x32_n_012_012_2 (fun _ b => b)
    (broadcastInDim S16x80x80 ![] bcast_S_S16x80x80 (constant (F := Ideal) S_ .f32 0x00000000#32)) (kIdx3 80#32 gx gy) kOnes

/-- Scale 0, flattened to `[16, 6400]`. -/
def kObjtFlat_0 (gx gy : (⟨S16x32, .i32⟩ : BufTy).Contents (Elt Ideal)) : (⟨S16x6400, .f32⟩ : BufTy).Contents (Elt Ideal) :=
  shapeCast S16x6400 (kObjt3_0 gx gy) shapeCasts_S16x80x80_S16x6400

/-- Scale 1: ones scattered at `(b, gy, gx)` into an `[16, 40, 40]` array of zeros. -/
def kObjt3_1 (gx gy : (⟨S16x32, .i32⟩ : BufTy).Contents (Elt Ideal)) : (⟨S16x40x40, .f32⟩ : BufTy).Contents (Elt Ideal) :=
  Host.scatter scatter_S16x40x40_S16x32x3_S16x32_n_012_012_2 (fun _ b => b)
    (broadcastInDim S16x40x40 ![] bcast_S_S16x40x40 (constant (F := Ideal) S_ .f32 0x00000000#32)) (kIdx3 40#32 gx gy) kOnes

/-- Scale 1, flattened to `[16, 1600]`. -/
def kObjtFlat_1 (gx gy : (⟨S16x32, .i32⟩ : BufTy).Contents (Elt Ideal)) : (⟨S16x1600, .f32⟩ : BufTy).Contents (Elt Ideal) :=
  shapeCast S16x1600 (kObjt3_1 gx gy) shapeCasts_S16x40x40_S16x1600

/-- Scale 2: ones scattered at `(b, gy, gx)` into an `[16, 20, 20]` array of zeros. -/
def kObjt3_2 (gx gy : (⟨S16x32, .i32⟩ : BufTy).Contents (Elt Ideal)) : (⟨S16x20x20, .f32⟩ : BufTy).Contents (Elt Ideal) :=
  Host.scatter scatter_S16x20x20_S16x32x3_S16x32_n_012_012_2 (fun _ b => b)
    (broadcastInDim S16x20x20 ![] bcast_S_S16x20x20 (constant (F := Ideal) S_ .f32 0x00000000#32)) (kIdx3 20#32 gx gy) kOnes

/-- Scale 2, flattened to `[16, 400]`. -/
def kObjtFlat_2 (gx gy : (⟨S16x32, .i32⟩ : BufTy).Contents (Elt Ideal)) : (⟨S16x400, .f32⟩ : BufTy).Contents (Elt Ideal) :=
  shapeCast S16x400 (kObjt3_2 gx gy) shapeCasts_S16x20x20_S16x400

end Kernel

/-! ## The reference's side -/

section Reference
open Cert.ReferenceIdeal Cert.ReferenceIdeal.Facts₀

/-- The batch index `b` as an `[16, 1]` column. -/
def rBatch1 : (⟨S16x1, .i32⟩ : BufTy).Contents (Elt Ideal) :=
  select
    (cmpi .slt (broadcastInDim S16x1 ![0] bcast_S16_S16x1_0 (iotaInDim S16 32 0))
      (broadcastInDim S16x1 ![] bcast_S_S16x1 (constantI S_ 32 0#32)))
    (addi (broadcastInDim S16x1 ![0] bcast_S16_S16x1_0 (iotaInDim S16 32 0))
      (broadcastInDim S16x1 ![] bcast_S_S16x1 (constantI S_ 32 16#32)))
    (broadcastInDim S16x1 ![0] bcast_S16_S16x1_0 (iotaInDim S16 32 0))

/-- The batch index as an `[16, 32, 1]` column of index vectors. -/
def rBatch : (⟨S16x32x1, .i32⟩ : BufTy).Contents (Elt Ideal) :=
  broadcastInDim S16x32x1 ![0, 1] bcast_S16x32_S16x32x1_0_1
    (broadcastInDim S16x32 ![0, 1] bcast_S16x1_S16x32_0_1 rBatch1)

/-- A coordinate array with its negative entries moved up by the extent `e`. -/
def rNorm (e : BitVec 32) (v : (⟨S16x32, .i32⟩ : BufTy).Contents (Elt Ideal)) : (⟨S16x32, .i32⟩ : BufTy).Contents (Elt Ideal) :=
  select (cmpi .slt v (broadcastInDim S16x32 ![] bcast_S_S16x32 (constantI S_ 32 0#32)))
    (addi v (broadcastInDim S16x32 ![] bcast_S_S16x32 (constantI S_ 32 e))) v

/-- An `[16, 32]` array as an `[16, 32, 1]` column. -/
def rCol (v : (⟨S16x32, .i32⟩ : BufTy).Contents (Elt Ideal)) : (⟨S16x32x1, .i32⟩ : BufTy).Contents (Elt Ideal) :=
  broadcastInDim S16x32x1 ![0, 1] bcast_S16x32_S16x32x1_0_1 v

/-- The fourth component of every index vector: zero (a converted zero array). -/
def rZeroCol : (⟨S16x32x1, .i32⟩ : BufTy).Contents (Elt Ideal) :=
  broadcastInDim S16x32x1 ![0, 1] bcast_S16x32_S16x32x1_0_1
    (id (broadcastInDim S16x32 ![] bcast_S_S16x32 (constantI S_ 32 0#32)))

/-- The index vectors `(b, gy, gx, 0)`, an `[16, 32, 4]` array. -/
def rIdx4 (e : BitVec 32) (gx gy : (⟨S16x32, .i32⟩ : BufTy).Contents (Elt Ideal)) : (⟨S16x32x4, .i32⟩ : BufTy).Contents (Elt Ideal) :=
  concatenate S16x32x4 2 [⟨S16x32x1, rBatch⟩, ⟨S16x32x1, rCol (rNorm e gy)⟩, ⟨S16x32x1, rCol (rNorm e gx)⟩, ⟨S16x32x1, rZeroCol⟩]
    concatenates_S16x32x1_S16x32x1_S16x32x1_S16x32x1_S16x32x4_d2

/-- The updates: ones. -/
def rOnes : (⟨S16x32, .f32⟩ : BufTy).Contents (Elt Ideal) :=
  broadcastInDim S16x32 ![] bcast_S_S16x32 (constant (F := Ideal) S_ .f32 0x3F800000#32)

/-- Scale 0: ones scattered at `(b, gy, gx, 0)` into an `[16, 80, 80, 1]` array of zeros. -/
def rObjt4_0 (gx gy : (⟨S16x32, .i32⟩ : BufTy).Contents (Elt Ideal)) : (⟨S16x80x80x1, .f32⟩ : BufTy).Contents (Elt Ideal) :=
  Host.scatter scatter_S16x80x80x1_S16x32x4_S16x32_n_0123_0123_2 (fun _ b => b)
    (broadcastInDim S16x80x80x1 ![] bcast_S_S16x80x80x1 (constant (F := Ideal) S_ .f32 0x00000000#32)) (rIdx4 80#32 gx gy) rOnes

/-- Scale 1: ones scattered at `(b, gy, gx, 0)` into an `[16, 40, 40, 1]` array of zeros. -/
def rObjt4_1 (gx gy : (⟨S16x32, .i32⟩ : BufTy).Contents (Elt Ideal)) : (⟨S16x40x40x1, .f32⟩ : BufTy).Contents (Elt Ideal) :=
  Host.scatter scatter_S16x40x40x1_S16x32x4_S16x32_n_0123_0123_2 (fun _ b => b)
    (broadcastInDim S16x40x40x1 ![] bcast_S_S16x40x40x1 (constant (F := Ideal) S_ .f32 0x00000000#32)) (rIdx4 40#32 gx gy) rOnes

/-- Scale 2: ones scattered at `(b, gy, gx, 0)` into an `[16, 20, 20, 1]` array of zeros. -/
def rObjt4_2 (gx gy : (⟨S16x32, .i32⟩ : BufTy).Contents (Elt Ideal)) : (⟨S16x20x20x1, .f32⟩ : BufTy).Contents (Elt Ideal) :=
  Host.scatter scatter_S16x20x20x1_S16x32x4_S16x32_n_0123_0123_2 (fun _ b => b)
    (broadcastInDim S16x20x20x1 ![] bcast_S_S16x20x20x1 (constant (F := Ideal) S_ .f32 0x00000000#32)) (rIdx4 20#32 gx gy) rOnes

end Reference

/-! ## The two index arrays agree -/

/-- Component 0 of the index vectors: the batch index on both sides. -/
theorem idx_col0 (e : BitVec 32) (gx gy : IVec ⟨2, ![16, 32]⟩ 32) (r : Fin 16) (c : Fin 32) :
    rIdx4 e gx gy (ix3 r c 0) = kIdx3 e gx gy (ix3 r c 0) :=
  (concat4_apply_0 _ _ _ _ _ r c).trans (concat3_apply_0 _ _ _ _ r c).symm

/-- Component 1: the row `gy`, normalised alike on both sides. -/
theorem idx_col1 (e : BitVec 32) (gx gy : IVec ⟨2, ![16, 32]⟩ 32) (r : Fin 16) (c : Fin 32) :
    rIdx4 e gx gy (ix3 r c 1) = kIdx3 e gx gy (ix3 r c 1) :=
  (concat4_apply_1 _ _ _ _ _ r c).trans (concat3_apply_1 _ _ _ _ r c).symm

/-- Component 2: the column `gx`, normalised alike on both sides. -/
theorem idx_col2 (e : BitVec 32) (gx gy : IVec ⟨2, ![16, 32]⟩ 32) (r : Fin 16) (c : Fin 32) :
    rIdx4 e gx gy (ix3 r c 2) = kIdx3 e gx gy (ix3 r c 2) :=
  (concat4_apply_2 _ _ _ _ _ r c).trans (concat3_apply_2 _ _ _ _ r c).symm

/-- Component 3 of the reference's index vectors reads `0`. -/
theorem idx_col3 (e : BitVec 32) (gx gy : IVec ⟨2, ![16, 32]⟩ 32) (r : Fin 16) (c : Fin 32) :
    (rIdx4 e gx gy (ix3 r c 3)).toInt = 0 :=
  (congrArg BitVec.toInt (concat4_apply_3 _ _ _ _ _ r c)).trans rfl

/-! ## Scale 0 (`h = w = 80`) -/

/-- Element `(b, y, x)` of the kernel's scattered array is element `(b, y, x, 0)` of the reference's. -/
theorem objt3_eq_0 (gx gy : IVec ⟨2, ![16, 32]⟩ 32) (b : Fin 16) (y x : Fin 80) :
    kObjt3_0 gx gy (ix3 b y x) = rObjt4_0 gx gy (ix4 b y x 0) :=
  (scatter_addUnit Cert.KernelIdeal.Facts₀.scatter_S16x80x80_S16x32x3_S16x32_n_012_012_2_wf
    Cert.ReferenceIdeal.Facts₀.scatter_S16x80x80x1_S16x32x4_S16x32_n_0123_0123_2_wf (fun _ b => b)
    (broadcastInDim Cert.KernelIdeal.S16x80x80 ![] Cert.KernelIdeal.Facts₀.bcast_S_S16x80x80 (constant (F := Ideal) Cert.KernelIdeal.S_ .f32 0x00000000#32))
    (broadcastInDim Cert.ReferenceIdeal.S16x80x80x1 ![] Cert.ReferenceIdeal.Facts₀.bcast_S_S16x80x80x1 (constant (F := Ideal) Cert.ReferenceIdeal.S_ .f32 0x00000000#32))
    (kIdx3 80#32 gx gy) (rIdx4 80#32 gx gy) kOnes
    (idx_col0 _ gx gy) (idx_col1 _ gx gy) (idx_col2 _ gx gy) (idx_col3 _ gx gy) (fun _ => rfl) (ix3 b y x)).symm

/-- The kernel's flattened array at `(b, y * 80 + x)` is the reference's array at `(b, y, x, 0)`. -/
theorem objt_eq_0 (gx gy : IVec ⟨2, ![16, 32]⟩ 32) (b : Fin 16) (y x : Fin 80) :
    kObjtFlat_0 gx gy (ix2 b ⟨y.val * 80 + x.val, by omega⟩) = rObjt4_0 gx gy (ix4 b y x 0) := by
  rw [← objt3_eq_0]
  unfold kObjtFlat_0
  refine shapeCast_apply _ _ _ _ ?_
  rw [Shape.rowMajor_val_three, Shape.rowMajor_val_two]
  show (b.val * 80 + y.val) * 80 + x.val = b.val * 6400 + (y.val * 80 + x.val)
  omega

/-! ## Scale 1 (`h = w = 40`) -/

/-- Element `(b, y, x)` of the kernel's scattered array is element `(b, y, x, 0)` of the reference's. -/
theorem objt3_eq_1 (gx gy : IVec ⟨2, ![16, 32]⟩ 32) (b : Fin 16) (y x : Fin 40) :
    kObjt3_1 gx gy (ix3 b y x) = rObjt4_1 gx gy (ix4 b y x 0) :=
  (scatter_addUnit Cert.KernelIdeal.Facts₀.scatter_S16x40x40_S16x32x3_S16x32_n_012_012_2_wf
    Cert.ReferenceIdeal.Facts₀.scatter_S16x40x40x1_S16x32x4_S16x32_n_0123_0123_2_wf (fun _ b => b)
    (broadcastInDim Cert.KernelIdeal.S16x40x40 ![] Cert.KernelIdeal.Facts₀.bcast_S_S16x40x40 (constant (F := Ideal) Cert.KernelIdeal.S_ .f32 0x00000000#32))
    (broadcastInDim Cert.ReferenceIdeal.S16x40x40x1 ![] Cert.ReferenceIdeal.Facts₀.bcast_S_S16x40x40x1 (constant (F := Ideal) Cert.ReferenceIdeal.S_ .f32 0x00000000#32))
    (kIdx3 40#32 gx gy) (rIdx4 40#32 gx gy) kOnes
    (idx_col0 _ gx gy) (idx_col1 _ gx gy) (idx_col2 _ gx gy) (idx_col3 _ gx gy) (fun _ => rfl) (ix3 b y x)).symm

/-- The kernel's flattened array at `(b, y * 40 + x)` is the reference's array at `(b, y, x, 0)`. -/
theorem objt_eq_1 (gx gy : IVec ⟨2, ![16, 32]⟩ 32) (b : Fin 16) (y x : Fin 40) :
    kObjtFlat_1 gx gy (ix2 b ⟨y.val * 40 + x.val, by omega⟩) = rObjt4_1 gx gy (ix4 b y x 0) := by
  rw [← objt3_eq_1]
  unfold kObjtFlat_1
  refine shapeCast_apply _ _ _ _ ?_
  rw [Shape.rowMajor_val_three, Shape.rowMajor_val_two]
  show (b.val * 40 + y.val) * 40 + x.val = b.val * 1600 + (y.val * 40 + x.val)
  omega

/-! ## Scale 2 (`h = w = 20`) -/

/-- Element `(b, y, x)` of the kernel's scattered array is element `(b, y, x, 0)` of the reference's. -/
theorem objt3_eq_2 (gx gy : IVec ⟨2, ![16, 32]⟩ 32) (b : Fin 16) (y x : Fin 20) :
    kObjt3_2 gx gy (ix3 b y x) = rObjt4_2 gx gy (ix4 b y x 0) :=
  (scatter_addUnit Cert.KernelIdeal.Facts₀.scatter_S16x20x20_S16x32x3_S16x32_n_012_012_2_wf
    Cert.ReferenceIdeal.Facts₀.scatter_S16x20x20x1_S16x32x4_S16x32_n_0123_0123_2_wf (fun _ b => b)
    (broadcastInDim Cert.KernelIdeal.S16x20x20 ![] Cert.KernelIdeal.Facts₀.bcast_S_S16x20x20 (constant (F := Ideal) Cert.KernelIdeal.S_ .f32 0x00000000#32))
    (broadcastInDim Cert.ReferenceIdeal.S16x20x20x1 ![] Cert.ReferenceIdeal.Facts₀.bcast_S_S16x20x20x1 (constant (F := Ideal) Cert.ReferenceIdeal.S_ .f32 0x00000000#32))
    (kIdx3 20#32 gx gy) (rIdx4 20#32 gx gy) kOnes
    (idx_col0 _ gx gy) (idx_col1 _ gx gy) (idx_col2 _ gx gy) (idx_col3 _ gx gy) (fun _ => rfl) (ix3 b y x)).symm

/-- The kernel's flattened array at `(b, y * 20 + x)` is the reference's array at `(b, y, x, 0)`. -/
theorem objt_eq_2 (gx gy : IVec ⟨2, ![16, 32]⟩ 32) (b : Fin 16) (y x : Fin 20) :
    kObjtFlat_2 gx gy (ix2 b ⟨y.val * 20 + x.val, by omega⟩) = rObjt4_2 gx gy (ix4 b y x 0) := by
  rw [← objt3_eq_2]
  unfold kObjtFlat_2
  refine shapeCast_apply _ _ _ _ ?_
  rw [Shape.rowMajor_val_three, Shape.rowMajor_val_two]
  show (b.val * 20 + y.val) * 20 + x.val = b.val * 400 + (y.val * 20 + x.val)
  omega

end Cert.ObjtBridge

end
-- ==== Proof.ObjSpec.lean ====
/-
  The objectness loss of one prediction scale, as ONE function of the arrays it reads, on the extended reals.

  A scale has predictions `X b c l` (image `b` of 16, box channel `c` of the first 4, cell `l` of `N`) and an objectness
  target `O b l`. The predicted objectness of a cell is the logistic function of the MEAN of its four box channels, and
  the scale's loss, before normalisation, is the sum over every image and cell of the squared difference to the target:

      objSum X O = ∑ b, ∑ l, (logistic ((X b 0 l + X b 1 l + X b 2 l + X b 3 l) · 1/4) − O b l)²

  It is written with the extended reals' own `+`, `*`, `-` and with `Ideal.logistic`, the one logistic function of the
  ideal values: the four channels are added left to right, the mean is the product with the real `1/4`, the square is the
  product of the difference with itself. No finiteness is assumed anywhere: every equation below holds at `⊥` and `⊤` too.

  Below the specification, the float patterns the two programs spell around it, each as the extended real it denotes
  (`Ideal.ofBits` unfolded once, here): `0.25`, `4.0`, `1.0` and the three cell counts `102400.0`, `25600.0`, `6400.0`.
  This module imports no program.
-/
import Idealize.ShloMosaic.PureOps.Ideal
import Idealize.ShloMosaic.PureOps.Ideal.Laws
import Idealize.ShloMosaic.Lib.ValueIdx

noncomputable section

open scoped BigOperators

namespace Cert.Obj

open Idealize.ShloMosaic

/-! ## The specification -/

/-- One cell's term: the squared difference between the logistic of the mean of the four box channels `x0 … x3` and the
    target `o`. The channels are added left to right and the mean is the product with the real `1/4`. -/
def cell (x0 x1 x2 x3 o : EReal) : EReal :=
  (Ideal.logistic ((((x0 + x1) + x2) + x3) * ((1 / 4 : ℝ) : EReal)) - o)
    * (Ideal.logistic ((((x0 + x1) + x2) + x3) * ((1 / 4 : ℝ) : EReal)) - o)

/-- A scale's objectness loss before normalisation: the sum of the cells' terms over the 16 images and the `N` cells. -/
def objSum {N : ℕ} (X : Fin 16 → Fin 4 → Fin N → EReal) (O : Fin 16 → Fin N → EReal) : EReal :=
  ∑ b : Fin 16, ∑ l : Fin N, cell (X b 0 l) (X b 1 l) (X b 2 l) (X b 3 l) (O b l)

/-- The mean as a QUOTIENT is the mean as a product: dividing by the real `4` is multiplying by the real `1/4`, at
    every extended real. -/
theorem div_four (x : EReal) : Ideal.div x ((4 : ℝ) : EReal) = x * ((1 / 4 : ℝ) : EReal) :=
  Ideal.div_coe (by norm_num) x

/-- The logistic function spelt out, as a host program computes it: one over one plus the exponential of the negation. -/
theorem logistic_spelt (x : EReal) : Ideal.div 1 (1 + Ideal.exp (-x)) = Ideal.logistic x := rfl

/-! ## The float patterns the programs spell, as the extended reals they denote -/

/-- `0.25` denotes the real `1/4`. -/
theorem ofBits_quarter : Ideal.ofBits .f32 0x3E800000#32 = ((1 / 4 : ℝ) : EReal) := by
  simp [Ideal.ofBits, Ideal.ieee, -EReal.coe_mul]; norm_num

/-- `4.0` denotes the real `4`. -/
theorem ofBits_four : Ideal.ofBits .f32 0x40800000#32 = ((4 : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- `102400.0`, the number of cells of the 16 images at 80 × 80, denotes the real `102400`. -/
theorem ofBits_102400 : Ideal.ofBits .f32 0x47C80000#32 = ((102400 : ℝ) : EReal) := by
  simp [Ideal.ofBits, Ideal.ieee, -EReal.coe_mul]; norm_num

/-- `25600.0`, the number of cells at 40 × 40, denotes the real `25600`. -/
theorem ofBits_25600 : Ideal.ofBits .f32 0x46C80000#32 = ((25600 : ℝ) : EReal) := by
  simp [Ideal.ofBits, Ideal.ieee, -EReal.coe_mul]; norm_num

/-- `6400.0`, the number of cells at 20 × 20, denotes the real `6400`. -/
theorem ofBits_6400 : Ideal.ofBits .f32 0x45C80000#32 = ((6400 : ℝ) : EReal) := by
  simp [Ideal.ofBits, Ideal.ieee, -EReal.coe_mul]; norm_num

end Cert.Obj

end
-- ==== Proof.ObjKernel.lean ====
/-
  The kernel body's value at `Ideal`: the number it stores is the sum of the three scales' objectness losses.

  The body is summarised by the generated payloads `k0_pay1 … k0_pay4` (Proof/Gen/KernelIdeal/Skeleton.lean). Per scale it
  takes the four box channels of a block of predictions `X : [16, 4, N]` (a unit-stride slice and a squeeze each), adds them
  left to right, multiplies by the pattern of `0.25`, applies the logistic function, subtracts the flattened target
  `O : [16, N]`, squares, sums over the cells of each image and then over the images, and multiplies by the named
  reciprocal of the number of cells; the three scale terms are added left to right.

  Read at the one index of the `[1, 1]` result: each slice-and-squeeze reads `X` at `(b, c, l)` (`channel_apply`), the two
  lane sums are the double sum over images and cells (`total_apply`), the pattern of `0.25` denotes the real `1/4` and
  the named reciprocals denote `1/102400`, `1/25600`, `1/6400`. So a scale's term is `Cert.Obj.objSum` of its arrays
  times the reciprocal (`scale_apply`), and the stored value is the sum of the three (`kernel_obj`). The lemmas about one
  scale are stated once, for every number of cells `N`.
-/
import proofs.«153486_j83854941487213_2_alg».proof.Proof.Gen.KernelIdeal.Skeleton
import proofs.«153486_j83854941487213_2_alg».proof.Proof.ObjSpec
import Idealize.ShloMosaic.Lib.Pipeline.Value
import Idealize.ShloMosaic.PureOps.Ideal.Laws
import Idealize.ShloMosaic.PureOps.IdealRules
import Idealize.ShloMosaic.Lib.ValueIdx

noncomputable section

open scoped BigOperators

namespace Cert.Obj.Kernel

open Idealize.ShloMosaic Idealize.ShloMosaic.ValueIdx

/-! ## One scale, for every number of cells -/

/-- The logistic function of a vector at an index is the ideal values' logistic function of the element. -/
theorem logistic_apply {s : Shape} {φ : FTy} (a : FVec Ideal s φ) (i : s.Idx) : logistic a i = Ideal.logistic (a i) := rfl

/-- Box channel `k` of a block of predictions, sliced out and squeezed to rank 2, read at image `b` and cell `l`: the
    block at `(b, k, l)`. -/
theorem channel_apply {N : ℕ} (k : ℕ) (hk : k < 4) (X : FVec Ideal ⟨3, ![16, 4, N]⟩ .f32)
    (hs : (⟨3, ![16, 4, N]⟩ : Shape).Slices ![0, k, 0] ⟨3, ![16, 1, N]⟩)
    (hc : (⟨3, ![16, 1, N]⟩ : Shape).ShapeCasts ⟨2, ![16, N]⟩) (b : Fin 16) (l : Fin N) :
    shapeCast ⟨2, ![16, N]⟩ (extractStridedSlice ⟨3, ![16, 1, N]⟩ ![0, k, 0] X hs) hc (ix2 b l)
      = X (ix3 b ⟨k, hk⟩ l) := by
  refine (shapeCast_apply _ hc (ix2 b l) (ix3 b (0 : Fin 1) l) ?_).trans ?_
  · rw [Shape.rowMajor_val_three, Shape.rowMajor_val_two]
    show (b.val * 1 + 0) * N + l.val = b.val * N + l.val
    simp only [Nat.mul_one, Nat.add_zero]
  · refine extractStridedSlice_apply ![0, k, 0] X hs (ix3 b (0 : Fin 1) l) (ix3 b ⟨k, hk⟩ l) (fun a => ?_)
    match a with
    | ⟨0, _⟩ => show b.val = 0 + b.val; omega
    | ⟨1, _⟩ => show k = k + 0; omega
    | ⟨2, _⟩ => show l.val = 0 + l.val; omega

/-- A scale's squared differences as the body spells them: the four channels of `X` added left to right, times the
    pattern of `0.25`, through the logistic function, minus the target, times itself. -/
abbrev sqDiff {N : ℕ} (X : FVec Ideal ⟨3, ![16, 4, N]⟩ .f32) (O : FVec Ideal ⟨2, ![16, N]⟩ .f32)
    (hcX : (⟨3, ![16, 4, N]⟩ : Shape).ShapeCasts ⟨3, ![16, 4, N]⟩)
    (h0 : (⟨3, ![16, 4, N]⟩ : Shape).Slices ![0, 0, 0] ⟨3, ![16, 1, N]⟩)
    (h1 : (⟨3, ![16, 4, N]⟩ : Shape).Slices ![0, 1, 0] ⟨3, ![16, 1, N]⟩)
    (h2 : (⟨3, ![16, 4, N]⟩ : Shape).Slices ![0, 2, 0] ⟨3, ![16, 1, N]⟩)
    (h3 : (⟨3, ![16, 4, N]⟩ : Shape).Slices ![0, 3, 0] ⟨3, ![16, 1, N]⟩)
    (hc : (⟨3, ![16, 1, N]⟩ : Shape).ShapeCasts ⟨2, ![16, N]⟩)
    (hcO : (⟨2, ![16, N]⟩ : Shape).ShapeCasts ⟨2, ![16, N]⟩) : FVec Ideal ⟨2, ![16, N]⟩ .f32 :=
  mulf
    (subf
      (logistic (mulf
        (addf (addf (addf
          (shapeCast ⟨2, ![16, N]⟩ (extractStridedSlice ⟨3, ![16, 1, N]⟩ ![0, 0, 0] (shapeCast ⟨3, ![16, 4, N]⟩ X hcX) h0) hc)
          (shapeCast ⟨2, ![16, N]⟩ (extractStridedSlice ⟨3, ![16, 1, N]⟩ ![0, 1, 0] (shapeCast ⟨3, ![16, 4, N]⟩ X hcX) h1) hc))
          (shapeCast ⟨2, ![16, N]⟩ (extractStridedSlice ⟨3, ![16, 1, N]⟩ ![0, 2, 0] (shapeCast ⟨3, ![16, 4, N]⟩ X hcX) h2) hc))
          (shapeCast ⟨2, ![16, N]⟩ (extractStridedSlice ⟨3, ![16, 1, N]⟩ ![0, 3, 0] (shapeCast ⟨3, ![16, 4, N]⟩ X hcX) h3) hc))
        (broadcast ⟨2, ![16, N]⟩ (Scalar.ofBits (F := Ideal) .f32 0x3E800000#32))))
      (shapeCast ⟨2, ![16, N]⟩ O hcO))
    (subf
      (logistic (mulf
        (addf (addf (addf
          (shapeCast ⟨2, ![16, N]⟩ (extractStridedSlice ⟨3, ![16, 1, N]⟩ ![0, 0, 0] (shapeCast ⟨3, ![16, 4, N]⟩ X hcX) h0) hc)
          (shapeCast ⟨2, ![16, N]⟩ (extractStridedSlice ⟨3, ![16, 1, N]⟩ ![0, 1, 0] (shapeCast ⟨3, ![16, 4, N]⟩ X hcX) h1) hc))
          (shapeCast ⟨2, ![16, N]⟩ (extractStridedSlice ⟨3, ![16, 1, N]⟩ ![0, 2, 0] (shapeCast ⟨3, ![16, 4, N]⟩ X hcX) h2) hc))
          (shapeCast ⟨2, ![16, N]⟩ (extractStridedSlice ⟨3, ![16, 1, N]⟩ ![0, 3, 0] (shapeCast ⟨3, ![16, 4, N]⟩ X hcX) h3) hc))
        (broadcast ⟨2, ![16, N]⟩ (Scalar.ofBits (F := Ideal) .f32 0x3E800000#32))))
      (shapeCast ⟨2, ![16, N]⟩ O hcO))

/-- The squared differences at image `b` and cell `l` are the specification's cell term of the arrays there. -/
theorem sqDiff_apply {N : ℕ} (X : FVec Ideal ⟨3, ![16, 4, N]⟩ .f32) (O : FVec Ideal ⟨2, ![16, N]⟩ .f32)
    (hcX : (⟨3, ![16, 4, N]⟩ : Shape).ShapeCasts ⟨3, ![16, 4, N]⟩)
    (h0 : (⟨3, ![16, 4, N]⟩ : Shape).Slices ![0, 0, 0] ⟨3, ![16, 1, N]⟩)
    (h1 : (⟨3, ![16, 4, N]⟩ : Shape).Slices ![0, 1, 0] ⟨3, ![16, 1, N]⟩)
    (h2 : (⟨3, ![16, 4, N]⟩ : Shape).Slices ![0, 2, 0] ⟨3, ![16, 1, N]⟩)
    (h3 : (⟨3, ![16, 4, N]⟩ : Shape).Slices ![0, 3, 0] ⟨3, ![16, 1, N]⟩)
    (hc : (⟨3, ![16, 1, N]⟩ : Shape).ShapeCasts ⟨2, ![16, N]⟩)
    (hcO : (⟨2, ![16, N]⟩ : Shape).ShapeCasts ⟨2, ![16, N]⟩) (b : Fin 16) (l : Fin N) :
    sqDiff X O hcX h0 h1 h2 h3 hc hcO (ix2 b l)
      = Cert.Obj.cell (X (ix3 b 0 l)) (X (ix3 b 1 l)) (X (ix3 b 2 l)) (X (ix3 b 3 l)) (O (ix2 b l)) := by
  have hq : Scalar.ofBits (F := Ideal) .f32 0x3E800000#32 = ((1 / 4 : ℝ) : EReal) := Cert.Obj.ofBits_quarter
  simp only [sqDiff, shapeCast_self, mulf_apply, subf_apply, addf_apply, broadcast_apply, logistic_apply, hq]
  rw [channel_apply 0 (by decide) X h0 hc b l, channel_apply 1 (by decide) X h1 hc b l,
    channel_apply 2 (by decide) X h2 hc b l, channel_apply 3 (by decide) X h3 hc b l]
  rfl

/-- The two lane sums of a rank-2 block — over the cells of each image, then over the images — with the casts around
    them, as the body spells them. -/
abbrev total {N : ℕ} (V : FVec Ideal ⟨2, ![16, N]⟩ .f32)
    (hr1 : (⟨2, ![16, N]⟩ : Shape).Reduces [1] ⟨1, ![16]⟩)
    (hc1 : (⟨1, ![16]⟩ : Shape).ShapeCasts ⟨2, ![16, 1]⟩)
    (hr0 : (⟨2, ![16, 1]⟩ : Shape).Reduces [0] ⟨1, ![1]⟩)
    (hc2 : (⟨1, ![1]⟩ : Shape).ShapeCasts ⟨2, ![1, 1]⟩)
    (hφ : FKind.Formats .f32) (hacc : (0x00000000#32 : BitVec 32) = 0x00000000#32) : FVec Ideal ⟨2, ![1, 1]⟩ .f32 :=
  shapeCast ⟨2, ![1, 1]⟩
    (multiReduction (F := Ideal) .add [0] ⟨1, ![1]⟩
      (shapeCast ⟨2, ![16, 1]⟩ (multiReduction (F := Ideal) .add [1] ⟨1, ![16]⟩ V 0x00000000#32 hr1 hφ hacc) hc1)
      0x00000000#32 hr0 hφ hacc) hc2

/-- Read at the one index of the result, they are the double sum over images and cells. -/
theorem total_apply {N : ℕ} (V : FVec Ideal ⟨2, ![16, N]⟩ .f32)
    (hr1 : (⟨2, ![16, N]⟩ : Shape).Reduces [1] ⟨1, ![16]⟩)
    (hc1 : (⟨1, ![16]⟩ : Shape).ShapeCasts ⟨2, ![16, 1]⟩)
    (hr0 : (⟨2, ![16, 1]⟩ : Shape).Reduces [0] ⟨1, ![1]⟩)
    (hc2 : (⟨1, ![1]⟩ : Shape).ShapeCasts ⟨2, ![1, 1]⟩)
    (hφ : FKind.Formats .f32) (hacc : (0x00000000#32 : BitVec 32) = 0x00000000#32) :
    total V hr1 hc1 hr0 hc2 hφ hacc (ix2 (0 : Fin 1) (0 : Fin 1)) = ∑ b : Fin 16, ∑ l : Fin N, V (ix2 b l) := by
  refine (shapeCast_apply _ hc2 (ix2 (0 : Fin 1) (0 : Fin 1)) (ix1 (0 : Fin 1)) ?_).trans ?_
  · rw [Shape.rowMajor_val_one, Shape.rowMajor_val_two]; rfl
  refine (Ideal.multiReduction_add_single _ 0x00000000#32 hr0 hφ hacc (ix1 (0 : Fin 1))).trans ?_
  refine Finset.sum_congr rfl fun b _ => ?_
  refine (shapeCast_apply _ hc1 (hr0.lift (ix1 (0 : Fin 1)) b) (ix1 b) ?_).trans ?_
  · rw [Shape.rowMajor_val_one, Shape.rowMajor_val_two]
    show b.val = b.val * 1 + 0
    omega
  refine (Ideal.multiReduction_add_single V 0x00000000#32 hr1 hφ hacc (ix1 b)).trans ?_
  refine Finset.sum_congr rfl fun l _ => ?_
  exact congrArg V (funext fun a => Fin.ext (by match a with | ⟨0, _⟩ => rfl | ⟨1, _⟩ => rfl))

/-- ONE SCALE: the body's two lane sums of its squared differences are the specification's sum over images and cells. -/
theorem scale_apply {N : ℕ} (X : FVec Ideal ⟨3, ![16, 4, N]⟩ .f32) (O : FVec Ideal ⟨2, ![16, N]⟩ .f32)
    (hcX : (⟨3, ![16, 4, N]⟩ : Shape).ShapeCasts ⟨3, ![16, 4, N]⟩)
    (h0 : (⟨3, ![16, 4, N]⟩ : Shape).Slices ![0, 0, 0] ⟨3, ![16, 1, N]⟩)
    (h1 : (⟨3, ![16, 4, N]⟩ : Shape).Slices ![0, 1, 0] ⟨3, ![16, 1, N]⟩)
    (h2 : (⟨3, ![16, 4, N]⟩ : Shape).Slices ![0, 2, 0] ⟨3, ![16, 1, N]⟩)
    (h3 : (⟨3, ![16, 4, N]⟩ : Shape).Slices ![0, 3, 0] ⟨3, ![16, 1, N]⟩)
    (hc : (⟨3, ![16, 1, N]⟩ : Shape).ShapeCasts ⟨2, ![16, N]⟩)
    (hcO : (⟨2, ![16, N]⟩ : Shape).ShapeCasts ⟨2, ![16, N]⟩)
    (hr1 : (⟨2, ![16, N]⟩ : Shape).Reduces [1] ⟨1, ![16]⟩)
    (hc1 : (⟨1, ![16]⟩ : Shape).ShapeCasts ⟨2, ![16, 1]⟩)
    (hr0 : (⟨2, ![16, 1]⟩ : Shape).Reduces [0] ⟨1, ![1]⟩)
    (hc2 : (⟨1, ![1]⟩ : Shape).ShapeCasts ⟨2, ![1, 1]⟩)
    (hφ : FKind.Formats .f32) (hacc : (0x00000000#32 : BitVec 32) = 0x00000000#32) :
    total (sqDiff X O hcX h0 h1 h2 h3 hc hcO) hr1 hc1 hr0 hc2 hφ hacc (ix2 (0 : Fin 1) (0 : Fin 1))
      = Cert.Obj.objSum (fun b c l => X (ix3 b c l)) (fun b l => O (ix2 b l)) := by
  refine (total_apply _ hr1 hc1 hr0 hc2 hφ hacc).trans ?_
  unfold Cert.Obj.objSum
  exact Finset.sum_congr rfl fun b _ => Finset.sum_congr rfl fun l _ => sqDiff_apply X O hcX h0 h1 h2 h3 hc hcO b l

/-! ## The named reciprocals of the numbers of cells -/

/-- The reciprocal named `"inv_102400"` denotes the rational `1/102400`, by the certificate's table. -/
theorem inv_102400 : Named.named (F := Ideal) Cert.KernelIdeal.κ "inv_102400" (φ := .f32) 0x3723D70A#32
    = ((1 / 102400 : ℝ) : EReal) :=
  IdealRules.named_const.ideal_named_scalar _ _ _ _ rfl

/-- The reciprocal named `"inv_25600"` denotes the rational `1/25600`. -/
theorem inv_25600 : Named.named (F := Ideal) Cert.KernelIdeal.κ "inv_25600" (φ := .f32) 0x3823D70A#32
    = ((1 / 25600 : ℝ) : EReal) :=
  IdealRules.named_const.ideal_named_scalar _ _ _ _ rfl

/-- The reciprocal named `"inv_6400"` denotes the rational `1/6400`. -/
theorem inv_6400 : Named.named (F := Ideal) Cert.KernelIdeal.κ "inv_6400" (φ := .f32) 0x3923D70A#32
    = ((1 / 6400 : ℝ) : EReal) :=
  IdealRules.named_const.ideal_named_scalar _ _ _ _ rfl

/-! ## The body's stored value -/

open Cert.KernelIdeal Cert.KernelIdeal.Gen in
/-- The payloads, composed as the body composes them, are the three scales' terms added left to right, each the two
    lane sums of its squared differences times its named reciprocal: the payload definitions unfolded, nothing more. -/
theorem payload_eq (X0 : FVec Ideal S16x4x6400 .f32) (O0 : FVec Ideal S16x6400 .f32)
    (X1 : FVec Ideal S16x4x1600 .f32) (O1 : FVec Ideal S16x1600 .f32)
    (X2 : FVec Ideal S16x4x400 .f32) (O2 : FVec Ideal S16x400 .f32) :
    k0_pay1 (F := Ideal) (k0_pay2 X0 O0) (k0_pay3 X1) (k0_pay4 O1) X2 O2
      = addf
          (addf
            (mulf
              (total (sqDiff X0 O0 shapeCasts_S16x4x6400_S16x4x6400 slices_S16x4x6400_o0_0_0_S16x1x6400
                  slices_S16x4x6400_o0_1_0_S16x1x6400 slices_S16x4x6400_o0_2_0_S16x1x6400
                  slices_S16x4x6400_o0_3_0_S16x1x6400 shapeCasts_S16x1x6400_S16x6400 shapeCasts_S16x6400_S16x6400)
                reduces_S16x6400_S16 shapeCasts_S16_S16x1 reduces_S16x1_S1 shapeCasts_S1_S1x1 (.inl rfl) rfl)
              (broadcast S1x1 (Named.named (F := Ideal) κ "inv_102400" (φ := .f32) 0x3723D70A#32)))
            (mulf
              (total (sqDiff X1 O1 shapeCasts_S16x4x1600_S16x4x1600 slices_S16x4x1600_o0_0_0_S16x1x1600
                  slices_S16x4x1600_o0_1_0_S16x1x1600 slices_S16x4x1600_o0_2_0_S16x1x1600
                  slices_S16x4x1600_o0_3_0_S16x1x1600 shapeCasts_S16x1x1600_S16x1600 shapeCasts_S16x1600_S16x1600)
                reduces_S16x1600_S16 shapeCasts_S16_S16x1 reduces_S16x1_S1 shapeCasts_S1_S1x1 (.inl rfl) rfl)
              (broadcast S1x1 (Named.named (F := Ideal) κ "inv_25600" (φ := .f32) 0x3823D70A#32))))
          (mulf
            (total (sqDiff X2 O2 shapeCasts_S16x4x400_S16x4x400 slices_S16x4x400_o0_0_0_S16x1x400
                slices_S16x4x400_o0_1_0_S16x1x400 slices_S16x4x400_o0_2_0_S16x1x400
                slices_S16x4x400_o0_3_0_S16x1x400 shapeCasts_S16x1x400_S16x400 shapeCasts_S16x400_S16x400)
              reduces_S16x400_S16 shapeCasts_S16_S16x1 reduces_S16x1_S1 shapeCasts_S1_S1x1 (.inl rfl) rfl)
            (broadcast S1x1 (Named.named (F := Ideal) κ "inv_6400" (φ := .f32) 0x3923D70A#32))) := rfl

open Cert.KernelIdeal Cert.KernelIdeal.Gen in
/-- THE KERNEL'S OBJECTNESS VALUE: the number the body stores is the sum, left to right, of the three scales'
    `objSum` of their arrays, each times the reciprocal of its number of cells. -/
theorem kernel_obj (X0 : FVec Ideal S16x4x6400 .f32) (O0 : FVec Ideal S16x6400 .f32)
    (X1 : FVec Ideal S16x4x1600 .f32) (O1 : FVec Ideal S16x1600 .f32)
    (X2 : FVec Ideal S16x4x400 .f32) (O2 : FVec Ideal S16x400 .f32) :
    k0_pay1 (F := Ideal) (k0_pay2 X0 O0) (k0_pay3 X1) (k0_pay4 O1) X2 O2 (ix2 (0 : Fin 1) (0 : Fin 1))
      = (Cert.Obj.objSum (fun b c l => X0 (ix3 b c l)) (fun b l => O0 (ix2 b l)) * ((1 / 102400 : ℝ) : EReal)
          + Cert.Obj.objSum (fun b c l => X1 (ix3 b c l)) (fun b l => O1 (ix2 b l)) * ((1 / 25600 : ℝ) : EReal))
        + Cert.Obj.objSum (fun b c l => X2 (ix3 b c l)) (fun b l => O2 (ix2 b l)) * ((1 / 6400 : ℝ) : EReal) := by
  rw [payload_eq]
  simp only [addf_apply, mulf_apply, broadcast_apply]
  rw [scale_apply, scale_apply, scale_apply, inv_102400, inv_25600, inv_6400]

end Cert.Obj.Kernel

end
-- ==== Proof.ObjReference.lean ====
/-
  The reference's objectness loss at `Ideal`, one scale at a time.

  Per scale the reference transposes the predictions `P : [16, 144, h, w]` to channels-last, slices the 64 box channels and
  of those the first 4, sums the 4 from `0.0` (keeping a unit axis), divides by `4.0`, and spells the logistic function
  out — negate, exponential, add to `1.0`, `1.0` divided by that —, subtracts the target `T : [16, h, w, 1]`, squares,
  sums over all four axes from `0.0`, and divides by the number of cells `16 · h · w` as a float constant. `rObjG` is that
  chain of operations, one definition per stage group, stated once for every `h` and `w` over the shape facts it needs;
  `rObj_0`, `rObj_1`, `rObj_2` are its three instances at the reference's own shapes, facts and constants, with the target
  a VARIABLE (the reference's target is a scatter, which this module does not open).

  Read at the one index of the scalar result (`rObjG_apply`): the channels-last slices read `P` at `(b, k, y, x)`
  (`rChannels_apply`); the sum of four terms from zero is the four added left to right; dividing by the real `4` is
  multiplying by `1/4` (`Cert.Obj.div_four`) and the spelt-out logistic is `Ideal.logistic` by definition
  (`rLogistic_apply`); the sum over the rank-4 index set with a unit last axis is the triple sum over images, rows and
  columns (`sum_idx4u`); and dividing by the real number of cells is multiplying by its reciprocal (`Ideal.div_coe`).
  So a scale is the triple sum of the specification's cell terms times that reciprocal, at every extended real.
-/
import proofs.«153486_j83854941487213_2_alg».proof.ReferenceIdeal
import proofs.«153486_j83854941487213_2_alg».proof.Proof.Gen.ReferenceIdeal
import proofs.«153486_j83854941487213_2_alg».proof.Proof.ObjSpec
import Idealize.ShloMosaic.Lib.Pipeline.Value
import Idealize.ShloMosaic.PureOps.Ideal.Laws
import Idealize.ShloMosaic.Lib.ValueIdx

noncomputable section

open scoped BigOperators

namespace Cert.Obj.Reference

open Idealize.ShloMosaic Idealize.ShloMosaic.ValueIdx

/-! ## The host's pointwise operations at an index, at the ideal values -/

theorem hostDivf_apply {s : Shape} {φ : FTy} (a c : FVec Ideal s φ) (i : s.Idx) : Host.divf a c i = Ideal.div (a i) (c i) := rfl
theorem hostNegf_apply {s : Shape} {φ : FTy} (a : FVec Ideal s φ) (i : s.Idx) : Host.negf a i = -(a i) := rfl
theorem hostExp_apply {s : Shape} {φ : FTy} (a : FVec Ideal s φ) (i : s.Idx) : Host.exp a i = Ideal.exp (a i) := rfl

/-! ## A sum over a rank-4 index set whose last axis is a unit axis -/

/-- Such an index set is the product of its first three coordinate ranges … -/
def idxEquiv4u {n0 n1 n2 : ℕ} : (⟨4, ![n0, n1, n2, 1]⟩ : Shape).Idx ≃ Fin n0 × Fin n1 × Fin n2 where
  toFun i := (i 0, i 1, i 2)
  invFun p := ix4 p.1 p.2.1 p.2.2 (0 : Fin 1)
  left_inv i := by
    funext a
    match a with
    | ⟨0, _⟩ => rfl
    | ⟨1, _⟩ => rfl
    | ⟨2, _⟩ => rfl
    | ⟨3, _⟩ => exact Fin.ext (by have h : (i 3).val < 1 := (i 3).isLt; show 0 = (i 3).val; omega)
  right_inv _ := rfl

/-- … so a sum over it is the triple sum over those coordinates, the last coordinate `0`. -/
theorem sum_idx4u {M : Type*} [AddCommMonoid M] {n0 n1 n2 : ℕ} (f : (⟨4, ![n0, n1, n2, 1]⟩ : Shape).Idx → M) :
    ∑ i, f i = ∑ a : Fin n0, ∑ b : Fin n1, ∑ c : Fin n2, f (ix4 a b c (0 : Fin 1)) := by
  rw [← Equiv.sum_comp (idxEquiv4u (n0 := n0) (n1 := n1) (n2 := n2)).symm f, Fintype.sum_prod_type]
  refine Finset.sum_congr rfl fun a _ => ?_
  rw [Fintype.sum_prod_type]
  rfl

/-! ## One scale of the reference, for every grid height and width -/

section Scale
variable {H W : ℕ}
  (htr : (⟨4, ![16, 144, H, W]⟩ : Shape).Transposes [0, 2, 3, 1] ⟨4, ![16, H, W, 144]⟩)
  (hs1 : (⟨4, ![16, H, W, 144]⟩ : Shape).Slices ![0, 0, 0, 0] ⟨4, ![16, H, W, 64]⟩)
  (hs2 : (⟨4, ![16, H, W, 64]⟩ : Shape).Slices ![0, 0, 0, 0] ⟨4, ![16, H, W, 4]⟩)
  (hr3 : (⟨4, ![16, H, W, 4]⟩ : Shape).ReducesTo [3] ⟨3, ![16, H, W]⟩)
  (hb : (⟨3, ![16, H, W]⟩ : Shape).BroadcastsInDim ⟨4, ![16, H, W, 1]⟩ (![0, 1, 2] : Fin 3 → Fin 4))
  (hb0 : (⟨0, ![]⟩ : Shape).BroadcastsInDim ⟨4, ![16, H, W, 1]⟩ (![] : Fin 0 → Fin 4))
  (hrall : (⟨4, ![16, H, W, 1]⟩ : Shape).ReducesTo [0, 1, 2, 3] ⟨0, ![]⟩)
  (h0 : 0 < (⟨0, ![]⟩ : Shape).numel)

/-- The first four box channels, channel axis last, as the reference takes them: the transpose to channels-last, the
    slice to the 64 box channels, the slice to the first 4. -/
def rChannels (P : FVec Ideal ⟨4, ![16, 144, H, W]⟩ .f32) : FVec Ideal ⟨4, ![16, H, W, 4]⟩ .f32 :=
  extractStridedSlice ⟨4, ![16, H, W, 4]⟩ ![0, 0, 0, 0]
    (extractStridedSlice ⟨4, ![16, H, W, 64]⟩ ![0, 0, 0, 0]
      (transpose ⟨4, ![16, H, W, 144]⟩ [0, 2, 3, 1] P htr) hs1) hs2

/-- The predicted objectness as the reference spells it: the sum of the four channels from `0.0`, kept as a unit axis,
    divided by `4.0`, negated, exponentiated, added to `1.0`, and `1.0` divided by that. -/
def rLogistic (P : FVec Ideal ⟨4, ![16, 144, H, W]⟩ .f32) : FVec Ideal ⟨4, ![16, H, W, 1]⟩ .f32 :=
  Host.divf
    (broadcastInDim ⟨4, ![16, H, W, 1]⟩ ![] hb0 (constant (F := Ideal) ⟨0, ![]⟩ .f32 0x3F800000#32))
    (addf
      (broadcastInDim ⟨4, ![16, H, W, 1]⟩ ![] hb0 (constant (F := Ideal) ⟨0, ![]⟩ .f32 0x3F800000#32))
      (Host.exp (Host.negf (Host.divf
        (broadcastInDim ⟨4, ![16, H, W, 1]⟩ ![0, 1, 2] hb
          (Host.reduceAdd (F := Ideal) (rChannels htr hs1 hs2 P) (constant (F := Ideal) ⟨0, ![]⟩ .f32 0x00000000#32) hr3 h0))
        (broadcastInDim ⟨4, ![16, H, W, 1]⟩ ![] hb0 (constant (F := Ideal) ⟨0, ![]⟩ .f32 0x40800000#32))))))

/-- A scale's objectness loss as the reference spells it: the predicted objectness minus the target `T`, times itself,
    summed over all four axes from `0.0`, divided by the pattern `cN` of the number of cells. -/
def rObjG (cN : BitVec 32) (P : FVec Ideal ⟨4, ![16, 144, H, W]⟩ .f32) (T : FVec Ideal ⟨4, ![16, H, W, 1]⟩ .f32) :
    FVec Ideal ⟨0, ![]⟩ .f32 :=
  Host.divf
    (Host.reduceAdd (F := Ideal)
      (mulf (subf (rLogistic htr hs1 hs2 hr3 hb hb0 h0 P) T) (subf (rLogistic htr hs1 hs2 hr3 hb hb0 h0 P) T))
      (constant (F := Ideal) ⟨0, ![]⟩ .f32 0x00000000#32) hrall h0)
    (constant (F := Ideal) ⟨0, ![]⟩ .f32 cN)

/-- A scalar constant broadcast over the cells reads the extended real its pattern denotes. -/
theorem bcast0_apply (c : BitVec 32) (i : (⟨4, ![16, H, W, 1]⟩ : Shape).Idx) :
    broadcastInDim ⟨4, ![16, H, W, 1]⟩ ![] hb0 (constant (F := Ideal) ⟨0, ![]⟩ .f32 c) i = Ideal.ofBits .f32 c :=
  broadcastInDim_apply _ hb0 _ i ix0 (fun a => a.elim0)

/-- The channels-last slice at image `b`, row `y`, column `x`, channel `k` is the prediction at `(b, k, y, x)`. -/
theorem rChannels_apply (P : FVec Ideal ⟨4, ![16, 144, H, W]⟩ .f32) (b : Fin 16) (y : Fin H) (x : Fin W) (k : Fin 4) :
    rChannels htr hs1 hs2 P (ix4 b y x k) = P (ix4 b (Fin.castLE (by decide : 4 ≤ 144) k) y x) := by
  unfold rChannels
  refine (extractStridedSlice_apply ![0, 0, 0, 0] _ hs2 (ix4 b y x k) (ix4 b y x (Fin.castLE (by decide : 4 ≤ 64) k))
    (fun a => ?_)).trans ?_
  · match a with
    | ⟨0, _⟩ => show b.val = 0 + b.val; omega
    | ⟨1, _⟩ => show y.val = 0 + y.val; omega
    | ⟨2, _⟩ => show x.val = 0 + x.val; omega
    | ⟨3, _⟩ => show k.val = 0 + k.val; omega
  refine (extractStridedSlice_apply ![0, 0, 0, 0] _ hs1 (ix4 b y x (Fin.castLE (by decide : 4 ≤ 64) k))
    (ix4 b y x (Fin.castLE (by decide : 4 ≤ 144) k)) (fun a => ?_)).trans ?_
  · match a with
    | ⟨0, _⟩ => show b.val = 0 + b.val; omega
    | ⟨1, _⟩ => show y.val = 0 + y.val; omega
    | ⟨2, _⟩ => show x.val = 0 + x.val; omega
    | ⟨3, _⟩ => show k.val = 0 + k.val; omega
  exact transpose_apply [0, 2, 3, 1] P htr (ix4 b y x (Fin.castLE (by decide : 4 ≤ 144) k))
    (ix4 b (Fin.castLE (by decide : 4 ≤ 144) k) y x) (fun c => match c with
      | ⟨0, _⟩ => rfl
      | ⟨1, _⟩ => rfl
      | ⟨2, _⟩ => rfl
      | ⟨3, _⟩ => rfl)

/-- The predicted objectness at a cell is the logistic function of the mean of the cell's four box channels. -/
theorem rLogistic_apply (hr3' : (⟨4, ![16, H, W, 4]⟩ : Shape).Reduces [3] ⟨3, ![16, H, W]⟩)
    (P : FVec Ideal ⟨4, ![16, 144, H, W]⟩ .f32) (b : Fin 16) (y : Fin H) (x : Fin W) :
    rLogistic htr hs1 hs2 hr3 hb hb0 h0 P (ix4 b y x (0 : Fin 1))
      = Ideal.logistic ((((P (ix4 b 0 y x) + P (ix4 b 1 y x)) + P (ix4 b 2 y x)) + P (ix4 b 3 y x)) * ((1 / 4 : ℝ) : EReal)) := by
  unfold rLogistic
  simp only [hostDivf_apply, addf_apply, hostExp_apply, hostNegf_apply, bcast0_apply hb0, Cert.Obj.ofBits_one,
    Cert.Obj.ofBits_four, Cert.Obj.div_four, Cert.Obj.logistic_spelt]
  refine congrArg (fun z => Ideal.logistic (z * ((1 / 4 : ℝ) : EReal))) ?_
  refine (broadcastInDim_apply ![0, 1, 2] hb _ (ix4 b y x (0 : Fin 1)) (ix3 b y x) (fun a => ?_)).trans ?_
  · match a with
    | ⟨0, _⟩ => show b.val = if (16 : ℕ) = 1 then 0 else b.val; rw [if_neg (by decide)]
    | ⟨1, _⟩ =>
      show y.val = if H = 1 then 0 else y.val
      split_ifs with h
      · have := y.isLt; omega
      · rfl
    | ⟨2, _⟩ =>
      show x.val = if W = 1 then 0 else x.val
      split_ifs with h
      · have := x.isLt; omega
      · rfl
  refine (Ideal.hostReduceAdd_single hr3 hr3' _ _ (ix3 b y x)).trans ?_
  rw [constant_apply, Ideal.ofBits_zero_f32, zero_add]
  refine (Fin.sum_univ_four _).trans ?_
  have hl : ∀ k : Fin 4, hr3'.lift (ix3 b y x) k = ix4 b y x k := fun k =>
    funext fun a => Fin.ext (by match a with | ⟨0, _⟩ => rfl | ⟨1, _⟩ => rfl | ⟨2, _⟩ => rfl | ⟨3, _⟩ => rfl)
  rw [hl, hl, hl, hl, rChannels_apply, rChannels_apply, rChannels_apply, rChannels_apply]
  rfl

/-- ONE SCALE OF THE REFERENCE: the triple sum over images, rows and columns of the specification's cell term, times
    the reciprocal of the number of cells (`cN` denoting the nonzero real `n`). -/
theorem rObjG_apply (hr3' : (⟨4, ![16, H, W, 4]⟩ : Shape).Reduces [3] ⟨3, ![16, H, W]⟩)
    (cN : BitVec 32) (n : ℝ) (hn : n ≠ 0) (hcN : Ideal.ofBits .f32 cN = ((n : ℝ) : EReal))
    (P : FVec Ideal ⟨4, ![16, 144, H, W]⟩ .f32) (T : FVec Ideal ⟨4, ![16, H, W, 1]⟩ .f32) :
    rObjG htr hs1 hs2 hr3 hb hb0 hrall h0 cN P T ix0
      = (∑ b : Fin 16, ∑ y : Fin H, ∑ x : Fin W,
          Cert.Obj.cell (P (ix4 b 0 y x)) (P (ix4 b 1 y x)) (P (ix4 b 2 y x)) (P (ix4 b 3 y x)) (T (ix4 b y x (0 : Fin 1))))
        * ((1 / n : ℝ) : EReal) := by
  unfold rObjG
  rw [hostDivf_apply, constant_apply, hcN, Ideal.div_coe hn]
  refine congrArg (· * ((1 / n : ℝ) : EReal)) ?_
  refine (Ideal.hostReduceAdd_total hrall (fun a => a.elim0) _ _ ix0).trans ?_
  rw [constant_apply, Ideal.ofBits_zero_f32, zero_add, sum_idx4u]
  refine Finset.sum_congr rfl fun b _ => Finset.sum_congr rfl fun y _ => Finset.sum_congr rfl fun x _ => ?_
  rw [mulf_apply, subf_apply, rLogistic_apply htr hs1 hs2 hr3 hb hb0 h0 hr3' P b y x]
  rfl

end Scale

/-! ## The three scales at the reference's shapes -/

/-- Scale 0 (80 × 80 cells per image): the reference's operations on the predictions `P` and the target `T`. -/
def rObj_0 (P : FVec Ideal Cert.ReferenceIdeal.S16x144x80x80 .f32) (T : FVec Ideal Cert.ReferenceIdeal.S16x80x80x1 .f32) :
    FVec Ideal Cert.ReferenceIdeal.S_ .f32 :=
  rObjG Cert.ReferenceIdeal.Gen.transposes_S16x144x80x80_S16x80x80x144_0_2_3_1
    Cert.ReferenceIdeal.Gen.slices_S16x80x80x144_S16x80x80x64_0_0_0_0
    Cert.ReferenceIdeal.Gen.slices_S16x80x80x64_S16x80x80x4_0_0_0_0
    Cert.ReferenceIdeal.Gen.reducesTo_S16x80x80x4_S16x80x80_d3
    Cert.ReferenceIdeal.Gen.bcast_S16x80x80_S16x80x80x1_0_1_2
    Cert.ReferenceIdeal.Gen.bcast_S_S16x80x80x1
    Cert.ReferenceIdeal.Gen.reducesTo_S16x80x80x1_S_d0_1_2_3
    Cert.ReferenceIdeal.Gen.h_S_ 0x47C80000#32 P T

/-- Scale 0 of the reference is the sum of the cells' terms over images, rows and columns, times `1/102400`. -/
theorem ref_obj_0 (P : FVec Ideal Cert.ReferenceIdeal.S16x144x80x80 .f32) (T : FVec Ideal Cert.ReferenceIdeal.S16x80x80x1 .f32) :
    rObj_0 P T ix0
      = (∑ b : Fin 16, ∑ y : Fin 80, ∑ x : Fin 80,
          Cert.Obj.cell (P (ix4 b 0 y x)) (P (ix4 b 1 y x)) (P (ix4 b 2 y x)) (P (ix4 b 3 y x)) (T (ix4 b y x (0 : Fin 1))))
        * ((1 / 102400 : ℝ) : EReal) :=
  rObjG_apply _ _ _ _ _ _ _ _ (by decide) 0x47C80000#32 102400 (by norm_num) Cert.Obj.ofBits_102400 P T

/-- Scale 1 (40 × 40 cells per image): the reference's operations on the predictions `P` and the target `T`. -/
def rObj_1 (P : FVec Ideal Cert.ReferenceIdeal.S16x144x40x40 .f32) (T : FVec Ideal Cert.ReferenceIdeal.S16x40x40x1 .f32) :
    FVec Ideal Cert.ReferenceIdeal.S_ .f32 :=
  rObjG Cert.ReferenceIdeal.Gen.transposes_S16x144x40x40_S16x40x40x144_0_2_3_1
    Cert.ReferenceIdeal.Gen.slices_S16x40x40x144_S16x40x40x64_0_0_0_0
    Cert.ReferenceIdeal.Gen.slices_S16x40x40x64_S16x40x40x4_0_0_0_0
    Cert.ReferenceIdeal.Gen.reducesTo_S16x40x40x4_S16x40x40_d3
    Cert.ReferenceIdeal.Gen.bcast_S16x40x40_S16x40x40x1_0_1_2
    Cert.ReferenceIdeal.Gen.bcast_S_S16x40x40x1
    Cert.ReferenceIdeal.Gen.reducesTo_S16x40x40x1_S_d0_1_2_3
    Cert.ReferenceIdeal.Gen.h_S_ 0x46C80000#32 P T

/-- Scale 1 of the reference is the sum of the cells' terms over images, rows and columns, times `1/25600`. -/
theorem ref_obj_1 (P : FVec Ideal Cert.ReferenceIdeal.S16x144x40x40 .f32) (T : FVec Ideal Cert.ReferenceIdeal.S16x40x40x1 .f32) :
    rObj_1 P T ix0
      = (∑ b : Fin 16, ∑ y : Fin 40, ∑ x : Fin 40,
          Cert.Obj.cell (P (ix4 b 0 y x)) (P (ix4 b 1 y x)) (P (ix4 b 2 y x)) (P (ix4 b 3 y x)) (T (ix4 b y x (0 : Fin 1))))
        * ((1 / 25600 : ℝ) : EReal) :=
  rObjG_apply _ _ _ _ _ _ _ _ (by decide) 0x46C80000#32 25600 (by norm_num) Cert.Obj.ofBits_25600 P T

/-- Scale 2 (20 × 20 cells per image): the reference's operations on the predictions `P` and the target `T`. -/
def rObj_2 (P : FVec Ideal Cert.ReferenceIdeal.S16x144x20x20 .f32) (T : FVec Ideal Cert.ReferenceIdeal.S16x20x20x1 .f32) :
    FVec Ideal Cert.ReferenceIdeal.S_ .f32 :=
  rObjG Cert.ReferenceIdeal.Gen.transposes_S16x144x20x20_S16x20x20x144_0_2_3_1
    Cert.ReferenceIdeal.Gen.slices_S16x20x20x144_S16x20x20x64_0_0_0_0
    Cert.ReferenceIdeal.Gen.slices_S16x20x20x64_S16x20x20x4_0_0_0_0
    Cert.ReferenceIdeal.Gen.reducesTo_S16x20x20x4_S16x20x20_d3
    Cert.ReferenceIdeal.Gen.bcast_S16x20x20_S16x20x20x1_0_1_2
    Cert.ReferenceIdeal.Gen.bcast_S_S16x20x20x1
    Cert.ReferenceIdeal.Gen.reducesTo_S16x20x20x1_S_d0_1_2_3
    Cert.ReferenceIdeal.Gen.h_S_ 0x45C80000#32 P T

/-- Scale 2 of the reference is the sum of the cells' terms over images, rows and columns, times `1/6400`. -/
theorem ref_obj_2 (P : FVec Ideal Cert.ReferenceIdeal.S16x144x20x20 .f32) (T : FVec Ideal Cert.ReferenceIdeal.S16x20x20x1 .f32) :
    rObj_2 P T ix0
      = (∑ b : Fin 16, ∑ y : Fin 20, ∑ x : Fin 20,
          Cert.Obj.cell (P (ix4 b 0 y x)) (P (ix4 b 1 y x)) (P (ix4 b 2 y x)) (P (ix4 b 3 y x)) (T (ix4 b y x (0 : Fin 1))))
        * ((1 / 6400 : ℝ) : EReal) :=
  rObjG_apply _ _ _ _ _ _ _ _ (by decide) 0x45C80000#32 6400 (by norm_num) Cert.Obj.ofBits_6400 P T

end Cert.Obj.Reference

end
-- ==== Proof.ObjBridge.lean ====
/-
  The kernel body's objectness value IS the reference's sum of the three scales' objectness losses, at `Ideal`.

  The two sides arrange the same cells differently. The kernel's body reads, per scale, a block `X : [16, 4, h·w]` — the
  first four channels of the predictions `P : [16, 144, h, w]` with the two grid axes flattened row-major — and a flat
  target `O : [16, h·w]`; the reference reads `P` through its own channels-last slices and a target `T : [16, h, w, 1]`.
  With `X` that flattening of `P` (`flat_apply`: cell `y·w + x` of the block is `P` at `(b, c, y, x)`) and the flat
  target agreeing with `T` at every cell (a hypothesis: the targets are scatters, which this module does not open), the
  kernel's sum over the `h·w` flattened cells re-indexes to the double sum over rows and columns (`sum_cells`: the
  flattened cells are the pairs, row-major), so the specification's `objSum` of the kernel's arrays is the reference's
  triple sum (`bridge_scale`). Both sides multiply it by the same reciprocal of the number of cells — the kernel's named
  constant, the reference's division by a nonzero real — and add the scales left to right, the reference from `0.0`
  (`obj_total`). On the extended reals every step is an equation between sums of the same terms: no finiteness is used.
-/
import proofs.«153486_j83854941487213_2_alg».proof.Proof.ObjKernel
import proofs.«153486_j83854941487213_2_alg».proof.Proof.ObjReference

noncomputable section

open scoped BigOperators

namespace Cert.Obj.Bridge

open Idealize.ShloMosaic Idealize.ShloMosaic.ValueIdx

/-! ## The cells of a grid, flattened row-major -/

/-- Row `y`, column `x` of an `H × W` grid sits below `H · W` at position `y · W + x`. -/
theorem cell_lt {H W : ℕ} (y : Fin H) (x : Fin W) : y.val * W + x.val < H * W :=
  calc y.val * W + x.val < y.val * W + W := Nat.add_lt_add_left x.isLt _
    _ = (y.val + 1) * W := by rw [Nat.add_mul, Nat.one_mul]
    _ ≤ H * W := Nat.mul_le_mul_right W y.isLt

/-- The flattened index of cell `(y, x)`: `y · W + x`, among the `N = H · W` cells. -/
abbrev cellIdx {H W N : ℕ} (hN : H * W = N) (y : Fin H) (x : Fin W) : Fin N :=
  ⟨y.val * W + x.val, by subst hN; exact cell_lt y x⟩

/-- A sum over the flattened cells is the double sum over rows and columns. -/
theorem sum_cells {M : Type*} [AddCommMonoid M] {H W N : ℕ} (hN : H * W = N) (f : Fin N → M) :
    ∑ l : Fin N, f l = ∑ y : Fin H, ∑ x : Fin W, f (cellIdx hN y x) := by
  subst hN
  rw [← Equiv.sum_comp finProdFinEquiv f, Fintype.sum_prod_type]
  refine Finset.sum_congr rfl fun y _ => Finset.sum_congr rfl fun x _ => congrArg f (Fin.ext ?_)
  show x.val + W * y.val = y.val * W + x.val
  rw [Nat.mul_comm, Nat.add_comm]

/-! ## One scale -/

/-- The kernel's block of predictions — the slice of the first four channels, the two grid axes flattened — read at
    image `b`, channel `c` and the flattened cell `(y, x)`: the predictions at `(b, c, y, x)`. -/
theorem flat_apply {H W N : ℕ} (hN : H * W = N) (P : FVec Ideal ⟨4, ![16, 144, H, W]⟩ .f32)
    (hsl : (⟨4, ![16, 144, H, W]⟩ : Shape).Slices ![0, 0, 0, 0] ⟨4, ![16, 4, H, W]⟩)
    (hcast : (⟨4, ![16, 4, H, W]⟩ : Shape).ShapeCasts ⟨3, ![16, 4, N]⟩)
    (b : Fin 16) (c : Fin 4) (y : Fin H) (x : Fin W) :
    shapeCast ⟨3, ![16, 4, N]⟩ (extractStridedSlice ⟨4, ![16, 4, H, W]⟩ ![0, 0, 0, 0] P hsl) hcast (ix3 b c (cellIdx hN y x))
      = P (ix4 b (Fin.castLE (by decide : 4 ≤ 144) c) y x) := by
  refine (shapeCast_apply _ hcast (ix3 b c (cellIdx hN y x)) (ix4 b c y x) ?_).trans ?_
  · rw [Shape.rowMajor_val_four, Shape.rowMajor_val_three]
    show ((b.val * 4 + c.val) * H + y.val) * W + x.val = (b.val * 4 + c.val) * N + (y.val * W + x.val)
    subst hN
    ring
  · refine extractStridedSlice_apply ![0, 0, 0, 0] P hsl (ix4 b c y x) (ix4 b (Fin.castLE (by decide : 4 ≤ 144) c) y x)
      (fun a => ?_)
    match a with
    | ⟨0, _⟩ => show b.val = 0 + b.val; omega
    | ⟨1, _⟩ => show c.val = 0 + c.val; omega
    | ⟨2, _⟩ => show y.val = 0 + y.val; omega
    | ⟨3, _⟩ => show x.val = 0 + x.val; omega

/-- ONE SCALE: with the kernel's block the flattening of the predictions and the flat target agreeing with the
    reference's at every cell, the specification's sum over images and flattened cells is the reference's triple sum
    over images, rows and columns. -/
theorem bridge_scale {H W N : ℕ} (hN : H * W = N) (P : FVec Ideal ⟨4, ![16, 144, H, W]⟩ .f32)
    (O : FVec Ideal ⟨2, ![16, N]⟩ .f32) (T : FVec Ideal ⟨4, ![16, H, W, 1]⟩ .f32)
    (hsl : (⟨4, ![16, 144, H, W]⟩ : Shape).Slices ![0, 0, 0, 0] ⟨4, ![16, 4, H, W]⟩)
    (hcast : (⟨4, ![16, 4, H, W]⟩ : Shape).ShapeCasts ⟨3, ![16, 4, N]⟩)
    (hO : ∀ (b : Fin 16) (y : Fin H) (x : Fin W), O (ix2 b (cellIdx hN y x)) = T (ix4 b y x (0 : Fin 1))) :
    Cert.Obj.objSum
        (fun b c l => shapeCast ⟨3, ![16, 4, N]⟩ (extractStridedSlice ⟨4, ![16, 4, H, W]⟩ ![0, 0, 0, 0] P hsl) hcast (ix3 b c l))
        (fun b l => O (ix2 b l))
      = ∑ b : Fin 16, ∑ y : Fin H, ∑ x : Fin W,
          Cert.Obj.cell (P (ix4 b 0 y x)) (P (ix4 b 1 y x)) (P (ix4 b 2 y x)) (P (ix4 b 3 y x)) (T (ix4 b y x (0 : Fin 1))) := by
  unfold Cert.Obj.objSum
  refine Finset.sum_congr rfl fun b _ => ?_
  rw [sum_cells hN]
  refine Finset.sum_congr rfl fun y _ => Finset.sum_congr rfl fun x _ => ?_
  beta_reduce
  rw [hO b y x, flat_apply hN P hsl hcast b 0 y x, flat_apply hN P hsl hcast b 1 y x,
    flat_apply hN P hsl hcast b 2 y x, flat_apply hN P hsl hcast b 3 y x]
  rfl

/-! ## The three scales together -/

/-- THE OBJECTNESS LOSS: the number the kernel body stores — over the flattened first four channels of the three
    prediction arrays and flat targets that agree, cell by cell, with the reference's targets — is the reference's
    `((0.0 + scale 0) + scale 1) + scale 2`. -/
theorem obj_total
    (P0 : FVec Ideal Cert.KernelIdeal.S16x144x80x80 .f32) (P1 : FVec Ideal Cert.KernelIdeal.S16x144x40x40 .f32)
    (P2 : FVec Ideal Cert.KernelIdeal.S16x144x20x20 .f32)
    (O0 : FVec Ideal Cert.KernelIdeal.S16x6400 .f32) (O1 : FVec Ideal Cert.KernelIdeal.S16x1600 .f32)
    (O2 : FVec Ideal Cert.KernelIdeal.S16x400 .f32)
    (T0 : FVec Ideal Cert.ReferenceIdeal.S16x80x80x1 .f32) (T1 : FVec Ideal Cert.ReferenceIdeal.S16x40x40x1 .f32)
    (T2 : FVec Ideal Cert.ReferenceIdeal.S16x20x20x1 .f32)
    (hO0 : ∀ (b : Fin 16) (y : Fin 80) (x : Fin 80),
      O0 (ix2 b (cellIdx (by norm_num : 80 * 80 = 6400) y x)) = T0 (ix4 b y x (0 : Fin 1)))
    (hO1 : ∀ (b : Fin 16) (y : Fin 40) (x : Fin 40),
      O1 (ix2 b (cellIdx (by norm_num : 40 * 40 = 1600) y x)) = T1 (ix4 b y x (0 : Fin 1)))
    (hO2 : ∀ (b : Fin 16) (y : Fin 20) (x : Fin 20),
      O2 (ix2 b (cellIdx (by norm_num : 20 * 20 = 400) y x)) = T2 (ix4 b y x (0 : Fin 1))) :
    Cert.KernelIdeal.Gen.k0_pay1 (F := Ideal)
        (Cert.KernelIdeal.Gen.k0_pay2
          (shapeCast Cert.KernelIdeal.S16x4x6400
            (extractStridedSlice Cert.KernelIdeal.S16x4x80x80 ![0, 0, 0, 0] P0
              Cert.KernelIdeal.Gen.slices_S16x144x80x80_S16x4x80x80_0_0_0_0)
            Cert.KernelIdeal.Gen.shapeCasts_S16x4x80x80_S16x4x6400) O0)
        (Cert.KernelIdeal.Gen.k0_pay3
          (shapeCast Cert.KernelIdeal.S16x4x1600
            (extractStridedSlice Cert.KernelIdeal.S16x4x40x40 ![0, 0, 0, 0] P1
              Cert.KernelIdeal.Gen.slices_S16x144x40x40_S16x4x40x40_0_0_0_0)
            Cert.KernelIdeal.Gen.shapeCasts_S16x4x40x40_S16x4x1600))
        (Cert.KernelIdeal.Gen.k0_pay4 O1)
        (shapeCast Cert.KernelIdeal.S16x4x400
          (extractStridedSlice Cert.KernelIdeal.S16x4x20x20 ![0, 0, 0, 0] P2
            Cert.KernelIdeal.Gen.slices_S16x144x20x20_S16x4x20x20_0_0_0_0)
          Cert.KernelIdeal.Gen.shapeCasts_S16x4x20x20_S16x4x400)
        O2 (ix2 (0 : Fin 1) (0 : Fin 1))
      = addf (addf (addf (constant (F := Ideal) Cert.ReferenceIdeal.S_ .f32 0x00000000#32)
            (Cert.Obj.Reference.rObj_0 P0 T0)) (Cert.Obj.Reference.rObj_1 P1 T1)) (Cert.Obj.Reference.rObj_2 P2 T2) ix0 := by
  rw [Cert.Obj.Kernel.kernel_obj, addf_apply, addf_apply, addf_apply, constant_apply, Ideal.ofBits_zero_f32, zero_add,
    Cert.Obj.Reference.ref_obj_0, Cert.Obj.Reference.ref_obj_1, Cert.Obj.Reference.ref_obj_2]
  rw [bridge_scale (by norm_num : 80 * 80 = 6400) P0 O0 T0 _ _ hO0,
    bridge_scale (by norm_num : 40 * 40 = 1600) P1 O1 T1 _ _ hO1,
    bridge_scale (by norm_num : 20 * 20 = 400) P2 O2 T2 _ _ hO2]

end Cert.Obj.Bridge

end
-- ==== Proof.ObjLink.lean ====
/-
  The kernel's objectness value linked to the reference program's own stages, at `Ideal`.

  The generated reading of the reference names each operation's value `val_main_vN` as a function of the arguments. Three
  facts tie the earlier modules to those names, each by unfolding definitions (the same operations in the same order):
  a scale's objectness stage is the compositional `rObj_s` of the predictions and that scale's target stage (`robj_s`);
  the target stage is the scatter of ones `rObjt4_s` at the clipped cell coordinates (`rtgt_s`); and the reference's
  objectness total `val_main_v415` is `((0.0 + scale 0) + scale 1) + scale 2` of those stages.

  The kernel's flattened target agrees with the reference's scatter cell by cell (`Cert.ObjtBridge.objt_eq_s`), which is
  the hypothesis the bridge `Cert.Obj.Bridge.obj_total` asks for. So the number the kernel body stores, over the kernel's
  own host-side arrays — the flattened first four channels of each prediction array, the flattened scattered targets —,
  is the reference's objectness total (`lobj_link`), and reshaped from `[1, 1]` to a scalar it is that stage as a
  scalar array (`lobj_link_scalar`).
-/
import proofs.«153486_j83854941487213_2_alg».proof.Proof.RefReadP
import proofs.«153486_j83854941487213_2_alg».proof.Proof.ObjBridge
import proofs.«153486_j83854941487213_2_alg».proof.Proof.ObjtBridge

noncomputable section

namespace Cert.Obj.Link

open Idealize.ShloMosaic Idealize.ShloMosaic.ValueIdx Idealize.ShloMosaic.TcCoe Idealize.SL.Sem Idealize.ShloMosaic.StableHlo
open Cert.ReferenceIdeal.Read

/-! ## The arguments, and the kernel's host-side arrays -/

/-- The three prediction arrays and the boxes, as the reference's reading types its arguments. -/
abbrev Arg0 : Type := (⟨Cert.ReferenceIdeal.S16x144x80x80, .f32⟩ : BufTy).Contents (Elt Ideal)
abbrev Arg1 : Type := (⟨Cert.ReferenceIdeal.S16x144x40x40, .f32⟩ : BufTy).Contents (Elt Ideal)
abbrev Arg2 : Type := (⟨Cert.ReferenceIdeal.S16x144x20x20, .f32⟩ : BufTy).Contents (Elt Ideal)
abbrev Arg3 : Type := (⟨Cert.ReferenceIdeal.S16x32x4, .f32⟩ : BufTy).Contents (Elt Ideal)

/-- Scale 0's block of predictions as the kernel's host side builds it: the first four channels, the grid flattened. -/
abbrev kX0 (x0 : Arg0) : FVec Ideal Cert.KernelIdeal.S16x4x6400 .f32 :=
  shapeCast Cert.KernelIdeal.S16x4x6400
    (extractStridedSlice Cert.KernelIdeal.S16x4x80x80 ![0, 0, 0, 0] x0
      Cert.KernelIdeal.Gen.slices_S16x144x80x80_S16x4x80x80_0_0_0_0)
    Cert.KernelIdeal.Gen.shapeCasts_S16x4x80x80_S16x4x6400
/-- Scale 1's. -/
abbrev kX1 (x1 : Arg1) : FVec Ideal Cert.KernelIdeal.S16x4x1600 .f32 :=
  shapeCast Cert.KernelIdeal.S16x4x1600
    (extractStridedSlice Cert.KernelIdeal.S16x4x40x40 ![0, 0, 0, 0] x1
      Cert.KernelIdeal.Gen.slices_S16x144x40x40_S16x4x40x40_0_0_0_0)
    Cert.KernelIdeal.Gen.shapeCasts_S16x4x40x40_S16x4x1600
/-- Scale 2's. -/
abbrev kX2 (x2 : Arg2) : FVec Ideal Cert.KernelIdeal.S16x4x400 .f32 :=
  shapeCast Cert.KernelIdeal.S16x4x400
    (extractStridedSlice Cert.KernelIdeal.S16x4x20x20 ![0, 0, 0, 0] x2
      Cert.KernelIdeal.Gen.slices_S16x144x20x20_S16x4x20x20_0_0_0_0)
    Cert.KernelIdeal.Gen.shapeCasts_S16x4x20x20_S16x4x400

/-- The `[1, 1]` value the kernel body stores, over the kernel's host-side arrays: the three blocks of predictions and
    the three flattened targets, scattered at the reference's clipped cell coordinates. -/
abbrev kStored (x0 : Arg0) (x1 : Arg1) (x2 : Arg2) (x3 : Arg3) : FVec Ideal Cert.KernelIdeal.S1x1 .f32 :=
  Cert.KernelIdeal.Gen.k0_pay1 (F := Ideal)
    (Cert.KernelIdeal.Gen.k0_pay2 (kX0 x0)
      (Cert.ObjtBridge.kObjtFlat_0 (val_main_v20 (F := Ideal) x3) (val_main_v22 (F := Ideal) x3)))
    (Cert.KernelIdeal.Gen.k0_pay3 (kX1 x1))
    (Cert.KernelIdeal.Gen.k0_pay4
      (Cert.ObjtBridge.kObjtFlat_1 (val_main_v159 (F := Ideal) x3) (val_main_v161 (F := Ideal) x3)))
    (kX2 x2)
    (Cert.ObjtBridge.kObjtFlat_2 (val_main_v298 (F := Ideal) x3) (val_main_v300 (F := Ideal) x3))

/-! ## The reference's stages are the compositional definitions -/

set_option maxHeartbeats 400000 in
/-- Scale 0's objectness stage is `rObj_0` of the predictions and scale 0's target stage. -/
theorem robj_0 (x0 : Arg0) (x3 : Arg3) :
    val_main_v135 (F := Ideal) x0 x3 = Cert.Obj.Reference.rObj_0 x0 (val_main_v50 (F := Ideal) x3) := rfl

set_option maxHeartbeats 400000 in
/-- Scale 1's. -/
theorem robj_1 (x1 : Arg1) (x3 : Arg3) :
    val_main_v274 (F := Ideal) x1 x3 = Cert.Obj.Reference.rObj_1 x1 (val_main_v189 (F := Ideal) x3) := rfl

set_option maxHeartbeats 400000 in
/-- Scale 2's. -/
theorem robj_2 (x2 : Arg2) (x3 : Arg3) :
    val_main_v413 (F := Ideal) x2 x3 = Cert.Obj.Reference.rObj_2 x2 (val_main_v328 (F := Ideal) x3) := rfl

set_option maxHeartbeats 400000 in
/-- Scale 0's target stage is the scatter of ones at the clipped column and row coordinates. -/
theorem rtgt_0 (x3 : Arg3) :
    val_main_v50 (F := Ideal) x3
      = Cert.ObjtBridge.rObjt4_0 (val_main_v20 (F := Ideal) x3) (val_main_v22 (F := Ideal) x3) := rfl

set_option maxHeartbeats 400000 in
/-- Scale 1's. -/
theorem rtgt_1 (x3 : Arg3) :
    val_main_v189 (F := Ideal) x3
      = Cert.ObjtBridge.rObjt4_1 (val_main_v159 (F := Ideal) x3) (val_main_v161 (F := Ideal) x3) := rfl

set_option maxHeartbeats 400000 in
/-- Scale 2's. -/
theorem rtgt_2 (x3 : Arg3) :
    val_main_v328 (F := Ideal) x3
      = Cert.ObjtBridge.rObjt4_2 (val_main_v298 (F := Ideal) x3) (val_main_v300 (F := Ideal) x3) := rfl

set_option maxHeartbeats 400000 in
/-- The reference's objectness total is `((0.0 + scale 0) + scale 1) + scale 2` of the three objectness stages. -/
theorem rtotal (x0 : Arg0) (x1 : Arg1) (x2 : Arg2) (x3 : Arg3) :
    val_main_v415 (F := Ideal) x0 x1 x2 x3
      = addf (addf (addf (constant (F := Ideal) Cert.ReferenceIdeal.S_ .f32 0x00000000#32)
            (val_main_v135 (F := Ideal) x0 x3)) (val_main_v274 (F := Ideal) x1 x3)) (val_main_v413 (F := Ideal) x2 x3) := rfl

/-! ## The kernel's stored value is the reference's objectness total -/

/-- THE LINK: the number the kernel body stores is the reference's objectness total at its one index. -/
theorem lobj_link (x0 : Arg0) (x1 : Arg1) (x2 : Arg2) (x3 : Arg3) :
    kStored x0 x1 x2 x3 (ix2 (0 : Fin 1) (0 : Fin 1)) = val_main_v415 (F := Ideal) x0 x1 x2 x3 ix0 := by
  rw [rtotal, robj_0, robj_1, robj_2]
  exact Cert.Obj.Bridge.obj_total x0 x1 x2 _ _ _ _ _ _
    (fun b y x => (Cert.ObjtBridge.objt_eq_0 _ _ b y x).trans (congrFun (rtgt_0 x3).symm _))
    (fun b y x => (Cert.ObjtBridge.objt_eq_1 _ _ b y x).trans (congrFun (rtgt_1 x3).symm _))
    (fun b y x => (Cert.ObjtBridge.objt_eq_2 _ _ b y x).trans (congrFun (rtgt_2 x3).symm _))

/-- The same as an equation of scalar arrays: the stored `[1, 1]` value reshaped to a scalar is the reference's
    objectness total. -/
theorem lobj_link_scalar (x0 : Arg0) (x1 : Arg1) (x2 : Arg2) (x3 : Arg3) :
    shapeCast Cert.KernelIdeal.S_ (kStored x0 x1 x2 x3) Cert.KernelIdeal.Gen.shapeCasts_S1x1_S_
      = val_main_v415 (F := Ideal) x0 x1 x2 x3 := by
  funext i
  obtain rfl : i = ix0 := eq_ix0 i
  refine (shapeCast_apply _ _ ix0 (ix2 (0 : Fin 1) (0 : Fin 1)) ?_).trans (lobj_link x0 x1 x2 x3)
  rw [Shape.rowMajor_val_two]
  have h : ((⟨0, ![]⟩ : Shape).rowMajor ix0).val < 1 := ((⟨0, ![]⟩ : Shape).rowMajor ix0).isLt
  show 0 * 1 + 0 = ((⟨0, ![]⟩ : Shape).rowMajor ix0).val
  omega

end Cert.Obj.Link

end
-- ==== Proof.KFacts0.lean ====
/- Written by: bun scratch/gen_khost.js (run from the unit directory). What the kernel's host stretches leave in the buffers that a
   later stretch (or the region, or the lines after it) reads, scale 0 (cells of 80 x 80): each is the reference's stage of the
   same name-by-position where the two programs apply the same operations, and the bridged definitions where they differ. -/
import proofs.«153486_j83854941487213_2_alg».proof.Proof.KSegs
import proofs.«153486_j83854941487213_2_alg».proof.Proof.RefReadP
import proofs.«153486_j83854941487213_2_alg».proof.Proof.CellsLink
import proofs.«153486_j83854941487213_2_alg».proof.Proof.ObjtBridge

set_option maxRecDepth 16384

noncomputable section

namespace Cert.KernelIdeal.Seg

open Idealize.ShloMosaic Idealize.ShloMosaic.StableHlo Idealize.ShloMosaic.TcCoe Cert.KernelIdeal Cert.KernelIdeal.Gen

/-- The second entry of a literal family, by computation. -/
theorem head_tail_cons {α : Type} {n : ℕ} (a : α) (u : Fin (n + 1) → α) :
    Matrix.vecHead (Matrix.vecTail (Matrix.vecCons a u)) = Matrix.vecHead u := rfl
/-- The third entry of a literal family, by computation. -/
theorem head_tail_tail_cons {α : Type} {n : ℕ} (a : α) (u : Fin (n + 2) → α) :
    Matrix.vecHead (Matrix.vecTail (Matrix.vecTail (Matrix.vecCons a u))) = Matrix.vecHead (Matrix.vecTail u) := rfl

theorem x_main_c (V : Valuation τ sig (Elt Ideal)) : X0 V (no_index (Proc.devRef .tc main_c)) = (constantI S_ 32 0#32) := by
  unfold X0
  after_results_mx
  all_goals (try simp only [TRef.toBuf, TRef.ofBuf, cast_cast, cast_eq])
  all_goals (try rfl)

theorem x_main_v16 (V : Valuation τ sig (Elt Ideal)) : X0 V (no_index (Proc.devRef .tc main_v16)) = (Cert.ReferenceIdeal.Read.val_main_v19 (F := Ideal) (V (Proc.devRef .tc main_arg3))) := by
  unfold X0
  after_results_mx
  all_goals (try simp only [TRef.toBuf, TRef.ofBuf, cast_cast, cast_eq])
  all_goals (try rfl)

theorem x_main_c_3 (V : Valuation τ sig (Elt Ideal)) : X0 V (no_index (Proc.devRef .tc main_c_3)) = (constantI S_ 32 79#32) := by
  unfold X0
  after_results_mx
  all_goals (try simp only [TRef.toBuf, TRef.ofBuf, cast_cast, cast_eq])
  all_goals (try rfl)

theorem x_main_v7 (V : Valuation τ sig (Elt Ideal)) : X0 V (no_index (Proc.devRef .tc main_v7)) = (Cert.ReferenceIdeal.Read.val_main_v10 (F := Ideal) (V (Proc.devRef .tc main_arg3))) := by
  unfold X0
  after_results_mx
  all_goals (try simp only [TRef.toBuf, TRef.ofBuf, cast_cast, cast_eq])
  all_goals (try rfl)

theorem x_main_v3 (V : Valuation τ sig (Elt Ideal)) : X0 V (no_index (Proc.devRef .tc main_v3)) = (Cert.ReferenceIdeal.Read.val_main_v6 (F := Ideal) (V (Proc.devRef .tc main_arg3))) := by
  unfold X0
  after_results_mx
  all_goals (try simp only [TRef.toBuf, TRef.ofBuf, cast_cast, cast_eq])
  all_goals (try rfl)

theorem x_main_v11 (V : Valuation τ sig (Elt Ideal)) : X0 V (no_index (Proc.devRef .tc main_v11)) = (Cert.ReferenceIdeal.Read.val_main_v14 (F := Ideal) (V (Proc.devRef .tc main_arg3))) := by
  unfold X0
  after_results_mx
  all_goals (try simp only [TRef.toBuf, TRef.ofBuf, cast_cast, cast_eq])
  all_goals (try rfl)

theorem x_main_v15 (V : Valuation τ sig (Elt Ideal)) : X0 V (no_index (Proc.devRef .tc main_v15)) = (Cert.ReferenceIdeal.Read.val_main_v18 (F := Ideal) (V (Proc.devRef .tc main_arg3))) := by
  unfold X0
  after_results_mx
  all_goals (try simp only [TRef.toBuf, TRef.ofBuf, cast_cast, cast_eq])
  all_goals (try rfl)

theorem x_main_v17 (V : Valuation τ sig (Elt Ideal)) : X1 V (no_index (Proc.devRef .tc main_v17)) = (Cert.ReferenceIdeal.Read.val_main_v20 (F := Ideal) (V (Proc.devRef .tc main_arg3))) := by
  unfold X1
  generalize hY : X0 V = Y
  after_results_mx
  all_goals subst hY
  all_goals (try simp (disch := decide) only [keep0, x_main_c, x_main_v16, x_main_c_3])
  all_goals (try simp only [TRef.toBuf, TRef.ofBuf, cast_cast, cast_eq])
  all_goals (try rfl)

theorem x_main_c_4 (V : Valuation τ sig (Elt Ideal)) : X2 V (no_index (Proc.devRef .tc main_c_4)) = (constantI S_ 32 0#32) := by
  unfold X2
  generalize hY : X1 V = Y
  after_results_mx
  all_goals subst hY
  all_goals (try simp (disch := decide) only [keep1, keep0, x_main_v7])
  all_goals (try simp only [TRef.toBuf, TRef.ofBuf, cast_cast, cast_eq])
  all_goals (try rfl)

theorem x_main_v18 (V : Valuation τ sig (Elt Ideal)) : X2 V (no_index (Proc.devRef .tc main_v18)) = (Cert.ReferenceIdeal.Read.val_main_v21 (F := Ideal) (V (Proc.devRef .tc main_arg3))) := by
  unfold X2
  generalize hY : X1 V = Y
  after_results_mx
  all_goals subst hY
  all_goals (try simp (disch := decide) only [keep1, keep0, x_main_v7])
  all_goals (try simp only [TRef.toBuf, TRef.ofBuf, cast_cast, cast_eq])
  all_goals (try rfl)

theorem x_main_c_5 (V : Valuation τ sig (Elt Ideal)) : X2 V (no_index (Proc.devRef .tc main_c_5)) = (constantI S_ 32 79#32) := by
  unfold X2
  generalize hY : X1 V = Y
  after_results_mx
  all_goals subst hY
  all_goals (try simp (disch := decide) only [keep1, keep0, x_main_v7])
  all_goals (try simp only [TRef.toBuf, TRef.ofBuf, cast_cast, cast_eq])
  all_goals (try rfl)

theorem x_main_v19 (V : Valuation τ sig (Elt Ideal)) : X3 V (no_index (Proc.devRef .tc main_v19)) = (Cert.ReferenceIdeal.Read.val_main_v22 (F := Ideal) (V (Proc.devRef .tc main_arg3))) := by
  unfold X3
  generalize hY : X2 V = Y
  after_results_mx
  all_goals subst hY
  all_goals (try simp (disch := decide) only [keep2, keep1, keep0, x_main_c_4, x_main_v18, x_main_c_5])
  all_goals (try simp only [TRef.toBuf, TRef.ofBuf, cast_cast, cast_eq])
  all_goals (try rfl)

theorem x_main_v22 (V : Valuation τ sig (Elt Ideal)) : X4 V (no_index (Proc.devRef .tc main_v22)) = (broadcastInDim S16x80x80 ![] bcast_S_S16x80x80 (constant (F := Ideal) S_ .f32 0x00000000#32)) := by
  unfold X4
  generalize hY : X3 V = Y
  after_results_mx
  all_goals subst hY
  all_goals (try simp (disch := decide) only [keep3, keep2, keep1, keep0, x_main_v19, x_main_v17])
  all_goals (try simp only [TRef.toBuf, TRef.ofBuf, cast_cast, cast_eq])
  all_goals (try rfl)

theorem x_main_v42 (V : Valuation τ sig (Elt Ideal)) : X4 V (no_index (Proc.devRef .tc main_v42)) = (Cert.ObjtBridge.kIdx3 80#32 (Cert.ReferenceIdeal.Read.val_main_v20 (F := Ideal) (V (Proc.devRef .tc main_arg3))) (Cert.ReferenceIdeal.Read.val_main_v22 (F := Ideal) (V (Proc.devRef .tc main_arg3)))) := by
  unfold X4
  generalize hY : X3 V = Y
  after_results_mx
  unfold Cert.ObjtBridge.kIdx3
  refine concat3_congr _ _ _ _ _ _ _ ?_ ?_ ?_
  all_goals (try after_results_mx)
  all_goals (try simp only [head_tail_tail_cons, head_tail_cons, Matrix.head_cons, Matrix.cons_val_zero, Matrix.cons_val_one])
  all_goals (try after_results_mx)
  all_goals subst hY
  all_goals (try simp (disch := decide) only [keep3, keep2, keep1, keep0, x_main_v19, x_main_v17])
  all_goals (try simp only [TRef.toBuf, TRef.ofBuf, cast_cast, cast_eq])
  all_goals (try rfl)

theorem x_main_v47 (V : Valuation τ sig (Elt Ideal)) : X5 V (no_index (Proc.devRef .tc main_v47)) = (Cert.Cells0.kPcat (V (Proc.devRef .tc main_arg0))) := by
  unfold X5
  generalize hY : X4 V = Y
  after_results_mx
  unfold Cert.Cells0.kPcat
  refine concat2_congr _ _ _ _ _ _ ?_ ?_
  all_goals (try after_results_mx)
  all_goals (try simp only [head_tail_tail_cons, head_tail_cons, Matrix.head_cons, Matrix.cons_val_zero, Matrix.cons_val_one])
  all_goals (try after_results_mx)
  all_goals subst hY
  all_goals (try simp (disch := decide) only [keep4, keep3, keep2, keep1, keep0, x_main_v22, x_main_v42])
  all_goals (try simp only [TRef.toBuf, TRef.ofBuf, cast_cast, cast_eq])
  all_goals (try rfl)

theorem x_main_v44 (V : Valuation τ sig (Elt Ideal)) : X5 V (no_index (Proc.devRef .tc main_v44)) = (Cert.ObjtBridge.kObjt3_0 (Cert.ReferenceIdeal.Read.val_main_v20 (F := Ideal) (V (Proc.devRef .tc main_arg3))) (Cert.ReferenceIdeal.Read.val_main_v22 (F := Ideal) (V (Proc.devRef .tc main_arg3)))) := by
  unfold X5
  generalize hY : X4 V = Y
  after_results_mx
  all_goals subst hY
  all_goals (try simp (disch := decide) only [keep4, keep3, keep2, keep1, keep0, x_main_v22, x_main_v42])
  all_goals (try simp only [TRef.toBuf, TRef.ofBuf, cast_cast, cast_eq])
  all_goals (try rfl)

theorem x_main_v53 (V : Valuation τ sig (Elt Ideal)) : X6 V (no_index (Proc.devRef .tc main_v53)) = (Cert.Cells0.kLin3 (Cert.ReferenceIdeal.Read.val_main_v20 (F := Ideal) (V (Proc.devRef .tc main_arg3))) (Cert.ReferenceIdeal.Read.val_main_v22 (F := Ideal) (V (Proc.devRef .tc main_arg3)))) := by
  unfold X6
  generalize hY : X5 V = Y
  after_results_mx
  all_goals subst hY
  all_goals (try simp (disch := decide) only [keep5, keep4, keep3, keep2, keep1, keep0, x_main_v19, x_main_v17, x_main_v47])
  all_goals (try simp only [TRef.toBuf, TRef.ofBuf, cast_cast, cast_eq])
  all_goals (try rfl)

theorem x_main_v51 (V : Valuation τ sig (Elt Ideal)) : X6 V (no_index (Proc.devRef .tc main_v51)) = (Cert.Cells0.kPflat (V (Proc.devRef .tc main_arg0))) := by
  unfold X6
  generalize hY : X5 V = Y
  after_results_mx
  all_goals subst hY
  all_goals (try simp (disch := decide) only [keep5, keep4, keep3, keep2, keep1, keep0, x_main_v19, x_main_v17, x_main_v47])
  all_goals (try simp only [TRef.toBuf, TRef.ofBuf, cast_cast, cast_eq])
  all_goals (try rfl)

theorem x_main_call2_v5 (V : Valuation τ sig (Elt Ideal)) : X7 V (no_index (Proc.devRef .tc main_call2_v5)) = (Cert.Cells0.kIdx4 (Cert.ReferenceIdeal.Read.val_main_v20 (F := Ideal) (V (Proc.devRef .tc main_arg3))) (Cert.ReferenceIdeal.Read.val_main_v22 (F := Ideal) (V (Proc.devRef .tc main_arg3)))) := by
  unfold X7
  generalize hY : X6 V = Y
  after_results_mx
  all_goals subst hY
  all_goals (try simp (disch := decide) only [keep6, keep5, keep4, keep3, keep2, keep1, keep0, x_main_v53])
  all_goals (try simp only [TRef.toBuf, TRef.ofBuf, cast_cast, cast_eq])
  all_goals (try rfl)

theorem x_main_call2_v12 (V : Valuation τ sig (Elt Ideal)) : X8 V (no_index (Proc.devRef .tc main_call2_v12)) = (Cert.Cells0.kMask (Cert.ReferenceIdeal.Read.val_main_v20 (F := Ideal) (V (Proc.devRef .tc main_arg3))) (Cert.ReferenceIdeal.Read.val_main_v22 (F := Ideal) (V (Proc.devRef .tc main_arg3)))) := by
  unfold X8
  generalize hY : X7 V = Y
  after_results_mx
  all_goals subst hY
  all_goals (try simp (disch := decide) only [keep7, keep6, keep5, keep4, keep3, keep2, keep1, keep0, x_main_call2_v5])
  all_goals (try simp only [TRef.toBuf, TRef.ofBuf, cast_cast, cast_eq])
  all_goals (try rfl)

theorem x_main_call2_v13 (V : Valuation τ sig (Elt Ideal)) : X9 V (no_index (Proc.devRef .tc main_call2_v13)) = (Cert.Cells0.kGath (V (Proc.devRef .tc main_arg0)) (Cert.ReferenceIdeal.Read.val_main_v20 (F := Ideal) (V (Proc.devRef .tc main_arg3))) (Cert.ReferenceIdeal.Read.val_main_v22 (F := Ideal) (V (Proc.devRef .tc main_arg3)))) := by
  unfold X9
  generalize hY : X8 V = Y
  after_results_mx
  all_goals subst hY
  all_goals (try simp (disch := decide) only [keep8, keep7, keep6, keep5, keep4, keep3, keep2, keep1, keep0, x_main_v51, x_main_call2_v5])
  all_goals (try simp only [TRef.toBuf, TRef.ofBuf, cast_cast, cast_eq])
  all_goals (try rfl)

theorem x_main_v54 (V : Valuation τ sig (Elt Ideal)) : X10 V (no_index (Proc.devRef .tc main_v54)) = (Cert.Cells0.kSel (V (Proc.devRef .tc main_arg0)) (Cert.ReferenceIdeal.Read.val_main_v20 (F := Ideal) (V (Proc.devRef .tc main_arg3))) (Cert.ReferenceIdeal.Read.val_main_v22 (F := Ideal) (V (Proc.devRef .tc main_arg3)))) := by
  unfold X10
  generalize hY : X9 V = Y
  after_results_mx
  all_goals subst hY
  all_goals (try simp (disch := decide) only [keep9, keep8, keep7, keep6, keep5, keep4, keep3, keep2, keep1, keep0, x_main_call2_v12, x_main_call2_v13])
  all_goals (try simp only [TRef.toBuf, TRef.ofBuf, cast_cast, cast_eq])
  all_goals (try rfl)

theorem x_main_v56 (V : Valuation τ sig (Elt Ideal)) : X11 V (no_index (Proc.devRef .tc main_v56)) = (Cert.ReferenceIdeal.Read.val_main_v72 (F := Ideal) (V (Proc.devRef .tc main_arg0)) (V (Proc.devRef .tc main_arg3))) := by
  unfold X11
  generalize hY : X10 V = Y
  after_results_mx
  all_goals subst hY
  all_goals (try simp (disch := decide) only [keep10, keep9, keep8, keep7, keep6, keep5, keep4, keep3, keep2, keep1, keep0, x_main_v54, x_main_v17, x_main_v3, x_main_v19, x_main_v7, x_main_v11, x_main_v15])
  all_goals (try simp only [TRef.toBuf, TRef.ofBuf, cast_cast, cast_eq])
  exact Cert.CellsLink.kbox_0 _ _

theorem x_main_v69 (V : Valuation τ sig (Elt Ideal)) : X11 V (no_index (Proc.devRef .tc main_v69)) = (Cert.ReferenceIdeal.Read.val_main_v85 (F := Ideal) (V (Proc.devRef .tc main_arg3))) := by
  unfold X11
  generalize hY : X10 V = Y
  after_results_mx
  unfold Cert.ReferenceIdeal.Read.val_main_v85
  refine concat4_congr _ _ _ _ _ _ _ _ ?_ ?_ ?_ ?_
  all_goals (try after_results_mx)
  all_goals (try simp only [head_tail_tail_cons, head_tail_cons, Matrix.head_cons, Matrix.cons_val_zero, Matrix.cons_val_one])
  all_goals (try after_results_mx)
  all_goals subst hY
  all_goals (try simp (disch := decide) only [keep10, keep9, keep8, keep7, keep6, keep5, keep4, keep3, keep2, keep1, keep0, x_main_v54, x_main_v17, x_main_v3, x_main_v19, x_main_v7, x_main_v11, x_main_v15])
  all_goals (try simp only [TRef.toBuf, TRef.ofBuf, cast_cast, cast_eq])
  all_goals (try rfl)

theorem x_main_v55 (V : Valuation τ sig (Elt Ideal)) : X11 V (no_index (Proc.devRef .tc main_v55)) = (Cert.Cells0.kCells (V (Proc.devRef .tc main_arg0)) (Cert.ReferenceIdeal.Read.val_main_v20 (F := Ideal) (V (Proc.devRef .tc main_arg3))) (Cert.ReferenceIdeal.Read.val_main_v22 (F := Ideal) (V (Proc.devRef .tc main_arg3)))) := by
  unfold X11
  generalize hY : X10 V = Y
  after_results_mx
  all_goals subst hY
  all_goals (try simp (disch := decide) only [keep10, keep9, keep8, keep7, keep6, keep5, keep4, keep3, keep2, keep1, keep0, x_main_v54, x_main_v17, x_main_v3, x_main_v19, x_main_v7, x_main_v11, x_main_v15])
  all_goals (try simp only [TRef.toBuf, TRef.ofBuf, cast_cast, cast_eq])
  all_goals (try rfl)

theorem x_main_v76 (V : Valuation τ sig (Elt Ideal)) : X12 V (no_index (Proc.devRef .tc main_v76)) = (Cert.ReferenceIdeal.Read.val_main_v112 (F := Ideal) (V (Proc.devRef .tc main_arg0)) (V (Proc.devRef .tc main_arg3))) := by
  unfold X12
  generalize hY : X11 V = Y
  after_results_mx
  all_goals subst hY
  all_goals (try simp (disch := decide) only [keep11, keep10, keep9, keep8, keep7, keep6, keep5, keep4, keep3, keep2, keep1, keep0, x_main_v56, x_main_v69, x_main_v55])
  all_goals (try simp only [TRef.toBuf, TRef.ofBuf, cast_cast, cast_eq])
  exact Cert.CellsLink.kcls_0 _ _

theorem x_main_v75 (V : Valuation τ sig (Elt Ideal)) : X12 V (no_index (Proc.devRef .tc main_v75)) = (Cert.ReferenceIdeal.Read.val_main_v91 (F := Ideal) (V (Proc.devRef .tc main_arg0)) (V (Proc.devRef .tc main_arg3))) := by
  unfold X12
  generalize hY : X11 V = Y
  after_results_mx
  all_goals subst hY
  all_goals (try simp (disch := decide) only [keep11, keep10, keep9, keep8, keep7, keep6, keep5, keep4, keep3, keep2, keep1, keep0, x_main_v56, x_main_v69, x_main_v55])
  all_goals (try simp only [TRef.toBuf, TRef.ofBuf, cast_cast, cast_eq])
  all_goals (try rfl)

theorem x_main_v77 (V : Valuation τ sig (Elt Ideal)) : X13 V (no_index (Proc.devRef .tc main_v77)) = (Cert.ReferenceIdeal.Read.val_main_v113 (F := Ideal) (V (Proc.devRef .tc main_arg4))) := by
  unfold X13
  generalize hY : X12 V = Y
  after_results_mx
  all_goals subst hY
  all_goals (try simp (disch := decide) only [keep12, keep11, keep10, keep9, keep8, keep7, keep6, keep5, keep4, keep3, keep2, keep1, keep0])
  all_goals (try simp only [TRef.toBuf, TRef.ofBuf, cast_cast, cast_eq])
  all_goals (try rfl)

theorem x_main_v78 (V : Valuation τ sig (Elt Ideal)) : X14 V (no_index (Proc.devRef .tc main_v78)) = (Cert.ReferenceIdeal.Read.val_main_v114 (F := Ideal) (V (Proc.devRef .tc main_arg0)) (V (Proc.devRef .tc main_arg3))) := by
  unfold X14
  generalize hY : X13 V = Y
  after_results_mx
  all_goals subst hY
  all_goals (try simp (disch := decide) only [keep13, keep12, keep11, keep10, keep9, keep8, keep7, keep6, keep5, keep4, keep3, keep2, keep1, keep0, x_main_v76])
  all_goals (try simp only [TRef.toBuf, TRef.ofBuf, cast_cast, cast_eq])
  all_goals (try rfl)

theorem x_main_c_29 (V : Valuation τ sig (Elt Ideal)) : X15 V (no_index (Proc.devRef .tc main_c_29)) = (constantI S_ 32 0#32) := by
  unfold X15
  generalize hY : X14 V = Y
  after_results_mx
  all_goals subst hY
  all_goals (try simp (disch := decide) only [keep14, keep13, keep12, keep11, keep10, keep9, keep8, keep7, keep6, keep5, keep4, keep3, keep2, keep1, keep0, x_main_v76, x_main_v77, x_main_v78, x_main_v75, x_main_v44])
  all_goals (try simp only [TRef.toBuf, TRef.ofBuf, cast_cast, cast_eq])
  all_goals (try rfl)

theorem x_main_v106 (V : Valuation τ sig (Elt Ideal)) : X15 V (no_index (Proc.devRef .tc main_v106)) = (Cert.ReferenceIdeal.Read.val_main_v158 (F := Ideal) (V (Proc.devRef .tc main_arg3))) := by
  unfold X15
  generalize hY : X14 V = Y
  after_results_mx
  all_goals subst hY
  all_goals (try simp (disch := decide) only [keep14, keep13, keep12, keep11, keep10, keep9, keep8, keep7, keep6, keep5, keep4, keep3, keep2, keep1, keep0, x_main_v76, x_main_v77, x_main_v78, x_main_v75, x_main_v44])
  all_goals (try simp only [TRef.toBuf, TRef.ofBuf, cast_cast, cast_eq])
  all_goals (try rfl)

theorem x_main_c_30 (V : Valuation τ sig (Elt Ideal)) : X15 V (no_index (Proc.devRef .tc main_c_30)) = (constantI S_ 32 39#32) := by
  unfold X15
  generalize hY : X14 V = Y
  after_results_mx
  all_goals subst hY
  all_goals (try simp (disch := decide) only [keep14, keep13, keep12, keep11, keep10, keep9, keep8, keep7, keep6, keep5, keep4, keep3, keep2, keep1, keep0, x_main_v76, x_main_v77, x_main_v78, x_main_v75, x_main_v44])
  all_goals (try simp only [TRef.toBuf, TRef.ofBuf, cast_cast, cast_eq])
  all_goals (try rfl)

theorem x_main_v97 (V : Valuation τ sig (Elt Ideal)) : X15 V (no_index (Proc.devRef .tc main_v97)) = (Cert.ReferenceIdeal.Read.val_main_v149 (F := Ideal) (V (Proc.devRef .tc main_arg3))) := by
  unfold X15
  generalize hY : X14 V = Y
  after_results_mx
  all_goals subst hY
  all_goals (try simp (disch := decide) only [keep14, keep13, keep12, keep11, keep10, keep9, keep8, keep7, keep6, keep5, keep4, keep3, keep2, keep1, keep0, x_main_v76, x_main_v77, x_main_v78, x_main_v75, x_main_v44])
  all_goals (try simp only [TRef.toBuf, TRef.ofBuf, cast_cast, cast_eq])
  all_goals (try rfl)

theorem x_main_v93 (V : Valuation τ sig (Elt Ideal)) : X15 V (no_index (Proc.devRef .tc main_v93)) = (Cert.ReferenceIdeal.Read.val_main_v145 (F := Ideal) (V (Proc.devRef .tc main_arg3))) := by
  unfold X15
  generalize hY : X14 V = Y
  after_results_mx
  all_goals subst hY
  all_goals (try simp (disch := decide) only [keep14, keep13, keep12, keep11, keep10, keep9, keep8, keep7, keep6, keep5, keep4, keep3, keep2, keep1, keep0, x_main_v76, x_main_v77, x_main_v78, x_main_v75, x_main_v44])
  all_goals (try simp only [TRef.toBuf, TRef.ofBuf, cast_cast, cast_eq])
  all_goals (try rfl)

theorem x_main_v101 (V : Valuation τ sig (Elt Ideal)) : X15 V (no_index (Proc.devRef .tc main_v101)) = (Cert.ReferenceIdeal.Read.val_main_v153 (F := Ideal) (V (Proc.devRef .tc main_arg3))) := by
  unfold X15
  generalize hY : X14 V = Y
  after_results_mx
  all_goals subst hY
  all_goals (try simp (disch := decide) only [keep14, keep13, keep12, keep11, keep10, keep9, keep8, keep7, keep6, keep5, keep4, keep3, keep2, keep1, keep0, x_main_v76, x_main_v77, x_main_v78, x_main_v75, x_main_v44])
  all_goals (try simp only [TRef.toBuf, TRef.ofBuf, cast_cast, cast_eq])
  all_goals (try rfl)

theorem x_main_v105 (V : Valuation τ sig (Elt Ideal)) : X15 V (no_index (Proc.devRef .tc main_v105)) = (Cert.ReferenceIdeal.Read.val_main_v157 (F := Ideal) (V (Proc.devRef .tc main_arg3))) := by
  unfold X15
  generalize hY : X14 V = Y
  after_results_mx
  all_goals subst hY
  all_goals (try simp (disch := decide) only [keep14, keep13, keep12, keep11, keep10, keep9, keep8, keep7, keep6, keep5, keep4, keep3, keep2, keep1, keep0, x_main_v76, x_main_v77, x_main_v78, x_main_v75, x_main_v44])
  all_goals (try simp only [TRef.toBuf, TRef.ofBuf, cast_cast, cast_eq])
  all_goals (try rfl)

theorem x_main_v85 (V : Valuation τ sig (Elt Ideal)) : X15 V (no_index (Proc.devRef .tc main_v85)) = (Cert.ReferenceIdeal.Read.val_main_v136 (F := Ideal) (V (Proc.devRef .tc main_arg0)) (V (Proc.devRef .tc main_arg3))) := by
  unfold X15
  generalize hY : X14 V = Y
  after_results_mx
  all_goals subst hY
  all_goals (try simp (disch := decide) only [keep14, keep13, keep12, keep11, keep10, keep9, keep8, keep7, keep6, keep5, keep4, keep3, keep2, keep1, keep0, x_main_v76, x_main_v77, x_main_v78, x_main_v75, x_main_v44])
  all_goals (try simp only [TRef.toBuf, TRef.ofBuf, cast_cast, cast_eq])
  all_goals (try rfl)

theorem x_main_v86 (V : Valuation τ sig (Elt Ideal)) : X15 V (no_index (Proc.devRef .tc main_v86)) = (Cert.ReferenceIdeal.Read.val_main_v138 (F := Ideal) (V (Proc.devRef .tc main_arg0)) (V (Proc.devRef .tc main_arg3)) (V (Proc.devRef .tc main_arg4))) := by
  unfold X15
  generalize hY : X14 V = Y
  after_results_mx
  all_goals subst hY
  all_goals (try simp (disch := decide) only [keep14, keep13, keep12, keep11, keep10, keep9, keep8, keep7, keep6, keep5, keep4, keep3, keep2, keep1, keep0, x_main_v76, x_main_v77, x_main_v78, x_main_v75, x_main_v44])
  all_goals (try simp only [TRef.toBuf, TRef.ofBuf, cast_cast, cast_eq])
  all_goals (try rfl)

theorem x_main_v88 (V : Valuation τ sig (Elt Ideal)) : X15 V (no_index (Proc.devRef .tc main_v88)) = (shapeCast S16x4x6400 (extractStridedSlice S16x4x80x80 ![0, 0, 0, 0] (V (Proc.devRef .tc main_arg0)) slices_S16x144x80x80_S16x4x80x80_0_0_0_0) shapeCasts_S16x4x80x80_S16x4x6400) := by
  unfold X15
  generalize hY : X14 V = Y
  after_results_mx
  all_goals subst hY
  all_goals (try simp (disch := decide) only [keep14, keep13, keep12, keep11, keep10, keep9, keep8, keep7, keep6, keep5, keep4, keep3, keep2, keep1, keep0, x_main_v76, x_main_v77, x_main_v78, x_main_v75, x_main_v44])
  all_goals (try simp only [TRef.toBuf, TRef.ofBuf, cast_cast, cast_eq])
  all_goals (try rfl)

theorem x_main_v89 (V : Valuation τ sig (Elt Ideal)) : X15 V (no_index (Proc.devRef .tc main_v89)) = (Cert.ObjtBridge.kObjtFlat_0 (Cert.ReferenceIdeal.Read.val_main_v20 (F := Ideal) (V (Proc.devRef .tc main_arg3))) (Cert.ReferenceIdeal.Read.val_main_v22 (F := Ideal) (V (Proc.devRef .tc main_arg3)))) := by
  unfold X15
  generalize hY : X14 V = Y
  after_results_mx
  all_goals subst hY
  all_goals (try simp (disch := decide) only [keep14, keep13, keep12, keep11, keep10, keep9, keep8, keep7, keep6, keep5, keep4, keep3, keep2, keep1, keep0, x_main_v76, x_main_v77, x_main_v78, x_main_v75, x_main_v44])
  all_goals (try simp only [TRef.toBuf, TRef.ofBuf, cast_cast, cast_eq])
  all_goals (try rfl)

end Cert.KernelIdeal.Seg

end
-- ==== Proof.KFacts1.lean ====
/- Written by: bun scratch/gen_khost.js (run from the unit directory). What the kernel's host stretches leave in the buffers that a
   later stretch (or the region, or the lines after it) reads, scale 1 (cells of 40 x 40): each is the reference's stage of the
   same name-by-position where the two programs apply the same operations, and the bridged definitions where they differ. -/
import proofs.«153486_j83854941487213_2_alg».proof.Proof.KSegs
import proofs.«153486_j83854941487213_2_alg».proof.Proof.RefReadP
import proofs.«153486_j83854941487213_2_alg».proof.Proof.CellsLink
import proofs.«153486_j83854941487213_2_alg».proof.Proof.ObjtBridge
import proofs.«153486_j83854941487213_2_alg».proof.Proof.KFacts0

set_option maxRecDepth 16384

noncomputable section

namespace Cert.KernelIdeal.Seg

open Idealize.ShloMosaic Idealize.ShloMosaic.StableHlo Idealize.ShloMosaic.TcCoe Cert.KernelIdeal Cert.KernelIdeal.Gen

theorem x_main_v107 (V : Valuation τ sig (Elt Ideal)) : X16 V (no_index (Proc.devRef .tc main_v107)) = (Cert.ReferenceIdeal.Read.val_main_v159 (F := Ideal) (V (Proc.devRef .tc main_arg3))) := by
  unfold X16
  generalize hY : X15 V = Y
  after_results_mx
  all_goals subst hY
  all_goals (try simp (disch := decide) only [keep15, keep14, keep13, keep12, keep11, keep10, keep9, keep8, keep7, keep6, keep5, keep4, keep3, keep2, keep1, keep0, x_main_c_29, x_main_v106, x_main_c_30])
  all_goals (try simp only [TRef.toBuf, TRef.ofBuf, cast_cast, cast_eq])
  all_goals (try rfl)

theorem x_main_c_31 (V : Valuation τ sig (Elt Ideal)) : X17 V (no_index (Proc.devRef .tc main_c_31)) = (constantI S_ 32 0#32) := by
  unfold X17
  generalize hY : X16 V = Y
  after_results_mx
  all_goals subst hY
  all_goals (try simp (disch := decide) only [keep16, keep15, keep14, keep13, keep12, keep11, keep10, keep9, keep8, keep7, keep6, keep5, keep4, keep3, keep2, keep1, keep0, x_main_v97])
  all_goals (try simp only [TRef.toBuf, TRef.ofBuf, cast_cast, cast_eq])
  all_goals (try rfl)

theorem x_main_v108 (V : Valuation τ sig (Elt Ideal)) : X17 V (no_index (Proc.devRef .tc main_v108)) = (Cert.ReferenceIdeal.Read.val_main_v160 (F := Ideal) (V (Proc.devRef .tc main_arg3))) := by
  unfold X17
  generalize hY : X16 V = Y
  after_results_mx
  all_goals subst hY
  all_goals (try simp (disch := decide) only [keep16, keep15, keep14, keep13, keep12, keep11, keep10, keep9, keep8, keep7, keep6, keep5, keep4, keep3, keep2, keep1, keep0, x_main_v97])
  all_goals (try simp only [TRef.toBuf, TRef.ofBuf, cast_cast, cast_eq])
  all_goals (try rfl)

theorem x_main_c_32 (V : Valuation τ sig (Elt Ideal)) : X17 V (no_index (Proc.devRef .tc main_c_32)) = (constantI S_ 32 39#32) := by
  unfold X17
  generalize hY : X16 V = Y
  after_results_mx
  all_goals subst hY
  all_goals (try simp (disch := decide) only [keep16, keep15, keep14, keep13, keep12, keep11, keep10, keep9, keep8, keep7, keep6, keep5, keep4, keep3, keep2, keep1, keep0, x_main_v97])
  all_goals (try simp only [TRef.toBuf, TRef.ofBuf, cast_cast, cast_eq])
  all_goals (try rfl)

theorem x_main_v109 (V : Valuation τ sig (Elt Ideal)) : X18 V (no_index (Proc.devRef .tc main_v109)) = (Cert.ReferenceIdeal.Read.val_main_v161 (F := Ideal) (V (Proc.devRef .tc main_arg3))) := by
  unfold X18
  generalize hY : X17 V = Y
  after_results_mx
  all_goals subst hY
  all_goals (try simp (disch := decide) only [keep17, keep16, keep15, keep14, keep13, keep12, keep11, keep10, keep9, keep8, keep7, keep6, keep5, keep4, keep3, keep2, keep1, keep0, x_main_c_31, x_main_v108, x_main_c_32])
  all_goals (try simp only [TRef.toBuf, TRef.ofBuf, cast_cast, cast_eq])
  all_goals (try rfl)

theorem x_main_v112 (V : Valuation τ sig (Elt Ideal)) : X19 V (no_index (Proc.devRef .tc main_v112)) = (broadcastInDim S16x40x40 ![] bcast_S_S16x40x40 (constant (F := Ideal) S_ .f32 0x00000000#32)) := by
  unfold X19
  generalize hY : X18 V = Y
  after_results_mx
  all_goals subst hY
  all_goals (try simp (disch := decide) only [keep18, keep17, keep16, keep15, keep14, keep13, keep12, keep11, keep10, keep9, keep8, keep7, keep6, keep5, keep4, keep3, keep2, keep1, keep0, x_main_v109, x_main_v107])
  all_goals (try simp only [TRef.toBuf, TRef.ofBuf, cast_cast, cast_eq])
  all_goals (try rfl)

theorem x_main_v132 (V : Valuation τ sig (Elt Ideal)) : X19 V (no_index (Proc.devRef .tc main_v132)) = (Cert.ObjtBridge.kIdx3 40#32 (Cert.ReferenceIdeal.Read.val_main_v159 (F := Ideal) (V (Proc.devRef .tc main_arg3))) (Cert.ReferenceIdeal.Read.val_main_v161 (F := Ideal) (V (Proc.devRef .tc main_arg3)))) := by
  unfold X19
  generalize hY : X18 V = Y
  after_results_mx
  unfold Cert.ObjtBridge.kIdx3
  refine concat3_congr _ _ _ _ _ _ _ ?_ ?_ ?_
  all_goals (try after_results_mx)
  all_goals (try simp only [head_tail_tail_cons, head_tail_cons, Matrix.head_cons, Matrix.cons_val_zero, Matrix.cons_val_one])
  all_goals (try after_results_mx)
  all_goals subst hY
  all_goals (try simp (disch := decide) only [keep18, keep17, keep16, keep15, keep14, keep13, keep12, keep11, keep10, keep9, keep8, keep7, keep6, keep5, keep4, keep3, keep2, keep1, keep0, x_main_v109, x_main_v107])
  all_goals (try simp only [TRef.toBuf, TRef.ofBuf, cast_cast, cast_eq])
  all_goals (try rfl)

theorem x_main_v137 (V : Valuation τ sig (Elt Ideal)) : X20 V (no_index (Proc.devRef .tc main_v137)) = (Cert.Cells1.kPcat (V (Proc.devRef .tc main_arg1))) := by
  unfold X20
  generalize hY : X19 V = Y
  after_results_mx
  unfold Cert.Cells1.kPcat
  refine concat2_congr _ _ _ _ _ _ ?_ ?_
  all_goals (try after_results_mx)
  all_goals (try simp only [head_tail_tail_cons, head_tail_cons, Matrix.head_cons, Matrix.cons_val_zero, Matrix.cons_val_one])
  all_goals (try after_results_mx)
  all_goals subst hY
  all_goals (try simp (disch := decide) only [keep19, keep18, keep17, keep16, keep15, keep14, keep13, keep12, keep11, keep10, keep9, keep8, keep7, keep6, keep5, keep4, keep3, keep2, keep1, keep0, x_main_v112, x_main_v132])
  all_goals (try simp only [TRef.toBuf, TRef.ofBuf, cast_cast, cast_eq])
  all_goals (try rfl)

theorem x_main_v134 (V : Valuation τ sig (Elt Ideal)) : X20 V (no_index (Proc.devRef .tc main_v134)) = (Cert.ObjtBridge.kObjt3_1 (Cert.ReferenceIdeal.Read.val_main_v159 (F := Ideal) (V (Proc.devRef .tc main_arg3))) (Cert.ReferenceIdeal.Read.val_main_v161 (F := Ideal) (V (Proc.devRef .tc main_arg3)))) := by
  unfold X20
  generalize hY : X19 V = Y
  after_results_mx
  all_goals subst hY
  all_goals (try simp (disch := decide) only [keep19, keep18, keep17, keep16, keep15, keep14, keep13, keep12, keep11, keep10, keep9, keep8, keep7, keep6, keep5, keep4, keep3, keep2, keep1, keep0, x_main_v112, x_main_v132])
  all_goals (try simp only [TRef.toBuf, TRef.ofBuf, cast_cast, cast_eq])
  all_goals (try rfl)

theorem x_main_v143 (V : Valuation τ sig (Elt Ideal)) : X21 V (no_index (Proc.devRef .tc main_v143)) = (Cert.Cells1.kLin3 (Cert.ReferenceIdeal.Read.val_main_v159 (F := Ideal) (V (Proc.devRef .tc main_arg3))) (Cert.ReferenceIdeal.Read.val_main_v161 (F := Ideal) (V (Proc.devRef .tc main_arg3)))) := by
  unfold X21
  generalize hY : X20 V = Y
  after_results_mx
  all_goals subst hY
  all_goals (try simp (disch := decide) only [keep20, keep19, keep18, keep17, keep16, keep15, keep14, keep13, keep12, keep11, keep10, keep9, keep8, keep7, keep6, keep5, keep4, keep3, keep2, keep1, keep0, x_main_v109, x_main_v107, x_main_v137])
  all_goals (try simp only [TRef.toBuf, TRef.ofBuf, cast_cast, cast_eq])
  all_goals (try rfl)

theorem x_main_v141 (V : Valuation τ sig (Elt Ideal)) : X21 V (no_index (Proc.devRef .tc main_v141)) = (Cert.Cells1.kPflat (V (Proc.devRef .tc main_arg1))) := by
  unfold X21
  generalize hY : X20 V = Y
  after_results_mx
  all_goals subst hY
  all_goals (try simp (disch := decide) only [keep20, keep19, keep18, keep17, keep16, keep15, keep14, keep13, keep12, keep11, keep10, keep9, keep8, keep7, keep6, keep5, keep4, keep3, keep2, keep1, keep0, x_main_v109, x_main_v107, x_main_v137])
  all_goals (try simp only [TRef.toBuf, TRef.ofBuf, cast_cast, cast_eq])
  all_goals (try rfl)

theorem x_main_call7_v5 (V : Valuation τ sig (Elt Ideal)) : X22 V (no_index (Proc.devRef .tc main_call7_v5)) = (Cert.Cells1.kIdx4 (Cert.ReferenceIdeal.Read.val_main_v159 (F := Ideal) (V (Proc.devRef .tc main_arg3))) (Cert.ReferenceIdeal.Read.val_main_v161 (F := Ideal) (V (Proc.devRef .tc main_arg3)))) := by
  unfold X22
  generalize hY : X21 V = Y
  after_results_mx
  all_goals subst hY
  all_goals (try simp (disch := decide) only [keep21, keep20, keep19, keep18, keep17, keep16, keep15, keep14, keep13, keep12, keep11, keep10, keep9, keep8, keep7, keep6, keep5, keep4, keep3, keep2, keep1, keep0, x_main_v143])
  all_goals (try simp only [TRef.toBuf, TRef.ofBuf, cast_cast, cast_eq])
  all_goals (try rfl)

theorem x_main_call7_v12 (V : Valuation τ sig (Elt Ideal)) : X23 V (no_index (Proc.devRef .tc main_call7_v12)) = (Cert.Cells1.kMask (Cert.ReferenceIdeal.Read.val_main_v159 (F := Ideal) (V (Proc.devRef .tc main_arg3))) (Cert.ReferenceIdeal.Read.val_main_v161 (F := Ideal) (V (Proc.devRef .tc main_arg3)))) := by
  unfold X23
  generalize hY : X22 V = Y
  after_results_mx
  all_goals subst hY
  all_goals (try simp (disch := decide) only [keep22, keep21, keep20, keep19, keep18, keep17, keep16, keep15, keep14, keep13, keep12, keep11, keep10, keep9, keep8, keep7, keep6, keep5, keep4, keep3, keep2, keep1, keep0, x_main_call7_v5])
  all_goals (try simp only [TRef.toBuf, TRef.ofBuf, cast_cast, cast_eq])
  all_goals (try rfl)

theorem x_main_call7_v13 (V : Valuation τ sig (Elt Ideal)) : X24 V (no_index (Proc.devRef .tc main_call7_v13)) = (Cert.Cells1.kGath (V (Proc.devRef .tc main_arg1)) (Cert.ReferenceIdeal.Read.val_main_v159 (F := Ideal) (V (Proc.devRef .tc main_arg3))) (Cert.ReferenceIdeal.Read.val_main_v161 (F := Ideal) (V (Proc.devRef .tc main_arg3)))) := by
  unfold X24
  generalize hY : X23 V = Y
  after_results_mx
  all_goals subst hY
  all_goals (try simp (disch := decide) only [keep23, keep22, keep21, keep20, keep19, keep18, keep17, keep16, keep15, keep14, keep13, keep12, keep11, keep10, keep9, keep8, keep7, keep6, keep5, keep4, keep3, keep2, keep1, keep0, x_main_v141, x_main_call7_v5])
  all_goals (try simp only [TRef.toBuf, TRef.ofBuf, cast_cast, cast_eq])
  all_goals (try rfl)

theorem x_main_v144 (V : Valuation τ sig (Elt Ideal)) : X25 V (no_index (Proc.devRef .tc main_v144)) = (Cert.Cells1.kSel (V (Proc.devRef .tc main_arg1)) (Cert.ReferenceIdeal.Read.val_main_v159 (F := Ideal) (V (Proc.devRef .tc main_arg3))) (Cert.ReferenceIdeal.Read.val_main_v161 (F := Ideal) (V (Proc.devRef .tc main_arg3)))) := by
  unfold X25
  generalize hY : X24 V = Y
  after_results_mx
  all_goals subst hY
  all_goals (try simp (disch := decide) only [keep24, keep23, keep22, keep21, keep20, keep19, keep18, keep17, keep16, keep15, keep14, keep13, keep12, keep11, keep10, keep9, keep8, keep7, keep6, keep5, keep4, keep3, keep2, keep1, keep0, x_main_call7_v12, x_main_call7_v13])
  all_goals (try simp only [TRef.toBuf, TRef.ofBuf, cast_cast, cast_eq])
  all_goals (try rfl)

theorem x_main_v146 (V : Valuation τ sig (Elt Ideal)) : X26 V (no_index (Proc.devRef .tc main_v146)) = (Cert.ReferenceIdeal.Read.val_main_v211 (F := Ideal) (V (Proc.devRef .tc main_arg1)) (V (Proc.devRef .tc main_arg3))) := by
  unfold X26
  generalize hY : X25 V = Y
  after_results_mx
  all_goals subst hY
  all_goals (try simp (disch := decide) only [keep25, keep24, keep23, keep22, keep21, keep20, keep19, keep18, keep17, keep16, keep15, keep14, keep13, keep12, keep11, keep10, keep9, keep8, keep7, keep6, keep5, keep4, keep3, keep2, keep1, keep0, x_main_v144, x_main_v107, x_main_v93, x_main_v109, x_main_v97, x_main_v101, x_main_v105])
  all_goals (try simp only [TRef.toBuf, TRef.ofBuf, cast_cast, cast_eq])
  exact Cert.CellsLink.kbox_1 _ _

theorem x_main_v159 (V : Valuation τ sig (Elt Ideal)) : X26 V (no_index (Proc.devRef .tc main_v159)) = (Cert.ReferenceIdeal.Read.val_main_v224 (F := Ideal) (V (Proc.devRef .tc main_arg3))) := by
  unfold X26
  generalize hY : X25 V = Y
  after_results_mx
  unfold Cert.ReferenceIdeal.Read.val_main_v224
  refine concat4_congr _ _ _ _ _ _ _ _ ?_ ?_ ?_ ?_
  all_goals (try after_results_mx)
  all_goals (try simp only [head_tail_tail_cons, head_tail_cons, Matrix.head_cons, Matrix.cons_val_zero, Matrix.cons_val_one])
  all_goals (try after_results_mx)
  all_goals subst hY
  all_goals (try simp (disch := decide) only [keep25, keep24, keep23, keep22, keep21, keep20, keep19, keep18, keep17, keep16, keep15, keep14, keep13, keep12, keep11, keep10, keep9, keep8, keep7, keep6, keep5, keep4, keep3, keep2, keep1, keep0, x_main_v144, x_main_v107, x_main_v93, x_main_v109, x_main_v97, x_main_v101, x_main_v105])
  all_goals (try simp only [TRef.toBuf, TRef.ofBuf, cast_cast, cast_eq])
  all_goals (try rfl)

theorem x_main_v145 (V : Valuation τ sig (Elt Ideal)) : X26 V (no_index (Proc.devRef .tc main_v145)) = (Cert.Cells1.kCells (V (Proc.devRef .tc main_arg1)) (Cert.ReferenceIdeal.Read.val_main_v159 (F := Ideal) (V (Proc.devRef .tc main_arg3))) (Cert.ReferenceIdeal.Read.val_main_v161 (F := Ideal) (V (Proc.devRef .tc main_arg3)))) := by
  unfold X26
  generalize hY : X25 V = Y
  after_results_mx
  all_goals subst hY
  all_goals (try simp (disch := decide) only [keep25, keep24, keep23, keep22, keep21, keep20, keep19, keep18, keep17, keep16, keep15, keep14, keep13, keep12, keep11, keep10, keep9, keep8, keep7, keep6, keep5, keep4, keep3, keep2, keep1, keep0, x_main_v144, x_main_v107, x_main_v93, x_main_v109, x_main_v97, x_main_v101, x_main_v105])
  all_goals (try simp only [TRef.toBuf, TRef.ofBuf, cast_cast, cast_eq])
  all_goals (try rfl)

theorem x_main_v166 (V : Valuation τ sig (Elt Ideal)) : X27 V (no_index (Proc.devRef .tc main_v166)) = (Cert.ReferenceIdeal.Read.val_main_v251 (F := Ideal) (V (Proc.devRef .tc main_arg1)) (V (Proc.devRef .tc main_arg3))) := by
  unfold X27
  generalize hY : X26 V = Y
  after_results_mx
  all_goals subst hY
  all_goals (try simp (disch := decide) only [keep26, keep25, keep24, keep23, keep22, keep21, keep20, keep19, keep18, keep17, keep16, keep15, keep14, keep13, keep12, keep11, keep10, keep9, keep8, keep7, keep6, keep5, keep4, keep3, keep2, keep1, keep0, x_main_v146, x_main_v159, x_main_v145])
  all_goals (try simp only [TRef.toBuf, TRef.ofBuf, cast_cast, cast_eq])
  exact Cert.CellsLink.kcls_1 _ _

theorem x_main_v165 (V : Valuation τ sig (Elt Ideal)) : X27 V (no_index (Proc.devRef .tc main_v165)) = (Cert.ReferenceIdeal.Read.val_main_v230 (F := Ideal) (V (Proc.devRef .tc main_arg1)) (V (Proc.devRef .tc main_arg3))) := by
  unfold X27
  generalize hY : X26 V = Y
  after_results_mx
  all_goals subst hY
  all_goals (try simp (disch := decide) only [keep26, keep25, keep24, keep23, keep22, keep21, keep20, keep19, keep18, keep17, keep16, keep15, keep14, keep13, keep12, keep11, keep10, keep9, keep8, keep7, keep6, keep5, keep4, keep3, keep2, keep1, keep0, x_main_v146, x_main_v159, x_main_v145])
  all_goals (try simp only [TRef.toBuf, TRef.ofBuf, cast_cast, cast_eq])
  all_goals (try rfl)

theorem x_main_v167 (V : Valuation τ sig (Elt Ideal)) : X28 V (no_index (Proc.devRef .tc main_v167)) = (Cert.ReferenceIdeal.Read.val_main_v252 (F := Ideal) (V (Proc.devRef .tc main_arg4))) := by
  unfold X28
  generalize hY : X27 V = Y
  after_results_mx
  all_goals subst hY
  all_goals (try simp (disch := decide) only [keep27, keep26, keep25, keep24, keep23, keep22, keep21, keep20, keep19, keep18, keep17, keep16, keep15, keep14, keep13, keep12, keep11, keep10, keep9, keep8, keep7, keep6, keep5, keep4, keep3, keep2, keep1, keep0])
  all_goals (try simp only [TRef.toBuf, TRef.ofBuf, cast_cast, cast_eq])
  all_goals (try rfl)

theorem x_main_v168 (V : Valuation τ sig (Elt Ideal)) : X29 V (no_index (Proc.devRef .tc main_v168)) = (Cert.ReferenceIdeal.Read.val_main_v253 (F := Ideal) (V (Proc.devRef .tc main_arg1)) (V (Proc.devRef .tc main_arg3))) := by
  unfold X29
  generalize hY : X28 V = Y
  after_results_mx
  all_goals subst hY
  all_goals (try simp (disch := decide) only [keep28, keep27, keep26, keep25, keep24, keep23, keep22, keep21, keep20, keep19, keep18, keep17, keep16, keep15, keep14, keep13, keep12, keep11, keep10, keep9, keep8, keep7, keep6, keep5, keep4, keep3, keep2, keep1, keep0, x_main_v166])
  all_goals (try simp only [TRef.toBuf, TRef.ofBuf, cast_cast, cast_eq])
  all_goals (try rfl)

theorem x_main_c_54 (V : Valuation τ sig (Elt Ideal)) : X30 V (no_index (Proc.devRef .tc main_c_54)) = (constantI S_ 32 0#32) := by
  unfold X30
  generalize hY : X29 V = Y
  after_results_mx
  all_goals subst hY
  all_goals (try simp (disch := decide) only [keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v166, x_main_v167, x_main_v168, x_main_v85, x_main_v165, x_main_v86, x_main_v134])
  all_goals (try simp only [TRef.toBuf, TRef.ofBuf, cast_cast, cast_eq])
  all_goals (try rfl)

theorem x_main_v196 (V : Valuation τ sig (Elt Ideal)) : X30 V (no_index (Proc.devRef .tc main_v196)) = (Cert.ReferenceIdeal.Read.val_main_v297 (F := Ideal) (V (Proc.devRef .tc main_arg3))) := by
  unfold X30
  generalize hY : X29 V = Y
  after_results_mx
  all_goals subst hY
  all_goals (try simp (disch := decide) only [keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v166, x_main_v167, x_main_v168, x_main_v85, x_main_v165, x_main_v86, x_main_v134])
  all_goals (try simp only [TRef.toBuf, TRef.ofBuf, cast_cast, cast_eq])
  all_goals (try rfl)

theorem x_main_c_55 (V : Valuation τ sig (Elt Ideal)) : X30 V (no_index (Proc.devRef .tc main_c_55)) = (constantI S_ 32 19#32) := by
  unfold X30
  generalize hY : X29 V = Y
  after_results_mx
  all_goals subst hY
  all_goals (try simp (disch := decide) only [keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v166, x_main_v167, x_main_v168, x_main_v85, x_main_v165, x_main_v86, x_main_v134])
  all_goals (try simp only [TRef.toBuf, TRef.ofBuf, cast_cast, cast_eq])
  all_goals (try rfl)

theorem x_main_v187 (V : Valuation τ sig (Elt Ideal)) : X30 V (no_index (Proc.devRef .tc main_v187)) = (Cert.ReferenceIdeal.Read.val_main_v288 (F := Ideal) (V (Proc.devRef .tc main_arg3))) := by
  unfold X30
  generalize hY : X29 V = Y
  after_results_mx
  all_goals subst hY
  all_goals (try simp (disch := decide) only [keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v166, x_main_v167, x_main_v168, x_main_v85, x_main_v165, x_main_v86, x_main_v134])
  all_goals (try simp only [TRef.toBuf, TRef.ofBuf, cast_cast, cast_eq])
  all_goals (try rfl)

theorem x_main_v183 (V : Valuation τ sig (Elt Ideal)) : X30 V (no_index (Proc.devRef .tc main_v183)) = (Cert.ReferenceIdeal.Read.val_main_v284 (F := Ideal) (V (Proc.devRef .tc main_arg3))) := by
  unfold X30
  generalize hY : X29 V = Y
  after_results_mx
  all_goals subst hY
  all_goals (try simp (disch := decide) only [keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v166, x_main_v167, x_main_v168, x_main_v85, x_main_v165, x_main_v86, x_main_v134])
  all_goals (try simp only [TRef.toBuf, TRef.ofBuf, cast_cast, cast_eq])
  all_goals (try rfl)

theorem x_main_v191 (V : Valuation τ sig (Elt Ideal)) : X30 V (no_index (Proc.devRef .tc main_v191)) = (Cert.ReferenceIdeal.Read.val_main_v292 (F := Ideal) (V (Proc.devRef .tc main_arg3))) := by
  unfold X30
  generalize hY : X29 V = Y
  after_results_mx
  all_goals subst hY
  all_goals (try simp (disch := decide) only [keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v166, x_main_v167, x_main_v168, x_main_v85, x_main_v165, x_main_v86, x_main_v134])
  all_goals (try simp only [TRef.toBuf, TRef.ofBuf, cast_cast, cast_eq])
  all_goals (try rfl)

theorem x_main_v195 (V : Valuation τ sig (Elt Ideal)) : X30 V (no_index (Proc.devRef .tc main_v195)) = (Cert.ReferenceIdeal.Read.val_main_v296 (F := Ideal) (V (Proc.devRef .tc main_arg3))) := by
  unfold X30
  generalize hY : X29 V = Y
  after_results_mx
  all_goals subst hY
  all_goals (try simp (disch := decide) only [keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v166, x_main_v167, x_main_v168, x_main_v85, x_main_v165, x_main_v86, x_main_v134])
  all_goals (try simp only [TRef.toBuf, TRef.ofBuf, cast_cast, cast_eq])
  all_goals (try rfl)

theorem x_main_v175 (V : Valuation τ sig (Elt Ideal)) : X30 V (no_index (Proc.devRef .tc main_v175)) = (Cert.ReferenceIdeal.Read.val_main_v275 (F := Ideal) (V (Proc.devRef .tc main_arg0)) (V (Proc.devRef .tc main_arg1)) (V (Proc.devRef .tc main_arg3))) := by
  unfold X30
  generalize hY : X29 V = Y
  after_results_mx
  all_goals subst hY
  all_goals (try simp (disch := decide) only [keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v166, x_main_v167, x_main_v168, x_main_v85, x_main_v165, x_main_v86, x_main_v134])
  all_goals (try simp only [TRef.toBuf, TRef.ofBuf, cast_cast, cast_eq])
  all_goals (try rfl)

theorem x_main_v176 (V : Valuation τ sig (Elt Ideal)) : X30 V (no_index (Proc.devRef .tc main_v176)) = (Cert.ReferenceIdeal.Read.val_main_v277 (F := Ideal) (V (Proc.devRef .tc main_arg0)) (V (Proc.devRef .tc main_arg1)) (V (Proc.devRef .tc main_arg3)) (V (Proc.devRef .tc main_arg4))) := by
  unfold X30
  generalize hY : X29 V = Y
  after_results_mx
  all_goals subst hY
  all_goals (try simp (disch := decide) only [keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v166, x_main_v167, x_main_v168, x_main_v85, x_main_v165, x_main_v86, x_main_v134])
  all_goals (try simp only [TRef.toBuf, TRef.ofBuf, cast_cast, cast_eq])
  all_goals (try rfl)

theorem x_main_v178 (V : Valuation τ sig (Elt Ideal)) : X30 V (no_index (Proc.devRef .tc main_v178)) = (shapeCast S16x4x1600 (extractStridedSlice S16x4x40x40 ![0, 0, 0, 0] (V (Proc.devRef .tc main_arg1)) slices_S16x144x40x40_S16x4x40x40_0_0_0_0) shapeCasts_S16x4x40x40_S16x4x1600) := by
  unfold X30
  generalize hY : X29 V = Y
  after_results_mx
  all_goals subst hY
  all_goals (try simp (disch := decide) only [keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v166, x_main_v167, x_main_v168, x_main_v85, x_main_v165, x_main_v86, x_main_v134])
  all_goals (try simp only [TRef.toBuf, TRef.ofBuf, cast_cast, cast_eq])
  all_goals (try rfl)

theorem x_main_v179 (V : Valuation τ sig (Elt Ideal)) : X30 V (no_index (Proc.devRef .tc main_v179)) = (Cert.ObjtBridge.kObjtFlat_1 (Cert.ReferenceIdeal.Read.val_main_v159 (F := Ideal) (V (Proc.devRef .tc main_arg3))) (Cert.ReferenceIdeal.Read.val_main_v161 (F := Ideal) (V (Proc.devRef .tc main_arg3)))) := by
  unfold X30
  generalize hY : X29 V = Y
  after_results_mx
  all_goals subst hY
  all_goals (try simp (disch := decide) only [keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v166, x_main_v167, x_main_v168, x_main_v85, x_main_v165, x_main_v86, x_main_v134])
  all_goals (try simp only [TRef.toBuf, TRef.ofBuf, cast_cast, cast_eq])
  all_goals (try rfl)

end Cert.KernelIdeal.Seg

end
-- ==== Proof.KFacts2.lean ====
/- Written by: bun scratch/gen_khost.js (run from the unit directory). What the kernel's host stretches leave in the buffers that a
   later stretch (or the region, or the lines after it) reads, scale 2 (cells of 20 x 20): each is the reference's stage of the
   same name-by-position where the two programs apply the same operations, and the bridged definitions where they differ. -/
import proofs.«153486_j83854941487213_2_alg».proof.Proof.KSegs
import proofs.«153486_j83854941487213_2_alg».proof.Proof.RefReadP
import proofs.«153486_j83854941487213_2_alg».proof.Proof.CellsLink
import proofs.«153486_j83854941487213_2_alg».proof.Proof.ObjtBridge
import proofs.«153486_j83854941487213_2_alg».proof.Proof.ObjLink
import proofs.«153486_j83854941487213_2_alg».proof.Proof.KFacts1

set_option maxRecDepth 16384

noncomputable section

namespace Cert.KernelIdeal.Seg

open Idealize.ShloMosaic Idealize.ShloMosaic.StableHlo Idealize.ShloMosaic.TcCoe Cert.KernelIdeal Cert.KernelIdeal.Gen

theorem x_main_v197 (V : Valuation τ sig (Elt Ideal)) : X31 V (no_index (Proc.devRef .tc main_v197)) = (Cert.ReferenceIdeal.Read.val_main_v298 (F := Ideal) (V (Proc.devRef .tc main_arg3))) := by
  unfold X31
  generalize hY : X30 V = Y
  after_results_mx
  all_goals subst hY
  all_goals (try simp (disch := decide) only [keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_c_54, x_main_v196, x_main_c_55])
  all_goals (try simp only [TRef.toBuf, TRef.ofBuf, cast_cast, cast_eq])
  all_goals (try rfl)

theorem x_main_c_56 (V : Valuation τ sig (Elt Ideal)) : X32 V (no_index (Proc.devRef .tc main_c_56)) = (constantI S_ 32 0#32) := by
  unfold X32
  generalize hY : X31 V = Y
  after_results_mx
  all_goals subst hY
  all_goals (try simp (disch := decide) only [keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v187])
  all_goals (try simp only [TRef.toBuf, TRef.ofBuf, cast_cast, cast_eq])
  all_goals (try rfl)

theorem x_main_v198 (V : Valuation τ sig (Elt Ideal)) : X32 V (no_index (Proc.devRef .tc main_v198)) = (Cert.ReferenceIdeal.Read.val_main_v299 (F := Ideal) (V (Proc.devRef .tc main_arg3))) := by
  unfold X32
  generalize hY : X31 V = Y
  after_results_mx
  all_goals subst hY
  all_goals (try simp (disch := decide) only [keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v187])
  all_goals (try simp only [TRef.toBuf, TRef.ofBuf, cast_cast, cast_eq])
  all_goals (try rfl)

theorem x_main_c_57 (V : Valuation τ sig (Elt Ideal)) : X32 V (no_index (Proc.devRef .tc main_c_57)) = (constantI S_ 32 19#32) := by
  unfold X32
  generalize hY : X31 V = Y
  after_results_mx
  all_goals subst hY
  all_goals (try simp (disch := decide) only [keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v187])
  all_goals (try simp only [TRef.toBuf, TRef.ofBuf, cast_cast, cast_eq])
  all_goals (try rfl)

theorem x_main_v199 (V : Valuation τ sig (Elt Ideal)) : X33 V (no_index (Proc.devRef .tc main_v199)) = (Cert.ReferenceIdeal.Read.val_main_v300 (F := Ideal) (V (Proc.devRef .tc main_arg3))) := by
  unfold X33
  generalize hY : X32 V = Y
  after_results_mx
  all_goals subst hY
  all_goals (try simp (disch := decide) only [keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_c_56, x_main_v198, x_main_c_57])
  all_goals (try simp only [TRef.toBuf, TRef.ofBuf, cast_cast, cast_eq])
  all_goals (try rfl)

theorem x_main_v202 (V : Valuation τ sig (Elt Ideal)) : X34 V (no_index (Proc.devRef .tc main_v202)) = (broadcastInDim S16x20x20 ![] bcast_S_S16x20x20 (constant (F := Ideal) S_ .f32 0x00000000#32)) := by
  unfold X34
  generalize hY : X33 V = Y
  after_results_mx
  all_goals subst hY
  all_goals (try simp (disch := decide) only [keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v199, x_main_v197])
  all_goals (try simp only [TRef.toBuf, TRef.ofBuf, cast_cast, cast_eq])
  all_goals (try rfl)

theorem x_main_v222 (V : Valuation τ sig (Elt Ideal)) : X34 V (no_index (Proc.devRef .tc main_v222)) = (Cert.ObjtBridge.kIdx3 20#32 (Cert.ReferenceIdeal.Read.val_main_v298 (F := Ideal) (V (Proc.devRef .tc main_arg3))) (Cert.ReferenceIdeal.Read.val_main_v300 (F := Ideal) (V (Proc.devRef .tc main_arg3)))) := by
  unfold X34
  generalize hY : X33 V = Y
  after_results_mx
  unfold Cert.ObjtBridge.kIdx3
  refine concat3_congr _ _ _ _ _ _ _ ?_ ?_ ?_
  all_goals (try after_results_mx)
  all_goals (try simp only [head_tail_tail_cons, head_tail_cons, Matrix.head_cons, Matrix.cons_val_zero, Matrix.cons_val_one])
  all_goals (try after_results_mx)
  all_goals subst hY
  all_goals (try simp (disch := decide) only [keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v199, x_main_v197])
  all_goals (try simp only [TRef.toBuf, TRef.ofBuf, cast_cast, cast_eq])
  all_goals (try rfl)

theorem x_main_v227 (V : Valuation τ sig (Elt Ideal)) : X35 V (no_index (Proc.devRef .tc main_v227)) = (Cert.Cells2.kPcat (V (Proc.devRef .tc main_arg2))) := by
  unfold X35
  generalize hY : X34 V = Y
  after_results_mx
  unfold Cert.Cells2.kPcat
  refine concat2_congr _ _ _ _ _ _ ?_ ?_
  all_goals (try after_results_mx)
  all_goals (try simp only [head_tail_tail_cons, head_tail_cons, Matrix.head_cons, Matrix.cons_val_zero, Matrix.cons_val_one])
  all_goals (try after_results_mx)
  all_goals subst hY
  all_goals (try simp (disch := decide) only [keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v202, x_main_v222])
  all_goals (try simp only [TRef.toBuf, TRef.ofBuf, cast_cast, cast_eq])
  all_goals (try rfl)

theorem x_main_v224 (V : Valuation τ sig (Elt Ideal)) : X35 V (no_index (Proc.devRef .tc main_v224)) = (Cert.ObjtBridge.kObjt3_2 (Cert.ReferenceIdeal.Read.val_main_v298 (F := Ideal) (V (Proc.devRef .tc main_arg3))) (Cert.ReferenceIdeal.Read.val_main_v300 (F := Ideal) (V (Proc.devRef .tc main_arg3)))) := by
  unfold X35
  generalize hY : X34 V = Y
  after_results_mx
  all_goals subst hY
  all_goals (try simp (disch := decide) only [keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v202, x_main_v222])
  all_goals (try simp only [TRef.toBuf, TRef.ofBuf, cast_cast, cast_eq])
  all_goals (try rfl)

theorem x_main_v233 (V : Valuation τ sig (Elt Ideal)) : X36 V (no_index (Proc.devRef .tc main_v233)) = (Cert.Cells2.kLin3 (Cert.ReferenceIdeal.Read.val_main_v298 (F := Ideal) (V (Proc.devRef .tc main_arg3))) (Cert.ReferenceIdeal.Read.val_main_v300 (F := Ideal) (V (Proc.devRef .tc main_arg3)))) := by
  unfold X36
  generalize hY : X35 V = Y
  after_results_mx
  all_goals subst hY
  all_goals (try simp (disch := decide) only [keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v199, x_main_v197, x_main_v227])
  all_goals (try simp only [TRef.toBuf, TRef.ofBuf, cast_cast, cast_eq])
  all_goals (try rfl)

theorem x_main_v231 (V : Valuation τ sig (Elt Ideal)) : X36 V (no_index (Proc.devRef .tc main_v231)) = (Cert.Cells2.kPflat (V (Proc.devRef .tc main_arg2))) := by
  unfold X36
  generalize hY : X35 V = Y
  after_results_mx
  all_goals subst hY
  all_goals (try simp (disch := decide) only [keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v199, x_main_v197, x_main_v227])
  all_goals (try simp only [TRef.toBuf, TRef.ofBuf, cast_cast, cast_eq])
  all_goals (try rfl)

theorem x_main_call12_v5 (V : Valuation τ sig (Elt Ideal)) : X37 V (no_index (Proc.devRef .tc main_call12_v5)) = (Cert.Cells2.kIdx4 (Cert.ReferenceIdeal.Read.val_main_v298 (F := Ideal) (V (Proc.devRef .tc main_arg3))) (Cert.ReferenceIdeal.Read.val_main_v300 (F := Ideal) (V (Proc.devRef .tc main_arg3)))) := by
  unfold X37
  generalize hY : X36 V = Y
  after_results_mx
  all_goals subst hY
  all_goals (try simp (disch := decide) only [keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v233])
  all_goals (try simp only [TRef.toBuf, TRef.ofBuf, cast_cast, cast_eq])
  all_goals (try rfl)

theorem x_main_call12_v12 (V : Valuation τ sig (Elt Ideal)) : X38 V (no_index (Proc.devRef .tc main_call12_v12)) = (Cert.Cells2.kMask (Cert.ReferenceIdeal.Read.val_main_v298 (F := Ideal) (V (Proc.devRef .tc main_arg3))) (Cert.ReferenceIdeal.Read.val_main_v300 (F := Ideal) (V (Proc.devRef .tc main_arg3)))) := by
  unfold X38
  generalize hY : X37 V = Y
  after_results_mx
  all_goals subst hY
  all_goals (try simp (disch := decide) only [keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_call12_v5])
  all_goals (try simp only [TRef.toBuf, TRef.ofBuf, cast_cast, cast_eq])
  all_goals (try rfl)

theorem x_main_call12_v13 (V : Valuation τ sig (Elt Ideal)) : X39 V (no_index (Proc.devRef .tc main_call12_v13)) = (Cert.Cells2.kGath (V (Proc.devRef .tc main_arg2)) (Cert.ReferenceIdeal.Read.val_main_v298 (F := Ideal) (V (Proc.devRef .tc main_arg3))) (Cert.ReferenceIdeal.Read.val_main_v300 (F := Ideal) (V (Proc.devRef .tc main_arg3)))) := by
  unfold X39
  generalize hY : X38 V = Y
  after_results_mx
  all_goals subst hY
  all_goals (try simp (disch := decide) only [keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v231, x_main_call12_v5])
  all_goals (try simp only [TRef.toBuf, TRef.ofBuf, cast_cast, cast_eq])
  all_goals (try rfl)

theorem x_main_v234 (V : Valuation τ sig (Elt Ideal)) : X40 V (no_index (Proc.devRef .tc main_v234)) = (Cert.Cells2.kSel (V (Proc.devRef .tc main_arg2)) (Cert.ReferenceIdeal.Read.val_main_v298 (F := Ideal) (V (Proc.devRef .tc main_arg3))) (Cert.ReferenceIdeal.Read.val_main_v300 (F := Ideal) (V (Proc.devRef .tc main_arg3)))) := by
  unfold X40
  generalize hY : X39 V = Y
  after_results_mx
  all_goals subst hY
  all_goals (try simp (disch := decide) only [keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_call12_v12, x_main_call12_v13])
  all_goals (try simp only [TRef.toBuf, TRef.ofBuf, cast_cast, cast_eq])
  all_goals (try rfl)

theorem x_main_v236 (V : Valuation τ sig (Elt Ideal)) : X41 V (no_index (Proc.devRef .tc main_v236)) = (Cert.ReferenceIdeal.Read.val_main_v350 (F := Ideal) (V (Proc.devRef .tc main_arg2)) (V (Proc.devRef .tc main_arg3))) := by
  unfold X41
  generalize hY : X40 V = Y
  after_results_mx
  all_goals subst hY
  all_goals (try simp (disch := decide) only [keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v234, x_main_v197, x_main_v183, x_main_v199, x_main_v187, x_main_v191, x_main_v195])
  all_goals (try simp only [TRef.toBuf, TRef.ofBuf, cast_cast, cast_eq])
  exact Cert.CellsLink.kbox_2 _ _

theorem x_main_v249 (V : Valuation τ sig (Elt Ideal)) : X41 V (no_index (Proc.devRef .tc main_v249)) = (Cert.ReferenceIdeal.Read.val_main_v363 (F := Ideal) (V (Proc.devRef .tc main_arg3))) := by
  unfold X41
  generalize hY : X40 V = Y
  after_results_mx
  unfold Cert.ReferenceIdeal.Read.val_main_v363
  refine concat4_congr _ _ _ _ _ _ _ _ ?_ ?_ ?_ ?_
  all_goals (try after_results_mx)
  all_goals (try simp only [head_tail_tail_cons, head_tail_cons, Matrix.head_cons, Matrix.cons_val_zero, Matrix.cons_val_one])
  all_goals (try after_results_mx)
  all_goals subst hY
  all_goals (try simp (disch := decide) only [keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v234, x_main_v197, x_main_v183, x_main_v199, x_main_v187, x_main_v191, x_main_v195])
  all_goals (try simp only [TRef.toBuf, TRef.ofBuf, cast_cast, cast_eq])
  all_goals (try rfl)

theorem x_main_v235 (V : Valuation τ sig (Elt Ideal)) : X41 V (no_index (Proc.devRef .tc main_v235)) = (Cert.Cells2.kCells (V (Proc.devRef .tc main_arg2)) (Cert.ReferenceIdeal.Read.val_main_v298 (F := Ideal) (V (Proc.devRef .tc main_arg3))) (Cert.ReferenceIdeal.Read.val_main_v300 (F := Ideal) (V (Proc.devRef .tc main_arg3)))) := by
  unfold X41
  generalize hY : X40 V = Y
  after_results_mx
  all_goals subst hY
  all_goals (try simp (disch := decide) only [keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v234, x_main_v197, x_main_v183, x_main_v199, x_main_v187, x_main_v191, x_main_v195])
  all_goals (try simp only [TRef.toBuf, TRef.ofBuf, cast_cast, cast_eq])
  all_goals (try rfl)

theorem x_main_v256 (V : Valuation τ sig (Elt Ideal)) : X42 V (no_index (Proc.devRef .tc main_v256)) = (Cert.ReferenceIdeal.Read.val_main_v390 (F := Ideal) (V (Proc.devRef .tc main_arg2)) (V (Proc.devRef .tc main_arg3))) := by
  unfold X42
  generalize hY : X41 V = Y
  after_results_mx
  all_goals subst hY
  all_goals (try simp (disch := decide) only [keep41, keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v236, x_main_v249, x_main_v235])
  all_goals (try simp only [TRef.toBuf, TRef.ofBuf, cast_cast, cast_eq])
  exact Cert.CellsLink.kcls_2 _ _

theorem x_main_v255 (V : Valuation τ sig (Elt Ideal)) : X42 V (no_index (Proc.devRef .tc main_v255)) = (Cert.ReferenceIdeal.Read.val_main_v369 (F := Ideal) (V (Proc.devRef .tc main_arg2)) (V (Proc.devRef .tc main_arg3))) := by
  unfold X42
  generalize hY : X41 V = Y
  after_results_mx
  all_goals subst hY
  all_goals (try simp (disch := decide) only [keep41, keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v236, x_main_v249, x_main_v235])
  all_goals (try simp only [TRef.toBuf, TRef.ofBuf, cast_cast, cast_eq])
  all_goals (try rfl)

theorem x_main_v257 (V : Valuation τ sig (Elt Ideal)) : X43 V (no_index (Proc.devRef .tc main_v257)) = (Cert.ReferenceIdeal.Read.val_main_v391 (F := Ideal) (V (Proc.devRef .tc main_arg4))) := by
  unfold X43
  generalize hY : X42 V = Y
  after_results_mx
  all_goals subst hY
  all_goals (try simp (disch := decide) only [keep42, keep41, keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0])
  all_goals (try simp only [TRef.toBuf, TRef.ofBuf, cast_cast, cast_eq])
  all_goals (try rfl)

theorem x_main_v258 (V : Valuation τ sig (Elt Ideal)) : X44 V (no_index (Proc.devRef .tc main_v258)) = (Cert.ReferenceIdeal.Read.val_main_v392 (F := Ideal) (V (Proc.devRef .tc main_arg2)) (V (Proc.devRef .tc main_arg3))) := by
  unfold X44
  generalize hY : X43 V = Y
  after_results_mx
  all_goals subst hY
  all_goals (try simp (disch := decide) only [keep43, keep42, keep41, keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v256])
  all_goals (try simp only [TRef.toBuf, TRef.ofBuf, cast_cast, cast_eq])
  all_goals (try rfl)

theorem x_main_v268 (V : Valuation τ sig (Elt Ideal)) : X45 V (no_index (Proc.devRef .tc main_v268)) = (shapeCast S16x4x400 (extractStridedSlice S16x4x20x20 ![0, 0, 0, 0] (V (Proc.devRef .tc main_arg2)) slices_S16x144x20x20_S16x4x20x20_0_0_0_0) shapeCasts_S16x4x20x20_S16x4x400) := by
  unfold X45
  generalize hY : X44 V = Y
  after_results_mx
  all_goals subst hY
  all_goals (try simp (disch := decide) only [keep44, keep43, keep42, keep41, keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v256, x_main_v257, x_main_v258, x_main_v175, x_main_v255, x_main_v176, x_main_v224])
  all_goals (try simp only [TRef.toBuf, TRef.ofBuf, cast_cast, cast_eq])
  all_goals (try rfl)

theorem x_main_v269 (V : Valuation τ sig (Elt Ideal)) : X45 V (no_index (Proc.devRef .tc main_v269)) = (Cert.ObjtBridge.kObjtFlat_2 (Cert.ReferenceIdeal.Read.val_main_v298 (F := Ideal) (V (Proc.devRef .tc main_arg3))) (Cert.ReferenceIdeal.Read.val_main_v300 (F := Ideal) (V (Proc.devRef .tc main_arg3)))) := by
  unfold X45
  generalize hY : X44 V = Y
  after_results_mx
  all_goals subst hY
  all_goals (try simp (disch := decide) only [keep44, keep43, keep42, keep41, keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v256, x_main_v257, x_main_v258, x_main_v175, x_main_v255, x_main_v176, x_main_v224])
  all_goals (try simp only [TRef.toBuf, TRef.ofBuf, cast_cast, cast_eq])
  all_goals (try rfl)

theorem x_main_v265 (V : Valuation τ sig (Elt Ideal)) : X45 V (no_index (Proc.devRef .tc main_v265)) = (Cert.ReferenceIdeal.Read.val_main_v414 (F := Ideal) (V (Proc.devRef .tc main_arg0)) (V (Proc.devRef .tc main_arg1)) (V (Proc.devRef .tc main_arg2)) (V (Proc.devRef .tc main_arg3))) := by
  unfold X45
  generalize hY : X44 V = Y
  after_results_mx
  all_goals subst hY
  all_goals (try simp (disch := decide) only [keep44, keep43, keep42, keep41, keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v256, x_main_v257, x_main_v258, x_main_v175, x_main_v255, x_main_v176, x_main_v224])
  all_goals (try simp only [TRef.toBuf, TRef.ofBuf, cast_cast, cast_eq])
  all_goals (try rfl)

theorem x_main_v266 (V : Valuation τ sig (Elt Ideal)) : X45 V (no_index (Proc.devRef .tc main_v266)) = (Cert.ReferenceIdeal.Read.val_main_v416 (F := Ideal) (V (Proc.devRef .tc main_arg0)) (V (Proc.devRef .tc main_arg1)) (V (Proc.devRef .tc main_arg2)) (V (Proc.devRef .tc main_arg3)) (V (Proc.devRef .tc main_arg4))) := by
  unfold X45
  generalize hY : X44 V = Y
  after_results_mx
  all_goals subst hY
  all_goals (try simp (disch := decide) only [keep44, keep43, keep42, keep41, keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v256, x_main_v257, x_main_v258, x_main_v175, x_main_v255, x_main_v176, x_main_v224])
  all_goals (try simp only [TRef.toBuf, TRef.ofBuf, cast_cast, cast_eq])
  all_goals (try rfl)

/-! ## What the region and the lines after it find -/

/-- The box-loss total the lines after the region read is the reference's. -/
theorem k_lbox (V : Valuation τ sig (Elt Ideal)) : X45 V (Proc.devRef .tc main_v265) = (Cert.ReferenceIdeal.Read.val_main_v414 (F := Ideal) (V (Proc.devRef .tc main_arg0)) (V (Proc.devRef .tc main_arg1)) (V (Proc.devRef .tc main_arg2)) (V (Proc.devRef .tc main_arg3))) := by
  simp (disch := decide) only [keep45, keep44, keep43, keep42, keep41, keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v265]

/-- The class-loss total the lines after the region read is the reference's. -/
theorem k_lcls (V : Valuation τ sig (Elt Ideal)) : X45 V (Proc.devRef .tc main_v266) = (Cert.ReferenceIdeal.Read.val_main_v416 (F := Ideal) (V (Proc.devRef .tc main_arg0)) (V (Proc.devRef .tc main_arg1)) (V (Proc.devRef .tc main_arg2)) (V (Proc.devRef .tc main_arg3)) (V (Proc.devRef .tc main_arg4))) := by
  simp (disch := decide) only [keep45, keep44, keep43, keep42, keep41, keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v266]

/-- What the region stores, from the arrays it finds, is the reference's objectness total. -/
theorem k_lobj (V : Valuation τ sig (Elt Ideal)) :
    shapeCast S_ (k0_pay1 (F := Ideal) (k0_pay2 (X45 V (Proc.devRef .tc main_v88)) (X45 V (Proc.devRef .tc main_v89))) (k0_pay3 (X45 V (Proc.devRef .tc main_v178))) (k0_pay4 (X45 V (Proc.devRef .tc main_v179))) (X45 V (Proc.devRef .tc main_v268)) (X45 V (Proc.devRef .tc main_v269))) shapeCasts_S1x1_S_
      = (Cert.ReferenceIdeal.Read.val_main_v415 (F := Ideal) (V (Proc.devRef .tc main_arg0)) (V (Proc.devRef .tc main_arg1)) (V (Proc.devRef .tc main_arg2)) (V (Proc.devRef .tc main_arg3))) := by
  simp (disch := decide) only [keep45, keep44, keep43, keep42, keep41, keep40, keep39, keep38, keep37, keep36, keep35, keep34, keep33, keep32, keep31, keep30, keep29, keep28, keep27, keep26, keep25, keep24, keep23, keep22, keep21, keep20, keep19, keep18, keep17, keep16, keep15, keep14, keep13, keep12, keep11, keep10, keep9, keep8, keep7, keep6, keep5, keep4, keep3, keep2, keep1, keep0, x_main_v88, x_main_v89, x_main_v178, x_main_v179, x_main_v268, x_main_v269]
  exact Cert.Obj.Link.lobj_link_scalar _ _ _ _

end Cert.KernelIdeal.Seg

end
-- ==== Proof.RSegs.lean ====
/- Written by: bun scratch/gen_rsegs.js (run from the unit directory; it reads scratch/RefRun_generated.lean, a verbatim copy of the
   generated run module of the reference program, and proof/Proof/RefReadP.lean).
   The reference program's @main as 21 stretches of at most 40 host operations (647 in all, copied from the generated list in
   order): each stretch's operations, that they touch TensorCore references only and determine their results, the buffers
   the stretch writes and that it writes nothing else, the buffer contents after the stretches one by one, that a buffer a
   stretch does not write keeps its contents through it, and the run: every weakly fair execution of @main terminates
   with each buffer at its contents after the last stretch. -/
import proofs.«153486_j83854941487213_2_alg».proof.Proof.Gen.ReferenceIdeal
import Idealize.ShloMosaic.Lib.StableHlo.Run
import proofs.«153486_j83854941487213_2_alg».proof.Proof.LibAfterSeg

set_option maxRecDepth 16384

noncomputable section

namespace Cert.ReferenceIdeal.Seg

open Cert.ReferenceIdeal Cert.ReferenceIdeal.Gen Idealize.ShloMosaic Idealize.ShloMosaic.TcCoe Idealize.SL.Sem Idealize.ShloMosaic.StableHlo

variable {F : FTy → Type} [FloatOps F]

/-- Stretch 0: operations 1 … 40 of 647. -/
abbrev rops_0 : List (HloOp τ sig (Elt F)) :=
  [ unary main_arg0 main_v0 ((transpose S16x80x80x144 [0, 2, 3, 1] · transposes_S16x144x80x80_S16x80x80x144_0_2_3_1) : (⟨S16x144x80x80, .f32⟩ : BufTy).Contents (Elt F) → (⟨S16x80x80x144, .f32⟩ : BufTy).Contents (Elt F)),
    unary main_v0 main_v1 ((extractStridedSlice S16x80x80x64 ![0, 0, 0, 0] · slices_S16x80x80x144_S16x80x80x64_0_0_0_0) : (⟨S16x80x80x144, .f32⟩ : BufTy).Contents (Elt F) → (⟨S16x80x80x64, .f32⟩ : BufTy).Contents (Elt F)),
    unary main_v0 main_v2 ((extractStridedSlice S16x80x80x80 ![0, 0, 0, 64] · slices_S16x80x80x144_S16x80x80x80_0_0_0_64) : (⟨S16x80x80x144, .f32⟩ : BufTy).Contents (Elt F) → (⟨S16x80x80x80, .f32⟩ : BufTy).Contents (Elt F)),
    unary main_arg3 main_v3 ((extractStridedSlice S16x32x1 ![0, 0, 0] · slices_S16x32x4_S16x32x1_0_0_0) : (⟨S16x32x4, .f32⟩ : BufTy).Contents (Elt F) → (⟨S16x32x1, .f32⟩ : BufTy).Contents (Elt F)),
    reshape main_v3 main_v4 rfl shapeCasts_S16x32x1_S16x32,
    nullary main_cst (constant S_ .f32 0x42A00000#32),
    unary main_cst main_v5 (broadcastInDim S16x32 ![] bcast_S_S16x32 : (⟨S_, .f32⟩ : BufTy).Contents (Elt F) → (⟨S16x32, .f32⟩ : BufTy).Contents (Elt F)),
    binary main_v4 main_v5 main_v6 (mulf : (⟨S16x32, .f32⟩ : BufTy).Contents (Elt F) → (⟨S16x32, .f32⟩ : BufTy).Contents (Elt F) → (⟨S16x32, .f32⟩ : BufTy).Contents (Elt F)),
    unary main_arg3 main_v7 ((extractStridedSlice S16x32x1 ![0, 0, 1] · slices_S16x32x4_S16x32x1_0_0_1) : (⟨S16x32x4, .f32⟩ : BufTy).Contents (Elt F) → (⟨S16x32x1, .f32⟩ : BufTy).Contents (Elt F)),
    reshape main_v7 main_v8 rfl shapeCasts_S16x32x1_S16x32,
    nullary main_cst_0 (constant S_ .f32 0x42A00000#32),
    unary main_cst_0 main_v9 (broadcastInDim S16x32 ![] bcast_S_S16x32 : (⟨S_, .f32⟩ : BufTy).Contents (Elt F) → (⟨S16x32, .f32⟩ : BufTy).Contents (Elt F)),
    binary main_v8 main_v9 main_v10 (mulf : (⟨S16x32, .f32⟩ : BufTy).Contents (Elt F) → (⟨S16x32, .f32⟩ : BufTy).Contents (Elt F) → (⟨S16x32, .f32⟩ : BufTy).Contents (Elt F)),
    unary main_arg3 main_v11 ((extractStridedSlice S16x32x1 ![0, 0, 2] · slices_S16x32x4_S16x32x1_0_0_2) : (⟨S16x32x4, .f32⟩ : BufTy).Contents (Elt F) → (⟨S16x32x1, .f32⟩ : BufTy).Contents (Elt F)),
    reshape main_v11 main_v12 rfl shapeCasts_S16x32x1_S16x32,
    nullary main_cst_1 (constant S_ .f32 0x42A00000#32),
    unary main_cst_1 main_v13 (broadcastInDim S16x32 ![] bcast_S_S16x32 : (⟨S_, .f32⟩ : BufTy).Contents (Elt F) → (⟨S16x32, .f32⟩ : BufTy).Contents (Elt F)),
    binary main_v12 main_v13 main_v14 (mulf : (⟨S16x32, .f32⟩ : BufTy).Contents (Elt F) → (⟨S16x32, .f32⟩ : BufTy).Contents (Elt F) → (⟨S16x32, .f32⟩ : BufTy).Contents (Elt F)),
    unary main_arg3 main_v15 ((extractStridedSlice S16x32x1 ![0, 0, 3] · slices_S16x32x4_S16x32x1_0_0_3) : (⟨S16x32x4, .f32⟩ : BufTy).Contents (Elt F) → (⟨S16x32x1, .f32⟩ : BufTy).Contents (Elt F)),
    reshape main_v15 main_v16 rfl shapeCasts_S16x32x1_S16x32,
    nullary main_cst_2 (constant S_ .f32 0x42A00000#32),
    unary main_cst_2 main_v17 (broadcastInDim S16x32 ![] bcast_S_S16x32 : (⟨S_, .f32⟩ : BufTy).Contents (Elt F) → (⟨S16x32, .f32⟩ : BufTy).Contents (Elt F)),
    binary main_v16 main_v17 main_v18 (mulf : (⟨S16x32, .f32⟩ : BufTy).Contents (Elt F) → (⟨S16x32, .f32⟩ : BufTy).Contents (Elt F) → (⟨S16x32, .f32⟩ : BufTy).Contents (Elt F)),
    unary main_v6 main_v19 (fptosi 32 : (⟨S16x32, .f32⟩ : BufTy).Contents (Elt F) → (⟨S16x32, .i32⟩ : BufTy).Contents (Elt F)),
    nullary main_c (constantI S_ 32 0#32),
    nullary main_c_3 (constantI S_ 32 79#32),
    TRef.unary (TRef.of (T := ⟨S_, .i32⟩) main_c) (TRef.of (T := ⟨S_, .i32⟩) main_call0_v0) id,
    TRef.unary (TRef.of (T := ⟨S_, .i32⟩) main_call0_v0) (TRef.of (T := ⟨S16x32, .i32⟩) main_call0_v1) (broadcastInDim S16x32 ![] bcast_S_S16x32),
    TRef.binary (TRef.of (T := ⟨S16x32, .i32⟩) main_call0_v1) (TRef.of (T := ⟨S16x32, .i32⟩) main_v19) (TRef.of (T := ⟨S16x32, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S16x32, .i32⟩) main_call0_v4) (broadcastInDim S16x32 ![] bcast_S_S16x32),
    TRef.binary (TRef.of (T := ⟨S16x32, .i32⟩) main_call0_v4) (TRef.of (T := ⟨S16x32, .i32⟩) main_call0_v2) (TRef.of (T := ⟨S16x32, .i32⟩) main_v20) minsi,
    unary main_v10 main_v21 (fptosi 32 : (⟨S16x32, .f32⟩ : BufTy).Contents (Elt F) → (⟨S16x32, .i32⟩ : BufTy).Contents (Elt F)),
    nullary main_c_4 (constantI S_ 32 0#32),
    nullary main_c_5 (constantI S_ 32 79#32),
    TRef.unary (TRef.of (T := ⟨S_, .i32⟩) main_c_4) (TRef.of (T := ⟨S_, .i32⟩) main_call1_v0) id,
    TRef.unary (TRef.of (T := ⟨S_, .i32⟩) main_call1_v0) (TRef.of (T := ⟨S16x32, .i32⟩) main_call1_v1) (broadcastInDim S16x32 ![] bcast_S_S16x32),
    TRef.binary (TRef.of (T := ⟨S16x32, .i32⟩) main_call1_v1) (TRef.of (T := ⟨S16x32, .i32⟩) main_v21) (TRef.of (T := ⟨S16x32, .i32⟩) main_call1_v2) maxsi,
    TRef.unary (TRef.of (T := ⟨S_, .i32⟩) main_c_5) (TRef.of (T := ⟨S_, .i32⟩) main_call1_v3) id,
    TRef.unary (TRef.of (T := ⟨S_, .i32⟩) main_call1_v3) (TRef.of (T := ⟨S16x32, .i32⟩) main_call1_v4) (broadcastInDim S16x32 ![] bcast_S_S16x32) ]
theorem rops_sub_0 : (rops_0 : List (HloOp τ sig (Elt F))).Forall fun op => op.bufs ⊆ tcRefs τ sig :=
  ⟨unary_bufs_sub .., unary_bufs_sub .., unary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub ..⟩
theorem rfresh_0 : ∀ op ∈ (rops_0 : List (HloOp τ sig (Elt F))), op.fresh = ∅ := by
  intro _ h; (repeat (cases h with | head => rfl | tail _ h => ?_)); exact nomatch h
/-- The buffers stretch 0 writes. -/
abbrev RW_0 : List (Ref sig .tc) := [main_v0, main_v1, main_v2, main_v3, main_v4, main_cst, main_v5, main_v6, main_v7, main_v8, main_cst_0, main_v9, main_v10, main_v11, main_v12, main_cst_1, main_v13, main_v14, main_v15, main_v16, main_cst_2, main_v17, main_v18, main_v19, main_c, main_c_3, main_call0_v0, main_call0_v1, main_call0_v2, main_call0_v3, main_call0_v4, main_v20, main_v21, main_c_4, main_c_5, main_call1_v0, main_call1_v1, main_call1_v2, main_call1_v3, main_call1_v4]
theorem rwrites_0 : (rops_0 : List (HloOp τ sig (Elt F))).Forall fun op => op.writes ⊆ (RW_0.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 1: operations 41 … 75 of 647. -/
abbrev rops_1 : List (HloOp τ sig (Elt F)) :=
  [ TRef.binary (TRef.of (T := ⟨S16x32, .i32⟩) main_call1_v4) (TRef.of (T := ⟨S16x32, .i32⟩) main_call1_v2) (TRef.of (T := ⟨S16x32, .i32⟩) main_v22) minsi,
    nullary main_v23 (iotaInDim S16 32 0),
    unary main_v23 main_v24 (broadcastInDim S16x1 ![0] bcast_S16_S16x1_0 : (⟨S16, .i32⟩ : BufTy).Contents (Elt F) → (⟨S16x1, .i32⟩ : BufTy).Contents (Elt F)),
    nullary main_cst_6 (constant S_ .f32 0x00000000#32),
    unary main_cst_6 main_v25 (broadcastInDim S16x80x80x1 ![] bcast_S_S16x80x80x1 : (⟨S_, .f32⟩ : BufTy).Contents (Elt F) → (⟨S16x80x80x1, .f32⟩ : BufTy).Contents (Elt F)),
    nullary main_c_7 (constantI S_ 32 0#32),
    unary main_c_7 main_v26 (broadcastInDim S16x1 ![] bcast_S_S16x1 : (⟨S_, .i32⟩ : BufTy).Contents (Elt F) → (⟨S16x1, .i32⟩ : BufTy).Contents (Elt F)),
    binary main_v24 main_v26 main_v27 (cmpi .slt : (⟨S16x1, .i32⟩ : BufTy).Contents (Elt F) → (⟨S16x1, .i32⟩ : BufTy).Contents (Elt F) → (⟨S16x1, .i1⟩ : BufTy).Contents (Elt F)),
    nullary main_c_8 (constantI S_ 32 16#32),
    unary main_c_8 main_v28 (broadcastInDim S16x1 ![] bcast_S_S16x1 : (⟨S_, .i32⟩ : BufTy).Contents (Elt F) → (⟨S16x1, .i32⟩ : BufTy).Contents (Elt F)),
    binary main_v24 main_v28 main_v29 (addi : (⟨S16x1, .i32⟩ : BufTy).Contents (Elt F) → (⟨S16x1, .i32⟩ : BufTy).Contents (Elt F) → (⟨S16x1, .i32⟩ : BufTy).Contents (Elt F)),
    ternary main_v27 main_v29 main_v24 main_v30 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_9 (constantI S_ 32 0#32),
    unary main_c_9 main_v31 (broadcastInDim S16x32 ![] bcast_S_S16x32 : (⟨S_, .i32⟩ : BufTy).Contents (Elt F) → (⟨S16x32, .i32⟩ : BufTy).Contents (Elt F)),
    binary main_v22 main_v31 main_v32 (cmpi .slt : (⟨S16x32, .i32⟩ : BufTy).Contents (Elt F) → (⟨S16x32, .i32⟩ : BufTy).Contents (Elt F) → (⟨S16x32, .i1⟩ : BufTy).Contents (Elt F)),
    nullary main_c_10 (constantI S_ 32 80#32),
    unary main_c_10 main_v33 (broadcastInDim S16x32 ![] bcast_S_S16x32 : (⟨S_, .i32⟩ : BufTy).Contents (Elt F) → (⟨S16x32, .i32⟩ : BufTy).Contents (Elt F)),
    binary main_v22 main_v33 main_v34 (addi : (⟨S16x32, .i32⟩ : BufTy).Contents (Elt F) → (⟨S16x32, .i32⟩ : BufTy).Contents (Elt F) → (⟨S16x32, .i32⟩ : BufTy).Contents (Elt F)),
    ternary main_v32 main_v34 main_v22 main_v35 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_11 (constantI S_ 32 0#32),
    unary main_c_11 main_v36 (broadcastInDim S16x32 ![] bcast_S_S16x32 : (⟨S_, .i32⟩ : BufTy).Contents (Elt F) → (⟨S16x32, .i32⟩ : BufTy).Contents (Elt F)),
    binary main_v20 main_v36 main_v37 (cmpi .slt : (⟨S16x32, .i32⟩ : BufTy).Contents (Elt F) → (⟨S16x32, .i32⟩ : BufTy).Contents (Elt F) → (⟨S16x32, .i1⟩ : BufTy).Contents (Elt F)),
    nullary main_c_12 (constantI S_ 32 80#32),
    unary main_c_12 main_v38 (broadcastInDim S16x32 ![] bcast_S_S16x32 : (⟨S_, .i32⟩ : BufTy).Contents (Elt F) → (⟨S16x32, .i32⟩ : BufTy).Contents (Elt F)),
    binary main_v20 main_v38 main_v39 (addi : (⟨S16x32, .i32⟩ : BufTy).Contents (Elt F) → (⟨S16x32, .i32⟩ : BufTy).Contents (Elt F) → (⟨S16x32, .i32⟩ : BufTy).Contents (Elt F)),
    ternary main_v37 main_v39 main_v20 main_v40 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v30 main_v41 (broadcastInDim S16x32 ![0, 1] bcast_S16x1_S16x32_0_1 : (⟨S16x1, .i32⟩ : BufTy).Contents (Elt F) → (⟨S16x32, .i32⟩ : BufTy).Contents (Elt F)),
    nullary main_c_13 (constantI S_ 32 0#32),
    unary main_c_13 main_v42 (broadcastInDim S16x32 ![] bcast_S_S16x32 : (⟨S_, .i32⟩ : BufTy).Contents (Elt F) → (⟨S16x32, .i32⟩ : BufTy).Contents (Elt F)),
    unary main_v42 main_v43 (id : (⟨S16x32, .i32⟩ : BufTy).Contents (Elt F) → (⟨S16x32, .i32⟩ : BufTy).Contents (Elt F)),
    unary main_v41 main_v44 (broadcastInDim S16x32x1 ![0, 1] bcast_S16x32_S16x32x1_0_1 : (⟨S16x32, .i32⟩ : BufTy).Contents (Elt F) → (⟨S16x32x1, .i32⟩ : BufTy).Contents (Elt F)),
    unary main_v35 main_v45 (broadcastInDim S16x32x1 ![0, 1] bcast_S16x32_S16x32x1_0_1 : (⟨S16x32, .i32⟩ : BufTy).Contents (Elt F) → (⟨S16x32x1, .i32⟩ : BufTy).Contents (Elt F)),
    unary main_v40 main_v46 (broadcastInDim S16x32x1 ![0, 1] bcast_S16x32_S16x32x1_0_1 : (⟨S16x32, .i32⟩ : BufTy).Contents (Elt F) → (⟨S16x32x1, .i32⟩ : BufTy).Contents (Elt F)),
    unary main_v43 main_v47 (broadcastInDim S16x32x1 ![0, 1] bcast_S16x32_S16x32x1_0_1 : (⟨S16x32, .i32⟩ : BufTy).Contents (Elt F) → (⟨S16x32x1, .i32⟩ : BufTy).Contents (Elt F)),
    nary ![main_v44, main_v45, main_v46, main_v47] main_v48 (fun u => concatenate S16x32x4 2 [⟨S16x32x1, u 0⟩, ⟨S16x32x1, u 1⟩, ⟨S16x32x1, u 2⟩, ⟨S16x32x1, u 3⟩] concatenates_S16x32x1_S16x32x1_S16x32x1_S16x32x1_S16x32x4_d2) ]
theorem rops_sub_1 : (rops_1 : List (HloOp τ sig (Elt F))).Forall fun op => op.bufs ⊆ tcRefs τ sig :=
  ⟨binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., unary_bufs_sub .., unary_bufs_sub .., unary_bufs_sub .., unary_bufs_sub .., nary_bufs_sub ..⟩
theorem rfresh_1 : ∀ op ∈ (rops_1 : List (HloOp τ sig (Elt F))), op.fresh = ∅ := by
  intro _ h; (repeat (cases h with | head => rfl | tail _ h => ?_)); exact nomatch h
/-- The buffers stretch 1 writes. -/
abbrev RW_1 : List (Ref sig .tc) := [main_v22, main_v23, main_v24, main_cst_6, main_v25, main_c_7, main_v26, main_v27, main_c_8, main_v28, main_v29, main_v30, main_c_9, main_v31, main_v32, main_c_10, main_v33, main_v34, main_v35, main_c_11, main_v36, main_v37, main_c_12, main_v38, main_v39, main_v40, main_v41, main_c_13, main_v42, main_v43, main_v44, main_v45, main_v46, main_v47, main_v48]
theorem rwrites_1 : (rops_1 : List (HloOp τ sig (Elt F))).Forall fun op => op.writes ⊆ (RW_1.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 2: operations 76 … 104 of 647. -/
abbrev rops_2 : List (HloOp τ sig (Elt F)) :=
  [ nullary main_cst_14 (constant S_ .f32 0x3F800000#32),
    unary main_cst_14 main_v49 (broadcastInDim S16x32 ![] bcast_S_S16x32 : (⟨S_, .f32⟩ : BufTy).Contents (Elt F) → (⟨S16x32, .f32⟩ : BufTy).Contents (Elt F)),
    ternary main_v25 main_v48 main_v49 main_v50 ((fun x i u => Host.scatter scatter_S16x80x80x1_S16x32x4_S16x32_n_0123_0123_2 (fun _ b => b) x i u) : (⟨S16x80x80x1, .f32⟩ : BufTy).Contents (Elt F) → (⟨S16x32x4, .i32⟩ : BufTy).Contents (Elt F) → (⟨S16x32, .f32⟩ : BufTy).Contents (Elt F) → (⟨S16x80x80x1, .f32⟩ : BufTy).Contents (Elt F)),
    nullary main_c_15 (constantI S_ 32 0#32),
    unary main_c_15 main_v51 (broadcastInDim S16x1 ![] bcast_S_S16x1 : (⟨S_, .i32⟩ : BufTy).Contents (Elt F) → (⟨S16x1, .i32⟩ : BufTy).Contents (Elt F)),
    binary main_v24 main_v51 main_v52 (cmpi .slt : (⟨S16x1, .i32⟩ : BufTy).Contents (Elt F) → (⟨S16x1, .i32⟩ : BufTy).Contents (Elt F) → (⟨S16x1, .i1⟩ : BufTy).Contents (Elt F)),
    nullary main_c_16 (constantI S_ 32 16#32),
    unary main_c_16 main_v53 (broadcastInDim S16x1 ![] bcast_S_S16x1 : (⟨S_, .i32⟩ : BufTy).Contents (Elt F) → (⟨S16x1, .i32⟩ : BufTy).Contents (Elt F)),
    binary main_v24 main_v53 main_v54 (addi : (⟨S16x1, .i32⟩ : BufTy).Contents (Elt F) → (⟨S16x1, .i32⟩ : BufTy).Contents (Elt F) → (⟨S16x1, .i32⟩ : BufTy).Contents (Elt F)),
    ternary main_v52 main_v54 main_v24 main_v55 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_17 (constantI S_ 32 0#32),
    unary main_c_17 main_v56 (broadcastInDim S16x32 ![] bcast_S_S16x32 : (⟨S_, .i32⟩ : BufTy).Contents (Elt F) → (⟨S16x32, .i32⟩ : BufTy).Contents (Elt F)),
    binary main_v22 main_v56 main_v57 (cmpi .slt : (⟨S16x32, .i32⟩ : BufTy).Contents (Elt F) → (⟨S16x32, .i32⟩ : BufTy).Contents (Elt F) → (⟨S16x32, .i1⟩ : BufTy).Contents (Elt F)),
    nullary main_c_18 (constantI S_ 32 80#32),
    unary main_c_18 main_v58 (broadcastInDim S16x32 ![] bcast_S_S16x32 : (⟨S_, .i32⟩ : BufTy).Contents (Elt F) → (⟨S16x32, .i32⟩ : BufTy).Contents (Elt F)),
    binary main_v22 main_v58 main_v59 (addi : (⟨S16x32, .i32⟩ : BufTy).Contents (Elt F) → (⟨S16x32, .i32⟩ : BufTy).Contents (Elt F) → (⟨S16x32, .i32⟩ : BufTy).Contents (Elt F)),
    ternary main_v57 main_v59 main_v22 main_v60 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_19 (constantI S_ 32 0#32),
    unary main_c_19 main_v61 (broadcastInDim S16x32 ![] bcast_S_S16x32 : (⟨S_, .i32⟩ : BufTy).Contents (Elt F) → (⟨S16x32, .i32⟩ : BufTy).Contents (Elt F)),
    binary main_v20 main_v61 main_v62 (cmpi .slt : (⟨S16x32, .i32⟩ : BufTy).Contents (Elt F) → (⟨S16x32, .i32⟩ : BufTy).Contents (Elt F) → (⟨S16x32, .i1⟩ : BufTy).Contents (Elt F)),
    nullary main_c_20 (constantI S_ 32 80#32),
    unary main_c_20 main_v63 (broadcastInDim S16x32 ![] bcast_S_S16x32 : (⟨S_, .i32⟩ : BufTy).Contents (Elt F) → (⟨S16x32, .i32⟩ : BufTy).Contents (Elt F)),
    binary main_v20 main_v63 main_v64 (addi : (⟨S16x32, .i32⟩ : BufTy).Contents (Elt F) → (⟨S16x32, .i32⟩ : BufTy).Contents (Elt F) → (⟨S16x32, .i32⟩ : BufTy).Contents (Elt F)),
    ternary main_v62 main_v64 main_v20 main_v65 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v55 main_v66 (broadcastInDim S16x32 ![0, 1] bcast_S16x1_S16x32_0_1 : (⟨S16x1, .i32⟩ : BufTy).Contents (Elt F) → (⟨S16x32, .i32⟩ : BufTy).Contents (Elt F)),
    unary main_v66 main_v67 (broadcastInDim S16x32x1 ![0, 1] bcast_S16x32_S16x32x1_0_1 : (⟨S16x32, .i32⟩ : BufTy).Contents (Elt F) → (⟨S16x32x1, .i32⟩ : BufTy).Contents (Elt F)),
    unary main_v60 main_v68 (broadcastInDim S16x32x1 ![0, 1] bcast_S16x32_S16x32x1_0_1 : (⟨S16x32, .i32⟩ : BufTy).Contents (Elt F) → (⟨S16x32x1, .i32⟩ : BufTy).Contents (Elt F)),
    unary main_v65 main_v69 (broadcastInDim S16x32x1 ![0, 1] bcast_S16x32_S16x32x1_0_1 : (⟨S16x32, .i32⟩ : BufTy).Contents (Elt F) → (⟨S16x32x1, .i32⟩ : BufTy).Contents (Elt F)),
    nary ![main_v67, main_v68, main_v69] main_v70 (fun u => concatenate S16x32x3 2 [⟨S16x32x1, u 0⟩, ⟨S16x32x1, u 1⟩, ⟨S16x32x1, u 2⟩] concatenates_S16x32x1_S16x32x1_S16x32x1_S16x32x3_d2) ]
theorem rops_sub_2 : (rops_2 : List (HloOp τ sig (Elt F))).Forall fun op => op.bufs ⊆ tcRefs τ sig :=
  ⟨nullary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub ..⟩
theorem rfresh_2 : ∀ op ∈ (rops_2 : List (HloOp τ sig (Elt F))), op.fresh = ∅ := by
  intro _ h; (repeat (cases h with | head => rfl | tail _ h => ?_)); exact nomatch h
/-- The buffers stretch 2 writes. -/
abbrev RW_2 : List (Ref sig .tc) := [main_cst_14, main_v49, main_v50, main_c_15, main_v51, main_v52, main_c_16, main_v53, main_v54, main_v55, main_c_17, main_v56, main_v57, main_c_18, main_v58, main_v59, main_v60, main_c_19, main_v61, main_v62, main_c_20, main_v63, main_v64, main_v65, main_v66, main_v67, main_v68, main_v69, main_v70]
theorem rwrites_2 : (rops_2 : List (HloOp τ sig (Elt F))).Forall fun op => op.writes ⊆ (RW_2.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 3: operations 105 … 121 of 647. -/
abbrev rops_3 : List (HloOp τ sig (Elt F)) :=
  [ binary main_v1 main_v70 main_v71 ((fun x i => Host.gather gather_S16x80x80x64_S16x32x3_S16x32x64_2_012_n_n_012_2_11164 x i) : (⟨S16x80x80x64, .f32⟩ : BufTy).Contents (Elt F) → (⟨S16x32x3, .i32⟩ : BufTy).Contents (Elt F) → (⟨S16x32x64, .f32⟩ : BufTy).Contents (Elt F)),
    unary main_v71 main_v72 ((extractStridedSlice S16x32x4 ![0, 0, 0] · slices_S16x32x64_S16x32x4_0_0_0) : (⟨S16x32x64, .f32⟩ : BufTy).Contents (Elt F) → (⟨S16x32x4, .f32⟩ : BufTy).Contents (Elt F)),
    unary main_v20 main_v73 (sitofp .f32 : (⟨S16x32, .i32⟩ : BufTy).Contents (Elt F) → (⟨S16x32, .f32⟩ : BufTy).Contents (Elt F)),
    binary main_v6 main_v73 main_v74 (subf : (⟨S16x32, .f32⟩ : BufTy).Contents (Elt F) → (⟨S16x32, .f32⟩ : BufTy).Contents (Elt F) → (⟨S16x32, .f32⟩ : BufTy).Contents (Elt F)),
    unary main_v22 main_v75 (sitofp .f32 : (⟨S16x32, .i32⟩ : BufTy).Contents (Elt F) → (⟨S16x32, .f32⟩ : BufTy).Contents (Elt F)),
    binary main_v10 main_v75 main_v76 (subf : (⟨S16x32, .f32⟩ : BufTy).Contents (Elt F) → (⟨S16x32, .f32⟩ : BufTy).Contents (Elt F) → (⟨S16x32, .f32⟩ : BufTy).Contents (Elt F)),
    nullary main_cst_21 (constant S_ .f32 0x42A00000#32),
    unary main_cst_21 main_v77 (broadcastInDim S16x32 ![] bcast_S_S16x32 : (⟨S_, .f32⟩ : BufTy).Contents (Elt F) → (⟨S16x32, .f32⟩ : BufTy).Contents (Elt F)),
    binary main_v14 main_v77 main_v78 (Host.divf : (⟨S16x32, .f32⟩ : BufTy).Contents (Elt F) → (⟨S16x32, .f32⟩ : BufTy).Contents (Elt F) → (⟨S16x32, .f32⟩ : BufTy).Contents (Elt F)),
    nullary main_cst_22 (constant S_ .f32 0x42A00000#32),
    unary main_cst_22 main_v79 (broadcastInDim S16x32 ![] bcast_S_S16x32 : (⟨S_, .f32⟩ : BufTy).Contents (Elt F) → (⟨S16x32, .f32⟩ : BufTy).Contents (Elt F)),
    binary main_v18 main_v79 main_v80 (Host.divf : (⟨S16x32, .f32⟩ : BufTy).Contents (Elt F) → (⟨S16x32, .f32⟩ : BufTy).Contents (Elt F) → (⟨S16x32, .f32⟩ : BufTy).Contents (Elt F)),
    unary main_v74 main_v81 (broadcastInDim S16x32x1 ![0, 1] bcast_S16x32_S16x32x1_0_1 : (⟨S16x32, .f32⟩ : BufTy).Contents (Elt F) → (⟨S16x32x1, .f32⟩ : BufTy).Contents (Elt F)),
    unary main_v76 main_v82 (broadcastInDim S16x32x1 ![0, 1] bcast_S16x32_S16x32x1_0_1 : (⟨S16x32, .f32⟩ : BufTy).Contents (Elt F) → (⟨S16x32x1, .f32⟩ : BufTy).Contents (Elt F)),
    unary main_v78 main_v83 (broadcastInDim S16x32x1 ![0, 1] bcast_S16x32_S16x32x1_0_1 : (⟨S16x32, .f32⟩ : BufTy).Contents (Elt F) → (⟨S16x32x1, .f32⟩ : BufTy).Contents (Elt F)),
    unary main_v80 main_v84 (broadcastInDim S16x32x1 ![0, 1] bcast_S16x32_S16x32x1_0_1 : (⟨S16x32, .f32⟩ : BufTy).Contents (Elt F) → (⟨S16x32x1, .f32⟩ : BufTy).Contents (Elt F)),
    nary ![main_v81, main_v82, main_v83, main_v84] main_v85 (fun u => concatenate S16x32x4 2 [⟨S16x32x1, u 0⟩, ⟨S16x32x1, u 1⟩, ⟨S16x32x1, u 2⟩, ⟨S16x32x1, u 3⟩] concatenates_S16x32x1_S16x32x1_S16x32x1_S16x32x1_S16x32x4_d2) ]
theorem rops_sub_3 : (rops_3 : List (HloOp τ sig (Elt F))).Forall fun op => op.bufs ⊆ tcRefs τ sig :=
  ⟨binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., nary_bufs_sub ..⟩
theorem rfresh_3 : ∀ op ∈ (rops_3 : List (HloOp τ sig (Elt F))), op.fresh = ∅ := by
  intro _ h; (repeat (cases h with | head => rfl | tail _ h => ?_)); exact nomatch h
/-- The buffers stretch 3 writes. -/
abbrev RW_3 : List (Ref sig .tc) := [main_v71, main_v72, main_v73, main_v74, main_v75, main_v76, main_cst_21, main_v77, main_v78, main_cst_22, main_v79, main_v80, main_v81, main_v82, main_v83, main_v84, main_v85]
theorem rwrites_3 : (rops_3 : List (HloOp τ sig (Elt F))).Forall fun op => op.writes ⊆ (RW_3.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 4: operations 122 … 156 of 647. -/
abbrev rops_4 : List (HloOp τ sig (Elt F)) :=
  [ binary main_v72 main_v85 main_v86 (subf : (⟨S16x32x4, .f32⟩ : BufTy).Contents (Elt F) → (⟨S16x32x4, .f32⟩ : BufTy).Contents (Elt F) → (⟨S16x32x4, .f32⟩ : BufTy).Contents (Elt F)),
    binary main_v86 main_v86 main_v87 (mulf : (⟨S16x32x4, .f32⟩ : BufTy).Contents (Elt F) → (⟨S16x32x4, .f32⟩ : BufTy).Contents (Elt F) → (⟨S16x32x4, .f32⟩ : BufTy).Contents (Elt F)),
    nullary main_cst_23 (constant S_ .f32 0x00000000#32),
    binary main_v87 main_cst_23 main_v88 ((fun x v => Host.reduceAdd x v reducesTo_S16x32x4_S16x32_d2 h_S_) : (⟨S16x32x4, .f32⟩ : BufTy).Contents (Elt F) → (⟨S_, .f32⟩ : BufTy).Contents (Elt F) → (⟨S16x32, .f32⟩ : BufTy).Contents (Elt F)),
    nullary main_cst_24 (constant S_ .f32 0x40800000#32),
    unary main_cst_24 main_v89 (broadcastInDim S16x32 ![] bcast_S_S16x32 : (⟨S_, .f32⟩ : BufTy).Contents (Elt F) → (⟨S16x32, .f32⟩ : BufTy).Contents (Elt F)),
    binary main_v88 main_v89 main_v90 (Host.divf : (⟨S16x32, .f32⟩ : BufTy).Contents (Elt F) → (⟨S16x32, .f32⟩ : BufTy).Contents (Elt F) → (⟨S16x32, .f32⟩ : BufTy).Contents (Elt F)),
    nullary main_cst_25 (constant S_ .f32 0x00000000#32),
    binary main_v90 main_cst_25 main_v91 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    nullary main_c_26 (constantI S_ 32 0#32),
    unary main_c_26 main_v92 (broadcastInDim S16x1 ![] bcast_S_S16x1 : (⟨S_, .i32⟩ : BufTy).Contents (Elt F) → (⟨S16x1, .i32⟩ : BufTy).Contents (Elt F)),
    binary main_v24 main_v92 main_v93 (cmpi .slt : (⟨S16x1, .i32⟩ : BufTy).Contents (Elt F) → (⟨S16x1, .i32⟩ : BufTy).Contents (Elt F) → (⟨S16x1, .i1⟩ : BufTy).Contents (Elt F)),
    nullary main_c_27 (constantI S_ 32 16#32),
    unary main_c_27 main_v94 (broadcastInDim S16x1 ![] bcast_S_S16x1 : (⟨S_, .i32⟩ : BufTy).Contents (Elt F) → (⟨S16x1, .i32⟩ : BufTy).Contents (Elt F)),
    binary main_v24 main_v94 main_v95 (addi : (⟨S16x1, .i32⟩ : BufTy).Contents (Elt F) → (⟨S16x1, .i32⟩ : BufTy).Contents (Elt F) → (⟨S16x1, .i32⟩ : BufTy).Contents (Elt F)),
    ternary main_v93 main_v95 main_v24 main_v96 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_28 (constantI S_ 32 0#32),
    unary main_c_28 main_v97 (broadcastInDim S16x32 ![] bcast_S_S16x32 : (⟨S_, .i32⟩ : BufTy).Contents (Elt F) → (⟨S16x32, .i32⟩ : BufTy).Contents (Elt F)),
    binary main_v22 main_v97 main_v98 (cmpi .slt : (⟨S16x32, .i32⟩ : BufTy).Contents (Elt F) → (⟨S16x32, .i32⟩ : BufTy).Contents (Elt F) → (⟨S16x32, .i1⟩ : BufTy).Contents (Elt F)),
    nullary main_c_29 (constantI S_ 32 80#32),
    unary main_c_29 main_v99 (broadcastInDim S16x32 ![] bcast_S_S16x32 : (⟨S_, .i32⟩ : BufTy).Contents (Elt F) → (⟨S16x32, .i32⟩ : BufTy).Contents (Elt F)),
    binary main_v22 main_v99 main_v100 (addi : (⟨S16x32, .i32⟩ : BufTy).Contents (Elt F) → (⟨S16x32, .i32⟩ : BufTy).Contents (Elt F) → (⟨S16x32, .i32⟩ : BufTy).Contents (Elt F)),
    ternary main_v98 main_v100 main_v22 main_v101 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_30 (constantI S_ 32 0#32),
    unary main_c_30 main_v102 (broadcastInDim S16x32 ![] bcast_S_S16x32 : (⟨S_, .i32⟩ : BufTy).Contents (Elt F) → (⟨S16x32, .i32⟩ : BufTy).Contents (Elt F)),
    binary main_v20 main_v102 main_v103 (cmpi .slt : (⟨S16x32, .i32⟩ : BufTy).Contents (Elt F) → (⟨S16x32, .i32⟩ : BufTy).Contents (Elt F) → (⟨S16x32, .i1⟩ : BufTy).Contents (Elt F)),
    nullary main_c_31 (constantI S_ 32 80#32),
    unary main_c_31 main_v104 (broadcastInDim S16x32 ![] bcast_S_S16x32 : (⟨S_, .i32⟩ : BufTy).Contents (Elt F) → (⟨S16x32, .i32⟩ : BufTy).Contents (Elt F)),
    binary main_v20 main_v104 main_v105 (addi : (⟨S16x32, .i32⟩ : BufTy).Contents (Elt F) → (⟨S16x32, .i32⟩ : BufTy).Contents (Elt F) → (⟨S16x32, .i32⟩ : BufTy).Contents (Elt F)),
    ternary main_v103 main_v105 main_v20 main_v106 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v96 main_v107 (broadcastInDim S16x32 ![0, 1] bcast_S16x1_S16x32_0_1 : (⟨S16x1, .i32⟩ : BufTy).Contents (Elt F) → (⟨S16x32, .i32⟩ : BufTy).Contents (Elt F)),
    unary main_v107 main_v108 (broadcastInDim S16x32x1 ![0, 1] bcast_S16x32_S16x32x1_0_1 : (⟨S16x32, .i32⟩ : BufTy).Contents (Elt F) → (⟨S16x32x1, .i32⟩ : BufTy).Contents (Elt F)),
    unary main_v101 main_v109 (broadcastInDim S16x32x1 ![0, 1] bcast_S16x32_S16x32x1_0_1 : (⟨S16x32, .i32⟩ : BufTy).Contents (Elt F) → (⟨S16x32x1, .i32⟩ : BufTy).Contents (Elt F)),
    unary main_v106 main_v110 (broadcastInDim S16x32x1 ![0, 1] bcast_S16x32_S16x32x1_0_1 : (⟨S16x32, .i32⟩ : BufTy).Contents (Elt F) → (⟨S16x32x1, .i32⟩ : BufTy).Contents (Elt F)),
    nary ![main_v108, main_v109, main_v110] main_v111 (fun u => concatenate S16x32x3 2 [⟨S16x32x1, u 0⟩, ⟨S16x32x1, u 1⟩, ⟨S16x32x1, u 2⟩] concatenates_S16x32x1_S16x32x1_S16x32x1_S16x32x3_d2) ]
theorem rops_sub_4 : (rops_4 : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub ..⟩
theorem rfresh_4 : ∀ op ∈ (rops_4 : List (HloOp τ sig (Elt F))), op.fresh = ∅ := by
  intro _ h; (repeat (cases h with | head => rfl | tail _ h => ?_)); exact nomatch h
/-- The buffers stretch 4 writes. -/
abbrev RW_4 : List (Ref sig .tc) := [main_v86, main_v87, main_cst_23, main_v88, main_cst_24, main_v89, main_v90, main_cst_25, main_v91, main_c_26, main_v92, main_v93, main_c_27, main_v94, main_v95, main_v96, main_c_28, main_v97, main_v98, main_c_29, main_v99, main_v100, main_v101, main_c_30, main_v102, main_v103, main_c_31, main_v104, main_v105, main_v106, main_v107, main_v108, main_v109, main_v110, main_v111]
theorem rwrites_4 : (rops_4 : List (HloOp τ sig (Elt F))).Forall fun op => op.writes ⊆ (RW_4.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 5: operations 157 … 195 of 647. -/
abbrev rops_5 : List (HloOp τ sig (Elt F)) :=
  [ binary main_v2 main_v111 main_v112 ((fun x i => Host.gather gather_S16x80x80x80_S16x32x3_S16x32x80_2_012_n_n_012_2_11180 x i) : (⟨S16x80x80x80, .f32⟩ : BufTy).Contents (Elt F) → (⟨S16x32x3, .i32⟩ : BufTy).Contents (Elt F) → (⟨S16x32x80, .f32⟩ : BufTy).Contents (Elt F)),
    TRef.unary (TRef.of (T := ⟨S16x32, .i32⟩) main_arg4) (TRef.of (T := ⟨S16x32x1, .i32⟩) main_call2_v0) (broadcastInDim S16x32x1 ![0, 1] bcast_S16x32_S16x32x1_0_1),
    TRef.nullary (TRef.of (T := ⟨S1x1x80, .i32⟩) main_call2_v1) (iotaInDim S1x1x80 32 2),
    TRef.unary (TRef.of (T := ⟨S16x32x1, .i32⟩) main_call2_v0) (TRef.of (T := ⟨S16x32x80, .i32⟩) main_call2_v2) (broadcastInDim S16x32x80 ![0, 1, 2] bcast_S16x32x1_S16x32x80_0_1_2),
    TRef.unary (TRef.of (T := ⟨S1x1x80, .i32⟩) main_call2_v1) (TRef.of (T := ⟨S16x32x80, .i32⟩) main_call2_v3) (broadcastInDim S16x32x80 ![0, 1, 2] bcast_S1x1x80_S16x32x80_0_1_2),
    TRef.binary (TRef.of (T := ⟨S16x32x80, .i32⟩) main_call2_v2) (TRef.of (T := ⟨S16x32x80, .i32⟩) main_call2_v3) (TRef.of (T := ⟨S16x32x80, .i1⟩) main_call2_v4) (cmpi .eq),
    TRef.unary (TRef.of (T := ⟨S16x32x80, .i1⟩) main_call2_v4) (TRef.of (T := ⟨S16x32x80, .f32⟩) main_v113) (uitofp .f32),
    TRef.nullary (TRef.of (T := ⟨S_, .f32⟩) main_call3_cst) (constant S_ .f32 0x00000000#32),
    TRef.unary (TRef.of (T := ⟨S_, .f32⟩) main_call3_cst) (TRef.of (T := ⟨S16x32x80, .f32⟩) main_call3_v0) (broadcastInDim S16x32x80 ![] bcast_S_S16x32x80),
    TRef.binary (TRef.of (T := ⟨S16x32x80, .f32⟩) main_v112) (TRef.of (T := ⟨S16x32x80, .f32⟩) main_call3_v0) (TRef.of (T := ⟨S16x32x80, .f32⟩) main_call3_v1) maximumf,
    TRef.unary (TRef.of (T := ⟨S_, .f32⟩) main_call3_cst) (TRef.of (T := ⟨S16x32x80, .f32⟩) main_call3_v2) (broadcastInDim S16x32x80 ![] bcast_S_S16x32x80),
    TRef.binary (TRef.of (T := ⟨S16x32x80, .f32⟩) main_v112) (TRef.of (T := ⟨S16x32x80, .f32⟩) main_call3_v2) (TRef.of (T := ⟨S16x32x80, .f32⟩) main_call3_v3) subf,
    TRef.binary (TRef.of (T := ⟨S16x32x80, .f32⟩) main_call3_v3) (TRef.of (T := ⟨S16x32x80, .f32⟩) main_call3_v3) (TRef.of (T := ⟨S16x32x80, .i1⟩) main_call3_v4) (cmpf .une),
    TRef.unary (TRef.of (T := ⟨S_, .f32⟩) main_call3_cst) (TRef.of (T := ⟨S16x32x80, .f32⟩) main_call3_v5) (broadcastInDim S16x32x80 ![] bcast_S_S16x32x80),
    TRef.binary (TRef.of (T := ⟨S16x32x80, .f32⟩) main_v112) (TRef.of (T := ⟨S16x32x80, .f32⟩) main_call3_v5) (TRef.of (T := ⟨S16x32x80, .f32⟩) main_call3_v6) addf,
    TRef.unary (TRef.of (T := ⟨S16x32x80, .f32⟩) main_call3_v3) (TRef.of (T := ⟨S16x32x80, .f32⟩) main_call3_v7) Host.absf,
    TRef.unary (TRef.of (T := ⟨S16x32x80, .f32⟩) main_call3_v7) (TRef.of (T := ⟨S16x32x80, .f32⟩) main_call3_v8) Host.negf,
    TRef.unary (TRef.of (T := ⟨S16x32x80, .f32⟩) main_call3_v8) (TRef.of (T := ⟨S16x32x80, .f32⟩) main_call3_v9) Host.exp,
    TRef.unary (TRef.of (T := ⟨S16x32x80, .f32⟩) main_call3_v9) (TRef.of (T := ⟨S16x32x80, .f32⟩) main_call3_v10) Host.log1p,
    TRef.binary (TRef.of (T := ⟨S16x32x80, .f32⟩) main_call3_v1) (TRef.of (T := ⟨S16x32x80, .f32⟩) main_call3_v10) (TRef.of (T := ⟨S16x32x80, .f32⟩) main_call3_v11) addf,
    TRef.ternary (TRef.of (T := ⟨S16x32x80, .i1⟩) main_call3_v4) (TRef.of (T := ⟨S16x32x80, .f32⟩) main_call3_v6) (TRef.of (T := ⟨S16x32x80, .f32⟩) main_call3_v11) (TRef.of (T := ⟨S16x32x80, .f32⟩) main_v114) select,
    binary main_v112 main_v113 main_v115 (mulf : (⟨S16x32x80, .f32⟩ : BufTy).Contents (Elt F) → (⟨S16x32x80, .f32⟩ : BufTy).Contents (Elt F) → (⟨S16x32x80, .f32⟩ : BufTy).Contents (Elt F)),
    binary main_v114 main_v115 main_v116 (subf : (⟨S16x32x80, .f32⟩ : BufTy).Contents (Elt F) → (⟨S16x32x80, .f32⟩ : BufTy).Contents (Elt F) → (⟨S16x32x80, .f32⟩ : BufTy).Contents (Elt F)),
    nullary main_cst_32 (constant S_ .f32 0x00000000#32),
    binary main_v116 main_cst_32 main_v117 ((fun x v => Host.reduceAdd x v reducesTo_S16x32x80_S16x32_d2 h_S_) : (⟨S16x32x80, .f32⟩ : BufTy).Contents (Elt F) → (⟨S_, .f32⟩ : BufTy).Contents (Elt F) → (⟨S16x32, .f32⟩ : BufTy).Contents (Elt F)),
    nullary main_cst_33 (constant S_ .f32 0x42A00000#32),
    unary main_cst_33 main_v118 (broadcastInDim S16x32 ![] bcast_S_S16x32 : (⟨S_, .f32⟩ : BufTy).Contents (Elt F) → (⟨S16x32, .f32⟩ : BufTy).Contents (Elt F)),
    binary main_v117 main_v118 main_v119 (Host.divf : (⟨S16x32, .f32⟩ : BufTy).Contents (Elt F) → (⟨S16x32, .f32⟩ : BufTy).Contents (Elt F) → (⟨S16x32, .f32⟩ : BufTy).Contents (Elt F)),
    nullary main_cst_34 (constant S_ .f32 0x00000000#32),
    binary main_v119 main_cst_34 main_v120 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    unary main_v1 main_v121 ((extractStridedSlice S16x80x80x4 ![0, 0, 0, 0] · slices_S16x80x80x64_S16x80x80x4_0_0_0_0) : (⟨S16x80x80x64, .f32⟩ : BufTy).Contents (Elt F) → (⟨S16x80x80x4, .f32⟩ : BufTy).Contents (Elt F)),
    nullary main_cst_35 (constant S_ .f32 0x00000000#32),
    binary main_v121 main_cst_35 main_v122 ((fun x v => Host.reduceAdd x v reducesTo_S16x80x80x4_S16x80x80_d3 h_S_) : (⟨S16x80x80x4, .f32⟩ : BufTy).Contents (Elt F) → (⟨S_, .f32⟩ : BufTy).Contents (Elt F) → (⟨S16x80x80, .f32⟩ : BufTy).Contents (Elt F)),
    unary main_v122 main_v123 (broadcastInDim S16x80x80x1 ![0, 1, 2] bcast_S16x80x80_S16x80x80x1_0_1_2 : (⟨S16x80x80, .f32⟩ : BufTy).Contents (Elt F) → (⟨S16x80x80x1, .f32⟩ : BufTy).Contents (Elt F)),
    nullary main_cst_36 (constant S_ .f32 0x40800000#32),
    unary main_cst_36 main_v124 (broadcastInDim S16x80x80x1 ![] bcast_S_S16x80x80x1 : (⟨S_, .f32⟩ : BufTy).Contents (Elt F) → (⟨S16x80x80x1, .f32⟩ : BufTy).Contents (Elt F)),
    binary main_v123 main_v124 main_v125 (Host.divf : (⟨S16x80x80x1, .f32⟩ : BufTy).Contents (Elt F) → (⟨S16x80x80x1, .f32⟩ : BufTy).Contents (Elt F) → (⟨S16x80x80x1, .f32⟩ : BufTy).Contents (Elt F)),
    unary main_v125 main_v126 (Host.negf : (⟨S16x80x80x1, .f32⟩ : BufTy).Contents (Elt F) → (⟨S16x80x80x1, .f32⟩ : BufTy).Contents (Elt F)),
    unary main_v126 main_v127 (Host.exp : (⟨S16x80x80x1, .f32⟩ : BufTy).Contents (Elt F) → (⟨S16x80x80x1, .f32⟩ : BufTy).Contents (Elt F)) ]
theorem rops_sub_5 : (rops_5 : List (HloOp τ sig (Elt F))).Forall fun op => op.bufs ⊆ tcRefs τ sig :=
  ⟨binary_bufs_sub .., unary_bufs_sub .., nullary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., nullary_bufs_sub .., binary_bufs_sub .., nullary_bufs_sub .., unary_bufs_sub .., binary_bufs_sub .., nullary_bufs_sub .., binary_bufs_sub .., unary_bufs_sub .., nullary_bufs_sub .., binary_bufs_sub .., unary_bufs_sub .., nullary_bufs_sub .., unary_bufs_sub .., binary_bufs_sub .., unary_bufs_sub .., unary_bufs_sub ..⟩
theorem rfresh_5 : ∀ op ∈ (rops_5 : List (HloOp τ sig (Elt F))), op.fresh = ∅ := by
  intro _ h; (repeat (cases h with | head => rfl | tail _ h => ?_)); exact nomatch h
/-- The buffers stretch 5 writes. -/
abbrev RW_5 : List (Ref sig .tc) := [main_v112, main_call2_v0, main_call2_v1, main_call2_v2, main_call2_v3, main_call2_v4, main_v113, main_call3_cst, main_call3_v0, main_call3_v1, main_call3_v2, main_call3_v3, main_call3_v4, main_call3_v5, main_call3_v6, main_call3_v7, main_call3_v8, main_call3_v9, main_call3_v10, main_call3_v11, main_v114, main_v115, main_v116, main_cst_32, main_v117, main_cst_33, main_v118, main_v119, main_cst_34, main_v120, main_v121, main_cst_35, main_v122, main_v123, main_cst_36, main_v124, main_v125, main_v126, main_v127]
theorem rwrites_5 : (rops_5 : List (HloOp τ sig (Elt F))).Forall fun op => op.writes ⊆ (RW_5.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 6: operations 196 … 214 of 647. -/
abbrev rops_6 : List (HloOp τ sig (Elt F)) :=
  [ nullary main_cst_37 (constant S_ .f32 0x3F800000#32),
    unary main_cst_37 main_v128 (broadcastInDim S16x80x80x1 ![] bcast_S_S16x80x80x1 : (⟨S_, .f32⟩ : BufTy).Contents (Elt F) → (⟨S16x80x80x1, .f32⟩ : BufTy).Contents (Elt F)),
    binary main_v128 main_v127 main_v129 (addf : (⟨S16x80x80x1, .f32⟩ : BufTy).Contents (Elt F) → (⟨S16x80x80x1, .f32⟩ : BufTy).Contents (Elt F) → (⟨S16x80x80x1, .f32⟩ : BufTy).Contents (Elt F)),
    nullary main_cst_38 (constant S_ .f32 0x3F800000#32),
    unary main_cst_38 main_v130 (broadcastInDim S16x80x80x1 ![] bcast_S_S16x80x80x1 : (⟨S_, .f32⟩ : BufTy).Contents (Elt F) → (⟨S16x80x80x1, .f32⟩ : BufTy).Contents (Elt F)),
    binary main_v130 main_v129 main_v131 (Host.divf : (⟨S16x80x80x1, .f32⟩ : BufTy).Contents (Elt F) → (⟨S16x80x80x1, .f32⟩ : BufTy).Contents (Elt F) → (⟨S16x80x80x1, .f32⟩ : BufTy).Contents (Elt F)),
    binary main_v131 main_v50 main_v132 (subf : (⟨S16x80x80x1, .f32⟩ : BufTy).Contents (Elt F) → (⟨S16x80x80x1, .f32⟩ : BufTy).Contents (Elt F) → (⟨S16x80x80x1, .f32⟩ : BufTy).Contents (Elt F)),
    binary main_v132 main_v132 main_v133 (mulf : (⟨S16x80x80x1, .f32⟩ : BufTy).Contents (Elt F) → (⟨S16x80x80x1, .f32⟩ : BufTy).Contents (Elt F) → (⟨S16x80x80x1, .f32⟩ : BufTy).Contents (Elt F)),
    nullary main_cst_39 (constant S_ .f32 0x00000000#32),
    binary main_v133 main_cst_39 main_v134 ((fun x v => Host.reduceAdd x v reducesTo_S16x80x80x1_S_d0_1_2_3 h_S_) : (⟨S16x80x80x1, .f32⟩ : BufTy).Contents (Elt F) → (⟨S_, .f32⟩ : BufTy).Contents (Elt F) → (⟨S_, .f32⟩ : BufTy).Contents (Elt F)),
    nullary main_cst_40 (constant S_ .f32 0x47C80000#32),
    binary main_v134 main_cst_40 main_v135 (Host.divf : (⟨S_, .f32⟩ : BufTy).Contents (Elt F) → (⟨S_, .f32⟩ : BufTy).Contents (Elt F) → (⟨S_, .f32⟩ : BufTy).Contents (Elt F)),
    nullary main_cst_41 (constant S_ .f32 0x00000000#32),
    binary main_cst_41 main_v91 main_v136 (addf : (⟨S_, .f32⟩ : BufTy).Contents (Elt F) → (⟨S_, .f32⟩ : BufTy).Contents (Elt F) → (⟨S_, .f32⟩ : BufTy).Contents (Elt F)),
    nullary main_cst_42 (constant S_ .f32 0x00000000#32),
    binary main_cst_42 main_v135 main_v137 (addf : (⟨S_, .f32⟩ : BufTy).Contents (Elt F) → (⟨S_, .f32⟩ : BufTy).Contents (Elt F) → (⟨S_, .f32⟩ : BufTy).Contents (Elt F)),
    nullary main_cst_43 (constant S_ .f32 0x00000000#32),
    binary main_cst_43 main_v120 main_v138 (addf : (⟨S_, .f32⟩ : BufTy).Contents (Elt F) → (⟨S_, .f32⟩ : BufTy).Contents (Elt F) → (⟨S_, .f32⟩ : BufTy).Contents (Elt F)),
    unary main_arg1 main_v139 ((transpose S16x40x40x144 [0, 2, 3, 1] · transposes_S16x144x40x40_S16x40x40x144_0_2_3_1) : (⟨S16x144x40x40, .f32⟩ : BufTy).Contents (Elt F) → (⟨S16x40x40x144, .f32⟩ : BufTy).Contents (Elt F)) ]
theorem rops_sub_6 : (rops_6 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., unary_bufs_sub ..⟩
theorem rfresh_6 : ∀ op ∈ (rops_6 : List (HloOp τ sig (Elt F))), op.fresh = ∅ := by
  intro _ h; (repeat (cases h with | head => rfl | tail _ h => ?_)); exact nomatch h
/-- The buffers stretch 6 writes. -/
abbrev RW_6 : List (Ref sig .tc) := [main_cst_37, main_v128, main_v129, main_cst_38, main_v130, main_v131, main_v132, main_v133, main_cst_39, main_v134, main_cst_40, main_v135, main_cst_41, main_v136, main_cst_42, main_v137, main_cst_43, main_v138, main_v139]
theorem rwrites_6 : (rops_6 : List (HloOp τ sig (Elt F))).Forall fun op => op.writes ⊆ (RW_6.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 7: operations 215 … 254 of 647. -/
abbrev rops_7 : List (HloOp τ sig (Elt F)) :=
  [ unary main_v139 main_v140 ((extractStridedSlice S16x40x40x64 ![0, 0, 0, 0] · slices_S16x40x40x144_S16x40x40x64_0_0_0_0) : (⟨S16x40x40x144, .f32⟩ : BufTy).Contents (Elt F) → (⟨S16x40x40x64, .f32⟩ : BufTy).Contents (Elt F)),
    unary main_v139 main_v141 ((extractStridedSlice S16x40x40x80 ![0, 0, 0, 64] · slices_S16x40x40x144_S16x40x40x80_0_0_0_64) : (⟨S16x40x40x144, .f32⟩ : BufTy).Contents (Elt F) → (⟨S16x40x40x80, .f32⟩ : BufTy).Contents (Elt F)),
    unary main_arg3 main_v142 ((extractStridedSlice S16x32x1 ![0, 0, 0] · slices_S16x32x4_S16x32x1_0_0_0) : (⟨S16x32x4, .f32⟩ : BufTy).Contents (Elt F) → (⟨S16x32x1, .f32⟩ : BufTy).Contents (Elt F)),
    reshape main_v142 main_v143 rfl shapeCasts_S16x32x1_S16x32,
    nullary main_cst_44 (constant S_ .f32 0x42200000#32),
    unary main_cst_44 main_v144 (broadcastInDim S16x32 ![] bcast_S_S16x32 : (⟨S_, .f32⟩ : BufTy).Contents (Elt F) → (⟨S16x32, .f32⟩ : BufTy).Contents (Elt F)),
    binary main_v143 main_v144 main_v145 (mulf : (⟨S16x32, .f32⟩ : BufTy).Contents (Elt F) → (⟨S16x32, .f32⟩ : BufTy).Contents (Elt F) → (⟨S16x32, .f32⟩ : BufTy).Contents (Elt F)),
    unary main_arg3 main_v146 ((extractStridedSlice S16x32x1 ![0, 0, 1] · slices_S16x32x4_S16x32x1_0_0_1) : (⟨S16x32x4, .f32⟩ : BufTy).Contents (Elt F) → (⟨S16x32x1, .f32⟩ : BufTy).Contents (Elt F)),
    reshape main_v146 main_v147 rfl shapeCasts_S16x32x1_S16x32,
    nullary main_cst_45 (constant S_ .f32 0x42200000#32),
    unary main_cst_45 main_v148 (broadcastInDim S16x32 ![] bcast_S_S16x32 : (⟨S_, .f32⟩ : BufTy).Contents (Elt F) → (⟨S16x32, .f32⟩ : BufTy).Contents (Elt F)),
    binary main_v147 main_v148 main_v149 (mulf : (⟨S16x32, .f32⟩ : BufTy).Contents (Elt F) → (⟨S16x32, .f32⟩ : BufTy).Contents (Elt F) → (⟨S16x32, .f32⟩ : BufTy).Contents (Elt F)),
    unary main_arg3 main_v150 ((extractStridedSlice S16x32x1 ![0, 0, 2] · slices_S16x32x4_S16x32x1_0_0_2) : (⟨S16x32x4, .f32⟩ : BufTy).Contents (Elt F) → (⟨S16x32x1, .f32⟩ : BufTy).Contents (Elt F)),
    reshape main_v150 main_v151 rfl shapeCasts_S16x32x1_S16x32,
    nullary main_cst_46 (constant S_ .f32 0x42200000#32),
    unary main_cst_46 main_v152 (broadcastInDim S16x32 ![] bcast_S_S16x32 : (⟨S_, .f32⟩ : BufTy).Contents (Elt F) → (⟨S16x32, .f32⟩ : BufTy).Contents (Elt F)),
    binary main_v151 main_v152 main_v153 (mulf : (⟨S16x32, .f32⟩ : BufTy).Contents (Elt F) → (⟨S16x32, .f32⟩ : BufTy).Contents (Elt F) → (⟨S16x32, .f32⟩ : BufTy).Contents (Elt F)),
    unary main_arg3 main_v154 ((extractStridedSlice S16x32x1 ![0, 0, 3] · slices_S16x32x4_S16x32x1_0_0_3) : (⟨S16x32x4, .f32⟩ : BufTy).Contents (Elt F) → (⟨S16x32x1, .f32⟩ : BufTy).Contents (Elt F)),
    reshape main_v154 main_v155 rfl shapeCasts_S16x32x1_S16x32,
    nullary main_cst_47 (constant S_ .f32 0x42200000#32),
    unary main_cst_47 main_v156 (broadcastInDim S16x32 ![] bcast_S_S16x32 : (⟨S_, .f32⟩ : BufTy).Contents (Elt F) → (⟨S16x32, .f32⟩ : BufTy).Contents (Elt F)),
    binary main_v155 main_v156 main_v157 (mulf : (⟨S16x32, .f32⟩ : BufTy).Contents (Elt F) → (⟨S16x32, .f32⟩ : BufTy).Contents (Elt F) → (⟨S16x32, .f32⟩ : BufTy).Contents (Elt F)),
    unary main_v145 main_v158 (fptosi 32 : (⟨S16x32, .f32⟩ : BufTy).Contents (Elt F) → (⟨S16x32, .i32⟩ : BufTy).Contents (Elt F)),
    nullary main_c_48 (constantI S_ 32 0#32),
    nullary main_c_49 (constantI S_ 32 39#32),
    TRef.unary (TRef.of (T := ⟨S_, .i32⟩) main_c_48) (TRef.of (T := ⟨S_, .i32⟩) main_call4_v0) id,
    TRef.unary (TRef.of (T := ⟨S_, .i32⟩) main_call4_v0) (TRef.of (T := ⟨S16x32, .i32⟩) main_call4_v1) (broadcastInDim S16x32 ![] bcast_S_S16x32),
    TRef.binary (TRef.of (T := ⟨S16x32, .i32⟩) main_call4_v1) (TRef.of (T := ⟨S16x32, .i32⟩) main_v158) (TRef.of (T := ⟨S16x32, .i32⟩) main_call4_v2) maxsi,
    TRef.unary (TRef.of (T := ⟨S_, .i32⟩) main_c_49) (TRef.of (T := ⟨S_, .i32⟩) main_call4_v3) id,
    TRef.unary (TRef.of (T := ⟨S_, .i32⟩) main_call4_v3) (TRef.of (T := ⟨S16x32, .i32⟩) main_call4_v4) (broadcastInDim S16x32 ![] bcast_S_S16x32),
    TRef.binary (TRef.of (T := ⟨S16x32, .i32⟩) main_call4_v4) (TRef.of (T := ⟨S16x32, .i32⟩) main_call4_v2) (TRef.of (T := ⟨S16x32, .i32⟩) main_v159) minsi,
    unary main_v149 main_v160 (fptosi 32 : (⟨S16x32, .f32⟩ : BufTy).Contents (Elt F) → (⟨S16x32, .i32⟩ : BufTy).Contents (Elt F)),
    nullary main_c_50 (constantI S_ 32 0#32),
    nullary main_c_51 (constantI S_ 32 39#32),
    TRef.unary (TRef.of (T := ⟨S_, .i32⟩) main_c_50) (TRef.of (T := ⟨S_, .i32⟩) main_call5_v0) id,
    TRef.unary (TRef.of (T := ⟨S_, .i32⟩) main_call5_v0) (TRef.of (T := ⟨S16x32, .i32⟩) main_call5_v1) (broadcastInDim S16x32 ![] bcast_S_S16x32),
    TRef.binary (TRef.of (T := ⟨S16x32, .i32⟩) main_call5_v1) (TRef.of (T := ⟨S16x32, .i32⟩) main_v160) (TRef.of (T := ⟨S16x32, .i32⟩) main_call5_v2) maxsi,
    TRef.unary (TRef.of (T := ⟨S_, .i32⟩) main_c_51) (TRef.of (T := ⟨S_, .i32⟩) main_call5_v3) id,
    TRef.unary (TRef.of (T := ⟨S_, .i32⟩) main_call5_v3) (TRef.of (T := ⟨S16x32, .i32⟩) main_call5_v4) (broadcastInDim S16x32 ![] bcast_S_S16x32),
    TRef.binary (TRef.of (T := ⟨S16x32, .i32⟩) main_call5_v4) (TRef.of (T := ⟨S16x32, .i32⟩) main_call5_v2) (TRef.of (T := ⟨S16x32, .i32⟩) main_v161) minsi ]
theorem rops_sub_7 : (rops_7 : List (HloOp τ sig (Elt F))).Forall fun op => op.bufs ⊆ tcRefs τ sig :=
  ⟨unary_bufs_sub .., unary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub ..⟩
theorem rfresh_7 : ∀ op ∈ (rops_7 : List (HloOp τ sig (Elt F))), op.fresh = ∅ := by
  intro _ h; (repeat (cases h with | head => rfl | tail _ h => ?_)); exact nomatch h
/-- The buffers stretch 7 writes. -/
abbrev RW_7 : List (Ref sig .tc) := [main_v140, main_v141, main_v142, main_v143, main_cst_44, main_v144, main_v145, main_v146, main_v147, main_cst_45, main_v148, main_v149, main_v150, main_v151, main_cst_46, main_v152, main_v153, main_v154, main_v155, main_cst_47, main_v156, main_v157, main_v158, main_c_48, main_c_49, main_call4_v0, main_call4_v1, main_call4_v2, main_call4_v3, main_call4_v4, main_v159, main_v160, main_c_50, main_c_51, main_call5_v0, main_call5_v1, main_call5_v2, main_call5_v3, main_call5_v4, main_v161]
theorem rwrites_7 : (rops_7 : List (HloOp τ sig (Elt F))).Forall fun op => op.writes ⊆ (RW_7.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 8: operations 255 … 288 of 647. -/
abbrev rops_8 : List (HloOp τ sig (Elt F)) :=
  [ nullary main_v162 (iotaInDim S16 32 0),
    unary main_v162 main_v163 (broadcastInDim S16x1 ![0] bcast_S16_S16x1_0 : (⟨S16, .i32⟩ : BufTy).Contents (Elt F) → (⟨S16x1, .i32⟩ : BufTy).Contents (Elt F)),
    nullary main_cst_52 (constant S_ .f32 0x00000000#32),
    unary main_cst_52 main_v164 (broadcastInDim S16x40x40x1 ![] bcast_S_S16x40x40x1 : (⟨S_, .f32⟩ : BufTy).Contents (Elt F) → (⟨S16x40x40x1, .f32⟩ : BufTy).Contents (Elt F)),
    nullary main_c_53 (constantI S_ 32 0#32),
    unary main_c_53 main_v165 (broadcastInDim S16x1 ![] bcast_S_S16x1 : (⟨S_, .i32⟩ : BufTy).Contents (Elt F) → (⟨S16x1, .i32⟩ : BufTy).Contents (Elt F)),
    binary main_v163 main_v165 main_v166 (cmpi .slt : (⟨S16x1, .i32⟩ : BufTy).Contents (Elt F) → (⟨S16x1, .i32⟩ : BufTy).Contents (Elt F) → (⟨S16x1, .i1⟩ : BufTy).Contents (Elt F)),
    nullary main_c_54 (constantI S_ 32 16#32),
    unary main_c_54 main_v167 (broadcastInDim S16x1 ![] bcast_S_S16x1 : (⟨S_, .i32⟩ : BufTy).Contents (Elt F) → (⟨S16x1, .i32⟩ : BufTy).Contents (Elt F)),
    binary main_v163 main_v167 main_v168 (addi : (⟨S16x1, .i32⟩ : BufTy).Contents (Elt F) → (⟨S16x1, .i32⟩ : BufTy).Contents (Elt F) → (⟨S16x1, .i32⟩ : BufTy).Contents (Elt F)),
    ternary main_v166 main_v168 main_v163 main_v169 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_55 (constantI S_ 32 0#32),
    unary main_c_55 main_v170 (broadcastInDim S16x32 ![] bcast_S_S16x32 : (⟨S_, .i32⟩ : BufTy).Contents (Elt F) → (⟨S16x32, .i32⟩ : BufTy).Contents (Elt F)),
    binary main_v161 main_v170 main_v171 (cmpi .slt : (⟨S16x32, .i32⟩ : BufTy).Contents (Elt F) → (⟨S16x32, .i32⟩ : BufTy).Contents (Elt F) → (⟨S16x32, .i1⟩ : BufTy).Contents (Elt F)),
    nullary main_c_56 (constantI S_ 32 40#32),
    unary main_c_56 main_v172 (broadcastInDim S16x32 ![] bcast_S_S16x32 : (⟨S_, .i32⟩ : BufTy).Contents (Elt F) → (⟨S16x32, .i32⟩ : BufTy).Contents (Elt F)),
    binary main_v161 main_v172 main_v173 (addi : (⟨S16x32, .i32⟩ : BufTy).Contents (Elt F) → (⟨S16x32, .i32⟩ : BufTy).Contents (Elt F) → (⟨S16x32, .i32⟩ : BufTy).Contents (Elt F)),
    ternary main_v171 main_v173 main_v161 main_v174 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_57 (constantI S_ 32 0#32),
    unary main_c_57 main_v175 (broadcastInDim S16x32 ![] bcast_S_S16x32 : (⟨S_, .i32⟩ : BufTy).Contents (Elt F) → (⟨S16x32, .i32⟩ : BufTy).Contents (Elt F)),
    binary main_v159 main_v175 main_v176 (cmpi .slt : (⟨S16x32, .i32⟩ : BufTy).Contents (Elt F) → (⟨S16x32, .i32⟩ : BufTy).Contents (Elt F) → (⟨S16x32, .i1⟩ : BufTy).Contents (Elt F)),
    nullary main_c_58 (constantI S_ 32 40#32),
    unary main_c_58 main_v177 (broadcastInDim S16x32 ![] bcast_S_S16x32 : (⟨S_, .i32⟩ : BufTy).Contents (Elt F) → (⟨S16x32, .i32⟩ : BufTy).Contents (Elt F)),
    binary main_v159 main_v177 main_v178 (addi : (⟨S16x32, .i32⟩ : BufTy).Contents (Elt F) → (⟨S16x32, .i32⟩ : BufTy).Contents (Elt F) → (⟨S16x32, .i32⟩ : BufTy).Contents (Elt F)),
    ternary main_v176 main_v178 main_v159 main_v179 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v169 main_v180 (broadcastInDim S16x32 ![0, 1] bcast_S16x1_S16x32_0_1 : (⟨S16x1, .i32⟩ : BufTy).Contents (Elt F) → (⟨S16x32, .i32⟩ : BufTy).Contents (Elt F)),
    nullary main_c_59 (constantI S_ 32 0#32),
    unary main_c_59 main_v181 (broadcastInDim S16x32 ![] bcast_S_S16x32 : (⟨S_, .i32⟩ : BufTy).Contents (Elt F) → (⟨S16x32, .i32⟩ : BufTy).Contents (Elt F)),
    unary main_v181 main_v182 (id : (⟨S16x32, .i32⟩ : BufTy).Contents (Elt F) → (⟨S16x32, .i32⟩ : BufTy).Contents (Elt F)),
    unary main_v180 main_v183 (broadcastInDim S16x32x1 ![0, 1] bcast_S16x32_S16x32x1_0_1 : (⟨S16x32, .i32⟩ : BufTy).Contents (Elt F) → (⟨S16x32x1, .i32⟩ : BufTy).Contents (Elt F)),
    unary main_v174 main_v184 (broadcastInDim S16x32x1 ![0, 1] bcast_S16x32_S16x32x1_0_1 : (⟨S16x32, .i32⟩ : BufTy).Contents (Elt F) → (⟨S16x32x1, .i32⟩ : BufTy).Contents (Elt F)),
    unary main_v179 main_v185 (broadcastInDim S16x32x1 ![0, 1] bcast_S16x32_S16x32x1_0_1 : (⟨S16x32, .i32⟩ : BufTy).Contents (Elt F) → (⟨S16x32x1, .i32⟩ : BufTy).Contents (Elt F)),
    unary main_v182 main_v186 (broadcastInDim S16x32x1 ![0, 1] bcast_S16x32_S16x32x1_0_1 : (⟨S16x32, .i32⟩ : BufTy).Contents (Elt F) → (⟨S16x32x1, .i32⟩ : BufTy).Contents (Elt F)),
    nary ![main_v183, main_v184, main_v185, main_v186] main_v187 (fun u => concatenate S16x32x4 2 [⟨S16x32x1, u 0⟩, ⟨S16x32x1, u 1⟩, ⟨S16x32x1, u 2⟩, ⟨S16x32x1, u 3⟩] concatenates_S16x32x1_S16x32x1_S16x32x1_S16x32x1_S16x32x4_d2) ]
theorem rops_sub_8 : (rops_8 : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., unary_bufs_sub .., unary_bufs_sub .., unary_bufs_sub .., unary_bufs_sub .., nary_bufs_sub ..⟩
theorem rfresh_8 : ∀ op ∈ (rops_8 : List (HloOp τ sig (Elt F))), op.fresh = ∅ := by
  intro _ h; (repeat (cases h with | head => rfl | tail _ h => ?_)); exact nomatch h
/-- The buffers stretch 8 writes. -/
abbrev RW_8 : List (Ref sig .tc) := [main_v162, main_v163, main_cst_52, main_v164, main_c_53, main_v165, main_v166, main_c_54, main_v167, main_v168, main_v169, main_c_55, main_v170, main_v171, main_c_56, main_v172, main_v173, main_v174, main_c_57, main_v175, main_v176, main_c_58, main_v177, main_v178, main_v179, main_v180, main_c_59, main_v181, main_v182, main_v183, main_v184, main_v185, main_v186, main_v187]
theorem rwrites_8 : (rops_8 : List (HloOp τ sig (Elt F))).Forall fun op => op.writes ⊆ (RW_8.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 9: operations 289 … 317 of 647. -/
abbrev rops_9 : List (HloOp τ sig (Elt F)) :=
  [ nullary main_cst_60 (constant S_ .f32 0x3F800000#32),
    unary main_cst_60 main_v188 (broadcastInDim S16x32 ![] bcast_S_S16x32 : (⟨S_, .f32⟩ : BufTy).Contents (Elt F) → (⟨S16x32, .f32⟩ : BufTy).Contents (Elt F)),
    ternary main_v164 main_v187 main_v188 main_v189 ((fun x i u => Host.scatter scatter_S16x40x40x1_S16x32x4_S16x32_n_0123_0123_2 (fun _ b => b) x i u) : (⟨S16x40x40x1, .f32⟩ : BufTy).Contents (Elt F) → (⟨S16x32x4, .i32⟩ : BufTy).Contents (Elt F) → (⟨S16x32, .f32⟩ : BufTy).Contents (Elt F) → (⟨S16x40x40x1, .f32⟩ : BufTy).Contents (Elt F)),
    nullary main_c_61 (constantI S_ 32 0#32),
    unary main_c_61 main_v190 (broadcastInDim S16x1 ![] bcast_S_S16x1 : (⟨S_, .i32⟩ : BufTy).Contents (Elt F) → (⟨S16x1, .i32⟩ : BufTy).Contents (Elt F)),
    binary main_v163 main_v190 main_v191 (cmpi .slt : (⟨S16x1, .i32⟩ : BufTy).Contents (Elt F) → (⟨S16x1, .i32⟩ : BufTy).Contents (Elt F) → (⟨S16x1, .i1⟩ : BufTy).Contents (Elt F)),
    nullary main_c_62 (constantI S_ 32 16#32),
    unary main_c_62 main_v192 (broadcastInDim S16x1 ![] bcast_S_S16x1 : (⟨S_, .i32⟩ : BufTy).Contents (Elt F) → (⟨S16x1, .i32⟩ : BufTy).Contents (Elt F)),
    binary main_v163 main_v192 main_v193 (addi : (⟨S16x1, .i32⟩ : BufTy).Contents (Elt F) → (⟨S16x1, .i32⟩ : BufTy).Contents (Elt F) → (⟨S16x1, .i32⟩ : BufTy).Contents (Elt F)),
    ternary main_v191 main_v193 main_v163 main_v194 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_63 (constantI S_ 32 0#32),
    unary main_c_63 main_v195 (broadcastInDim S16x32 ![] bcast_S_S16x32 : (⟨S_, .i32⟩ : BufTy).Contents (Elt F) → (⟨S16x32, .i32⟩ : BufTy).Contents (Elt F)),
    binary main_v161 main_v195 main_v196 (cmpi .slt : (⟨S16x32, .i32⟩ : BufTy).Contents (Elt F) → (⟨S16x32, .i32⟩ : BufTy).Contents (Elt F) → (⟨S16x32, .i1⟩ : BufTy).Contents (Elt F)),
    nullary main_c_64 (constantI S_ 32 40#32),
    unary main_c_64 main_v197 (broadcastInDim S16x32 ![] bcast_S_S16x32 : (⟨S_, .i32⟩ : BufTy).Contents (Elt F) → (⟨S16x32, .i32⟩ : BufTy).Contents (Elt F)),
    binary main_v161 main_v197 main_v198 (addi : (⟨S16x32, .i32⟩ : BufTy).Contents (Elt F) → (⟨S16x32, .i32⟩ : BufTy).Contents (Elt F) → (⟨S16x32, .i32⟩ : BufTy).Contents (Elt F)),
    ternary main_v196 main_v198 main_v161 main_v199 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_65 (constantI S_ 32 0#32),
    unary main_c_65 main_v200 (broadcastInDim S16x32 ![] bcast_S_S16x32 : (⟨S_, .i32⟩ : BufTy).Contents (Elt F) → (⟨S16x32, .i32⟩ : BufTy).Contents (Elt F)),
    binary main_v159 main_v200 main_v201 (cmpi .slt : (⟨S16x32, .i32⟩ : BufTy).Contents (Elt F) → (⟨S16x32, .i32⟩ : BufTy).Contents (Elt F) → (⟨S16x32, .i1⟩ : BufTy).Contents (Elt F)),
    nullary main_c_66 (constantI S_ 32 40#32),
    unary main_c_66 main_v202 (broadcastInDim S16x32 ![] bcast_S_S16x32 : (⟨S_, .i32⟩ : BufTy).Contents (Elt F) → (⟨S16x32, .i32⟩ : BufTy).Contents (Elt F)),
    binary main_v159 main_v202 main_v203 (addi : (⟨S16x32, .i32⟩ : BufTy).Contents (Elt F) → (⟨S16x32, .i32⟩ : BufTy).Contents (Elt F) → (⟨S16x32, .i32⟩ : BufTy).Contents (Elt F)),
    ternary main_v201 main_v203 main_v159 main_v204 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v194 main_v205 (broadcastInDim S16x32 ![0, 1] bcast_S16x1_S16x32_0_1 : (⟨S16x1, .i32⟩ : BufTy).Contents (Elt F) → (⟨S16x32, .i32⟩ : BufTy).Contents (Elt F)),
    unary main_v205 main_v206 (broadcastInDim S16x32x1 ![0, 1] bcast_S16x32_S16x32x1_0_1 : (⟨S16x32, .i32⟩ : BufTy).Contents (Elt F) → (⟨S16x32x1, .i32⟩ : BufTy).Contents (Elt F)),
    unary main_v199 main_v207 (broadcastInDim S16x32x1 ![0, 1] bcast_S16x32_S16x32x1_0_1 : (⟨S16x32, .i32⟩ : BufTy).Contents (Elt F) → (⟨S16x32x1, .i32⟩ : BufTy).Contents (Elt F)),
    unary main_v204 main_v208 (broadcastInDim S16x32x1 ![0, 1] bcast_S16x32_S16x32x1_0_1 : (⟨S16x32, .i32⟩ : BufTy).Contents (Elt F) → (⟨S16x32x1, .i32⟩ : BufTy).Contents (Elt F)),
    nary ![main_v206, main_v207, main_v208] main_v209 (fun u => concatenate S16x32x3 2 [⟨S16x32x1, u 0⟩, ⟨S16x32x1, u 1⟩, ⟨S16x32x1, u 2⟩] concatenates_S16x32x1_S16x32x1_S16x32x1_S16x32x3_d2) ]
theorem rops_sub_9 : (rops_9 : List (HloOp τ sig (Elt F))).Forall fun op => op.bufs ⊆ tcRefs τ sig :=
  ⟨nullary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub ..⟩
theorem rfresh_9 : ∀ op ∈ (rops_9 : List (HloOp τ sig (Elt F))), op.fresh = ∅ := by
  intro _ h; (repeat (cases h with | head => rfl | tail _ h => ?_)); exact nomatch h
/-- The buffers stretch 9 writes. -/
abbrev RW_9 : List (Ref sig .tc) := [main_cst_60, main_v188, main_v189, main_c_61, main_v190, main_v191, main_c_62, main_v192, main_v193, main_v194, main_c_63, main_v195, main_v196, main_c_64, main_v197, main_v198, main_v199, main_c_65, main_v200, main_v201, main_c_66, main_v202, main_v203, main_v204, main_v205, main_v206, main_v207, main_v208, main_v209]
theorem rwrites_9 : (rops_9 : List (HloOp τ sig (Elt F))).Forall fun op => op.writes ⊆ (RW_9.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 10: operations 318 … 334 of 647. -/
abbrev rops_10 : List (HloOp τ sig (Elt F)) :=
  [ binary main_v140 main_v209 main_v210 ((fun x i => Host.gather gather_S16x40x40x64_S16x32x3_S16x32x64_2_012_n_n_012_2_11164 x i) : (⟨S16x40x40x64, .f32⟩ : BufTy).Contents (Elt F) → (⟨S16x32x3, .i32⟩ : BufTy).Contents (Elt F) → (⟨S16x32x64, .f32⟩ : BufTy).Contents (Elt F)),
    unary main_v210 main_v211 ((extractStridedSlice S16x32x4 ![0, 0, 0] · slices_S16x32x64_S16x32x4_0_0_0) : (⟨S16x32x64, .f32⟩ : BufTy).Contents (Elt F) → (⟨S16x32x4, .f32⟩ : BufTy).Contents (Elt F)),
    unary main_v159 main_v212 (sitofp .f32 : (⟨S16x32, .i32⟩ : BufTy).Contents (Elt F) → (⟨S16x32, .f32⟩ : BufTy).Contents (Elt F)),
    binary main_v145 main_v212 main_v213 (subf : (⟨S16x32, .f32⟩ : BufTy).Contents (Elt F) → (⟨S16x32, .f32⟩ : BufTy).Contents (Elt F) → (⟨S16x32, .f32⟩ : BufTy).Contents (Elt F)),
    unary main_v161 main_v214 (sitofp .f32 : (⟨S16x32, .i32⟩ : BufTy).Contents (Elt F) → (⟨S16x32, .f32⟩ : BufTy).Contents (Elt F)),
    binary main_v149 main_v214 main_v215 (subf : (⟨S16x32, .f32⟩ : BufTy).Contents (Elt F) → (⟨S16x32, .f32⟩ : BufTy).Contents (Elt F) → (⟨S16x32, .f32⟩ : BufTy).Contents (Elt F)),
    nullary main_cst_67 (constant S_ .f32 0x42200000#32),
    unary main_cst_67 main_v216 (broadcastInDim S16x32 ![] bcast_S_S16x32 : (⟨S_, .f32⟩ : BufTy).Contents (Elt F) → (⟨S16x32, .f32⟩ : BufTy).Contents (Elt F)),
    binary main_v153 main_v216 main_v217 (Host.divf : (⟨S16x32, .f32⟩ : BufTy).Contents (Elt F) → (⟨S16x32, .f32⟩ : BufTy).Contents (Elt F) → (⟨S16x32, .f32⟩ : BufTy).Contents (Elt F)),
    nullary main_cst_68 (constant S_ .f32 0x42200000#32),
    unary main_cst_68 main_v218 (broadcastInDim S16x32 ![] bcast_S_S16x32 : (⟨S_, .f32⟩ : BufTy).Contents (Elt F) → (⟨S16x32, .f32⟩ : BufTy).Contents (Elt F)),
    binary main_v157 main_v218 main_v219 (Host.divf : (⟨S16x32, .f32⟩ : BufTy).Contents (Elt F) → (⟨S16x32, .f32⟩ : BufTy).Contents (Elt F) → (⟨S16x32, .f32⟩ : BufTy).Contents (Elt F)),
    unary main_v213 main_v220 (broadcastInDim S16x32x1 ![0, 1] bcast_S16x32_S16x32x1_0_1 : (⟨S16x32, .f32⟩ : BufTy).Contents (Elt F) → (⟨S16x32x1, .f32⟩ : BufTy).Contents (Elt F)),
    unary main_v215 main_v221 (broadcastInDim S16x32x1 ![0, 1] bcast_S16x32_S16x32x1_0_1 : (⟨S16x32, .f32⟩ : BufTy).Contents (Elt F) → (⟨S16x32x1, .f32⟩ : BufTy).Contents (Elt F)),
    unary main_v217 main_v222 (broadcastInDim S16x32x1 ![0, 1] bcast_S16x32_S16x32x1_0_1 : (⟨S16x32, .f32⟩ : BufTy).Contents (Elt F) → (⟨S16x32x1, .f32⟩ : BufTy).Contents (Elt F)),
    unary main_v219 main_v223 (broadcastInDim S16x32x1 ![0, 1] bcast_S16x32_S16x32x1_0_1 : (⟨S16x32, .f32⟩ : BufTy).Contents (Elt F) → (⟨S16x32x1, .f32⟩ : BufTy).Contents (Elt F)),
    nary ![main_v220, main_v221, main_v222, main_v223] main_v224 (fun u => concatenate S16x32x4 2 [⟨S16x32x1, u 0⟩, ⟨S16x32x1, u 1⟩, ⟨S16x32x1, u 2⟩, ⟨S16x32x1, u 3⟩] concatenates_S16x32x1_S16x32x1_S16x32x1_S16x32x1_S16x32x4_d2) ]
theorem rops_sub_10 : (rops_10 : List (HloOp τ sig (Elt F))).Forall fun op => op.bufs ⊆ tcRefs τ sig :=
  ⟨binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., nary_bufs_sub ..⟩
theorem rfresh_10 : ∀ op ∈ (rops_10 : List (HloOp τ sig (Elt F))), op.fresh = ∅ := by
  intro _ h; (repeat (cases h with | head => rfl | tail _ h => ?_)); exact nomatch h
/-- The buffers stretch 10 writes. -/
abbrev RW_10 : List (Ref sig .tc) := [main_v210, main_v211, main_v212, main_v213, main_v214, main_v215, main_cst_67, main_v216, main_v217, main_cst_68, main_v218, main_v219, main_v220, main_v221, main_v222, main_v223, main_v224]
theorem rwrites_10 : (rops_10 : List (HloOp τ sig (Elt F))).Forall fun op => op.writes ⊆ (RW_10.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 11: operations 335 … 369 of 647. -/
abbrev rops_11 : List (HloOp τ sig (Elt F)) :=
  [ binary main_v211 main_v224 main_v225 (subf : (⟨S16x32x4, .f32⟩ : BufTy).Contents (Elt F) → (⟨S16x32x4, .f32⟩ : BufTy).Contents (Elt F) → (⟨S16x32x4, .f32⟩ : BufTy).Contents (Elt F)),
    binary main_v225 main_v225 main_v226 (mulf : (⟨S16x32x4, .f32⟩ : BufTy).Contents (Elt F) → (⟨S16x32x4, .f32⟩ : BufTy).Contents (Elt F) → (⟨S16x32x4, .f32⟩ : BufTy).Contents (Elt F)),
    nullary main_cst_69 (constant S_ .f32 0x00000000#32),
    binary main_v226 main_cst_69 main_v227 ((fun x v => Host.reduceAdd x v reducesTo_S16x32x4_S16x32_d2 h_S_) : (⟨S16x32x4, .f32⟩ : BufTy).Contents (Elt F) → (⟨S_, .f32⟩ : BufTy).Contents (Elt F) → (⟨S16x32, .f32⟩ : BufTy).Contents (Elt F)),
    nullary main_cst_70 (constant S_ .f32 0x40800000#32),
    unary main_cst_70 main_v228 (broadcastInDim S16x32 ![] bcast_S_S16x32 : (⟨S_, .f32⟩ : BufTy).Contents (Elt F) → (⟨S16x32, .f32⟩ : BufTy).Contents (Elt F)),
    binary main_v227 main_v228 main_v229 (Host.divf : (⟨S16x32, .f32⟩ : BufTy).Contents (Elt F) → (⟨S16x32, .f32⟩ : BufTy).Contents (Elt F) → (⟨S16x32, .f32⟩ : BufTy).Contents (Elt F)),
    nullary main_cst_71 (constant S_ .f32 0x00000000#32),
    binary main_v229 main_cst_71 main_v230 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    nullary main_c_72 (constantI S_ 32 0#32),
    unary main_c_72 main_v231 (broadcastInDim S16x1 ![] bcast_S_S16x1 : (⟨S_, .i32⟩ : BufTy).Contents (Elt F) → (⟨S16x1, .i32⟩ : BufTy).Contents (Elt F)),
    binary main_v163 main_v231 main_v232 (cmpi .slt : (⟨S16x1, .i32⟩ : BufTy).Contents (Elt F) → (⟨S16x1, .i32⟩ : BufTy).Contents (Elt F) → (⟨S16x1, .i1⟩ : BufTy).Contents (Elt F)),
    nullary main_c_73 (constantI S_ 32 16#32),
    unary main_c_73 main_v233 (broadcastInDim S16x1 ![] bcast_S_S16x1 : (⟨S_, .i32⟩ : BufTy).Contents (Elt F) → (⟨S16x1, .i32⟩ : BufTy).Contents (Elt F)),
    binary main_v163 main_v233 main_v234 (addi : (⟨S16x1, .i32⟩ : BufTy).Contents (Elt F) → (⟨S16x1, .i32⟩ : BufTy).Contents (Elt F) → (⟨S16x1, .i32⟩ : BufTy).Contents (Elt F)),
    ternary main_v232 main_v234 main_v163 main_v235 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_74 (constantI S_ 32 0#32),
    unary main_c_74 main_v236 (broadcastInDim S16x32 ![] bcast_S_S16x32 : (⟨S_, .i32⟩ : BufTy).Contents (Elt F) → (⟨S16x32, .i32⟩ : BufTy).Contents (Elt F)),
    binary main_v161 main_v236 main_v237 (cmpi .slt : (⟨S16x32, .i32⟩ : BufTy).Contents (Elt F) → (⟨S16x32, .i32⟩ : BufTy).Contents (Elt F) → (⟨S16x32, .i1⟩ : BufTy).Contents (Elt F)),
    nullary main_c_75 (constantI S_ 32 40#32),
    unary main_c_75 main_v238 (broadcastInDim S16x32 ![] bcast_S_S16x32 : (⟨S_, .i32⟩ : BufTy).Contents (Elt F) → (⟨S16x32, .i32⟩ : BufTy).Contents (Elt F)),
    binary main_v161 main_v238 main_v239 (addi : (⟨S16x32, .i32⟩ : BufTy).Contents (Elt F) → (⟨S16x32, .i32⟩ : BufTy).Contents (Elt F) → (⟨S16x32, .i32⟩ : BufTy).Contents (Elt F)),
    ternary main_v237 main_v239 main_v161 main_v240 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_76 (constantI S_ 32 0#32),
    unary main_c_76 main_v241 (broadcastInDim S16x32 ![] bcast_S_S16x32 : (⟨S_, .i32⟩ : BufTy).Contents (Elt F) → (⟨S16x32, .i32⟩ : BufTy).Contents (Elt F)),
    binary main_v159 main_v241 main_v242 (cmpi .slt : (⟨S16x32, .i32⟩ : BufTy).Contents (Elt F) → (⟨S16x32, .i32⟩ : BufTy).Contents (Elt F) → (⟨S16x32, .i1⟩ : BufTy).Contents (Elt F)),
    nullary main_c_77 (constantI S_ 32 40#32),
    unary main_c_77 main_v243 (broadcastInDim S16x32 ![] bcast_S_S16x32 : (⟨S_, .i32⟩ : BufTy).Contents (Elt F) → (⟨S16x32, .i32⟩ : BufTy).Contents (Elt F)),
    binary main_v159 main_v243 main_v244 (addi : (⟨S16x32, .i32⟩ : BufTy).Contents (Elt F) → (⟨S16x32, .i32⟩ : BufTy).Contents (Elt F) → (⟨S16x32, .i32⟩ : BufTy).Contents (Elt F)),
    ternary main_v242 main_v244 main_v159 main_v245 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v235 main_v246 (broadcastInDim S16x32 ![0, 1] bcast_S16x1_S16x32_0_1 : (⟨S16x1, .i32⟩ : BufTy).Contents (Elt F) → (⟨S16x32, .i32⟩ : BufTy).Contents (Elt F)),
    unary main_v246 main_v247 (broadcastInDim S16x32x1 ![0, 1] bcast_S16x32_S16x32x1_0_1 : (⟨S16x32, .i32⟩ : BufTy).Contents (Elt F) → (⟨S16x32x1, .i32⟩ : BufTy).Contents (Elt F)),
    unary main_v240 main_v248 (broadcastInDim S16x32x1 ![0, 1] bcast_S16x32_S16x32x1_0_1 : (⟨S16x32, .i32⟩ : BufTy).Contents (Elt F) → (⟨S16x32x1, .i32⟩ : BufTy).Contents (Elt F)),
    unary main_v245 main_v249 (broadcastInDim S16x32x1 ![0, 1] bcast_S16x32_S16x32x1_0_1 : (⟨S16x32, .i32⟩ : BufTy).Contents (Elt F) → (⟨S16x32x1, .i32⟩ : BufTy).Contents (Elt F)),
    nary ![main_v247, main_v248, main_v249] main_v250 (fun u => concatenate S16x32x3 2 [⟨S16x32x1, u 0⟩, ⟨S16x32x1, u 1⟩, ⟨S16x32x1, u 2⟩] concatenates_S16x32x1_S16x32x1_S16x32x1_S16x32x3_d2) ]
theorem rops_sub_11 : (rops_11 : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub ..⟩
theorem rfresh_11 : ∀ op ∈ (rops_11 : List (HloOp τ sig (Elt F))), op.fresh = ∅ := by
  intro _ h; (repeat (cases h with | head => rfl | tail _ h => ?_)); exact nomatch h
/-- The buffers stretch 11 writes. -/
abbrev RW_11 : List (Ref sig .tc) := [main_v225, main_v226, main_cst_69, main_v227, main_cst_70, main_v228, main_v229, main_cst_71, main_v230, main_c_72, main_v231, main_v232, main_c_73, main_v233, main_v234, main_v235, main_c_74, main_v236, main_v237, main_c_75, main_v238, main_v239, main_v240, main_c_76, main_v241, main_v242, main_c_77, main_v243, main_v244, main_v245, main_v246, main_v247, main_v248, main_v249, main_v250]
theorem rwrites_11 : (rops_11 : List (HloOp τ sig (Elt F))).Forall fun op => op.writes ⊆ (RW_11.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 12: operations 370 … 408 of 647. -/
abbrev rops_12 : List (HloOp τ sig (Elt F)) :=
  [ binary main_v141 main_v250 main_v251 ((fun x i => Host.gather gather_S16x40x40x80_S16x32x3_S16x32x80_2_012_n_n_012_2_11180 x i) : (⟨S16x40x40x80, .f32⟩ : BufTy).Contents (Elt F) → (⟨S16x32x3, .i32⟩ : BufTy).Contents (Elt F) → (⟨S16x32x80, .f32⟩ : BufTy).Contents (Elt F)),
    TRef.unary (TRef.of (T := ⟨S16x32, .i32⟩) main_arg4) (TRef.of (T := ⟨S16x32x1, .i32⟩) main_call6_v0) (broadcastInDim S16x32x1 ![0, 1] bcast_S16x32_S16x32x1_0_1),
    TRef.nullary (TRef.of (T := ⟨S1x1x80, .i32⟩) main_call6_v1) (iotaInDim S1x1x80 32 2),
    TRef.unary (TRef.of (T := ⟨S16x32x1, .i32⟩) main_call6_v0) (TRef.of (T := ⟨S16x32x80, .i32⟩) main_call6_v2) (broadcastInDim S16x32x80 ![0, 1, 2] bcast_S16x32x1_S16x32x80_0_1_2),
    TRef.unary (TRef.of (T := ⟨S1x1x80, .i32⟩) main_call6_v1) (TRef.of (T := ⟨S16x32x80, .i32⟩) main_call6_v3) (broadcastInDim S16x32x80 ![0, 1, 2] bcast_S1x1x80_S16x32x80_0_1_2),
    TRef.binary (TRef.of (T := ⟨S16x32x80, .i32⟩) main_call6_v2) (TRef.of (T := ⟨S16x32x80, .i32⟩) main_call6_v3) (TRef.of (T := ⟨S16x32x80, .i1⟩) main_call6_v4) (cmpi .eq),
    TRef.unary (TRef.of (T := ⟨S16x32x80, .i1⟩) main_call6_v4) (TRef.of (T := ⟨S16x32x80, .f32⟩) main_v252) (uitofp .f32),
    TRef.nullary (TRef.of (T := ⟨S_, .f32⟩) main_call7_cst) (constant S_ .f32 0x00000000#32),
    TRef.unary (TRef.of (T := ⟨S_, .f32⟩) main_call7_cst) (TRef.of (T := ⟨S16x32x80, .f32⟩) main_call7_v0) (broadcastInDim S16x32x80 ![] bcast_S_S16x32x80),
    TRef.binary (TRef.of (T := ⟨S16x32x80, .f32⟩) main_v251) (TRef.of (T := ⟨S16x32x80, .f32⟩) main_call7_v0) (TRef.of (T := ⟨S16x32x80, .f32⟩) main_call7_v1) maximumf,
    TRef.unary (TRef.of (T := ⟨S_, .f32⟩) main_call7_cst) (TRef.of (T := ⟨S16x32x80, .f32⟩) main_call7_v2) (broadcastInDim S16x32x80 ![] bcast_S_S16x32x80),
    TRef.binary (TRef.of (T := ⟨S16x32x80, .f32⟩) main_v251) (TRef.of (T := ⟨S16x32x80, .f32⟩) main_call7_v2) (TRef.of (T := ⟨S16x32x80, .f32⟩) main_call7_v3) subf,
    TRef.binary (TRef.of (T := ⟨S16x32x80, .f32⟩) main_call7_v3) (TRef.of (T := ⟨S16x32x80, .f32⟩) main_call7_v3) (TRef.of (T := ⟨S16x32x80, .i1⟩) main_call7_v4) (cmpf .une),
    TRef.unary (TRef.of (T := ⟨S_, .f32⟩) main_call7_cst) (TRef.of (T := ⟨S16x32x80, .f32⟩) main_call7_v5) (broadcastInDim S16x32x80 ![] bcast_S_S16x32x80),
    TRef.binary (TRef.of (T := ⟨S16x32x80, .f32⟩) main_v251) (TRef.of (T := ⟨S16x32x80, .f32⟩) main_call7_v5) (TRef.of (T := ⟨S16x32x80, .f32⟩) main_call7_v6) addf,
    TRef.unary (TRef.of (T := ⟨S16x32x80, .f32⟩) main_call7_v3) (TRef.of (T := ⟨S16x32x80, .f32⟩) main_call7_v7) Host.absf,
    TRef.unary (TRef.of (T := ⟨S16x32x80, .f32⟩) main_call7_v7) (TRef.of (T := ⟨S16x32x80, .f32⟩) main_call7_v8) Host.negf,
    TRef.unary (TRef.of (T := ⟨S16x32x80, .f32⟩) main_call7_v8) (TRef.of (T := ⟨S16x32x80, .f32⟩) main_call7_v9) Host.exp,
    TRef.unary (TRef.of (T := ⟨S16x32x80, .f32⟩) main_call7_v9) (TRef.of (T := ⟨S16x32x80, .f32⟩) main_call7_v10) Host.log1p,
    TRef.binary (TRef.of (T := ⟨S16x32x80, .f32⟩) main_call7_v1) (TRef.of (T := ⟨S16x32x80, .f32⟩) main_call7_v10) (TRef.of (T := ⟨S16x32x80, .f32⟩) main_call7_v11) addf,
    TRef.ternary (TRef.of (T := ⟨S16x32x80, .i1⟩) main_call7_v4) (TRef.of (T := ⟨S16x32x80, .f32⟩) main_call7_v6) (TRef.of (T := ⟨S16x32x80, .f32⟩) main_call7_v11) (TRef.of (T := ⟨S16x32x80, .f32⟩) main_v253) select,
    binary main_v251 main_v252 main_v254 (mulf : (⟨S16x32x80, .f32⟩ : BufTy).Contents (Elt F) → (⟨S16x32x80, .f32⟩ : BufTy).Contents (Elt F) → (⟨S16x32x80, .f32⟩ : BufTy).Contents (Elt F)),
    binary main_v253 main_v254 main_v255 (subf : (⟨S16x32x80, .f32⟩ : BufTy).Contents (Elt F) → (⟨S16x32x80, .f32⟩ : BufTy).Contents (Elt F) → (⟨S16x32x80, .f32⟩ : BufTy).Contents (Elt F)),
    nullary main_cst_78 (constant S_ .f32 0x00000000#32),
    binary main_v255 main_cst_78 main_v256 ((fun x v => Host.reduceAdd x v reducesTo_S16x32x80_S16x32_d2 h_S_) : (⟨S16x32x80, .f32⟩ : BufTy).Contents (Elt F) → (⟨S_, .f32⟩ : BufTy).Contents (Elt F) → (⟨S16x32, .f32⟩ : BufTy).Contents (Elt F)),
    nullary main_cst_79 (constant S_ .f32 0x42A00000#32),
    unary main_cst_79 main_v257 (broadcastInDim S16x32 ![] bcast_S_S16x32 : (⟨S_, .f32⟩ : BufTy).Contents (Elt F) → (⟨S16x32, .f32⟩ : BufTy).Contents (Elt F)),
    binary main_v256 main_v257 main_v258 (Host.divf : (⟨S16x32, .f32⟩ : BufTy).Contents (Elt F) → (⟨S16x32, .f32⟩ : BufTy).Contents (Elt F) → (⟨S16x32, .f32⟩ : BufTy).Contents (Elt F)),
    nullary main_cst_80 (constant S_ .f32 0x00000000#32),
    binary main_v258 main_cst_80 main_v259 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    unary main_v140 main_v260 ((extractStridedSlice S16x40x40x4 ![0, 0, 0, 0] · slices_S16x40x40x64_S16x40x40x4_0_0_0_0) : (⟨S16x40x40x64, .f32⟩ : BufTy).Contents (Elt F) → (⟨S16x40x40x4, .f32⟩ : BufTy).Contents (Elt F)),
    nullary main_cst_81 (constant S_ .f32 0x00000000#32),
    binary main_v260 main_cst_81 main_v261 ((fun x v => Host.reduceAdd x v reducesTo_S16x40x40x4_S16x40x40_d3 h_S_) : (⟨S16x40x40x4, .f32⟩ : BufTy).Contents (Elt F) → (⟨S_, .f32⟩ : BufTy).Contents (Elt F) → (⟨S16x40x40, .f32⟩ : BufTy).Contents (Elt F)),
    unary main_v261 main_v262 (broadcastInDim S16x40x40x1 ![0, 1, 2] bcast_S16x40x40_S16x40x40x1_0_1_2 : (⟨S16x40x40, .f32⟩ : BufTy).Contents (Elt F) → (⟨S16x40x40x1, .f32⟩ : BufTy).Contents (Elt F)),
    nullary main_cst_82 (constant S_ .f32 0x40800000#32),
    unary main_cst_82 main_v263 (broadcastInDim S16x40x40x1 ![] bcast_S_S16x40x40x1 : (⟨S_, .f32⟩ : BufTy).Contents (Elt F) → (⟨S16x40x40x1, .f32⟩ : BufTy).Contents (Elt F)),
    binary main_v262 main_v263 main_v264 (Host.divf : (⟨S16x40x40x1, .f32⟩ : BufTy).Contents (Elt F) → (⟨S16x40x40x1, .f32⟩ : BufTy).Contents (Elt F) → (⟨S16x40x40x1, .f32⟩ : BufTy).Contents (Elt F)),
    unary main_v264 main_v265 (Host.negf : (⟨S16x40x40x1, .f32⟩ : BufTy).Contents (Elt F) → (⟨S16x40x40x1, .f32⟩ : BufTy).Contents (Elt F)),
    unary main_v265 main_v266 (Host.exp : (⟨S16x40x40x1, .f32⟩ : BufTy).Contents (Elt F) → (⟨S16x40x40x1, .f32⟩ : BufTy).Contents (Elt F)) ]
theorem rops_sub_12 : (rops_12 : List (HloOp τ sig (Elt F))).Forall fun op => op.bufs ⊆ tcRefs τ sig :=
  ⟨binary_bufs_sub .., unary_bufs_sub .., nullary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., nullary_bufs_sub .., binary_bufs_sub .., nullary_bufs_sub .., unary_bufs_sub .., binary_bufs_sub .., nullary_bufs_sub .., binary_bufs_sub .., unary_bufs_sub .., nullary_bufs_sub .., binary_bufs_sub .., unary_bufs_sub .., nullary_bufs_sub .., unary_bufs_sub .., binary_bufs_sub .., unary_bufs_sub .., unary_bufs_sub ..⟩
theorem rfresh_12 : ∀ op ∈ (rops_12 : List (HloOp τ sig (Elt F))), op.fresh = ∅ := by
  intro _ h; (repeat (cases h with | head => rfl | tail _ h => ?_)); exact nomatch h
/-- The buffers stretch 12 writes. -/
abbrev RW_12 : List (Ref sig .tc) := [main_v251, main_call6_v0, main_call6_v1, main_call6_v2, main_call6_v3, main_call6_v4, main_v252, main_call7_cst, main_call7_v0, main_call7_v1, main_call7_v2, main_call7_v3, main_call7_v4, main_call7_v5, main_call7_v6, main_call7_v7, main_call7_v8, main_call7_v9, main_call7_v10, main_call7_v11, main_v253, main_v254, main_v255, main_cst_78, main_v256, main_cst_79, main_v257, main_v258, main_cst_80, main_v259, main_v260, main_cst_81, main_v261, main_v262, main_cst_82, main_v263, main_v264, main_v265, main_v266]
theorem rwrites_12 : (rops_12 : List (HloOp τ sig (Elt F))).Forall fun op => op.writes ⊆ (RW_12.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 13: operations 409 … 424 of 647. -/
abbrev rops_13 : List (HloOp τ sig (Elt F)) :=
  [ nullary main_cst_83 (constant S_ .f32 0x3F800000#32),
    unary main_cst_83 main_v267 (broadcastInDim S16x40x40x1 ![] bcast_S_S16x40x40x1 : (⟨S_, .f32⟩ : BufTy).Contents (Elt F) → (⟨S16x40x40x1, .f32⟩ : BufTy).Contents (Elt F)),
    binary main_v267 main_v266 main_v268 (addf : (⟨S16x40x40x1, .f32⟩ : BufTy).Contents (Elt F) → (⟨S16x40x40x1, .f32⟩ : BufTy).Contents (Elt F) → (⟨S16x40x40x1, .f32⟩ : BufTy).Contents (Elt F)),
    nullary main_cst_84 (constant S_ .f32 0x3F800000#32),
    unary main_cst_84 main_v269 (broadcastInDim S16x40x40x1 ![] bcast_S_S16x40x40x1 : (⟨S_, .f32⟩ : BufTy).Contents (Elt F) → (⟨S16x40x40x1, .f32⟩ : BufTy).Contents (Elt F)),
    binary main_v269 main_v268 main_v270 (Host.divf : (⟨S16x40x40x1, .f32⟩ : BufTy).Contents (Elt F) → (⟨S16x40x40x1, .f32⟩ : BufTy).Contents (Elt F) → (⟨S16x40x40x1, .f32⟩ : BufTy).Contents (Elt F)),
    binary main_v270 main_v189 main_v271 (subf : (⟨S16x40x40x1, .f32⟩ : BufTy).Contents (Elt F) → (⟨S16x40x40x1, .f32⟩ : BufTy).Contents (Elt F) → (⟨S16x40x40x1, .f32⟩ : BufTy).Contents (Elt F)),
    binary main_v271 main_v271 main_v272 (mulf : (⟨S16x40x40x1, .f32⟩ : BufTy).Contents (Elt F) → (⟨S16x40x40x1, .f32⟩ : BufTy).Contents (Elt F) → (⟨S16x40x40x1, .f32⟩ : BufTy).Contents (Elt F)),
    nullary main_cst_85 (constant S_ .f32 0x00000000#32),
    binary main_v272 main_cst_85 main_v273 ((fun x v => Host.reduceAdd x v reducesTo_S16x40x40x1_S_d0_1_2_3 h_S_) : (⟨S16x40x40x1, .f32⟩ : BufTy).Contents (Elt F) → (⟨S_, .f32⟩ : BufTy).Contents (Elt F) → (⟨S_, .f32⟩ : BufTy).Contents (Elt F)),
    nullary main_cst_86 (constant S_ .f32 0x46C80000#32),
    binary main_v273 main_cst_86 main_v274 (Host.divf : (⟨S_, .f32⟩ : BufTy).Contents (Elt F) → (⟨S_, .f32⟩ : BufTy).Contents (Elt F) → (⟨S_, .f32⟩ : BufTy).Contents (Elt F)),
    binary main_v136 main_v230 main_v275 (addf : (⟨S_, .f32⟩ : BufTy).Contents (Elt F) → (⟨S_, .f32⟩ : BufTy).Contents (Elt F) → (⟨S_, .f32⟩ : BufTy).Contents (Elt F)),
    binary main_v137 main_v274 main_v276 (addf : (⟨S_, .f32⟩ : BufTy).Contents (Elt F) → (⟨S_, .f32⟩ : BufTy).Contents (Elt F) → (⟨S_, .f32⟩ : BufTy).Contents (Elt F)),
    binary main_v138 main_v259 main_v277 (addf : (⟨S_, .f32⟩ : BufTy).Contents (Elt F) → (⟨S_, .f32⟩ : BufTy).Contents (Elt F) → (⟨S_, .f32⟩ : BufTy).Contents (Elt F)),
    unary main_arg2 main_v278 ((transpose S16x20x20x144 [0, 2, 3, 1] · transposes_S16x144x20x20_S16x20x20x144_0_2_3_1) : (⟨S16x144x20x20, .f32⟩ : BufTy).Contents (Elt F) → (⟨S16x20x20x144, .f32⟩ : BufTy).Contents (Elt F)) ]
theorem rops_sub_13 : (rops_13 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., nullary_bufs_sub .., binary_bufs_sub .., nullary_bufs_sub .., binary_bufs_sub .., binary_bufs_sub .., binary_bufs_sub .., binary_bufs_sub .., unary_bufs_sub ..⟩
theorem rfresh_13 : ∀ op ∈ (rops_13 : List (HloOp τ sig (Elt F))), op.fresh = ∅ := by
  intro _ h; (repeat (cases h with | head => rfl | tail _ h => ?_)); exact nomatch h
/-- The buffers stretch 13 writes. -/
abbrev RW_13 : List (Ref sig .tc) := [main_cst_83, main_v267, main_v268, main_cst_84, main_v269, main_v270, main_v271, main_v272, main_cst_85, main_v273, main_cst_86, main_v274, main_v275, main_v276, main_v277, main_v278]
theorem rwrites_13 : (rops_13 : List (HloOp τ sig (Elt F))).Forall fun op => op.writes ⊆ (RW_13.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 14: operations 425 … 464 of 647. -/
abbrev rops_14 : List (HloOp τ sig (Elt F)) :=
  [ unary main_v278 main_v279 ((extractStridedSlice S16x20x20x64 ![0, 0, 0, 0] · slices_S16x20x20x144_S16x20x20x64_0_0_0_0) : (⟨S16x20x20x144, .f32⟩ : BufTy).Contents (Elt F) → (⟨S16x20x20x64, .f32⟩ : BufTy).Contents (Elt F)),
    unary main_v278 main_v280 ((extractStridedSlice S16x20x20x80 ![0, 0, 0, 64] · slices_S16x20x20x144_S16x20x20x80_0_0_0_64) : (⟨S16x20x20x144, .f32⟩ : BufTy).Contents (Elt F) → (⟨S16x20x20x80, .f32⟩ : BufTy).Contents (Elt F)),
    unary main_arg3 main_v281 ((extractStridedSlice S16x32x1 ![0, 0, 0] · slices_S16x32x4_S16x32x1_0_0_0) : (⟨S16x32x4, .f32⟩ : BufTy).Contents (Elt F) → (⟨S16x32x1, .f32⟩ : BufTy).Contents (Elt F)),
    reshape main_v281 main_v282 rfl shapeCasts_S16x32x1_S16x32,
    nullary main_cst_87 (constant S_ .f32 0x41A00000#32),
    unary main_cst_87 main_v283 (broadcastInDim S16x32 ![] bcast_S_S16x32 : (⟨S_, .f32⟩ : BufTy).Contents (Elt F) → (⟨S16x32, .f32⟩ : BufTy).Contents (Elt F)),
    binary main_v282 main_v283 main_v284 (mulf : (⟨S16x32, .f32⟩ : BufTy).Contents (Elt F) → (⟨S16x32, .f32⟩ : BufTy).Contents (Elt F) → (⟨S16x32, .f32⟩ : BufTy).Contents (Elt F)),
    unary main_arg3 main_v285 ((extractStridedSlice S16x32x1 ![0, 0, 1] · slices_S16x32x4_S16x32x1_0_0_1) : (⟨S16x32x4, .f32⟩ : BufTy).Contents (Elt F) → (⟨S16x32x1, .f32⟩ : BufTy).Contents (Elt F)),
    reshape main_v285 main_v286 rfl shapeCasts_S16x32x1_S16x32,
    nullary main_cst_88 (constant S_ .f32 0x41A00000#32),
    unary main_cst_88 main_v287 (broadcastInDim S16x32 ![] bcast_S_S16x32 : (⟨S_, .f32⟩ : BufTy).Contents (Elt F) → (⟨S16x32, .f32⟩ : BufTy).Contents (Elt F)),
    binary main_v286 main_v287 main_v288 (mulf : (⟨S16x32, .f32⟩ : BufTy).Contents (Elt F) → (⟨S16x32, .f32⟩ : BufTy).Contents (Elt F) → (⟨S16x32, .f32⟩ : BufTy).Contents (Elt F)),
    unary main_arg3 main_v289 ((extractStridedSlice S16x32x1 ![0, 0, 2] · slices_S16x32x4_S16x32x1_0_0_2) : (⟨S16x32x4, .f32⟩ : BufTy).Contents (Elt F) → (⟨S16x32x1, .f32⟩ : BufTy).Contents (Elt F)),
    reshape main_v289 main_v290 rfl shapeCasts_S16x32x1_S16x32,
    nullary main_cst_89 (constant S_ .f32 0x41A00000#32),
    unary main_cst_89 main_v291 (broadcastInDim S16x32 ![] bcast_S_S16x32 : (⟨S_, .f32⟩ : BufTy).Contents (Elt F) → (⟨S16x32, .f32⟩ : BufTy).Contents (Elt F)),
    binary main_v290 main_v291 main_v292 (mulf : (⟨S16x32, .f32⟩ : BufTy).Contents (Elt F) → (⟨S16x32, .f32⟩ : BufTy).Contents (Elt F) → (⟨S16x32, .f32⟩ : BufTy).Contents (Elt F)),
    unary main_arg3 main_v293 ((extractStridedSlice S16x32x1 ![0, 0, 3] · slices_S16x32x4_S16x32x1_0_0_3) : (⟨S16x32x4, .f32⟩ : BufTy).Contents (Elt F) → (⟨S16x32x1, .f32⟩ : BufTy).Contents (Elt F)),
    reshape main_v293 main_v294 rfl shapeCasts_S16x32x1_S16x32,
    nullary main_cst_90 (constant S_ .f32 0x41A00000#32),
    unary main_cst_90 main_v295 (broadcastInDim S16x32 ![] bcast_S_S16x32 : (⟨S_, .f32⟩ : BufTy).Contents (Elt F) → (⟨S16x32, .f32⟩ : BufTy).Contents (Elt F)),
    binary main_v294 main_v295 main_v296 (mulf : (⟨S16x32, .f32⟩ : BufTy).Contents (Elt F) → (⟨S16x32, .f32⟩ : BufTy).Contents (Elt F) → (⟨S16x32, .f32⟩ : BufTy).Contents (Elt F)),
    unary main_v284 main_v297 (fptosi 32 : (⟨S16x32, .f32⟩ : BufTy).Contents (Elt F) → (⟨S16x32, .i32⟩ : BufTy).Contents (Elt F)),
    nullary main_c_91 (constantI S_ 32 0#32),
    nullary main_c_92 (constantI S_ 32 19#32),
    TRef.unary (TRef.of (T := ⟨S_, .i32⟩) main_c_91) (TRef.of (T := ⟨S_, .i32⟩) main_call8_v0) id,
    TRef.unary (TRef.of (T := ⟨S_, .i32⟩) main_call8_v0) (TRef.of (T := ⟨S16x32, .i32⟩) main_call8_v1) (broadcastInDim S16x32 ![] bcast_S_S16x32),
    TRef.binary (TRef.of (T := ⟨S16x32, .i32⟩) main_call8_v1) (TRef.of (T := ⟨S16x32, .i32⟩) main_v297) (TRef.of (T := ⟨S16x32, .i32⟩) main_call8_v2) maxsi,
    TRef.unary (TRef.of (T := ⟨S_, .i32⟩) main_c_92) (TRef.of (T := ⟨S_, .i32⟩) main_call8_v3) id,
    TRef.unary (TRef.of (T := ⟨S_, .i32⟩) main_call8_v3) (TRef.of (T := ⟨S16x32, .i32⟩) main_call8_v4) (broadcastInDim S16x32 ![] bcast_S_S16x32),
    TRef.binary (TRef.of (T := ⟨S16x32, .i32⟩) main_call8_v4) (TRef.of (T := ⟨S16x32, .i32⟩) main_call8_v2) (TRef.of (T := ⟨S16x32, .i32⟩) main_v298) minsi,
    unary main_v288 main_v299 (fptosi 32 : (⟨S16x32, .f32⟩ : BufTy).Contents (Elt F) → (⟨S16x32, .i32⟩ : BufTy).Contents (Elt F)),
    nullary main_c_93 (constantI S_ 32 0#32),
    nullary main_c_94 (constantI S_ 32 19#32),
    TRef.unary (TRef.of (T := ⟨S_, .i32⟩) main_c_93) (TRef.of (T := ⟨S_, .i32⟩) main_call9_v0) id,
    TRef.unary (TRef.of (T := ⟨S_, .i32⟩) main_call9_v0) (TRef.of (T := ⟨S16x32, .i32⟩) main_call9_v1) (broadcastInDim S16x32 ![] bcast_S_S16x32),
    TRef.binary (TRef.of (T := ⟨S16x32, .i32⟩) main_call9_v1) (TRef.of (T := ⟨S16x32, .i32⟩) main_v299) (TRef.of (T := ⟨S16x32, .i32⟩) main_call9_v2) maxsi,
    TRef.unary (TRef.of (T := ⟨S_, .i32⟩) main_c_94) (TRef.of (T := ⟨S_, .i32⟩) main_call9_v3) id,
    TRef.unary (TRef.of (T := ⟨S_, .i32⟩) main_call9_v3) (TRef.of (T := ⟨S16x32, .i32⟩) main_call9_v4) (broadcastInDim S16x32 ![] bcast_S_S16x32),
    TRef.binary (TRef.of (T := ⟨S16x32, .i32⟩) main_call9_v4) (TRef.of (T := ⟨S16x32, .i32⟩) main_call9_v2) (TRef.of (T := ⟨S16x32, .i32⟩) main_v300) minsi ]
theorem rops_sub_14 : (rops_14 : List (HloOp τ sig (Elt F))).Forall fun op => op.bufs ⊆ tcRefs τ sig :=
  ⟨unary_bufs_sub .., unary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub ..⟩
theorem rfresh_14 : ∀ op ∈ (rops_14 : List (HloOp τ sig (Elt F))), op.fresh = ∅ := by
  intro _ h; (repeat (cases h with | head => rfl | tail _ h => ?_)); exact nomatch h
/-- The buffers stretch 14 writes. -/
abbrev RW_14 : List (Ref sig .tc) := [main_v279, main_v280, main_v281, main_v282, main_cst_87, main_v283, main_v284, main_v285, main_v286, main_cst_88, main_v287, main_v288, main_v289, main_v290, main_cst_89, main_v291, main_v292, main_v293, main_v294, main_cst_90, main_v295, main_v296, main_v297, main_c_91, main_c_92, main_call8_v0, main_call8_v1, main_call8_v2, main_call8_v3, main_call8_v4, main_v298, main_v299, main_c_93, main_c_94, main_call9_v0, main_call9_v1, main_call9_v2, main_call9_v3, main_call9_v4, main_v300]
theorem rwrites_14 : (rops_14 : List (HloOp τ sig (Elt F))).Forall fun op => op.writes ⊆ (RW_14.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 15: operations 465 … 498 of 647. -/
abbrev rops_15 : List (HloOp τ sig (Elt F)) :=
  [ nullary main_v301 (iotaInDim S16 32 0),
    unary main_v301 main_v302 (broadcastInDim S16x1 ![0] bcast_S16_S16x1_0 : (⟨S16, .i32⟩ : BufTy).Contents (Elt F) → (⟨S16x1, .i32⟩ : BufTy).Contents (Elt F)),
    nullary main_cst_95 (constant S_ .f32 0x00000000#32),
    unary main_cst_95 main_v303 (broadcastInDim S16x20x20x1 ![] bcast_S_S16x20x20x1 : (⟨S_, .f32⟩ : BufTy).Contents (Elt F) → (⟨S16x20x20x1, .f32⟩ : BufTy).Contents (Elt F)),
    nullary main_c_96 (constantI S_ 32 0#32),
    unary main_c_96 main_v304 (broadcastInDim S16x1 ![] bcast_S_S16x1 : (⟨S_, .i32⟩ : BufTy).Contents (Elt F) → (⟨S16x1, .i32⟩ : BufTy).Contents (Elt F)),
    binary main_v302 main_v304 main_v305 (cmpi .slt : (⟨S16x1, .i32⟩ : BufTy).Contents (Elt F) → (⟨S16x1, .i32⟩ : BufTy).Contents (Elt F) → (⟨S16x1, .i1⟩ : BufTy).Contents (Elt F)),
    nullary main_c_97 (constantI S_ 32 16#32),
    unary main_c_97 main_v306 (broadcastInDim S16x1 ![] bcast_S_S16x1 : (⟨S_, .i32⟩ : BufTy).Contents (Elt F) → (⟨S16x1, .i32⟩ : BufTy).Contents (Elt F)),
    binary main_v302 main_v306 main_v307 (addi : (⟨S16x1, .i32⟩ : BufTy).Contents (Elt F) → (⟨S16x1, .i32⟩ : BufTy).Contents (Elt F) → (⟨S16x1, .i32⟩ : BufTy).Contents (Elt F)),
    ternary main_v305 main_v307 main_v302 main_v308 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_98 (constantI S_ 32 0#32),
    unary main_c_98 main_v309 (broadcastInDim S16x32 ![] bcast_S_S16x32 : (⟨S_, .i32⟩ : BufTy).Contents (Elt F) → (⟨S16x32, .i32⟩ : BufTy).Contents (Elt F)),
    binary main_v300 main_v309 main_v310 (cmpi .slt : (⟨S16x32, .i32⟩ : BufTy).Contents (Elt F) → (⟨S16x32, .i32⟩ : BufTy).Contents (Elt F) → (⟨S16x32, .i1⟩ : BufTy).Contents (Elt F)),
    nullary main_c_99 (constantI S_ 32 20#32),
    unary main_c_99 main_v311 (broadcastInDim S16x32 ![] bcast_S_S16x32 : (⟨S_, .i32⟩ : BufTy).Contents (Elt F) → (⟨S16x32, .i32⟩ : BufTy).Contents (Elt F)),
    binary main_v300 main_v311 main_v312 (addi : (⟨S16x32, .i32⟩ : BufTy).Contents (Elt F) → (⟨S16x32, .i32⟩ : BufTy).Contents (Elt F) → (⟨S16x32, .i32⟩ : BufTy).Contents (Elt F)),
    ternary main_v310 main_v312 main_v300 main_v313 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_100 (constantI S_ 32 0#32),
    unary main_c_100 main_v314 (broadcastInDim S16x32 ![] bcast_S_S16x32 : (⟨S_, .i32⟩ : BufTy).Contents (Elt F) → (⟨S16x32, .i32⟩ : BufTy).Contents (Elt F)),
    binary main_v298 main_v314 main_v315 (cmpi .slt : (⟨S16x32, .i32⟩ : BufTy).Contents (Elt F) → (⟨S16x32, .i32⟩ : BufTy).Contents (Elt F) → (⟨S16x32, .i1⟩ : BufTy).Contents (Elt F)),
    nullary main_c_101 (constantI S_ 32 20#32),
    unary main_c_101 main_v316 (broadcastInDim S16x32 ![] bcast_S_S16x32 : (⟨S_, .i32⟩ : BufTy).Contents (Elt F) → (⟨S16x32, .i32⟩ : BufTy).Contents (Elt F)),
    binary main_v298 main_v316 main_v317 (addi : (⟨S16x32, .i32⟩ : BufTy).Contents (Elt F) → (⟨S16x32, .i32⟩ : BufTy).Contents (Elt F) → (⟨S16x32, .i32⟩ : BufTy).Contents (Elt F)),
    ternary main_v315 main_v317 main_v298 main_v318 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v308 main_v319 (broadcastInDim S16x32 ![0, 1] bcast_S16x1_S16x32_0_1 : (⟨S16x1, .i32⟩ : BufTy).Contents (Elt F) → (⟨S16x32, .i32⟩ : BufTy).Contents (Elt F)),
    nullary main_c_102 (constantI S_ 32 0#32),
    unary main_c_102 main_v320 (broadcastInDim S16x32 ![] bcast_S_S16x32 : (⟨S_, .i32⟩ : BufTy).Contents (Elt F) → (⟨S16x32, .i32⟩ : BufTy).Contents (Elt F)),
    unary main_v320 main_v321 (id : (⟨S16x32, .i32⟩ : BufTy).Contents (Elt F) → (⟨S16x32, .i32⟩ : BufTy).Contents (Elt F)),
    unary main_v319 main_v322 (broadcastInDim S16x32x1 ![0, 1] bcast_S16x32_S16x32x1_0_1 : (⟨S16x32, .i32⟩ : BufTy).Contents (Elt F) → (⟨S16x32x1, .i32⟩ : BufTy).Contents (Elt F)),
    unary main_v313 main_v323 (broadcastInDim S16x32x1 ![0, 1] bcast_S16x32_S16x32x1_0_1 : (⟨S16x32, .i32⟩ : BufTy).Contents (Elt F) → (⟨S16x32x1, .i32⟩ : BufTy).Contents (Elt F)),
    unary main_v318 main_v324 (broadcastInDim S16x32x1 ![0, 1] bcast_S16x32_S16x32x1_0_1 : (⟨S16x32, .i32⟩ : BufTy).Contents (Elt F) → (⟨S16x32x1, .i32⟩ : BufTy).Contents (Elt F)),
    unary main_v321 main_v325 (broadcastInDim S16x32x1 ![0, 1] bcast_S16x32_S16x32x1_0_1 : (⟨S16x32, .i32⟩ : BufTy).Contents (Elt F) → (⟨S16x32x1, .i32⟩ : BufTy).Contents (Elt F)),
    nary ![main_v322, main_v323, main_v324, main_v325] main_v326 (fun u => concatenate S16x32x4 2 [⟨S16x32x1, u 0⟩, ⟨S16x32x1, u 1⟩, ⟨S16x32x1, u 2⟩, ⟨S16x32x1, u 3⟩] concatenates_S16x32x1_S16x32x1_S16x32x1_S16x32x1_S16x32x4_d2) ]
theorem rops_sub_15 : (rops_15 : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., unary_bufs_sub .., unary_bufs_sub .., unary_bufs_sub .., unary_bufs_sub .., nary_bufs_sub ..⟩
theorem rfresh_15 : ∀ op ∈ (rops_15 : List (HloOp τ sig (Elt F))), op.fresh = ∅ := by
  intro _ h; (repeat (cases h with | head => rfl | tail _ h => ?_)); exact nomatch h
/-- The buffers stretch 15 writes. -/
abbrev RW_15 : List (Ref sig .tc) := [main_v301, main_v302, main_cst_95, main_v303, main_c_96, main_v304, main_v305, main_c_97, main_v306, main_v307, main_v308, main_c_98, main_v309, main_v310, main_c_99, main_v311, main_v312, main_v313, main_c_100, main_v314, main_v315, main_c_101, main_v316, main_v317, main_v318, main_v319, main_c_102, main_v320, main_v321, main_v322, main_v323, main_v324, main_v325, main_v326]
theorem rwrites_15 : (rops_15 : List (HloOp τ sig (Elt F))).Forall fun op => op.writes ⊆ (RW_15.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 16: operations 499 … 527 of 647. -/
abbrev rops_16 : List (HloOp τ sig (Elt F)) :=
  [ nullary main_cst_103 (constant S_ .f32 0x3F800000#32),
    unary main_cst_103 main_v327 (broadcastInDim S16x32 ![] bcast_S_S16x32 : (⟨S_, .f32⟩ : BufTy).Contents (Elt F) → (⟨S16x32, .f32⟩ : BufTy).Contents (Elt F)),
    ternary main_v303 main_v326 main_v327 main_v328 ((fun x i u => Host.scatter scatter_S16x20x20x1_S16x32x4_S16x32_n_0123_0123_2 (fun _ b => b) x i u) : (⟨S16x20x20x1, .f32⟩ : BufTy).Contents (Elt F) → (⟨S16x32x4, .i32⟩ : BufTy).Contents (Elt F) → (⟨S16x32, .f32⟩ : BufTy).Contents (Elt F) → (⟨S16x20x20x1, .f32⟩ : BufTy).Contents (Elt F)),
    nullary main_c_104 (constantI S_ 32 0#32),
    unary main_c_104 main_v329 (broadcastInDim S16x1 ![] bcast_S_S16x1 : (⟨S_, .i32⟩ : BufTy).Contents (Elt F) → (⟨S16x1, .i32⟩ : BufTy).Contents (Elt F)),
    binary main_v302 main_v329 main_v330 (cmpi .slt : (⟨S16x1, .i32⟩ : BufTy).Contents (Elt F) → (⟨S16x1, .i32⟩ : BufTy).Contents (Elt F) → (⟨S16x1, .i1⟩ : BufTy).Contents (Elt F)),
    nullary main_c_105 (constantI S_ 32 16#32),
    unary main_c_105 main_v331 (broadcastInDim S16x1 ![] bcast_S_S16x1 : (⟨S_, .i32⟩ : BufTy).Contents (Elt F) → (⟨S16x1, .i32⟩ : BufTy).Contents (Elt F)),
    binary main_v302 main_v331 main_v332 (addi : (⟨S16x1, .i32⟩ : BufTy).Contents (Elt F) → (⟨S16x1, .i32⟩ : BufTy).Contents (Elt F) → (⟨S16x1, .i32⟩ : BufTy).Contents (Elt F)),
    ternary main_v330 main_v332 main_v302 main_v333 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_106 (constantI S_ 32 0#32),
    unary main_c_106 main_v334 (broadcastInDim S16x32 ![] bcast_S_S16x32 : (⟨S_, .i32⟩ : BufTy).Contents (Elt F) → (⟨S16x32, .i32⟩ : BufTy).Contents (Elt F)),
    binary main_v300 main_v334 main_v335 (cmpi .slt : (⟨S16x32, .i32⟩ : BufTy).Contents (Elt F) → (⟨S16x32, .i32⟩ : BufTy).Contents (Elt F) → (⟨S16x32, .i1⟩ : BufTy).Contents (Elt F)),
    nullary main_c_107 (constantI S_ 32 20#32),
    unary main_c_107 main_v336 (broadcastInDim S16x32 ![] bcast_S_S16x32 : (⟨S_, .i32⟩ : BufTy).Contents (Elt F) → (⟨S16x32, .i32⟩ : BufTy).Contents (Elt F)),
    binary main_v300 main_v336 main_v337 (addi : (⟨S16x32, .i32⟩ : BufTy).Contents (Elt F) → (⟨S16x32, .i32⟩ : BufTy).Contents (Elt F) → (⟨S16x32, .i32⟩ : BufTy).Contents (Elt F)),
    ternary main_v335 main_v337 main_v300 main_v338 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_108 (constantI S_ 32 0#32),
    unary main_c_108 main_v339 (broadcastInDim S16x32 ![] bcast_S_S16x32 : (⟨S_, .i32⟩ : BufTy).Contents (Elt F) → (⟨S16x32, .i32⟩ : BufTy).Contents (Elt F)),
    binary main_v298 main_v339 main_v340 (cmpi .slt : (⟨S16x32, .i32⟩ : BufTy).Contents (Elt F) → (⟨S16x32, .i32⟩ : BufTy).Contents (Elt F) → (⟨S16x32, .i1⟩ : BufTy).Contents (Elt F)),
    nullary main_c_109 (constantI S_ 32 20#32),
    unary main_c_109 main_v341 (broadcastInDim S16x32 ![] bcast_S_S16x32 : (⟨S_, .i32⟩ : BufTy).Contents (Elt F) → (⟨S16x32, .i32⟩ : BufTy).Contents (Elt F)),
    binary main_v298 main_v341 main_v342 (addi : (⟨S16x32, .i32⟩ : BufTy).Contents (Elt F) → (⟨S16x32, .i32⟩ : BufTy).Contents (Elt F) → (⟨S16x32, .i32⟩ : BufTy).Contents (Elt F)),
    ternary main_v340 main_v342 main_v298 main_v343 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v333 main_v344 (broadcastInDim S16x32 ![0, 1] bcast_S16x1_S16x32_0_1 : (⟨S16x1, .i32⟩ : BufTy).Contents (Elt F) → (⟨S16x32, .i32⟩ : BufTy).Contents (Elt F)),
    unary main_v344 main_v345 (broadcastInDim S16x32x1 ![0, 1] bcast_S16x32_S16x32x1_0_1 : (⟨S16x32, .i32⟩ : BufTy).Contents (Elt F) → (⟨S16x32x1, .i32⟩ : BufTy).Contents (Elt F)),
    unary main_v338 main_v346 (broadcastInDim S16x32x1 ![0, 1] bcast_S16x32_S16x32x1_0_1 : (⟨S16x32, .i32⟩ : BufTy).Contents (Elt F) → (⟨S16x32x1, .i32⟩ : BufTy).Contents (Elt F)),
    unary main_v343 main_v347 (broadcastInDim S16x32x1 ![0, 1] bcast_S16x32_S16x32x1_0_1 : (⟨S16x32, .i32⟩ : BufTy).Contents (Elt F) → (⟨S16x32x1, .i32⟩ : BufTy).Contents (Elt F)),
    nary ![main_v345, main_v346, main_v347] main_v348 (fun u => concatenate S16x32x3 2 [⟨S16x32x1, u 0⟩, ⟨S16x32x1, u 1⟩, ⟨S16x32x1, u 2⟩] concatenates_S16x32x1_S16x32x1_S16x32x1_S16x32x3_d2) ]
theorem rops_sub_16 : (rops_16 : List (HloOp τ sig (Elt F))).Forall fun op => op.bufs ⊆ tcRefs τ sig :=
  ⟨nullary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub ..⟩
theorem rfresh_16 : ∀ op ∈ (rops_16 : List (HloOp τ sig (Elt F))), op.fresh = ∅ := by
  intro _ h; (repeat (cases h with | head => rfl | tail _ h => ?_)); exact nomatch h
/-- The buffers stretch 16 writes. -/
abbrev RW_16 : List (Ref sig .tc) := [main_cst_103, main_v327, main_v328, main_c_104, main_v329, main_v330, main_c_105, main_v331, main_v332, main_v333, main_c_106, main_v334, main_v335, main_c_107, main_v336, main_v337, main_v338, main_c_108, main_v339, main_v340, main_c_109, main_v341, main_v342, main_v343, main_v344, main_v345, main_v346, main_v347, main_v348]
theorem rwrites_16 : (rops_16 : List (HloOp τ sig (Elt F))).Forall fun op => op.writes ⊆ (RW_16.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 17: operations 528 … 544 of 647. -/
abbrev rops_17 : List (HloOp τ sig (Elt F)) :=
  [ binary main_v279 main_v348 main_v349 ((fun x i => Host.gather gather_S16x20x20x64_S16x32x3_S16x32x64_2_012_n_n_012_2_11164 x i) : (⟨S16x20x20x64, .f32⟩ : BufTy).Contents (Elt F) → (⟨S16x32x3, .i32⟩ : BufTy).Contents (Elt F) → (⟨S16x32x64, .f32⟩ : BufTy).Contents (Elt F)),
    unary main_v349 main_v350 ((extractStridedSlice S16x32x4 ![0, 0, 0] · slices_S16x32x64_S16x32x4_0_0_0) : (⟨S16x32x64, .f32⟩ : BufTy).Contents (Elt F) → (⟨S16x32x4, .f32⟩ : BufTy).Contents (Elt F)),
    unary main_v298 main_v351 (sitofp .f32 : (⟨S16x32, .i32⟩ : BufTy).Contents (Elt F) → (⟨S16x32, .f32⟩ : BufTy).Contents (Elt F)),
    binary main_v284 main_v351 main_v352 (subf : (⟨S16x32, .f32⟩ : BufTy).Contents (Elt F) → (⟨S16x32, .f32⟩ : BufTy).Contents (Elt F) → (⟨S16x32, .f32⟩ : BufTy).Contents (Elt F)),
    unary main_v300 main_v353 (sitofp .f32 : (⟨S16x32, .i32⟩ : BufTy).Contents (Elt F) → (⟨S16x32, .f32⟩ : BufTy).Contents (Elt F)),
    binary main_v288 main_v353 main_v354 (subf : (⟨S16x32, .f32⟩ : BufTy).Contents (Elt F) → (⟨S16x32, .f32⟩ : BufTy).Contents (Elt F) → (⟨S16x32, .f32⟩ : BufTy).Contents (Elt F)),
    nullary main_cst_110 (constant S_ .f32 0x41A00000#32),
    unary main_cst_110 main_v355 (broadcastInDim S16x32 ![] bcast_S_S16x32 : (⟨S_, .f32⟩ : BufTy).Contents (Elt F) → (⟨S16x32, .f32⟩ : BufTy).Contents (Elt F)),
    binary main_v292 main_v355 main_v356 (Host.divf : (⟨S16x32, .f32⟩ : BufTy).Contents (Elt F) → (⟨S16x32, .f32⟩ : BufTy).Contents (Elt F) → (⟨S16x32, .f32⟩ : BufTy).Contents (Elt F)),
    nullary main_cst_111 (constant S_ .f32 0x41A00000#32),
    unary main_cst_111 main_v357 (broadcastInDim S16x32 ![] bcast_S_S16x32 : (⟨S_, .f32⟩ : BufTy).Contents (Elt F) → (⟨S16x32, .f32⟩ : BufTy).Contents (Elt F)),
    binary main_v296 main_v357 main_v358 (Host.divf : (⟨S16x32, .f32⟩ : BufTy).Contents (Elt F) → (⟨S16x32, .f32⟩ : BufTy).Contents (Elt F) → (⟨S16x32, .f32⟩ : BufTy).Contents (Elt F)),
    unary main_v352 main_v359 (broadcastInDim S16x32x1 ![0, 1] bcast_S16x32_S16x32x1_0_1 : (⟨S16x32, .f32⟩ : BufTy).Contents (Elt F) → (⟨S16x32x1, .f32⟩ : BufTy).Contents (Elt F)),
    unary main_v354 main_v360 (broadcastInDim S16x32x1 ![0, 1] bcast_S16x32_S16x32x1_0_1 : (⟨S16x32, .f32⟩ : BufTy).Contents (Elt F) → (⟨S16x32x1, .f32⟩ : BufTy).Contents (Elt F)),
    unary main_v356 main_v361 (broadcastInDim S16x32x1 ![0, 1] bcast_S16x32_S16x32x1_0_1 : (⟨S16x32, .f32⟩ : BufTy).Contents (Elt F) → (⟨S16x32x1, .f32⟩ : BufTy).Contents (Elt F)),
    unary main_v358 main_v362 (broadcastInDim S16x32x1 ![0, 1] bcast_S16x32_S16x32x1_0_1 : (⟨S16x32, .f32⟩ : BufTy).Contents (Elt F) → (⟨S16x32x1, .f32⟩ : BufTy).Contents (Elt F)),
    nary ![main_v359, main_v360, main_v361, main_v362] main_v363 (fun u => concatenate S16x32x4 2 [⟨S16x32x1, u 0⟩, ⟨S16x32x1, u 1⟩, ⟨S16x32x1, u 2⟩, ⟨S16x32x1, u 3⟩] concatenates_S16x32x1_S16x32x1_S16x32x1_S16x32x1_S16x32x4_d2) ]
theorem rops_sub_17 : (rops_17 : List (HloOp τ sig (Elt F))).Forall fun op => op.bufs ⊆ tcRefs τ sig :=
  ⟨binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., nary_bufs_sub ..⟩
theorem rfresh_17 : ∀ op ∈ (rops_17 : List (HloOp τ sig (Elt F))), op.fresh = ∅ := by
  intro _ h; (repeat (cases h with | head => rfl | tail _ h => ?_)); exact nomatch h
/-- The buffers stretch 17 writes. -/
abbrev RW_17 : List (Ref sig .tc) := [main_v349, main_v350, main_v351, main_v352, main_v353, main_v354, main_cst_110, main_v355, main_v356, main_cst_111, main_v357, main_v358, main_v359, main_v360, main_v361, main_v362, main_v363]
theorem rwrites_17 : (rops_17 : List (HloOp τ sig (Elt F))).Forall fun op => op.writes ⊆ (RW_17.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 18: operations 545 … 579 of 647. -/
abbrev rops_18 : List (HloOp τ sig (Elt F)) :=
  [ binary main_v350 main_v363 main_v364 (subf : (⟨S16x32x4, .f32⟩ : BufTy).Contents (Elt F) → (⟨S16x32x4, .f32⟩ : BufTy).Contents (Elt F) → (⟨S16x32x4, .f32⟩ : BufTy).Contents (Elt F)),
    binary main_v364 main_v364 main_v365 (mulf : (⟨S16x32x4, .f32⟩ : BufTy).Contents (Elt F) → (⟨S16x32x4, .f32⟩ : BufTy).Contents (Elt F) → (⟨S16x32x4, .f32⟩ : BufTy).Contents (Elt F)),
    nullary main_cst_112 (constant S_ .f32 0x00000000#32),
    binary main_v365 main_cst_112 main_v366 ((fun x v => Host.reduceAdd x v reducesTo_S16x32x4_S16x32_d2 h_S_) : (⟨S16x32x4, .f32⟩ : BufTy).Contents (Elt F) → (⟨S_, .f32⟩ : BufTy).Contents (Elt F) → (⟨S16x32, .f32⟩ : BufTy).Contents (Elt F)),
    nullary main_cst_113 (constant S_ .f32 0x40800000#32),
    unary main_cst_113 main_v367 (broadcastInDim S16x32 ![] bcast_S_S16x32 : (⟨S_, .f32⟩ : BufTy).Contents (Elt F) → (⟨S16x32, .f32⟩ : BufTy).Contents (Elt F)),
    binary main_v366 main_v367 main_v368 (Host.divf : (⟨S16x32, .f32⟩ : BufTy).Contents (Elt F) → (⟨S16x32, .f32⟩ : BufTy).Contents (Elt F) → (⟨S16x32, .f32⟩ : BufTy).Contents (Elt F)),
    nullary main_cst_114 (constant S_ .f32 0x00000000#32),
    binary main_v368 main_cst_114 main_v369 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    nullary main_c_115 (constantI S_ 32 0#32),
    unary main_c_115 main_v370 (broadcastInDim S16x1 ![] bcast_S_S16x1 : (⟨S_, .i32⟩ : BufTy).Contents (Elt F) → (⟨S16x1, .i32⟩ : BufTy).Contents (Elt F)),
    binary main_v302 main_v370 main_v371 (cmpi .slt : (⟨S16x1, .i32⟩ : BufTy).Contents (Elt F) → (⟨S16x1, .i32⟩ : BufTy).Contents (Elt F) → (⟨S16x1, .i1⟩ : BufTy).Contents (Elt F)),
    nullary main_c_116 (constantI S_ 32 16#32),
    unary main_c_116 main_v372 (broadcastInDim S16x1 ![] bcast_S_S16x1 : (⟨S_, .i32⟩ : BufTy).Contents (Elt F) → (⟨S16x1, .i32⟩ : BufTy).Contents (Elt F)),
    binary main_v302 main_v372 main_v373 (addi : (⟨S16x1, .i32⟩ : BufTy).Contents (Elt F) → (⟨S16x1, .i32⟩ : BufTy).Contents (Elt F) → (⟨S16x1, .i32⟩ : BufTy).Contents (Elt F)),
    ternary main_v371 main_v373 main_v302 main_v374 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_117 (constantI S_ 32 0#32),
    unary main_c_117 main_v375 (broadcastInDim S16x32 ![] bcast_S_S16x32 : (⟨S_, .i32⟩ : BufTy).Contents (Elt F) → (⟨S16x32, .i32⟩ : BufTy).Contents (Elt F)),
    binary main_v300 main_v375 main_v376 (cmpi .slt : (⟨S16x32, .i32⟩ : BufTy).Contents (Elt F) → (⟨S16x32, .i32⟩ : BufTy).Contents (Elt F) → (⟨S16x32, .i1⟩ : BufTy).Contents (Elt F)),
    nullary main_c_118 (constantI S_ 32 20#32),
    unary main_c_118 main_v377 (broadcastInDim S16x32 ![] bcast_S_S16x32 : (⟨S_, .i32⟩ : BufTy).Contents (Elt F) → (⟨S16x32, .i32⟩ : BufTy).Contents (Elt F)),
    binary main_v300 main_v377 main_v378 (addi : (⟨S16x32, .i32⟩ : BufTy).Contents (Elt F) → (⟨S16x32, .i32⟩ : BufTy).Contents (Elt F) → (⟨S16x32, .i32⟩ : BufTy).Contents (Elt F)),
    ternary main_v376 main_v378 main_v300 main_v379 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_119 (constantI S_ 32 0#32),
    unary main_c_119 main_v380 (broadcastInDim S16x32 ![] bcast_S_S16x32 : (⟨S_, .i32⟩ : BufTy).Contents (Elt F) → (⟨S16x32, .i32⟩ : BufTy).Contents (Elt F)),
    binary main_v298 main_v380 main_v381 (cmpi .slt : (⟨S16x32, .i32⟩ : BufTy).Contents (Elt F) → (⟨S16x32, .i32⟩ : BufTy).Contents (Elt F) → (⟨S16x32, .i1⟩ : BufTy).Contents (Elt F)),
    nullary main_c_120 (constantI S_ 32 20#32),
    unary main_c_120 main_v382 (broadcastInDim S16x32 ![] bcast_S_S16x32 : (⟨S_, .i32⟩ : BufTy).Contents (Elt F) → (⟨S16x32, .i32⟩ : BufTy).Contents (Elt F)),
    binary main_v298 main_v382 main_v383 (addi : (⟨S16x32, .i32⟩ : BufTy).Contents (Elt F) → (⟨S16x32, .i32⟩ : BufTy).Contents (Elt F) → (⟨S16x32, .i32⟩ : BufTy).Contents (Elt F)),
    ternary main_v381 main_v383 main_v298 main_v384 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v374 main_v385 (broadcastInDim S16x32 ![0, 1] bcast_S16x1_S16x32_0_1 : (⟨S16x1, .i32⟩ : BufTy).Contents (Elt F) → (⟨S16x32, .i32⟩ : BufTy).Contents (Elt F)),
    unary main_v385 main_v386 (broadcastInDim S16x32x1 ![0, 1] bcast_S16x32_S16x32x1_0_1 : (⟨S16x32, .i32⟩ : BufTy).Contents (Elt F) → (⟨S16x32x1, .i32⟩ : BufTy).Contents (Elt F)),
    unary main_v379 main_v387 (broadcastInDim S16x32x1 ![0, 1] bcast_S16x32_S16x32x1_0_1 : (⟨S16x32, .i32⟩ : BufTy).Contents (Elt F) → (⟨S16x32x1, .i32⟩ : BufTy).Contents (Elt F)),
    unary main_v384 main_v388 (broadcastInDim S16x32x1 ![0, 1] bcast_S16x32_S16x32x1_0_1 : (⟨S16x32, .i32⟩ : BufTy).Contents (Elt F) → (⟨S16x32x1, .i32⟩ : BufTy).Contents (Elt F)),
    nary ![main_v386, main_v387, main_v388] main_v389 (fun u => concatenate S16x32x3 2 [⟨S16x32x1, u 0⟩, ⟨S16x32x1, u 1⟩, ⟨S16x32x1, u 2⟩] concatenates_S16x32x1_S16x32x1_S16x32x1_S16x32x3_d2) ]
theorem rops_sub_18 : (rops_18 : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub ..⟩
theorem rfresh_18 : ∀ op ∈ (rops_18 : List (HloOp τ sig (Elt F))), op.fresh = ∅ := by
  intro _ h; (repeat (cases h with | head => rfl | tail _ h => ?_)); exact nomatch h
/-- The buffers stretch 18 writes. -/
abbrev RW_18 : List (Ref sig .tc) := [main_v364, main_v365, main_cst_112, main_v366, main_cst_113, main_v367, main_v368, main_cst_114, main_v369, main_c_115, main_v370, main_v371, main_c_116, main_v372, main_v373, main_v374, main_c_117, main_v375, main_v376, main_c_118, main_v377, main_v378, main_v379, main_c_119, main_v380, main_v381, main_c_120, main_v382, main_v383, main_v384, main_v385, main_v386, main_v387, main_v388, main_v389]
theorem rwrites_18 : (rops_18 : List (HloOp τ sig (Elt F))).Forall fun op => op.writes ⊆ (RW_18.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 19: operations 580 … 618 of 647. -/
abbrev rops_19 : List (HloOp τ sig (Elt F)) :=
  [ binary main_v280 main_v389 main_v390 ((fun x i => Host.gather gather_S16x20x20x80_S16x32x3_S16x32x80_2_012_n_n_012_2_11180 x i) : (⟨S16x20x20x80, .f32⟩ : BufTy).Contents (Elt F) → (⟨S16x32x3, .i32⟩ : BufTy).Contents (Elt F) → (⟨S16x32x80, .f32⟩ : BufTy).Contents (Elt F)),
    TRef.unary (TRef.of (T := ⟨S16x32, .i32⟩) main_arg4) (TRef.of (T := ⟨S16x32x1, .i32⟩) main_call10_v0) (broadcastInDim S16x32x1 ![0, 1] bcast_S16x32_S16x32x1_0_1),
    TRef.nullary (TRef.of (T := ⟨S1x1x80, .i32⟩) main_call10_v1) (iotaInDim S1x1x80 32 2),
    TRef.unary (TRef.of (T := ⟨S16x32x1, .i32⟩) main_call10_v0) (TRef.of (T := ⟨S16x32x80, .i32⟩) main_call10_v2) (broadcastInDim S16x32x80 ![0, 1, 2] bcast_S16x32x1_S16x32x80_0_1_2),
    TRef.unary (TRef.of (T := ⟨S1x1x80, .i32⟩) main_call10_v1) (TRef.of (T := ⟨S16x32x80, .i32⟩) main_call10_v3) (broadcastInDim S16x32x80 ![0, 1, 2] bcast_S1x1x80_S16x32x80_0_1_2),
    TRef.binary (TRef.of (T := ⟨S16x32x80, .i32⟩) main_call10_v2) (TRef.of (T := ⟨S16x32x80, .i32⟩) main_call10_v3) (TRef.of (T := ⟨S16x32x80, .i1⟩) main_call10_v4) (cmpi .eq),
    TRef.unary (TRef.of (T := ⟨S16x32x80, .i1⟩) main_call10_v4) (TRef.of (T := ⟨S16x32x80, .f32⟩) main_v391) (uitofp .f32),
    TRef.nullary (TRef.of (T := ⟨S_, .f32⟩) main_call11_cst) (constant S_ .f32 0x00000000#32),
    TRef.unary (TRef.of (T := ⟨S_, .f32⟩) main_call11_cst) (TRef.of (T := ⟨S16x32x80, .f32⟩) main_call11_v0) (broadcastInDim S16x32x80 ![] bcast_S_S16x32x80),
    TRef.binary (TRef.of (T := ⟨S16x32x80, .f32⟩) main_v390) (TRef.of (T := ⟨S16x32x80, .f32⟩) main_call11_v0) (TRef.of (T := ⟨S16x32x80, .f32⟩) main_call11_v1) maximumf,
    TRef.unary (TRef.of (T := ⟨S_, .f32⟩) main_call11_cst) (TRef.of (T := ⟨S16x32x80, .f32⟩) main_call11_v2) (broadcastInDim S16x32x80 ![] bcast_S_S16x32x80),
    TRef.binary (TRef.of (T := ⟨S16x32x80, .f32⟩) main_v390) (TRef.of (T := ⟨S16x32x80, .f32⟩) main_call11_v2) (TRef.of (T := ⟨S16x32x80, .f32⟩) main_call11_v3) subf,
    TRef.binary (TRef.of (T := ⟨S16x32x80, .f32⟩) main_call11_v3) (TRef.of (T := ⟨S16x32x80, .f32⟩) main_call11_v3) (TRef.of (T := ⟨S16x32x80, .i1⟩) main_call11_v4) (cmpf .une),
    TRef.unary (TRef.of (T := ⟨S_, .f32⟩) main_call11_cst) (TRef.of (T := ⟨S16x32x80, .f32⟩) main_call11_v5) (broadcastInDim S16x32x80 ![] bcast_S_S16x32x80),
    TRef.binary (TRef.of (T := ⟨S16x32x80, .f32⟩) main_v390) (TRef.of (T := ⟨S16x32x80, .f32⟩) main_call11_v5) (TRef.of (T := ⟨S16x32x80, .f32⟩) main_call11_v6) addf,
    TRef.unary (TRef.of (T := ⟨S16x32x80, .f32⟩) main_call11_v3) (TRef.of (T := ⟨S16x32x80, .f32⟩) main_call11_v7) Host.absf,
    TRef.unary (TRef.of (T := ⟨S16x32x80, .f32⟩) main_call11_v7) (TRef.of (T := ⟨S16x32x80, .f32⟩) main_call11_v8) Host.negf,
    TRef.unary (TRef.of (T := ⟨S16x32x80, .f32⟩) main_call11_v8) (TRef.of (T := ⟨S16x32x80, .f32⟩) main_call11_v9) Host.exp,
    TRef.unary (TRef.of (T := ⟨S16x32x80, .f32⟩) main_call11_v9) (TRef.of (T := ⟨S16x32x80, .f32⟩) main_call11_v10) Host.log1p,
    TRef.binary (TRef.of (T := ⟨S16x32x80, .f32⟩) main_call11_v1) (TRef.of (T := ⟨S16x32x80, .f32⟩) main_call11_v10) (TRef.of (T := ⟨S16x32x80, .f32⟩) main_call11_v11) addf,
    TRef.ternary (TRef.of (T := ⟨S16x32x80, .i1⟩) main_call11_v4) (TRef.of (T := ⟨S16x32x80, .f32⟩) main_call11_v6) (TRef.of (T := ⟨S16x32x80, .f32⟩) main_call11_v11) (TRef.of (T := ⟨S16x32x80, .f32⟩) main_v392) select,
    binary main_v390 main_v391 main_v393 (mulf : (⟨S16x32x80, .f32⟩ : BufTy).Contents (Elt F) → (⟨S16x32x80, .f32⟩ : BufTy).Contents (Elt F) → (⟨S16x32x80, .f32⟩ : BufTy).Contents (Elt F)),
    binary main_v392 main_v393 main_v394 (subf : (⟨S16x32x80, .f32⟩ : BufTy).Contents (Elt F) → (⟨S16x32x80, .f32⟩ : BufTy).Contents (Elt F) → (⟨S16x32x80, .f32⟩ : BufTy).Contents (Elt F)),
    nullary main_cst_121 (constant S_ .f32 0x00000000#32),
    binary main_v394 main_cst_121 main_v395 ((fun x v => Host.reduceAdd x v reducesTo_S16x32x80_S16x32_d2 h_S_) : (⟨S16x32x80, .f32⟩ : BufTy).Contents (Elt F) → (⟨S_, .f32⟩ : BufTy).Contents (Elt F) → (⟨S16x32, .f32⟩ : BufTy).Contents (Elt F)),
    nullary main_cst_122 (constant S_ .f32 0x42A00000#32),
    unary main_cst_122 main_v396 (broadcastInDim S16x32 ![] bcast_S_S16x32 : (⟨S_, .f32⟩ : BufTy).Contents (Elt F) → (⟨S16x32, .f32⟩ : BufTy).Contents (Elt F)),
    binary main_v395 main_v396 main_v397 (Host.divf : (⟨S16x32, .f32⟩ : BufTy).Contents (Elt F) → (⟨S16x32, .f32⟩ : BufTy).Contents (Elt F) → (⟨S16x32, .f32⟩ : BufTy).Contents (Elt F)),
    nullary main_cst_123 (constant S_ .f32 0x00000000#32),
    binary main_v397 main_cst_123 main_v398 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    unary main_v279 main_v399 ((extractStridedSlice S16x20x20x4 ![0, 0, 0, 0] · slices_S16x20x20x64_S16x20x20x4_0_0_0_0) : (⟨S16x20x20x64, .f32⟩ : BufTy).Contents (Elt F) → (⟨S16x20x20x4, .f32⟩ : BufTy).Contents (Elt F)),
    nullary main_cst_124 (constant S_ .f32 0x00000000#32),
    binary main_v399 main_cst_124 main_v400 ((fun x v => Host.reduceAdd x v reducesTo_S16x20x20x4_S16x20x20_d3 h_S_) : (⟨S16x20x20x4, .f32⟩ : BufTy).Contents (Elt F) → (⟨S_, .f32⟩ : BufTy).Contents (Elt F) → (⟨S16x20x20, .f32⟩ : BufTy).Contents (Elt F)),
    unary main_v400 main_v401 (broadcastInDim S16x20x20x1 ![0, 1, 2] bcast_S16x20x20_S16x20x20x1_0_1_2 : (⟨S16x20x20, .f32⟩ : BufTy).Contents (Elt F) → (⟨S16x20x20x1, .f32⟩ : BufTy).Contents (Elt F)),
    nullary main_cst_125 (constant S_ .f32 0x40800000#32),
    unary main_cst_125 main_v402 (broadcastInDim S16x20x20x1 ![] bcast_S_S16x20x20x1 : (⟨S_, .f32⟩ : BufTy).Contents (Elt F) → (⟨S16x20x20x1, .f32⟩ : BufTy).Contents (Elt F)),
    binary main_v401 main_v402 main_v403 (Host.divf : (⟨S16x20x20x1, .f32⟩ : BufTy).Contents (Elt F) → (⟨S16x20x20x1, .f32⟩ : BufTy).Contents (Elt F) → (⟨S16x20x20x1, .f32⟩ : BufTy).Contents (Elt F)),
    unary main_v403 main_v404 (Host.negf : (⟨S16x20x20x1, .f32⟩ : BufTy).Contents (Elt F) → (⟨S16x20x20x1, .f32⟩ : BufTy).Contents (Elt F)),
    unary main_v404 main_v405 (Host.exp : (⟨S16x20x20x1, .f32⟩ : BufTy).Contents (Elt F) → (⟨S16x20x20x1, .f32⟩ : BufTy).Contents (Elt F)) ]
theorem rops_sub_19 : (rops_19 : List (HloOp τ sig (Elt F))).Forall fun op => op.bufs ⊆ tcRefs τ sig :=
  ⟨binary_bufs_sub .., unary_bufs_sub .., nullary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., nullary_bufs_sub .., binary_bufs_sub .., nullary_bufs_sub .., unary_bufs_sub .., binary_bufs_sub .., nullary_bufs_sub .., binary_bufs_sub .., unary_bufs_sub .., nullary_bufs_sub .., binary_bufs_sub .., unary_bufs_sub .., nullary_bufs_sub .., unary_bufs_sub .., binary_bufs_sub .., unary_bufs_sub .., unary_bufs_sub ..⟩
theorem rfresh_19 : ∀ op ∈ (rops_19 : List (HloOp τ sig (Elt F))), op.fresh = ∅ := by
  intro _ h; (repeat (cases h with | head => rfl | tail _ h => ?_)); exact nomatch h
/-- The buffers stretch 19 writes. -/
abbrev RW_19 : List (Ref sig .tc) := [main_v390, main_call10_v0, main_call10_v1, main_call10_v2, main_call10_v3, main_call10_v4, main_v391, main_call11_cst, main_call11_v0, main_call11_v1, main_call11_v2, main_call11_v3, main_call11_v4, main_call11_v5, main_call11_v6, main_call11_v7, main_call11_v8, main_call11_v9, main_call11_v10, main_call11_v11, main_v392, main_v393, main_v394, main_cst_121, main_v395, main_cst_122, main_v396, main_v397, main_cst_123, main_v398, main_v399, main_cst_124, main_v400, main_v401, main_cst_125, main_v402, main_v403, main_v404, main_v405]
theorem rwrites_19 : (rops_19 : List (HloOp τ sig (Elt F))).Forall fun op => op.writes ⊆ (RW_19.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stretch 20: operations 619 … 647 of 647. -/
abbrev rops_20 : List (HloOp τ sig (Elt F)) :=
  [ nullary main_cst_126 (constant S_ .f32 0x3F800000#32),
    unary main_cst_126 main_v406 (broadcastInDim S16x20x20x1 ![] bcast_S_S16x20x20x1 : (⟨S_, .f32⟩ : BufTy).Contents (Elt F) → (⟨S16x20x20x1, .f32⟩ : BufTy).Contents (Elt F)),
    binary main_v406 main_v405 main_v407 (addf : (⟨S16x20x20x1, .f32⟩ : BufTy).Contents (Elt F) → (⟨S16x20x20x1, .f32⟩ : BufTy).Contents (Elt F) → (⟨S16x20x20x1, .f32⟩ : BufTy).Contents (Elt F)),
    nullary main_cst_127 (constant S_ .f32 0x3F800000#32),
    unary main_cst_127 main_v408 (broadcastInDim S16x20x20x1 ![] bcast_S_S16x20x20x1 : (⟨S_, .f32⟩ : BufTy).Contents (Elt F) → (⟨S16x20x20x1, .f32⟩ : BufTy).Contents (Elt F)),
    binary main_v408 main_v407 main_v409 (Host.divf : (⟨S16x20x20x1, .f32⟩ : BufTy).Contents (Elt F) → (⟨S16x20x20x1, .f32⟩ : BufTy).Contents (Elt F) → (⟨S16x20x20x1, .f32⟩ : BufTy).Contents (Elt F)),
    binary main_v409 main_v328 main_v410 (subf : (⟨S16x20x20x1, .f32⟩ : BufTy).Contents (Elt F) → (⟨S16x20x20x1, .f32⟩ : BufTy).Contents (Elt F) → (⟨S16x20x20x1, .f32⟩ : BufTy).Contents (Elt F)),
    binary main_v410 main_v410 main_v411 (mulf : (⟨S16x20x20x1, .f32⟩ : BufTy).Contents (Elt F) → (⟨S16x20x20x1, .f32⟩ : BufTy).Contents (Elt F) → (⟨S16x20x20x1, .f32⟩ : BufTy).Contents (Elt F)),
    nullary main_cst_128 (constant S_ .f32 0x00000000#32),
    binary main_v411 main_cst_128 main_v412 ((fun x v => Host.reduceAdd x v reducesTo_S16x20x20x1_S_d0_1_2_3 h_S_) : (⟨S16x20x20x1, .f32⟩ : BufTy).Contents (Elt F) → (⟨S_, .f32⟩ : BufTy).Contents (Elt F) → (⟨S_, .f32⟩ : BufTy).Contents (Elt F)),
    nullary main_cst_129 (constant S_ .f32 0x45C80000#32),
    binary main_v412 main_cst_129 main_v413 (Host.divf : (⟨S_, .f32⟩ : BufTy).Contents (Elt F) → (⟨S_, .f32⟩ : BufTy).Contents (Elt F) → (⟨S_, .f32⟩ : BufTy).Contents (Elt F)),
    binary main_v275 main_v369 main_v414 (addf : (⟨S_, .f32⟩ : BufTy).Contents (Elt F) → (⟨S_, .f32⟩ : BufTy).Contents (Elt F) → (⟨S_, .f32⟩ : BufTy).Contents (Elt F)),
    binary main_v276 main_v413 main_v415 (addf : (⟨S_, .f32⟩ : BufTy).Contents (Elt F) → (⟨S_, .f32⟩ : BufTy).Contents (Elt F) → (⟨S_, .f32⟩ : BufTy).Contents (Elt F)),
    binary main_v277 main_v398 main_v416 (addf : (⟨S_, .f32⟩ : BufTy).Contents (Elt F) → (⟨S_, .f32⟩ : BufTy).Contents (Elt F) → (⟨S_, .f32⟩ : BufTy).Contents (Elt F)),
    nullary main_cst_130 (constant S_ .f32 0x40400000#32),
    binary main_v414 main_cst_130 main_v417 (Host.divf : (⟨S_, .f32⟩ : BufTy).Contents (Elt F) → (⟨S_, .f32⟩ : BufTy).Contents (Elt F) → (⟨S_, .f32⟩ : BufTy).Contents (Elt F)),
    nullary main_cst_131 (constant S_ .f32 0x40F00000#32),
    binary main_cst_131 main_v417 main_v418 (mulf : (⟨S_, .f32⟩ : BufTy).Contents (Elt F) → (⟨S_, .f32⟩ : BufTy).Contents (Elt F) → (⟨S_, .f32⟩ : BufTy).Contents (Elt F)),
    nullary main_cst_132 (constant S_ .f32 0x40400000#32),
    binary main_v415 main_cst_132 main_v419 (Host.divf : (⟨S_, .f32⟩ : BufTy).Contents (Elt F) → (⟨S_, .f32⟩ : BufTy).Contents (Elt F) → (⟨S_, .f32⟩ : BufTy).Contents (Elt F)),
    nullary main_cst_133 (constant S_ .f32 0x3F800000#32),
    binary main_cst_133 main_v419 main_v420 (mulf : (⟨S_, .f32⟩ : BufTy).Contents (Elt F) → (⟨S_, .f32⟩ : BufTy).Contents (Elt F) → (⟨S_, .f32⟩ : BufTy).Contents (Elt F)),
    binary main_v418 main_v420 main_v421 (addf : (⟨S_, .f32⟩ : BufTy).Contents (Elt F) → (⟨S_, .f32⟩ : BufTy).Contents (Elt F) → (⟨S_, .f32⟩ : BufTy).Contents (Elt F)),
    nullary main_cst_134 (constant S_ .f32 0x40400000#32),
    binary main_v416 main_cst_134 main_v422 (Host.divf : (⟨S_, .f32⟩ : BufTy).Contents (Elt F) → (⟨S_, .f32⟩ : BufTy).Contents (Elt F) → (⟨S_, .f32⟩ : BufTy).Contents (Elt F)),
    nullary main_cst_135 (constant S_ .f32 0x3F000000#32),
    binary main_cst_135 main_v422 main_v423 (mulf : (⟨S_, .f32⟩ : BufTy).Contents (Elt F) → (⟨S_, .f32⟩ : BufTy).Contents (Elt F) → (⟨S_, .f32⟩ : BufTy).Contents (Elt F)),
    binary main_v421 main_v423 main_v424 (addf : (⟨S_, .f32⟩ : BufTy).Contents (Elt F) → (⟨S_, .f32⟩ : BufTy).Contents (Elt F) → (⟨S_, .f32⟩ : BufTy).Contents (Elt F)) ]
theorem rops_sub_20 : (rops_20 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub ..⟩
theorem rfresh_20 : ∀ op ∈ (rops_20 : List (HloOp τ sig (Elt F))), op.fresh = ∅ := by
  intro _ h; (repeat (cases h with | head => rfl | tail _ h => ?_)); exact nomatch h
/-- The buffers stretch 20 writes. -/
abbrev RW_20 : List (Ref sig .tc) := [main_cst_126, main_v406, main_v407, main_cst_127, main_v408, main_v409, main_v410, main_v411, main_cst_128, main_v412, main_cst_129, main_v413, main_v414, main_v415, main_v416, main_cst_130, main_v417, main_cst_131, main_v418, main_cst_132, main_v419, main_cst_133, main_v420, main_v421, main_cst_134, main_v422, main_cst_135, main_v423, main_v424]
theorem rwrites_20 : (rops_20 : List (HloOp τ sig (Elt F))).Forall fun op => op.writes ⊆ (RW_20.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-! ## @main is the stretches in a row -/

/-- @main's 647 operations, in order. -/
abbrev ops : List (HloOp τ sig (Elt F)) :=
  rops_0 ++ (rops_1 ++ (rops_2 ++ (rops_3 ++ (rops_4 ++ (rops_5 ++ (rops_6 ++ (rops_7 ++ (rops_8 ++ (rops_9 ++ (rops_10 ++ (rops_11 ++ (rops_12 ++ (rops_13 ++ (rops_14 ++ (rops_15 ++ (rops_16 ++ (rops_17 ++ (rops_18 ++ (rops_19 ++ (rops_20))))))))))))))))))))

set_option maxRecDepth 100000 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_append.2 ⟨rops_sub_0, List.forall_append.2 ⟨rops_sub_1, List.forall_append.2 ⟨rops_sub_2, List.forall_append.2 ⟨rops_sub_3, List.forall_append.2 ⟨rops_sub_4, List.forall_append.2 ⟨rops_sub_5, List.forall_append.2 ⟨rops_sub_6, List.forall_append.2 ⟨rops_sub_7, List.forall_append.2 ⟨rops_sub_8, List.forall_append.2 ⟨rops_sub_9, List.forall_append.2 ⟨rops_sub_10, List.forall_append.2 ⟨rops_sub_11, List.forall_append.2 ⟨rops_sub_12, List.forall_append.2 ⟨rops_sub_13, List.forall_append.2 ⟨rops_sub_14, List.forall_append.2 ⟨rops_sub_15, List.forall_append.2 ⟨rops_sub_16, List.forall_append.2 ⟨rops_sub_17, List.forall_append.2 ⟨rops_sub_18, List.forall_append.2 ⟨rops_sub_19, rops_sub_20⟩⟩⟩⟩⟩⟩⟩⟩⟩⟩⟩⟩⟩⟩⟩⟩⟩⟩⟩⟩
theorem ops_fresh : ∀ op ∈ (ops : List (HloOp τ sig (Elt F))), op.fresh = ∅ := fun op h =>
  (List.mem_append.1 h).elim (rfresh_0 op) fun h => (List.mem_append.1 h).elim (rfresh_1 op) fun h => (List.mem_append.1 h).elim (rfresh_2 op) fun h => (List.mem_append.1 h).elim (rfresh_3 op) fun h => (List.mem_append.1 h).elim (rfresh_4 op) fun h => (List.mem_append.1 h).elim (rfresh_5 op) fun h => (List.mem_append.1 h).elim (rfresh_6 op) fun h => (List.mem_append.1 h).elim (rfresh_7 op) fun h => (List.mem_append.1 h).elim (rfresh_8 op) fun h => (List.mem_append.1 h).elim (rfresh_9 op) fun h => (List.mem_append.1 h).elim (rfresh_10 op) fun h => (List.mem_append.1 h).elim (rfresh_11 op) fun h => (List.mem_append.1 h).elim (rfresh_12 op) fun h => (List.mem_append.1 h).elim (rfresh_13 op) fun h => (List.mem_append.1 h).elim (rfresh_14 op) fun h => (List.mem_append.1 h).elim (rfresh_15 op) fun h => (List.mem_append.1 h).elim (rfresh_16 op) fun h => (List.mem_append.1 h).elim (rfresh_17 op) fun h => (List.mem_append.1 h).elim (rfresh_18 op) fun h => (List.mem_append.1 h).elim (rfresh_19 op) fun h => rfresh_20 op h

/-! ## The contents after the stretches, one by one -/

/-- The buffer contents after stretches 0 … 0. -/
def RY_0 (V : Valuation τ sig (Elt F)) : Valuation τ sig (Elt F) := after rops_0 V
theorem RY_0_def (V : Valuation τ sig (Elt F)) : RY_0 V = after rops_0 V := rfl
theorem rkeep_0 (V : Valuation τ sig (Elt F)) (r : Ref sig .tc) (h : r ∉ RW_0) : RY_0 V (no_index (Proc.devRef .tc r)) = V (Proc.devRef .tc r) :=
  after_of_writes_sub rops_0 _ rwrites_0 h

/-- The buffer contents after stretches 0 … 1. -/
def RY_1 (V : Valuation τ sig (Elt F)) : Valuation τ sig (Elt F) := after rops_1 (RY_0 V)
theorem RY_1_def (V : Valuation τ sig (Elt F)) : RY_1 V = after rops_1 (RY_0 V) := rfl
theorem rkeep_1 (V : Valuation τ sig (Elt F)) (r : Ref sig .tc) (h : r ∉ RW_1) : RY_1 V (no_index (Proc.devRef .tc r)) = RY_0 V (Proc.devRef .tc r) :=
  after_of_writes_sub rops_1 _ rwrites_1 h

/-- The buffer contents after stretches 0 … 2. -/
def RY_2 (V : Valuation τ sig (Elt F)) : Valuation τ sig (Elt F) := after rops_2 (RY_1 V)
theorem RY_2_def (V : Valuation τ sig (Elt F)) : RY_2 V = after rops_2 (RY_1 V) := rfl
theorem rkeep_2 (V : Valuation τ sig (Elt F)) (r : Ref sig .tc) (h : r ∉ RW_2) : RY_2 V (no_index (Proc.devRef .tc r)) = RY_1 V (Proc.devRef .tc r) :=
  after_of_writes_sub rops_2 _ rwrites_2 h

/-- The buffer contents after stretches 0 … 3. -/
def RY_3 (V : Valuation τ sig (Elt F)) : Valuation τ sig (Elt F) := after rops_3 (RY_2 V)
theorem RY_3_def (V : Valuation τ sig (Elt F)) : RY_3 V = after rops_3 (RY_2 V) := rfl
theorem rkeep_3 (V : Valuation τ sig (Elt F)) (r : Ref sig .tc) (h : r ∉ RW_3) : RY_3 V (no_index (Proc.devRef .tc r)) = RY_2 V (Proc.devRef .tc r) :=
  after_of_writes_sub rops_3 _ rwrites_3 h

/-- The buffer contents after stretches 0 … 4. -/
def RY_4 (V : Valuation τ sig (Elt F)) : Valuation τ sig (Elt F) := after rops_4 (RY_3 V)
theorem RY_4_def (V : Valuation τ sig (Elt F)) : RY_4 V = after rops_4 (RY_3 V) := rfl
theorem rkeep_4 (V : Valuation τ sig (Elt F)) (r : Ref sig .tc) (h : r ∉ RW_4) : RY_4 V (no_index (Proc.devRef .tc r)) = RY_3 V (Proc.devRef .tc r) :=
  after_of_writes_sub rops_4 _ rwrites_4 h

/-- The buffer contents after stretches 0 … 5. -/
def RY_5 (V : Valuation τ sig (Elt F)) : Valuation τ sig (Elt F) := after rops_5 (RY_4 V)
theorem RY_5_def (V : Valuation τ sig (Elt F)) : RY_5 V = after rops_5 (RY_4 V) := rfl
theorem rkeep_5 (V : Valuation τ sig (Elt F)) (r : Ref sig .tc) (h : r ∉ RW_5) : RY_5 V (no_index (Proc.devRef .tc r)) = RY_4 V (Proc.devRef .tc r) :=
  after_of_writes_sub rops_5 _ rwrites_5 h

/-- The buffer contents after stretches 0 … 6. -/
def RY_6 (V : Valuation τ sig (Elt F)) : Valuation τ sig (Elt F) := after rops_6 (RY_5 V)
theorem RY_6_def (V : Valuation τ sig (Elt F)) : RY_6 V = after rops_6 (RY_5 V) := rfl
theorem rkeep_6 (V : Valuation τ sig (Elt F)) (r : Ref sig .tc) (h : r ∉ RW_6) : RY_6 V (no_index (Proc.devRef .tc r)) = RY_5 V (Proc.devRef .tc r) :=
  after_of_writes_sub rops_6 _ rwrites_6 h

/-- The buffer contents after stretches 0 … 7. -/
def RY_7 (V : Valuation τ sig (Elt F)) : Valuation τ sig (Elt F) := after rops_7 (RY_6 V)
theorem RY_7_def (V : Valuation τ sig (Elt F)) : RY_7 V = after rops_7 (RY_6 V) := rfl
theorem rkeep_7 (V : Valuation τ sig (Elt F)) (r : Ref sig .tc) (h : r ∉ RW_7) : RY_7 V (no_index (Proc.devRef .tc r)) = RY_6 V (Proc.devRef .tc r) :=
  after_of_writes_sub rops_7 _ rwrites_7 h

/-- The buffer contents after stretches 0 … 8. -/
def RY_8 (V : Valuation τ sig (Elt F)) : Valuation τ sig (Elt F) := after rops_8 (RY_7 V)
theorem RY_8_def (V : Valuation τ sig (Elt F)) : RY_8 V = after rops_8 (RY_7 V) := rfl
theorem rkeep_8 (V : Valuation τ sig (Elt F)) (r : Ref sig .tc) (h : r ∉ RW_8) : RY_8 V (no_index (Proc.devRef .tc r)) = RY_7 V (Proc.devRef .tc r) :=
  after_of_writes_sub rops_8 _ rwrites_8 h

/-- The buffer contents after stretches 0 … 9. -/
def RY_9 (V : Valuation τ sig (Elt F)) : Valuation τ sig (Elt F) := after rops_9 (RY_8 V)
theorem RY_9_def (V : Valuation τ sig (Elt F)) : RY_9 V = after rops_9 (RY_8 V) := rfl
theorem rkeep_9 (V : Valuation τ sig (Elt F)) (r : Ref sig .tc) (h : r ∉ RW_9) : RY_9 V (no_index (Proc.devRef .tc r)) = RY_8 V (Proc.devRef .tc r) :=
  after_of_writes_sub rops_9 _ rwrites_9 h

/-- The buffer contents after stretches 0 … 10. -/
def RY_10 (V : Valuation τ sig (Elt F)) : Valuation τ sig (Elt F) := after rops_10 (RY_9 V)
theorem RY_10_def (V : Valuation τ sig (Elt F)) : RY_10 V = after rops_10 (RY_9 V) := rfl
theorem rkeep_10 (V : Valuation τ sig (Elt F)) (r : Ref sig .tc) (h : r ∉ RW_10) : RY_10 V (no_index (Proc.devRef .tc r)) = RY_9 V (Proc.devRef .tc r) :=
  after_of_writes_sub rops_10 _ rwrites_10 h

/-- The buffer contents after stretches 0 … 11. -/
def RY_11 (V : Valuation τ sig (Elt F)) : Valuation τ sig (Elt F) := after rops_11 (RY_10 V)
theorem RY_11_def (V : Valuation τ sig (Elt F)) : RY_11 V = after rops_11 (RY_10 V) := rfl
theorem rkeep_11 (V : Valuation τ sig (Elt F)) (r : Ref sig .tc) (h : r ∉ RW_11) : RY_11 V (no_index (Proc.devRef .tc r)) = RY_10 V (Proc.devRef .tc r) :=
  after_of_writes_sub rops_11 _ rwrites_11 h

/-- The buffer contents after stretches 0 … 12. -/
def RY_12 (V : Valuation τ sig (Elt F)) : Valuation τ sig (Elt F) := after rops_12 (RY_11 V)
theorem RY_12_def (V : Valuation τ sig (Elt F)) : RY_12 V = after rops_12 (RY_11 V) := rfl
theorem rkeep_12 (V : Valuation τ sig (Elt F)) (r : Ref sig .tc) (h : r ∉ RW_12) : RY_12 V (no_index (Proc.devRef .tc r)) = RY_11 V (Proc.devRef .tc r) :=
  after_of_writes_sub rops_12 _ rwrites_12 h

/-- The buffer contents after stretches 0 … 13. -/
def RY_13 (V : Valuation τ sig (Elt F)) : Valuation τ sig (Elt F) := after rops_13 (RY_12 V)
theorem RY_13_def (V : Valuation τ sig (Elt F)) : RY_13 V = after rops_13 (RY_12 V) := rfl
theorem rkeep_13 (V : Valuation τ sig (Elt F)) (r : Ref sig .tc) (h : r ∉ RW_13) : RY_13 V (no_index (Proc.devRef .tc r)) = RY_12 V (Proc.devRef .tc r) :=
  after_of_writes_sub rops_13 _ rwrites_13 h

/-- The buffer contents after stretches 0 … 14. -/
def RY_14 (V : Valuation τ sig (Elt F)) : Valuation τ sig (Elt F) := after rops_14 (RY_13 V)
theorem RY_14_def (V : Valuation τ sig (Elt F)) : RY_14 V = after rops_14 (RY_13 V) := rfl
theorem rkeep_14 (V : Valuation τ sig (Elt F)) (r : Ref sig .tc) (h : r ∉ RW_14) : RY_14 V (no_index (Proc.devRef .tc r)) = RY_13 V (Proc.devRef .tc r) :=
  after_of_writes_sub rops_14 _ rwrites_14 h

/-- The buffer contents after stretches 0 … 15. -/
def RY_15 (V : Valuation τ sig (Elt F)) : Valuation τ sig (Elt F) := after rops_15 (RY_14 V)
theorem RY_15_def (V : Valuation τ sig (Elt F)) : RY_15 V = after rops_15 (RY_14 V) := rfl
theorem rkeep_15 (V : Valuation τ sig (Elt F)) (r : Ref sig .tc) (h : r ∉ RW_15) : RY_15 V (no_index (Proc.devRef .tc r)) = RY_14 V (Proc.devRef .tc r) :=
  after_of_writes_sub rops_15 _ rwrites_15 h

/-- The buffer contents after stretches 0 … 16. -/
def RY_16 (V : Valuation τ sig (Elt F)) : Valuation τ sig (Elt F) := after rops_16 (RY_15 V)
theorem RY_16_def (V : Valuation τ sig (Elt F)) : RY_16 V = after rops_16 (RY_15 V) := rfl
theorem rkeep_16 (V : Valuation τ sig (Elt F)) (r : Ref sig .tc) (h : r ∉ RW_16) : RY_16 V (no_index (Proc.devRef .tc r)) = RY_15 V (Proc.devRef .tc r) :=
  after_of_writes_sub rops_16 _ rwrites_16 h

/-- The buffer contents after stretches 0 … 17. -/
def RY_17 (V : Valuation τ sig (Elt F)) : Valuation τ sig (Elt F) := after rops_17 (RY_16 V)
theorem RY_17_def (V : Valuation τ sig (Elt F)) : RY_17 V = after rops_17 (RY_16 V) := rfl
theorem rkeep_17 (V : Valuation τ sig (Elt F)) (r : Ref sig .tc) (h : r ∉ RW_17) : RY_17 V (no_index (Proc.devRef .tc r)) = RY_16 V (Proc.devRef .tc r) :=
  after_of_writes_sub rops_17 _ rwrites_17 h

/-- The buffer contents after stretches 0 … 18. -/
def RY_18 (V : Valuation τ sig (Elt F)) : Valuation τ sig (Elt F) := after rops_18 (RY_17 V)
theorem RY_18_def (V : Valuation τ sig (Elt F)) : RY_18 V = after rops_18 (RY_17 V) := rfl
theorem rkeep_18 (V : Valuation τ sig (Elt F)) (r : Ref sig .tc) (h : r ∉ RW_18) : RY_18 V (no_index (Proc.devRef .tc r)) = RY_17 V (Proc.devRef .tc r) :=
  after_of_writes_sub rops_18 _ rwrites_18 h

/-- The buffer contents after stretches 0 … 19. -/
def RY_19 (V : Valuation τ sig (Elt F)) : Valuation τ sig (Elt F) := after rops_19 (RY_18 V)
theorem RY_19_def (V : Valuation τ sig (Elt F)) : RY_19 V = after rops_19 (RY_18 V) := rfl
theorem rkeep_19 (V : Valuation τ sig (Elt F)) (r : Ref sig .tc) (h : r ∉ RW_19) : RY_19 V (no_index (Proc.devRef .tc r)) = RY_18 V (Proc.devRef .tc r) :=
  after_of_writes_sub rops_19 _ rwrites_19 h

/-- The buffer contents after stretches 0 … 20. -/
def RY_20 (V : Valuation τ sig (Elt F)) : Valuation τ sig (Elt F) := after rops_20 (RY_19 V)
theorem RY_20_def (V : Valuation τ sig (Elt F)) : RY_20 V = after rops_20 (RY_19 V) := rfl
theorem rkeep_20 (V : Valuation τ sig (Elt F)) (r : Ref sig .tc) (h : r ∉ RW_20) : RY_20 V (no_index (Proc.devRef .tc r)) = RY_19 V (Proc.devRef .tc r) :=
  after_of_writes_sub rops_20 _ rwrites_20 h

/-- All the operations in a row leave the contents after the last stretch. -/
theorem ops_after (V : Valuation τ sig (Elt F)) : after (ops : List (HloOp τ sig (Elt F))) V = RY_20 V := by
  simp only [ops, after_append]; rfl

/-- An argument of @main, which no stretch writes, keeps its contents to the end. -/
theorem rkeep_all (V : Valuation τ sig (Elt F)) (r : Ref sig .tc) (h0 : r ∉ RW_0) (h1 : r ∉ RW_1) (h2 : r ∉ RW_2) (h3 : r ∉ RW_3) (h4 : r ∉ RW_4) (h5 : r ∉ RW_5) (h6 : r ∉ RW_6) (h7 : r ∉ RW_7) (h8 : r ∉ RW_8) (h9 : r ∉ RW_9) (h10 : r ∉ RW_10) (h11 : r ∉ RW_11) (h12 : r ∉ RW_12) (h13 : r ∉ RW_13) (h14 : r ∉ RW_14) (h15 : r ∉ RW_15) (h16 : r ∉ RW_16) (h17 : r ∉ RW_17) (h18 : r ∉ RW_18) (h19 : r ∉ RW_19) (h20 : r ∉ RW_20) :
    RY_20 V (Proc.devRef .tc r) = V (Proc.devRef .tc r) :=
  (((((((((((((((((((((rkeep_20 V r h20).trans (rkeep_19 V r h19)).trans (rkeep_18 V r h18)).trans (rkeep_17 V r h17)).trans (rkeep_16 V r h16)).trans (rkeep_15 V r h15)).trans (rkeep_14 V r h14)).trans (rkeep_13 V r h13)).trans (rkeep_12 V r h12)).trans (rkeep_11 V r h11)).trans (rkeep_10 V r h10)).trans (rkeep_9 V r h9)).trans (rkeep_8 V r h8)).trans (rkeep_7 V r h7)).trans (rkeep_6 V r h6)).trans (rkeep_5 V r h5)).trans (rkeep_4 V r h4)).trans (rkeep_3 V r h3)).trans (rkeep_2 V r h2)).trans (rkeep_1 V r h1)).trans (rkeep_0 V r h0))

attribute [irreducible] RY_0 RY_1 RY_2 RY_3 RY_4 RY_5 RY_6 RY_7 RY_8 RY_9 RY_10 RY_11 RY_12 RY_13 RY_14 RY_15 RY_16 RY_17 RY_18 RY_19 RY_20

/-- On every device, from any memory with zero counters: every weakly fair execution of @main terminates with each
    TensorCore buffer at its contents after the last stretch, started from the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = RY_20 (launchContents m d) (Proc.devRef .tc b) :=
  (θ_run defs _ _).mono (fun _ h d b => (h d b).trans (congrFun (ops_after (launchContents m d)) (Proc.devRef .tc b)))
    (run_seq scopedRefs_eq scopedSems_eq defs main (fun _ => ops) main_eq (fun _ => ops_sub) m ρ (hfresh := fun _ => ops_fresh))

end Cert.ReferenceIdeal.Seg

end
-- ==== Proof.RFacts0.lean ====
/- Written by: bun scratch/gen_rsegs.js (run from the unit directory; it reads scratch/RefRun_generated.lean, a verbatim copy of the
   generated run module of the reference program, and proof/Proof/RefReadP.lean).
   The reference program's run read back, part 0 of 5: for each buffer a later stretch of operations reads (and for @main's result),
   its contents after the stretch that writes it are the stage value of that name — the operation's function of its
   operands' stage values, as a function of @main's arguments. -/
import proofs.«153486_j83854941487213_2_alg».proof.Proof.RSegs
import proofs.«153486_j83854941487213_2_alg».proof.Proof.RefReadP

set_option maxRecDepth 16384

noncomputable section

namespace Cert.ReferenceIdeal.Seg

open Cert.ReferenceIdeal Cert.ReferenceIdeal.Gen Idealize.ShloMosaic Idealize.ShloMosaic.TcCoe Idealize.SL.Sem Idealize.ShloMosaic.StableHlo

variable {F : FTy → Type} [FloatOps F]

/-- The tail of a literal family, by computation (so that a rewriting pass may use it on a reference a buffer's type depends on). -/
theorem vecTail_cons_rfl {α : Type} {m : Nat} (x : α) (u : Fin m → α) : Matrix.vecTail (Matrix.vecCons x u) = u := rfl

theorem ry_main_v1 (V : Valuation τ sig (Elt F)) :
    RY_0 V (no_index (Proc.devRef .tc main_v1)) = Cert.ReferenceIdeal.Read.val_main_v1 (F := F) (V (Proc.devRef .tc main_arg0)) := by
  rw [RY_0_def]
  after_results_mx
  try after_results_mx
  try after_results_mx
  rfl

theorem ry_main_v2 (V : Valuation τ sig (Elt F)) :
    RY_0 V (no_index (Proc.devRef .tc main_v2)) = Cert.ReferenceIdeal.Read.val_main_v2 (F := F) (V (Proc.devRef .tc main_arg0)) := by
  rw [RY_0_def]
  after_results_mx
  try after_results_mx
  try after_results_mx
  rfl

theorem ry_main_v6 (V : Valuation τ sig (Elt F)) :
    RY_0 V (no_index (Proc.devRef .tc main_v6)) = Cert.ReferenceIdeal.Read.val_main_v6 (F := F) (V (Proc.devRef .tc main_arg3)) := by
  rw [RY_0_def]
  after_results_mx
  try after_results_mx
  try after_results_mx
  rfl

theorem ry_main_v10 (V : Valuation τ sig (Elt F)) :
    RY_0 V (no_index (Proc.devRef .tc main_v10)) = Cert.ReferenceIdeal.Read.val_main_v10 (F := F) (V (Proc.devRef .tc main_arg3)) := by
  rw [RY_0_def]
  after_results_mx
  try after_results_mx
  try after_results_mx
  rfl

theorem ry_main_v14 (V : Valuation τ sig (Elt F)) :
    RY_0 V (no_index (Proc.devRef .tc main_v14)) = Cert.ReferenceIdeal.Read.val_main_v14 (F := F) (V (Proc.devRef .tc main_arg3)) := by
  rw [RY_0_def]
  after_results_mx
  try after_results_mx
  try after_results_mx
  rfl

theorem ry_main_v18 (V : Valuation τ sig (Elt F)) :
    RY_0 V (no_index (Proc.devRef .tc main_v18)) = Cert.ReferenceIdeal.Read.val_main_v18 (F := F) (V (Proc.devRef .tc main_arg3)) := by
  rw [RY_0_def]
  after_results_mx
  try after_results_mx
  try after_results_mx
  rfl

theorem ry_main_v20 (V : Valuation τ sig (Elt F)) :
    RY_0 V (no_index (Proc.devRef .tc main_v20)) = Cert.ReferenceIdeal.Read.val_main_v20 (F := F) (V (Proc.devRef .tc main_arg3)) := by
  rw [RY_0_def]
  after_results_mx
  try after_results_mx
  try after_results_mx
  rfl

theorem ry_main_call1_v2 (V : Valuation τ sig (Elt F)) :
    RY_0 V (no_index (Proc.devRef .tc main_call1_v2)) = Cert.ReferenceIdeal.Read.val_main_call1_v2 (F := F) (V (Proc.devRef .tc main_arg3)) := by
  rw [RY_0_def]
  after_results_mx
  try after_results_mx
  try after_results_mx
  rfl

theorem ry_main_call1_v4 (V : Valuation τ sig (Elt F)) :
    RY_0 V (no_index (Proc.devRef .tc main_call1_v4)) = Cert.ReferenceIdeal.Read.val_main_call1_v4 (F := F) := by
  rw [RY_0_def]
  after_results_mx
  try after_results_mx
  try after_results_mx
  rfl

theorem ry_main_v22 (V : Valuation τ sig (Elt F)) :
    RY_1 V (no_index (Proc.devRef .tc main_v22)) = Cert.ReferenceIdeal.Read.val_main_v22 (F := F) (V (Proc.devRef .tc main_arg3)) := by
  rw [RY_1_def]
  generalize hY : RY_0 V = Y
  after_results_mx
  try after_results_mx
  try after_results_mx
  subst hY
  simp (disch := decide) only [rkeep_0, ry_main_call1_v2, ry_main_call1_v4] <;> rfl

theorem ry_main_v24 (V : Valuation τ sig (Elt F)) :
    RY_1 V (no_index (Proc.devRef .tc main_v24)) = Cert.ReferenceIdeal.Read.val_main_v24 (F := F) := by
  rw [RY_1_def]
  generalize hY : RY_0 V = Y
  after_results_mx
  try after_results_mx
  try after_results_mx
  subst hY
  rfl

theorem ry_main_v25 (V : Valuation τ sig (Elt F)) :
    RY_1 V (no_index (Proc.devRef .tc main_v25)) = Cert.ReferenceIdeal.Read.val_main_v25 (F := F) := by
  rw [RY_1_def]
  generalize hY : RY_0 V = Y
  after_results_mx
  try after_results_mx
  try after_results_mx
  subst hY
  rfl

theorem ry_main_v48 (V : Valuation τ sig (Elt F)) :
    RY_1 V (no_index (Proc.devRef .tc main_v48)) = Cert.ReferenceIdeal.Read.val_main_v48 (F := F) (V (Proc.devRef .tc main_arg3)) := by
  rw [RY_1_def]
  generalize hY : RY_0 V = Y
  after_results_mx
  unfold Cert.ReferenceIdeal.Read.val_main_v48
  refine concat4_congr _ _ _ _ _ _ _ _ ?_ ?_ ?_ ?_
  all_goals (try simp only [vecTail_cons_rfl, Matrix.head_cons])
  all_goals (try after_results_mx)
  all_goals (try after_results_mx)
  all_goals (subst hY)
  all_goals (try simp (disch := decide) only [rkeep_0, ry_main_v20, ry_main_call1_v2, ry_main_call1_v4])
  all_goals (try rfl)

theorem ry_main_v50 (V : Valuation τ sig (Elt F)) :
    RY_2 V (no_index (Proc.devRef .tc main_v50)) = Cert.ReferenceIdeal.Read.val_main_v50 (F := F) (V (Proc.devRef .tc main_arg3)) := by
  rw [RY_2_def]
  generalize hY : RY_1 V = Y
  after_results_mx
  try after_results_mx
  try after_results_mx
  subst hY
  simp (disch := decide) only [rkeep_1, rkeep_0, ry_main_v25, ry_main_v48] <;> rfl

theorem ry_main_v70 (V : Valuation τ sig (Elt F)) :
    RY_2 V (no_index (Proc.devRef .tc main_v70)) = Cert.ReferenceIdeal.Read.val_main_v70 (F := F) (V (Proc.devRef .tc main_arg3)) := by
  rw [RY_2_def]
  generalize hY : RY_1 V = Y
  after_results_mx
  unfold Cert.ReferenceIdeal.Read.val_main_v70
  refine concat3_congr _ _ _ _ _ _ _ ?_ ?_ ?_
  all_goals (try simp only [vecTail_cons_rfl, Matrix.head_cons])
  all_goals (try after_results_mx)
  all_goals (try after_results_mx)
  all_goals (subst hY)
  all_goals (try simp (disch := decide) only [rkeep_1, rkeep_0, ry_main_v20, ry_main_v22, ry_main_v24])
  all_goals (try rfl)

theorem ry_main_v72 (V : Valuation τ sig (Elt F)) :
    RY_3 V (no_index (Proc.devRef .tc main_v72)) = Cert.ReferenceIdeal.Read.val_main_v72 (F := F) (V (Proc.devRef .tc main_arg0)) (V (Proc.devRef .tc main_arg3)) := by
  rw [RY_3_def]
  generalize hY : RY_2 V = Y
  after_results_mx
  try after_results_mx
  try after_results_mx
  subst hY
  simp (disch := decide) only [rkeep_2, rkeep_1, rkeep_0, ry_main_v1, ry_main_v70] <;> rfl

end Cert.ReferenceIdeal.Seg

end
-- ==== Proof.RFacts1.lean ====
/- Written by: bun scratch/gen_rsegs.js (run from the unit directory; it reads scratch/RefRun_generated.lean, a verbatim copy of the
   generated run module of the reference program, and proof/Proof/RefReadP.lean).
   The reference program's run read back, part 1 of 5: for each buffer a later stretch of operations reads (and for @main's result),
   its contents after the stretch that writes it are the stage value of that name — the operation's function of its
   operands' stage values, as a function of @main's arguments. -/
import proofs.«153486_j83854941487213_2_alg».proof.Proof.RSegs
import proofs.«153486_j83854941487213_2_alg».proof.Proof.RefReadP
import proofs.«153486_j83854941487213_2_alg».proof.Proof.RFacts0

set_option maxRecDepth 16384

noncomputable section

namespace Cert.ReferenceIdeal.Seg

open Cert.ReferenceIdeal Cert.ReferenceIdeal.Gen Idealize.ShloMosaic Idealize.ShloMosaic.TcCoe Idealize.SL.Sem Idealize.ShloMosaic.StableHlo

variable {F : FTy → Type} [FloatOps F]

theorem ry_main_v85 (V : Valuation τ sig (Elt F)) :
    RY_3 V (no_index (Proc.devRef .tc main_v85)) = Cert.ReferenceIdeal.Read.val_main_v85 (F := F) (V (Proc.devRef .tc main_arg3)) := by
  rw [RY_3_def]
  generalize hY : RY_2 V = Y
  after_results_mx
  unfold Cert.ReferenceIdeal.Read.val_main_v85
  refine concat4_congr _ _ _ _ _ _ _ _ ?_ ?_ ?_ ?_
  all_goals (try simp only [vecTail_cons_rfl, Matrix.head_cons])
  all_goals (try after_results_mx)
  all_goals (try after_results_mx)
  all_goals (subst hY)
  all_goals (try simp (disch := decide) only [rkeep_2, rkeep_1, rkeep_0, ry_main_v6, ry_main_v10, ry_main_v14, ry_main_v18, ry_main_v20, ry_main_v22])
  all_goals (try rfl)

theorem ry_main_v91 (V : Valuation τ sig (Elt F)) :
    RY_4 V (no_index (Proc.devRef .tc main_v91)) = Cert.ReferenceIdeal.Read.val_main_v91 (F := F) (V (Proc.devRef .tc main_arg0)) (V (Proc.devRef .tc main_arg3)) := by
  rw [RY_4_def]
  generalize hY : RY_3 V = Y
  after_results_mx
  try after_results_mx
  try after_results_mx
  subst hY
  simp (disch := decide) only [rkeep_3, rkeep_2, rkeep_1, rkeep_0, ry_main_v72, ry_main_v85] <;> rfl

theorem ry_main_v111 (V : Valuation τ sig (Elt F)) :
    RY_4 V (no_index (Proc.devRef .tc main_v111)) = Cert.ReferenceIdeal.Read.val_main_v111 (F := F) (V (Proc.devRef .tc main_arg3)) := by
  rw [RY_4_def]
  generalize hY : RY_3 V = Y
  after_results_mx
  unfold Cert.ReferenceIdeal.Read.val_main_v111
  refine concat3_congr _ _ _ _ _ _ _ ?_ ?_ ?_
  all_goals (try simp only [vecTail_cons_rfl, Matrix.head_cons])
  all_goals (try after_results_mx)
  all_goals (try after_results_mx)
  all_goals (subst hY)
  all_goals (try simp (disch := decide) only [rkeep_3, rkeep_2, rkeep_1, rkeep_0, ry_main_v20, ry_main_v22, ry_main_v24])
  all_goals (try rfl)

theorem ry_main_v120 (V : Valuation τ sig (Elt F)) :
    RY_5 V (no_index (Proc.devRef .tc main_v120)) = Cert.ReferenceIdeal.Read.val_main_v120 (F := F) (V (Proc.devRef .tc main_arg0)) (V (Proc.devRef .tc main_arg3)) (V (Proc.devRef .tc main_arg4)) := by
  rw [RY_5_def]
  generalize hY : RY_4 V = Y
  after_results_mx
  try after_results_mx
  try after_results_mx
  subst hY
  simp (disch := decide) only [rkeep_4, rkeep_3, rkeep_2, rkeep_1, rkeep_0, ry_main_v2, ry_main_v111] <;> rfl

theorem ry_main_v127 (V : Valuation τ sig (Elt F)) :
    RY_5 V (no_index (Proc.devRef .tc main_v127)) = Cert.ReferenceIdeal.Read.val_main_v127 (F := F) (V (Proc.devRef .tc main_arg0)) := by
  rw [RY_5_def]
  generalize hY : RY_4 V = Y
  after_results_mx
  try after_results_mx
  try after_results_mx
  subst hY
  simp (disch := decide) only [rkeep_4, rkeep_3, rkeep_2, rkeep_1, rkeep_0, ry_main_v1] <;> rfl

theorem ry_main_v136 (V : Valuation τ sig (Elt F)) :
    RY_6 V (no_index (Proc.devRef .tc main_v136)) = Cert.ReferenceIdeal.Read.val_main_v136 (F := F) (V (Proc.devRef .tc main_arg0)) (V (Proc.devRef .tc main_arg3)) := by
  rw [RY_6_def]
  generalize hY : RY_5 V = Y
  after_results_mx
  try after_results_mx
  try after_results_mx
  subst hY
  simp (disch := decide) only [rkeep_5, rkeep_4, rkeep_3, rkeep_2, rkeep_1, rkeep_0, ry_main_v91] <;> rfl

theorem ry_main_v137 (V : Valuation τ sig (Elt F)) :
    RY_6 V (no_index (Proc.devRef .tc main_v137)) = Cert.ReferenceIdeal.Read.val_main_v137 (F := F) (V (Proc.devRef .tc main_arg0)) (V (Proc.devRef .tc main_arg3)) := by
  rw [RY_6_def]
  generalize hY : RY_5 V = Y
  after_results_mx
  try after_results_mx
  try after_results_mx
  subst hY
  simp (disch := decide) only [rkeep_5, rkeep_4, rkeep_3, rkeep_2, rkeep_1, rkeep_0, ry_main_v50, ry_main_v127] <;> rfl

theorem ry_main_v138 (V : Valuation τ sig (Elt F)) :
    RY_6 V (no_index (Proc.devRef .tc main_v138)) = Cert.ReferenceIdeal.Read.val_main_v138 (F := F) (V (Proc.devRef .tc main_arg0)) (V (Proc.devRef .tc main_arg3)) (V (Proc.devRef .tc main_arg4)) := by
  rw [RY_6_def]
  generalize hY : RY_5 V = Y
  after_results_mx
  try after_results_mx
  try after_results_mx
  subst hY
  simp (disch := decide) only [rkeep_5, rkeep_4, rkeep_3, rkeep_2, rkeep_1, rkeep_0, ry_main_v120] <;> rfl

theorem ry_main_v139 (V : Valuation τ sig (Elt F)) :
    RY_6 V (no_index (Proc.devRef .tc main_v139)) = Cert.ReferenceIdeal.Read.val_main_v139 (F := F) (V (Proc.devRef .tc main_arg1)) := by
  rw [RY_6_def]
  generalize hY : RY_5 V = Y
  after_results_mx
  try after_results_mx
  try after_results_mx
  subst hY
  simp (disch := decide) only [rkeep_5, rkeep_4, rkeep_3, rkeep_2, rkeep_1, rkeep_0] <;> rfl

theorem ry_main_v140 (V : Valuation τ sig (Elt F)) :
    RY_7 V (no_index (Proc.devRef .tc main_v140)) = Cert.ReferenceIdeal.Read.val_main_v140 (F := F) (V (Proc.devRef .tc main_arg1)) := by
  rw [RY_7_def]
  generalize hY : RY_6 V = Y
  after_results_mx
  try after_results_mx
  try after_results_mx
  subst hY
  simp (disch := decide) only [rkeep_6, rkeep_5, rkeep_4, rkeep_3, rkeep_2, rkeep_1, rkeep_0, ry_main_v139] <;> rfl

theorem ry_main_v141 (V : Valuation τ sig (Elt F)) :
    RY_7 V (no_index (Proc.devRef .tc main_v141)) = Cert.ReferenceIdeal.Read.val_main_v141 (F := F) (V (Proc.devRef .tc main_arg1)) := by
  rw [RY_7_def]
  generalize hY : RY_6 V = Y
  after_results_mx
  try after_results_mx
  try after_results_mx
  subst hY
  simp (disch := decide) only [rkeep_6, rkeep_5, rkeep_4, rkeep_3, rkeep_2, rkeep_1, rkeep_0, ry_main_v139] <;> rfl

theorem ry_main_v145 (V : Valuation τ sig (Elt F)) :
    RY_7 V (no_index (Proc.devRef .tc main_v145)) = Cert.ReferenceIdeal.Read.val_main_v145 (F := F) (V (Proc.devRef .tc main_arg3)) := by
  rw [RY_7_def]
  generalize hY : RY_6 V = Y
  after_results_mx
  try after_results_mx
  try after_results_mx
  subst hY
  simp (disch := decide) only [rkeep_6, rkeep_5, rkeep_4, rkeep_3, rkeep_2, rkeep_1, rkeep_0] <;> rfl

theorem ry_main_v149 (V : Valuation τ sig (Elt F)) :
    RY_7 V (no_index (Proc.devRef .tc main_v149)) = Cert.ReferenceIdeal.Read.val_main_v149 (F := F) (V (Proc.devRef .tc main_arg3)) := by
  rw [RY_7_def]
  generalize hY : RY_6 V = Y
  after_results_mx
  try after_results_mx
  try after_results_mx
  subst hY
  simp (disch := decide) only [rkeep_6, rkeep_5, rkeep_4, rkeep_3, rkeep_2, rkeep_1, rkeep_0] <;> rfl

theorem ry_main_v153 (V : Valuation τ sig (Elt F)) :
    RY_7 V (no_index (Proc.devRef .tc main_v153)) = Cert.ReferenceIdeal.Read.val_main_v153 (F := F) (V (Proc.devRef .tc main_arg3)) := by
  rw [RY_7_def]
  generalize hY : RY_6 V = Y
  after_results_mx
  try after_results_mx
  try after_results_mx
  subst hY
  simp (disch := decide) only [rkeep_6, rkeep_5, rkeep_4, rkeep_3, rkeep_2, rkeep_1, rkeep_0] <;> rfl

theorem ry_main_v157 (V : Valuation τ sig (Elt F)) :
    RY_7 V (no_index (Proc.devRef .tc main_v157)) = Cert.ReferenceIdeal.Read.val_main_v157 (F := F) (V (Proc.devRef .tc main_arg3)) := by
  rw [RY_7_def]
  generalize hY : RY_6 V = Y
  after_results_mx
  try after_results_mx
  try after_results_mx
  subst hY
  simp (disch := decide) only [rkeep_6, rkeep_5, rkeep_4, rkeep_3, rkeep_2, rkeep_1, rkeep_0] <;> rfl

theorem ry_main_v159 (V : Valuation τ sig (Elt F)) :
    RY_7 V (no_index (Proc.devRef .tc main_v159)) = Cert.ReferenceIdeal.Read.val_main_v159 (F := F) (V (Proc.devRef .tc main_arg3)) := by
  rw [RY_7_def]
  generalize hY : RY_6 V = Y
  after_results_mx
  try after_results_mx
  try after_results_mx
  subst hY
  simp (disch := decide) only [rkeep_6, rkeep_5, rkeep_4, rkeep_3, rkeep_2, rkeep_1, rkeep_0] <;> rfl

end Cert.ReferenceIdeal.Seg

end
-- ==== Proof.RFacts2.lean ====
/- Written by: bun scratch/gen_rsegs.js (run from the unit directory; it reads scratch/RefRun_generated.lean, a verbatim copy of the
   generated run module of the reference program, and proof/Proof/RefReadP.lean).
   The reference program's run read back, part 2 of 5: for each buffer a later stretch of operations reads (and for @main's result),
   its contents after the stretch that writes it are the stage value of that name — the operation's function of its
   operands' stage values, as a function of @main's arguments. -/
import proofs.«153486_j83854941487213_2_alg».proof.Proof.RSegs
import proofs.«153486_j83854941487213_2_alg».proof.Proof.RefReadP
import proofs.«153486_j83854941487213_2_alg».proof.Proof.RFacts1

set_option maxRecDepth 16384

noncomputable section

namespace Cert.ReferenceIdeal.Seg

open Cert.ReferenceIdeal Cert.ReferenceIdeal.Gen Idealize.ShloMosaic Idealize.ShloMosaic.TcCoe Idealize.SL.Sem Idealize.ShloMosaic.StableHlo

variable {F : FTy → Type} [FloatOps F]

theorem ry_main_v161 (V : Valuation τ sig (Elt F)) :
    RY_7 V (no_index (Proc.devRef .tc main_v161)) = Cert.ReferenceIdeal.Read.val_main_v161 (F := F) (V (Proc.devRef .tc main_arg3)) := by
  rw [RY_7_def]
  generalize hY : RY_6 V = Y
  after_results_mx
  try after_results_mx
  try after_results_mx
  subst hY
  simp (disch := decide) only [rkeep_6, rkeep_5, rkeep_4, rkeep_3, rkeep_2, rkeep_1, rkeep_0] <;> rfl

theorem ry_main_v163 (V : Valuation τ sig (Elt F)) :
    RY_8 V (no_index (Proc.devRef .tc main_v163)) = Cert.ReferenceIdeal.Read.val_main_v163 (F := F) := by
  rw [RY_8_def]
  generalize hY : RY_7 V = Y
  after_results_mx
  try after_results_mx
  try after_results_mx
  subst hY
  rfl

theorem ry_main_v164 (V : Valuation τ sig (Elt F)) :
    RY_8 V (no_index (Proc.devRef .tc main_v164)) = Cert.ReferenceIdeal.Read.val_main_v164 (F := F) := by
  rw [RY_8_def]
  generalize hY : RY_7 V = Y
  after_results_mx
  try after_results_mx
  try after_results_mx
  subst hY
  rfl

theorem ry_main_v187 (V : Valuation τ sig (Elt F)) :
    RY_8 V (no_index (Proc.devRef .tc main_v187)) = Cert.ReferenceIdeal.Read.val_main_v187 (F := F) (V (Proc.devRef .tc main_arg3)) := by
  rw [RY_8_def]
  generalize hY : RY_7 V = Y
  after_results_mx
  unfold Cert.ReferenceIdeal.Read.val_main_v187
  refine concat4_congr _ _ _ _ _ _ _ _ ?_ ?_ ?_ ?_
  all_goals (try simp only [vecTail_cons_rfl, Matrix.head_cons])
  all_goals (try after_results_mx)
  all_goals (try after_results_mx)
  all_goals (subst hY)
  all_goals (try simp (disch := decide) only [rkeep_7, rkeep_6, rkeep_5, rkeep_4, rkeep_3, rkeep_2, rkeep_1, rkeep_0, ry_main_v159, ry_main_v161])
  all_goals (try rfl)

theorem ry_main_v189 (V : Valuation τ sig (Elt F)) :
    RY_9 V (no_index (Proc.devRef .tc main_v189)) = Cert.ReferenceIdeal.Read.val_main_v189 (F := F) (V (Proc.devRef .tc main_arg3)) := by
  rw [RY_9_def]
  generalize hY : RY_8 V = Y
  after_results_mx
  try after_results_mx
  try after_results_mx
  subst hY
  simp (disch := decide) only [rkeep_8, rkeep_7, rkeep_6, rkeep_5, rkeep_4, rkeep_3, rkeep_2, rkeep_1, rkeep_0, ry_main_v164, ry_main_v187] <;> rfl

theorem ry_main_v209 (V : Valuation τ sig (Elt F)) :
    RY_9 V (no_index (Proc.devRef .tc main_v209)) = Cert.ReferenceIdeal.Read.val_main_v209 (F := F) (V (Proc.devRef .tc main_arg3)) := by
  rw [RY_9_def]
  generalize hY : RY_8 V = Y
  after_results_mx
  unfold Cert.ReferenceIdeal.Read.val_main_v209
  refine concat3_congr _ _ _ _ _ _ _ ?_ ?_ ?_
  all_goals (try simp only [vecTail_cons_rfl, Matrix.head_cons])
  all_goals (try after_results_mx)
  all_goals (try after_results_mx)
  all_goals (subst hY)
  all_goals (try simp (disch := decide) only [rkeep_8, rkeep_7, rkeep_6, rkeep_5, rkeep_4, rkeep_3, rkeep_2, rkeep_1, rkeep_0, ry_main_v159, ry_main_v161, ry_main_v163])
  all_goals (try rfl)

theorem ry_main_v211 (V : Valuation τ sig (Elt F)) :
    RY_10 V (no_index (Proc.devRef .tc main_v211)) = Cert.ReferenceIdeal.Read.val_main_v211 (F := F) (V (Proc.devRef .tc main_arg1)) (V (Proc.devRef .tc main_arg3)) := by
  rw [RY_10_def]
  generalize hY : RY_9 V = Y
  after_results_mx
  try after_results_mx
  try after_results_mx
  subst hY
  simp (disch := decide) only [rkeep_9, rkeep_8, rkeep_7, rkeep_6, rkeep_5, rkeep_4, rkeep_3, rkeep_2, rkeep_1, rkeep_0, ry_main_v140, ry_main_v209] <;> rfl

theorem ry_main_v224 (V : Valuation τ sig (Elt F)) :
    RY_10 V (no_index (Proc.devRef .tc main_v224)) = Cert.ReferenceIdeal.Read.val_main_v224 (F := F) (V (Proc.devRef .tc main_arg3)) := by
  rw [RY_10_def]
  generalize hY : RY_9 V = Y
  after_results_mx
  unfold Cert.ReferenceIdeal.Read.val_main_v224
  refine concat4_congr _ _ _ _ _ _ _ _ ?_ ?_ ?_ ?_
  all_goals (try simp only [vecTail_cons_rfl, Matrix.head_cons])
  all_goals (try after_results_mx)
  all_goals (try after_results_mx)
  all_goals (subst hY)
  all_goals (try simp (disch := decide) only [rkeep_9, rkeep_8, rkeep_7, rkeep_6, rkeep_5, rkeep_4, rkeep_3, rkeep_2, rkeep_1, rkeep_0, ry_main_v145, ry_main_v149, ry_main_v153, ry_main_v157, ry_main_v159, ry_main_v161])
  all_goals (try rfl)

theorem ry_main_v230 (V : Valuation τ sig (Elt F)) :
    RY_11 V (no_index (Proc.devRef .tc main_v230)) = Cert.ReferenceIdeal.Read.val_main_v230 (F := F) (V (Proc.devRef .tc main_arg1)) (V (Proc.devRef .tc main_arg3)) := by
  rw [RY_11_def]
  generalize hY : RY_10 V = Y
  after_results_mx
  try after_results_mx
  try after_results_mx
  subst hY
  simp (disch := decide) only [rkeep_10, rkeep_9, rkeep_8, rkeep_7, rkeep_6, rkeep_5, rkeep_4, rkeep_3, rkeep_2, rkeep_1, rkeep_0, ry_main_v211, ry_main_v224] <;> rfl

theorem ry_main_v250 (V : Valuation τ sig (Elt F)) :
    RY_11 V (no_index (Proc.devRef .tc main_v250)) = Cert.ReferenceIdeal.Read.val_main_v250 (F := F) (V (Proc.devRef .tc main_arg3)) := by
  rw [RY_11_def]
  generalize hY : RY_10 V = Y
  after_results_mx
  unfold Cert.ReferenceIdeal.Read.val_main_v250
  refine concat3_congr _ _ _ _ _ _ _ ?_ ?_ ?_
  all_goals (try simp only [vecTail_cons_rfl, Matrix.head_cons])
  all_goals (try after_results_mx)
  all_goals (try after_results_mx)
  all_goals (subst hY)
  all_goals (try simp (disch := decide) only [rkeep_10, rkeep_9, rkeep_8, rkeep_7, rkeep_6, rkeep_5, rkeep_4, rkeep_3, rkeep_2, rkeep_1, rkeep_0, ry_main_v159, ry_main_v161, ry_main_v163])
  all_goals (try rfl)

theorem ry_main_v259 (V : Valuation τ sig (Elt F)) :
    RY_12 V (no_index (Proc.devRef .tc main_v259)) = Cert.ReferenceIdeal.Read.val_main_v259 (F := F) (V (Proc.devRef .tc main_arg1)) (V (Proc.devRef .tc main_arg3)) (V (Proc.devRef .tc main_arg4)) := by
  rw [RY_12_def]
  generalize hY : RY_11 V = Y
  after_results_mx
  try after_results_mx
  try after_results_mx
  subst hY
  simp (disch := decide) only [rkeep_11, rkeep_10, rkeep_9, rkeep_8, rkeep_7, rkeep_6, rkeep_5, rkeep_4, rkeep_3, rkeep_2, rkeep_1, rkeep_0, ry_main_v141, ry_main_v250] <;> rfl

theorem ry_main_v266 (V : Valuation τ sig (Elt F)) :
    RY_12 V (no_index (Proc.devRef .tc main_v266)) = Cert.ReferenceIdeal.Read.val_main_v266 (F := F) (V (Proc.devRef .tc main_arg1)) := by
  rw [RY_12_def]
  generalize hY : RY_11 V = Y
  after_results_mx
  try after_results_mx
  try after_results_mx
  subst hY
  simp (disch := decide) only [rkeep_11, rkeep_10, rkeep_9, rkeep_8, rkeep_7, rkeep_6, rkeep_5, rkeep_4, rkeep_3, rkeep_2, rkeep_1, rkeep_0, ry_main_v140] <;> rfl

theorem ry_main_v275 (V : Valuation τ sig (Elt F)) :
    RY_13 V (no_index (Proc.devRef .tc main_v275)) = Cert.ReferenceIdeal.Read.val_main_v275 (F := F) (V (Proc.devRef .tc main_arg0)) (V (Proc.devRef .tc main_arg1)) (V (Proc.devRef .tc main_arg3)) := by
  rw [RY_13_def]
  generalize hY : RY_12 V = Y
  after_results_mx
  try after_results_mx
  try after_results_mx
  subst hY
  simp (disch := decide) only [rkeep_12, rkeep_11, rkeep_10, rkeep_9, rkeep_8, rkeep_7, rkeep_6, rkeep_5, rkeep_4, rkeep_3, rkeep_2, rkeep_1, rkeep_0, ry_main_v136, ry_main_v230] <;> rfl

theorem ry_main_v276 (V : Valuation τ sig (Elt F)) :
    RY_13 V (no_index (Proc.devRef .tc main_v276)) = Cert.ReferenceIdeal.Read.val_main_v276 (F := F) (V (Proc.devRef .tc main_arg0)) (V (Proc.devRef .tc main_arg1)) (V (Proc.devRef .tc main_arg3)) := by
  rw [RY_13_def]
  generalize hY : RY_12 V = Y
  after_results_mx
  try after_results_mx
  try after_results_mx
  subst hY
  simp (disch := decide) only [rkeep_12, rkeep_11, rkeep_10, rkeep_9, rkeep_8, rkeep_7, rkeep_6, rkeep_5, rkeep_4, rkeep_3, rkeep_2, rkeep_1, rkeep_0, ry_main_v137, ry_main_v189, ry_main_v266] <;> rfl

theorem ry_main_v277 (V : Valuation τ sig (Elt F)) :
    RY_13 V (no_index (Proc.devRef .tc main_v277)) = Cert.ReferenceIdeal.Read.val_main_v277 (F := F) (V (Proc.devRef .tc main_arg0)) (V (Proc.devRef .tc main_arg1)) (V (Proc.devRef .tc main_arg3)) (V (Proc.devRef .tc main_arg4)) := by
  rw [RY_13_def]
  generalize hY : RY_12 V = Y
  after_results_mx
  try after_results_mx
  try after_results_mx
  subst hY
  simp (disch := decide) only [rkeep_12, rkeep_11, rkeep_10, rkeep_9, rkeep_8, rkeep_7, rkeep_6, rkeep_5, rkeep_4, rkeep_3, rkeep_2, rkeep_1, rkeep_0, ry_main_v138, ry_main_v259] <;> rfl

theorem ry_main_v278 (V : Valuation τ sig (Elt F)) :
    RY_13 V (no_index (Proc.devRef .tc main_v278)) = Cert.ReferenceIdeal.Read.val_main_v278 (F := F) (V (Proc.devRef .tc main_arg2)) := by
  rw [RY_13_def]
  generalize hY : RY_12 V = Y
  after_results_mx
  try after_results_mx
  try after_results_mx
  subst hY
  simp (disch := decide) only [rkeep_12, rkeep_11, rkeep_10, rkeep_9, rkeep_8, rkeep_7, rkeep_6, rkeep_5, rkeep_4, rkeep_3, rkeep_2, rkeep_1, rkeep_0] <;> rfl

end Cert.ReferenceIdeal.Seg

end
-- ==== Proof.RFacts3.lean ====
/- Written by: bun scratch/gen_rsegs.js (run from the unit directory; it reads scratch/RefRun_generated.lean, a verbatim copy of the
   generated run module of the reference program, and proof/Proof/RefReadP.lean).
   The reference program's run read back, part 3 of 5: for each buffer a later stretch of operations reads (and for @main's result),
   its contents after the stretch that writes it are the stage value of that name — the operation's function of its
   operands' stage values, as a function of @main's arguments. -/
import proofs.«153486_j83854941487213_2_alg».proof.Proof.RSegs
import proofs.«153486_j83854941487213_2_alg».proof.Proof.RefReadP
import proofs.«153486_j83854941487213_2_alg».proof.Proof.RFacts2

set_option maxRecDepth 16384

noncomputable section

namespace Cert.ReferenceIdeal.Seg

open Cert.ReferenceIdeal Cert.ReferenceIdeal.Gen Idealize.ShloMosaic Idealize.ShloMosaic.TcCoe Idealize.SL.Sem Idealize.ShloMosaic.StableHlo

variable {F : FTy → Type} [FloatOps F]

theorem ry_main_v279 (V : Valuation τ sig (Elt F)) :
    RY_14 V (no_index (Proc.devRef .tc main_v279)) = Cert.ReferenceIdeal.Read.val_main_v279 (F := F) (V (Proc.devRef .tc main_arg2)) := by
  rw [RY_14_def]
  generalize hY : RY_13 V = Y
  after_results_mx
  try after_results_mx
  try after_results_mx
  subst hY
  simp (disch := decide) only [rkeep_13, rkeep_12, rkeep_11, rkeep_10, rkeep_9, rkeep_8, rkeep_7, rkeep_6, rkeep_5, rkeep_4, rkeep_3, rkeep_2, rkeep_1, rkeep_0, ry_main_v278] <;> rfl

theorem ry_main_v280 (V : Valuation τ sig (Elt F)) :
    RY_14 V (no_index (Proc.devRef .tc main_v280)) = Cert.ReferenceIdeal.Read.val_main_v280 (F := F) (V (Proc.devRef .tc main_arg2)) := by
  rw [RY_14_def]
  generalize hY : RY_13 V = Y
  after_results_mx
  try after_results_mx
  try after_results_mx
  subst hY
  simp (disch := decide) only [rkeep_13, rkeep_12, rkeep_11, rkeep_10, rkeep_9, rkeep_8, rkeep_7, rkeep_6, rkeep_5, rkeep_4, rkeep_3, rkeep_2, rkeep_1, rkeep_0, ry_main_v278] <;> rfl

theorem ry_main_v284 (V : Valuation τ sig (Elt F)) :
    RY_14 V (no_index (Proc.devRef .tc main_v284)) = Cert.ReferenceIdeal.Read.val_main_v284 (F := F) (V (Proc.devRef .tc main_arg3)) := by
  rw [RY_14_def]
  generalize hY : RY_13 V = Y
  after_results_mx
  try after_results_mx
  try after_results_mx
  subst hY
  simp (disch := decide) only [rkeep_13, rkeep_12, rkeep_11, rkeep_10, rkeep_9, rkeep_8, rkeep_7, rkeep_6, rkeep_5, rkeep_4, rkeep_3, rkeep_2, rkeep_1, rkeep_0] <;> rfl

theorem ry_main_v288 (V : Valuation τ sig (Elt F)) :
    RY_14 V (no_index (Proc.devRef .tc main_v288)) = Cert.ReferenceIdeal.Read.val_main_v288 (F := F) (V (Proc.devRef .tc main_arg3)) := by
  rw [RY_14_def]
  generalize hY : RY_13 V = Y
  after_results_mx
  try after_results_mx
  try after_results_mx
  subst hY
  simp (disch := decide) only [rkeep_13, rkeep_12, rkeep_11, rkeep_10, rkeep_9, rkeep_8, rkeep_7, rkeep_6, rkeep_5, rkeep_4, rkeep_3, rkeep_2, rkeep_1, rkeep_0] <;> rfl

theorem ry_main_v292 (V : Valuation τ sig (Elt F)) :
    RY_14 V (no_index (Proc.devRef .tc main_v292)) = Cert.ReferenceIdeal.Read.val_main_v292 (F := F) (V (Proc.devRef .tc main_arg3)) := by
  rw [RY_14_def]
  generalize hY : RY_13 V = Y
  after_results_mx
  try after_results_mx
  try after_results_mx
  subst hY
  simp (disch := decide) only [rkeep_13, rkeep_12, rkeep_11, rkeep_10, rkeep_9, rkeep_8, rkeep_7, rkeep_6, rkeep_5, rkeep_4, rkeep_3, rkeep_2, rkeep_1, rkeep_0] <;> rfl

theorem ry_main_v296 (V : Valuation τ sig (Elt F)) :
    RY_14 V (no_index (Proc.devRef .tc main_v296)) = Cert.ReferenceIdeal.Read.val_main_v296 (F := F) (V (Proc.devRef .tc main_arg3)) := by
  rw [RY_14_def]
  generalize hY : RY_13 V = Y
  after_results_mx
  try after_results_mx
  try after_results_mx
  subst hY
  simp (disch := decide) only [rkeep_13, rkeep_12, rkeep_11, rkeep_10, rkeep_9, rkeep_8, rkeep_7, rkeep_6, rkeep_5, rkeep_4, rkeep_3, rkeep_2, rkeep_1, rkeep_0] <;> rfl

theorem ry_main_v298 (V : Valuation τ sig (Elt F)) :
    RY_14 V (no_index (Proc.devRef .tc main_v298)) = Cert.ReferenceIdeal.Read.val_main_v298 (F := F) (V (Proc.devRef .tc main_arg3)) := by
  rw [RY_14_def]
  generalize hY : RY_13 V = Y
  after_results_mx
  try after_results_mx
  try after_results_mx
  subst hY
  simp (disch := decide) only [rkeep_13, rkeep_12, rkeep_11, rkeep_10, rkeep_9, rkeep_8, rkeep_7, rkeep_6, rkeep_5, rkeep_4, rkeep_3, rkeep_2, rkeep_1, rkeep_0] <;> rfl

theorem ry_main_v300 (V : Valuation τ sig (Elt F)) :
    RY_14 V (no_index (Proc.devRef .tc main_v300)) = Cert.ReferenceIdeal.Read.val_main_v300 (F := F) (V (Proc.devRef .tc main_arg3)) := by
  rw [RY_14_def]
  generalize hY : RY_13 V = Y
  after_results_mx
  try after_results_mx
  try after_results_mx
  subst hY
  simp (disch := decide) only [rkeep_13, rkeep_12, rkeep_11, rkeep_10, rkeep_9, rkeep_8, rkeep_7, rkeep_6, rkeep_5, rkeep_4, rkeep_3, rkeep_2, rkeep_1, rkeep_0] <;> rfl

theorem ry_main_v302 (V : Valuation τ sig (Elt F)) :
    RY_15 V (no_index (Proc.devRef .tc main_v302)) = Cert.ReferenceIdeal.Read.val_main_v302 (F := F) := by
  rw [RY_15_def]
  generalize hY : RY_14 V = Y
  after_results_mx
  try after_results_mx
  try after_results_mx
  subst hY
  rfl

theorem ry_main_v303 (V : Valuation τ sig (Elt F)) :
    RY_15 V (no_index (Proc.devRef .tc main_v303)) = Cert.ReferenceIdeal.Read.val_main_v303 (F := F) := by
  rw [RY_15_def]
  generalize hY : RY_14 V = Y
  after_results_mx
  try after_results_mx
  try after_results_mx
  subst hY
  rfl

theorem ry_main_v326 (V : Valuation τ sig (Elt F)) :
    RY_15 V (no_index (Proc.devRef .tc main_v326)) = Cert.ReferenceIdeal.Read.val_main_v326 (F := F) (V (Proc.devRef .tc main_arg3)) := by
  rw [RY_15_def]
  generalize hY : RY_14 V = Y
  after_results_mx
  unfold Cert.ReferenceIdeal.Read.val_main_v326
  refine concat4_congr _ _ _ _ _ _ _ _ ?_ ?_ ?_ ?_
  all_goals (try simp only [vecTail_cons_rfl, Matrix.head_cons])
  all_goals (try after_results_mx)
  all_goals (try after_results_mx)
  all_goals (subst hY)
  all_goals (try simp (disch := decide) only [rkeep_14, rkeep_13, rkeep_12, rkeep_11, rkeep_10, rkeep_9, rkeep_8, rkeep_7, rkeep_6, rkeep_5, rkeep_4, rkeep_3, rkeep_2, rkeep_1, rkeep_0, ry_main_v298, ry_main_v300])
  all_goals (try rfl)

theorem ry_main_v328 (V : Valuation τ sig (Elt F)) :
    RY_16 V (no_index (Proc.devRef .tc main_v328)) = Cert.ReferenceIdeal.Read.val_main_v328 (F := F) (V (Proc.devRef .tc main_arg3)) := by
  rw [RY_16_def]
  generalize hY : RY_15 V = Y
  after_results_mx
  try after_results_mx
  try after_results_mx
  subst hY
  simp (disch := decide) only [rkeep_15, rkeep_14, rkeep_13, rkeep_12, rkeep_11, rkeep_10, rkeep_9, rkeep_8, rkeep_7, rkeep_6, rkeep_5, rkeep_4, rkeep_3, rkeep_2, rkeep_1, rkeep_0, ry_main_v303, ry_main_v326] <;> rfl

theorem ry_main_v348 (V : Valuation τ sig (Elt F)) :
    RY_16 V (no_index (Proc.devRef .tc main_v348)) = Cert.ReferenceIdeal.Read.val_main_v348 (F := F) (V (Proc.devRef .tc main_arg3)) := by
  rw [RY_16_def]
  generalize hY : RY_15 V = Y
  after_results_mx
  unfold Cert.ReferenceIdeal.Read.val_main_v348
  refine concat3_congr _ _ _ _ _ _ _ ?_ ?_ ?_
  all_goals (try simp only [vecTail_cons_rfl, Matrix.head_cons])
  all_goals (try after_results_mx)
  all_goals (try after_results_mx)
  all_goals (subst hY)
  all_goals (try simp (disch := decide) only [rkeep_15, rkeep_14, rkeep_13, rkeep_12, rkeep_11, rkeep_10, rkeep_9, rkeep_8, rkeep_7, rkeep_6, rkeep_5, rkeep_4, rkeep_3, rkeep_2, rkeep_1, rkeep_0, ry_main_v298, ry_main_v300, ry_main_v302])
  all_goals (try rfl)

theorem ry_main_v350 (V : Valuation τ sig (Elt F)) :
    RY_17 V (no_index (Proc.devRef .tc main_v350)) = Cert.ReferenceIdeal.Read.val_main_v350 (F := F) (V (Proc.devRef .tc main_arg2)) (V (Proc.devRef .tc main_arg3)) := by
  rw [RY_17_def]
  generalize hY : RY_16 V = Y
  after_results_mx
  try after_results_mx
  try after_results_mx
  subst hY
  simp (disch := decide) only [rkeep_16, rkeep_15, rkeep_14, rkeep_13, rkeep_12, rkeep_11, rkeep_10, rkeep_9, rkeep_8, rkeep_7, rkeep_6, rkeep_5, rkeep_4, rkeep_3, rkeep_2, rkeep_1, rkeep_0, ry_main_v279, ry_main_v348] <;> rfl

theorem ry_main_v363 (V : Valuation τ sig (Elt F)) :
    RY_17 V (no_index (Proc.devRef .tc main_v363)) = Cert.ReferenceIdeal.Read.val_main_v363 (F := F) (V (Proc.devRef .tc main_arg3)) := by
  rw [RY_17_def]
  generalize hY : RY_16 V = Y
  after_results_mx
  unfold Cert.ReferenceIdeal.Read.val_main_v363
  refine concat4_congr _ _ _ _ _ _ _ _ ?_ ?_ ?_ ?_
  all_goals (try simp only [vecTail_cons_rfl, Matrix.head_cons])
  all_goals (try after_results_mx)
  all_goals (try after_results_mx)
  all_goals (subst hY)
  all_goals (try simp (disch := decide) only [rkeep_16, rkeep_15, rkeep_14, rkeep_13, rkeep_12, rkeep_11, rkeep_10, rkeep_9, rkeep_8, rkeep_7, rkeep_6, rkeep_5, rkeep_4, rkeep_3, rkeep_2, rkeep_1, rkeep_0, ry_main_v284, ry_main_v288, ry_main_v292, ry_main_v296, ry_main_v298, ry_main_v300])
  all_goals (try rfl)

theorem ry_main_v369 (V : Valuation τ sig (Elt F)) :
    RY_18 V (no_index (Proc.devRef .tc main_v369)) = Cert.ReferenceIdeal.Read.val_main_v369 (F := F) (V (Proc.devRef .tc main_arg2)) (V (Proc.devRef .tc main_arg3)) := by
  rw [RY_18_def]
  generalize hY : RY_17 V = Y
  after_results_mx
  try after_results_mx
  try after_results_mx
  subst hY
  simp (disch := decide) only [rkeep_17, rkeep_16, rkeep_15, rkeep_14, rkeep_13, rkeep_12, rkeep_11, rkeep_10, rkeep_9, rkeep_8, rkeep_7, rkeep_6, rkeep_5, rkeep_4, rkeep_3, rkeep_2, rkeep_1, rkeep_0, ry_main_v350, ry_main_v363] <;> rfl

end Cert.ReferenceIdeal.Seg

end
-- ==== Proof.RFacts4.lean ====
/- Written by: bun scratch/gen_rsegs.js (run from the unit directory; it reads scratch/RefRun_generated.lean, a verbatim copy of the
   generated run module of the reference program, and proof/Proof/RefReadP.lean).
   The reference program's run read back, part 4 of 5: for each buffer a later stretch of operations reads (and for @main's result),
   its contents after the stretch that writes it are the stage value of that name — the operation's function of its
   operands' stage values, as a function of @main's arguments. -/
import proofs.«153486_j83854941487213_2_alg».proof.Proof.RSegs
import proofs.«153486_j83854941487213_2_alg».proof.Proof.RefReadP
import proofs.«153486_j83854941487213_2_alg».proof.Proof.RFacts3

set_option maxRecDepth 16384

noncomputable section

namespace Cert.ReferenceIdeal.Seg

open Cert.ReferenceIdeal Cert.ReferenceIdeal.Gen Idealize.ShloMosaic Idealize.ShloMosaic.TcCoe Idealize.SL.Sem Idealize.ShloMosaic.StableHlo

variable {F : FTy → Type} [FloatOps F]

theorem ry_main_v389 (V : Valuation τ sig (Elt F)) :
    RY_18 V (no_index (Proc.devRef .tc main_v389)) = Cert.ReferenceIdeal.Read.val_main_v389 (F := F) (V (Proc.devRef .tc main_arg3)) := by
  rw [RY_18_def]
  generalize hY : RY_17 V = Y
  after_results_mx
  unfold Cert.ReferenceIdeal.Read.val_main_v389
  refine concat3_congr _ _ _ _ _ _ _ ?_ ?_ ?_
  all_goals (try simp only [vecTail_cons_rfl, Matrix.head_cons])
  all_goals (try after_results_mx)
  all_goals (try after_results_mx)
  all_goals (subst hY)
  all_goals (try simp (disch := decide) only [rkeep_17, rkeep_16, rkeep_15, rkeep_14, rkeep_13, rkeep_12, rkeep_11, rkeep_10, rkeep_9, rkeep_8, rkeep_7, rkeep_6, rkeep_5, rkeep_4, rkeep_3, rkeep_2, rkeep_1, rkeep_0, ry_main_v298, ry_main_v300, ry_main_v302])
  all_goals (try rfl)

theorem ry_main_v398 (V : Valuation τ sig (Elt F)) :
    RY_19 V (no_index (Proc.devRef .tc main_v398)) = Cert.ReferenceIdeal.Read.val_main_v398 (F := F) (V (Proc.devRef .tc main_arg2)) (V (Proc.devRef .tc main_arg3)) (V (Proc.devRef .tc main_arg4)) := by
  rw [RY_19_def]
  generalize hY : RY_18 V = Y
  after_results_mx
  try after_results_mx
  try after_results_mx
  subst hY
  simp (disch := decide) only [rkeep_18, rkeep_17, rkeep_16, rkeep_15, rkeep_14, rkeep_13, rkeep_12, rkeep_11, rkeep_10, rkeep_9, rkeep_8, rkeep_7, rkeep_6, rkeep_5, rkeep_4, rkeep_3, rkeep_2, rkeep_1, rkeep_0, ry_main_v280, ry_main_v389] <;> rfl

theorem ry_main_v405 (V : Valuation τ sig (Elt F)) :
    RY_19 V (no_index (Proc.devRef .tc main_v405)) = Cert.ReferenceIdeal.Read.val_main_v405 (F := F) (V (Proc.devRef .tc main_arg2)) := by
  rw [RY_19_def]
  generalize hY : RY_18 V = Y
  after_results_mx
  try after_results_mx
  try after_results_mx
  subst hY
  simp (disch := decide) only [rkeep_18, rkeep_17, rkeep_16, rkeep_15, rkeep_14, rkeep_13, rkeep_12, rkeep_11, rkeep_10, rkeep_9, rkeep_8, rkeep_7, rkeep_6, rkeep_5, rkeep_4, rkeep_3, rkeep_2, rkeep_1, rkeep_0, ry_main_v279] <;> rfl

theorem ry_main_v424 (V : Valuation τ sig (Elt F)) :
    RY_20 V (no_index (Proc.devRef .tc main_v424)) = Cert.ReferenceIdeal.Read.val_main_v424 (F := F) (V (Proc.devRef .tc main_arg0)) (V (Proc.devRef .tc main_arg1)) (V (Proc.devRef .tc main_arg2)) (V (Proc.devRef .tc main_arg3)) (V (Proc.devRef .tc main_arg4)) := by
  rw [RY_20_def]
  generalize hY : RY_19 V = Y
  after_results_mx
  try after_results_mx
  try after_results_mx
  subst hY
  simp (disch := decide) only [rkeep_19, rkeep_18, rkeep_17, rkeep_16, rkeep_15, rkeep_14, rkeep_13, rkeep_12, rkeep_11, rkeep_10, rkeep_9, rkeep_8, rkeep_7, rkeep_6, rkeep_5, rkeep_4, rkeep_3, rkeep_2, rkeep_1, rkeep_0, ry_main_v275, ry_main_v276, ry_main_v277, ry_main_v328, ry_main_v369, ry_main_v398, ry_main_v405] <;> rfl

end Cert.ReferenceIdeal.Seg

end
-- ==== Proof.RRun.lean ====
/- Written by: bun scratch/gen_rsegs.js (run from the unit directory; it reads scratch/RefRun_generated.lean, a verbatim copy of the
   generated run module of the reference program, and proof/Proof/RefReadP.lean).
   The reference program's run: every weakly fair execution of @main terminates with its result buffer at the stage
   value of that name of the arguments' launch contents, and the arguments unchanged. -/
import proofs.«153486_j83854941487213_2_alg».proof.Proof.RFacts4

set_option maxRecDepth 16384

noncomputable section

namespace Cert.ReferenceIdeal.Seg

open Cert.ReferenceIdeal Cert.ReferenceIdeal.Gen Idealize.ShloMosaic Idealize.ShloMosaic.TcCoe Idealize.SL.Sem Idealize.ShloMosaic.StableHlo

variable {F : FTy → Type} [FloatOps F]

theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v424) = Cert.ReferenceIdeal.Read.val_main_v424 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v424).trans ((ry_main_v424 (launchContents m c)).trans rfl),
      (h c main_arg0).trans ((rkeep_all (launchContents m c) main_arg0 (by decide) (by decide) (by decide) (by decide) (by decide) (by decide) (by decide) (by decide) (by decide) (by decide) (by decide) (by decide) (by decide) (by decide) (by decide) (by decide) (by decide) (by decide) (by decide) (by decide) (by decide)).trans rfl),
      (h c main_arg1).trans ((rkeep_all (launchContents m c) main_arg1 (by decide) (by decide) (by decide) (by decide) (by decide) (by decide) (by decide) (by decide) (by decide) (by decide) (by decide) (by decide) (by decide) (by decide) (by decide) (by decide) (by decide) (by decide) (by decide) (by decide) (by decide)).trans rfl),
      (h c main_arg2).trans ((rkeep_all (launchContents m c) main_arg2 (by decide) (by decide) (by decide) (by decide) (by decide) (by decide) (by decide) (by decide) (by decide) (by decide) (by decide) (by decide) (by decide) (by decide) (by decide) (by decide) (by decide) (by decide) (by decide) (by decide) (by decide)).trans rfl),
      (h c main_arg3).trans ((rkeep_all (launchContents m c) main_arg3 (by decide) (by decide) (by decide) (by decide) (by decide) (by decide) (by decide) (by decide) (by decide) (by decide) (by decide) (by decide) (by decide) (by decide) (by decide) (by decide) (by decide) (by decide) (by decide) (by decide) (by decide)).trans rfl),
      (h c main_arg4).trans ((rkeep_all (launchContents m c) main_arg4 (by decide) (by decide) (by decide) (by decide) (by decide) (by decide) (by decide) (by decide) (by decide) (by decide) (by decide) (by decide) (by decide) (by decide) (by decide) (by decide) (by decide) (by decide) (by decide) (by decide) (by decide)).trans rfl)⟩)
    (run_all m ρ)

end Cert.ReferenceIdeal.Seg

end
-- ==== Proof.lean ====
/- The proof of `Cert.Claim`.

   The program is a three-scale detection objective. From three prediction maps (16 × 144 × s × s for s = 80, 40, 20),
   32 target boxes per image and their classes it returns one scalar:
   7.5 · (box loss / 3) + 1 · (objectness loss / 3) + 0.5 · (class loss / 3).
   In the kernel's program the host operations compute, per scale, each target's grid cell, the objectness target map
   scattered at those cells, the predictions gathered at them, and the box and class sums; the one region computes the
   objectness term: per scale the mean of the four box channels through the logistic function, minus the target map,
   squared, summed and scaled by the reciprocal of the element count, the three scales added and stored into a one-cell
   buffer. The reference program computes all three terms by host operations.

   What joins the two sides: the frames (the five argument arrays end as launched, in all three programs); the region's
   store read back as its payload of the six whole arrays the host prefix hands it (the grid has one point and every
   block is its whole array); the two host prefixes stage by stage — the gathered cells are the same arrays, the
   scattered targets the same —; the objectness sums, equal by reindexing the sums and by S · (1/N) = S / N at the ideal
   instance, the logistic being one function on both sides; and the closing weighted sum, the same three operations on
   both sides. The idealization ledger is the three named constants 1/102400, 1/25600 and 1/6400. -/
import proofs.«153486_j83854941487213_2_alg».proof.Defs
import proofs.«153486_j83854941487213_2_alg».proof.Proof.Assemble
import proofs.«153486_j83854941487213_2_alg».proof.Proof.KFacts2
import proofs.«153486_j83854941487213_2_alg».proof.Proof.RRun

noncomputable section

namespace Cert.Proof

open Idealize.ShloMosaic Idealize.SL.Sem

theorem claim : Cert.Claim :=
  Asm.claim_of Cert.KernelIdeal.Seg.k_lbox Cert.KernelIdeal.Seg.k_lcls Cert.KernelIdeal.Seg.k_lobj
    (fun m ρ => Cert.ReferenceIdeal.Seg.run_value (F := Ideal) m ρ)

end Cert.Proof

end
